-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S2x6400000 : Shape := ⟨2, ![2, 6400000]⟩
abbrev S6400000x3 : Shape := ⟨2, ![6400000, 3]⟩
abbrev S100000x3 : Shape := ⟨2, ![100000, 3]⟩
abbrev S32x4 : Shape := ⟨2, ![32, 4]⟩
abbrev S32 : Shape := ⟨1, ![32]⟩
abbrev S32x32 : Shape := ⟨2, ![32, 32]⟩
abbrev S1x32 : Shape := ⟨2, ![1, 32]⟩
abbrev S1 : Shape := ⟨1, ![1]⟩
abbrev S_ : Shape := ⟨0, ![]⟩

class Facts : Prop where
  bcast_S_S6400000x3 : S_.BroadcastsInDim S6400000x3 (![] : Fin 0 → Fin S6400000x3.rank)
  reducesTo_S6400000x3_S_d0_1 : S6400000x3.ReducesTo [0, 1] S_
  h_S_ : 0 < S_.numel
  bcast_S_S100000x3 : S_.BroadcastsInDim S100000x3 (![] : Fin 0 → Fin S100000x3.rank)
  reducesTo_S100000x3_S_d0_1 : S100000x3.ReducesTo [0, 1] S_
  bcast_S_S32x4 : S_.BroadcastsInDim S32x4 (![] : Fin 0 → Fin S32x4.rank)
  reducesTo_S32x4_S_d0_1 : S32x4.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_
  bcast_S_S2x6400000 : S_.BroadcastsInDim S2x6400000 (![] : Fin 0 → Fin S2x6400000.rank)
  reducesTo_S2x6400000_S_d0_1 : S2x6400000.ReducesTo [0, 1] S_

variable [Facts]

def fn_part2 {F : FTy → Type} [FloatOps F] (main_arg0 : IVec S2x6400000 32) (main_arg8 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_c_14 : IVec S_ 32 := constantI S_ 32 0#32
  let main_v39 : IVec S2x6400000 32 := broadcastInDim S2x6400000 ![] bcast_S_S2x6400000 main_c_14
  let main_v40 : IVec S2x6400000 1 := cmpi .sge main_arg0 main_v39
  let main_c_15 : IVec S_ 32 := constantI S_ 32 99999#32
  let main_v41 : IVec S2x6400000 32 := broadcastInDim S2x6400000 ![] bcast_S_S2x6400000 main_c_15
  let main_v42 : IVec S2x6400000 1 := cmpi .sle main_arg0 main_v41
  let main_v43 : IVec S2x6400000 1 := andi main_v40 main_v42
  let main_c_16 : IVec S_ 1 := constantI S_ 1 1#1
  let main_v44 : IVec S_ 1 := (fun x v => Host.reduce IntOp.andi x v reducesTo_S2x6400000_S_d0_1 h_S_) main_v43 main_c_16
  let main_v45 : IVec S_ 1 := andi main_v38 main_v44
  main_v45

def fn_part1 {F : FTy → Type} [FloatOps F] (main_arg0 : IVec S2x6400000 32) (main_arg5 : FVec F S32x32 .f32) (main_arg6 : FVec F S32 .f32) (main_arg7 : FVec F S1x32 .f32) (main_arg8 : FVec F S1 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg5
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S1x32 .f32 := Host.absf main_arg7
  let main_cst_10 : FVec F S_ .f32 := constant S_ .f32 0x7F800000#32
  let main_v30 : FVec F S1x32 .f32 := broadcastInDim S1x32 ![] bcast_S_S1x32 main_cst_10
  let main_v31 : IVec S1x32 1 := cmpf .olt main_v29 main_v30
  let main_c_11 : IVec S_ 1 := constantI S_ 1 1#1
  let main_v32 : IVec S_ 1 := (fun x v => Host.reduce IntOp.andi x v reducesTo_S1x32_S_d0_1 h_S_) main_v31 main_c_11
  let main_v33 : IVec S_ 1 := andi main_v28 main_v32
  fn_part2 (F := F) main_arg0 main_arg8 main_v33

def fn {F : FTy → Type} [FloatOps F] (main_arg0 : IVec S2x6400000 32) (main_arg1 : FVec F S6400000x3 .f32) (main_arg2 : FVec F S100000x3 .f32) (main_arg3 : FVec F S32x4 .f32) (main_arg4 : FVec F S32 .f32) (main_arg5 : FVec F S32x32 .f32) (main_arg6 : FVec F S32 .f32) (main_arg7 : FVec F S1x32 .f32) (main_arg8 : FVec F S1 .f32) : IVec S_ 1 :=
  let main_v0 : FVec F S6400000x3 .f32 := Host.absf main_arg1
  let main_cst : FVec F S_ .f32 := constant S_ .f32 0x7F800000#32
  let main_v1 : FVec F S6400000x3 .f32 := broadcastInDim S6400000x3 ![] bcast_S_S6400000x3 main_cst
  let main_v2 : IVec S6400000x3 1 := cmpf .olt main_v0 main_v1
  let main_c : IVec S_ 1 := constantI S_ 1 1#1
  let main_v3 : IVec S_ 1 := (fun x v => Host.reduce IntOp.andi x v reducesTo_S6400000x3_S_d0_1 h_S_) main_v2 main_c
  let main_v4 : FVec F S100000x3 .f32 := Host.absf main_arg2
  let main_cst_0 : FVec F S_ .f32 := constant S_ .f32 0x7F800000#32
  let main_v5 : FVec F S100000x3 .f32 := broadcastInDim S100000x3 ![] bcast_S_S100000x3 main_cst_0
  let main_v6 : IVec S100000x3 1 := cmpf .olt main_v4 main_v5
  let main_c_1 : IVec S_ 1 := constantI S_ 1 1#1
  let main_v7 : IVec S_ 1 := (fun x v => Host.reduce IntOp.andi x v reducesTo_S100000x3_S_d0_1 h_S_) main_v6 main_c_1
  let main_v8 : IVec S_ 1 := andi main_v3 main_v7
  let main_v9 : FVec F S32x4 .f32 := Host.absf main_arg3
  let main_cst_2 : FVec F S_ .f32 := constant S_ .f32 0x7F800000#32
  let main_v10 : FVec F S32x4 .f32 := broadcastInDim S32x4 ![] bcast_S_S32x4 main_cst_2
  let main_v11 : IVec S32x4 1 := cmpf .olt main_v9 main_v10
  let main_c_3 : IVec S_ 1 := constantI S_ 1 1#1
  let main_v12 : IVec S_ 1 := (fun x v => Host.reduce IntOp.andi x v reducesTo_S32x4_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg0 main_arg5 main_arg6 main_arg7 main_arg8 main_v13 main_v16
-- ==== Kernel.lean ====
abbrev S2x6400000 : Shape := ⟨2, ![2, 6400000]⟩
abbrev S6400000x3 : Shape := ⟨2, ![6400000, 3]⟩
abbrev S100000x3 : Shape := ⟨2, ![100000, 3]⟩
abbrev S32x4 : Shape := ⟨2, ![32, 4]⟩
abbrev S32 : Shape := ⟨1, ![32]⟩
abbrev S32x32 : Shape := ⟨2, ![32, 32]⟩
abbrev S1x32 : Shape := ⟨2, ![1, 32]⟩
abbrev S1 : Shape := ⟨1, ![1]⟩
abbrev S12800000 : Shape := ⟨1, ![12800000]⟩
abbrev S19200000 : Shape := ⟨1, ![19200000]⟩
abbrev S3x100000 : Shape := ⟨2, ![3, 100000]⟩
abbrev S300000 : Shape := ⟨1, ![300000]⟩
abbrev S6400000 : Shape := ⟨1, ![6400000]⟩
abbrev S100000 : Shape := ⟨1, ![100000]⟩
abbrev S8000 : Shape := ⟨1, ![8000]⟩
abbrev S_ : Shape := ⟨0, ![]⟩
abbrev S16 : Shape := ⟨1, ![16]⟩
abbrev S24000 : Shape := ⟨1, ![24000]⟩
abbrev S32x1 : Shape := ⟨2, ![32, 1]⟩
abbrev S1x1 : Shape := ⟨2, ![1, 1]⟩
abbrev S10240 : Shape := ⟨1, ![10240]⟩
abbrev S1x10240 : Shape := ⟨2, ![1, 10240]⟩
abbrev S32x10240 : Shape := ⟨2, ![32, 10240]⟩
abbrev S3200000 : Shape := ⟨1, ![3200000]⟩
abbrev S32x100000 : Shape := ⟨2, ![32, 100000]⟩
abbrev S1x100000 : Shape := ⟨2, ![1, 100000]⟩
abbrev S32x8192 : Shape := ⟨2, ![32, 8192]⟩
abbrev S1x8192 : Shape := ⟨2, ![1, 8192]⟩
abbrev S8x8192 : Shape := ⟨2, ![8, 8192]⟩
abbrev S8192 : Shape := ⟨1, ![8192]⟩
abbrev S100000x1 : Shape := ⟨2, ![100000, 1]⟩

abbrev nBuf : Table → Nat
  | .hbm => 27
  | .local .tc .vmem => 22
  | .local .scVector .vmem => 7
  | _ => 0

abbrev bufTy : (tb : Table) → Fin (nBuf tb) → BufTy
  | .hbm, ⟨0, _⟩ => ⟨S2x6400000, .i32⟩
  | .hbm, ⟨1, _⟩ => ⟨S6400000x3, .f32⟩
  | .hbm, ⟨2, _⟩ => ⟨S100000x3, .f32⟩
  | .hbm, ⟨3, _⟩ => ⟨S32x4, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S1x32, .f32⟩
  | .hbm, ⟨8, _⟩ => ⟨S1, .f32⟩
  | .hbm, ⟨9, _⟩ => ⟨S12800000, .i32⟩
  | .hbm, ⟨10, _⟩ => ⟨S19200000, .f32⟩
  | .hbm, ⟨11, _⟩ => ⟨S3x100000, .f32⟩
  | .hbm, ⟨12, _⟩ => ⟨S300000, .f32⟩
  | .hbm, ⟨13, _⟩ => ⟨S6400000, .f32⟩
  | .hbm, ⟨14, _⟩ => ⟨S6400000, .f32⟩
  | .hbm, ⟨15, _⟩ => ⟨S6400000, .f32⟩
  | .hbm, ⟨16, _⟩ => ⟨S6400000, .f32⟩
  | .hbm, ⟨17, _⟩ => ⟨S32x1, .f32⟩
  | .hbm, ⟨18, _⟩ => ⟨S32x1, .f32⟩
  | .hbm, ⟨19, _⟩ => ⟨S32x1, .f32⟩
  | .hbm, ⟨20, _⟩ => ⟨S1x1, .f32⟩
  | .hbm, ⟨21, _⟩ => ⟨S6400000, .f32⟩
  | .hbm, ⟨22, _⟩ => ⟨S6400000, .f32⟩
  | .hbm, ⟨23, _⟩ => ⟨S3200000, .f32⟩
  | .hbm, ⟨24, _⟩ => ⟨S32x100000, .f32⟩
  | .hbm, ⟨25, _⟩ => ⟨S1x100000, .f32⟩
  | .hbm, ⟨26, _⟩ => ⟨S100000x1, .f32⟩
  | .local .tc .vmem, ⟨0, _⟩ => ⟨S10240, .f32⟩
  | .local .tc .vmem, ⟨1, _⟩ => ⟨S10240, .f32⟩
  | .local .tc .vmem, ⟨2, _⟩ => ⟨S10240, .f32⟩
  | .local .tc .vmem, ⟨3, _⟩ => ⟨S10240, .f32⟩
  | .local .tc .vmem, ⟨4, _⟩ => ⟨S10240, .f32⟩
  | .local .tc .vmem, ⟨5, _⟩ => ⟨S10240, .f32⟩
  | .local .tc .vmem, ⟨6, _⟩ => ⟨S10240, .f32⟩
  | .local .tc .vmem, ⟨7, _⟩ => ⟨S10240, .f32⟩
  | .local .tc .vmem, ⟨8, _⟩ => ⟨S32x4, .f32⟩
  | .local .tc .vmem, ⟨9, _⟩ => ⟨S32x1, .f32⟩
  | .local .tc .vmem, ⟨10, _⟩ => ⟨S32x32, .f32⟩
  | .local .tc .vmem, ⟨11, _⟩ => ⟨S32x1, .f32⟩
  | .local .tc .vmem, ⟨12, _⟩ => ⟨S32x1, .f32⟩
  | .local .tc .vmem, ⟨13, _⟩ => ⟨S1x1, .f32⟩
  | .local .tc .vmem, ⟨14, _⟩ => ⟨S10240, .f32⟩
  | .local .tc .vmem, ⟨15, _⟩ => ⟨S10240, .f32⟩
  | .local .tc .vmem, ⟨16, _⟩ => ⟨S10240, .f32⟩
  | .local .tc .vmem, ⟨17, _⟩ => ⟨S10240, .f32⟩
  | .local .tc .vmem, ⟨18, _⟩ => ⟨S32x8192, .f32⟩
  | .local .tc .vmem, ⟨19, _⟩ => ⟨S32x8192, .f32⟩
  | .local .tc .vmem, ⟨20, _⟩ => ⟨S1x8192, .f32⟩
  | .local .tc .vmem, ⟨21, _⟩ => ⟨S1x8192, .f32⟩
  | .local .scVector .vmem, ⟨0, _⟩ => ⟨S100000, .f32⟩
  | .local .scVector .vmem, ⟨1, _⟩ => ⟨S8000, .i32⟩
  | .local .scVector .vmem, ⟨2, _⟩ => ⟨S8000, .i32⟩
  | .local .scVector .vmem, ⟨3, _⟩ => ⟨S8000, .f32⟩
  | .local .scVector .vmem, ⟨4, _⟩ => ⟨S100000, .f32⟩
  | .local .scVector .vmem, ⟨5, _⟩ => ⟨S8000, .i32⟩
  | .local .scVector .vmem, ⟨6, _⟩ => ⟨S8000, .f32⟩
  | _, _ => ⟨S2x6400000, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 43 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => true
  | ⟨40, _⟩ => true
  | ⟨41, _⟩ => true
  | ⟨42, _⟩ => true
  | _ => false

abbrev sig : RefSig :=
  ofTables nBuf rfl bufTy 4 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9_0 : Ref sig .tc := ⟨.hbm, 21, rfl⟩
abbrev main_v9_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v0_scv : Ref sig .scVector := ⟨.hbm, 9, rfl⟩
abbrev main_v1_scv : Ref sig .scVector := ⟨.hbm, 10, rfl⟩
abbrev main_v3_scv : Ref sig .scVector := ⟨.hbm, 12, rfl⟩
abbrev main_v4_0_scv : Ref sig .scVector := ⟨.hbm, 13, rfl⟩
abbrev main_v4_1_scv : Ref sig .scVector := ⟨.hbm, 14, rfl⟩
abbrev main_v4_2_scv : Ref sig .scVector := ⟨.hbm, 15, rfl⟩
abbrev main_v4_3_scv : Ref sig .scVector := ⟨.hbm, 16, rfl⟩
abbrev main_v9_0_scv : Ref sig .scVector := ⟨.hbm, 21, rfl⟩
abbrev main_v9_1_scv : Ref sig .scVector := ⟨.hbm, 22, rfl⟩
abbrev main_v10_scv : Ref sig .scVector := ⟨.hbm, 23, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg6_0 : Ref sig .tc := ⟨.vmem, 10, rfl⟩
abbrev cc1_stg7_0 : Ref sig .tc := ⟨.vmem, 11, rfl⟩
abbrev cc1_stg8_0 : Ref sig .tc := ⟨.vmem, 12, rfl⟩
abbrev cc1_stg9_0 : Ref sig .tc := ⟨.vmem, 13, rfl⟩
abbrev cc1_stg10_0 : Ref sig .tc := ⟨.vmem, 14, rfl⟩
abbrev cc1_stg10_1 : Ref sig .tc := ⟨.vmem, 15, rfl⟩
abbrev cc1_stg11_0 : Ref sig .tc := ⟨.vmem, 16, rfl⟩
abbrev cc1_stg11_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc2_scratch0 : Ref sig .scVector := ⟨.vmem, 4, rfl⟩
abbrev cc2_scratch1 : Ref sig .scVector := ⟨.vmem, 5, rfl⟩
abbrev cc2_scratch2 : Ref sig .scVector := ⟨.vmem, 6, rfl⟩
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem9_0 : DmaSem sig := 27
abbrev cc1_sem10_0 : DmaSem sig := 28
abbrev cc1_sem10_1 : DmaSem sig := 29
abbrev cc1_sem11_0 : DmaSem sig := 30
abbrev cc1_sem11_1 : DmaSem sig := 31
abbrev cc3_sem0_0 : DmaSem sig := 39
abbrev cc3_sem0_1 : DmaSem sig := 40
abbrev cc3_sem1_0 : DmaSem sig := 41
abbrev cc3_sem1_1 : DmaSem sig := 42
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v2 : BitVec 1 := Scalar.cmpi .sge v1 c0_i32
  let c8_i32 : BitVec 32 := 8#32
  let v3 : BitVec 1 := Scalar.cmpi .slt v1 c8_i32
  let v4 : BitVec 1 := Scalar.andi v2 v3
  let v5 : BitVec 32 := Scalar.extui v4
  let c0_i32_0 : BitVec 32 := 0#32
  let v6 : BitVec 1 := Scalar.cmpi .ne v5 c0_i32_0
  v6

@[reducible] def k0_t1_loop : Scf.Loop 32 :=
  let c0_i32_9 : BitVec 32 := 0#32
  let c100_i32 : BitVec 32 := 100#32
  let v21 : BitVec 32 := Scalar.addi c0_i32_9 c100_i32
  let c1_i32 : BitVec 32 := 1#32
  ⟨c0_i32_9, v21, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_7 : BitVec 32 := 0#32
  let v20 : BitVec 32 := Scalar.subi v1 c0_i32_7
  let c800000_i32 : BitVec 32 := 800000#32
  let v23 : BitVec 32 := Scalar.muli v20 c800000_i32
  let c0_i32_9 : BitVec 32 := 0#32
  let c1_i32 : BitVec 32 := 1#32
  let arg13 : BitVec 32 := Scf.iv c0_i32_9 c1_i32 k0_t1
  let c8000_i32 : BitVec 32 := 8000#32
  let v24 : BitVec 32 := Scalar.muli arg13 c8000_i32
  let v25 : BitVec 32 := Scalar.addi v23 v24
  ![v25.toNat]
def k0_off2 (i : grid0.Coords) (k0_t1 : Fin k0_t1_loop.trips) : Fin 1 → Nat :=
  let c6400000_i32 : BitVec 32 := 6400000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_7 : BitVec 32 := 0#32
  let v20 : BitVec 32 := Scalar.subi v1 c0_i32_7
  let c800000_i32 : BitVec 32 := 800000#32
  let v23 : BitVec 32 := Scalar.muli v20 c800000_i32
  let c0_i32_9 : BitVec 32 := 0#32
  let c1_i32 : BitVec 32 := 1#32
  let arg13 : BitVec 32 := Scf.iv c0_i32_9 c1_i32 k0_t1
  let c8000_i32 : BitVec 32 := 8000#32
  let v24 : BitVec 32 := Scalar.muli arg13 c8000_i32
  let v25 : BitVec 32 := Scalar.addi v23 v24
  let v26 : BitVec 32 := Scalar.addi c6400000_i32 v25
  ![v26.toNat]
@[reducible] def k0_t2_loop : Scf.Loop 32 :=
  let c0_i32_12 : BitVec 32 := 0#32
  let c500_i32 : BitVec 32 := 500#32
  let v27 : BitVec 32 := Scalar.addi c0_i32_12 c500_i32
  let c1_i32_13 : BitVec 32 := 1#32
  ⟨c0_i32_12, v27, c1_i32_13⟩
def k0_off3 (k0_t2 : Fin k0_t2_loop.trips) : Fin 1 → Nat :=
  let c0_i32_12 : BitVec 32 := 0#32
  let c1_i32_13 : BitVec 32 := 1#32
  let arg15 : BitVec 32 := Scf.iv c0_i32_12 c1_i32_13 k0_t2
  let c16_i32_16 : BitVec 32 := 16#32
  let v29 : BitVec 32 := Scalar.muli arg15 c16_i32_16
  let v30 : Index := Scalar.indexCast v29
  ![v30.toNat]

def k0_chk1 (i : grid0.Coords) (v31 : IVec S16 32) : Prop :=
  (∀ (k0_h1 : k0_cond1 i = 1#1), ∀ a x, ((![v31] : Fin 1 → IVec S16 32) a x).toNat < S100000.size a)
instance k0_chk1.dec : ∀ (i : grid0.Coords) (v31 : IVec S16 32), Decidable (k0_chk1 i v31) := fun i v31 => decidable_of_iff' _ (Iff.of_eq (k0_chk1.eq_1 i v31))
theorem k0_idx1_inb : ∀ (i : grid0.Coords) (v31 : IVec S16 32) (k0_hw1 : k0_chk1 i v31), ∀ (k0_h1 : k0_cond1 i = 1#1), ∀ a x, ((![v31] : Fin 1 → IVec S16 32) a x).toNat < S100000.size a := fun i v31 k0_hw1 k0_h1 => k0_hw1 k0_h1
def k0_off4 (k0_t2 : Fin k0_t2_loop.trips) : Fin 1 → Nat :=
  let c0_i32_12 : BitVec 32 := 0#32
  let c1_i32_13 : BitVec 32 := 1#32
  let arg15 : BitVec 32 := Scf.iv c0_i32_12 c1_i32_13 k0_t2
  let c16_i32_16 : BitVec 32 := 16#32
  let v29 : BitVec 32 := Scalar.muli arg15 c16_i32_16
  let v33 : Index := Scalar.indexCast v29
  ![v33.toNat]

def k0_chk2 (i : grid0.Coords) (v34 : IVec S16 32) : Prop :=
  (∀ (k0_h1 : k0_cond1 i = 1#1), ∀ a x, ((![v34] : Fin 1 → IVec S16 32) a x).toNat < S100000.size a)
instance k0_chk2.dec : ∀ (i : grid0.Coords) (v34 : IVec S16 32), Decidable (k0_chk2 i v34) := fun i v34 => decidable_of_iff' _ (Iff.of_eq (k0_chk2.eq_1 i v34))
theorem k0_idx2_inb : ∀ (i : grid0.Coords) (v34 : IVec S16 32) (k0_hw2 : k0_chk2 i v34), ∀ (k0_h1 : k0_cond1 i = 1#1), ∀ a x, ((![v34] : Fin 1 → IVec S16 32) a x).toNat < S100000.size a := fun i v34 k0_hw2 k0_h1 => k0_hw2 k0_h1
def k0_off5 (k0_t2 : Fin k0_t2_loop.trips) : Fin 1 → Nat :=
  let c0_i32_12 : BitVec 32 := 0#32
  let c1_i32_13 : BitVec 32 := 1#32
  let arg15 : BitVec 32 := Scf.iv c0_i32_12 c1_i32_13 k0_t2
  let c16_i32_16 : BitVec 32 := 16#32
  let v29 : BitVec 32 := Scalar.muli arg15 c16_i32_16
  let v37 : Index := Scalar.indexCast v29
  ![v37.toNat]
def k0_off6 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_7 : BitVec 32 := 0#32
  let v20 : BitVec 32 := Scalar.subi v1 c0_i32_7
  let c800000_i32 : BitVec 32 := 800000#32
  let v23 : BitVec 32 := Scalar.muli v20 c800000_i32
  let c0_i32_9 : BitVec 32 := 0#32
  let c1_i32 : BitVec 32 := 1#32
  let arg13 : BitVec 32 := Scf.iv c0_i32_9 c1_i32 k0_t1
  let c8000_i32 : BitVec 32 := 8000#32
  let v24 : BitVec 32 := Scalar.muli arg13 c8000_i32
  let v25 : BitVec 32 := Scalar.addi v23 v24
  ![v25.toNat]
def k0_cond2 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1 : BitVec 32 := 8#32
  let v7 : BitVec 1 := Scalar.cmpi .sge v1 c8_i32_1
  let c16_i32 : BitVec 32 := 16#32
  let v8 : BitVec 1 := Scalar.cmpi .slt v1 c16_i32
  let v9 : BitVec 1 := Scalar.andi v7 v8
  let v10 : BitVec 32 := Scalar.extui v9
  let c0_i32_2 : BitVec 32 := 0#32
  let v11 : BitVec 1 := Scalar.cmpi .ne v10 c0_i32_2
  v11

@[reducible] def k0_t3_loop : Scf.Loop 32 :=
  let c0_i32_9 : BitVec 32 := 0#32
  let c100_i32 : BitVec 32 := 100#32
  let v21 : BitVec 32 := Scalar.addi c0_i32_9 c100_i32
  let c1_i32 : BitVec 32 := 1#32
  ⟨c0_i32_9, v21, c1_i32⟩
def k0_off7 (i : grid0.Coords) (k0_t3 : Fin k0_t3_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_7 : BitVec 32 := 8#32
  let v20 : BitVec 32 := Scalar.subi v1 c8_i32_7
  let c800000_i32 : BitVec 32 := 800000#32
  let v23 : BitVec 32 := Scalar.muli v20 c800000_i32
  let c0_i32_9 : BitVec 32 := 0#32
  let c1_i32 : BitVec 32 := 1#32
  let arg13 : BitVec 32 := Scf.iv c0_i32_9 c1_i32 k0_t3
  let c8000_i32 : BitVec 32 := 8000#32
  let v24 : BitVec 32 := Scalar.muli arg13 c8000_i32
  let v25 : BitVec 32 := Scalar.addi v23 v24
  ![v25.toNat]
def k0_off8 (i : grid0.Coords) (k0_t3 : Fin k0_t3_loop.trips) : Fin 1 → Nat :=
  let c6400000_i32 : BitVec 32 := 6400000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_7 : BitVec 32 := 8#32
  let v20 : BitVec 32 := Scalar.subi v1 c8_i32_7
  let c800000_i32 : BitVec 32 := 800000#32
  let v23 : BitVec 32 := Scalar.muli v20 c800000_i32
  let c0_i32_9 : BitVec 32 := 0#32
  let c1_i32 : BitVec 32 := 1#32
  let arg13 : BitVec 32 := Scf.iv c0_i32_9 c1_i32 k0_t3
  let c8000_i32 : BitVec 32 := 8000#32
  let v24 : BitVec 32 := Scalar.muli arg13 c8000_i32
  let v25 : BitVec 32 := Scalar.addi v23 v24
  let v26 : BitVec 32 := Scalar.addi c6400000_i32 v25
  ![v26.toNat]
@[reducible] def k0_t4_loop : Scf.Loop 32 :=
  let c0_i32_12 : BitVec 32 := 0#32
  let c500_i32 : BitVec 32 := 500#32
  let v27 : BitVec 32 := Scalar.addi c0_i32_12 c500_i32
  let c1_i32_13 : BitVec 32 := 1#32
  ⟨c0_i32_12, v27, c1_i32_13⟩
def k0_off9 (k0_t4 : Fin k0_t4_loop.trips) : Fin 1 → Nat :=
  let c0_i32_12 : BitVec 32 := 0#32
  let c1_i32_13 : BitVec 32 := 1#32
  let arg15 : BitVec 32 := Scf.iv c0_i32_12 c1_i32_13 k0_t4
  let c16_i32_16 : BitVec 32 := 16#32
  let v29 : BitVec 32 := Scalar.muli arg15 c16_i32_16
  let v30 : Index := Scalar.indexCast v29
  ![v30.toNat]

def k0_chk3 (i : grid0.Coords) (v31 : IVec S16 32) : Prop :=
  (∀ (k0_h2 : k0_cond2 i = 1#1), ∀ a x, ((![v31] : Fin 1 → IVec S16 32) a x).toNat < S100000.size a)
instance k0_chk3.dec : ∀ (i : grid0.Coords) (v31 : IVec S16 32), Decidable (k0_chk3 i v31) := fun i v31 => decidable_of_iff' _ (Iff.of_eq (k0_chk3.eq_1 i v31))
theorem k0_idx3_inb : ∀ (i : grid0.Coords) (v31 : IVec S16 32) (k0_hw3 : k0_chk3 i v31), ∀ (k0_h2 : k0_cond2 i = 1#1), ∀ a x, ((![v31] : Fin 1 → IVec S16 32) a x).toNat < S100000.size a := fun i v31 k0_hw3 k0_h2 => k0_hw3 k0_h2
def k0_off10 (k0_t4 : Fin k0_t4_loop.trips) : Fin 1 → Nat :=
  let c0_i32_12 : BitVec 32 := 0#32
  let c1_i32_13 : BitVec 32 := 1#32
  let arg15 : BitVec 32 := Scf.iv c0_i32_12 c1_i32_13 k0_t4
  let c16_i32_16 : BitVec 32 := 16#32
  let v29 : BitVec 32 := Scalar.muli arg15 c16_i32_16
  let v33 : Index := Scalar.indexCast v29
  ![v33.toNat]

def k0_chk4 (i : grid0.Coords) (v34 : IVec S16 32) : Prop :=
  (∀ (k0_h2 : k0_cond2 i = 1#1), ∀ a x, ((![v34] : Fin 1 → IVec S16 32) a x).toNat < S100000.size a)
instance k0_chk4.dec : ∀ (i : grid0.Coords) (v34 : IVec S16 32), Decidable (k0_chk4 i v34) := fun i v34 => decidable_of_iff' _ (Iff.of_eq (k0_chk4.eq_1 i v34))
theorem k0_idx4_inb : ∀ (i : grid0.Coords) (v34 : IVec S16 32) (k0_hw4 : k0_chk4 i v34), ∀ (k0_h2 : k0_cond2 i = 1#1), ∀ a x, ((![v34] : Fin 1 → IVec S16 32) a x).toNat < S100000.size a := fun i v34 k0_hw4 k0_h2 => k0_hw4 k0_h2
def k0_off11 (k0_t4 : Fin k0_t4_loop.trips) : Fin 1 → Nat :=
  let c0_i32_12 : BitVec 32 := 0#32
  let c1_i32_13 : BitVec 32 := 1#32
  let arg15 : BitVec 32 := Scf.iv c0_i32_12 c1_i32_13 k0_t4
  let c16_i32_16 : BitVec 32 := 16#32
  let v29 : BitVec 32 := Scalar.muli arg15 c16_i32_16
  let v37 : Index := Scalar.indexCast v29
  ![v37.toNat]
def k0_off12 (i : grid0.Coords) (k0_t3 : Fin k0_t3_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_7 : BitVec 32 := 8#32
  let v20 : BitVec 32 := Scalar.subi v1 c8_i32_7
  let c800000_i32 : BitVec 32 := 800000#32
  let v23 : BitVec 32 := Scalar.muli v20 c800000_i32
  let c0_i32_9 : BitVec 32 := 0#32
  let c1_i32 : BitVec 32 := 1#32
  let arg13 : BitVec 32 := Scf.iv c0_i32_9 c1_i32 k0_t3
  let c8000_i32 : BitVec 32 := 8000#32
  let v24 : BitVec 32 := Scalar.muli arg13 c8000_i32
  let v25 : BitVec 32 := Scalar.addi v23 v24
  ![v25.toNat]
def k0_cond3 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_3 : BitVec 32 := 16#32
  let v12 : BitVec 1 := Scalar.cmpi .sge v1 c16_i32_3
  let c24_i32 : BitVec 32 := 24#32
  let v13 : BitVec 1 := Scalar.cmpi .slt v1 c24_i32
  let v14 : BitVec 1 := Scalar.andi v12 v13
  let v15 : BitVec 32 := Scalar.extui v14
  let c0_i32_4 : BitVec 32 := 0#32
  let v16 : BitVec 1 := Scalar.cmpi .ne v15 c0_i32_4
  v16

@[reducible] def k0_t5_loop : Scf.Loop 32 :=
  let c0_i32_9 : BitVec 32 := 0#32
  let c100_i32 : BitVec 32 := 100#32
  let v21 : BitVec 32 := Scalar.addi c0_i32_9 c100_i32
  let c1_i32 : BitVec 32 := 1#32
  ⟨c0_i32_9, v21, c1_i32⟩
def k0_off13 (i : grid0.Coords) (k0_t5 : Fin k0_t5_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_7 : BitVec 32 := 16#32
  let v20 : BitVec 32 := Scalar.subi v1 c16_i32_7
  let c800000_i32 : BitVec 32 := 800000#32
  let v23 : BitVec 32 := Scalar.muli v20 c800000_i32
  let c0_i32_9 : BitVec 32 := 0#32
  let c1_i32 : BitVec 32 := 1#32
  let arg13 : BitVec 32 := Scf.iv c0_i32_9 c1_i32 k0_t5
  let c8000_i32 : BitVec 32 := 8000#32
  let v24 : BitVec 32 := Scalar.muli arg13 c8000_i32
  let v25 : BitVec 32 := Scalar.addi v23 v24
  ![v25.toNat]
def k0_off14 (i : grid0.Coords) (k0_t5 : Fin k0_t5_loop.trips) : Fin 1 → Nat :=
  let c6400000_i32 : BitVec 32 := 6400000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_7 : BitVec 32 := 16#32
  let v20 : BitVec 32 := Scalar.subi v1 c16_i32_7
  let c800000_i32 : BitVec 32 := 800000#32
  let v23 : BitVec 32 := Scalar.muli v20 c800000_i32
  let c0_i32_9 : BitVec 32 := 0#32
  let c1_i32 : BitVec 32 := 1#32
  let arg13 : BitVec 32 := Scf.iv c0_i32_9 c1_i32 k0_t5
  let c8000_i32 : BitVec 32 := 8000#32
  let v24 : BitVec 32 := Scalar.muli arg13 c8000_i32
  let v25 : BitVec 32 := Scalar.addi v23 v24
  let v26 : BitVec 32 := Scalar.addi c6400000_i32 v25
  ![v26.toNat]
@[reducible] def k0_t6_loop : Scf.Loop 32 :=
  let c0_i32_12 : BitVec 32 := 0#32
  let c500_i32 : BitVec 32 := 500#32
  let v27 : BitVec 32 := Scalar.addi c0_i32_12 c500_i32
  let c1_i32_13 : BitVec 32 := 1#32
  ⟨c0_i32_12, v27, c1_i32_13⟩
def k0_off15 (k0_t6 : Fin k0_t6_loop.trips) : Fin 1 → Nat :=
  let c0_i32_12 : BitVec 32 := 0#32
  let c1_i32_13 : BitVec 32 := 1#32
  let arg15 : BitVec 32 := Scf.iv c0_i32_12 c1_i32_13 k0_t6
  let c16_i32_16 : BitVec 32 := 16#32
  let v29 : BitVec 32 := Scalar.muli arg15 c16_i32_16
  let v30 : Index := Scalar.indexCast v29
  ![v30.toNat]

def k0_chk5 (i : grid0.Coords) (v31 : IVec S16 32) : Prop :=
  (∀ (k0_h3 : k0_cond3 i = 1#1), ∀ a x, ((![v31] : Fin 1 → IVec S16 32) a x).toNat < S100000.size a)
instance k0_chk5.dec : ∀ (i : grid0.Coords) (v31 : IVec S16 32), Decidable (k0_chk5 i v31) := fun i v31 => decidable_of_iff' _ (Iff.of_eq (k0_chk5.eq_1 i v31))
theorem k0_idx5_inb : ∀ (i : grid0.Coords) (v31 : IVec S16 32) (k0_hw5 : k0_chk5 i v31), ∀ (k0_h3 : k0_cond3 i = 1#1), ∀ a x, ((![v31] : Fin 1 → IVec S16 32) a x).toNat < S100000.size a := fun i v31 k0_hw5 k0_h3 => k0_hw5 k0_h3
def k0_off16 (k0_t6 : Fin k0_t6_loop.trips) : Fin 1 → Nat :=
  let c0_i32_12 : BitVec 32 := 0#32
  let c1_i32_13 : BitVec 32 := 1#32
  let arg15 : BitVec 32 := Scf.iv c0_i32_12 c1_i32_13 k0_t6
  let c16_i32_16 : BitVec 32 := 16#32
  let v29 : BitVec 32 := Scalar.muli arg15 c16_i32_16
  let v33 : Index := Scalar.indexCast v29
  ![v33.toNat]

def k0_chk6 (i : grid0.Coords) (v34 : IVec S16 32) : Prop :=
  (∀ (k0_h3 : k0_cond3 i = 1#1), ∀ a x, ((![v34] : Fin 1 → IVec S16 32) a x).toNat < S100000.size a)
instance k0_chk6.dec : ∀ (i : grid0.Coords) (v34 : IVec S16 32), Decidable (k0_chk6 i v34) := fun i v34 => decidable_of_iff' _ (Iff.of_eq (k0_chk6.eq_1 i v34))
theorem k0_idx6_inb : ∀ (i : grid0.Coords) (v34 : IVec S16 32) (k0_hw6 : k0_chk6 i v34), ∀ (k0_h3 : k0_cond3 i = 1#1), ∀ a x, ((![v34] : Fin 1 → IVec S16 32) a x).toNat < S100000.size a := fun i v34 k0_hw6 k0_h3 => k0_hw6 k0_h3
def k0_off17 (k0_t6 : Fin k0_t6_loop.trips) : Fin 1 → Nat :=
  let c0_i32_12 : BitVec 32 := 0#32
  let c1_i32_13 : BitVec 32 := 1#32
  let arg15 : BitVec 32 := Scf.iv c0_i32_12 c1_i32_13 k0_t6
  let c16_i32_16 : BitVec 32 := 16#32
  let v29 : BitVec 32 := Scalar.muli arg15 c16_i32_16
  let v37 : Index := Scalar.indexCast v29
  ![v37.toNat]
def k0_off18 (i : grid0.Coords) (k0_t5 : Fin k0_t5_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_7 : BitVec 32 := 16#32
  let v20 : BitVec 32 := Scalar.subi v1 c16_i32_7
  let c800000_i32 : BitVec 32 := 800000#32
  let v23 : BitVec 32 := Scalar.muli v20 c800000_i32
  let c0_i32_9 : BitVec 32 := 0#32
  let c1_i32 : BitVec 32 := 1#32
  let arg13 : BitVec 32 := Scf.iv c0_i32_9 c1_i32 k0_t5
  let c8000_i32 : BitVec 32 := 8000#32
  let v24 : BitVec 32 := Scalar.muli arg13 c8000_i32
  let v25 : BitVec 32 := Scalar.addi v23 v24
  ![v25.toNat]
def k0_cond4 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32_5 : BitVec 32 := 24#32
  let v17 : BitVec 1 := Scalar.cmpi .sge v1 c24_i32_5
  let v18 : BitVec 32 := Scalar.extui v17
  let c0_i32_6 : BitVec 32 := 0#32
  let v19 : BitVec 1 := Scalar.cmpi .ne v18 c0_i32_6
  v19

@[reducible] def k0_t7_loop : Scf.Loop 32 :=
  let c0_i32_9 : BitVec 32 := 0#32
  let c100_i32 : BitVec 32 := 100#32
  let v24 : BitVec 32 := Scalar.addi c0_i32_9 c100_i32
  let c1_i32 : BitVec 32 := 1#32
  ⟨c0_i32_9, v24, c1_i32⟩
def k0_off19 (i : grid0.Coords) (k0_t7 : Fin k0_t7_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32_7 : BitVec 32 := 24#32
  let v20 : BitVec 32 := Scalar.subi v1 c24_i32_7
  let c800000_i32 : BitVec 32 := 800000#32
  let v26 : BitVec 32 := Scalar.muli v20 c800000_i32
  let c0_i32_9 : BitVec 32 := 0#32
  let c1_i32 : BitVec 32 := 1#32
  let arg13 : BitVec 32 := Scf.iv c0_i32_9 c1_i32 k0_t7
  let c8000_i32 : BitVec 32 := 8000#32
  let v27 : BitVec 32 := Scalar.muli arg13 c8000_i32
  let v28 : BitVec 32 := Scalar.addi v26 v27
  let c3_i32_11 : BitVec 32 := 3#32
  let v29 : BitVec 32 := Scalar.muli v28 c3_i32_11
  ![v29.toNat]
@[reducible] def k0_t8_loop : Scf.Loop 32 :=
  let c0_i32_13 : BitVec 32 := 0#32
  let c500_i32 : BitVec 32 := 500#32
  let v30 : BitVec 32 := Scalar.addi c0_i32_13 c500_i32
  let c1_i32_14 : BitVec 32 := 1#32
  ⟨c0_i32_13, v30, c1_i32_14⟩

def k0_chk7 (i : grid0.Coords) (v34 : IVec S16 32) : Prop :=
  (∀ (k0_h4 : k0_cond4 i = 1#1), ∀ a x, ((![v34] : Fin 1 → IVec S16 32) a x).toNat < S100000.size a)
instance k0_chk7.dec : ∀ (i : grid0.Coords) (v34 : IVec S16 32), Decidable (k0_chk7 i v34) := fun i v34 => decidable_of_iff' _ (Iff.of_eq (k0_chk7.eq_1 i v34))
theorem k0_idx7_inb : ∀ (i : grid0.Coords) (v34 : IVec S16 32) (k0_hw7 : k0_chk7 i v34), ∀ (k0_h4 : k0_cond4 i = 1#1), ∀ a x, ((![v34] : Fin 1 → IVec S16 32) a x).toNat < S100000.size a := fun i v34 k0_hw7 k0_h4 => k0_hw7 k0_h4

def k0_chk8 (i : grid0.Coords) (v37 : IVec S16 32) : Prop :=
  (∀ (k0_h4 : k0_cond4 i = 1#1), ∀ a x, ((![v37] : Fin 1 → IVec S16 32) a x).toNat < S100000.size a)
instance k0_chk8.dec : ∀ (i : grid0.Coords) (v37 : IVec S16 32), Decidable (k0_chk8 i v37) := fun i v37 => decidable_of_iff' _ (Iff.of_eq (k0_chk8.eq_1 i v37))
theorem k0_idx8_inb : ∀ (i : grid0.Coords) (v37 : IVec S16 32) (k0_hw8 : k0_chk8 i v37), ∀ (k0_h4 : k0_cond4 i = 1#1), ∀ a x, ((![v37] : Fin 1 → IVec S16 32) a x).toNat < S100000.size a := fun i v37 k0_hw8 k0_h4 => k0_hw8 k0_h4

def k0_chk9 (i : grid0.Coords) (v40 : IVec S16 32) : Prop :=
  (∀ (k0_h4 : k0_cond4 i = 1#1), ∀ a x, ((![v40] : Fin 1 → IVec S16 32) a x).toNat < S100000.size a)
instance k0_chk9.dec : ∀ (i : grid0.Coords) (v40 : IVec S16 32), Decidable (k0_chk9 i v40) := fun i v40 => decidable_of_iff' _ (Iff.of_eq (k0_chk9.eq_1 i v40))
theorem k0_idx9_inb : ∀ (i : grid0.Coords) (v40 : IVec S16 32) (k0_hw9 : k0_chk9 i v40), ∀ (k0_h4 : k0_cond4 i = 1#1), ∀ a x, ((![v40] : Fin 1 → IVec S16 32) a x).toNat < S100000.size a := fun i v40 k0_hw9 k0_h4 => k0_hw9 k0_h4
def k0_off20 (k0_t8 : Fin k0_t8_loop.trips) : Fin 1 → Nat :=
  let c0_i32_13 : BitVec 32 := 0#32
  let c1_i32_14 : BitVec 32 := 1#32
  let arg15 : BitVec 32 := Scf.iv c0_i32_13 c1_i32_14 k0_t8
  let c16_i32_19 : BitVec 32 := 16#32
  let v47 : BitVec 32 := Scalar.muli arg15 c16_i32_19
  let v48 : Index := Scalar.indexCast v47
  ![v48.toNat]
def k0_off21 (i : grid0.Coords) (k0_t7 : Fin k0_t7_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32_7 : BitVec 32 := 24#32
  let v20 : BitVec 32 := Scalar.subi v1 c24_i32_7
  let c800000_i32 : BitVec 32 := 800000#32
  let v26 : BitVec 32 := Scalar.muli v20 c800000_i32
  let c0_i32_9 : BitVec 32 := 0#32
  let c1_i32 : BitVec 32 := 1#32
  let arg13 : BitVec 32 := Scf.iv c0_i32_9 c1_i32 k0_t7
  let c8000_i32 : BitVec 32 := 8000#32
  let v27 : BitVec 32 := Scalar.muli arg13 c8000_i32
  let v28 : BitVec 32 := Scalar.addi v26 v27
  ![v28.toNat]
abbrev grid1 : Pipeline.Grid := ⟨1, ![625], ![false]⟩

def cc1_transform_0 (i : grid1.Coords) : Fin 1 → Nat :=
  let arg0 : BitVec 32 := BitVec.ofNat 32 (i 0).val
  let c0_i32 : BitVec 32 := 0#32
  ![arg0.toNat]

def cc1_transform_1 (i : grid1.Coords) : Fin 1 → Nat :=
  let arg0 : BitVec 32 := BitVec.ofNat 32 (i 0).val
  let c0_i32 : BitVec 32 := 0#32
  ![arg0.toNat]

def cc1_transform_2 (i : grid1.Coords) : Fin 1 → Nat :=
  let arg0 : BitVec 32 := BitVec.ofNat 32 (i 0).val
  let c0_i32 : BitVec 32 := 0#32
  ![arg0.toNat]

def cc1_transform_3 (i : grid1.Coords) : Fin 1 → Nat :=
  let arg0 : BitVec 32 := BitVec.ofNat 32 (i 0).val
  let c0_i32 : BitVec 32 := 0#32
  ![arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 1 → Nat :=
  let arg0 : BitVec 32 := BitVec.ofNat 32 (i 0).val
  let c0_i32 : BitVec 32 := 0#32
  ![arg0.toNat]

def cc1_transform_11 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S10240 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10240 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10240 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S10240 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S32x4 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S32x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S32x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S32x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S10240 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S10240 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev grid2 : Pipeline.Grid := ⟨2, ![2, 16], ![false, false]⟩

@[reducible] def k2_t1_loop : Scf.Loop 32 :=
  let c0_i32_11 : BitVec 32 := 0#32
  let c6250_i32 : BitVec 32 := 6250#32
  let v29 : BitVec 32 := Scalar.addi c0_i32_11 c6250_i32
  let c1_i32_12 : BitVec 32 := 1#32
  ⟨c0_i32_11, v29, c1_i32_12⟩
def k2_off1 (k2_t1 : Fin k2_t1_loop.trips) : Fin 1 → Nat :=
  let c0_i32_11 : BitVec 32 := 0#32
  let c1_i32_12 : BitVec 32 := 1#32
  let arg9 : BitVec 32 := Scf.iv c0_i32_11 c1_i32_12 k2_t1
  let c16_i32 : BitVec 32 := 16#32
  let v46 : BitVec 32 := Scalar.muli arg9 c16_i32
  let v47 : Index := Scalar.indexCast v46
  ![v47.toNat]
def k2_cond1 (i : grid2.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_14 : BitVec 32 := 0#32
  let v32 : BitVec 1 := Scalar.cmpi .eq v18 c0_i32_14
  let v33 : BitVec 32 := Scalar.extui v32
  let c0_i32_15 : BitVec 32 := 0#32
  let v34 : BitVec 1 := Scalar.cmpi .ne v33 c0_i32_15
  v34

@[reducible] def k2_t2_loop : Scf.Loop 32 :=
  let c0_i32_22 : BitVec 32 := 0#32
  let c100_i32 : BitVec 32 := 100#32
  let v45 : BitVec 32 := Scalar.addi c0_i32_22 c100_i32
  let c1_i32_23 : BitVec 32 := 1#32
  ⟨c0_i32_22, v45, c1_i32_23⟩
def k2_off2 (i : grid2.Coords) (k2_t2 : Fin k2_t2_loop.trips) : Fin 1 → Nat :=
  let c0_i32_25 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c800000_i32 : BitVec 32 := 800000#32
  let v47 : BitVec 32 := Scalar.muli v28 c800000_i32
  let c0_i32_22 : BitVec 32 := 0#32
  let c1_i32_23 : BitVec 32 := 1#32
  let arg9 : BitVec 32 := Scf.iv c0_i32_22 c1_i32_23 k2_t2
  let c8000_i32 : BitVec 32 := 8000#32
  let v48 : BitVec 32 := Scalar.muli arg9 c8000_i32
  let v49 : BitVec 32 := Scalar.addi v47 v48
  let v50 : BitVec 32 := Scalar.addi c0_i32_25 v49
  ![v50.toNat]
def k2_off3 (i : grid2.Coords) (k2_t2 : Fin k2_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c800000_i32 : BitVec 32 := 800000#32
  let v47 : BitVec 32 := Scalar.muli v28 c800000_i32
  let c0_i32_22 : BitVec 32 := 0#32
  let c1_i32_23 : BitVec 32 := 1#32
  let arg9 : BitVec 32 := Scf.iv c0_i32_22 c1_i32_23 k2_t2
  let c8000_i32 : BitVec 32 := 8000#32
  let v48 : BitVec 32 := Scalar.muli arg9 c8000_i32
  let v49 : BitVec 32 := Scalar.addi v47 v48
  ![v49.toNat]
@[reducible] def k2_t3_loop : Scf.Loop 32 :=
  let c0_i32_27 : BitVec 32 := 0#32
  let c500_i32 : BitVec 32 := 500#32
  let v51 : BitVec 32 := Scalar.addi c0_i32_27 c500_i32
  let c1_i32_28 : BitVec 32 := 1#32
  ⟨c0_i32_27, v51, c1_i32_28⟩
def k2_off4 (k2_t3 : Fin k2_t3_loop.trips) : Fin 1 → Nat :=
  let c0_i32_27 : BitVec 32 := 0#32
  let c1_i32_28 : BitVec 32 := 1#32
  let arg11 : BitVec 32 := Scf.iv c0_i32_27 c1_i32_28 k2_t3
  let c16_i32 : BitVec 32 := 16#32
  let v53 : BitVec 32 := Scalar.muli arg11 c16_i32
  let v54 : Index := Scalar.indexCast v53
  ![v54.toNat]

def k2_chk1 (i : grid2.Coords) (v57 : IVec S16 32) : Prop :=
  (∀ (k2_h1 : k2_cond1 i = 1#1), ∀ a x, ((![v57] : Fin 1 → IVec S16 32) a x).toNat < S100000.size a)
instance k2_chk1.dec : ∀ (i : grid2.Coords) (v57 : IVec S16 32), Decidable (k2_chk1 i v57) := fun i v57 => decidable_of_iff' _ (Iff.of_eq (k2_chk1.eq_1 i v57))
theorem k2_idx1_inb : ∀ (i : grid2.Coords) (v57 : IVec S16 32) (k2_hw1 : k2_chk1 i v57), ∀ (k2_h1 : k2_cond1 i = 1#1), ∀ a x, ((![v57] : Fin 1 → IVec S16 32) a x).toNat < S100000.size a := fun i v57 k2_hw1 k2_h1 => k2_hw1 k2_h1
def k2_cond2 (i : grid2.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c1_i32_16 : BitVec 32 := 1#32
  let v35 : BitVec 1 := Scalar.cmpi .eq v18 c1_i32_16
  let v36 : BitVec 32 := Scalar.extui v35
  let c0_i32_17 : BitVec 32 := 0#32
  let v37 : BitVec 1 := Scalar.cmpi .ne v36 c0_i32_17
  v37

@[reducible] def k2_t4_loop : Scf.Loop 32 :=
  let c0_i32_22 : BitVec 32 := 0#32
  let c100_i32 : BitVec 32 := 100#32
  let v45 : BitVec 32 := Scalar.addi c0_i32_22 c100_i32
  let c1_i32_23 : BitVec 32 := 1#32
  ⟨c0_i32_22, v45, c1_i32_23⟩
def k2_off5 (i : grid2.Coords) (k2_t4 : Fin k2_t4_loop.trips) : Fin 1 → Nat :=
  let c6400000_i32 : BitVec 32 := 6400000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c800000_i32 : BitVec 32 := 800000#32
  let v47 : BitVec 32 := Scalar.muli v28 c800000_i32
  let c0_i32_22 : BitVec 32 := 0#32
  let c1_i32_23 : BitVec 32 := 1#32
  let arg9 : BitVec 32 := Scf.iv c0_i32_22 c1_i32_23 k2_t4
  let c8000_i32 : BitVec 32 := 8000#32
  let v48 : BitVec 32 := Scalar.muli arg9 c8000_i32
  let v49 : BitVec 32 := Scalar.addi v47 v48
  let v50 : BitVec 32 := Scalar.addi c6400000_i32 v49
  ![v50.toNat]
def k2_off6 (i : grid2.Coords) (k2_t4 : Fin k2_t4_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c800000_i32 : BitVec 32 := 800000#32
  let v47 : BitVec 32 := Scalar.muli v28 c800000_i32
  let c0_i32_22 : BitVec 32 := 0#32
  let c1_i32_23 : BitVec 32 := 1#32
  let arg9 : BitVec 32 := Scf.iv c0_i32_22 c1_i32_23 k2_t4
  let c8000_i32 : BitVec 32 := 8000#32
  let v48 : BitVec 32 := Scalar.muli arg9 c8000_i32
  let v49 : BitVec 32 := Scalar.addi v47 v48
  ![v49.toNat]
@[reducible] def k2_t5_loop : Scf.Loop 32 :=
  let c0_i32_26 : BitVec 32 := 0#32
  let c500_i32 : BitVec 32 := 500#32
  let v51 : BitVec 32 := Scalar.addi c0_i32_26 c500_i32
  let c1_i32_27 : BitVec 32 := 1#32
  ⟨c0_i32_26, v51, c1_i32_27⟩
def k2_off7 (k2_t5 : Fin k2_t5_loop.trips) : Fin 1 → Nat :=
  let c0_i32_26 : BitVec 32 := 0#32
  let c1_i32_27 : BitVec 32 := 1#32
  let arg11 : BitVec 32 := Scf.iv c0_i32_26 c1_i32_27 k2_t5
  let c16_i32 : BitVec 32 := 16#32
  let v53 : BitVec 32 := Scalar.muli arg11 c16_i32
  let v54 : Index := Scalar.indexCast v53
  ![v54.toNat]

def k2_chk2 (i : grid2.Coords) (v57 : IVec S16 32) : Prop :=
  (∀ (k2_h2 : k2_cond2 i = 1#1), ∀ a x, ((![v57] : Fin 1 → IVec S16 32) a x).toNat < S100000.size a)
instance k2_chk2.dec : ∀ (i : grid2.Coords) (v57 : IVec S16 32), Decidable (k2_chk2 i v57) := fun i v57 => decidable_of_iff' _ (Iff.of_eq (k2_chk2.eq_1 i v57))
theorem k2_idx2_inb : ∀ (i : grid2.Coords) (v57 : IVec S16 32) (k2_hw2 : k2_chk2 i v57), ∀ (k2_h2 : k2_cond2 i = 1#1), ∀ a x, ((![v57] : Fin 1 → IVec S16 32) a x).toNat < S100000.size a := fun i v57 k2_hw2 k2_h2 => k2_hw2 k2_h2
def k2_cond3 (i : grid2.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c2_i32_18 : BitVec 32 := 2#32
  let v38 : BitVec 1 := Scalar.cmpi .eq v18 c2_i32_18
  let v39 : BitVec 32 := Scalar.extui v38
  let c0_i32_19 : BitVec 32 := 0#32
  let v40 : BitVec 1 := Scalar.cmpi .ne v39 c0_i32_19
  v40

@[reducible] def k2_t6_loop : Scf.Loop 32 :=
  let c0_i32_22 : BitVec 32 := 0#32
  let c100_i32 : BitVec 32 := 100#32
  let v45 : BitVec 32 := Scalar.addi c0_i32_22 c100_i32
  let c1_i32_23 : BitVec 32 := 1#32
  ⟨c0_i32_22, v45, c1_i32_23⟩
def k2_off8 (i : grid2.Coords) (k2_t6 : Fin k2_t6_loop.trips) : Fin 1 → Nat :=
  let c0_i32_25 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c800000_i32 : BitVec 32 := 800000#32
  let v47 : BitVec 32 := Scalar.muli v28 c800000_i32
  let c0_i32_22 : BitVec 32 := 0#32
  let c1_i32_23 : BitVec 32 := 1#32
  let arg9 : BitVec 32 := Scf.iv c0_i32_22 c1_i32_23 k2_t6
  let c8000_i32 : BitVec 32 := 8000#32
  let v48 : BitVec 32 := Scalar.muli arg9 c8000_i32
  let v49 : BitVec 32 := Scalar.addi v47 v48
  let v50 : BitVec 32 := Scalar.addi c0_i32_25 v49
  ![v50.toNat]
@[reducible] def k2_t7_loop : Scf.Loop 32 :=
  let c0_i32_27 : BitVec 32 := 0#32
  let c500_i32 : BitVec 32 := 500#32
  let v51 : BitVec 32 := Scalar.addi c0_i32_27 c500_i32
  let c1_i32_28 : BitVec 32 := 1#32
  ⟨c0_i32_27, v51, c1_i32_28⟩
def k2_off9 (k2_t7 : Fin k2_t7_loop.trips) : Fin 1 → Nat :=
  let c0_i32_27 : BitVec 32 := 0#32
  let c1_i32_28 : BitVec 32 := 1#32
  let arg11 : BitVec 32 := Scf.iv c0_i32_27 c1_i32_28 k2_t7
  let c16_i32 : BitVec 32 := 16#32
  let v53 : BitVec 32 := Scalar.muli arg11 c16_i32
  let v54 : Index := Scalar.indexCast v53
  ![v54.toNat]

def k2_chk3 (i : grid2.Coords) (v55 : IVec S16 32) : Prop :=
  (∀ (k2_h3 : k2_cond3 i = 1#1), ∀ a x, ((![v55] : Fin 1 → IVec S16 32) a x).toNat < S100000.size a)
instance k2_chk3.dec : ∀ (i : grid2.Coords) (v55 : IVec S16 32), Decidable (k2_chk3 i v55) := fun i v55 => decidable_of_iff' _ (Iff.of_eq (k2_chk3.eq_1 i v55))
theorem k2_idx3_inb : ∀ (i : grid2.Coords) (v55 : IVec S16 32) (k2_hw3 : k2_chk3 i v55), ∀ (k2_h3 : k2_cond3 i = 1#1), ∀ a x, ((![v55] : Fin 1 → IVec S16 32) a x).toNat < S100000.size a := fun i v55 k2_hw3 k2_h3 => k2_hw3 k2_h3
def k2_cond4 (i : grid2.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c3_i32 : BitVec 32 := 3#32
  let v41 : BitVec 1 := Scalar.cmpi .eq v18 c3_i32
  let v42 : BitVec 32 := Scalar.extui v41
  let c0_i32_20 : BitVec 32 := 0#32
  let v43 : BitVec 1 := Scalar.cmpi .ne v42 c0_i32_20
  v43

@[reducible] def k2_t8_loop : Scf.Loop 32 :=
  let c0_i32_22 : BitVec 32 := 0#32
  let c100_i32 : BitVec 32 := 100#32
  let v45 : BitVec 32 := Scalar.addi c0_i32_22 c100_i32
  let c1_i32_23 : BitVec 32 := 1#32
  ⟨c0_i32_22, v45, c1_i32_23⟩
def k2_off10 (i : grid2.Coords) (k2_t8 : Fin k2_t8_loop.trips) : Fin 1 → Nat :=
  let c6400000_i32 : BitVec 32 := 6400000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c800000_i32 : BitVec 32 := 800000#32
  let v47 : BitVec 32 := Scalar.muli v28 c800000_i32
  let c0_i32_22 : BitVec 32 := 0#32
  let c1_i32_23 : BitVec 32 := 1#32
  let arg9 : BitVec 32 := Scf.iv c0_i32_22 c1_i32_23 k2_t8
  let c8000_i32 : BitVec 32 := 8000#32
  let v48 : BitVec 32 := Scalar.muli arg9 c8000_i32
  let v49 : BitVec 32 := Scalar.addi v47 v48
  let v50 : BitVec 32 := Scalar.addi c6400000_i32 v49
  ![v50.toNat]
@[reducible] def k2_t9_loop : Scf.Loop 32 :=
  let c0_i32_26 : BitVec 32 := 0#32
  let c500_i32 : BitVec 32 := 500#32
  let v51 : BitVec 32 := Scalar.addi c0_i32_26 c500_i32
  let c1_i32_27 : BitVec 32 := 1#32
  ⟨c0_i32_26, v51, c1_i32_27⟩
def k2_off11 (k2_t9 : Fin k2_t9_loop.trips) : Fin 1 → Nat :=
  let c0_i32_26 : BitVec 32 := 0#32
  let c1_i32_27 : BitVec 32 := 1#32
  let arg11 : BitVec 32 := Scf.iv c0_i32_26 c1_i32_27 k2_t9
  let c16_i32 : BitVec 32 := 16#32
  let v53 : BitVec 32 := Scalar.muli arg11 c16_i32
  let v54 : Index := Scalar.indexCast v53
  ![v54.toNat]

def k2_chk4 (i : grid2.Coords) (v55 : IVec S16 32) : Prop :=
  (∀ (k2_h4 : k2_cond4 i = 1#1), ∀ a x, ((![v55] : Fin 1 → IVec S16 32) a x).toNat < S100000.size a)
instance k2_chk4.dec : ∀ (i : grid2.Coords) (v55 : IVec S16 32), Decidable (k2_chk4 i v55) := fun i v55 => decidable_of_iff' _ (Iff.of_eq (k2_chk4.eq_1 i v55))
theorem k2_idx4_inb : ∀ (i : grid2.Coords) (v55 : IVec S16 32) (k2_hw4 : k2_chk4 i v55), ∀ (k2_h4 : k2_cond4 i = 1#1), ∀ a x, ((![v55] : Fin 1 → IVec S16 32) a x).toNat < S100000.size a := fun i v55 k2_hw4 k2_h4 => k2_hw4 k2_h4
def k2_off12 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c100000_i32 : BitVec 32 := 100000#32
  let v44 : BitVec 32 := Scalar.muli v1 c100000_i32
  ![v44.toNat]
abbrev grid3 : Pipeline.Grid := ⟨1, ![13], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 2 → Memref sig .tc .vmem S32x8192 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x8192 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))

class Facts₀ : Prop where
  shapeCasts_S2x6400000_S12800000 : S2x6400000.ShapeCasts S12800000
  shapeCasts_S6400000x3_S19200000 : S6400000x3.ShapeCasts S19200000
  transposes_S100000x3_S3x100000_1_0 : S100000x3.Transposes [1, 0] S3x100000
  shapeCasts_S3x100000_S300000 : S3x100000.ShapeCasts S300000
  inb_S300000_S100000_0 : ∀ a, (![0] : Fin 1 → Nat) a + S100000.size a ≤ S300000.size a
  h_S16 : 0 < S16.numel
  h_S100000 : 0 < S100000.numel
  inb_S300000_S100000_100000 : ∀ a, (![100000] : Fin 1 → Nat) a + S100000.size a ≤ S300000.size a
  inb_S300000_S100000_200000 : ∀ a, (![200000] : Fin 1 → Nat) a + S100000.size a ≤ S300000.size a
  iota_S16_d0_w32_scVector : S16.Iotas .scVector 32 [0]
  inb_S100000_S24000_0 : ∀ a, (![0] : Fin 1 → Nat) a + S24000.size a ≤ S100000.size a
  shapeCasts_S32_S32x1 : S32.ShapeCasts S32x1
  shapeCasts_S1x32_S32x1 : S1x32.ShapeCasts S32x1
  shapeCasts_S1_S1x1 : S1.ShapeCasts S1x1
  inb_S10240_S10240_0 : ∀ a, (![0] : Fin 1 → Nat) a + S10240.size a ≤ S10240.size a
  h_S10240 : 0 < S10240.numel
  shapeCasts_S10240_S10240 : S10240.ShapeCasts S10240
  shapeCasts_S10240_S1x10240 : S10240.ShapeCasts S1x10240
  inb_S32x4_S32x4_0_0 : ∀ a, (![0, 0] : Fin 2 → Nat) a + S32x4.size a ≤ S32x4.size a
  h_S32x4 : 0 < S32x4.numel
  slices_S32x4_o0_0_S32x1 : S32x4.Slices ![0, 0] S32x1
  broadcasts_S32x1_S32x10240 : S32x1.Broadcasts S32x10240
  broadcasts_S1x10240_S32x10240 : S1x10240.Broadcasts S32x10240
  inb_S32x1_S32x1_0_0 : ∀ a, (![0, 0] : Fin 2 → Nat) a + S32x1.size a ≤ S32x1.size a
  h_S32x1 : 0 < S32x1.numel
  shapeCasts_S32x1_S32x1 : S32x1.ShapeCasts S32x1
  slices_S32x4_o0_1_S32x1 : S32x4.Slices ![0, 1] S32x1
  slices_S32x4_o0_2_S32x1 : S32x4.Slices ![0, 2] S32x1
  slices_S32x4_o0_3_S32x1 : S32x4.Slices ![0, 3] S32x1
  inb_S32x32_S32x32_0_0 : ∀ a, (![0, 0] : Fin 2 → Nat) a + S32x32.size a ≤ S32x32.size a
  h_S32x32 : 0 < S32x32.numel
  reduces_S32x10240_S10240 : S32x10240.Reduces [0] S10240
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x10240 : S1x1.Broadcasts S1x10240
  shapeCasts_S1x10240_S10240 : S1x10240.ShapeCasts S10240
  shapeCasts_S3200000_S32x100000 : S3200000.ShapeCasts S32x100000
  inb_S32x8192_S32x8192_0_0 : ∀ a, (![0, 0] : Fin 2 → Nat) a + S32x8192.size a ≤ S32x8192.size a
  h_S32x8192 : 0 < S32x8192.numel
  shapeCasts_S32x8192_S32x8192 : S32x8192.ShapeCasts S32x8192
  slices_S32x8192_o0_0_S8x8192 : S32x8192.Slices ![0, 0] S8x8192
  reduces_S8x8192_S8192 : S8x8192.Reduces [0] S8192
  shapeCasts_S8192_S1x8192 : S8192.ShapeCasts S1x8192
  slices_S32x8192_o8_0_S8x8192 : S32x8192.Slices ![8, 0] S8x8192
  slices_S32x8192_o16_0_S8x8192 : S32x8192.Slices ![16, 0] S8x8192
  slices_S32x8192_o24_0_S8x8192 : S32x8192.Slices ![24, 0] S8x8192
  inb_S1x8192_S1x8192_0_0 : ∀ a, (![0, 0] : Fin 2 → Nat) a + S1x8192.size a ≤ S1x8192.size a
  h_S1x8192 : 0 < S1x8192.numel
  shapeCasts_S1x100000_S100000x1 : S1x100000.ShapeCasts S100000x1
  dot_S32x32_S32x10240_S32x10240_1_0_0_1_n_n_wf : DotDims.WF S32x32 S32x10240 S32x10240 [1] [0] [0] [1] [] []
  hcc0_scoped0 : 0 + S_.numel ≤ 43
  hcc0_scoped1 : 1 + S_.numel ≤ 43
  hcc0_scoped2 : 2 + S_.numel ≤ 43
  hcc0_scoped3 : 3 + S_.numel ≤ 43
  hcc0_scoped4 : 4 + S_.numel ≤ 43
  hcc0_scoped5 : 5 + S_.numel ≤ 43
  hcc0_scoped6 : 6 + S_.numel ≤ 43
  hcc0_scoped7 : 7 + S_.numel ≤ 43
  hcc0_scoped8 : 8 + S_.numel ≤ 43
  hcc0_scoped9 : 9 + S_.numel ≤ 43
  hcc0_scoped10 : 10 + S_.numel ≤ 43
  hcc0_scoped11 : 11 + S_.numel ≤ 43
  hcc0_scoped12 : 12 + S_.numel ≤ 43
  hcc0_scoped13 : 13 + S_.numel ≤ 43
  hcc2_scoped0 : 32 + S_.numel ≤ 43
  hcc2_scoped1 : 33 + S_.numel ≤ 43
  hcc2_scoped2 : 34 + S_.numel ≤ 43
  hcc2_scoped3 : 35 + S_.numel ≤ 43
  hcc2_scoped4 : 36 + S_.numel ≤ 43
  hcc2_scoped5 : 37 + S_.numel ≤ 43
  hcc2_scoped6 : 38 + S_.numel ≤ 43
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : ∀ i : grid0.Coords, ∀ (k0_h1 : k0_cond1 i = 1#1), k0_t1_loop.OK
  k0_off1_inb : ∀ (i : grid0.Coords) (k0_t1 : Fin k0_t1_loop.trips), ∀ (k0_h1 : k0_cond1 i = 1#1), ∀ a, (k0_off1 i k0_t1) a + S8000.size a ≤ S12800000.size a
  k0_off2_inb : ∀ (i : grid0.Coords) (k0_t1 : Fin k0_t1_loop.trips), ∀ (k0_h1 : k0_cond1 i = 1#1), ∀ a, (k0_off2 i k0_t1) a + S8000.size a ≤ S12800000.size a
  k0_t2_ok : ∀ i : grid0.Coords, ∀ (k0_h1 : k0_cond1 i = 1#1), k0_t2_loop.OK
  k0_off3_inb : ∀ (i : grid0.Coords) (k0_t2 : Fin k0_t2_loop.trips), ∀ (k0_h1 : k0_cond1 i = 1#1), ∀ a, (k0_off3 k0_t2) a + S16.size a ≤ S8000.size a
  k0_off4_inb : ∀ (i : grid0.Coords) (k0_t2 : Fin k0_t2_loop.trips), ∀ (k0_h1 : k0_cond1 i = 1#1), ∀ a, (k0_off4 k0_t2) a + S16.size a ≤ S8000.size a
  k0_off5_inb : ∀ (i : grid0.Coords) (k0_t2 : Fin k0_t2_loop.trips), ∀ (k0_h1 : k0_cond1 i = 1#1), ∀ a, (k0_off5 k0_t2) a + S16.size a ≤ S8000.size a
  k0_off6_inb : ∀ (i : grid0.Coords) (k0_t1 : Fin k0_t1_loop.trips), ∀ (k0_h1 : k0_cond1 i = 1#1), ∀ a, (k0_off6 i k0_t1) a + S8000.size a ≤ S6400000.size a
  k0_t3_ok : ∀ i : grid0.Coords, ∀ (k0_h2 : k0_cond2 i = 1#1), k0_t3_loop.OK
  k0_off7_inb : ∀ (i : grid0.Coords) (k0_t3 : Fin k0_t3_loop.trips), ∀ (k0_h2 : k0_cond2 i = 1#1), ∀ a, (k0_off7 i k0_t3) a + S8000.size a ≤ S12800000.size a
  k0_off8_inb : ∀ (i : grid0.Coords) (k0_t3 : Fin k0_t3_loop.trips), ∀ (k0_h2 : k0_cond2 i = 1#1), ∀ a, (k0_off8 i k0_t3) a + S8000.size a ≤ S12800000.size a
  k0_t4_ok : ∀ i : grid0.Coords, ∀ (k0_h2 : k0_cond2 i = 1#1), k0_t4_loop.OK
  k0_off9_inb : ∀ (i : grid0.Coords) (k0_t4 : Fin k0_t4_loop.trips), ∀ (k0_h2 : k0_cond2 i = 1#1), ∀ a, (k0_off9 k0_t4) a + S16.size a ≤ S8000.size a
  k0_off10_inb : ∀ (i : grid0.Coords) (k0_t4 : Fin k0_t4_loop.trips), ∀ (k0_h2 : k0_cond2 i = 1#1), ∀ a, (k0_off10 k0_t4) a + S16.size a ≤ S8000.size a
  k0_off11_inb : ∀ (i : grid0.Coords) (k0_t4 : Fin k0_t4_loop.trips), ∀ (k0_h2 : k0_cond2 i = 1#1), ∀ a, (k0_off11 k0_t4) a + S16.size a ≤ S8000.size a
  k0_off12_inb : ∀ (i : grid0.Coords) (k0_t3 : Fin k0_t3_loop.trips), ∀ (k0_h2 : k0_cond2 i = 1#1), ∀ a, (k0_off12 i k0_t3) a + S8000.size a ≤ S6400000.size a
  k0_t5_ok : ∀ i : grid0.Coords, ∀ (k0_h3 : k0_cond3 i = 1#1), k0_t5_loop.OK
  k0_off13_inb : ∀ (i : grid0.Coords) (k0_t5 : Fin k0_t5_loop.trips), ∀ (k0_h3 : k0_cond3 i = 1#1), ∀ a, (k0_off13 i k0_t5) a + S8000.size a ≤ S12800000.size a
  k0_off14_inb : ∀ (i : grid0.Coords) (k0_t5 : Fin k0_t5_loop.trips), ∀ (k0_h3 : k0_cond3 i = 1#1), ∀ a, (k0_off14 i k0_t5) a + S8000.size a ≤ S12800000.size a
  k0_t6_ok : ∀ i : grid0.Coords, ∀ (k0_h3 : k0_cond3 i = 1#1), k0_t6_loop.OK
  k0_off15_inb : ∀ (i : grid0.Coords) (k0_t6 : Fin k0_t6_loop.trips), ∀ (k0_h3 : k0_cond3 i = 1#1), ∀ a, (k0_off15 k0_t6) a + S16.size a ≤ S8000.size a
  k0_off16_inb : ∀ (i : grid0.Coords) (k0_t6 : Fin k0_t6_loop.trips), ∀ (k0_h3 : k0_cond3 i = 1#1), ∀ a, (k0_off16 k0_t6) a + S16.size a ≤ S8000.size a
  k0_off17_inb : ∀ (i : grid0.Coords) (k0_t6 : Fin k0_t6_loop.trips), ∀ (k0_h3 : k0_cond3 i = 1#1), ∀ a, (k0_off17 k0_t6) a + S16.size a ≤ S8000.size a
  k0_off18_inb : ∀ (i : grid0.Coords) (k0_t5 : Fin k0_t5_loop.trips), ∀ (k0_h3 : k0_cond3 i = 1#1), ∀ a, (k0_off18 i k0_t5) a + S8000.size a ≤ S6400000.size a
  k0_t7_ok : ∀ i : grid0.Coords, ∀ (k0_h4 : k0_cond4 i = 1#1), k0_t7_loop.OK
  k0_off19_inb : ∀ (i : grid0.Coords) (k0_t7 : Fin k0_t7_loop.trips), ∀ (k0_h4 : k0_cond4 i = 1#1), ∀ a, (k0_off19 i k0_t7) a + S24000.size a ≤ S19200000.size a
  k0_t8_ok : ∀ i : grid0.Coords, ∀ (k0_h4 : k0_cond4 i = 1#1), k0_t8_loop.OK
  k0_off20_inb : ∀ (i : grid0.Coords) (k0_t8 : Fin k0_t8_loop.trips), ∀ (k0_h4 : k0_cond4 i = 1#1), ∀ a, (k0_off20 k0_t8) a + S16.size a ≤ S8000.size a
  k0_off21_inb : ∀ (i : grid0.Coords) (k0_t7 : Fin k0_t7_loop.trips), ∀ (k0_h4 : k0_cond4 i = 1#1), ∀ a, (k0_off21 i k0_t7) a + S8000.size a ≤ S6400000.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10240.size a ≤ S6400000.size a
  hwx1_0 : ∀ i : grid1.Coords, EltTy.bits .f32 = 32 ∨ (Rect.block (s := S6400000) S10240.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10240.size a ≤ S6400000.size a
  hwx1_1 : ∀ i : grid1.Coords, EltTy.bits .f32 = 32 ∨ (Rect.block (s := S6400000) S10240.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10240.size a ≤ S6400000.size a
  hwx1_2 : ∀ i : grid1.Coords, EltTy.bits .f32 = 32 ∨ (Rect.block (s := S6400000) S10240.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10240.size a ≤ S6400000.size a
  hwx1_3 : ∀ i : grid1.Coords, EltTy.bits .f32 = 32 ∨ (Rect.block (s := S6400000) S10240.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x4.size a ≤ S32x4.size a
  hwx1_4 : ∀ i : grid1.Coords, EltTy.bits .f32 = 32 ∨ (Rect.block (s := S32x4) S32x4.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x1.size a ≤ S32x1.size a
  hwx1_5 : ∀ i : grid1.Coords, EltTy.bits .f32 = 32 ∨ (Rect.block (s := S32x1) S32x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S32x32.size a ≤ S32x32.size a
  hwx1_6 : ∀ i : grid1.Coords, EltTy.bits .f32 = 32 ∨ (Rect.block (s := S32x32) S32x32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S32x1.size a ≤ S32x1.size a
  hwx1_7 : ∀ i : grid1.Coords, EltTy.bits .f32 = 32 ∨ (Rect.block (s := S32x1) S32x1.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S32x1.size a ≤ S32x1.size a
  hwx1_8 : ∀ i : grid1.Coords, EltTy.bits .f32 = 32 ∨ (Rect.block (s := S32x1) S32x1.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x1.size a ≤ S1x1.size a
  hwx1_9 : ∀ i : grid1.Coords, EltTy.bits .f32 = 32 ∨ (Rect.block (s := S1x1) S1x1.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S10240.size a ≤ S6400000.size a
  hwx1_10 : ∀ i : grid1.Coords, EltTy.bits .f32 = 32 ∨ (Rect.block (s := S6400000) S10240.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S10240.size a ≤ S6400000.size a
  hwx1_11 : ∀ i : grid1.Coords, EltTy.bits .f32 = 32 ∨ (Rect.block (s := S6400000) S10240.size (cc1_transform_11 i) (hinb1_11 i)).WholeWords (EltTy.packing .f32)
  hcore2 : grid2.bound 0 ≤ τ.nSC
  hsub2 : grid2.bound 1 ≤ τ.nSub
  k2_t1_ok : k2_t1_loop.OK
  k2_off1_inb : ∀ k2_t1 : Fin k2_t1_loop.trips, ∀ a, (k2_off1 k2_t1) a + S16.size a ≤ S100000.size a
  k2_t2_ok : ∀ i : grid2.Coords, ∀ (k2_h1 : k2_cond1 i = 1#1), k2_t2_loop.OK
  k2_off2_inb : ∀ (i : grid2.Coords) (k2_t2 : Fin k2_t2_loop.trips), ∀ (k2_h1 : k2_cond1 i = 1#1), ∀ a, (k2_off2 i k2_t2) a + S8000.size a ≤ S12800000.size a
  k2_off3_inb : ∀ (i : grid2.Coords) (k2_t2 : Fin k2_t2_loop.trips), ∀ (k2_h1 : k2_cond1 i = 1#1), ∀ a, (k2_off3 i k2_t2) a + S8000.size a ≤ S6400000.size a
  k2_t3_ok : ∀ i : grid2.Coords, ∀ (k2_h1 : k2_cond1 i = 1#1), k2_t3_loop.OK
  k2_off4_inb : ∀ (i : grid2.Coords) (k2_t3 : Fin k2_t3_loop.trips), ∀ (k2_h1 : k2_cond1 i = 1#1), ∀ a, (k2_off4 k2_t3) a + S16.size a ≤ S8000.size a
  k2_t4_ok : ∀ i : grid2.Coords, ∀ (k2_h2 : k2_cond2 i = 1#1), k2_t4_loop.OK
  k2_off5_inb : ∀ (i : grid2.Coords) (k2_t4 : Fin k2_t4_loop.trips), ∀ (k2_h2 : k2_cond2 i = 1#1), ∀ a, (k2_off5 i k2_t4) a + S8000.size a ≤ S12800000.size a
  k2_off6_inb : ∀ (i : grid2.Coords) (k2_t4 : Fin k2_t4_loop.trips), ∀ (k2_h2 : k2_cond2 i = 1#1), ∀ a, (k2_off6 i k2_t4) a + S8000.size a ≤ S6400000.size a
  k2_t5_ok : ∀ i : grid2.Coords, ∀ (k2_h2 : k2_cond2 i = 1#1), k2_t5_loop.OK
  k2_off7_inb : ∀ (i : grid2.Coords) (k2_t5 : Fin k2_t5_loop.trips), ∀ (k2_h2 : k2_cond2 i = 1#1), ∀ a, (k2_off7 k2_t5) a + S16.size a ≤ S8000.size a
  k2_t6_ok : ∀ i : grid2.Coords, ∀ (k2_h3 : k2_cond3 i = 1#1), k2_t6_loop.OK
  k2_off8_inb : ∀ (i : grid2.Coords) (k2_t6 : Fin k2_t6_loop.trips), ∀ (k2_h3 : k2_cond3 i = 1#1), ∀ a, (k2_off8 i k2_t6) a + S8000.size a ≤ S12800000.size a
  k2_t7_ok : ∀ i : grid2.Coords, ∀ (k2_h3 : k2_cond3 i = 1#1), k2_t7_loop.OK
  k2_off9_inb : ∀ (i : grid2.Coords) (k2_t7 : Fin k2_t7_loop.trips), ∀ (k2_h3 : k2_cond3 i = 1#1), ∀ a, (k2_off9 k2_t7) a + S16.size a ≤ S8000.size a
  k2_t8_ok : ∀ i : grid2.Coords, ∀ (k2_h4 : k2_cond4 i = 1#1), k2_t8_loop.OK
  k2_off10_inb : ∀ (i : grid2.Coords) (k2_t8 : Fin k2_t8_loop.trips), ∀ (k2_h4 : k2_cond4 i = 1#1), ∀ a, (k2_off10 i k2_t8) a + S8000.size a ≤ S12800000.size a
  k2_t9_ok : ∀ i : grid2.Coords, ∀ (k2_h4 : k2_cond4 i = 1#1), k2_t9_loop.OK
  k2_off11_inb : ∀ (i : grid2.Coords) (k2_t9 : Fin k2_t9_loop.trips), ∀ (k2_h4 : k2_cond4 i = 1#1), ∀ a, (k2_off11 k2_t9) a + S16.size a ≤ S8000.size a
  k2_off12_inb : ∀ i : grid2.Coords, ∀ a, (k2_off12 i) a + S100000.size a ≤ S3200000.size a
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hstart3_0 : ∀ (i : grid3.Coords) a, cc3_transform_0 i a * S32x8192.size a < S32x100000.size a
  hwx3_0 : ∀ i : grid3.Coords, EltTy.bits .f32 = 32 ∨ (Rect.unit (s := S32x100000) (fun a => cc3_transform_0 i a * S32x8192.size a) (fun a => (Pipeline.Clip.of (cc3_transform_0 i a) (S32x8192.size a) (S32x100000.size a)).extent (S32x8192.size a)) fun a => Pipeline.Clip.inb (Pipeline.Clip.ok_of (hstart3_0 i a))).WholeWords (EltTy.packing .f32)
  hwxs3_0 : ∀ i : grid3.Coords, EltTy.bits .f32 = 32 ∨ (Rect.unit (s := S32x8192) (fun _ => 0) (fun a => (Pipeline.Clip.of (cc3_transform_0 i a) (S32x8192.size a) (S32x100000.size a)).extent (S32x8192.size a)) fun a => (Nat.zero_add _).trans_le (Pipeline.Clip.extent_le (Pipeline.Clip.ok_of (hstart3_0 i a)))).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hstart3_1 : ∀ (i : grid3.Coords) a, cc3_transform_1 i a * S1x8192.size a < S1x100000.size a
  hwx3_1 : ∀ i : grid3.Coords, EltTy.bits .f32 = 32 ∨ (Rect.unit (s := S1x100000) (fun a => cc3_transform_1 i a * S1x8192.size a) (fun a => (Pipeline.Clip.of (cc3_transform_1 i a) (S1x8192.size a) (S1x100000.size a)).extent (S1x8192.size a)) fun a => Pipeline.Clip.inb (Pipeline.Clip.ok_of (hstart3_1 i a))).WholeWords (EltTy.packing .f32)
  hwxs3_1 : ∀ i : grid3.Coords, EltTy.bits .f32 = 32 ∨ (Rect.unit (s := S1x8192) (fun _ => 0) (fun a => (Pipeline.Clip.of (cc3_transform_1 i a) (S1x8192.size a) (S1x100000.size a)).extent (S1x8192.size a)) fun a => (Nat.zero_add _).trans_le (Pipeline.Clip.extent_le (Pipeline.Clip.ok_of (hstart3_1 i a)))).WholeWords (EltTy.packing .f32)

variable [Facts₀]

abbrev cc0_scoped0 : DmaSems sig S_ := SemArray.consecutive 0 S_ hcc0_scoped0
abbrev cc0_scoped1 : DmaSems sig S_ := SemArray.consecutive 1 S_ hcc0_scoped1
abbrev cc0_scoped2 : DmaSems sig S_ := SemArray.consecutive 2 S_ hcc0_scoped2
abbrev cc0_scoped3 : DmaSems sig S_ := SemArray.consecutive 3 S_ hcc0_scoped3
abbrev cc0_scoped4 : DmaSems sig S_ := SemArray.consecutive 4 S_ hcc0_scoped4
abbrev cc0_scoped5 : DmaSems sig S_ := SemArray.consecutive 5 S_ hcc0_scoped5
abbrev cc0_scoped6 : DmaSems sig S_ := SemArray.consecutive 6 S_ hcc0_scoped6
abbrev cc0_scoped7 : DmaSems sig S_ := SemArray.consecutive 7 S_ hcc0_scoped7
abbrev cc0_scoped8 : DmaSems sig S_ := SemArray.consecutive 8 S_ hcc0_scoped8
abbrev cc0_scoped9 : DmaSems sig S_ := SemArray.consecutive 9 S_ hcc0_scoped9
abbrev cc0_scoped10 : DmaSems sig S_ := SemArray.consecutive 10 S_ hcc0_scoped10
abbrev cc0_scoped11 : DmaSems sig S_ := SemArray.consecutive 11 S_ hcc0_scoped11
abbrev cc0_scoped12 : DmaSems sig S_ := SemArray.consecutive 12 S_ hcc0_scoped12
abbrev cc0_scoped13 : DmaSems sig S_ := SemArray.consecutive 13 S_ hcc0_scoped13
abbrev cc2_scoped0 : DmaSems sig S_ := SemArray.consecutive 32 S_ hcc2_scoped0
abbrev cc2_scoped1 : DmaSems sig S_ := SemArray.consecutive 33 S_ hcc2_scoped1
abbrev cc2_scoped2 : DmaSems sig S_ := SemArray.consecutive 34 S_ hcc2_scoped2
abbrev cc2_scoped3 : DmaSems sig S_ := SemArray.consecutive 35 S_ hcc2_scoped3
abbrev cc2_scoped4 : DmaSems sig S_ := SemArray.consecutive 36 S_ hcc2_scoped4
abbrev cc2_scoped5 : DmaSems sig S_ := SemArray.consecutive 37 S_ hcc2_scoped5
abbrev cc2_scoped6 : DmaSems sig S_ := SemArray.consecutive 38 S_ hcc2_scoped6
def dot_S32x32_S32x10240_S32x10240_1_0_0_1_n_n : DotDims S32x32 S32x10240 S32x10240 where
  lhsContracting := [1]
  rhsContracting := [0]
  lhsNonContracting := [0]
  rhsNonContracting := [1]
  lhsBatch := []
  rhsBatch := []
  wf := dot_S32x32_S32x10240_S32x10240_1_0_0_1_n_n_wf

abbrev win1_0 : Pipeline.Window sig grid1 :=
  Pipeline.Window.ofSpec (Memref.whole main_v4_0) S10240.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_1) S10240.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4_2) S10240.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4_3) S10240.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S32x4.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S32x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg5) S32x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v6) S32x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v7) S32x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v8) S1x1.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v9_0) S10240.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v9_1) S10240.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

abbrev win3_0 : Pipeline.Window sig grid3 :=
  Pipeline.Window.ofSpecClip (Memref.whole main_v11) S32x8192.size cc3_transform_0 reads3_0 false false 2 stage3_0 sem3_0
    hrank3 hreads3_0 hstart3_0 nbuf3_0 (Memref.isWhole_whole _) hwx3_0 hwxs3_0 hstage3_0

abbrev win3_1 : Pipeline.Window sig grid3 :=
  Pipeline.Window.ofSpecClip (Memref.whole main_v12) S1x8192.size cc3_transform_1 reads3_1 true false 2 stage3_1 sem3_1
    hrank3 hreads3_1 hstart3_1 nbuf3_1 (Memref.isWhole_whole _) hwx3_1 hwxs3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

class Facts : Prop extends Facts₀ where

variable [Facts]
-- ==== ReferenceIdeal.lean ====
abbrev S2x6400000 : Shape := ⟨2, ![2, 6400000]⟩
abbrev S6400000x3 : Shape := ⟨2, ![6400000, 3]⟩
abbrev S100000x3 : Shape := ⟨2, ![100000, 3]⟩
abbrev S32x4 : Shape := ⟨2, ![32, 4]⟩
abbrev S32 : Shape := ⟨1, ![32]⟩
abbrev S32x32 : Shape := ⟨2, ![32, 32]⟩
abbrev S1x32 : Shape := ⟨2, ![1, 32]⟩
abbrev S1 : Shape := ⟨1, ![1]⟩
abbrev S1x6400000 : Shape := ⟨2, ![1, 6400000]⟩
abbrev S6400000 : Shape := ⟨1, ![6400000]⟩
abbrev S_ : Shape := ⟨0, ![]⟩
abbrev S6400000x1 : Shape := ⟨2, ![6400000, 1]⟩
abbrev S6400000x4 : Shape := ⟨2, ![6400000, 4]⟩
abbrev S4x32 : Shape := ⟨2, ![4, 32]⟩
abbrev S6400000x32 : Shape := ⟨2, ![6400000, 32]⟩
abbrev S32x1 : Shape := ⟨2, ![32, 1]⟩
abbrev S1x1 : Shape := ⟨2, ![1, 1]⟩
abbrev S100000x1 : Shape := ⟨2, ![100000, 1]⟩

abbrev nBuf : Space → Nat
  | .hbm => 140
  | .vmem => 0
  | .smem => 0
  | _ => 0

abbrev hbmTy0_0 (i : Nat) : BufTy := match i % 128 with
  | 0 => ⟨S2x6400000, .i32⟩
  | 1 => ⟨S6400000x3, .f32⟩
  | 2 => ⟨S100000x3, .f32⟩
  | 3 => ⟨S32x4, .f32⟩
  | 4 => ⟨S32, .f32⟩
  | 5 => ⟨S32x32, .f32⟩
  | 6 => ⟨S32, .f32⟩
  | 7 => ⟨S1x32, .f32⟩
  | 8 => ⟨S1, .f32⟩
  | 9 => ⟨S1x6400000, .i32⟩
  | 10 => ⟨S6400000, .i32⟩
  | 11 => ⟨S1x6400000, .i32⟩
  | 12 => ⟨S6400000, .i32⟩
  | 13 => ⟨S_, .i32⟩
  | 14 => ⟨S6400000, .i32⟩
  | 15 => ⟨S6400000, .i1⟩
  | 16 => ⟨S_, .i32⟩
  | 17 => ⟨S6400000, .i32⟩
  | 18 => ⟨S6400000, .i32⟩
  | 19 => ⟨S6400000, .i32⟩
  | 20 => ⟨S6400000x1, .i32⟩
  | 21 => ⟨S6400000x3, .f32⟩
  | 22 => ⟨S_, .i32⟩
  | 23 => ⟨S6400000, .i32⟩
  | 24 => ⟨S6400000, .i1⟩
  | 25 => ⟨S_, .i32⟩
  | 26 => ⟨S6400000, .i32⟩
  | 27 => ⟨S6400000, .i32⟩
  | 28 => ⟨S6400000, .i32⟩
  | 29 => ⟨S6400000x1, .i32⟩
  | 30 => ⟨S6400000x3, .f32⟩
  | 31 => ⟨S6400000x3, .f32⟩
  | 32 => ⟨S6400000x3, .f32⟩
  | 33 => ⟨S_, .f32⟩
  | 34 => ⟨S6400000, .f32⟩
  | 35 => ⟨S6400000x1, .f32⟩
  | 36 => ⟨S6400000x1, .f32⟩
  | 37 => ⟨S_, .f32⟩
  | 38 => ⟨S6400000x1, .f32⟩
  | 39 => ⟨S6400000x1, .f32⟩
  | 40 => ⟨S6400000x4, .f32⟩
  | 41 => ⟨S4x32, .f32⟩
  | 42 => ⟨S6400000x32, .f32⟩
  | 43 => ⟨S1x32, .f32⟩
  | 44 => ⟨S6400000x32, .f32⟩
  | 45 => ⟨S6400000x32, .f32⟩
  | 46 => ⟨S6400000x32, .f32⟩
  | 47 => ⟨S6400000x32, .f32⟩
  | 48 => ⟨S_, .f32⟩
  | 49 => ⟨S6400000x32, .f32⟩
  | 50 => ⟨S6400000x32, .f32⟩
  | 51 => ⟨S_, .f32⟩
  | 52 => ⟨S6400000x32, .f32⟩
  | 53 => ⟨S6400000x32, .f32⟩
  | 54 => ⟨S6400000x32, .f32⟩
  | 55 => ⟨S32x32, .f32⟩
  | 56 => ⟨S6400000x32, .f32⟩
  | 57 => ⟨S1x32, .f32⟩
  | 58 => ⟨S6400000x32, .f32⟩
  | 59 => ⟨S6400000x32, .f32⟩
  | 60 => ⟨S6400000x32, .f32⟩
  | 61 => ⟨S6400000x32, .f32⟩
  | 62 => ⟨S_, .f32⟩
  | 63 => ⟨S6400000x32, .f32⟩
  | 64 => ⟨S6400000x32, .f32⟩
  | 65 => ⟨S_, .f32⟩
  | 66 => ⟨S6400000x32, .f32⟩
  | 67 => ⟨S6400000x32, .f32⟩
  | 68 => ⟨S6400000x32, .f32⟩
  | 69 => ⟨S32x1, .f32⟩
  | 70 => ⟨S6400000x1, .f32⟩
  | 71 => ⟨S1x1, .f32⟩
  | 72 => ⟨S6400000x1, .f32⟩
  | 73 => ⟨S6400000x1, .f32⟩
  | 74 => ⟨S6400000x3, .f32⟩
  | 75 => ⟨S6400000x4, .f32⟩
  | 76 => ⟨S4x32, .f32⟩
  | 77 => ⟨S6400000x32, .f32⟩
  | 78 => ⟨S1x32, .f32⟩
  | 79 => ⟨S6400000x32, .f32⟩
  | 80 => ⟨S6400000x32, .f32⟩
  | 81 => ⟨S6400000x32, .f32⟩
  | 82 => ⟨S6400000x32, .f32⟩
  | 83 => ⟨S_, .f32⟩
  | 84 => ⟨S6400000x32, .f32⟩
  | 85 => ⟨S6400000x32, .f32⟩
  | 86 => ⟨S_, .f32⟩
  | 87 => ⟨S6400000x32, .f32⟩
  | 88 => ⟨S6400000x32, .f32⟩
  | 89 => ⟨S6400000x32, .f32⟩
  | 90 => ⟨S32x32, .f32⟩
  | 91 => ⟨S6400000x32, .f32⟩
  | 92 => ⟨S1x32, .f32⟩
  | 93 => ⟨S6400000x32, .f32⟩
  | 94 => ⟨S6400000x32, .f32⟩
  | 95 => ⟨S6400000x32, .f32⟩
  | 96 => ⟨S6400000x32, .f32⟩
  | 97 => ⟨S_, .f32⟩
  | 98 => ⟨S6400000x32, .f32⟩
  | 99 => ⟨S6400000x32, .f32⟩
  | 100 => ⟨S_, .f32⟩
  | 101 => ⟨S6400000x32, .f32⟩
  | 102 => ⟨S6400000x32, .f32⟩
  | 103 => ⟨S6400000x32, .f32⟩
  | 104 => ⟨S32x1, .f32⟩
  | 105 => ⟨S6400000x1, .f32⟩
  | 106 => ⟨S1x1, .f32⟩
  | 107 => ⟨S6400000x1, .f32⟩
  | 108 => ⟨S6400000x1, .f32⟩
  | 109 => ⟨S_, .f32⟩
  | 110 => ⟨S100000x1, .f32⟩
  | 111 => ⟨S6400000x1, .i32⟩
  | 112 => ⟨S100000x1, .f32⟩
  | 113 => ⟨S_, .f32⟩
  | 114 => ⟨S6400000x1, .f32⟩
  | 115 => ⟨S_, .f32⟩
  | 116 => ⟨S100000x1, .f32⟩
  | 117 => ⟨S6400000x1, .i32⟩
  | 118 => ⟨S100000x1, .f32⟩
  | 119 => ⟨S_, .f32⟩
  | 120 => ⟨S_, .f32⟩
  | 121 => ⟨S100000x1, .f32⟩
  | 122 => ⟨S100000x1, .f32⟩
  | 123 => ⟨S100000x1, .f32⟩
  | 124 => ⟨S_, .f32⟩
  | 125 => ⟨S100000x1, .f32⟩
  | 126 => ⟨S6400000x1, .i32⟩
  | 127 => ⟨S100000x1, .f32⟩
  | _ => ⟨S2x6400000, .i32⟩

abbrev hbmTy0_1 (i : Nat) : BufTy := match i % 128 with
  | 0 => ⟨S_, .f32⟩
  | 1 => ⟨S6400000x1, .f32⟩
  | 2 => ⟨S_, .f32⟩
  | 3 => ⟨S100000x1, .f32⟩
  | 4 => ⟨S6400000x1, .i32⟩
  | 5 => ⟨S100000x1, .f32⟩
  | 6 => ⟨S_, .f32⟩
  | 7 => ⟨S_, .f32⟩
  | 8 => ⟨S100000x1, .f32⟩
  | 9 => ⟨S100000x1, .f32⟩
  | 10 => ⟨S100000x1, .f32⟩
  | 11 => ⟨S100000x1, .f32⟩
  | _ => ⟨S2x6400000, .i32⟩

abbrev hbmTy (i : Nat) : BufTy := match i / 128 with
  | 0 => hbmTy0_0 i
  | 1 => hbmTy0_1 i
  | _ => ⟨S2x6400000, .i32⟩

abbrev bufTy : (tb : Table) → Fin (tcTables nBuf tb) → BufTy
  | .hbm, ⟨i, _⟩ => hbmTy i
  | _, _ => ⟨S2x6400000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_call1_v0 : Ref sig .tc := ⟨.hbm, 60, rfl⟩
abbrev main_call1_v1 : Ref sig .tc := ⟨.hbm, 61, rfl⟩
abbrev main_call1_cst : Ref sig .tc := ⟨.hbm, 62, rfl⟩
abbrev main_call1_v2 : Ref sig .tc := ⟨.hbm, 63, rfl⟩
abbrev main_call1_v3 : Ref sig .tc := ⟨.hbm, 64, rfl⟩
abbrev main_call1_cst_0 : Ref sig .tc := ⟨.hbm, 65, rfl⟩
abbrev main_call1_v4 : Ref sig .tc := ⟨.hbm, 66, rfl⟩
abbrev main_call1_v5 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_call2_v0 : Ref sig .tc := ⟨.hbm, 81, rfl⟩
abbrev main_call2_v1 : Ref sig .tc := ⟨.hbm, 82, rfl⟩
abbrev main_call2_cst : Ref sig .tc := ⟨.hbm, 83, rfl⟩
abbrev main_call2_v2 : Ref sig .tc := ⟨.hbm, 84, rfl⟩
abbrev main_call2_v3 : Ref sig .tc := ⟨.hbm, 85, rfl⟩
abbrev main_call2_cst_0 : Ref sig .tc := ⟨.hbm, 86, rfl⟩
abbrev main_call2_v4 : Ref sig .tc := ⟨.hbm, 87, rfl⟩
abbrev main_call2_v5 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_call3_v0 : Ref sig .tc := ⟨.hbm, 95, rfl⟩
abbrev main_call3_v1 : Ref sig .tc := ⟨.hbm, 96, rfl⟩
abbrev main_call3_cst : Ref sig .tc := ⟨.hbm, 97, rfl⟩
abbrev main_call3_v2 : Ref sig .tc := ⟨.hbm, 98, rfl⟩
abbrev main_call3_v3 : Ref sig .tc := ⟨.hbm, 99, rfl⟩
abbrev main_call3_cst_0 : Ref sig .tc := ⟨.hbm, 100, rfl⟩
abbrev main_call3_v4 : Ref sig .tc := ⟨.hbm, 101, rfl⟩
abbrev main_call3_v5 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_cst_4 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_cst_5 : Ref sig .tc := ⟨.hbm, 113, rfl⟩
abbrev main_v65 : Ref sig .tc := ⟨.hbm, 114, rfl⟩
abbrev main_cst_6 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_cst_7 : Ref sig .tc := ⟨.hbm, 119, rfl⟩
abbrev main_call4_v0 : Ref sig .tc := ⟨.hbm, 120, rfl⟩
abbrev main_call4_v1 : Ref sig .tc := ⟨.hbm, 121, rfl⟩
abbrev main_v69 : Ref sig .tc := ⟨.hbm, 122, rfl⟩
abbrev main_v70 : Ref sig .tc := ⟨.hbm, 123, rfl⟩
abbrev main_cst_8 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_cst_9 : Ref sig .tc := ⟨.hbm, 128, rfl⟩
abbrev main_v74 : Ref sig .tc := ⟨.hbm, 129, rfl⟩
abbrev main_cst_10 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_cst_11 : Ref sig .tc := ⟨.hbm, 134, rfl⟩
abbrev main_call5_v0 : Ref sig .tc := ⟨.hbm, 135, rfl⟩
abbrev main_call5_v1 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  reducesTo_S6400000x3_S6400000_d1 : S6400000x3.ReducesTo [1] S6400000
  h_S_ : 0 < S_.numel
  bcast_S_S6400000x1 : S_.BroadcastsInDim S6400000x1 (![] : Fin 0 → Fin S6400000x1.rank)
  concatenates_S6400000x1_S6400000x3_S6400000x4_d1 : Shape.Concatenates [S6400000x1, S6400000x3] S6400000x4 1
  transposes_S32x4_S4x32_1_0 : S32x4.Transposes [1, 0] S4x32
  bcast_S32_S1x32_1 : S32.BroadcastsInDim S1x32 (![1] : Fin 1 → Fin S1x32.rank)
  bcast_S1x32_S6400000x32_0_1 : S1x32.BroadcastsInDim S6400000x32 (![0, 1] : Fin 2 → Fin S6400000x32.rank)
  bcast_S_S6400000x32 : S_.BroadcastsInDim S6400000x32 (![] : Fin 0 → Fin S6400000x32.rank)
  transposes_S32x32_S32x32_1_0 : S32x32.Transposes [1, 0] S32x32
  transposes_S1x32_S32x1_1_0 : S1x32.Transposes [1, 0] S32x1
  bcast_S1_S1x1_1 : S1.BroadcastsInDim S1x1 (![1] : Fin 1 → Fin S1x1.rank)
  bcast_S1x1_S6400000x1_0_1 : S1x1.BroadcastsInDim S6400000x1 (![0, 1] : Fin 2 → Fin S6400000x1.rank)
  bcast_S_S100000x1 : S_.BroadcastsInDim S100000x1 (![] : Fin 0 → Fin S100000x1.rank)
  gather_S100000x3_S6400000x1_S6400000x3_1_0_n_n_0_1_13_wf : GatherDims.WF S100000x3 S6400000x1 S6400000x3 [1] [0] [] [0] [] 1 ![1, 3]
  dot_S6400000x4_S4x32_S6400000x32_1_0_0_1_n_n_wf : DotDims.WF S6400000x4 S4x32 S6400000x32 [1] [0] [0] [1] [] []
  dot_S6400000x32_S32x32_S6400000x32_1_0_0_1_n_n_wf : DotDims.WF S6400000x32 S32x32 S6400000x32 [1] [0] [0] [1] [] []
  dot_S6400000x32_S32x1_S6400000x1_1_0_0_1_n_n_wf : DotDims.WF S6400000x32 S32x1 S6400000x1 [1] [0] [0] [1] [] []
  scatter_S100000x1_S6400000x1_S6400000x1_1_0_0_1_wf : ScatterDims.WF S100000x1 S6400000x1 S6400000x1 [1] [0] [0] 1

variable [Facts₀]

def gather_S100000x3_S6400000x1_S6400000x3_1_0_n_n_0_1_13 : GatherDims S100000x3 S6400000x1 S6400000x3 where
  offsetDims := [1]
  collapsedSliceDims := [0]
  operandBatchingDims := []
  startIndicesBatchingDims := []
  startIndexMap := [0]
  indexVectorDim := 1
  sliceSizes := ![1, 3]
  wf := gather_S100000x3_S6400000x1_S6400000x3_1_0_n_n_0_1_13_wf
def dot_S6400000x4_S4x32_S6400000x32_1_0_0_1_n_n : DotDims S6400000x4 S4x32 S6400000x32 where
  lhsContracting := [1]
  rhsContracting := [0]
  lhsNonContracting := [0]
  rhsNonContracting := [1]
  lhsBatch := []
  rhsBatch := []
  wf := dot_S6400000x4_S4x32_S6400000x32_1_0_0_1_n_n_wf
def dot_S6400000x32_S32x32_S6400000x32_1_0_0_1_n_n : DotDims S6400000x32 S32x32 S6400000x32 where
  lhsContracting := [1]
  rhsContracting := [0]
  lhsNonContracting := [0]
  rhsNonContracting := [1]
  lhsBatch := []
  rhsBatch := []
  wf := dot_S6400000x32_S32x32_S6400000x32_1_0_0_1_n_n_wf
def dot_S6400000x32_S32x1_S6400000x1_1_0_0_1_n_n : DotDims S6400000x32 S32x1 S6400000x1 where
  lhsContracting := [1]
  rhsContracting := [0]
  lhsNonContracting := [0]
  rhsNonContracting := [1]
  lhsBatch := []
  rhsBatch := []
  wf := dot_S6400000x32_S32x1_S6400000x1_1_0_0_1_n_n_wf
def scatter_S100000x1_S6400000x1_S6400000x1_1_0_0_1 : ScatterDims S100000x1 S6400000x1 S6400000x1 where
  updateWindowDims := [1]
  insertedWindowDims := [0]
  scatterDimsToOperandDims := [0]
  indexVectorDim := 1
  wf := scatter_S100000x1_S6400000x1_S6400000x1_1_0_0_1_wf

class Facts : Prop extends Facts₀ where

variable [Facts]
-- ==== Proof.Common.lean ====
/-
  Shared set-up for the kernel's run at a float instance `F`: the program as the SparseCore launch theorem sees it
  (two vector-subcore calls over two TensorCore pipelines), the launch theorem's side facts, and the ghost state —
  the launch handshakes' rounds, the two pipelines' staging-cell rounds, and the counters of local transfers.
-/
import proofs.«204254_g40355512713743_retrytranche2_1723_12_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«204254_g40355512713743_retrytranche2_1723_12_alg».proof.Proof.Gen.KernelIdeal
import proofs.«204254_g40355512713743_retrytranche2_1723_12_alg».proof.Proof.Gen.KernelIdeal.Skeleton
import proofs.«204254_g40355512713743_retrytranche2_1723_12_alg».proof.Proof.Gen.KernelIdeal.Launch
import proofs.«204254_g40355512713743_retrytranche2_1723_12_alg».proof.Proof.Gen.KernelIdeal.Points

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 2 := sc (F := F)
theorem nSub_q (q : Fin 2) : (K (F := F)).nSub q = 16 := by
  match q with
  | 0 => rfl
  | 1 => rfl
theorem nCore_q (q : Fin 2) : (K (F := F)).nCore q = 2 := by
  match q with
  | 0 => rfl
  | 1 => rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' staging-cell rounds, the transfers' counters -/

abbrev UH : Type := URounds (GSem nD τ sig) ℕ
abbrev UP : Type := URounds (GSem nD τ sig) Unit
abbrev UU : Type := UH × (UP × Counters)

/-- The handshakes' rounds library: the left factor. -/
abbrev EH : Emb UH (MT nD τ sig (HIx 2) (Elt F) ℕ UU ℕ) := embL
/-- The pipelines' staging cells' rounds library: the left factor of the right factor. -/
def EP : Emb UP (MT nD τ sig (HIx 2) (Elt F) ℕ UU ℕ) :=
  (Emb.inl : Emb UP (UP × Counters)).trans
    ((Emb.inr : Emb (UP × Counters) UU).trans (uEmb (nD := nD) (sig := sig) (Ix := HIx 2) (Val := Elt F) (Name := ℕ) (U := UU) (Lvl := ℕ)).toEmb)

instance EP_landsIn : (EP : Emb UP (MT nD τ sig (HIx 2) (Elt F) ℕ UU ℕ)).LandsIn (upEmb : UEmb _ (MT nD τ sig (HIx 2) (Elt F) ℕ UU ℕ)) := by
  unfold EP; infer_instance

example : CountersIn UU := inferInstance

end Cert.Proof.KI

end
-- ==== Proof.GatherTileDefs.lean ====
import proofs.«204254_g40355512713743_retrytranche2_1723_12_alg».proof.Proof.Common
import Idealize.ShloMosaic.Lib.ValueIdx

noncomputable section

namespace Cert.Proof.KI.Ga

open Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 eq_ix1)

variable {F : FTy → Type}

local notation "𝕄" => MT nD τ sig (HIx 2) (Elt F) ℕ UU ℕ

/-! ## The arrays of the gather call, as locations of a device -/

abbrev eiLoc (d : Dev nD) : Loc nD τ sig := (SparseCore.T d).loc main_v0
abbrev rfLoc (d : Dev nD) : Loc nD τ sig := (SparseCore.T d).loc main_v1
abbrev vtLoc (d : Dev nD) : Loc nD τ sig := (SparseCore.T d).loc main_v3
abbrev r2Loc (d : Dev nD) : Loc nD τ sig := (SparseCore.T d).loc main_v4_0
abbrev d0Loc (d : Dev nD) : Loc nD τ sig := (SparseCore.T d).loc main_v4_1
abbrev d1Loc (d : Dev nD) : Loc nD τ sig := (SparseCore.T d).loc main_v4_2
abbrev d2Loc (d : Dev nD) : Loc nD τ sig := (SparseCore.T d).loc main_v4_3

/-- A flat index from a natural number below the extent. -/
abbrev fx {n : Nat} (k : Nat) (h : k < n) : (⟨1, ![n]⟩ : Shape).Idx := ix1 ⟨k, h⟩

variable [FloatOps F]

/-! ## What the call computes, elementwise -/

/-- The node an edge-index word names, read unsigned and clamped to the table. -/
def nodeOf (w : Elt F .i32) : Nat := min (BitVec.toNat (show BitVec 32 from w)) 99999

omit [FloatOps F] in
theorem nodeOf_lt (w : Elt F .i32) : nodeOf (F := F) w < 100000 := by unfold nodeOf; omega

/-- Component `comp` of `v[i] - v[j]` for edge `e`: the two entries of column `comp` of the transposed table
    the edge's two index words name, subtracted in that order. -/
def specD (comp : Fin 3) (ei : S12800000.Idx → Elt F .i32) (vt : S300000.Idx → Elt F .f32) : S6400000.Idx → Elt F .f32 :=
  fun e =>
    FloatOps.subf (φ := .f32)
      (vt (fx (100000 * comp.val + nodeOf (F := F) (ei (fx (e 0).val (by have := (e 0).isLt; simp at this; omega))))
        (by have := nodeOf_lt (F := F) (ei (fx (e 0).val (by have := (e 0).isLt; simp at this; omega))); have := comp.isLt; omega)))
      (vt (fx (100000 * comp.val + nodeOf (F := F) (ei (fx ((e 0).val + 6400000) (by have := (e 0).isLt; simp at this; omega))))
        (by have := nodeOf_lt (F := F) (ei (fx ((e 0).val + 6400000) (by have := (e 0).isLt; simp at this; omega))); have := comp.isLt; omega)))

/-- The squared length of row `e` of `r`: `(x * x + y * y) + z * z`. -/
def specR2 (rf : S19200000.Idx → Elt F .f32) : S6400000.Idx → Elt F .f32 :=
  fun e =>
    let x : F .f32 := rf (fx (3 * (e 0).val) (by have := (e 0).isLt; simp at this; omega))
    let y : F .f32 := rf (fx (3 * (e 0).val + 1) (by have := (e 0).isLt; simp at this; omega))
    let z : F .f32 := rf (fx (3 * (e 0).val + 2) (by have := (e 0).isLt; simp at this; omega))
    FloatOps.addf (FloatOps.addf (FloatOps.mulf x x) (FloatOps.mulf y y)) (FloatOps.mulf z z)

/-! ## Tiles, their chunks, their shares -/

abbrev cV (L : grid0.Coords) : Fin τ.nSC := (L 0).castLE hcore0
abbrev jV (L : grid0.Coords) : Fin τ.nSub := (L 1).castLE hsub0
/-- The thread of tile `L`. -/
abbrev thrV (d : Dev nD) (L : grid0.Coords) : Thread nD τ := V d (cV L) (jV L)

/-- A tile's number: twice its subcore plus its core. -/
def wid (L : grid0.Coords) : Nat := 2 * (L 1).val + (L 0).val

/-- Entries `[lo, hi)` of an edge array. -/
def rng (lo hi : Nat) : Finset S6400000.Idx := Finset.univ.filter fun j => lo ≤ (j 0).val ∧ (j 0).val < hi
/-- Chunk `c` of an edge array: 800000 entries. -/
abbrev chunk (c : Nat) : Finset S6400000.Idx := rng (800000 * c) (800000 * c + 800000)

/-- The read share a tile holds of each input: the token of its number, of thirty-two. -/
def tsh (L : grid0.Coords) : PosShare TreeShare := Transfers.shareTokN fullShare (wid L)

omit [FloatOps F] in
/-- The inputs whole at a share. -/
abbrev ins (ei : S12800000.Idx → Elt F .i32) (rf : S19200000.Idx → Elt F .f32) (vt : S300000.Idx → Elt F .f32)
    (d : Dev nD) (q : PosShare TreeShare) : sProp 𝕄 :=
  iprop((eiLoc d ↦{q} ei) ∗ (rfLoc d ↦{q} rf) ∗ (vtLoc d ↦{q} vt))

omit [FloatOps F] in
/-- A tile's chunk of its output array, at some contents. -/
def outGo (d : Dev nD) (L : grid0.Coords) : sProp 𝕄 :=
  if wid L < 8 then iprop(∃ g, d0Loc d ↦[chunk (wid L)]{fullShare} g)
  else if wid L < 16 then iprop(∃ g, d1Loc d ↦[chunk (wid L - 8)]{fullShare} g)
  else if wid L < 24 then iprop(∃ g, d2Loc d ↦[chunk (wid L - 16)]{fullShare} g)
  else iprop(∃ g, r2Loc d ↦[chunk (wid L - 24)]{fullShare} g)

/-- A tile's chunk of its output array, at what the call computes. -/
def outTd (ei : S12800000.Idx → Elt F .i32) (rf : S19200000.Idx → Elt F .f32) (vt : S300000.Idx → Elt F .f32)
    (d : Dev nD) (L : grid0.Coords) : sProp 𝕄 :=
  if wid L < 8 then iprop(d0Loc d ↦[chunk (wid L)]{fullShare} specD 0 ei vt)
  else if wid L < 16 then iprop(d1Loc d ↦[chunk (wid L - 8)]{fullShare} specD 1 ei vt)
  else if wid L < 24 then iprop(d2Loc d ↦[chunk (wid L - 16)]{fullShare} specD 2 ei vt)
  else iprop(r2Loc d ↦[chunk (wid L - 24)]{fullShare} specR2 rf)

/-- What one tile is handed: a read share of the three inputs whole, its chunk of its output array. -/
def go0 (ei : S12800000.Idx → Elt F .i32) (rf : S19200000.Idx → Elt F .f32) (vt : S300000.Idx → Elt F .f32)
    (d : Dev nD) (L : grid0.Coords) : sProp 𝕄 :=
  iprop(ins ei rf vt d (tsh L) ∗ outGo (F := F) d L)
/-- What it hands back: the shares, its chunk at what the call computes. -/
def td0 (ei : S12800000.Idx → Elt F .i32) (rf : S19200000.Idx → Elt F .f32) (vt : S300000.Idx → Elt F .f32)
    (d : Dev nD) (L : grid0.Coords) : sProp 𝕄 :=
  iprop(ins ei rf vt d (tsh L) ∗ outTd ei rf vt d L)

/-- The grid point of tile `i` of SparseCore `c`. -/
def coords0 (c : Fin 2) (i : Fin 16) : grid0.Coords :=
  fun | 0 => c | 1 => i | ⟨_ + 2, h⟩ => absurd h (Nat.not_lt.2 (Nat.le_add_left _ _))

/-- One SparseCore's part: its sixteen tiles'. -/
def st0 (ei : S12800000.Idx → Elt F .i32) (rf : S19200000.Idx → Elt F .f32) (vt : S300000.Idx → Elt F .f32)
    (d : Dev nD) (c : Fin 2) : sProp 𝕄 :=
  bigSep Finset.univ fun i : Fin 16 => go0 ei rf vt d (coords0 c i)
def dn0 (ei : S12800000.Idx → Elt F .i32) (rf : S19200000.Idx → Elt F .f32) (vt : S300000.Idx → Elt F .f32)
    (d : Dev nD) (c : Fin 2) : sProp 𝕄 :=
  bigSep Finset.univ fun i : Fin 16 => td0 ei rf vt d (coords0 c i)

/-- What stays with the TensorCore across the call: the inputs' read shares no tile is handed. -/
def rem0 (ei : S12800000.Idx → Elt F .i32) (rf : S19200000.Idx → Elt F .f32) (vt : S300000.Idx → Elt F .f32)
    (d : Dev nD) : sProp 𝕄 :=
  ins ei rf vt d (Transfers.shareDrop fullShare 32)

omit [FloatOps F] in
instance outGo_storable (d : Dev nD) (L : grid0.Coords) : BI.Storable (upEmb : UEmb _ 𝕄) (outGo (F := F) d L) := by
  unfold outGo; (repeat' split) <;> infer_instance
instance outTd_storable (ei : S12800000.Idx → Elt F .i32) (rf : S19200000.Idx → Elt F .f32) (vt : S300000.Idx → Elt F .f32)
    (d : Dev nD) (L : grid0.Coords) : BI.Storable (upEmb : UEmb _ 𝕄) (outTd ei rf vt d L) := by
  unfold outTd; (repeat' split) <;> infer_instance
instance go0_storable (ei : S12800000.Idx → Elt F .i32) (rf : S19200000.Idx → Elt F .f32) (vt : S300000.Idx → Elt F .f32)
    (d : Dev nD) (L : grid0.Coords) : BI.Storable (upEmb : UEmb _ 𝕄) (go0 ei rf vt d L) := by unfold go0; infer_instance
instance td0_storable (ei : S12800000.Idx → Elt F .i32) (rf : S19200000.Idx → Elt F .f32) (vt : S300000.Idx → Elt F .f32)
    (d : Dev nD) (L : grid0.Coords) : BI.Storable (upEmb : UEmb _ 𝕄) (td0 ei rf vt d L) := by unfold td0; infer_instance
instance st0_storable (ei : S12800000.Idx → Elt F .i32) (rf : S19200000.Idx → Elt F .f32) (vt : S300000.Idx → Elt F .f32)
    (d : Dev nD) (c : Fin 2) : BI.Storable (upEmb : UEmb _ 𝕄) (st0 ei rf vt d c) := by unfold st0; infer_instance
instance dn0_storable (ei : S12800000.Idx → Elt F .i32) (rf : S19200000.Idx → Elt F .f32) (vt : S300000.Idx → Elt F .f32)
    (d : Dev nD) (c : Fin 2) : BI.Storable (upEmb : UEmb _ 𝕄) (dn0 ei rf vt d c) := by unfold dn0; infer_instance

/-! ## Which branch a tile takes -/

theorem cond1_iff (L : grid0.Coords) : k0_cond1 L = 1#1 ↔ wid L < 8 := by unfold wid; revert L; decide
theorem cond2_iff (L : grid0.Coords) : k0_cond2 L = 1#1 ↔ 8 ≤ wid L ∧ wid L < 16 := by unfold wid; revert L; decide
theorem cond3_iff (L : grid0.Coords) : k0_cond3 L = 1#1 ↔ 16 ≤ wid L ∧ wid L < 24 := by unfold wid; revert L; decide
theorem cond4_iff (L : grid0.Coords) : k0_cond4 L = 1#1 ↔ 24 ≤ wid L := by unfold wid; revert L; decide

end Cert.Proof.KI.Ga

end
-- ==== Proof.GatherTileLib.lean ====
import proofs.«204254_g40355512713743_retrytranche2_1723_12_alg».proof.Proof.Common
import Idealize.ShloMosaic.Lib.ValueIdx
import proofs.«204254_g40355512713743_retrytranche2_1723_12_alg».proof.Proof.GatherTileDefs

noncomputable section

namespace Cert.Proof.KI.Ga

open Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 eq_ix1)

variable {F : FTy → Type}

local notation "𝕄" => MT nD τ sig (HIx 2) (Elt F) ℕ UU ℕ

/-! ## A tile's scoped semaphores and scratch buffers, taken out of what the launch hands it -/

section Tile

variable (d : Dev nD) (L : grid0.Coords)

/-- The cell of a DMA semaphore of tile `L`. -/
abbrev cellV (sm : DmaSems sig S_) : GSem nD τ sig := (thrV d L, .dma sm.sem)

theorem cellV_mem (sm : DmaSems sig S_) (h : (SemLoc.dma sm.sem : SemLoc sig).isScoped .scVector = true) :
    cellV d L sm ∈ ownCells (thrV d L) := (mem_ownCells (g := cellV d L sm)).mpr ⟨rfl, h⟩

theorem cellV_ne {a b : DmaSems sig S_} (h : a.sem ≠ b.sem) : cellV d L a ≠ cellV d L b :=
  fun e => h (by have := congrArg Prod.snd e; simpa using this)

/-- Four scoped DMA semaphores of the tile, out of all its own at zero. -/
theorem ownSems0_take4 (s1 s2 s3 s4 : DmaSems sig S_)
    (h1 : (SemLoc.dma s1.sem : SemLoc sig).isScoped .scVector = true) (h2 : (SemLoc.dma s2.sem : SemLoc sig).isScoped .scVector = true)
    (h3 : (SemLoc.dma s3.sem : SemLoc sig).isScoped .scVector = true) (h4 : (SemLoc.dma s4.sem : SemLoc sig).isScoped .scVector = true)
    (n12 : s1.sem ≠ s2.sem) (n13 : s1.sem ≠ s3.sem) (n14 : s1.sem ≠ s4.sem) (n23 : s2.sem ≠ s3.sem) (n24 : s2.sem ≠ s4.sem) (n34 : s3.sem ≠ s4.sem) :
    (ownSems0 (thrV d L) : sProp 𝕄)
      = iprop(semVal (cellV d L s1) 0 ∗ semVal (cellV d L s2) 0 ∗ semVal (cellV d L s3) 0 ∗ semVal (cellV d L s4) 0
          ∗ bigSep (((((ownCells (thrV d L)).erase (cellV d L s1)).erase (cellV d L s2)).erase (cellV d L s3)).erase (cellV d L s4))
              fun g => semVal g 0) := by
  unfold SparseCore.Cfg.ownSems0
  rw [SparseCore.bigSep_erase' (cellV_mem d L s1 h1),
    SparseCore.bigSep_erase' (Finset.mem_erase.mpr ⟨(cellV_ne d L n12).symm, cellV_mem d L s2 h2⟩),
    SparseCore.bigSep_erase' (Finset.mem_erase.mpr ⟨(cellV_ne d L n23).symm, Finset.mem_erase.mpr ⟨(cellV_ne d L n13).symm, cellV_mem d L s3 h3⟩⟩),
    SparseCore.bigSep_erase' (Finset.mem_erase.mpr ⟨(cellV_ne d L n34).symm, Finset.mem_erase.mpr ⟨(cellV_ne d L n24).symm,
      Finset.mem_erase.mpr ⟨(cellV_ne d L n14).symm, cellV_mem d L s4 h4⟩⟩⟩)]

/-- Two scoped DMA semaphores of the tile, out of all its own at zero. -/
theorem ownSems0_take2 (s1 s2 : DmaSems sig S_)
    (h1 : (SemLoc.dma s1.sem : SemLoc sig).isScoped .scVector = true) (h2 : (SemLoc.dma s2.sem : SemLoc sig).isScoped .scVector = true)
    (n12 : s1.sem ≠ s2.sem) :
    (ownSems0 (thrV d L) : sProp 𝕄)
      = iprop(semVal (cellV d L s1) 0 ∗ semVal (cellV d L s2) 0
          ∗ bigSep (((ownCells (thrV d L)).erase (cellV d L s1)).erase (cellV d L s2)) fun g => semVal g 0) := by
  unfold SparseCore.Cfg.ownSems0
  rw [SparseCore.bigSep_erase' (cellV_mem d L s1 h1),
    SparseCore.bigSep_erase' (Finset.mem_erase.mpr ⟨(cellV_ne d L n12).symm, cellV_mem d L s2 h2⟩)]

abbrev pV (L : grid0.Coords) : Proc τ := Proc.scVector (cV L) (jV L)

/-- The four scratch buffers are among the tile's own: they, at some contents, and the rest. -/
theorem ownBufs_V :
    (ownBufs (thrV d L) : sProp 𝕄)
      = iprop((∃ f, (thrV d L).loc cc0_scratch0 ↦{fullShare} f) ∗ (∃ f, (thrV d L).loc cc0_scratch1 ↦{fullShare} f)
          ∗ (∃ f, (thrV d L).loc cc0_scratch2 ↦{fullShare} f) ∗ (∃ f, (thrV d L).loc cc0_scratch3 ↦{fullShare} f)
          ∗ bigSep (((((ownRefs (τ := τ) (pV L)).erase ((pV L).devRef cc0_scratch0)).erase ((pV L).devRef cc0_scratch1)).erase
              ((pV L).devRef cc0_scratch2)).erase ((pV L).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := pV L) (b := (pV L).devRef cc0_scratch0) rfl)).trans ?_
  rw [SparseCore.bigSep_erase' (Finset.mem_erase.mpr ⟨fun e => absurd (Proc.devRef_injective _ e) (show (cc0_scratch1 : Ref sig .scVector) ≠ cc0_scratch0 by decide),
      SparseCore.Cfg.mem_ownRefs_of_owner (p := pV L) (b := (pV L).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := pV L) (b := (pV L).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
      SparseCore.Cfg.mem_ownRefs_of_owner (p := pV L) (b := (pV L).devRef cc0_scratch3) rfl⟩⟩⟩)]

/-! ## The kernel's memrefs -/

abbrev eiV : Memref sig .scVector .hbm S12800000 .i32 := Memref.whole main_v0_scv
abbrev rfV : Memref sig .scVector .hbm S19200000 .f32 := Memref.whole main_v1_scv
abbrev vtV : Memref sig .scVector .hbm S300000 .f32 := Memref.whole main_v3_scv
abbrev r2V : Memref sig .scVector .hbm S6400000 .f32 := Memref.whole main_v4_0_scv
abbrev d0V : Memref sig .scVector .hbm S6400000 .f32 := Memref.whole main_v4_1_scv
abbrev d1V : Memref sig .scVector .hbm S6400000 .f32 := Memref.whole main_v4_2_scv
abbrev d2V : Memref sig .scVector .hbm S6400000 .f32 := Memref.whole main_v4_3_scv
abbrev tabV : Memref sig .scVector .vmem S100000 .f32 := Memref.whole cc0_scratch0
abbrev ibV : Memref sig .scVector .vmem S8000 .i32 := Memref.whole cc0_scratch1
abbrev jbV : Memref sig .scVector .vmem S8000 .i32 := Memref.whole cc0_scratch2
abbrev obV : Memref sig .scVector .vmem S8000 .f32 := Memref.whole cc0_scratch3

theorem pts_ei (q : PosShare TreeShare) (f : Buf (Elt F) (eiLoc d)) :
    ((eiV).view.loc (thrV d L) ↦{q} f : sProp 𝕄) = eiLoc d ↦{q} f := rfl
theorem pts_rf (q : PosShare TreeShare) (f : Buf (Elt F) (rfLoc d)) :
    ((rfV).view.loc (thrV d L) ↦{q} f : sProp 𝕄) = rfLoc d ↦{q} f := rfl
theorem pts_vt (q : PosShare TreeShare) (f : Buf (Elt F) (vtLoc d)) :
    ((vtV).view.loc (thrV d L) ↦{q} f : sProp 𝕄) = vtLoc d ↦{q} f := rfl
theorem pts_tab (f : Buf (Elt F) ((thrV d L).loc cc0_scratch0)) :
    ((tabV).view.loc (thrV d L) ↦{fullShare} f : sProp 𝕄) = (thrV d L).loc cc0_scratch0 ↦{fullShare} f := rfl
theorem pts_ib (f : Buf (Elt F) ((thrV d L).loc cc0_scratch1)) :
    ((ibV).view.loc (thrV d L) ↦{fullShare} f : sProp 𝕄) = (thrV d L).loc cc0_scratch1 ↦{fullShare} f := rfl
theorem pts_jb (f : Buf (Elt F) ((thrV d L).loc cc0_scratch2)) :
    ((jbV).view.loc (thrV d L) ↦{fullShare} f : sProp 𝕄) = (thrV d L).loc cc0_scratch2 ↦{fullShare} f := rfl
theorem pts_ob (f : Buf (Elt F) ((thrV d L).loc cc0_scratch3)) :
    ((obV).view.loc (thrV d L) ↦{fullShare} f : sProp 𝕄) = (thrV d L).loc cc0_scratch3 ↦{fullShare} f := rfl

end Tile

end Cert.Proof.KI.Ga

end
-- ==== Proof.GatherTileOff.lean ====
import proofs.«204254_g40355512713743_retrytranche2_1723_12_alg».proof.Proof.Common
import Idealize.ShloMosaic.Lib.ValueIdx
import proofs.«204254_g40355512713743_retrytranche2_1723_12_alg».proof.Proof.GatherTileDefs

noncomputable section

namespace Cert.Proof.KI.Ga

open Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 eq_ix1)

variable {F : FTy → Type}

local notation "𝕄" => MT nD τ sig (HIx 2) (Elt F) ℕ UU ℕ

/-! ## The printed offsets of the block loops, in closed form under their branch -/

theorem off1_val (L : grid0.Coords) (t : Fin k0_t1_loop.trips) (h : k0_cond1 L = 1#1) : k0_off1 L t 0 = 800000 * (wid L - 0) + 8000 * t.val := by
  revert L t; unfold wid; decide +kernel
theorem off2_val (L : grid0.Coords) (t : Fin k0_t1_loop.trips) (h : k0_cond1 L = 1#1) : k0_off2 L t 0 = 6400000 + (800000 * (wid L - 0) + 8000 * t.val) := by
  revert L t; unfold wid; decide +kernel
theorem off6_val (L : grid0.Coords) (t : Fin k0_t1_loop.trips) (h : k0_cond1 L = 1#1) : k0_off6 L t 0 = 800000 * (wid L - 0) + 8000 * t.val := by
  revert L t; unfold wid; decide +kernel

theorem off7_val (L : grid0.Coords) (t : Fin k0_t3_loop.trips) (h : k0_cond2 L = 1#1) : k0_off7 L t 0 = 800000 * (wid L - 8) + 8000 * t.val := by
  revert L t; unfold wid; decide +kernel
theorem off8_val (L : grid0.Coords) (t : Fin k0_t3_loop.trips) (h : k0_cond2 L = 1#1) : k0_off8 L t 0 = 6400000 + (800000 * (wid L - 8) + 8000 * t.val) := by
  revert L t; unfold wid; decide +kernel
theorem off12_val (L : grid0.Coords) (t : Fin k0_t3_loop.trips) (h : k0_cond2 L = 1#1) : k0_off12 L t 0 = 800000 * (wid L - 8) + 8000 * t.val := by
  revert L t; unfold wid; decide +kernel
theorem off13_val (L : grid0.Coords) (t : Fin k0_t5_loop.trips) (h : k0_cond3 L = 1#1) : k0_off13 L t 0 = 800000 * (wid L - 16) + 8000 * t.val := by
  revert L t; unfold wid; decide +kernel
theorem off14_val (L : grid0.Coords) (t : Fin k0_t5_loop.trips) (h : k0_cond3 L = 1#1) : k0_off14 L t 0 = 6400000 + (800000 * (wid L - 16) + 8000 * t.val) := by
  revert L t; unfold wid; decide +kernel
theorem off18_val (L : grid0.Coords) (t : Fin k0_t5_loop.trips) (h : k0_cond3 L = 1#1) : k0_off18 L t 0 = 800000 * (wid L - 16) + 8000 * t.val := by
  revert L t; unfold wid; decide +kernel
theorem off19_val (L : grid0.Coords) (t : Fin k0_t7_loop.trips) (h : k0_cond4 L = 1#1) : k0_off19 L t 0 = 3 * (800000 * (wid L - 24) + 8000 * t.val) := by
  revert L t; unfold wid; decide +kernel
theorem off21_val (L : grid0.Coords) (t : Fin k0_t7_loop.trips) (h : k0_cond4 L = 1#1) : k0_off21 L t 0 = 800000 * (wid L - 24) + 8000 * t.val := by
  revert L t; unfold wid; decide +kernel

end Cert.Proof.KI.Ga

end
-- ==== Proof.GatherTileVal.lean ====
import proofs.«204254_g40355512713743_retrytranche2_1723_12_alg».proof.Proof.Common
import Idealize.ShloMosaic.Lib.ValueIdx
import proofs.«204254_g40355512713743_retrytranche2_1723_12_alg».proof.Proof.GatherTileLib
import proofs.«204254_g40355512713743_retrytranche2_1723_12_alg».proof.Proof.GatherTileOff

noncomputable section

namespace Cert.Proof.KI.Ga

open Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 eq_ix1)

variable {F : FTy → Type}

local notation "𝕄" => MT nD τ sig (HIx 2) (Elt F) ℕ UU ℕ

variable [FloatOps F]

/-! ## Reading the scratch buffers at an index -/

section Val

variable (d : Dev nD) (L : grid0.Coords)

omit [FloatOps F] in
/-- A lane of sixteen loaded at `off` of an 8000-entry scratch sits at entry `off + lane`. -/
theorem idx16 (off : Fin 1 → Nat) (inb : ∀ a, off a + S16.size a ≤ S8000.size a) (x : S16.Idx) :
    (Rect.unit (s := S8000) off S16.size inb).toLoadRect.idx x
      = fx (off 0 + (x 0).val) (by have := inb 0; have := (x 0).isLt; simp at *; omega) := by
  funext a; apply Fin.ext
  rw [LoadRect.idx_apply, Subsingleton.elim a 0]
  show off 0 + 1 * (x 0).val = off 0 + (x 0).val
  omega

omit [FloatOps F] in
/-- What a load of sixteen index words reads. -/
theorem load16_ib (fi : Buf (Elt F) ((thrV d L).loc cc0_scratch1)) (off : Fin 1 → Nat) (inb : ∀ a, off a + S16.size a ≤ S8000.size a) (x : S16.Idx) :
    (ibV).view.readAt (Elt F) (Rect.unit (s := S8000) off S16.size inb).toLoadRect fi x
      = fi (fx (off 0 + (x 0).val) (by have := inb 0; have := (x 0).isLt; simp at *; omega)) := by
  rw [View.readAt_apply, idx16]; rfl
omit [FloatOps F] in
theorem load16_jb (fj : Buf (Elt F) ((thrV d L).loc cc0_scratch2)) (off : Fin 1 → Nat) (inb : ∀ a, off a + S16.size a ≤ S8000.size a) (x : S16.Idx) :
    (jbV).view.readAt (Elt F) (Rect.unit (s := S8000) off S16.size inb).toLoadRect fj x
      = fj (fx (off 0 + (x 0).val) (by have := inb 0; have := (x 0).isLt; simp at *; omega)) := by
  rw [View.readAt_apply, idx16]; rfl

/-- What a gather through the table reads at a lane: the table's entry the lane's word names. -/
theorem gather_apply (ft : Buf (Elt F) ((thrV d L).loc cc0_scratch0)) (v : IVec S16 32)
    (h : ∀ a x, ((![v] : Fin 1 → IVec S16 32) a x).toNat < S100000.size a) (x : S16.Idx) :
    loadIdx ((tabV.access (.whole S100000)).read (Elt F) ft) ![v] h x = ft (fx (nodeOf (F := F) (v x)) (nodeOf_lt _)) := by
  have hv : (v x).toNat < 100000 := h 0 x
  unfold loadIdx
  refine ((View.read_apply _ _).trans (cast_eq _ _)).trans ?_
  have e : ((tabV.access (Rect.whole S100000)).emb (idxAt ![v] h x) : S100000.Idx) = fx (nodeOf (F := F) (v x)) (nodeOf_lt _) := by
    funext a; apply Fin.ext
    obtain rfl : a = (0 : Fin 1) := Subsingleton.elim (α := Fin 1) a 0
    show 0 + 1 * (v x).toNat = min (v x).toNat 99999
    omega
  exact congrArg ft e

omit [FloatOps F] in
/-- A store of sixteen lanes at `off` of the out scratch, read back off the stored lanes -/
theorem store16_out (fo : Buf (Elt F) ((thrV d L).loc cc0_scratch3)) (off : Fin 1 → Nat) (inb : ∀ a, off a + S16.size a ≤ S8000.size a)
    (w : S16.Idx → Elt F .f32) (j : S8000.Idx) (hj : (j 0).val < off 0 ∨ off 0 + 16 ≤ (j 0).val) :
    ((obV).access (Rect.unit (s := S8000) off S16.size inb)).write (Elt F) fo w Finset.univ j = fo j := by
  apply View.write_of_not_mem
  rw [View.setOn_univ]
  refine fun hm => ?_
  have hm' := (View.set_slice_whole (cc0_scratch3) (Rect.unit (s := S8000) off S16.size inb)) ▸ hm
  rw [Rect.mem_set_unit] at hm'
  have := hm' 0
  simp at this
  omega

omit [FloatOps F] in
/-- and on them. -/
theorem store16_in (fo : Buf (Elt F) ((thrV d L).loc cc0_scratch3)) (off : Fin 1 → Nat) (inb : ∀ a, off a + S16.size a ≤ S8000.size a)
    (w : S16.Idx → Elt F .f32) (j : S8000.Idx) (hj : off 0 ≤ (j 0).val ∧ (j 0).val < off 0 + 16) :
    ((obV).access (Rect.unit (s := S8000) off S16.size inb)).write (Elt F) fo w Finset.univ j = w (fx ((j 0).val - off 0) (by omega)) := by
  have e : ((((obV).access (Rect.unit (s := S8000) off S16.size inb)).emb (fx ((j 0).val - off 0) (by omega)) : S8000.Idx)) = j := by
    funext a; apply Fin.ext
    obtain rfl : a = (0 : Fin 1) := Subsingleton.elim (α := Fin 1) a 0
    show off 0 + 1 * ((j 0).val - off 0) = (j 0).val
    omega
  have h := View.write_emb_of_mem (v := (obV).access (Rect.unit (s := S8000) off S16.size inb)) (Val := Elt F) fo w (M := Finset.univ)
    (x := fx ((j 0).val - off 0) (by omega)) (Finset.mem_univ _)
  rw [e] at h
  exact h.trans (cast_eq _ _)

/-! ## The copies' payloads and landings -/

omit [FloatOps F] in
/-- The words a copy of 8000 entries at `off` of the edge indices moves. -/
theorem slice_read_ei (ei : S12800000.Idx → Elt F .i32) (off : Fin 1 → Nat) (inb : ∀ a, off a + S8000.size a ≤ S12800000.size a) (j : S8000.Idx) :
    ((eiV).slice (Rect.unit (s := S12800000) off S8000.size inb) (fun _ => rfl)).view.read (Elt F) ei j
      = ei (fx (off 0 + (j 0).val) (by have := inb 0; have := (j 0).isLt; simp at *; omega)) := by
  refine ((View.read_apply _ _).trans (cast_eq _ _)).trans ?_
  have e : ((((eiV).slice (Rect.unit (s := S12800000) off S8000.size inb) (fun _ => rfl)).view.emb j : S12800000.Idx))
      = fx (off 0 + (j 0).val) (by have := inb 0; have := (j 0).isLt; simp at *; omega) := by
    funext a; apply Fin.ext
    obtain rfl : a = (0 : Fin 1) := Subsingleton.elim (α := Fin 1) a 0
    show off 0 + 1 * (j 0).val = off 0 + (j 0).val
    omega
  exact congrArg ei e

omit [FloatOps F] in
/-- The entries a copy of a column of the transposed table moves. -/
theorem slice_read_vt (vt : S300000.Idx → Elt F .f32) (off : Fin 1 → Nat) (inb : ∀ a, off a + S100000.size a ≤ S300000.size a) (t : S100000.Idx) :
    ((vtV).slice (Rect.unit (s := S300000) off S100000.size inb) (fun _ => rfl)).view.read (Elt F) vt t
      = vt (fx (off 0 + (t 0).val) (by have := inb 0; have := (t 0).isLt; simp at *; omega)) := by
  refine ((View.read_apply _ _).trans (cast_eq _ _)).trans ?_
  have e : ((((vtV).slice (Rect.unit (s := S300000) off S100000.size inb) (fun _ => rfl)).view.emb t : S300000.Idx))
      = fx (off 0 + (t 0).val) (by have := inb 0; have := (t 0).isLt; simp at *; omega) := by
    funext a; apply Fin.ext
    obtain rfl : a = (0 : Fin 1) := Subsingleton.elim (α := Fin 1) a 0
    show off 0 + 1 * (t 0).val = off 0 + (t 0).val
    omega
  exact congrArg vt e

omit [FloatOps F] in
/-- The entries of an edge array a block of 8000 at `off` covers. -/
theorem d0_set (off : Fin 1 → Nat) (inb : ∀ a, off a + S8000.size a ≤ S6400000.size a) :
    ((d0V).slice (Rect.unit (s := S6400000) off S8000.size inb) (fun _ => rfl)).view.set = rng (off 0) (off 0 + 8000) := by
  refine (View.set_slice_whole (main_v4_1_scv) (Rect.unit (s := S6400000) off S8000.size inb)).trans ?_
  ext j
  rw [Rect.mem_set_unit]
  unfold rng
  simp only [Finset.mem_filter, Finset.mem_univ, true_and]
  constructor
  · intro h; exact h 0
  · intro h a; obtain rfl : a = (0 : Fin 1) := Subsingleton.elim (α := Fin 1) a 0; exact h

omit [FloatOps F] in
/-- A block landed at `off`, read back on the block -/
theorem d0_write_in (g : Buf (Elt F) (d0Loc d)) (off : Fin 1 → Nat) (inb : ∀ a, off a + S8000.size a ≤ S6400000.size a)
    (w : S8000.Idx → Elt F .f32) (j : S6400000.Idx) (hj : off 0 ≤ (j 0).val ∧ (j 0).val < off 0 + 8000) :
    ((d0V).slice (Rect.unit (s := S6400000) off S8000.size inb) (fun _ => rfl)).view.writes (Elt F) g [⟨Rect.whole S8000, w⟩] j
      = w (fx ((j 0).val - off 0) (by omega)) := by
  rw [View.writes_singleton]
  have e : (((((d0V).slice (Rect.unit (s := S6400000) off S8000.size inb) (fun _ => rfl)).view.slice (Rect.whole S8000)).emb (fx ((j 0).val - off 0) (by omega)) : S6400000.Idx)) = j := by
    funext a; apply Fin.ext
    obtain rfl : a = (0 : Fin 1) := Subsingleton.elim (α := Fin 1) a 0
    show off 0 + 1 * (0 + 1 * ((j 0).val - off 0)) = (j 0).val
    omega
  have h := View.write_emb_of_mem (v := (((d0V).slice (Rect.unit (s := S6400000) off S8000.size inb) (fun _ => rfl)).view.slice (Rect.whole S8000))) (Val := Elt F) g w
    (M := Finset.univ) (x := fx ((j 0).val - off 0) (by omega)) (Finset.mem_univ _)
  rw [e] at h
  exact h.trans (cast_eq _ _)

omit [FloatOps F] in
/-- and off it. -/
theorem d0_write_out (g : Buf (Elt F) (d0Loc d)) (off : Fin 1 → Nat) (inb : ∀ a, off a + S8000.size a ≤ S6400000.size a)
    (w : S8000.Idx → Elt F .f32) (j : S6400000.Idx) (hj : (j 0).val < off 0 ∨ off 0 + 8000 ≤ (j 0).val) :
    ((d0V).slice (Rect.unit (s := S6400000) off S8000.size inb) (fun _ => rfl)).view.writes (Elt F) g [⟨Rect.whole S8000, w⟩] j = g j := by
  rw [View.writes_singleton]
  apply View.write_of_not_mem
  rw [View.setOn_univ]
  refine fun hm => ?_
  have hm' := View.set_slice_subset _ _ hm
  rw [d0_set] at hm'
  unfold rng at hm'
  simp only [Finset.mem_filter, Finset.mem_univ, true_and] at hm'
  omega

omit [FloatOps F] in
/-- The entries of an edge array a block of 8000 at `off` covers. -/
theorem d1_set (off : Fin 1 → Nat) (inb : ∀ a, off a + S8000.size a ≤ S6400000.size a) :
    ((d1V).slice (Rect.unit (s := S6400000) off S8000.size inb) (fun _ => rfl)).view.set = rng (off 0) (off 0 + 8000) := by
  refine (View.set_slice_whole (main_v4_2_scv) (Rect.unit (s := S6400000) off S8000.size inb)).trans ?_
  ext j
  rw [Rect.mem_set_unit]
  unfold rng
  simp only [Finset.mem_filter, Finset.mem_univ, true_and]
  constructor
  · intro h; exact h 0
  · intro h a; obtain rfl : a = (0 : Fin 1) := Subsingleton.elim (α := Fin 1) a 0; exact h

omit [FloatOps F] in
/-- A block landed at `off`, read back on the block -/
theorem d1_write_in (g : Buf (Elt F) (d1Loc d)) (off : Fin 1 → Nat) (inb : ∀ a, off a + S8000.size a ≤ S6400000.size a)
    (w : S8000.Idx → Elt F .f32) (j : S6400000.Idx) (hj : off 0 ≤ (j 0).val ∧ (j 0).val < off 0 + 8000) :
    ((d1V).slice (Rect.unit (s := S6400000) off S8000.size inb) (fun _ => rfl)).view.writes (Elt F) g [⟨Rect.whole S8000, w⟩] j
      = w (fx ((j 0).val - off 0) (by omega)) := by
  rw [View.writes_singleton]
  have e : (((((d1V).slice (Rect.unit (s := S6400000) off S8000.size inb) (fun _ => rfl)).view.slice (Rect.whole S8000)).emb (fx ((j 0).val - off 0) (by omega)) : S6400000.Idx)) = j := by
    funext a; apply Fin.ext
    obtain rfl : a = (0 : Fin 1) := Subsingleton.elim (α := Fin 1) a 0
    show off 0 + 1 * (0 + 1 * ((j 0).val - off 0)) = (j 0).val
    omega
  have h := View.write_emb_of_mem (v := (((d1V).slice (Rect.unit (s := S6400000) off S8000.size inb) (fun _ => rfl)).view.slice (Rect.whole S8000))) (Val := Elt F) g w
    (M := Finset.univ) (x := fx ((j 0).val - off 0) (by omega)) (Finset.mem_univ _)
  rw [e] at h
  exact h.trans (cast_eq _ _)

omit [FloatOps F] in
/-- and off it. -/
theorem d1_write_out (g : Buf (Elt F) (d1Loc d)) (off : Fin 1 → Nat) (inb : ∀ a, off a + S8000.size a ≤ S6400000.size a)
    (w : S8000.Idx → Elt F .f32) (j : S6400000.Idx) (hj : (j 0).val < off 0 ∨ off 0 + 8000 ≤ (j 0).val) :
    ((d1V).slice (Rect.unit (s := S6400000) off S8000.size inb) (fun _ => rfl)).view.writes (Elt F) g [⟨Rect.whole S8000, w⟩] j = g j := by
  rw [View.writes_singleton]
  apply View.write_of_not_mem
  rw [View.setOn_univ]
  refine fun hm => ?_
  have hm' := View.set_slice_subset _ _ hm
  rw [d1_set] at hm'
  unfold rng at hm'
  simp only [Finset.mem_filter, Finset.mem_univ, true_and] at hm'
  omega

omit [FloatOps F] in
/-- The entries of an edge array a block of 8000 at `off` covers. -/
theorem d2_set (off : Fin 1 → Nat) (inb : ∀ a, off a + S8000.size a ≤ S6400000.size a) :
    ((d2V).slice (Rect.unit (s := S6400000) off S8000.size inb) (fun _ => rfl)).view.set = rng (off 0) (off 0 + 8000) := by
  refine (View.set_slice_whole (main_v4_3_scv) (Rect.unit (s := S6400000) off S8000.size inb)).trans ?_
  ext j
  rw [Rect.mem_set_unit]
  unfold rng
  simp only [Finset.mem_filter, Finset.mem_univ, true_and]
  constructor
  · intro h; exact h 0
  · intro h a; obtain rfl : a = (0 : Fin 1) := Subsingleton.elim (α := Fin 1) a 0; exact h

omit [FloatOps F] in
/-- A block landed at `off`, read back on the block -/
theorem d2_write_in (g : Buf (Elt F) (d2Loc d)) (off : Fin 1 → Nat) (inb : ∀ a, off a + S8000.size a ≤ S6400000.size a)
    (w : S8000.Idx → Elt F .f32) (j : S6400000.Idx) (hj : off 0 ≤ (j 0).val ∧ (j 0).val < off 0 + 8000) :
    ((d2V).slice (Rect.unit (s := S6400000) off S8000.size inb) (fun _ => rfl)).view.writes (Elt F) g [⟨Rect.whole S8000, w⟩] j
      = w (fx ((j 0).val - off 0) (by omega)) := by
  rw [View.writes_singleton]
  have e : (((((d2V).slice (Rect.unit (s := S6400000) off S8000.size inb) (fun _ => rfl)).view.slice (Rect.whole S8000)).emb (fx ((j 0).val - off 0) (by omega)) : S6400000.Idx)) = j := by
    funext a; apply Fin.ext
    obtain rfl : a = (0 : Fin 1) := Subsingleton.elim (α := Fin 1) a 0
    show off 0 + 1 * (0 + 1 * ((j 0).val - off 0)) = (j 0).val
    omega
  have h := View.write_emb_of_mem (v := (((d2V).slice (Rect.unit (s := S6400000) off S8000.size inb) (fun _ => rfl)).view.slice (Rect.whole S8000))) (Val := Elt F) g w
    (M := Finset.univ) (x := fx ((j 0).val - off 0) (by omega)) (Finset.mem_univ _)
  rw [e] at h
  exact h.trans (cast_eq _ _)

omit [FloatOps F] in
/-- and off it. -/
theorem d2_write_out (g : Buf (Elt F) (d2Loc d)) (off : Fin 1 → Nat) (inb : ∀ a, off a + S8000.size a ≤ S6400000.size a)
    (w : S8000.Idx → Elt F .f32) (j : S6400000.Idx) (hj : (j 0).val < off 0 ∨ off 0 + 8000 ≤ (j 0).val) :
    ((d2V).slice (Rect.unit (s := S6400000) off S8000.size inb) (fun _ => rfl)).view.writes (Elt F) g [⟨Rect.whole S8000, w⟩] j = g j := by
  rw [View.writes_singleton]
  apply View.write_of_not_mem
  rw [View.setOn_univ]
  refine fun hm => ?_
  have hm' := View.set_slice_subset _ _ hm
  rw [d2_set] at hm'
  unfold rng at hm'
  simp only [Finset.mem_filter, Finset.mem_univ, true_and] at hm'
  omega

omit [FloatOps F] in
/-- The entries of an edge array a block of 8000 at `off` covers. -/
theorem r2_set (off : Fin 1 → Nat) (inb : ∀ a, off a + S8000.size a ≤ S6400000.size a) :
    ((r2V).slice (Rect.unit (s := S6400000) off S8000.size inb) (fun _ => rfl)).view.set = rng (off 0) (off 0 + 8000) := by
  refine (View.set_slice_whole (main_v4_0_scv) (Rect.unit (s := S6400000) off S8000.size inb)).trans ?_
  ext j
  rw [Rect.mem_set_unit]
  unfold rng
  simp only [Finset.mem_filter, Finset.mem_univ, true_and]
  constructor
  · intro h; exact h 0
  · intro h a; obtain rfl : a = (0 : Fin 1) := Subsingleton.elim (α := Fin 1) a 0; exact h

omit [FloatOps F] in
/-- A block landed at `off`, read back on the block -/
theorem r2_write_in (g : Buf (Elt F) (r2Loc d)) (off : Fin 1 → Nat) (inb : ∀ a, off a + S8000.size a ≤ S6400000.size a)
    (w : S8000.Idx → Elt F .f32) (j : S6400000.Idx) (hj : off 0 ≤ (j 0).val ∧ (j 0).val < off 0 + 8000) :
    ((r2V).slice (Rect.unit (s := S6400000) off S8000.size inb) (fun _ => rfl)).view.writes (Elt F) g [⟨Rect.whole S8000, w⟩] j
      = w (fx ((j 0).val - off 0) (by omega)) := by
  rw [View.writes_singleton]
  have e : (((((r2V).slice (Rect.unit (s := S6400000) off S8000.size inb) (fun _ => rfl)).view.slice (Rect.whole S8000)).emb (fx ((j 0).val - off 0) (by omega)) : S6400000.Idx)) = j := by
    funext a; apply Fin.ext
    obtain rfl : a = (0 : Fin 1) := Subsingleton.elim (α := Fin 1) a 0
    show off 0 + 1 * (0 + 1 * ((j 0).val - off 0)) = (j 0).val
    omega
  have h := View.write_emb_of_mem (v := (((r2V).slice (Rect.unit (s := S6400000) off S8000.size inb) (fun _ => rfl)).view.slice (Rect.whole S8000))) (Val := Elt F) g w
    (M := Finset.univ) (x := fx ((j 0).val - off 0) (by omega)) (Finset.mem_univ _)
  rw [e] at h
  exact h.trans (cast_eq _ _)

omit [FloatOps F] in
/-- and off it. -/
theorem r2_write_out (g : Buf (Elt F) (r2Loc d)) (off : Fin 1 → Nat) (inb : ∀ a, off a + S8000.size a ≤ S6400000.size a)
    (w : S8000.Idx → Elt F .f32) (j : S6400000.Idx) (hj : (j 0).val < off 0 ∨ off 0 + 8000 ≤ (j 0).val) :
    ((r2V).slice (Rect.unit (s := S6400000) off S8000.size inb) (fun _ => rfl)).view.writes (Elt F) g [⟨Rect.whole S8000, w⟩] j = g j := by
  rw [View.writes_singleton]
  apply View.write_of_not_mem
  rw [View.setOn_univ]
  refine fun hm => ?_
  have hm' := View.set_slice_subset _ _ hm
  rw [r2_set] at hm'
  unfold rng at hm'
  simp only [Finset.mem_filter, Finset.mem_univ, true_and] at hm'
  omega

/-! ## Total accessors: the arrays read at a number, and the call's results through them -/

/-- Entry `n` of the edge indices (entry 0 beyond the end). -/
def eAt (ei : S12800000.Idx → Elt F .i32) (n : Nat) : Elt F .i32 := if h : n < 12800000 then ei (fx n h) else ei (fx 0 (by decide))
/-- Entry `n` of the transposed table. -/
def vtAt (vt : S300000.Idx → Elt F .f32) (n : Nat) : Elt F .f32 := if h : n < 300000 then vt (fx n h) else vt (fx 0 (by decide))
/-- Entry `n` of the flat rows. -/
def rfAt (rf : S19200000.Idx → Elt F .f32) (n : Nat) : Elt F .f32 := if h : n < 19200000 then rf (fx n h) else rf (fx 0 (by decide))

omit [FloatOps F] in
theorem eAt_fx (ei : S12800000.Idx → Elt F .i32) (n : Nat) (h : n < 12800000) : ei (fx n h) = eAt ei n := by unfold eAt; rw [dif_pos h]
omit [FloatOps F] in
theorem vtAt_fx (vt : S300000.Idx → Elt F .f32) (n : Nat) (h : n < 300000) : vt (fx n h) = vtAt vt n := by unfold vtAt; rw [dif_pos h]
omit [FloatOps F] in
theorem rfAt_fx (rf : S19200000.Idx → Elt F .f32) (n : Nat) (h : n < 19200000) : rf (fx n h) = rfAt rf n := by unfold rfAt; rw [dif_pos h]

/-- Component `comp` of `v[i] - v[j]` for edge number `n`. -/
def dval (comp : Nat) (ei : S12800000.Idx → Elt F .i32) (vt : S300000.Idx → Elt F .f32) (n : Nat) : Elt F .f32 :=
  FloatOps.subf (φ := .f32) (vtAt vt (100000 * comp + nodeOf (F := F) (eAt ei n))) (vtAt vt (100000 * comp + nodeOf (F := F) (eAt ei (n + 6400000))))
/-- The squared length of row number `n`. -/
def rval (rf : S19200000.Idx → Elt F .f32) (n : Nat) : Elt F .f32 :=
  FloatOps.addf (φ := .f32) (FloatOps.addf (FloatOps.mulf (rfAt rf (3 * n)) (rfAt rf (3 * n))) (FloatOps.mulf (rfAt rf (3 * n + 1)) (rfAt rf (3 * n + 1))))
    (FloatOps.mulf (rfAt rf (3 * n + 2)) (rfAt rf (3 * n + 2)))

theorem specD_dval (comp : Fin 3) (ei : S12800000.Idx → Elt F .i32) (vt : S300000.Idx → Elt F .f32) (e : S6400000.Idx) :
    specD comp ei vt e = dval comp.val ei vt (e 0).val := by
  have h1 : (e 0).val < 12800000 := by have := (e 0).isLt; simp at this; omega
  have h2 : (e 0).val + 6400000 < 12800000 := by have := (e 0).isLt; simp at this; omega
  have hc := comp.isLt
  unfold specD dval
  rw [← eAt_fx (F := F) ei _ h1, ← eAt_fx (F := F) ei _ h2]
  rw [← vtAt_fx (F := F) vt _ (by have := nodeOf_lt (F := F) (ei (fx (e 0).val h1)); omega),
    ← vtAt_fx (F := F) vt _ (by have := nodeOf_lt (F := F) (ei (fx ((e 0).val + 6400000) h2)); omega)]
theorem specR2_rval (rf : S19200000.Idx → Elt F .f32) (e : S6400000.Idx) : specR2 rf e = rval rf (e 0).val := by
  have h0 : 3 * (e 0).val < 19200000 := by have := (e 0).isLt; simp at this; omega
  have h1 : 3 * (e 0).val + 1 < 19200000 := by have := (e 0).isLt; simp at this; omega
  have h2 : 3 * (e 0).val + 2 < 19200000 := by have := (e 0).isLt; simp at this; omega
  unfold specR2 rval
  rw [← rfAt_fx (F := F) rf _ h0, ← rfAt_fx (F := F) rf _ h1, ← rfAt_fx (F := F) rf _ h2]

/-! ## What the scratches and a chunk hold, step by step -/

/-- The table a tile of column `comp` holds: that column of the transposed table. -/
def TabOK (vt : S300000.Idx → Elt F .f32) (comp : Nat) (ft : S100000.Idx → Elt F .f32) : Prop :=
  ∀ t : S100000.Idx, ft t = vtAt vt (100000 * comp + (t 0).val)
/-- An index scratch holding the 8000 words of the edge indices from `base`. -/
def IdxOK (ei : S12800000.Idx → Elt F .i32) (base : Nat) (fi : S8000.Idx → Elt F .i32) : Prop :=
  ∀ j : S8000.Idx, fi j = eAt ei (base + (j 0).val)

omit [FloatOps F] in
theorem eAt_lt (ei : S12800000.Idx → Elt F .i32) (hidx : ∀ j, (BitVec.toNat (show BitVec 32 from ei j)) < 100000) (n : Nat) :
    (BitVec.toNat (show BitVec 32 from eAt ei n)) < 100000 := by
  unfold eAt; split <;> exact hidx _

omit [FloatOps F] in
/-- The table once its column has landed. -/
theorem tab_val (vt : S300000.Idx → Elt F .f32) (comp : Nat) (ft0 : Buf (Elt F) ((thrV d L).loc cc0_scratch0))
    (off : Fin 1 → Nat) (inb : ∀ a, off a + S100000.size a ≤ S300000.size a) (e : off 0 = 100000 * comp) :
    TabOK vt comp ((tabV).view.write (Elt F) ft0
      (ReadAs.same.apply (((vtV).slice (Rect.unit (s := S300000) off S100000.size inb) (fun _ => rfl)).view.read (Elt F) vt)) Finset.univ) := by
  intro t
  refine (congrFun (View.write_whole_univ (Val := Elt F) cc0_scratch0 ft0 _) t).trans ?_
  refine (slice_read_vt vt off inb t).trans ?_
  rw [vtAt_fx (F := F) vt, e]

omit [FloatOps F] in
/-- An index scratch once its block has landed. -/
theorem ib_val (ei : S12800000.Idx → Elt F .i32) (base : Nat) (fi0 : Buf (Elt F) ((thrV d L).loc cc0_scratch1))
    (off : Fin 1 → Nat) (inb : ∀ a, off a + S8000.size a ≤ S12800000.size a) (e : off 0 = base) :
    IdxOK ei base ((ibV).view.write (Elt F) fi0
      (ReadAs.same.apply (((eiV).slice (Rect.unit (s := S12800000) off S8000.size inb) (fun _ => rfl)).view.read (Elt F) ei)) Finset.univ) := by
  intro j
  refine (congrFun (View.write_whole_univ (Val := Elt F) cc0_scratch1 fi0 _) j).trans ?_
  refine (slice_read_ei ei off inb j).trans ?_
  rw [eAt_fx (F := F) ei, e]
omit [FloatOps F] in
theorem jb_val (ei : S12800000.Idx → Elt F .i32) (base : Nat) (fj0 : Buf (Elt F) ((thrV d L).loc cc0_scratch2))
    (off : Fin 1 → Nat) (inb : ∀ a, off a + S8000.size a ≤ S12800000.size a) (e : off 0 = base) :
    IdxOK ei base ((jbV).view.write (Elt F) fj0
      (ReadAs.same.apply (((eiV).slice (Rect.unit (s := S12800000) off S8000.size inb) (fun _ => rfl)).view.read (Elt F) ei)) Finset.univ) := by
  intro j
  refine (congrFun (View.write_whole_univ (Val := Elt F) cc0_scratch2 fj0 _) j).trans ?_
  refine (slice_read_ei ei off inb j).trans ?_
  rw [eAt_fx (F := F) ei, e]

/-- One trip of the inner loop of a column task: sixteen more entries of the out scratch hold their differences. -/
theorem trip_val0 (ei : S12800000.Idx → Elt F .i32) (vt : S300000.Idx → Elt F .f32) (comp base k2 : Nat)
    (ft : Buf (Elt F) ((thrV d L).loc cc0_scratch0)) (fi : Buf (Elt F) ((thrV d L).loc cc0_scratch1))
    (fj : Buf (Elt F) ((thrV d L).loc cc0_scratch2)) (fo : Buf (Elt F) ((thrV d L).loc cc0_scratch3))
    (hft : TabOK vt comp ft) (hfi : IdxOK ei base fi) (hfj : IdxOK ei (6400000 + base) fj)
    (o3 o4 o5 : Fin 1 → Nat) (inb3 : ∀ a, o3 a + S16.size a ≤ S8000.size a) (inb4 : ∀ a, o4 a + S16.size a ≤ S8000.size a)
    (inb5 : ∀ a, o5 a + S16.size a ≤ S8000.size a) (e3 : o3 0 = 16 * k2) (e4 : o4 0 = 16 * k2) (e5 : o5 0 = 16 * k2)
    (h31 : ∀ a x, ((![(ibV).view.readAt (Elt F) (Rect.unit (s := S8000) o3 S16.size inb3).toLoadRect fi] : Fin 1 → IVec S16 32) a x).toNat < S100000.size a)
    (h34 : ∀ a x, ((![(jbV).view.readAt (Elt F) (Rect.unit (s := S8000) o4 S16.size inb4).toLoadRect fj] : Fin 1 → IVec S16 32) a x).toNat < S100000.size a)
    (hfo : ∀ j : S8000.Idx, (j 0).val < 16 * k2 → fo j = dval comp ei vt (base + (j 0).val)) :
    ∀ j : S8000.Idx, (j 0).val < 16 * (k2 + 1) →
      ((obV).access (Rect.unit (s := S8000) o5 S16.size inb5)).write (Elt F) fo
        (subf (loadIdx ((tabV.access (.whole S100000)).read (Elt F) ft) ![(ibV).view.readAt (Elt F) (Rect.unit (s := S8000) o3 S16.size inb3).toLoadRect fi] h31)
          (loadIdx ((tabV.access (.whole S100000)).read (Elt F) ft) ![(jbV).view.readAt (Elt F) (Rect.unit (s := S8000) o4 S16.size inb4).toLoadRect fj] h34))
        Finset.univ j = dval comp ei vt (base + (j 0).val) := by
  intro j hj
  by_cases hlt : (j 0).val < 16 * k2
  · rw [store16_out d L fo o5 inb5 _ j (Or.inl (by omega))]
    exact hfo j hlt
  · have hin : o5 0 ≤ (j 0).val ∧ (j 0).val < o5 0 + 16 := by omega
    rw [store16_in d L fo o5 inb5 _ j hin]
    show FloatOps.subf _ _ = _
    rw [gather_apply, gather_apply, load16_ib, load16_jb, hft, hft, hfi, hfj]
    unfold dval
    have e1 : base + (o3 0 + ((j 0).val - o5 0)) = base + (j 0).val := by omega
    have e2 : 6400000 + base + (o4 0 + ((j 0).val - o5 0)) = base + (j 0).val + 6400000 := by omega
    show FloatOps.subf (vtAt vt (100000 * comp + nodeOf (F := F) (eAt ei (base + (o3 0 + ((j 0).val - o5 0))))))
        (vtAt vt (100000 * comp + nodeOf (F := F) (eAt ei (6400000 + base + (o4 0 + ((j 0).val - o5 0)))))) = _
    rw [e1, e2]

/-- The same, as a run of the trip leaves the out scratch: one piece written over it. -/
theorem trip_val (ei : S12800000.Idx → Elt F .i32) (vt : S300000.Idx → Elt F .f32) (comp base k2 : Nat)
    (ft : Buf (Elt F) ((thrV d L).loc cc0_scratch0)) (fi : Buf (Elt F) ((thrV d L).loc cc0_scratch1))
    (fj : Buf (Elt F) ((thrV d L).loc cc0_scratch2)) (fo : Buf (Elt F) ((thrV d L).loc cc0_scratch3))
    (hft : TabOK vt comp ft) (hfi : IdxOK ei base fi) (hfj : IdxOK ei (6400000 + base) fj)
    (pay : Vec F S16 .f32 → Vec F S16 .f32 → FVec F S16 .f32) (hpay : ∀ a b, pay a b = subf a b)
    (o3 o4 o5 : Fin 1 → Nat) (inb3 : ∀ a, o3 a + S16.size a ≤ S8000.size a) (inb4 : ∀ a, o4 a + S16.size a ≤ S8000.size a)
    (inb5 : ∀ a, o5 a + S16.size a ≤ S8000.size a) (e3 : o3 0 = 16 * k2) (e4 : o4 0 = 16 * k2) (e5 : o5 0 = 16 * k2)
    (h31 : ∀ a x, ((![(ibV).view.readAt (Elt F) (Rect.unit (s := S8000) o3 S16.size inb3).toLoadRect fi] : Fin 1 → IVec S16 32) a x).toNat < S100000.size a)
    (h34 : ∀ a x, ((![(jbV).view.readAt (Elt F) (Rect.unit (s := S8000) o4 S16.size inb4).toLoadRect fj] : Fin 1 → IVec S16 32) a x).toNat < S100000.size a)
    (hfo : ∀ j : S8000.Idx, (j 0).val < 16 * k2 → fo j = dval comp ei vt (base + (j 0).val)) :
    ∀ j : S8000.Idx, (j 0).val < 16 * (k2 + 1) →
      (obV).view.writes (Elt F) fo [⟨Rect.unit (s := S8000) o5 S16.size inb5,
        pay (loadIdx ((tabV.access (.whole S100000)).read (Elt F) ft) ![(ibV).view.readAt (Elt F) (Rect.unit (s := S8000) o3 S16.size inb3).toLoadRect fi] h31)
          (loadIdx ((tabV.access (.whole S100000)).read (Elt F) ft) ![(jbV).view.readAt (Elt F) (Rect.unit (s := S8000) o4 S16.size inb4).toLoadRect fj] h34)⟩] j
        = dval comp ei vt (base + (j 0).val) := by
  intro j hj
  rw [View.writes_singleton, hpay]
  exact trip_val0 d L ei vt comp base k2 ft fi fj fo hft hfi hfj o3 o4 o5 inb3 inb4 inb5 e3 e4 e5 h31 h34 hfo j hj

omit [FloatOps F] in
/-- A block of the out scratch landed on its place in the chunk: the chunk's entries below the block's end hold `val` of their numbers. -/
theorem d0_blk_val (val : Nat → Elt F .f32) (c base : Nat) (g : Buf (Elt F) (d0Loc d)) (fo : Buf (Elt F) ((thrV d L).loc cc0_scratch3))
    (off : Fin 1 → Nat) (inb : ∀ a, off a + S8000.size a ≤ S6400000.size a) (e : off 0 = base)
    (w : S8000.Idx → Elt F .f32) (hw : ∀ x, w x = fo x)
    (hg : ∀ j ∈ chunk c, (j 0).val < base → g j = val (j 0).val)
    (hfo : ∀ j : S8000.Idx, fo j = val (base + (j 0).val)) :
    ∀ j ∈ chunk c, (j 0).val < base + 8000 →
      ((d0V).slice (Rect.unit (s := S6400000) off S8000.size inb) (fun _ => rfl)).view.writes (Elt F) g [⟨Rect.whole S8000, w⟩] j = val (j 0).val := by
  intro j hjc hj
  by_cases hlt : (j 0).val < base
  · rw [d0_write_out d g off inb _ j (Or.inl (by omega))]; exact hg j hjc hlt
  · rw [d0_write_in d g off inb _ j ⟨by omega, by omega⟩]
    rw [hw, hfo]
    show val (base + ((j 0).val - off 0)) = _
    rw [show base + ((j 0).val - off 0) = (j 0).val by omega]

omit [FloatOps F] in
/-- A block of the out scratch landed on its place in the chunk: the chunk's entries below the block's end hold `val` of their numbers. -/
theorem d1_blk_val (val : Nat → Elt F .f32) (c base : Nat) (g : Buf (Elt F) (d1Loc d)) (fo : Buf (Elt F) ((thrV d L).loc cc0_scratch3))
    (off : Fin 1 → Nat) (inb : ∀ a, off a + S8000.size a ≤ S6400000.size a) (e : off 0 = base)
    (w : S8000.Idx → Elt F .f32) (hw : ∀ x, w x = fo x)
    (hg : ∀ j ∈ chunk c, (j 0).val < base → g j = val (j 0).val)
    (hfo : ∀ j : S8000.Idx, fo j = val (base + (j 0).val)) :
    ∀ j ∈ chunk c, (j 0).val < base + 8000 →
      ((d1V).slice (Rect.unit (s := S6400000) off S8000.size inb) (fun _ => rfl)).view.writes (Elt F) g [⟨Rect.whole S8000, w⟩] j = val (j 0).val := by
  intro j hjc hj
  by_cases hlt : (j 0).val < base
  · rw [d1_write_out d g off inb _ j (Or.inl (by omega))]; exact hg j hjc hlt
  · rw [d1_write_in d g off inb _ j ⟨by omega, by omega⟩]
    rw [hw, hfo]
    show val (base + ((j 0).val - off 0)) = _
    rw [show base + ((j 0).val - off 0) = (j 0).val by omega]

omit [FloatOps F] in
/-- A block of the out scratch landed on its place in the chunk: the chunk's entries below the block's end hold `val` of their numbers. -/
theorem d2_blk_val (val : Nat → Elt F .f32) (c base : Nat) (g : Buf (Elt F) (d2Loc d)) (fo : Buf (Elt F) ((thrV d L).loc cc0_scratch3))
    (off : Fin 1 → Nat) (inb : ∀ a, off a + S8000.size a ≤ S6400000.size a) (e : off 0 = base)
    (w : S8000.Idx → Elt F .f32) (hw : ∀ x, w x = fo x)
    (hg : ∀ j ∈ chunk c, (j 0).val < base → g j = val (j 0).val)
    (hfo : ∀ j : S8000.Idx, fo j = val (base + (j 0).val)) :
    ∀ j ∈ chunk c, (j 0).val < base + 8000 →
      ((d2V).slice (Rect.unit (s := S6400000) off S8000.size inb) (fun _ => rfl)).view.writes (Elt F) g [⟨Rect.whole S8000, w⟩] j = val (j 0).val := by
  intro j hjc hj
  by_cases hlt : (j 0).val < base
  · rw [d2_write_out d g off inb _ j (Or.inl (by omega))]; exact hg j hjc hlt
  · rw [d2_write_in d g off inb _ j ⟨by omega, by omega⟩]
    rw [hw, hfo]
    show val (base + ((j 0).val - off 0)) = _
    rw [show base + ((j 0).val - off 0) = (j 0).val by omega]

omit [FloatOps F] in
/-- A block of the out scratch landed on its place in the chunk: the chunk's entries below the block's end hold `val` of their numbers. -/
theorem r2_blk_val (val : Nat → Elt F .f32) (c base : Nat) (g : Buf (Elt F) (r2Loc d)) (fo : Buf (Elt F) ((thrV d L).loc cc0_scratch3))
    (off : Fin 1 → Nat) (inb : ∀ a, off a + S8000.size a ≤ S6400000.size a) (e : off 0 = base)
    (w : S8000.Idx → Elt F .f32) (hw : ∀ x, w x = fo x)
    (hg : ∀ j ∈ chunk c, (j 0).val < base → g j = val (j 0).val)
    (hfo : ∀ j : S8000.Idx, fo j = val (base + (j 0).val)) :
    ∀ j ∈ chunk c, (j 0).val < base + 8000 →
      ((r2V).slice (Rect.unit (s := S6400000) off S8000.size inb) (fun _ => rfl)).view.writes (Elt F) g [⟨Rect.whole S8000, w⟩] j = val (j 0).val := by
  intro j hjc hj
  by_cases hlt : (j 0).val < base
  · rw [r2_write_out d g off inb _ j (Or.inl (by omega))]; exact hg j hjc hlt
  · rw [r2_write_in d g off inb _ j ⟨by omega, by omega⟩]
    rw [hw, hfo]
    show val (base + ((j 0).val - off 0)) = _
    rw [show base + ((j 0).val - off 0) = (j 0).val by omega]

omit [FloatOps F] in
/-- A landed block and the rest of its chunk, one chunk again at the landed contents. -/
theorem d0_rejoin (c : Nat) (g : Buf (Elt F) (d0Loc d)) (off : Fin 1 → Nat) (inb : ∀ a, off a + S8000.size a ≤ S6400000.size a)
    (w : S8000.Idx → Elt F .f32)
    (hsub : ((d0V).slice (Rect.unit (s := S6400000) off S8000.size inb) (fun _ => rfl)).view.set ⊆ chunk c) :
    iprop((d0Loc d ↦[((d0V).slice (Rect.unit (s := S6400000) off S8000.size inb) (fun _ => rfl)).view.set]{fullShare}
          ((d0V).slice (Rect.unit (s := S6400000) off S8000.size inb) (fun _ => rfl)).view.writes (Elt F) g [⟨Rect.whole S8000, w⟩])
        ∗ (d0Loc d ↦[chunk c \ ((d0V).slice (Rect.unit (s := S6400000) off S8000.size inb) (fun _ => rfl)).view.set]{fullShare} g))
      ⊢ (d0Loc d ↦[chunk c]{fullShare}
          ((d0V).slice (Rect.unit (s := S6400000) off S8000.size inb) (fun _ => rfl)).view.writes (Elt F) g [⟨Rect.whole S8000, w⟩] : sProp 𝕄) := by
  have hc : ∀ i ∈ chunk c \ ((d0V).slice (Rect.unit (s := S6400000) off S8000.size inb) (fun _ => rfl)).view.set,
      g i = ((d0V).slice (Rect.unit (s := S6400000) off S8000.size inb) (fun _ => rfl)).view.writes (Elt F) g [⟨Rect.whole S8000, w⟩] i := by
    intro i hi
    symm
    rw [View.writes_singleton]
    apply View.write_of_not_mem
    rw [View.setOn_univ]
    exact fun hm => (Finset.mem_sdiff.mp hi).2 (View.set_slice_subset _ _ hm)
  rw [pointsTo_congr (ℓ := d0Loc d) (q := fullShare) hc]
  exact (pointsTo_split_subset hsub).2

omit [FloatOps F] in
/-- A landed block and the rest of its chunk, one chunk again at the landed contents. -/
theorem d1_rejoin (c : Nat) (g : Buf (Elt F) (d1Loc d)) (off : Fin 1 → Nat) (inb : ∀ a, off a + S8000.size a ≤ S6400000.size a)
    (w : S8000.Idx → Elt F .f32)
    (hsub : ((d1V).slice (Rect.unit (s := S6400000) off S8000.size inb) (fun _ => rfl)).view.set ⊆ chunk c) :
    iprop((d1Loc d ↦[((d1V).slice (Rect.unit (s := S6400000) off S8000.size inb) (fun _ => rfl)).view.set]{fullShare}
          ((d1V).slice (Rect.unit (s := S6400000) off S8000.size inb) (fun _ => rfl)).view.writes (Elt F) g [⟨Rect.whole S8000, w⟩])
        ∗ (d1Loc d ↦[chunk c \ ((d1V).slice (Rect.unit (s := S6400000) off S8000.size inb) (fun _ => rfl)).view.set]{fullShare} g))
      ⊢ (d1Loc d ↦[chunk c]{fullShare}
          ((d1V).slice (Rect.unit (s := S6400000) off S8000.size inb) (fun _ => rfl)).view.writes (Elt F) g [⟨Rect.whole S8000, w⟩] : sProp 𝕄) := by
  have hc : ∀ i ∈ chunk c \ ((d1V).slice (Rect.unit (s := S6400000) off S8000.size inb) (fun _ => rfl)).view.set,
      g i = ((d1V).slice (Rect.unit (s := S6400000) off S8000.size inb) (fun _ => rfl)).view.writes (Elt F) g [⟨Rect.whole S8000, w⟩] i := by
    intro i hi
    symm
    rw [View.writes_singleton]
    apply View.write_of_not_mem
    rw [View.setOn_univ]
    exact fun hm => (Finset.mem_sdiff.mp hi).2 (View.set_slice_subset _ _ hm)
  rw [pointsTo_congr (ℓ := d1Loc d) (q := fullShare) hc]
  exact (pointsTo_split_subset hsub).2

omit [FloatOps F] in
/-- A landed block and the rest of its chunk, one chunk again at the landed contents. -/
theorem d2_rejoin (c : Nat) (g : Buf (Elt F) (d2Loc d)) (off : Fin 1 → Nat) (inb : ∀ a, off a + S8000.size a ≤ S6400000.size a)
    (w : S8000.Idx → Elt F .f32)
    (hsub : ((d2V).slice (Rect.unit (s := S6400000) off S8000.size inb) (fun _ => rfl)).view.set ⊆ chunk c) :
    iprop((d2Loc d ↦[((d2V).slice (Rect.unit (s := S6400000) off S8000.size inb) (fun _ => rfl)).view.set]{fullShare}
          ((d2V).slice (Rect.unit (s := S6400000) off S8000.size inb) (fun _ => rfl)).view.writes (Elt F) g [⟨Rect.whole S8000, w⟩])
        ∗ (d2Loc d ↦[chunk c \ ((d2V).slice (Rect.unit (s := S6400000) off S8000.size inb) (fun _ => rfl)).view.set]{fullShare} g))
      ⊢ (d2Loc d ↦[chunk c]{fullShare}
          ((d2V).slice (Rect.unit (s := S6400000) off S8000.size inb) (fun _ => rfl)).view.writes (Elt F) g [⟨Rect.whole S8000, w⟩] : sProp 𝕄) := by
  have hc : ∀ i ∈ chunk c \ ((d2V).slice (Rect.unit (s := S6400000) off S8000.size inb) (fun _ => rfl)).view.set,
      g i = ((d2V).slice (Rect.unit (s := S6400000) off S8000.size inb) (fun _ => rfl)).view.writes (Elt F) g [⟨Rect.whole S8000, w⟩] i := by
    intro i hi
    symm
    rw [View.writes_singleton]
    apply View.write_of_not_mem
    rw [View.setOn_univ]
    exact fun hm => (Finset.mem_sdiff.mp hi).2 (View.set_slice_subset _ _ hm)
  rw [pointsTo_congr (ℓ := d2Loc d) (q := fullShare) hc]
  exact (pointsTo_split_subset hsub).2

omit [FloatOps F] in
/-- A landed block and the rest of its chunk, one chunk again at the landed contents. -/
theorem r2_rejoin (c : Nat) (g : Buf (Elt F) (r2Loc d)) (off : Fin 1 → Nat) (inb : ∀ a, off a + S8000.size a ≤ S6400000.size a)
    (w : S8000.Idx → Elt F .f32)
    (hsub : ((r2V).slice (Rect.unit (s := S6400000) off S8000.size inb) (fun _ => rfl)).view.set ⊆ chunk c) :
    iprop((r2Loc d ↦[((r2V).slice (Rect.unit (s := S6400000) off S8000.size inb) (fun _ => rfl)).view.set]{fullShare}
          ((r2V).slice (Rect.unit (s := S6400000) off S8000.size inb) (fun _ => rfl)).view.writes (Elt F) g [⟨Rect.whole S8000, w⟩])
        ∗ (r2Loc d ↦[chunk c \ ((r2V).slice (Rect.unit (s := S6400000) off S8000.size inb) (fun _ => rfl)).view.set]{fullShare} g))
      ⊢ (r2Loc d ↦[chunk c]{fullShare}
          ((r2V).slice (Rect.unit (s := S6400000) off S8000.size inb) (fun _ => rfl)).view.writes (Elt F) g [⟨Rect.whole S8000, w⟩] : sProp 𝕄) := by
  have hc : ∀ i ∈ chunk c \ ((r2V).slice (Rect.unit (s := S6400000) off S8000.size inb) (fun _ => rfl)).view.set,
      g i = ((r2V).slice (Rect.unit (s := S6400000) off S8000.size inb) (fun _ => rfl)).view.writes (Elt F) g [⟨Rect.whole S8000, w⟩] i := by
    intro i hi
    symm
    rw [View.writes_singleton]
    apply View.write_of_not_mem
    rw [View.setOn_univ]
    exact fun hm => (Finset.mem_sdiff.mp hi).2 (View.set_slice_subset _ _ hm)
  rw [pointsTo_congr (ℓ := r2Loc d) (q := fullShare) hc]
  exact (pointsTo_split_subset hsub).2

omit [FloatOps F] in
/-- One more wait at index `none` recorded keeps the record admissible. -/
theorem waits_ok {W W' : Waits sig (HIx 2)} (hW' : ∀ p ∈ W', p ∈ W ∨ p.2 = none) (s : SemLoc sig) :
    ∀ p ∈ insert (s, (none : HIx 2)) W', p ∈ W ∨ p.2 = none := by
  intro p hp
  rcases Finset.mem_insert.mp hp with hp | hp
  · exact .inr (hp ▸ rfl)
  · exact hW' p hp

end Val

end Cert.Proof.KI.Ga

end
-- ==== Proof.GatherTileValR.lean ====
import proofs.«204254_g40355512713743_retrytranche2_1723_12_alg».proof.Proof.Common
import Idealize.ShloMosaic.Lib.ValueIdx
import proofs.«204254_g40355512713743_retrytranche2_1723_12_alg».proof.Proof.GatherTileLib
import proofs.«204254_g40355512713743_retrytranche2_1723_12_alg».proof.Proof.GatherTileVal

noncomputable section

namespace Cert.Proof.KI.Ga

open Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 eq_ix1)

variable {F : FTy → Type}

local notation "𝕄" => MT nD τ sig (HIx 2) (Elt F) ℕ UU ℕ

variable [FloatOps F]

/-! ## The row task's values -/

section ValR

variable (d : Dev nD) (L : grid0.Coords)

/-- The index vectors of trip `k` of the row task's inner loop: lane `x` names entries `3 x + 48 k` and the two after it. -/
theorem pay4_val : ∀ (k : Fin k0_t8_loop.trips) (x : S16.Idx), (k0_pay4 k x).toNat = 3 * (x 0).val + 48 * k.val := by decide +kernel
theorem pay5_val : ∀ (k : Fin k0_t8_loop.trips) (x : S16.Idx), (k0_pay5 (k0_pay4 k) x).toNat = 3 * (x 0).val + 48 * k.val + 1 := by decide +kernel
theorem pay6_val : ∀ (k : Fin k0_t8_loop.trips) (x : S16.Idx), (k0_pay6 (k0_pay4 k) x).toNat = 3 * (x 0).val + 48 * k.val + 2 := by decide +kernel

/-- The first 24000 entries of the table scratch, as the row task slices them. -/
abbrev tabS : Memref sig .scVector .vmem S24000 .f32 := (tabV).slice (Rect.unit (s := S100000) ![0] S24000.size inb_S100000_S24000_0) (fun _ => rfl)

omit [FloatOps F] in
/-- The entries a copy of 24000 entries at `off` of the flat rows moves. -/
theorem slice_read_rf (rf : S19200000.Idx → Elt F .f32) (off : Fin 1 → Nat) (inb : ∀ a, off a + S24000.size a ≤ S19200000.size a) (t : S24000.Idx) :
    ((rfV).slice (Rect.unit (s := S19200000) off S24000.size inb) (fun _ => rfl)).view.read (Elt F) rf t
      = rf (fx (off 0 + (t 0).val) (by have := inb 0; have := (t 0).isLt; simp at *; omega)) := by
  refine ((View.read_apply _ _).trans (cast_eq _ _)).trans ?_
  have e : ((((rfV).slice (Rect.unit (s := S19200000) off S24000.size inb) (fun _ => rfl)).view.emb t : S19200000.Idx))
      = fx (off 0 + (t 0).val) (by have := inb 0; have := (t 0).isLt; simp at *; omega) := by
    funext a; apply Fin.ext
    obtain rfl : a = (0 : Fin 1) := Subsingleton.elim (α := Fin 1) a 0
    show off 0 + 1 * (t 0).val = off 0 + (t 0).val
    omega
  exact congrArg rf e

omit [FloatOps F] in
/-- A block landed on the table scratch's first 24000 entries, read back there. -/
theorem tabS_write_in (ft : Buf (Elt F) ((thrV d L).loc cc0_scratch0)) (w : S24000.Idx → Elt F .f32) (t : S100000.Idx) (ht : (t 0).val < 24000) :
    (tabS).view.write (Elt F) ft w Finset.univ t = w (fx (t 0).val ht) := by
  have e : (((tabS).view.emb (fx (t 0).val ht) : S100000.Idx)) = t := by
    funext a; apply Fin.ext
    obtain rfl : a = (0 : Fin 1) := Subsingleton.elim (α := Fin 1) a 0
    show 0 + 1 * (t 0).val = (t 0).val
    omega
  have h := View.write_emb_of_mem (v := (tabS).view) (Val := Elt F) ft w (M := Finset.univ) (x := fx (t 0).val ht) (Finset.mem_univ _)
  rw [e] at h
  exact h.trans (cast_eq _ _)

/-- The table scratch of the row task once a block of rows has landed: its first 24000 entries are the block's. -/
def TabR (rf : S19200000.Idx → Elt F .f32) (base : Nat) (ft : S100000.Idx → Elt F .f32) : Prop :=
  ∀ t : S100000.Idx, (t 0).val < 24000 → ft t = rfAt rf (3 * base + (t 0).val)

omit [FloatOps F] in
/-- The table scratch once a block of rows has landed on its first 24000 entries, as a run of the copy leaves it: one
    piece written over it. -/
theorem tabr_val (rf : S19200000.Idx → Elt F .f32) (base : Nat) (ft0 : Buf (Elt F) ((thrV d L).loc cc0_scratch0))
    (off : Fin 1 → Nat) (inb : ∀ a, off a + S24000.size a ≤ S19200000.size a) (e : off 0 = 3 * base)
    (w : S24000.Idx → Elt F .f32)
    (hw : ∀ x, w x = ReadAs.same.apply (((rfV).slice (Rect.unit (s := S19200000) off S24000.size inb) (fun _ => rfl)).view.read (Elt F) rf) x) :
    TabR rf base ((tabV).view.writes (Elt F) ft0 [⟨Rect.unit (s := S100000) ![0] S24000.size inb_S100000_S24000_0, w⟩]) := by
  intro t ht
  rw [View.writes_singleton]
  show (tabS).view.write (Elt F) ft0 w Finset.univ t = _
  rw [tabS_write_in d L ft0 _ t ht, hw]
  refine (slice_read_rf rf off inb _).trans ?_
  rw [rfAt_fx (F := F) rf, e]

/-- One trip of the row task's inner loop: sixteen more entries of the out scratch hold their rows' squared lengths. -/
theorem trip_rval0 (rf : S19200000.Idx → Elt F .f32) (base : Nat) (k2 : Fin k0_t8_loop.trips)
    (ft : Buf (Elt F) ((thrV d L).loc cc0_scratch0)) (fo : Buf (Elt F) ((thrV d L).loc cc0_scratch3))
    (hft : TabR rf base ft) (o5 : Fin 1 → Nat) (inb5 : ∀ a, o5 a + S16.size a ≤ S8000.size a) (e5 : o5 0 = 16 * k2.val)
    (h7 : ∀ a x, ((![k0_pay4 k2] : Fin 1 → IVec S16 32) a x).toNat < S100000.size a)
    (h8 : ∀ a x, ((![k0_pay5 (k0_pay4 k2)] : Fin 1 → IVec S16 32) a x).toNat < S100000.size a)
    (h9 : ∀ a x, ((![k0_pay6 (k0_pay4 k2)] : Fin 1 → IVec S16 32) a x).toNat < S100000.size a)
    (hfo : ∀ j : S8000.Idx, (j 0).val < 16 * k2.val → fo j = rval rf (base + (j 0).val)) :
    ∀ j : S8000.Idx, (j 0).val < 16 * (k2.val + 1) →
      ((obV).access (Rect.unit (s := S8000) o5 S16.size inb5)).write (Elt F) fo
        (k0_pay7 (loadIdx ((tabV.access (.whole S100000)).read (Elt F) ft) ![k0_pay4 k2] h7)
          (loadIdx ((tabV.access (.whole S100000)).read (Elt F) ft) ![k0_pay5 (k0_pay4 k2)] h8)
          (loadIdx ((tabV.access (.whole S100000)).read (Elt F) ft) ![k0_pay6 (k0_pay4 k2)] h9))
        Finset.univ j = rval rf (base + (j 0).val) := by
  intro j hj
  have hk2 : k2.val < 500 := Nat.lt_of_lt_of_le k2.isLt k0_t8_abs.2.1
  by_cases hlt : (j 0).val < 16 * k2.val
  · rw [store16_out d L fo o5 inb5 _ j (Or.inl (by omega))]
    exact hfo j hlt
  · have hin : o5 0 ≤ (j 0).val ∧ (j 0).val < o5 0 + 16 := by omega
    rw [store16_in d L fo o5 inb5 _ j hin]
    show FloatOps.addf (FloatOps.addf (FloatOps.mulf _ _) (FloatOps.mulf _ _)) (FloatOps.mulf _ _) = _
    rw [gather_apply, gather_apply, gather_apply]
    have n4 : nodeOf (F := F) (k0_pay4 k2 (fx ((j 0).val - o5 0) (by omega))) = 3 * ((j 0).val - o5 0) + 48 * k2.val := by
      unfold nodeOf; rw [show (BitVec.toNat (show BitVec 32 from k0_pay4 k2 (fx ((j 0).val - o5 0) (by omega)))) = _ from pay4_val k2 _]
      show min (3 * ((j 0).val - o5 0) + 48 * k2.val) 99999 = _; omega
    have n5 : nodeOf (F := F) (k0_pay5 (k0_pay4 k2) (fx ((j 0).val - o5 0) (by omega))) = 3 * ((j 0).val - o5 0) + 48 * k2.val + 1 := by
      unfold nodeOf; rw [show (BitVec.toNat (show BitVec 32 from k0_pay5 (k0_pay4 k2) (fx ((j 0).val - o5 0) (by omega)))) = _ from pay5_val k2 _]
      show min (3 * ((j 0).val - o5 0) + 48 * k2.val + 1) 99999 = _; omega
    have n6 : nodeOf (F := F) (k0_pay6 (k0_pay4 k2) (fx ((j 0).val - o5 0) (by omega))) = 3 * ((j 0).val - o5 0) + 48 * k2.val + 2 := by
      unfold nodeOf; rw [show (BitVec.toNat (show BitVec 32 from k0_pay6 (k0_pay4 k2) (fx ((j 0).val - o5 0) (by omega)))) = _ from pay6_val k2 _]
      show min (3 * ((j 0).val - o5 0) + 48 * k2.val + 2) 99999 = _; omega
    rw [hft _ (by show nodeOf (F := F) _ < 24000; rw [n4]; omega), hft _ (by show nodeOf (F := F) _ < 24000; rw [n5]; omega),
      hft _ (by show nodeOf (F := F) _ < 24000; rw [n6]; omega)]
    unfold rval
    show FloatOps.addf (FloatOps.addf (FloatOps.mulf (rfAt rf (3 * base + nodeOf (F := F) (k0_pay4 k2 (fx ((j 0).val - o5 0) (by omega)))))
        (rfAt rf (3 * base + nodeOf (F := F) (k0_pay4 k2 (fx ((j 0).val - o5 0) (by omega))))))
      (FloatOps.mulf (rfAt rf (3 * base + nodeOf (F := F) (k0_pay5 (k0_pay4 k2) (fx ((j 0).val - o5 0) (by omega)))))
        (rfAt rf (3 * base + nodeOf (F := F) (k0_pay5 (k0_pay4 k2) (fx ((j 0).val - o5 0) (by omega)))))))
      (FloatOps.mulf (rfAt rf (3 * base + nodeOf (F := F) (k0_pay6 (k0_pay4 k2) (fx ((j 0).val - o5 0) (by omega)))))
        (rfAt rf (3 * base + nodeOf (F := F) (k0_pay6 (k0_pay4 k2) (fx ((j 0).val - o5 0) (by omega)))))) = _
    rw [n4, n5, n6]
    rw [show 3 * base + (3 * ((j 0).val - o5 0) + 48 * k2.val) = 3 * (base + (j 0).val) by omega,
      show 3 * base + (3 * ((j 0).val - o5 0) + 48 * k2.val + 1) = 3 * (base + (j 0).val) + 1 by omega,
      show 3 * base + (3 * ((j 0).val - o5 0) + 48 * k2.val + 2) = 3 * (base + (j 0).val) + 2 by omega]

/-- The same, as a run of the trip leaves the out scratch: one piece written over it. -/
theorem trip_rval (rf : S19200000.Idx → Elt F .f32) (base : Nat) (k2 : Fin k0_t8_loop.trips)
    (ft : Buf (Elt F) ((thrV d L).loc cc0_scratch0)) (fo : Buf (Elt F) ((thrV d L).loc cc0_scratch3))
    (hft : TabR rf base ft) (o5 : Fin 1 → Nat) (inb5 : ∀ a, o5 a + S16.size a ≤ S8000.size a) (e5 : o5 0 = 16 * k2.val)
    (h7 : ∀ a x, ((![k0_pay4 k2] : Fin 1 → IVec S16 32) a x).toNat < S100000.size a)
    (h8 : ∀ a x, ((![k0_pay5 (k0_pay4 k2)] : Fin 1 → IVec S16 32) a x).toNat < S100000.size a)
    (h9 : ∀ a x, ((![k0_pay6 (k0_pay4 k2)] : Fin 1 → IVec S16 32) a x).toNat < S100000.size a)
    (hfo : ∀ j : S8000.Idx, (j 0).val < 16 * k2.val → fo j = rval rf (base + (j 0).val)) :
    ∀ j : S8000.Idx, (j 0).val < 16 * (k2.val + 1) →
      (obV).view.writes (Elt F) fo [⟨Rect.unit (s := S8000) o5 S16.size inb5,
        k0_pay7 (loadIdx ((tabV.access (.whole S100000)).read (Elt F) ft) ![k0_pay4 k2] h7)
          (loadIdx ((tabV.access (.whole S100000)).read (Elt F) ft) ![k0_pay5 (k0_pay4 k2)] h8)
          (loadIdx ((tabV.access (.whole S100000)).read (Elt F) ft) ![k0_pay6 (k0_pay4 k2)] h9)⟩] j
        = rval rf (base + (j 0).val) := by
  intro j hj
  rw [View.writes_singleton]
  exact trip_rval0 d L rf base k2 ft fo hft o5 inb5 e5 h7 h8 h9 hfo j hj

end ValR

end Cert.Proof.KI.Ga

end
-- ==== Proof.GatherTileStmt.lean ====
import proofs.«204254_g40355512713743_retrytranche2_1723_12_alg».proof.Proof.Common
import Idealize.ShloMosaic.Lib.ValueIdx
import proofs.«204254_g40355512713743_retrytranche2_1723_12_alg».proof.Proof.GatherTileDefs

noncomputable section

namespace Cert.Proof.KI.Ga

open Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 eq_ix1)

variable {F : FTy → Type}

local notation "𝕄" => MT nD τ sig (HIx 2) (Elt F) ℕ UU ℕ

/-- The row task's obligation: a tile whose number is 24 or more, from what it is handed to what it hands back. -/
def TileR (F : FTy → Type) [FloatOps F] : Prop :=
  ∀ (ei : S12800000.Idx → Elt F .i32) (rf : S19200000.Idx → Elt F .f32) (vt : S300000.Idx → Elt F .f32)
    (hF : (K (F := F)).Facts) (hidx : ∀ j, (BitVec.toNat (show BitVec 32 from ei j)) < 100000) (d : Dev nD) (L : grid0.Coords)
    (h1 : ¬ k0_cond1 L = 1#1) (h2 : ¬ k0_cond2 L = 1#1) (h3 : ¬ k0_cond3 L = 1#1) (hc : k0_cond4 L = 1#1)
    (O : CellTallies nD τ sig (HIx 2)) (W : Waits sig (HIx 2)) (hO : ∀ g, O g none = 0),
    iprop(levAts (K (F := F)).L (K (F := F)).lev ∗ go0 ei rf vt d L ∗ scopedBufs (thrV d L) ∗ scopedSems0 (thrV d L) ∗ owes (thrV d L) O W)
      ⊢ wp frame (wpE (defs₀ (F := F)) 𝒱₀ (thrV d L) none) Set.univ
          (cc0__sc_gather_body L (Memref.whole main_v0_scv) (Memref.isWhole_whole _) (Memref.whole main_v1_scv) (Memref.isWhole_whole _)
            (Memref.whole main_v3_scv) (Memref.isWhole_whole _) (Memref.whole main_v4_0_scv) (Memref.isWhole_whole _)
            (Memref.whole main_v4_1_scv) (Memref.isWhole_whole _) (Memref.whole main_v4_2_scv) (Memref.isWhole_whole _)
            (Memref.whole main_v4_3_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) cc0_scoped0 cc0_scoped1 cc0_scoped2 cc0_scoped3 cc0_scoped4 cc0_scoped5
            cc0_scoped6 cc0_scoped7 cc0_scoped8 cc0_scoped9 cc0_scoped10 cc0_scoped11 cc0_scoped12 cc0_scoped13)
          fun _ => iprop(td0 ei rf vt d L ∗ scopedBufs (thrV d L) ∗ scopedSems0 (thrV d L)
            ∗ ∃ W', ⌜∀ p ∈ W', p ∈ W ∨ p.2 = none⌝ ∗ owes (thrV d L) O W')

end Cert.Proof.KI.Ga

end
-- ==== Proof.GatherTileR.lean ====
import proofs.«204254_g40355512713743_retrytranche2_1723_12_alg».proof.Proof.Common
import Idealize.ShloMosaic.Lib.ValueIdx
import proofs.«204254_g40355512713743_retrytranche2_1723_12_alg».proof.Proof.GatherTileLib
import proofs.«204254_g40355512713743_retrytranche2_1723_12_alg».proof.Proof.GatherTileVal
import proofs.«204254_g40355512713743_retrytranche2_1723_12_alg».proof.Proof.GatherTileValR
import proofs.«204254_g40355512713743_retrytranche2_1723_12_alg».proof.Proof.GatherTileStmt

noncomputable section

namespace Cert.Proof.KI.Ga

open Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 eq_ix1)

variable {F : FTy → Type}

local notation "𝕄" => MT nD τ sig (HIx 2) (Elt F) ℕ UU ℕ

variable [FloatOps F]

section R

variable (rf : S19200000.Idx → Elt F .f32) (d : Dev nD) (L : grid0.Coords)

/-- Block `k` of the tile's chunk of the squared lengths, as the kernel slices it. -/
abbrev outSR (k : Fin k0_t7_loop.trips) (hc : k0_cond4 L = 1#1) : Memref sig .scVector .hbm S8000 .f32 :=
  (r2V).slice (Rect.unit (s := S6400000) (k0_off21 L k) S8000.size (k0_off21_inb L k hc)) (fun _ => rfl)

omit [FloatOps F] in
theorem pts_blkR (k : Fin k0_t7_loop.trips) (hc : k0_cond4 L = 1#1) (g : Buf (Elt F) (r2Loc d)) :
    ((outSR L k hc).view.loc (thrV d L) ↦[(outSR L k hc).view.set]{fullShare} g : sProp 𝕄)
      = (r2Loc d ↦[(outSR L k hc).view.set]{fullShare} g) := rfl

omit [FloatOps F] in
theorem blkR_set (k : Fin k0_t7_loop.trips) (hc : k0_cond4 L = 1#1) :
    (outSR L k hc).view.set = rng (800000 * (wid L - 24) + 8000 * k.val) (800000 * (wid L - 24) + 8000 * k.val + 8000) :=
  (r2_set (k0_off21 L k) (k0_off21_inb L k hc)).trans (by rw [off21_val L k hc])

omit [FloatOps F] in
theorem blkR_sub (k : Fin k0_t7_loop.trips) (hc : k0_cond4 L = 1#1) : (outSR L k hc).view.set ⊆ chunk (wid L - 24) := by
  rw [blkR_set]
  have hk : k.val < 100 := Nat.lt_of_lt_of_le k.isLt k0_t7_abs.2.1
  intro j
  simp only [chunk, rng, Finset.mem_filter, Finset.mem_univ, true_and]
  omega

omit [FloatOps F] in
theorem pts_tab_accessR (ft : Buf (Elt F) ((thrV d L).loc cc0_scratch0)) :
    (((tabV).access (.whole S100000)).loc (thrV d L) ↦{fullShare} ft : sProp 𝕄) = ((tabV).view.loc (thrV d L) ↦{fullShare} ft) := rfl

/-- The index vectors of a trip name entries of the table scratch. -/
theorem chk7_ok (k2 : Fin k0_t8_loop.trips) : k0_chk7 L (k0_pay4 k2) := by
  intro _ a x
  have hk2 : k2.val < 500 := Nat.lt_of_lt_of_le k2.isLt k0_t8_abs.2.1
  obtain rfl : a = (0 : Fin 1) := Subsingleton.elim (α := Fin 1) a 0
  show (k0_pay4 k2 x).toNat < 100000
  rw [pay4_val]; have := (x 0).isLt; simp at this; omega
theorem chk8_ok (k2 : Fin k0_t8_loop.trips) : k0_chk8 L (k0_pay5 (k0_pay4 k2)) := by
  intro _ a x
  have hk2 : k2.val < 500 := Nat.lt_of_lt_of_le k2.isLt k0_t8_abs.2.1
  obtain rfl : a = (0 : Fin 1) := Subsingleton.elim (α := Fin 1) a 0
  show (k0_pay5 (k0_pay4 k2) x).toNat < 100000
  rw [pay5_val]; have := (x 0).isLt; simp at this; omega
theorem chk9_ok (k2 : Fin k0_t8_loop.trips) : k0_chk9 L (k0_pay6 (k0_pay4 k2)) := by
  intro _ a x
  have hk2 : k2.val < 500 := Nat.lt_of_lt_of_le k2.isLt k0_t8_abs.2.1
  obtain rfl : a = (0 : Fin 1) := Subsingleton.elim (α := Fin 1) a 0
  show (k0_pay6 (k0_pay4 k2) x).toNat < 100000
  rw [pay6_val]; have := (x 0).isLt; simp at this; omega

/-- The inner loop's invariant: the table scratch as the block's copy left it, the out scratch's first `16 k` entries
    computed. -/
def invIR (base : Nat) (k : Nat) (_ : BitVec 32) : sProp 𝕄 :=
  iprop((∃ ft : Buf (Elt F) ((thrV d L).loc cc0_scratch0), ⌜TabR rf base ft⌝ ∗ (tabV).view.loc (thrV d L) ↦{fullShare} ft)
    ∗ ∃ fo : Buf (Elt F) ((thrV d L).loc cc0_scratch3), ⌜∀ j : S8000.Idx, (j 0).val < 16 * k → fo j = rval rf (base + (j 0).val)⌝
        ∗ (obV).view.loc (thrV d L) ↦{fullShare} fo)

/-- The block loop's invariant: the rows' read share, the chunk with its first `k` blocks computed, the two scratches,
    the two semaphores at zero, the tile's debts. -/
def invBR (O : CellTallies nD τ sig (HIx 2)) (W : Waits sig (HIx 2)) (k : Nat) (_ : BitVec 32) : sProp 𝕄 :=
  iprop(Transfers.MayWaits (thrV d L) (none : HIx 2) O
    ∗ ((rfV).view.loc (thrV d L) ↦{tsh L} rf)
    ∗ (∃ g : Buf (Elt F) (r2Loc d), ⌜∀ j ∈ chunk (wid L - 24), (j 0).val < 800000 * (wid L - 24) + 8000 * k → g j = rval rf (j 0).val⌝
        ∗ r2Loc d ↦[chunk (wid L - 24)]{fullShare} g)
    ∗ (∃ f, (tabV).view.loc (thrV d L) ↦{fullShare} f) ∗ (∃ f, (obV).view.loc (thrV d L) ↦{fullShare} f)
    ∗ semVal (cellV d L cc0_scoped12) 0 ∗ semVal (cellV d L cc0_scoped13) 0
    ∗ ∃ W', ⌜∀ p ∈ W', p ∈ W ∨ p.2 = none⌝ ∗ owes (thrV d L) O W')

end R

set_option maxHeartbeats 4000000 in
theorem tile_r (ei : S12800000.Idx → Elt F .i32) (rf : S19200000.Idx → Elt F .f32) (vt : S300000.Idx → Elt F .f32)
    (hF : (K (F := F)).Facts) (hidx : ∀ j, (BitVec.toNat (show BitVec 32 from ei j)) < 100000) (d : Dev nD) (L : grid0.Coords) (h1 : ¬ k0_cond1 L = 1#1) (h2 : ¬ k0_cond2 L = 1#1) (h3 : ¬ k0_cond3 L = 1#1) (hc : k0_cond4 L = 1#1)
    (O : CellTallies nD τ sig (HIx 2)) (W : Waits sig (HIx 2)) (hO : ∀ g, O g none = 0) :
    iprop(levAts (K (F := F)).L (K (F := F)).lev ∗ go0 ei rf vt d L ∗ scopedBufs (thrV d L) ∗ scopedSems0 (thrV d L) ∗ owes (thrV d L) O W)
      ⊢ wp frame (wpE (defs₀ (F := F)) 𝒱₀ (thrV d L) none) Set.univ
          (cc0__sc_gather_body L (Memref.whole main_v0_scv) (Memref.isWhole_whole _) (Memref.whole main_v1_scv) (Memref.isWhole_whole _)
            (Memref.whole main_v3_scv) (Memref.isWhole_whole _) (Memref.whole main_v4_0_scv) (Memref.isWhole_whole _)
            (Memref.whole main_v4_1_scv) (Memref.isWhole_whole _) (Memref.whole main_v4_2_scv) (Memref.isWhole_whole _)
            (Memref.whole main_v4_3_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) cc0_scoped0 cc0_scoped1 cc0_scoped2 cc0_scoped3 cc0_scoped4 cc0_scoped5
            cc0_scoped6 cc0_scoped7 cc0_scoped8 cc0_scoped9 cc0_scoped10 cc0_scoped11 cc0_scoped12 cc0_scoped13)
          fun _ => iprop(td0 ei rf vt d L ∗ scopedBufs (thrV d L) ∗ scopedSems0 (thrV d L)
            ∗ ∃ W', ⌜∀ p ∈ W', p ∈ W ∨ p.2 = none⌝ ∗ owes (thrV d L) O W') := by
  have hw : 24 ≤ wid L := (cond4_iff L).mp hc
  have hw1 : ¬ wid L < 8 := by omega
  have hw2 : ¬ wid L < 16 := by omega
  have hw3 : ¬ wid L < 24 := by omega
  have htI : k0_t8_loop.trips = 500 := by first | rfl | decide
  have htB : k0_t7_loop.trips = 100 := by first | rfl | decide
  simp only [cc0__sc_gather_body_eq_skeleton]; unfold cc0__sc_gather_body_skel
  rw [(K (F := F)).scopedBufs_V hF d (cV L) (jV L), SparseCore.Cfg.scopedSems0_V (Val := Elt F) d (cV L) (jV L),
    ownSems0_take2 d L cc0_scoped12 cc0_scoped13 (by decide) (by decide) (by decide), ownBufs_V]
  unfold go0 td0 outGo outTd
  rw [if_neg hw1, if_neg hw2, if_neg hw3, if_neg hw1, if_neg hw2, if_neg hw3]
  iintro ⟨#Hlv, ⟨⟨Hei, Hrf, Hvt⟩, %g0, Hout⟩, ⟨⟨%ft0, Htab⟩, ⟨%fi0, Hib⟩, ⟨%fj0, Hjb⟩, ⟨%fo0, Hob⟩, Hbufs⟩, ⟨Hs12, Hs13, Hsems⟩, HO⟩
  ihave Hmw := ((K (F := F)).mayWaits_none (thr := thrV d L) hO) $$ Hlv
  ihave Hrf' := (Entails.of_eq (pts_rf (F := F) d L _ _).symm) $$ Hrf
  ihave Htab' := (Entails.of_eq (pts_tab (F := F) d L _).symm) $$ Htab
  ihave Hob' := (Entails.of_eq (pts_ob (F := F) d L _).symm) $$ Hob
  sl_exec
  sl_for (invBR rf d L O W) $$ [Hmw Hrf' Hout Htab' Hob' Hs12 Hs13 HO]
  case region =>
    intro k _
    have hk : k.val < 100 := Nat.lt_of_lt_of_le k.isLt k0_t7_abs.2.1
    unfold invBR
    iintro ⟨Hmw, Hrf, ⟨%g, %hg, Hout⟩, ⟨%ft, Htab⟩, ⟨%fo, Hob⟩, Hs12, Hs13, %W', %hW', HO⟩
    sl_exec (disch := first | exact View.amount_pos _ _ (show 0 < S24000.numel by decide) | exact View.amount_pos _ _ (show 0 < S8000.numel by decide))
    sl_for (invIR rf d L (800000 * (wid L - 24) + 8000 * k.val)) $$ [Htab Hob]
    case region =>
      intro k2 _
      have hk2 : k2.val < 500 := Nat.lt_of_lt_of_le k2.isLt k0_t8_abs.2.1
      unfold invIR
      iintro ⟨⟨%ft', %hft, Htab⟩, %fo', %hfo, Hob⟩
      sl_exec (disch := first | exact chk7_ok L k2 | exact chk8_ok L k2 | exact chk9_ok L k2)
      ihave Htab' := (Entails.of_eq (pts_tab_accessR (F := F) d L _).symm) $$ Htab
      iapply (SparseCore.wp_vectorLoadIdx 𝒱₀ (thrV d L) none Set.univ (base := tabV) (S := Finset.univ) (q := fullShare) (Finset.subset_univ _)) $$ Htab'; iintro Htab'
      ihave Htab := (Entails.of_eq (pts_tab_accessR (F := F) d L _)) $$ Htab'
      sl_exec (disch := first | exact chk7_ok L k2 | exact chk8_ok L k2 | exact chk9_ok L k2)
      ihave Htab' := (Entails.of_eq (pts_tab_accessR (F := F) d L _).symm) $$ Htab
      iapply (SparseCore.wp_vectorLoadIdx 𝒱₀ (thrV d L) none Set.univ (base := tabV) (S := Finset.univ) (q := fullShare) (Finset.subset_univ _)) $$ Htab'; iintro Htab'
      ihave Htab := (Entails.of_eq (pts_tab_accessR (F := F) d L _)) $$ Htab'
      sl_exec (disch := first | exact chk7_ok L k2 | exact chk8_ok L k2 | exact chk9_ok L k2)
      ihave Htab' := (Entails.of_eq (pts_tab_accessR (F := F) d L _).symm) $$ Htab
      iapply (SparseCore.wp_vectorLoadIdx 𝒱₀ (thrV d L) none Set.univ (base := tabV) (S := Finset.univ) (q := fullShare) (Finset.subset_univ _)) $$ Htab'; iintro Htab'
      ihave Htab := (Entails.of_eq (pts_tab_accessR (F := F) d L _)) $$ Htab'
      sl_exec
      sl_step
      isplitl [Htab]
      · iexists ft'; isplitr; · ipureintro; exact hft
        iexact Htab
      iexists _; isplitr; rotate_left; · iexact Hob
      ipureintro
      exact trip_rval d L rf _ k2 ft' fo' hft (k0_off20 k2) _ (by rw [k0_off20_eq]; rfl) _ _ _ hfo
    · unfold invIR
      isplitl [Htab]
      · iexists _; isplitr; rotate_left; · iexact Htab
        ipureintro; exact tabr_val d L rf _ ft (k0_off19 L k) (k0_off19_inb L k hc) (off19_val L k hc) _ (fun _ => rfl)
      iexists _; isplitr; rotate_left; · iexact Hob
      ipureintro; intro j hj; exact absurd hj (by omega)
    iintro %_ HI
    unfold invIR
    icases HI with ⟨⟨%ft', %hft, Htab⟩, %fo', %hfo, Hob⟩
    ihave Hsp := (pointsTo_split_subset (ℓ := r2Loc d) (q := fullShare) (f := g) (blkR_sub L k hc)).1 $$ Hout
    icases Hsp with ⟨Hblk, Hrest⟩
    ihave Hblk' := (Entails.of_eq (pts_blkR (F := F) d L k hc _).symm) $$ Hblk
    sl_exec (disch := exact View.amount_pos _ _ (show 0 < S8000.numel by decide))
    sl_step
    isplitl [Hmw]; · iexact Hmw
    isplitl [Hrf]; · iexact Hrf
    isplitl [Hblk' Hrest]
    · iexists _; isplitr; rotate_left
      · ihave Hblk := (Entails.of_eq (pts_blkR (F := F) d L k hc _)) $$ Hblk'
        iapply (r2_rejoin (F := F) d (wid L - 24) g _ _ _ (blkR_sub L k hc))
        isplitl [Hblk]; · iexact Hblk
        iexact Hrest
      ipureintro
      rw [show 800000 * (wid L - 24) + 8000 * (k.val + 1) = (800000 * (wid L - 24) + 8000 * k.val) + 8000 by omega]
      exact r2_blk_val d L (rval rf) _ _ g fo' _ _ (off21_val L k hc) _ (fun _ => rfl) hg
        (fun j => hfo j (by have := (j 0).isLt; simp at this; show (j 0).val < 16 * k0_t8_loop.trips; rw [htI]; omega))
    isplitl [Htab]; · iexists _; iexact Htab
    isplitl [Hob]; · iexists _; iexact Hob
    isplitl [Hs12]; · iexact Hs12
    isplitl [Hs13]; · iexact Hs13
    iexists _; isplitr; rotate_left; · iexact HO
    ipureintro; exact waits_ok (waits_ok hW' _) _
  · unfold invBR
    isplitl [Hmw]; · iexact Hmw
    isplitl [Hrf']; · iexact Hrf'
    isplitl [Hout]
    · iexists g0; isplitr
      · ipureintro; intro j hj hlt; exfalso
        simp only [chunk, rng, Finset.mem_filter, Finset.mem_univ, _root_.true_and] at hj; omega
      iexact Hout
    isplitl [Htab']; · iexists _; iexact Htab'
    isplitl [Hob']; · iexists _; iexact Hob'
    isplitl [Hs12]; · iexact Hs12
    isplitl [Hs13]; · iexact Hs13
    iexists _; isplitr; rotate_left; · iexact HO
    ipureintro; exact fun p hp => .inl hp
  iintro %_ HI
  unfold invBR
  icases HI with ⟨-, Hrf, ⟨%g, %hg, Hout⟩, ⟨%ft, Htab⟩, ⟨%fo, Hob⟩, Hs12, Hs13, %W', %hW', HO⟩
  sl_exec
  sl_step
  have hfin : ∀ i ∈ chunk (wid L - 24), g i = specR2 rf i := by
    intro i hi
    refine (hg i hi ?_).trans (specR2_rval rf i).symm
    show (i 0).val < 800000 * (wid L - 24) + 8000 * k0_t7_loop.trips
    rw [htB]; simp only [chunk, rng, Finset.mem_filter, Finset.mem_univ, _root_.true_and] at hi; omega
  isplitl [Hei Hrf Hvt Hout]
  · isplitl [Hei Hrf Hvt]
    · isplitl [Hei]; · iexact Hei
      isplitl [Hrf]; · iapply (Entails.of_eq (pts_rf (F := F) d L _ _)); iexact Hrf
      iexact Hvt
    · iapply (Entails.of_eq (pointsTo_congr (ℓ := r2Loc d) (q := fullShare) hfin)); iexact Hout
  isplitl [Htab Hib Hjb Hob Hbufs]
  · isplitl [Htab]; · iexists _; iapply (Entails.of_eq (pts_tab (F := F) d L _)); iexact Htab
    isplitl [Hib]; · iexists _; iexact Hib
    isplitl [Hjb]; · iexists _; iexact Hjb
    isplitl [Hob]; · iexists _; iapply (Entails.of_eq (pts_ob (F := F) d L _)); iexact Hob
    iexact Hbufs
  isplitl [Hs12 Hs13 Hsems]
  · isplitl [Hs12]; · iexact Hs12
    isplitl [Hs13]; · iexact Hs13
    iexact Hsems
  iexists W'; isplitr
  · ipureintro; exact hW'
  · iexact HO

/-- The row task's obligation holds. -/
theorem tileR_holds : TileR F := fun ei rf vt hF hidx d L h1 h2 h3 hc O W hO =>
  tile_r ei rf vt hF hidx d L h1 h2 h3 hc O W hO

end Cert.Proof.KI.Ga

end
-- ==== Proof.CommonW.lean ====
/-
  Shared set-up for the kernel's run at a float instance `F`: the program as the SparseCore launch theorem sees it
  (two vector-subcore calls over two TensorCore pipelines), the launch theorem's side facts, and the ghost state —
  the launch handshakes' rounds, the two pipelines' staging-cell rounds, and the counters of local transfers.
-/
import proofs.«204254_g40355512713743_retrytranche2_1723_12_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«204254_g40355512713743_retrytranche2_1723_12_alg».proof.Proof.Gen.Kernel
import proofs.«204254_g40355512713743_retrytranche2_1723_12_alg».proof.Proof.Gen.Kernel.Skeleton
import proofs.«204254_g40355512713743_retrytranche2_1723_12_alg».proof.Proof.Gen.Kernel.Launch
import proofs.«204254_g40355512713743_retrytranche2_1723_12_alg».proof.Proof.Gen.Kernel.Points

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 2 := sc (F := F)
theorem nSub_q (q : Fin 2) : (K (F := F)).nSub q = 16 := by
  match q with
  | 0 => rfl
  | 1 => rfl
theorem nCore_q (q : Fin 2) : (K (F := F)).nCore q = 2 := by
  match q with
  | 0 => rfl
  | 1 => rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' staging-cell rounds, the transfers' counters -/

abbrev UH : Type := URounds (GSem nD τ sig) ℕ
abbrev UP : Type := URounds (GSem nD τ sig) Unit
abbrev UU : Type := UH × (UP × Counters)

/-- The handshakes' rounds library: the left factor. -/
abbrev EH : Emb UH (MT nD τ sig (HIx 2) (Elt F) ℕ UU ℕ) := embL
/-- The pipelines' staging cells' rounds library: the left factor of the right factor. -/
def EP : Emb UP (MT nD τ sig (HIx 2) (Elt F) ℕ UU ℕ) :=
  (Emb.inl : Emb UP (UP × Counters)).trans
    ((Emb.inr : Emb (UP × Counters) UU).trans (uEmb (nD := nD) (sig := sig) (Ix := HIx 2) (Val := Elt F) (Name := ℕ) (U := UU) (Lvl := ℕ)).toEmb)

instance EP_landsIn : (EP : Emb UP (MT nD τ sig (HIx 2) (Elt F) ℕ UU ℕ)).LandsIn (upEmb : UEmb _ (MT nD τ sig (HIx 2) (Elt F) ℕ UU ℕ)) := by
  unfold EP; infer_instance

example : CountersIn UU := inferInstance

end Cert.Proof.KW

end
-- ==== Proof.GatherTileDefsW.lean ====
import proofs.«204254_g40355512713743_retrytranche2_1723_12_alg».proof.Proof.CommonW
import Idealize.ShloMosaic.Lib.ValueIdx

noncomputable section

namespace Cert.Proof.KW.Ga

open Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 eq_ix1)

variable {F : FTy → Type}

local notation "𝕄" => MT nD τ sig (HIx 2) (Elt F) ℕ UU ℕ

/-! ## The arrays of the gather call, as locations of a device -/

abbrev eiLoc (d : Dev nD) : Loc nD τ sig := (SparseCore.T d).loc main_v0
abbrev rfLoc (d : Dev nD) : Loc nD τ sig := (SparseCore.T d).loc main_v1
abbrev vtLoc (d : Dev nD) : Loc nD τ sig := (SparseCore.T d).loc main_v3
abbrev r2Loc (d : Dev nD) : Loc nD τ sig := (SparseCore.T d).loc main_v4_0
abbrev d0Loc (d : Dev nD) : Loc nD τ sig := (SparseCore.T d).loc main_v4_1
abbrev d1Loc (d : Dev nD) : Loc nD τ sig := (SparseCore.T d).loc main_v4_2
abbrev d2Loc (d : Dev nD) : Loc nD τ sig := (SparseCore.T d).loc main_v4_3

/-- A flat index from a natural number below the extent. -/
abbrev fx {n : Nat} (k : Nat) (h : k < n) : (⟨1, ![n]⟩ : Shape).Idx := ix1 ⟨k, h⟩

variable [FloatOps F]

/-! ## What the call computes, elementwise -/

/-- The node an edge-index word names, read unsigned and clamped to the table. -/
def nodeOf (w : Elt F .i32) : Nat := min (BitVec.toNat (show BitVec 32 from w)) 99999

omit [FloatOps F] in
theorem nodeOf_lt (w : Elt F .i32) : nodeOf (F := F) w < 100000 := by unfold nodeOf; omega

/-- Component `comp` of `v[i] - v[j]` for edge `e`: the two entries of column `comp` of the transposed table
    the edge's two index words name, subtracted in that order. -/
def specD (comp : Fin 3) (ei : S12800000.Idx → Elt F .i32) (vt : S300000.Idx → Elt F .f32) : S6400000.Idx → Elt F .f32 :=
  fun e =>
    FloatOps.subf (φ := .f32)
      (vt (fx (100000 * comp.val + nodeOf (F := F) (ei (fx (e 0).val (by have := (e 0).isLt; simp at this; omega))))
        (by have := nodeOf_lt (F := F) (ei (fx (e 0).val (by have := (e 0).isLt; simp at this; omega))); have := comp.isLt; omega)))
      (vt (fx (100000 * comp.val + nodeOf (F := F) (ei (fx ((e 0).val + 6400000) (by have := (e 0).isLt; simp at this; omega))))
        (by have := nodeOf_lt (F := F) (ei (fx ((e 0).val + 6400000) (by have := (e 0).isLt; simp at this; omega))); have := comp.isLt; omega)))

/-- The squared length of row `e` of `r`: `(x * x + y * y) + z * z`. -/
def specR2 (rf : S19200000.Idx → Elt F .f32) : S6400000.Idx → Elt F .f32 :=
  fun e =>
    let x : F .f32 := rf (fx (3 * (e 0).val) (by have := (e 0).isLt; simp at this; omega))
    let y : F .f32 := rf (fx (3 * (e 0).val + 1) (by have := (e 0).isLt; simp at this; omega))
    let z : F .f32 := rf (fx (3 * (e 0).val + 2) (by have := (e 0).isLt; simp at this; omega))
    FloatOps.addf (FloatOps.addf (FloatOps.mulf x x) (FloatOps.mulf y y)) (FloatOps.mulf z z)

/-! ## Tiles, their chunks, their shares -/

abbrev cV (L : grid0.Coords) : Fin τ.nSC := (L 0).castLE hcore0
abbrev jV (L : grid0.Coords) : Fin τ.nSub := (L 1).castLE hsub0
/-- The thread of tile `L`. -/
abbrev thrV (d : Dev nD) (L : grid0.Coords) : Thread nD τ := V d (cV L) (jV L)

/-- A tile's number: twice its subcore plus its core. -/
def wid (L : grid0.Coords) : Nat := 2 * (L 1).val + (L 0).val

/-- Entries `[lo, hi)` of an edge array. -/
def rng (lo hi : Nat) : Finset S6400000.Idx := Finset.univ.filter fun j => lo ≤ (j 0).val ∧ (j 0).val < hi
/-- Chunk `c` of an edge array: 800000 entries. -/
abbrev chunk (c : Nat) : Finset S6400000.Idx := rng (800000 * c) (800000 * c + 800000)

/-- The read share a tile holds of each input: the token of its number, of thirty-two. -/
def tsh (L : grid0.Coords) : PosShare TreeShare := Transfers.shareTokN fullShare (wid L)

omit [FloatOps F] in
/-- The inputs whole at a share. -/
abbrev ins (ei : S12800000.Idx → Elt F .i32) (rf : S19200000.Idx → Elt F .f32) (vt : S300000.Idx → Elt F .f32)
    (d : Dev nD) (q : PosShare TreeShare) : sProp 𝕄 :=
  iprop((eiLoc d ↦{q} ei) ∗ (rfLoc d ↦{q} rf) ∗ (vtLoc d ↦{q} vt))

omit [FloatOps F] in
/-- A tile's chunk of its output array, at some contents. -/
def outGo (d : Dev nD) (L : grid0.Coords) : sProp 𝕄 :=
  if wid L < 8 then iprop(∃ g, d0Loc d ↦[chunk (wid L)]{fullShare} g)
  else if wid L < 16 then iprop(∃ g, d1Loc d ↦[chunk (wid L - 8)]{fullShare} g)
  else if wid L < 24 then iprop(∃ g, d2Loc d ↦[chunk (wid L - 16)]{fullShare} g)
  else iprop(∃ g, r2Loc d ↦[chunk (wid L - 24)]{fullShare} g)

/-- A tile's chunk of its output array, at what the call computes. -/
def outTd (ei : S12800000.Idx → Elt F .i32) (rf : S19200000.Idx → Elt F .f32) (vt : S300000.Idx → Elt F .f32)
    (d : Dev nD) (L : grid0.Coords) : sProp 𝕄 :=
  if wid L < 8 then iprop(d0Loc d ↦[chunk (wid L)]{fullShare} specD 0 ei vt)
  else if wid L < 16 then iprop(d1Loc d ↦[chunk (wid L - 8)]{fullShare} specD 1 ei vt)
  else if wid L < 24 then iprop(d2Loc d ↦[chunk (wid L - 16)]{fullShare} specD 2 ei vt)
  else iprop(r2Loc d ↦[chunk (wid L - 24)]{fullShare} specR2 rf)

/-- What one tile is handed: a read share of the three inputs whole, its chunk of its output array. -/
def go0 (ei : S12800000.Idx → Elt F .i32) (rf : S19200000.Idx → Elt F .f32) (vt : S300000.Idx → Elt F .f32)
    (d : Dev nD) (L : grid0.Coords) : sProp 𝕄 :=
  iprop(ins ei rf vt d (tsh L) ∗ outGo (F := F) d L)
/-- What it hands back: the shares, its chunk at what the call computes. -/
def td0 (ei : S12800000.Idx → Elt F .i32) (rf : S19200000.Idx → Elt F .f32) (vt : S300000.Idx → Elt F .f32)
    (d : Dev nD) (L : grid0.Coords) : sProp 𝕄 :=
  iprop(ins ei rf vt d (tsh L) ∗ outTd ei rf vt d L)

/-- The grid point of tile `i` of SparseCore `c`. -/
def coords0 (c : Fin 2) (i : Fin 16) : grid0.Coords :=
  fun | 0 => c | 1 => i | ⟨_ + 2, h⟩ => absurd h (Nat.not_lt.2 (Nat.le_add_left _ _))

/-- One SparseCore's part: its sixteen tiles'. -/
def st0 (ei : S12800000.Idx → Elt F .i32) (rf : S19200000.Idx → Elt F .f32) (vt : S300000.Idx → Elt F .f32)
    (d : Dev nD) (c : Fin 2) : sProp 𝕄 :=
  bigSep Finset.univ fun i : Fin 16 => go0 ei rf vt d (coords0 c i)
def dn0 (ei : S12800000.Idx → Elt F .i32) (rf : S19200000.Idx → Elt F .f32) (vt : S300000.Idx → Elt F .f32)
    (d : Dev nD) (c : Fin 2) : sProp 𝕄 :=
  bigSep Finset.univ fun i : Fin 16 => td0 ei rf vt d (coords0 c i)

/-- What stays with the TensorCore across the call: the inputs' read shares no tile is handed. -/
def rem0 (ei : S12800000.Idx → Elt F .i32) (rf : S19200000.Idx → Elt F .f32) (vt : S300000.Idx → Elt F .f32)
    (d : Dev nD) : sProp 𝕄 :=
  ins ei rf vt d (Transfers.shareDrop fullShare 32)

omit [FloatOps F] in
instance outGo_storable (d : Dev nD) (L : grid0.Coords) : BI.Storable (upEmb : UEmb _ 𝕄) (outGo (F := F) d L) := by
  unfold outGo; (repeat' split) <;> infer_instance
instance outTd_storable (ei : S12800000.Idx → Elt F .i32) (rf : S19200000.Idx → Elt F .f32) (vt : S300000.Idx → Elt F .f32)
    (d : Dev nD) (L : grid0.Coords) : BI.Storable (upEmb : UEmb _ 𝕄) (outTd ei rf vt d L) := by
  unfold outTd; (repeat' split) <;> infer_instance
instance go0_storable (ei : S12800000.Idx → Elt F .i32) (rf : S19200000.Idx → Elt F .f32) (vt : S300000.Idx → Elt F .f32)
    (d : Dev nD) (L : grid0.Coords) : BI.Storable (upEmb : UEmb _ 𝕄) (go0 ei rf vt d L) := by unfold go0; infer_instance
instance td0_storable (ei : S12800000.Idx → Elt F .i32) (rf : S19200000.Idx → Elt F .f32) (vt : S300000.Idx → Elt F .f32)
    (d : Dev nD) (L : grid0.Coords) : BI.Storable (upEmb : UEmb _ 𝕄) (td0 ei rf vt d L) := by unfold td0; infer_instance
instance st0_storable (ei : S12800000.Idx → Elt F .i32) (rf : S19200000.Idx → Elt F .f32) (vt : S300000.Idx → Elt F .f32)
    (d : Dev nD) (c : Fin 2) : BI.Storable (upEmb : UEmb _ 𝕄) (st0 ei rf vt d c) := by unfold st0; infer_instance
instance dn0_storable (ei : S12800000.Idx → Elt F .i32) (rf : S19200000.Idx → Elt F .f32) (vt : S300000.Idx → Elt F .f32)
    (d : Dev nD) (c : Fin 2) : BI.Storable (upEmb : UEmb _ 𝕄) (dn0 ei rf vt d c) := by unfold dn0; infer_instance

/-! ## Which branch a tile takes -/

theorem cond1_iff (L : grid0.Coords) : k0_cond1 L = 1#1 ↔ wid L < 8 := by unfold wid; revert L; decide
theorem cond2_iff (L : grid0.Coords) : k0_cond2 L = 1#1 ↔ 8 ≤ wid L ∧ wid L < 16 := by unfold wid; revert L; decide
theorem cond3_iff (L : grid0.Coords) : k0_cond3 L = 1#1 ↔ 16 ≤ wid L ∧ wid L < 24 := by unfold wid; revert L; decide
theorem cond4_iff (L : grid0.Coords) : k0_cond4 L = 1#1 ↔ 24 ≤ wid L := by unfold wid; revert L; decide

end Cert.Proof.KW.Ga

end
-- ==== Proof.GatherTileLibW.lean ====
import proofs.«204254_g40355512713743_retrytranche2_1723_12_alg».proof.Proof.CommonW
import Idealize.ShloMosaic.Lib.ValueIdx
import proofs.«204254_g40355512713743_retrytranche2_1723_12_alg».proof.Proof.GatherTileDefsW

noncomputable section

namespace Cert.Proof.KW.Ga

open Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 eq_ix1)

variable {F : FTy → Type}

local notation "𝕄" => MT nD τ sig (HIx 2) (Elt F) ℕ UU ℕ

/-! ## A tile's scoped semaphores and scratch buffers, taken out of what the launch hands it -/

section Tile

variable (d : Dev nD) (L : grid0.Coords)

/-- The cell of a DMA semaphore of tile `L`. -/
abbrev cellV (sm : DmaSems sig S_) : GSem nD τ sig := (thrV d L, .dma sm.sem)

theorem cellV_mem (sm : DmaSems sig S_) (h : (SemLoc.dma sm.sem : SemLoc sig).isScoped .scVector = true) :
    cellV d L sm ∈ ownCells (thrV d L) := (mem_ownCells (g := cellV d L sm)).mpr ⟨rfl, h⟩

theorem cellV_ne {a b : DmaSems sig S_} (h : a.sem ≠ b.sem) : cellV d L a ≠ cellV d L b :=
  fun e => h (by have := congrArg Prod.snd e; simpa using this)

/-- Four scoped DMA semaphores of the tile, out of all its own at zero. -/
theorem ownSems0_take4 (s1 s2 s3 s4 : DmaSems sig S_)
    (h1 : (SemLoc.dma s1.sem : SemLoc sig).isScoped .scVector = true) (h2 : (SemLoc.dma s2.sem : SemLoc sig).isScoped .scVector = true)
    (h3 : (SemLoc.dma s3.sem : SemLoc sig).isScoped .scVector = true) (h4 : (SemLoc.dma s4.sem : SemLoc sig).isScoped .scVector = true)
    (n12 : s1.sem ≠ s2.sem) (n13 : s1.sem ≠ s3.sem) (n14 : s1.sem ≠ s4.sem) (n23 : s2.sem ≠ s3.sem) (n24 : s2.sem ≠ s4.sem) (n34 : s3.sem ≠ s4.sem) :
    (ownSems0 (thrV d L) : sProp 𝕄)
      = iprop(semVal (cellV d L s1) 0 ∗ semVal (cellV d L s2) 0 ∗ semVal (cellV d L s3) 0 ∗ semVal (cellV d L s4) 0
          ∗ bigSep (((((ownCells (thrV d L)).erase (cellV d L s1)).erase (cellV d L s2)).erase (cellV d L s3)).erase (cellV d L s4))
              fun g => semVal g 0) := by
  unfold SparseCore.Cfg.ownSems0
  rw [SparseCore.bigSep_erase' (cellV_mem d L s1 h1),
    SparseCore.bigSep_erase' (Finset.mem_erase.mpr ⟨(cellV_ne d L n12).symm, cellV_mem d L s2 h2⟩),
    SparseCore.bigSep_erase' (Finset.mem_erase.mpr ⟨(cellV_ne d L n23).symm, Finset.mem_erase.mpr ⟨(cellV_ne d L n13).symm, cellV_mem d L s3 h3⟩⟩),
    SparseCore.bigSep_erase' (Finset.mem_erase.mpr ⟨(cellV_ne d L n34).symm, Finset.mem_erase.mpr ⟨(cellV_ne d L n24).symm,
      Finset.mem_erase.mpr ⟨(cellV_ne d L n14).symm, cellV_mem d L s4 h4⟩⟩⟩)]

/-- Two scoped DMA semaphores of the tile, out of all its own at zero. -/
theorem ownSems0_take2 (s1 s2 : DmaSems sig S_)
    (h1 : (SemLoc.dma s1.sem : SemLoc sig).isScoped .scVector = true) (h2 : (SemLoc.dma s2.sem : SemLoc sig).isScoped .scVector = true)
    (n12 : s1.sem ≠ s2.sem) :
    (ownSems0 (thrV d L) : sProp 𝕄)
      = iprop(semVal (cellV d L s1) 0 ∗ semVal (cellV d L s2) 0
          ∗ bigSep (((ownCells (thrV d L)).erase (cellV d L s1)).erase (cellV d L s2)) fun g => semVal g 0) := by
  unfold SparseCore.Cfg.ownSems0
  rw [SparseCore.bigSep_erase' (cellV_mem d L s1 h1),
    SparseCore.bigSep_erase' (Finset.mem_erase.mpr ⟨(cellV_ne d L n12).symm, cellV_mem d L s2 h2⟩)]

abbrev pV (L : grid0.Coords) : Proc τ := Proc.scVector (cV L) (jV L)

/-- The four scratch buffers are among the tile's own: they, at some contents, and the rest. -/
theorem ownBufs_V :
    (ownBufs (thrV d L) : sProp 𝕄)
      = iprop((∃ f, (thrV d L).loc cc0_scratch0 ↦{fullShare} f) ∗ (∃ f, (thrV d L).loc cc0_scratch1 ↦{fullShare} f)
          ∗ (∃ f, (thrV d L).loc cc0_scratch2 ↦{fullShare} f) ∗ (∃ f, (thrV d L).loc cc0_scratch3 ↦{fullShare} f)
          ∗ bigSep (((((ownRefs (τ := τ) (pV L)).erase ((pV L).devRef cc0_scratch0)).erase ((pV L).devRef cc0_scratch1)).erase
              ((pV L).devRef cc0_scratch2)).erase ((pV L).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := pV L) (b := (pV L).devRef cc0_scratch0) rfl)).trans ?_
  rw [SparseCore.bigSep_erase' (Finset.mem_erase.mpr ⟨fun e => absurd (Proc.devRef_injective _ e) (show (cc0_scratch1 : Ref sig .scVector) ≠ cc0_scratch0 by decide),
      SparseCore.Cfg.mem_ownRefs_of_owner (p := pV L) (b := (pV L).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := pV L) (b := (pV L).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
      SparseCore.Cfg.mem_ownRefs_of_owner (p := pV L) (b := (pV L).devRef cc0_scratch3) rfl⟩⟩⟩)]

/-! ## The kernel's memrefs -/

abbrev eiV : Memref sig .scVector .hbm S12800000 .i32 := Memref.whole main_v0_scv
abbrev rfV : Memref sig .scVector .hbm S19200000 .f32 := Memref.whole main_v1_scv
abbrev vtV : Memref sig .scVector .hbm S300000 .f32 := Memref.whole main_v3_scv
abbrev r2V : Memref sig .scVector .hbm S6400000 .f32 := Memref.whole main_v4_0_scv
abbrev d0V : Memref sig .scVector .hbm S6400000 .f32 := Memref.whole main_v4_1_scv
abbrev d1V : Memref sig .scVector .hbm S6400000 .f32 := Memref.whole main_v4_2_scv
abbrev d2V : Memref sig .scVector .hbm S6400000 .f32 := Memref.whole main_v4_3_scv
abbrev tabV : Memref sig .scVector .vmem S100000 .f32 := Memref.whole cc0_scratch0
abbrev ibV : Memref sig .scVector .vmem S8000 .i32 := Memref.whole cc0_scratch1
abbrev jbV : Memref sig .scVector .vmem S8000 .i32 := Memref.whole cc0_scratch2
abbrev obV : Memref sig .scVector .vmem S8000 .f32 := Memref.whole cc0_scratch3

theorem pts_ei (q : PosShare TreeShare) (f : Buf (Elt F) (eiLoc d)) :
    ((eiV).view.loc (thrV d L) ↦{q} f : sProp 𝕄) = eiLoc d ↦{q} f := rfl
theorem pts_rf (q : PosShare TreeShare) (f : Buf (Elt F) (rfLoc d)) :
    ((rfV).view.loc (thrV d L) ↦{q} f : sProp 𝕄) = rfLoc d ↦{q} f := rfl
theorem pts_vt (q : PosShare TreeShare) (f : Buf (Elt F) (vtLoc d)) :
    ((vtV).view.loc (thrV d L) ↦{q} f : sProp 𝕄) = vtLoc d ↦{q} f := rfl
theorem pts_tab (f : Buf (Elt F) ((thrV d L).loc cc0_scratch0)) :
    ((tabV).view.loc (thrV d L) ↦{fullShare} f : sProp 𝕄) = (thrV d L).loc cc0_scratch0 ↦{fullShare} f := rfl
theorem pts_ib (f : Buf (Elt F) ((thrV d L).loc cc0_scratch1)) :
    ((ibV).view.loc (thrV d L) ↦{fullShare} f : sProp 𝕄) = (thrV d L).loc cc0_scratch1 ↦{fullShare} f := rfl
theorem pts_jb (f : Buf (Elt F) ((thrV d L).loc cc0_scratch2)) :
    ((jbV).view.loc (thrV d L) ↦{fullShare} f : sProp 𝕄) = (thrV d L).loc cc0_scratch2 ↦{fullShare} f := rfl
theorem pts_ob (f : Buf (Elt F) ((thrV d L).loc cc0_scratch3)) :
    ((obV).view.loc (thrV d L) ↦{fullShare} f : sProp 𝕄) = (thrV d L).loc cc0_scratch3 ↦{fullShare} f := rfl

end Tile

end Cert.Proof.KW.Ga

end
-- ==== Proof.GatherTileOffW.lean ====
import proofs.«204254_g40355512713743_retrytranche2_1723_12_alg».proof.Proof.CommonW
import Idealize.ShloMosaic.Lib.ValueIdx
import proofs.«204254_g40355512713743_retrytranche2_1723_12_alg».proof.Proof.GatherTileDefsW

noncomputable section

namespace Cert.Proof.KW.Ga

open Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 eq_ix1)

variable {F : FTy → Type}

local notation "𝕄" => MT nD τ sig (HIx 2) (Elt F) ℕ UU ℕ

/-! ## The printed offsets of the block loops, in closed form under their branch -/

theorem off1_val (L : grid0.Coords) (t : Fin k0_t1_loop.trips) (h : k0_cond1 L = 1#1) : k0_off1 L t 0 = 800000 * (wid L - 0) + 8000 * t.val := by
  revert L t; unfold wid; decide +kernel
theorem off2_val (L : grid0.Coords) (t : Fin k0_t1_loop.trips) (h : k0_cond1 L = 1#1) : k0_off2 L t 0 = 6400000 + (800000 * (wid L - 0) + 8000 * t.val) := by
  revert L t; unfold wid; decide +kernel
theorem off6_val (L : grid0.Coords) (t : Fin k0_t1_loop.trips) (h : k0_cond1 L = 1#1) : k0_off6 L t 0 = 800000 * (wid L - 0) + 8000 * t.val := by
  revert L t; unfold wid; decide +kernel

theorem off7_val (L : grid0.Coords) (t : Fin k0_t3_loop.trips) (h : k0_cond2 L = 1#1) : k0_off7 L t 0 = 800000 * (wid L - 8) + 8000 * t.val := by
  revert L t; unfold wid; decide +kernel
theorem off8_val (L : grid0.Coords) (t : Fin k0_t3_loop.trips) (h : k0_cond2 L = 1#1) : k0_off8 L t 0 = 6400000 + (800000 * (wid L - 8) + 8000 * t.val) := by
  revert L t; unfold wid; decide +kernel
theorem off12_val (L : grid0.Coords) (t : Fin k0_t3_loop.trips) (h : k0_cond2 L = 1#1) : k0_off12 L t 0 = 800000 * (wid L - 8) + 8000 * t.val := by
  revert L t; unfold wid; decide +kernel
theorem off13_val (L : grid0.Coords) (t : Fin k0_t5_loop.trips) (h : k0_cond3 L = 1#1) : k0_off13 L t 0 = 800000 * (wid L - 16) + 8000 * t.val := by
  revert L t; unfold wid; decide +kernel
theorem off14_val (L : grid0.Coords) (t : Fin k0_t5_loop.trips) (h : k0_cond3 L = 1#1) : k0_off14 L t 0 = 6400000 + (800000 * (wid L - 16) + 8000 * t.val) := by
  revert L t; unfold wid; decide +kernel
theorem off18_val (L : grid0.Coords) (t : Fin k0_t5_loop.trips) (h : k0_cond3 L = 1#1) : k0_off18 L t 0 = 800000 * (wid L - 16) + 8000 * t.val := by
  revert L t; unfold wid; decide +kernel
theorem off19_val (L : grid0.Coords) (t : Fin k0_t7_loop.trips) (h : k0_cond4 L = 1#1) : k0_off19 L t 0 = 3 * (800000 * (wid L - 24) + 8000 * t.val) := by
  revert L t; unfold wid; decide +kernel
theorem off21_val (L : grid0.Coords) (t : Fin k0_t7_loop.trips) (h : k0_cond4 L = 1#1) : k0_off21 L t 0 = 800000 * (wid L - 24) + 8000 * t.val := by
  revert L t; unfold wid; decide +kernel

end Cert.Proof.KW.Ga

end
-- ==== Proof.GatherTileValW.lean ====
import proofs.«204254_g40355512713743_retrytranche2_1723_12_alg».proof.Proof.CommonW
import Idealize.ShloMosaic.Lib.ValueIdx
import proofs.«204254_g40355512713743_retrytranche2_1723_12_alg».proof.Proof.GatherTileLibW
import proofs.«204254_g40355512713743_retrytranche2_1723_12_alg».proof.Proof.GatherTileOffW

noncomputable section

namespace Cert.Proof.KW.Ga

open Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 eq_ix1)

variable {F : FTy → Type}

local notation "𝕄" => MT nD τ sig (HIx 2) (Elt F) ℕ UU ℕ

variable [FloatOps F]

/-! ## Reading the scratch buffers at an index -/

section Val

variable (d : Dev nD) (L : grid0.Coords)

omit [FloatOps F] in
/-- A lane of sixteen loaded at `off` of an 8000-entry scratch sits at entry `off + lane`. -/
theorem idx16 (off : Fin 1 → Nat) (inb : ∀ a, off a + S16.size a ≤ S8000.size a) (x : S16.Idx) :
    (Rect.unit (s := S8000) off S16.size inb).toLoadRect.idx x
      = fx (off 0 + (x 0).val) (by have := inb 0; have := (x 0).isLt; simp at *; omega) := by
  funext a; apply Fin.ext
  rw [LoadRect.idx_apply, Subsingleton.elim a 0]
  show off 0 + 1 * (x 0).val = off 0 + (x 0).val
  omega

omit [FloatOps F] in
/-- What a load of sixteen index words reads. -/
theorem load16_ib (fi : Buf (Elt F) ((thrV d L).loc cc0_scratch1)) (off : Fin 1 → Nat) (inb : ∀ a, off a + S16.size a ≤ S8000.size a) (x : S16.Idx) :
    (ibV).view.readAt (Elt F) (Rect.unit (s := S8000) off S16.size inb).toLoadRect fi x
      = fi (fx (off 0 + (x 0).val) (by have := inb 0; have := (x 0).isLt; simp at *; omega)) := by
  rw [View.readAt_apply, idx16]; rfl
omit [FloatOps F] in
theorem load16_jb (fj : Buf (Elt F) ((thrV d L).loc cc0_scratch2)) (off : Fin 1 → Nat) (inb : ∀ a, off a + S16.size a ≤ S8000.size a) (x : S16.Idx) :
    (jbV).view.readAt (Elt F) (Rect.unit (s := S8000) off S16.size inb).toLoadRect fj x
      = fj (fx (off 0 + (x 0).val) (by have := inb 0; have := (x 0).isLt; simp at *; omega)) := by
  rw [View.readAt_apply, idx16]; rfl

/-- What a gather through the table reads at a lane: the table's entry the lane's word names. -/
theorem gather_apply (ft : Buf (Elt F) ((thrV d L).loc cc0_scratch0)) (v : IVec S16 32)
    (h : ∀ a x, ((![v] : Fin 1 → IVec S16 32) a x).toNat < S100000.size a) (x : S16.Idx) :
    loadIdx ((tabV.access (.whole S100000)).read (Elt F) ft) ![v] h x = ft (fx (nodeOf (F := F) (v x)) (nodeOf_lt _)) := by
  have hv : (v x).toNat < 100000 := h 0 x
  unfold loadIdx
  refine ((View.read_apply _ _).trans (cast_eq _ _)).trans ?_
  have e : ((tabV.access (Rect.whole S100000)).emb (idxAt ![v] h x) : S100000.Idx) = fx (nodeOf (F := F) (v x)) (nodeOf_lt _) := by
    funext a; apply Fin.ext
    obtain rfl : a = (0 : Fin 1) := Subsingleton.elim (α := Fin 1) a 0
    show 0 + 1 * (v x).toNat = min (v x).toNat 99999
    omega
  exact congrArg ft e

omit [FloatOps F] in
/-- A store of sixteen lanes at `off` of the out scratch, read back off the stored lanes -/
theorem store16_out (fo : Buf (Elt F) ((thrV d L).loc cc0_scratch3)) (off : Fin 1 → Nat) (inb : ∀ a, off a + S16.size a ≤ S8000.size a)
    (w : S16.Idx → Elt F .f32) (j : S8000.Idx) (hj : (j 0).val < off 0 ∨ off 0 + 16 ≤ (j 0).val) :
    ((obV).access (Rect.unit (s := S8000) off S16.size inb)).write (Elt F) fo w Finset.univ j = fo j := by
  apply View.write_of_not_mem
  rw [View.setOn_univ]
  refine fun hm => ?_
  have hm' := (View.set_slice_whole (cc0_scratch3) (Rect.unit (s := S8000) off S16.size inb)) ▸ hm
  rw [Rect.mem_set_unit] at hm'
  have := hm' 0
  simp at this
  omega

omit [FloatOps F] in
/-- and on them. -/
theorem store16_in (fo : Buf (Elt F) ((thrV d L).loc cc0_scratch3)) (off : Fin 1 → Nat) (inb : ∀ a, off a + S16.size a ≤ S8000.size a)
    (w : S16.Idx → Elt F .f32) (j : S8000.Idx) (hj : off 0 ≤ (j 0).val ∧ (j 0).val < off 0 + 16) :
    ((obV).access (Rect.unit (s := S8000) off S16.size inb)).write (Elt F) fo w Finset.univ j = w (fx ((j 0).val - off 0) (by omega)) := by
  have e : ((((obV).access (Rect.unit (s := S8000) off S16.size inb)).emb (fx ((j 0).val - off 0) (by omega)) : S8000.Idx)) = j := by
    funext a; apply Fin.ext
    obtain rfl : a = (0 : Fin 1) := Subsingleton.elim (α := Fin 1) a 0
    show off 0 + 1 * ((j 0).val - off 0) = (j 0).val
    omega
  have h := View.write_emb_of_mem (v := (obV).access (Rect.unit (s := S8000) off S16.size inb)) (Val := Elt F) fo w (M := Finset.univ)
    (x := fx ((j 0).val - off 0) (by omega)) (Finset.mem_univ _)
  rw [e] at h
  exact h.trans (cast_eq _ _)

/-! ## The copies' payloads and landings -/

omit [FloatOps F] in
/-- The words a copy of 8000 entries at `off` of the edge indices moves. -/
theorem slice_read_ei (ei : S12800000.Idx → Elt F .i32) (off : Fin 1 → Nat) (inb : ∀ a, off a + S8000.size a ≤ S12800000.size a) (j : S8000.Idx) :
    ((eiV).slice (Rect.unit (s := S12800000) off S8000.size inb) (fun _ => rfl)).view.read (Elt F) ei j
      = ei (fx (off 0 + (j 0).val) (by have := inb 0; have := (j 0).isLt; simp at *; omega)) := by
  refine ((View.read_apply _ _).trans (cast_eq _ _)).trans ?_
  have e : ((((eiV).slice (Rect.unit (s := S12800000) off S8000.size inb) (fun _ => rfl)).view.emb j : S12800000.Idx))
      = fx (off 0 + (j 0).val) (by have := inb 0; have := (j 0).isLt; simp at *; omega) := by
    funext a; apply Fin.ext
    obtain rfl : a = (0 : Fin 1) := Subsingleton.elim (α := Fin 1) a 0
    show off 0 + 1 * (j 0).val = off 0 + (j 0).val
    omega
  exact congrArg ei e

omit [FloatOps F] in
/-- The entries a copy of a column of the transposed table moves. -/
theorem slice_read_vt (vt : S300000.Idx → Elt F .f32) (off : Fin 1 → Nat) (inb : ∀ a, off a + S100000.size a ≤ S300000.size a) (t : S100000.Idx) :
    ((vtV).slice (Rect.unit (s := S300000) off S100000.size inb) (fun _ => rfl)).view.read (Elt F) vt t
      = vt (fx (off 0 + (t 0).val) (by have := inb 0; have := (t 0).isLt; simp at *; omega)) := by
  refine ((View.read_apply _ _).trans (cast_eq _ _)).trans ?_
  have e : ((((vtV).slice (Rect.unit (s := S300000) off S100000.size inb) (fun _ => rfl)).view.emb t : S300000.Idx))
      = fx (off 0 + (t 0).val) (by have := inb 0; have := (t 0).isLt; simp at *; omega) := by
    funext a; apply Fin.ext
    obtain rfl : a = (0 : Fin 1) := Subsingleton.elim (α := Fin 1) a 0
    show off 0 + 1 * (t 0).val = off 0 + (t 0).val
    omega
  exact congrArg vt e

omit [FloatOps F] in
/-- The entries of an edge array a block of 8000 at `off` covers. -/
theorem d0_set (off : Fin 1 → Nat) (inb : ∀ a, off a + S8000.size a ≤ S6400000.size a) :
    ((d0V).slice (Rect.unit (s := S6400000) off S8000.size inb) (fun _ => rfl)).view.set = rng (off 0) (off 0 + 8000) := by
  refine (View.set_slice_whole (main_v4_1_scv) (Rect.unit (s := S6400000) off S8000.size inb)).trans ?_
  ext j
  rw [Rect.mem_set_unit]
  unfold rng
  simp only [Finset.mem_filter, Finset.mem_univ, true_and]
  constructor
  · intro h; exact h 0
  · intro h a; obtain rfl : a = (0 : Fin 1) := Subsingleton.elim (α := Fin 1) a 0; exact h

omit [FloatOps F] in
/-- A block landed at `off`, read back on the block -/
theorem d0_write_in (g : Buf (Elt F) (d0Loc d)) (off : Fin 1 → Nat) (inb : ∀ a, off a + S8000.size a ≤ S6400000.size a)
    (w : S8000.Idx → Elt F .f32) (j : S6400000.Idx) (hj : off 0 ≤ (j 0).val ∧ (j 0).val < off 0 + 8000) :
    ((d0V).slice (Rect.unit (s := S6400000) off S8000.size inb) (fun _ => rfl)).view.writes (Elt F) g [⟨Rect.whole S8000, w⟩] j
      = w (fx ((j 0).val - off 0) (by omega)) := by
  rw [View.writes_singleton]
  have e : (((((d0V).slice (Rect.unit (s := S6400000) off S8000.size inb) (fun _ => rfl)).view.slice (Rect.whole S8000)).emb (fx ((j 0).val - off 0) (by omega)) : S6400000.Idx)) = j := by
    funext a; apply Fin.ext
    obtain rfl : a = (0 : Fin 1) := Subsingleton.elim (α := Fin 1) a 0
    show off 0 + 1 * (0 + 1 * ((j 0).val - off 0)) = (j 0).val
    omega
  have h := View.write_emb_of_mem (v := (((d0V).slice (Rect.unit (s := S6400000) off S8000.size inb) (fun _ => rfl)).view.slice (Rect.whole S8000))) (Val := Elt F) g w
    (M := Finset.univ) (x := fx ((j 0).val - off 0) (by omega)) (Finset.mem_univ _)
  rw [e] at h
  exact h.trans (cast_eq _ _)

omit [FloatOps F] in
/-- and off it. -/
theorem d0_write_out (g : Buf (Elt F) (d0Loc d)) (off : Fin 1 → Nat) (inb : ∀ a, off a + S8000.size a ≤ S6400000.size a)
    (w : S8000.Idx → Elt F .f32) (j : S6400000.Idx) (hj : (j 0).val < off 0 ∨ off 0 + 8000 ≤ (j 0).val) :
    ((d0V).slice (Rect.unit (s := S6400000) off S8000.size inb) (fun _ => rfl)).view.writes (Elt F) g [⟨Rect.whole S8000, w⟩] j = g j := by
  rw [View.writes_singleton]
  apply View.write_of_not_mem
  rw [View.setOn_univ]
  refine fun hm => ?_
  have hm' := View.set_slice_subset _ _ hm
  rw [d0_set] at hm'
  unfold rng at hm'
  simp only [Finset.mem_filter, Finset.mem_univ, true_and] at hm'
  omega

omit [FloatOps F] in
/-- The entries of an edge array a block of 8000 at `off` covers. -/
theorem d1_set (off : Fin 1 → Nat) (inb : ∀ a, off a + S8000.size a ≤ S6400000.size a) :
    ((d1V).slice (Rect.unit (s := S6400000) off S8000.size inb) (fun _ => rfl)).view.set = rng (off 0) (off 0 + 8000) := by
  refine (View.set_slice_whole (main_v4_2_scv) (Rect.unit (s := S6400000) off S8000.size inb)).trans ?_
  ext j
  rw [Rect.mem_set_unit]
  unfold rng
  simp only [Finset.mem_filter, Finset.mem_univ, true_and]
  constructor
  · intro h; exact h 0
  · intro h a; obtain rfl : a = (0 : Fin 1) := Subsingleton.elim (α := Fin 1) a 0; exact h

omit [FloatOps F] in
/-- A block landed at `off`, read back on the block -/
theorem d1_write_in (g : Buf (Elt F) (d1Loc d)) (off : Fin 1 → Nat) (inb : ∀ a, off a + S8000.size a ≤ S6400000.size a)
    (w : S8000.Idx → Elt F .f32) (j : S6400000.Idx) (hj : off 0 ≤ (j 0).val ∧ (j 0).val < off 0 + 8000) :
    ((d1V).slice (Rect.unit (s := S6400000) off S8000.size inb) (fun _ => rfl)).view.writes (Elt F) g [⟨Rect.whole S8000, w⟩] j
      = w (fx ((j 0).val - off 0) (by omega)) := by
  rw [View.writes_singleton]
  have e : (((((d1V).slice (Rect.unit (s := S6400000) off S8000.size inb) (fun _ => rfl)).view.slice (Rect.whole S8000)).emb (fx ((j 0).val - off 0) (by omega)) : S6400000.Idx)) = j := by
    funext a; apply Fin.ext
    obtain rfl : a = (0 : Fin 1) := Subsingleton.elim (α := Fin 1) a 0
    show off 0 + 1 * (0 + 1 * ((j 0).val - off 0)) = (j 0).val
    omega
  have h := View.write_emb_of_mem (v := (((d1V).slice (Rect.unit (s := S6400000) off S8000.size inb) (fun _ => rfl)).view.slice (Rect.whole S8000))) (Val := Elt F) g w
    (M := Finset.univ) (x := fx ((j 0).val - off 0) (by omega)) (Finset.mem_univ _)
  rw [e] at h
  exact h.trans (cast_eq _ _)

omit [FloatOps F] in
/-- and off it. -/
theorem d1_write_out (g : Buf (Elt F) (d1Loc d)) (off : Fin 1 → Nat) (inb : ∀ a, off a + S8000.size a ≤ S6400000.size a)
    (w : S8000.Idx → Elt F .f32) (j : S6400000.Idx) (hj : (j 0).val < off 0 ∨ off 0 + 8000 ≤ (j 0).val) :
    ((d1V).slice (Rect.unit (s := S6400000) off S8000.size inb) (fun _ => rfl)).view.writes (Elt F) g [⟨Rect.whole S8000, w⟩] j = g j := by
  rw [View.writes_singleton]
  apply View.write_of_not_mem
  rw [View.setOn_univ]
  refine fun hm => ?_
  have hm' := View.set_slice_subset _ _ hm
  rw [d1_set] at hm'
  unfold rng at hm'
  simp only [Finset.mem_filter, Finset.mem_univ, true_and] at hm'
  omega

omit [FloatOps F] in
/-- The entries of an edge array a block of 8000 at `off` covers. -/
theorem d2_set (off : Fin 1 → Nat) (inb : ∀ a, off a + S8000.size a ≤ S6400000.size a) :
    ((d2V).slice (Rect.unit (s := S6400000) off S8000.size inb) (fun _ => rfl)).view.set = rng (off 0) (off 0 + 8000) := by
  refine (View.set_slice_whole (main_v4_3_scv) (Rect.unit (s := S6400000) off S8000.size inb)).trans ?_
  ext j
  rw [Rect.mem_set_unit]
  unfold rng
  simp only [Finset.mem_filter, Finset.mem_univ, true_and]
  constructor
  · intro h; exact h 0
  · intro h a; obtain rfl : a = (0 : Fin 1) := Subsingleton.elim (α := Fin 1) a 0; exact h

omit [FloatOps F] in
/-- A block landed at `off`, read back on the block -/
theorem d2_write_in (g : Buf (Elt F) (d2Loc d)) (off : Fin 1 → Nat) (inb : ∀ a, off a + S8000.size a ≤ S6400000.size a)
    (w : S8000.Idx → Elt F .f32) (j : S6400000.Idx) (hj : off 0 ≤ (j 0).val ∧ (j 0).val < off 0 + 8000) :
    ((d2V).slice (Rect.unit (s := S6400000) off S8000.size inb) (fun _ => rfl)).view.writes (Elt F) g [⟨Rect.whole S8000, w⟩] j
      = w (fx ((j 0).val - off 0) (by omega)) := by
  rw [View.writes_singleton]
  have e : (((((d2V).slice (Rect.unit (s := S6400000) off S8000.size inb) (fun _ => rfl)).view.slice (Rect.whole S8000)).emb (fx ((j 0).val - off 0) (by omega)) : S6400000.Idx)) = j := by
    funext a; apply Fin.ext
    obtain rfl : a = (0 : Fin 1) := Subsingleton.elim (α := Fin 1) a 0
    show off 0 + 1 * (0 + 1 * ((j 0).val - off 0)) = (j 0).val
    omega
  have h := View.write_emb_of_mem (v := (((d2V).slice (Rect.unit (s := S6400000) off S8000.size inb) (fun _ => rfl)).view.slice (Rect.whole S8000))) (Val := Elt F) g w
    (M := Finset.univ) (x := fx ((j 0).val - off 0) (by omega)) (Finset.mem_univ _)
  rw [e] at h
  exact h.trans (cast_eq _ _)

omit [FloatOps F] in
/-- and off it. -/
theorem d2_write_out (g : Buf (Elt F) (d2Loc d)) (off : Fin 1 → Nat) (inb : ∀ a, off a + S8000.size a ≤ S6400000.size a)
    (w : S8000.Idx → Elt F .f32) (j : S6400000.Idx) (hj : (j 0).val < off 0 ∨ off 0 + 8000 ≤ (j 0).val) :
    ((d2V).slice (Rect.unit (s := S6400000) off S8000.size inb) (fun _ => rfl)).view.writes (Elt F) g [⟨Rect.whole S8000, w⟩] j = g j := by
  rw [View.writes_singleton]
  apply View.write_of_not_mem
  rw [View.setOn_univ]
  refine fun hm => ?_
  have hm' := View.set_slice_subset _ _ hm
  rw [d2_set] at hm'
  unfold rng at hm'
  simp only [Finset.mem_filter, Finset.mem_univ, true_and] at hm'
  omega

omit [FloatOps F] in
/-- The entries of an edge array a block of 8000 at `off` covers. -/
theorem r2_set (off : Fin 1 → Nat) (inb : ∀ a, off a + S8000.size a ≤ S6400000.size a) :
    ((r2V).slice (Rect.unit (s := S6400000) off S8000.size inb) (fun _ => rfl)).view.set = rng (off 0) (off 0 + 8000) := by
  refine (View.set_slice_whole (main_v4_0_scv) (Rect.unit (s := S6400000) off S8000.size inb)).trans ?_
  ext j
  rw [Rect.mem_set_unit]
  unfold rng
  simp only [Finset.mem_filter, Finset.mem_univ, true_and]
  constructor
  · intro h; exact h 0
  · intro h a; obtain rfl : a = (0 : Fin 1) := Subsingleton.elim (α := Fin 1) a 0; exact h

omit [FloatOps F] in
/-- A block landed at `off`, read back on the block -/
theorem r2_write_in (g : Buf (Elt F) (r2Loc d)) (off : Fin 1 → Nat) (inb : ∀ a, off a + S8000.size a ≤ S6400000.size a)
    (w : S8000.Idx → Elt F .f32) (j : S6400000.Idx) (hj : off 0 ≤ (j 0).val ∧ (j 0).val < off 0 + 8000) :
    ((r2V).slice (Rect.unit (s := S6400000) off S8000.size inb) (fun _ => rfl)).view.writes (Elt F) g [⟨Rect.whole S8000, w⟩] j
      = w (fx ((j 0).val - off 0) (by omega)) := by
  rw [View.writes_singleton]
  have e : (((((r2V).slice (Rect.unit (s := S6400000) off S8000.size inb) (fun _ => rfl)).view.slice (Rect.whole S8000)).emb (fx ((j 0).val - off 0) (by omega)) : S6400000.Idx)) = j := by
    funext a; apply Fin.ext
    obtain rfl : a = (0 : Fin 1) := Subsingleton.elim (α := Fin 1) a 0
    show off 0 + 1 * (0 + 1 * ((j 0).val - off 0)) = (j 0).val
    omega
  have h := View.write_emb_of_mem (v := (((r2V).slice (Rect.unit (s := S6400000) off S8000.size inb) (fun _ => rfl)).view.slice (Rect.whole S8000))) (Val := Elt F) g w
    (M := Finset.univ) (x := fx ((j 0).val - off 0) (by omega)) (Finset.mem_univ _)
  rw [e] at h
  exact h.trans (cast_eq _ _)

omit [FloatOps F] in
/-- and off it. -/
theorem r2_write_out (g : Buf (Elt F) (r2Loc d)) (off : Fin 1 → Nat) (inb : ∀ a, off a + S8000.size a ≤ S6400000.size a)
    (w : S8000.Idx → Elt F .f32) (j : S6400000.Idx) (hj : (j 0).val < off 0 ∨ off 0 + 8000 ≤ (j 0).val) :
    ((r2V).slice (Rect.unit (s := S6400000) off S8000.size inb) (fun _ => rfl)).view.writes (Elt F) g [⟨Rect.whole S8000, w⟩] j = g j := by
  rw [View.writes_singleton]
  apply View.write_of_not_mem
  rw [View.setOn_univ]
  refine fun hm => ?_
  have hm' := View.set_slice_subset _ _ hm
  rw [r2_set] at hm'
  unfold rng at hm'
  simp only [Finset.mem_filter, Finset.mem_univ, true_and] at hm'
  omega

/-! ## Total accessors: the arrays read at a number, and the call's results through them -/

/-- Entry `n` of the edge indices (entry 0 beyond the end). -/
def eAt (ei : S12800000.Idx → Elt F .i32) (n : Nat) : Elt F .i32 := if h : n < 12800000 then ei (fx n h) else ei (fx 0 (by decide))
/-- Entry `n` of the transposed table. -/
def vtAt (vt : S300000.Idx → Elt F .f32) (n : Nat) : Elt F .f32 := if h : n < 300000 then vt (fx n h) else vt (fx 0 (by decide))
/-- Entry `n` of the flat rows. -/
def rfAt (rf : S19200000.Idx → Elt F .f32) (n : Nat) : Elt F .f32 := if h : n < 19200000 then rf (fx n h) else rf (fx 0 (by decide))

omit [FloatOps F] in
theorem eAt_fx (ei : S12800000.Idx → Elt F .i32) (n : Nat) (h : n < 12800000) : ei (fx n h) = eAt ei n := by unfold eAt; rw [dif_pos h]
omit [FloatOps F] in
theorem vtAt_fx (vt : S300000.Idx → Elt F .f32) (n : Nat) (h : n < 300000) : vt (fx n h) = vtAt vt n := by unfold vtAt; rw [dif_pos h]
omit [FloatOps F] in
theorem rfAt_fx (rf : S19200000.Idx → Elt F .f32) (n : Nat) (h : n < 19200000) : rf (fx n h) = rfAt rf n := by unfold rfAt; rw [dif_pos h]

/-- Component `comp` of `v[i] - v[j]` for edge number `n`. -/
def dval (comp : Nat) (ei : S12800000.Idx → Elt F .i32) (vt : S300000.Idx → Elt F .f32) (n : Nat) : Elt F .f32 :=
  FloatOps.subf (φ := .f32) (vtAt vt (100000 * comp + nodeOf (F := F) (eAt ei n))) (vtAt vt (100000 * comp + nodeOf (F := F) (eAt ei (n + 6400000))))
/-- The squared length of row number `n`. -/
def rval (rf : S19200000.Idx → Elt F .f32) (n : Nat) : Elt F .f32 :=
  FloatOps.addf (φ := .f32) (FloatOps.addf (FloatOps.mulf (rfAt rf (3 * n)) (rfAt rf (3 * n))) (FloatOps.mulf (rfAt rf (3 * n + 1)) (rfAt rf (3 * n + 1))))
    (FloatOps.mulf (rfAt rf (3 * n + 2)) (rfAt rf (3 * n + 2)))

theorem specD_dval (comp : Fin 3) (ei : S12800000.Idx → Elt F .i32) (vt : S300000.Idx → Elt F .f32) (e : S6400000.Idx) :
    specD comp ei vt e = dval comp.val ei vt (e 0).val := by
  have h1 : (e 0).val < 12800000 := by have := (e 0).isLt; simp at this; omega
  have h2 : (e 0).val + 6400000 < 12800000 := by have := (e 0).isLt; simp at this; omega
  have hc := comp.isLt
  unfold specD dval
  rw [← eAt_fx (F := F) ei _ h1, ← eAt_fx (F := F) ei _ h2]
  rw [← vtAt_fx (F := F) vt _ (by have := nodeOf_lt (F := F) (ei (fx (e 0).val h1)); omega),
    ← vtAt_fx (F := F) vt _ (by have := nodeOf_lt (F := F) (ei (fx ((e 0).val + 6400000) h2)); omega)]
theorem specR2_rval (rf : S19200000.Idx → Elt F .f32) (e : S6400000.Idx) : specR2 rf e = rval rf (e 0).val := by
  have h0 : 3 * (e 0).val < 19200000 := by have := (e 0).isLt; simp at this; omega
  have h1 : 3 * (e 0).val + 1 < 19200000 := by have := (e 0).isLt; simp at this; omega
  have h2 : 3 * (e 0).val + 2 < 19200000 := by have := (e 0).isLt; simp at this; omega
  unfold specR2 rval
  rw [← rfAt_fx (F := F) rf _ h0, ← rfAt_fx (F := F) rf _ h1, ← rfAt_fx (F := F) rf _ h2]

/-! ## What the scratches and a chunk hold, step by step -/

/-- The table a tile of column `comp` holds: that column of the transposed table. -/
def TabOK (vt : S300000.Idx → Elt F .f32) (comp : Nat) (ft : S100000.Idx → Elt F .f32) : Prop :=
  ∀ t : S100000.Idx, ft t = vtAt vt (100000 * comp + (t 0).val)
/-- An index scratch holding the 8000 words of the edge indices from `base`. -/
def IdxOK (ei : S12800000.Idx → Elt F .i32) (base : Nat) (fi : S8000.Idx → Elt F .i32) : Prop :=
  ∀ j : S8000.Idx, fi j = eAt ei (base + (j 0).val)

omit [FloatOps F] in
theorem eAt_lt (ei : S12800000.Idx → Elt F .i32) (hidx : ∀ j, (BitVec.toNat (show BitVec 32 from ei j)) < 100000) (n : Nat) :
    (BitVec.toNat (show BitVec 32 from eAt ei n)) < 100000 := by
  unfold eAt; split <;> exact hidx _

omit [FloatOps F] in
/-- The table once its column has landed. -/
theorem tab_val (vt : S300000.Idx → Elt F .f32) (comp : Nat) (ft0 : Buf (Elt F) ((thrV d L).loc cc0_scratch0))
    (off : Fin 1 → Nat) (inb : ∀ a, off a + S100000.size a ≤ S300000.size a) (e : off 0 = 100000 * comp) :
    TabOK vt comp ((tabV).view.write (Elt F) ft0
      (ReadAs.same.apply (((vtV).slice (Rect.unit (s := S300000) off S100000.size inb) (fun _ => rfl)).view.read (Elt F) vt)) Finset.univ) := by
  intro t
  refine (congrFun (View.write_whole_univ (Val := Elt F) cc0_scratch0 ft0 _) t).trans ?_
  refine (slice_read_vt vt off inb t).trans ?_
  rw [vtAt_fx (F := F) vt, e]

omit [FloatOps F] in
/-- An index scratch once its block has landed. -/
theorem ib_val (ei : S12800000.Idx → Elt F .i32) (base : Nat) (fi0 : Buf (Elt F) ((thrV d L).loc cc0_scratch1))
    (off : Fin 1 → Nat) (inb : ∀ a, off a + S8000.size a ≤ S12800000.size a) (e : off 0 = base) :
    IdxOK ei base ((ibV).view.write (Elt F) fi0
      (ReadAs.same.apply (((eiV).slice (Rect.unit (s := S12800000) off S8000.size inb) (fun _ => rfl)).view.read (Elt F) ei)) Finset.univ) := by
  intro j
  refine (congrFun (View.write_whole_univ (Val := Elt F) cc0_scratch1 fi0 _) j).trans ?_
  refine (slice_read_ei ei off inb j).trans ?_
  rw [eAt_fx (F := F) ei, e]
omit [FloatOps F] in
theorem jb_val (ei : S12800000.Idx → Elt F .i32) (base : Nat) (fj0 : Buf (Elt F) ((thrV d L).loc cc0_scratch2))
    (off : Fin 1 → Nat) (inb : ∀ a, off a + S8000.size a ≤ S12800000.size a) (e : off 0 = base) :
    IdxOK ei base ((jbV).view.write (Elt F) fj0
      (ReadAs.same.apply (((eiV).slice (Rect.unit (s := S12800000) off S8000.size inb) (fun _ => rfl)).view.read (Elt F) ei)) Finset.univ) := by
  intro j
  refine (congrFun (View.write_whole_univ (Val := Elt F) cc0_scratch2 fj0 _) j).trans ?_
  refine (slice_read_ei ei off inb j).trans ?_
  rw [eAt_fx (F := F) ei, e]

/-- One trip of the inner loop of a column task: sixteen more entries of the out scratch hold their differences. -/
theorem trip_val0 (ei : S12800000.Idx → Elt F .i32) (vt : S300000.Idx → Elt F .f32) (comp base k2 : Nat)
    (ft : Buf (Elt F) ((thrV d L).loc cc0_scratch0)) (fi : Buf (Elt F) ((thrV d L).loc cc0_scratch1))
    (fj : Buf (Elt F) ((thrV d L).loc cc0_scratch2)) (fo : Buf (Elt F) ((thrV d L).loc cc0_scratch3))
    (hft : TabOK vt comp ft) (hfi : IdxOK ei base fi) (hfj : IdxOK ei (6400000 + base) fj)
    (o3 o4 o5 : Fin 1 → Nat) (inb3 : ∀ a, o3 a + S16.size a ≤ S8000.size a) (inb4 : ∀ a, o4 a + S16.size a ≤ S8000.size a)
    (inb5 : ∀ a, o5 a + S16.size a ≤ S8000.size a) (e3 : o3 0 = 16 * k2) (e4 : o4 0 = 16 * k2) (e5 : o5 0 = 16 * k2)
    (h31 : ∀ a x, ((![(ibV).view.readAt (Elt F) (Rect.unit (s := S8000) o3 S16.size inb3).toLoadRect fi] : Fin 1 → IVec S16 32) a x).toNat < S100000.size a)
    (h34 : ∀ a x, ((![(jbV).view.readAt (Elt F) (Rect.unit (s := S8000) o4 S16.size inb4).toLoadRect fj] : Fin 1 → IVec S16 32) a x).toNat < S100000.size a)
    (hfo : ∀ j : S8000.Idx, (j 0).val < 16 * k2 → fo j = dval comp ei vt (base + (j 0).val)) :
    ∀ j : S8000.Idx, (j 0).val < 16 * (k2 + 1) →
      ((obV).access (Rect.unit (s := S8000) o5 S16.size inb5)).write (Elt F) fo
        (subf (loadIdx ((tabV.access (.whole S100000)).read (Elt F) ft) ![(ibV).view.readAt (Elt F) (Rect.unit (s := S8000) o3 S16.size inb3).toLoadRect fi] h31)
          (loadIdx ((tabV.access (.whole S100000)).read (Elt F) ft) ![(jbV).view.readAt (Elt F) (Rect.unit (s := S8000) o4 S16.size inb4).toLoadRect fj] h34))
        Finset.univ j = dval comp ei vt (base + (j 0).val) := by
  intro j hj
  by_cases hlt : (j 0).val < 16 * k2
  · rw [store16_out d L fo o5 inb5 _ j (Or.inl (by omega))]
    exact hfo j hlt
  · have hin : o5 0 ≤ (j 0).val ∧ (j 0).val < o5 0 + 16 := by omega
    rw [store16_in d L fo o5 inb5 _ j hin]
    show FloatOps.subf _ _ = _
    rw [gather_apply, gather_apply, load16_ib, load16_jb, hft, hft, hfi, hfj]
    unfold dval
    have e1 : base + (o3 0 + ((j 0).val - o5 0)) = base + (j 0).val := by omega
    have e2 : 6400000 + base + (o4 0 + ((j 0).val - o5 0)) = base + (j 0).val + 6400000 := by omega
    show FloatOps.subf (vtAt vt (100000 * comp + nodeOf (F := F) (eAt ei (base + (o3 0 + ((j 0).val - o5 0))))))
        (vtAt vt (100000 * comp + nodeOf (F := F) (eAt ei (6400000 + base + (o4 0 + ((j 0).val - o5 0)))))) = _
    rw [e1, e2]

/-- The same, as a run of the trip leaves the out scratch: one piece written over it. -/
theorem trip_val (ei : S12800000.Idx → Elt F .i32) (vt : S300000.Idx → Elt F .f32) (comp base k2 : Nat)
    (ft : Buf (Elt F) ((thrV d L).loc cc0_scratch0)) (fi : Buf (Elt F) ((thrV d L).loc cc0_scratch1))
    (fj : Buf (Elt F) ((thrV d L).loc cc0_scratch2)) (fo : Buf (Elt F) ((thrV d L).loc cc0_scratch3))
    (hft : TabOK vt comp ft) (hfi : IdxOK ei base fi) (hfj : IdxOK ei (6400000 + base) fj)
    (pay : Vec F S16 .f32 → Vec F S16 .f32 → FVec F S16 .f32) (hpay : ∀ a b, pay a b = subf a b)
    (o3 o4 o5 : Fin 1 → Nat) (inb3 : ∀ a, o3 a + S16.size a ≤ S8000.size a) (inb4 : ∀ a, o4 a + S16.size a ≤ S8000.size a)
    (inb5 : ∀ a, o5 a + S16.size a ≤ S8000.size a) (e3 : o3 0 = 16 * k2) (e4 : o4 0 = 16 * k2) (e5 : o5 0 = 16 * k2)
    (h31 : ∀ a x, ((![(ibV).view.readAt (Elt F) (Rect.unit (s := S8000) o3 S16.size inb3).toLoadRect fi] : Fin 1 → IVec S16 32) a x).toNat < S100000.size a)
    (h34 : ∀ a x, ((![(jbV).view.readAt (Elt F) (Rect.unit (s := S8000) o4 S16.size inb4).toLoadRect fj] : Fin 1 → IVec S16 32) a x).toNat < S100000.size a)
    (hfo : ∀ j : S8000.Idx, (j 0).val < 16 * k2 → fo j = dval comp ei vt (base + (j 0).val)) :
    ∀ j : S8000.Idx, (j 0).val < 16 * (k2 + 1) →
      (obV).view.writes (Elt F) fo [⟨Rect.unit (s := S8000) o5 S16.size inb5,
        pay (loadIdx ((tabV.access (.whole S100000)).read (Elt F) ft) ![(ibV).view.readAt (Elt F) (Rect.unit (s := S8000) o3 S16.size inb3).toLoadRect fi] h31)
          (loadIdx ((tabV.access (.whole S100000)).read (Elt F) ft) ![(jbV).view.readAt (Elt F) (Rect.unit (s := S8000) o4 S16.size inb4).toLoadRect fj] h34)⟩] j
        = dval comp ei vt (base + (j 0).val) := by
  intro j hj
  rw [View.writes_singleton, hpay]
  exact trip_val0 d L ei vt comp base k2 ft fi fj fo hft hfi hfj o3 o4 o5 inb3 inb4 inb5 e3 e4 e5 h31 h34 hfo j hj

omit [FloatOps F] in
/-- A block of the out scratch landed on its place in the chunk: the chunk's entries below the block's end hold `val` of their numbers. -/
theorem d0_blk_val (val : Nat → Elt F .f32) (c base : Nat) (g : Buf (Elt F) (d0Loc d)) (fo : Buf (Elt F) ((thrV d L).loc cc0_scratch3))
    (off : Fin 1 → Nat) (inb : ∀ a, off a + S8000.size a ≤ S6400000.size a) (e : off 0 = base)
    (w : S8000.Idx → Elt F .f32) (hw : ∀ x, w x = fo x)
    (hg : ∀ j ∈ chunk c, (j 0).val < base → g j = val (j 0).val)
    (hfo : ∀ j : S8000.Idx, fo j = val (base + (j 0).val)) :
    ∀ j ∈ chunk c, (j 0).val < base + 8000 →
      ((d0V).slice (Rect.unit (s := S6400000) off S8000.size inb) (fun _ => rfl)).view.writes (Elt F) g [⟨Rect.whole S8000, w⟩] j = val (j 0).val := by
  intro j hjc hj
  by_cases hlt : (j 0).val < base
  · rw [d0_write_out d g off inb _ j (Or.inl (by omega))]; exact hg j hjc hlt
  · rw [d0_write_in d g off inb _ j ⟨by omega, by omega⟩]
    rw [hw, hfo]
    show val (base + ((j 0).val - off 0)) = _
    rw [show base + ((j 0).val - off 0) = (j 0).val by omega]

omit [FloatOps F] in
/-- A block of the out scratch landed on its place in the chunk: the chunk's entries below the block's end hold `val` of their numbers. -/
theorem d1_blk_val (val : Nat → Elt F .f32) (c base : Nat) (g : Buf (Elt F) (d1Loc d)) (fo : Buf (Elt F) ((thrV d L).loc cc0_scratch3))
    (off : Fin 1 → Nat) (inb : ∀ a, off a + S8000.size a ≤ S6400000.size a) (e : off 0 = base)
    (w : S8000.Idx → Elt F .f32) (hw : ∀ x, w x = fo x)
    (hg : ∀ j ∈ chunk c, (j 0).val < base → g j = val (j 0).val)
    (hfo : ∀ j : S8000.Idx, fo j = val (base + (j 0).val)) :
    ∀ j ∈ chunk c, (j 0).val < base + 8000 →
      ((d1V).slice (Rect.unit (s := S6400000) off S8000.size inb) (fun _ => rfl)).view.writes (Elt F) g [⟨Rect.whole S8000, w⟩] j = val (j 0).val := by
  intro j hjc hj
  by_cases hlt : (j 0).val < base
  · rw [d1_write_out d g off inb _ j (Or.inl (by omega))]; exact hg j hjc hlt
  · rw [d1_write_in d g off inb _ j ⟨by omega, by omega⟩]
    rw [hw, hfo]
    show val (base + ((j 0).val - off 0)) = _
    rw [show base + ((j 0).val - off 0) = (j 0).val by omega]

omit [FloatOps F] in
/-- A block of the out scratch landed on its place in the chunk: the chunk's entries below the block's end hold `val` of their numbers. -/
theorem d2_blk_val (val : Nat → Elt F .f32) (c base : Nat) (g : Buf (Elt F) (d2Loc d)) (fo : Buf (Elt F) ((thrV d L).loc cc0_scratch3))
    (off : Fin 1 → Nat) (inb : ∀ a, off a + S8000.size a ≤ S6400000.size a) (e : off 0 = base)
    (w : S8000.Idx → Elt F .f32) (hw : ∀ x, w x = fo x)
    (hg : ∀ j ∈ chunk c, (j 0).val < base → g j = val (j 0).val)
    (hfo : ∀ j : S8000.Idx, fo j = val (base + (j 0).val)) :
    ∀ j ∈ chunk c, (j 0).val < base + 8000 →
      ((d2V).slice (Rect.unit (s := S6400000) off S8000.size inb) (fun _ => rfl)).view.writes (Elt F) g [⟨Rect.whole S8000, w⟩] j = val (j 0).val := by
  intro j hjc hj
  by_cases hlt : (j 0).val < base
  · rw [d2_write_out d g off inb _ j (Or.inl (by omega))]; exact hg j hjc hlt
  · rw [d2_write_in d g off inb _ j ⟨by omega, by omega⟩]
    rw [hw, hfo]
    show val (base + ((j 0).val - off 0)) = _
    rw [show base + ((j 0).val - off 0) = (j 0).val by omega]

omit [FloatOps F] in
/-- A block of the out scratch landed on its place in the chunk: the chunk's entries below the block's end hold `val` of their numbers. -/
theorem r2_blk_val (val : Nat → Elt F .f32) (c base : Nat) (g : Buf (Elt F) (r2Loc d)) (fo : Buf (Elt F) ((thrV d L).loc cc0_scratch3))
    (off : Fin 1 → Nat) (inb : ∀ a, off a + S8000.size a ≤ S6400000.size a) (e : off 0 = base)
    (w : S8000.Idx → Elt F .f32) (hw : ∀ x, w x = fo x)
    (hg : ∀ j ∈ chunk c, (j 0).val < base → g j = val (j 0).val)
    (hfo : ∀ j : S8000.Idx, fo j = val (base + (j 0).val)) :
    ∀ j ∈ chunk c, (j 0).val < base + 8000 →
      ((r2V).slice (Rect.unit (s := S6400000) off S8000.size inb) (fun _ => rfl)).view.writes (Elt F) g [⟨Rect.whole S8000, w⟩] j = val (j 0).val := by
  intro j hjc hj
  by_cases hlt : (j 0).val < base
  · rw [r2_write_out d g off inb _ j (Or.inl (by omega))]; exact hg j hjc hlt
  · rw [r2_write_in d g off inb _ j ⟨by omega, by omega⟩]
    rw [hw, hfo]
    show val (base + ((j 0).val - off 0)) = _
    rw [show base + ((j 0).val - off 0) = (j 0).val by omega]

omit [FloatOps F] in
/-- A landed block and the rest of its chunk, one chunk again at the landed contents. -/
theorem d0_rejoin (c : Nat) (g : Buf (Elt F) (d0Loc d)) (off : Fin 1 → Nat) (inb : ∀ a, off a + S8000.size a ≤ S6400000.size a)
    (w : S8000.Idx → Elt F .f32)
    (hsub : ((d0V).slice (Rect.unit (s := S6400000) off S8000.size inb) (fun _ => rfl)).view.set ⊆ chunk c) :
    iprop((d0Loc d ↦[((d0V).slice (Rect.unit (s := S6400000) off S8000.size inb) (fun _ => rfl)).view.set]{fullShare}
          ((d0V).slice (Rect.unit (s := S6400000) off S8000.size inb) (fun _ => rfl)).view.writes (Elt F) g [⟨Rect.whole S8000, w⟩])
        ∗ (d0Loc d ↦[chunk c \ ((d0V).slice (Rect.unit (s := S6400000) off S8000.size inb) (fun _ => rfl)).view.set]{fullShare} g))
      ⊢ (d0Loc d ↦[chunk c]{fullShare}
          ((d0V).slice (Rect.unit (s := S6400000) off S8000.size inb) (fun _ => rfl)).view.writes (Elt F) g [⟨Rect.whole S8000, w⟩] : sProp 𝕄) := by
  have hc : ∀ i ∈ chunk c \ ((d0V).slice (Rect.unit (s := S6400000) off S8000.size inb) (fun _ => rfl)).view.set,
      g i = ((d0V).slice (Rect.unit (s := S6400000) off S8000.size inb) (fun _ => rfl)).view.writes (Elt F) g [⟨Rect.whole S8000, w⟩] i := by
    intro i hi
    symm
    rw [View.writes_singleton]
    apply View.write_of_not_mem
    rw [View.setOn_univ]
    exact fun hm => (Finset.mem_sdiff.mp hi).2 (View.set_slice_subset _ _ hm)
  rw [pointsTo_congr (ℓ := d0Loc d) (q := fullShare) hc]
  exact (pointsTo_split_subset hsub).2

omit [FloatOps F] in
/-- A landed block and the rest of its chunk, one chunk again at the landed contents. -/
theorem d1_rejoin (c : Nat) (g : Buf (Elt F) (d1Loc d)) (off : Fin 1 → Nat) (inb : ∀ a, off a + S8000.size a ≤ S6400000.size a)
    (w : S8000.Idx → Elt F .f32)
    (hsub : ((d1V).slice (Rect.unit (s := S6400000) off S8000.size inb) (fun _ => rfl)).view.set ⊆ chunk c) :
    iprop((d1Loc d ↦[((d1V).slice (Rect.unit (s := S6400000) off S8000.size inb) (fun _ => rfl)).view.set]{fullShare}
          ((d1V).slice (Rect.unit (s := S6400000) off S8000.size inb) (fun _ => rfl)).view.writes (Elt F) g [⟨Rect.whole S8000, w⟩])
        ∗ (d1Loc d ↦[chunk c \ ((d1V).slice (Rect.unit (s := S6400000) off S8000.size inb) (fun _ => rfl)).view.set]{fullShare} g))
      ⊢ (d1Loc d ↦[chunk c]{fullShare}
          ((d1V).slice (Rect.unit (s := S6400000) off S8000.size inb) (fun _ => rfl)).view.writes (Elt F) g [⟨Rect.whole S8000, w⟩] : sProp 𝕄) := by
  have hc : ∀ i ∈ chunk c \ ((d1V).slice (Rect.unit (s := S6400000) off S8000.size inb) (fun _ => rfl)).view.set,
      g i = ((d1V).slice (Rect.unit (s := S6400000) off S8000.size inb) (fun _ => rfl)).view.writes (Elt F) g [⟨Rect.whole S8000, w⟩] i := by
    intro i hi
    symm
    rw [View.writes_singleton]
    apply View.write_of_not_mem
    rw [View.setOn_univ]
    exact fun hm => (Finset.mem_sdiff.mp hi).2 (View.set_slice_subset _ _ hm)
  rw [pointsTo_congr (ℓ := d1Loc d) (q := fullShare) hc]
  exact (pointsTo_split_subset hsub).2

omit [FloatOps F] in
/-- A landed block and the rest of its chunk, one chunk again at the landed contents. -/
theorem d2_rejoin (c : Nat) (g : Buf (Elt F) (d2Loc d)) (off : Fin 1 → Nat) (inb : ∀ a, off a + S8000.size a ≤ S6400000.size a)
    (w : S8000.Idx → Elt F .f32)
    (hsub : ((d2V).slice (Rect.unit (s := S6400000) off S8000.size inb) (fun _ => rfl)).view.set ⊆ chunk c) :
    iprop((d2Loc d ↦[((d2V).slice (Rect.unit (s := S6400000) off S8000.size inb) (fun _ => rfl)).view.set]{fullShare}
          ((d2V).slice (Rect.unit (s := S6400000) off S8000.size inb) (fun _ => rfl)).view.writes (Elt F) g [⟨Rect.whole S8000, w⟩])
        ∗ (d2Loc d ↦[chunk c \ ((d2V).slice (Rect.unit (s := S6400000) off S8000.size inb) (fun _ => rfl)).view.set]{fullShare} g))
      ⊢ (d2Loc d ↦[chunk c]{fullShare}
          ((d2V).slice (Rect.unit (s := S6400000) off S8000.size inb) (fun _ => rfl)).view.writes (Elt F) g [⟨Rect.whole S8000, w⟩] : sProp 𝕄) := by
  have hc : ∀ i ∈ chunk c \ ((d2V).slice (Rect.unit (s := S6400000) off S8000.size inb) (fun _ => rfl)).view.set,
      g i = ((d2V).slice (Rect.unit (s := S6400000) off S8000.size inb) (fun _ => rfl)).view.writes (Elt F) g [⟨Rect.whole S8000, w⟩] i := by
    intro i hi
    symm
    rw [View.writes_singleton]
    apply View.write_of_not_mem
    rw [View.setOn_univ]
    exact fun hm => (Finset.mem_sdiff.mp hi).2 (View.set_slice_subset _ _ hm)
  rw [pointsTo_congr (ℓ := d2Loc d) (q := fullShare) hc]
  exact (pointsTo_split_subset hsub).2

omit [FloatOps F] in
/-- A landed block and the rest of its chunk, one chunk again at the landed contents. -/
theorem r2_rejoin (c : Nat) (g : Buf (Elt F) (r2Loc d)) (off : Fin 1 → Nat) (inb : ∀ a, off a + S8000.size a ≤ S6400000.size a)
    (w : S8000.Idx → Elt F .f32)
    (hsub : ((r2V).slice (Rect.unit (s := S6400000) off S8000.size inb) (fun _ => rfl)).view.set ⊆ chunk c) :
    iprop((r2Loc d ↦[((r2V).slice (Rect.unit (s := S6400000) off S8000.size inb) (fun _ => rfl)).view.set]{fullShare}
          ((r2V).slice (Rect.unit (s := S6400000) off S8000.size inb) (fun _ => rfl)).view.writes (Elt F) g [⟨Rect.whole S8000, w⟩])
        ∗ (r2Loc d ↦[chunk c \ ((r2V).slice (Rect.unit (s := S6400000) off S8000.size inb) (fun _ => rfl)).view.set]{fullShare} g))
      ⊢ (r2Loc d ↦[chunk c]{fullShare}
          ((r2V).slice (Rect.unit (s := S6400000) off S8000.size inb) (fun _ => rfl)).view.writes (Elt F) g [⟨Rect.whole S8000, w⟩] : sProp 𝕄) := by
  have hc : ∀ i ∈ chunk c \ ((r2V).slice (Rect.unit (s := S6400000) off S8000.size inb) (fun _ => rfl)).view.set,
      g i = ((r2V).slice (Rect.unit (s := S6400000) off S8000.size inb) (fun _ => rfl)).view.writes (Elt F) g [⟨Rect.whole S8000, w⟩] i := by
    intro i hi
    symm
    rw [View.writes_singleton]
    apply View.write_of_not_mem
    rw [View.setOn_univ]
    exact fun hm => (Finset.mem_sdiff.mp hi).2 (View.set_slice_subset _ _ hm)
  rw [pointsTo_congr (ℓ := r2Loc d) (q := fullShare) hc]
  exact (pointsTo_split_subset hsub).2

omit [FloatOps F] in
/-- One more wait at index `none` recorded keeps the record admissible. -/
theorem waits_ok {W W' : Waits sig (HIx 2)} (hW' : ∀ p ∈ W', p ∈ W ∨ p.2 = none) (s : SemLoc sig) :
    ∀ p ∈ insert (s, (none : HIx 2)) W', p ∈ W ∨ p.2 = none := by
  intro p hp
  rcases Finset.mem_insert.mp hp with hp | hp
  · exact .inr (hp ▸ rfl)
  · exact hW' p hp

end Val

end Cert.Proof.KW.Ga

end
-- ==== Proof.GatherTileValRW.lean ====
import proofs.«204254_g40355512713743_retrytranche2_1723_12_alg».proof.Proof.CommonW
import Idealize.ShloMosaic.Lib.ValueIdx
import proofs.«204254_g40355512713743_retrytranche2_1723_12_alg».proof.Proof.GatherTileLibW
import proofs.«204254_g40355512713743_retrytranche2_1723_12_alg».proof.Proof.GatherTileValW

noncomputable section

namespace Cert.Proof.KW.Ga

open Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 eq_ix1)

variable {F : FTy → Type}

local notation "𝕄" => MT nD τ sig (HIx 2) (Elt F) ℕ UU ℕ

variable [FloatOps F]

/-! ## The row task's values -/

section ValR

variable (d : Dev nD) (L : grid0.Coords)

/-- The index vectors of trip `k` of the row task's inner loop: lane `x` names entries `3 x + 48 k` and the two after it. -/
theorem pay4_val : ∀ (k : Fin k0_t8_loop.trips) (x : S16.Idx), (k0_pay4 k x).toNat = 3 * (x 0).val + 48 * k.val := by decide +kernel
theorem pay5_val : ∀ (k : Fin k0_t8_loop.trips) (x : S16.Idx), (k0_pay5 (k0_pay4 k) x).toNat = 3 * (x 0).val + 48 * k.val + 1 := by decide +kernel
theorem pay6_val : ∀ (k : Fin k0_t8_loop.trips) (x : S16.Idx), (k0_pay6 (k0_pay4 k) x).toNat = 3 * (x 0).val + 48 * k.val + 2 := by decide +kernel

/-- The first 24000 entries of the table scratch, as the row task slices them. -/
abbrev tabS : Memref sig .scVector .vmem S24000 .f32 := (tabV).slice (Rect.unit (s := S100000) ![0] S24000.size inb_S100000_S24000_0) (fun _ => rfl)

omit [FloatOps F] in
/-- The entries a copy of 24000 entries at `off` of the flat rows moves. -/
theorem slice_read_rf (rf : S19200000.Idx → Elt F .f32) (off : Fin 1 → Nat) (inb : ∀ a, off a + S24000.size a ≤ S19200000.size a) (t : S24000.Idx) :
    ((rfV).slice (Rect.unit (s := S19200000) off S24000.size inb) (fun _ => rfl)).view.read (Elt F) rf t
      = rf (fx (off 0 + (t 0).val) (by have := inb 0; have := (t 0).isLt; simp at *; omega)) := by
  refine ((View.read_apply _ _).trans (cast_eq _ _)).trans ?_
  have e : ((((rfV).slice (Rect.unit (s := S19200000) off S24000.size inb) (fun _ => rfl)).view.emb t : S19200000.Idx))
      = fx (off 0 + (t 0).val) (by have := inb 0; have := (t 0).isLt; simp at *; omega) := by
    funext a; apply Fin.ext
    obtain rfl : a = (0 : Fin 1) := Subsingleton.elim (α := Fin 1) a 0
    show off 0 + 1 * (t 0).val = off 0 + (t 0).val
    omega
  exact congrArg rf e

omit [FloatOps F] in
/-- A block landed on the table scratch's first 24000 entries, read back there. -/
theorem tabS_write_in (ft : Buf (Elt F) ((thrV d L).loc cc0_scratch0)) (w : S24000.Idx → Elt F .f32) (t : S100000.Idx) (ht : (t 0).val < 24000) :
    (tabS).view.write (Elt F) ft w Finset.univ t = w (fx (t 0).val ht) := by
  have e : (((tabS).view.emb (fx (t 0).val ht) : S100000.Idx)) = t := by
    funext a; apply Fin.ext
    obtain rfl : a = (0 : Fin 1) := Subsingleton.elim (α := Fin 1) a 0
    show 0 + 1 * (t 0).val = (t 0).val
    omega
  have h := View.write_emb_of_mem (v := (tabS).view) (Val := Elt F) ft w (M := Finset.univ) (x := fx (t 0).val ht) (Finset.mem_univ _)
  rw [e] at h
  exact h.trans (cast_eq _ _)

/-- The table scratch of the row task once a block of rows has landed: its first 24000 entries are the block's. -/
def TabR (rf : S19200000.Idx → Elt F .f32) (base : Nat) (ft : S100000.Idx → Elt F .f32) : Prop :=
  ∀ t : S100000.Idx, (t 0).val < 24000 → ft t = rfAt rf (3 * base + (t 0).val)

omit [FloatOps F] in
/-- The table scratch once a block of rows has landed on its first 24000 entries, as a run of the copy leaves it: one
    piece written over it. -/
theorem tabr_val (rf : S19200000.Idx → Elt F .f32) (base : Nat) (ft0 : Buf (Elt F) ((thrV d L).loc cc0_scratch0))
    (off : Fin 1 → Nat) (inb : ∀ a, off a + S24000.size a ≤ S19200000.size a) (e : off 0 = 3 * base)
    (w : S24000.Idx → Elt F .f32)
    (hw : ∀ x, w x = ReadAs.same.apply (((rfV).slice (Rect.unit (s := S19200000) off S24000.size inb) (fun _ => rfl)).view.read (Elt F) rf) x) :
    TabR rf base ((tabV).view.writes (Elt F) ft0 [⟨Rect.unit (s := S100000) ![0] S24000.size inb_S100000_S24000_0, w⟩]) := by
  intro t ht
  rw [View.writes_singleton]
  show (tabS).view.write (Elt F) ft0 w Finset.univ t = _
  rw [tabS_write_in d L ft0 _ t ht, hw]
  refine (slice_read_rf rf off inb _).trans ?_
  rw [rfAt_fx (F := F) rf, e]

/-- One trip of the row task's inner loop: sixteen more entries of the out scratch hold their rows' squared lengths. -/
theorem trip_rval0 (rf : S19200000.Idx → Elt F .f32) (base : Nat) (k2 : Fin k0_t8_loop.trips)
    (ft : Buf (Elt F) ((thrV d L).loc cc0_scratch0)) (fo : Buf (Elt F) ((thrV d L).loc cc0_scratch3))
    (hft : TabR rf base ft) (o5 : Fin 1 → Nat) (inb5 : ∀ a, o5 a + S16.size a ≤ S8000.size a) (e5 : o5 0 = 16 * k2.val)
    (h7 : ∀ a x, ((![k0_pay4 k2] : Fin 1 → IVec S16 32) a x).toNat < S100000.size a)
    (h8 : ∀ a x, ((![k0_pay5 (k0_pay4 k2)] : Fin 1 → IVec S16 32) a x).toNat < S100000.size a)
    (h9 : ∀ a x, ((![k0_pay6 (k0_pay4 k2)] : Fin 1 → IVec S16 32) a x).toNat < S100000.size a)
    (hfo : ∀ j : S8000.Idx, (j 0).val < 16 * k2.val → fo j = rval rf (base + (j 0).val)) :
    ∀ j : S8000.Idx, (j 0).val < 16 * (k2.val + 1) →
      ((obV).access (Rect.unit (s := S8000) o5 S16.size inb5)).write (Elt F) fo
        (k0_pay7 (loadIdx ((tabV.access (.whole S100000)).read (Elt F) ft) ![k0_pay4 k2] h7)
          (loadIdx ((tabV.access (.whole S100000)).read (Elt F) ft) ![k0_pay5 (k0_pay4 k2)] h8)
          (loadIdx ((tabV.access (.whole S100000)).read (Elt F) ft) ![k0_pay6 (k0_pay4 k2)] h9))
        Finset.univ j = rval rf (base + (j 0).val) := by
  intro j hj
  have hk2 : k2.val < 500 := Nat.lt_of_lt_of_le k2.isLt k0_t8_abs.2.1
  by_cases hlt : (j 0).val < 16 * k2.val
  · rw [store16_out d L fo o5 inb5 _ j (Or.inl (by omega))]
    exact hfo j hlt
  · have hin : o5 0 ≤ (j 0).val ∧ (j 0).val < o5 0 + 16 := by omega
    rw [store16_in d L fo o5 inb5 _ j hin]
    show FloatOps.addf (FloatOps.addf (FloatOps.mulf _ _) (FloatOps.mulf _ _)) (FloatOps.mulf _ _) = _
    rw [gather_apply, gather_apply, gather_apply]
    have n4 : nodeOf (F := F) (k0_pay4 k2 (fx ((j 0).val - o5 0) (by omega))) = 3 * ((j 0).val - o5 0) + 48 * k2.val := by
      unfold nodeOf; rw [show (BitVec.toNat (show BitVec 32 from k0_pay4 k2 (fx ((j 0).val - o5 0) (by omega)))) = _ from pay4_val k2 _]
      show min (3 * ((j 0).val - o5 0) + 48 * k2.val) 99999 = _; omega
    have n5 : nodeOf (F := F) (k0_pay5 (k0_pay4 k2) (fx ((j 0).val - o5 0) (by omega))) = 3 * ((j 0).val - o5 0) + 48 * k2.val + 1 := by
      unfold nodeOf; rw [show (BitVec.toNat (show BitVec 32 from k0_pay5 (k0_pay4 k2) (fx ((j 0).val - o5 0) (by omega)))) = _ from pay5_val k2 _]
      show min (3 * ((j 0).val - o5 0) + 48 * k2.val + 1) 99999 = _; omega
    have n6 : nodeOf (F := F) (k0_pay6 (k0_pay4 k2) (fx ((j 0).val - o5 0) (by omega))) = 3 * ((j 0).val - o5 0) + 48 * k2.val + 2 := by
      unfold nodeOf; rw [show (BitVec.toNat (show BitVec 32 from k0_pay6 (k0_pay4 k2) (fx ((j 0).val - o5 0) (by omega)))) = _ from pay6_val k2 _]
      show min (3 * ((j 0).val - o5 0) + 48 * k2.val + 2) 99999 = _; omega
    rw [hft _ (by show nodeOf (F := F) _ < 24000; rw [n4]; omega), hft _ (by show nodeOf (F := F) _ < 24000; rw [n5]; omega),
      hft _ (by show nodeOf (F := F) _ < 24000; rw [n6]; omega)]
    unfold rval
    show FloatOps.addf (FloatOps.addf (FloatOps.mulf (rfAt rf (3 * base + nodeOf (F := F) (k0_pay4 k2 (fx ((j 0).val - o5 0) (by omega)))))
        (rfAt rf (3 * base + nodeOf (F := F) (k0_pay4 k2 (fx ((j 0).val - o5 0) (by omega))))))
      (FloatOps.mulf (rfAt rf (3 * base + nodeOf (F := F) (k0_pay5 (k0_pay4 k2) (fx ((j 0).val - o5 0) (by omega)))))
        (rfAt rf (3 * base + nodeOf (F := F) (k0_pay5 (k0_pay4 k2) (fx ((j 0).val - o5 0) (by omega)))))))
      (FloatOps.mulf (rfAt rf (3 * base + nodeOf (F := F) (k0_pay6 (k0_pay4 k2) (fx ((j 0).val - o5 0) (by omega)))))
        (rfAt rf (3 * base + nodeOf (F := F) (k0_pay6 (k0_pay4 k2) (fx ((j 0).val - o5 0) (by omega)))))) = _
    rw [n4, n5, n6]
    rw [show 3 * base + (3 * ((j 0).val - o5 0) + 48 * k2.val) = 3 * (base + (j 0).val) by omega,
      show 3 * base + (3 * ((j 0).val - o5 0) + 48 * k2.val + 1) = 3 * (base + (j 0).val) + 1 by omega,
      show 3 * base + (3 * ((j 0).val - o5 0) + 48 * k2.val + 2) = 3 * (base + (j 0).val) + 2 by omega]

/-- The same, as a run of the trip leaves the out scratch: one piece written over it. -/
theorem trip_rval (rf : S19200000.Idx → Elt F .f32) (base : Nat) (k2 : Fin k0_t8_loop.trips)
    (ft : Buf (Elt F) ((thrV d L).loc cc0_scratch0)) (fo : Buf (Elt F) ((thrV d L).loc cc0_scratch3))
    (hft : TabR rf base ft) (o5 : Fin 1 → Nat) (inb5 : ∀ a, o5 a + S16.size a ≤ S8000.size a) (e5 : o5 0 = 16 * k2.val)
    (h7 : ∀ a x, ((![k0_pay4 k2] : Fin 1 → IVec S16 32) a x).toNat < S100000.size a)
    (h8 : ∀ a x, ((![k0_pay5 (k0_pay4 k2)] : Fin 1 → IVec S16 32) a x).toNat < S100000.size a)
    (h9 : ∀ a x, ((![k0_pay6 (k0_pay4 k2)] : Fin 1 → IVec S16 32) a x).toNat < S100000.size a)
    (hfo : ∀ j : S8000.Idx, (j 0).val < 16 * k2.val → fo j = rval rf (base + (j 0).val)) :
    ∀ j : S8000.Idx, (j 0).val < 16 * (k2.val + 1) →
      (obV).view.writes (Elt F) fo [⟨Rect.unit (s := S8000) o5 S16.size inb5,
        k0_pay7 (loadIdx ((tabV.access (.whole S100000)).read (Elt F) ft) ![k0_pay4 k2] h7)
          (loadIdx ((tabV.access (.whole S100000)).read (Elt F) ft) ![k0_pay5 (k0_pay4 k2)] h8)
          (loadIdx ((tabV.access (.whole S100000)).read (Elt F) ft) ![k0_pay6 (k0_pay4 k2)] h9)⟩] j
        = rval rf (base + (j 0).val) := by
  intro j hj
  rw [View.writes_singleton]
  exact trip_rval0 d L rf base k2 ft fo hft o5 inb5 e5 h7 h8 h9 hfo j hj

end ValR

end Cert.Proof.KW.Ga

end
-- ==== Proof.GatherTileStmtW.lean ====
import proofs.«204254_g40355512713743_retrytranche2_1723_12_alg».proof.Proof.CommonW
import Idealize.ShloMosaic.Lib.ValueIdx
import proofs.«204254_g40355512713743_retrytranche2_1723_12_alg».proof.Proof.GatherTileDefsW

noncomputable section

namespace Cert.Proof.KW.Ga

open Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 eq_ix1)

variable {F : FTy → Type}

local notation "𝕄" => MT nD τ sig (HIx 2) (Elt F) ℕ UU ℕ

/-- The row task's obligation: a tile whose number is 24 or more, from what it is handed to what it hands back. -/
def TileR (F : FTy → Type) [FloatOps F] : Prop :=
  ∀ (ei : S12800000.Idx → Elt F .i32) (rf : S19200000.Idx → Elt F .f32) (vt : S300000.Idx → Elt F .f32)
    (hF : (K (F := F)).Facts) (hidx : ∀ j, (BitVec.toNat (show BitVec 32 from ei j)) < 100000) (d : Dev nD) (L : grid0.Coords)
    (h1 : ¬ k0_cond1 L = 1#1) (h2 : ¬ k0_cond2 L = 1#1) (h3 : ¬ k0_cond3 L = 1#1) (hc : k0_cond4 L = 1#1)
    (O : CellTallies nD τ sig (HIx 2)) (W : Waits sig (HIx 2)) (hO : ∀ g, O g none = 0),
    iprop(levAts (K (F := F)).L (K (F := F)).lev ∗ go0 ei rf vt d L ∗ scopedBufs (thrV d L) ∗ scopedSems0 (thrV d L) ∗ owes (thrV d L) O W)
      ⊢ wp frame (wpE (defs₀ (F := F)) 𝒱₀ (thrV d L) none) Set.univ
          (cc0__sc_gather_body L (Memref.whole main_v0_scv) (Memref.isWhole_whole _) (Memref.whole main_v1_scv) (Memref.isWhole_whole _)
            (Memref.whole main_v3_scv) (Memref.isWhole_whole _) (Memref.whole main_v4_0_scv) (Memref.isWhole_whole _)
            (Memref.whole main_v4_1_scv) (Memref.isWhole_whole _) (Memref.whole main_v4_2_scv) (Memref.isWhole_whole _)
            (Memref.whole main_v4_3_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) cc0_scoped0 cc0_scoped1 cc0_scoped2 cc0_scoped3 cc0_scoped4 cc0_scoped5
            cc0_scoped6 cc0_scoped7 cc0_scoped8 cc0_scoped9 cc0_scoped10 cc0_scoped11 cc0_scoped12 cc0_scoped13)
          fun _ => iprop(td0 ei rf vt d L ∗ scopedBufs (thrV d L) ∗ scopedSems0 (thrV d L)
            ∗ ∃ W', ⌜∀ p ∈ W', p ∈ W ∨ p.2 = none⌝ ∗ owes (thrV d L) O W')

end Cert.Proof.KW.Ga

end
-- ==== Proof.GatherTileRW.lean ====
import proofs.«204254_g40355512713743_retrytranche2_1723_12_alg».proof.Proof.CommonW
import Idealize.ShloMosaic.Lib.ValueIdx
import proofs.«204254_g40355512713743_retrytranche2_1723_12_alg».proof.Proof.GatherTileLibW
import proofs.«204254_g40355512713743_retrytranche2_1723_12_alg».proof.Proof.GatherTileValW
import proofs.«204254_g40355512713743_retrytranche2_1723_12_alg».proof.Proof.GatherTileValRW
import proofs.«204254_g40355512713743_retrytranche2_1723_12_alg».proof.Proof.GatherTileStmtW

noncomputable section

namespace Cert.Proof.KW.Ga

open Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 eq_ix1)

variable {F : FTy → Type}

local notation "𝕄" => MT nD τ sig (HIx 2) (Elt F) ℕ UU ℕ

variable [FloatOps F]

section R

variable (rf : S19200000.Idx → Elt F .f32) (d : Dev nD) (L : grid0.Coords)

/-- Block `k` of the tile's chunk of the squared lengths, as the kernel slices it. -/
abbrev outSR (k : Fin k0_t7_loop.trips) (hc : k0_cond4 L = 1#1) : Memref sig .scVector .hbm S8000 .f32 :=
  (r2V).slice (Rect.unit (s := S6400000) (k0_off21 L k) S8000.size (k0_off21_inb L k hc)) (fun _ => rfl)

omit [FloatOps F] in
theorem pts_blkR (k : Fin k0_t7_loop.trips) (hc : k0_cond4 L = 1#1) (g : Buf (Elt F) (r2Loc d)) :
    ((outSR L k hc).view.loc (thrV d L) ↦[(outSR L k hc).view.set]{fullShare} g : sProp 𝕄)
      = (r2Loc d ↦[(outSR L k hc).view.set]{fullShare} g) := rfl

omit [FloatOps F] in
theorem blkR_set (k : Fin k0_t7_loop.trips) (hc : k0_cond4 L = 1#1) :
    (outSR L k hc).view.set = rng (800000 * (wid L - 24) + 8000 * k.val) (800000 * (wid L - 24) + 8000 * k.val + 8000) :=
  (r2_set (k0_off21 L k) (k0_off21_inb L k hc)).trans (by rw [off21_val L k hc])

omit [FloatOps F] in
theorem blkR_sub (k : Fin k0_t7_loop.trips) (hc : k0_cond4 L = 1#1) : (outSR L k hc).view.set ⊆ chunk (wid L - 24) := by
  rw [blkR_set]
  have hk : k.val < 100 := Nat.lt_of_lt_of_le k.isLt k0_t7_abs.2.1
  intro j
  simp only [chunk, rng, Finset.mem_filter, Finset.mem_univ, true_and]
  omega

omit [FloatOps F] in
theorem pts_tab_accessR (ft : Buf (Elt F) ((thrV d L).loc cc0_scratch0)) :
    (((tabV).access (.whole S100000)).loc (thrV d L) ↦{fullShare} ft : sProp 𝕄) = ((tabV).view.loc (thrV d L) ↦{fullShare} ft) := rfl

/-- The index vectors of a trip name entries of the table scratch. -/
theorem chk7_ok (k2 : Fin k0_t8_loop.trips) : k0_chk7 L (k0_pay4 k2) := by
  intro _ a x
  have hk2 : k2.val < 500 := Nat.lt_of_lt_of_le k2.isLt k0_t8_abs.2.1
  obtain rfl : a = (0 : Fin 1) := Subsingleton.elim (α := Fin 1) a 0
  show (k0_pay4 k2 x).toNat < 100000
  rw [pay4_val]; have := (x 0).isLt; simp at this; omega
theorem chk8_ok (k2 : Fin k0_t8_loop.trips) : k0_chk8 L (k0_pay5 (k0_pay4 k2)) := by
  intro _ a x
  have hk2 : k2.val < 500 := Nat.lt_of_lt_of_le k2.isLt k0_t8_abs.2.1
  obtain rfl : a = (0 : Fin 1) := Subsingleton.elim (α := Fin 1) a 0
  show (k0_pay5 (k0_pay4 k2) x).toNat < 100000
  rw [pay5_val]; have := (x 0).isLt; simp at this; omega
theorem chk9_ok (k2 : Fin k0_t8_loop.trips) : k0_chk9 L (k0_pay6 (k0_pay4 k2)) := by
  intro _ a x
  have hk2 : k2.val < 500 := Nat.lt_of_lt_of_le k2.isLt k0_t8_abs.2.1
  obtain rfl : a = (0 : Fin 1) := Subsingleton.elim (α := Fin 1) a 0
  show (k0_pay6 (k0_pay4 k2) x).toNat < 100000
  rw [pay6_val]; have := (x 0).isLt; simp at this; omega

/-- The inner loop's invariant: the table scratch as the block's copy left it, the out scratch's first `16 k` entries
    computed. -/
def invIR (base : Nat) (k : Nat) (_ : BitVec 32) : sProp 𝕄 :=
  iprop((∃ ft : Buf (Elt F) ((thrV d L).loc cc0_scratch0), ⌜TabR rf base ft⌝ ∗ (tabV).view.loc (thrV d L) ↦{fullShare} ft)
    ∗ ∃ fo : Buf (Elt F) ((thrV d L).loc cc0_scratch3), ⌜∀ j : S8000.Idx, (j 0).val < 16 * k → fo j = rval rf (base + (j 0).val)⌝
        ∗ (obV).view.loc (thrV d L) ↦{fullShare} fo)

/-- The block loop's invariant: the rows' read share, the chunk with its first `k` blocks computed, the two scratches,
    the two semaphores at zero, the tile's debts. -/
def invBR (O : CellTallies nD τ sig (HIx 2)) (W : Waits sig (HIx 2)) (k : Nat) (_ : BitVec 32) : sProp 𝕄 :=
  iprop(Transfers.MayWaits (thrV d L) (none : HIx 2) O
    ∗ ((rfV).view.loc (thrV d L) ↦{tsh L} rf)
    ∗ (∃ g : Buf (Elt F) (r2Loc d), ⌜∀ j ∈ chunk (wid L - 24), (j 0).val < 800000 * (wid L - 24) + 8000 * k → g j = rval rf (j 0).val⌝
        ∗ r2Loc d ↦[chunk (wid L - 24)]{fullShare} g)
    ∗ (∃ f, (tabV).view.loc (thrV d L) ↦{fullShare} f) ∗ (∃ f, (obV).view.loc (thrV d L) ↦{fullShare} f)
    ∗ semVal (cellV d L cc0_scoped12) 0 ∗ semVal (cellV d L cc0_scoped13) 0
    ∗ ∃ W', ⌜∀ p ∈ W', p ∈ W ∨ p.2 = none⌝ ∗ owes (thrV d L) O W')

end R

set_option maxHeartbeats 4000000 in
theorem tile_r (ei : S12800000.Idx → Elt F .i32) (rf : S19200000.Idx → Elt F .f32) (vt : S300000.Idx → Elt F .f32)
    (hF : (K (F := F)).Facts) (hidx : ∀ j, (BitVec.toNat (show BitVec 32 from ei j)) < 100000) (d : Dev nD) (L : grid0.Coords) (h1 : ¬ k0_cond1 L = 1#1) (h2 : ¬ k0_cond2 L = 1#1) (h3 : ¬ k0_cond3 L = 1#1) (hc : k0_cond4 L = 1#1)
    (O : CellTallies nD τ sig (HIx 2)) (W : Waits sig (HIx 2)) (hO : ∀ g, O g none = 0) :
    iprop(levAts (K (F := F)).L (K (F := F)).lev ∗ go0 ei rf vt d L ∗ scopedBufs (thrV d L) ∗ scopedSems0 (thrV d L) ∗ owes (thrV d L) O W)
      ⊢ wp frame (wpE (defs₀ (F := F)) 𝒱₀ (thrV d L) none) Set.univ
          (cc0__sc_gather_body L (Memref.whole main_v0_scv) (Memref.isWhole_whole _) (Memref.whole main_v1_scv) (Memref.isWhole_whole _)
            (Memref.whole main_v3_scv) (Memref.isWhole_whole _) (Memref.whole main_v4_0_scv) (Memref.isWhole_whole _)
            (Memref.whole main_v4_1_scv) (Memref.isWhole_whole _) (Memref.whole main_v4_2_scv) (Memref.isWhole_whole _)
            (Memref.whole main_v4_3_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) cc0_scoped0 cc0_scoped1 cc0_scoped2 cc0_scoped3 cc0_scoped4 cc0_scoped5
            cc0_scoped6 cc0_scoped7 cc0_scoped8 cc0_scoped9 cc0_scoped10 cc0_scoped11 cc0_scoped12 cc0_scoped13)
          fun _ => iprop(td0 ei rf vt d L ∗ scopedBufs (thrV d L) ∗ scopedSems0 (thrV d L)
            ∗ ∃ W', ⌜∀ p ∈ W', p ∈ W ∨ p.2 = none⌝ ∗ owes (thrV d L) O W') := by
  have hw : 24 ≤ wid L := (cond4_iff L).mp hc
  have hw1 : ¬ wid L < 8 := by omega
  have hw2 : ¬ wid L < 16 := by omega
  have hw3 : ¬ wid L < 24 := by omega
  have htI : k0_t8_loop.trips = 500 := by first | rfl | decide
  have htB : k0_t7_loop.trips = 100 := by first | rfl | decide
  simp only [cc0__sc_gather_body_eq_skeleton]; unfold cc0__sc_gather_body_skel
  rw [(K (F := F)).scopedBufs_V hF d (cV L) (jV L), SparseCore.Cfg.scopedSems0_V (Val := Elt F) d (cV L) (jV L),
    ownSems0_take2 d L cc0_scoped12 cc0_scoped13 (by decide) (by decide) (by decide), ownBufs_V]
  unfold go0 td0 outGo outTd
  rw [if_neg hw1, if_neg hw2, if_neg hw3, if_neg hw1, if_neg hw2, if_neg hw3]
  iintro ⟨#Hlv, ⟨⟨Hei, Hrf, Hvt⟩, %g0, Hout⟩, ⟨⟨%ft0, Htab⟩, ⟨%fi0, Hib⟩, ⟨%fj0, Hjb⟩, ⟨%fo0, Hob⟩, Hbufs⟩, ⟨Hs12, Hs13, Hsems⟩, HO⟩
  ihave Hmw := ((K (F := F)).mayWaits_none (thr := thrV d L) hO) $$ Hlv
  ihave Hrf' := (Entails.of_eq (pts_rf (F := F) d L _ _).symm) $$ Hrf
  ihave Htab' := (Entails.of_eq (pts_tab (F := F) d L _).symm) $$ Htab
  ihave Hob' := (Entails.of_eq (pts_ob (F := F) d L _).symm) $$ Hob
  sl_exec
  sl_for (invBR rf d L O W) $$ [Hmw Hrf' Hout Htab' Hob' Hs12 Hs13 HO]
  case region =>
    intro k _
    have hk : k.val < 100 := Nat.lt_of_lt_of_le k.isLt k0_t7_abs.2.1
    unfold invBR
    iintro ⟨Hmw, Hrf, ⟨%g, %hg, Hout⟩, ⟨%ft, Htab⟩, ⟨%fo, Hob⟩, Hs12, Hs13, %W', %hW', HO⟩
    sl_exec (disch := first | exact View.amount_pos _ _ (show 0 < S24000.numel by decide) | exact View.amount_pos _ _ (show 0 < S8000.numel by decide))
    sl_for (invIR rf d L (800000 * (wid L - 24) + 8000 * k.val)) $$ [Htab Hob]
    case region =>
      intro k2 _
      have hk2 : k2.val < 500 := Nat.lt_of_lt_of_le k2.isLt k0_t8_abs.2.1
      unfold invIR
      iintro ⟨⟨%ft', %hft, Htab⟩, %fo', %hfo, Hob⟩
      sl_exec (disch := first | exact chk7_ok L k2 | exact chk8_ok L k2 | exact chk9_ok L k2)
      ihave Htab' := (Entails.of_eq (pts_tab_accessR (F := F) d L _).symm) $$ Htab
      iapply (SparseCore.wp_vectorLoadIdx 𝒱₀ (thrV d L) none Set.univ (base := tabV) (S := Finset.univ) (q := fullShare) (Finset.subset_univ _)) $$ Htab'; iintro Htab'
      ihave Htab := (Entails.of_eq (pts_tab_accessR (F := F) d L _)) $$ Htab'
      sl_exec (disch := first | exact chk7_ok L k2 | exact chk8_ok L k2 | exact chk9_ok L k2)
      ihave Htab' := (Entails.of_eq (pts_tab_accessR (F := F) d L _).symm) $$ Htab
      iapply (SparseCore.wp_vectorLoadIdx 𝒱₀ (thrV d L) none Set.univ (base := tabV) (S := Finset.univ) (q := fullShare) (Finset.subset_univ _)) $$ Htab'; iintro Htab'
      ihave Htab := (Entails.of_eq (pts_tab_accessR (F := F) d L _)) $$ Htab'
      sl_exec (disch := first | exact chk7_ok L k2 | exact chk8_ok L k2 | exact chk9_ok L k2)
      ihave Htab' := (Entails.of_eq (pts_tab_accessR (F := F) d L _).symm) $$ Htab
      iapply (SparseCore.wp_vectorLoadIdx 𝒱₀ (thrV d L) none Set.univ (base := tabV) (S := Finset.univ) (q := fullShare) (Finset.subset_univ _)) $$ Htab'; iintro Htab'
      ihave Htab := (Entails.of_eq (pts_tab_accessR (F := F) d L _)) $$ Htab'
      sl_exec
      sl_step
      isplitl [Htab]
      · iexists ft'; isplitr; · ipureintro; exact hft
        iexact Htab
      iexists _; isplitr; rotate_left; · iexact Hob
      ipureintro
      exact trip_rval d L rf _ k2 ft' fo' hft (k0_off20 k2) _ (by rw [k0_off20_eq]; rfl) _ _ _ hfo
    · unfold invIR
      isplitl [Htab]
      · iexists _; isplitr; rotate_left; · iexact Htab
        ipureintro; exact tabr_val d L rf _ ft (k0_off19 L k) (k0_off19_inb L k hc) (off19_val L k hc) _ (fun _ => rfl)
      iexists _; isplitr; rotate_left; · iexact Hob
      ipureintro; intro j hj; exact absurd hj (by omega)
    iintro %_ HI
    unfold invIR
    icases HI with ⟨⟨%ft', %hft, Htab⟩, %fo', %hfo, Hob⟩
    ihave Hsp := (pointsTo_split_subset (ℓ := r2Loc d) (q := fullShare) (f := g) (blkR_sub L k hc)).1 $$ Hout
    icases Hsp with ⟨Hblk, Hrest⟩
    ihave Hblk' := (Entails.of_eq (pts_blkR (F := F) d L k hc _).symm) $$ Hblk
    sl_exec (disch := exact View.amount_pos _ _ (show 0 < S8000.numel by decide))
    sl_step
    isplitl [Hmw]; · iexact Hmw
    isplitl [Hrf]; · iexact Hrf
    isplitl [Hblk' Hrest]
    · iexists _; isplitr; rotate_left
      · ihave Hblk := (Entails.of_eq (pts_blkR (F := F) d L k hc _)) $$ Hblk'
        iapply (r2_rejoin (F := F) d (wid L - 24) g _ _ _ (blkR_sub L k hc))
        isplitl [Hblk]; · iexact Hblk
        iexact Hrest
      ipureintro
      rw [show 800000 * (wid L - 24) + 8000 * (k.val + 1) = (800000 * (wid L - 24) + 8000 * k.val) + 8000 by omega]
      exact r2_blk_val d L (rval rf) _ _ g fo' _ _ (off21_val L k hc) _ (fun _ => rfl) hg
        (fun j => hfo j (by have := (j 0).isLt; simp at this; show (j 0).val < 16 * k0_t8_loop.trips; rw [htI]; omega))
    isplitl [Htab]; · iexists _; iexact Htab
    isplitl [Hob]; · iexists _; iexact Hob
    isplitl [Hs12]; · iexact Hs12
    isplitl [Hs13]; · iexact Hs13
    iexists _; isplitr; rotate_left; · iexact HO
    ipureintro; exact waits_ok (waits_ok hW' _) _
  · unfold invBR
    isplitl [Hmw]; · iexact Hmw
    isplitl [Hrf']; · iexact Hrf'
    isplitl [Hout]
    · iexists g0; isplitr
      · ipureintro; intro j hj hlt; exfalso
        simp only [chunk, rng, Finset.mem_filter, Finset.mem_univ, _root_.true_and] at hj; omega
      iexact Hout
    isplitl [Htab']; · iexists _; iexact Htab'
    isplitl [Hob']; · iexists _; iexact Hob'
    isplitl [Hs12]; · iexact Hs12
    isplitl [Hs13]; · iexact Hs13
    iexists _; isplitr; rotate_left; · iexact HO
    ipureintro; exact fun p hp => .inl hp
  iintro %_ HI
  unfold invBR
  icases HI with ⟨-, Hrf, ⟨%g, %hg, Hout⟩, ⟨%ft, Htab⟩, ⟨%fo, Hob⟩, Hs12, Hs13, %W', %hW', HO⟩
  sl_exec
  sl_step
  have hfin : ∀ i ∈ chunk (wid L - 24), g i = specR2 rf i := by
    intro i hi
    refine (hg i hi ?_).trans (specR2_rval rf i).symm
    show (i 0).val < 800000 * (wid L - 24) + 8000 * k0_t7_loop.trips
    rw [htB]; simp only [chunk, rng, Finset.mem_filter, Finset.mem_univ, _root_.true_and] at hi; omega
  isplitl [Hei Hrf Hvt Hout]
  · isplitl [Hei Hrf Hvt]
    · isplitl [Hei]; · iexact Hei
      isplitl [Hrf]; · iapply (Entails.of_eq (pts_rf (F := F) d L _ _)); iexact Hrf
      iexact Hvt
    · iapply (Entails.of_eq (pointsTo_congr (ℓ := r2Loc d) (q := fullShare) hfin)); iexact Hout
  isplitl [Htab Hib Hjb Hob Hbufs]
  · isplitl [Htab]; · iexists _; iapply (Entails.of_eq (pts_tab (F := F) d L _)); iexact Htab
    isplitl [Hib]; · iexists _; iexact Hib
    isplitl [Hjb]; · iexists _; iexact Hjb
    isplitl [Hob]; · iexists _; iapply (Entails.of_eq (pts_ob (F := F) d L _)); iexact Hob
    iexact Hbufs
  isplitl [Hs12 Hs13 Hsems]
  · isplitl [Hs12]; · iexact Hs12
    isplitl [Hs13]; · iexact Hs13
    iexact Hsems
  iexists W'; isplitr
  · ipureintro; exact hW'
  · iexact HO

/-- The row task's obligation holds. -/
theorem tileR_holds : TileR F := fun ei rf vt hF hidx d L h1 h2 h3 hc O W hO =>
  tile_r ei rf vt hF hidx d L h1 h2 h3 hc O W hO

end Cert.Proof.KW.Ga

end
-- ==== Proof.ScatterTileSpecW.lean ====
import proofs.«204254_g40355512713743_retrytranche2_1723_12_alg».proof.Proof.CommonW
import Idealize.ShloMosaic.Lib.ValueIdx

noncomputable section

namespace Cert.Proof.KW.Sc

open Cert.Proof.KW
open Cert.Kernel Cert.Kernel.Gen

open Idealize.ShloMosaic
open Idealize.ShloMosaic.ValueIdx (ix1 eq_ix1)

variable {F : FTy → Type} [FloatOps F]

/-! ## What the scatter call computes, as the fold its loops perform

Tile number `w = 2 * subcore + core` handles chunk `w % 8` (800000 consecutive edges) of one of four tasks
`w / 8`: tasks 0 and 2 read the first half of the flat index array, tasks 1 and 3 the second; task 0 adds the forward
values, task 1 the backward values, tasks 2 and 3 add one. An accumulator of 100000 entries starts at zero and takes
the edges in increasing order, each added (by the indexed store's own addition) onto the entry its index word names. -/

/-- The zero and the one the kernel broadcasts. -/
def fzero : F .f32 := Scalar.ofBits .f32 0x00000000#32
def fone : F .f32 := Scalar.ofBits .f32 0x3F800000#32

/-- A tile's number from its grid coordinates. -/
def widOf (L : grid2.Coords) : ℕ := 2 * (L 1).val + (L 0).val

/-- The flat index array read at a position, unsigned (zero beyond its end). -/
def eiN (ei : S12800000.Idx → Elt F .i32) (n : ℕ) : ℕ := if h : n < 12800000 then (ei (ix1 ⟨n, h⟩)).toNat else 0
/-- An edge-value array read at a position (zero beyond its end). -/
def fN (t : S6400000.Idx → Elt F .f32) (n : ℕ) : F .f32 := if h : n < 6400000 then t (ix1 ⟨n, h⟩) else fzero

/-- Where tile `w`'s index words start in the flat index array. -/
def idxBase (w : ℕ) : ℕ := (if (w / 8) % 2 = 1 then 6400000 else 0) + 800000 * (w % 8)
/-- Where tile `w`'s edge values start. -/
def valBase (w : ℕ) : ℕ := 800000 * (w % 8)

/-- The index word of edge `e` of tile `w`'s chunk. -/
def iwOf (ei : S12800000.Idx → Elt F .i32) (w e : ℕ) : ℕ := eiN ei (idxBase w + e)
/-- The value tile `w` adds for edge `e` of its chunk. -/
def vwOf (tf tb : S6400000.Idx → Elt F .f32) (w e : ℕ) : F .f32 :=
  if w / 8 = 0 then fN tf (valBase w + e) else if w / 8 = 1 then fN tb (valBase w + e) else fone

/-- Entry `n` of an accumulator after the first `k` edges: from zero, each edge whose index word is `n` added in turn. -/
def accAt (iw : ℕ → ℕ) (vw : ℕ → F .f32) : ℕ → ℕ → F .f32
  | 0, _ => fzero
  | k + 1, n => if iw k = n then FloatOps.idxAddf (accAt iw vw k n) (vw k) else accAt iw vw k n

/-- The partial-sums array after the call: entry `w * 100000 + n` is tile `w`'s accumulator entry `n` after its 800000 edges. -/
def specPart (ei : S12800000.Idx → Elt F .i32) (tf tb : S6400000.Idx → Elt F .f32) : S3200000.Idx → Elt F .f32 :=
  fun j => accAt (iwOf ei ((j 0).val / 100000)) (vwOf tf tb ((j 0).val / 100000)) 800000 ((j 0).val % 100000)

/-! ## The indexed store with add, sixteen lanes at a time, is sixteen more edges of the fold -/

/-- The fold of lane updates, read at one entry, is the fold of that entry's updates. -/
theorem foldl_lane_apply {n : ℕ} (l : List (Fin n)) (tgt : Fin n → ℕ) (val : Fin n → F .f32) (g₀ : S100000.Idx → F .f32) (j : S100000.Idx) :
    (l.foldl (fun g k => fun j' => if tgt k = (j' 0).val then FloatOps.idxAddf (g j') (val k) else g j') g₀) j
      = l.foldl (fun a k => if tgt k = (j 0).val then FloatOps.idxAddf a (val k) else a) (g₀ j) := by
  induction l generalizing g₀ with
  | nil => rfl
  | cons k l ih => rw [List.foldl_cons, List.foldl_cons, ih]

/-- `n` more edges, one at a time. -/
theorem accAt_finRange (iw : ℕ → ℕ) (vw : ℕ → F .f32) (K m : ℕ) (n : ℕ) :
    (List.finRange n).foldl (fun a (k : Fin n) => if iw (K + k.val) = m then FloatOps.idxAddf a (vw (K + k.val)) else a) (accAt iw vw K m)
      = accAt iw vw (K + n) m := by
  induction n with
  | zero => rfl
  | succ n ih =>
    rw [List.finRange_succ_last, List.foldl_append, List.foldl_map]
    simp only [Fin.coe_castSucc, List.foldl_cons, List.foldl_nil, Fin.val_last]
    rw [ih]; rfl

theorem storeIdx_eq_fold (g : Vec F S100000 .f32) (iv : IVec S16 32) (v : Vec F S16 .f32)
    (h : ∀ a x, ((![iv] : Fin 1 → IVec S16 32) a x).toNat < S100000.size a) :
    storeIdx g ![iv] v (fun _ => 1#1) true h
      = (List.finRange 16).foldl (fun g' (k : Fin 16) => fun j' =>
          if (iv (Shape.ofLane k)).toNat = (j' 0).val then FloatOps.idxAddf (g' j') (v (Shape.ofLane k)) else g' j') g := by
  unfold storeIdx
  show (List.finRange 16).foldl _ g = _
  congr 1
  funext g' k j'
  rw [if_pos (show (1#1 : BitVec 1) = 1 from rfl), if_pos rfl]
  by_cases hc : (iv (Shape.ofLane k)).toNat = (j' 0).val
  · have hij : idxAt ![iv] h (Shape.ofLane k) = j' := by
      funext a; obtain rfl : a = 0 := Subsingleton.elim _ _
      exact Fin.ext hc
    rw [if_pos hc, hij, if_pos (fun _ => rfl)]; rfl
  · rw [if_neg hc, if_neg]
    intro hall; exact hc (hall 0).symm

theorem storeIdx_accAt (iw : ℕ → ℕ) (vw : ℕ → F .f32) (K : ℕ) (g : Vec F S100000 .f32) (iv : IVec S16 32) (v : Vec F S16 .f32)
    (h : ∀ a x, ((![iv] : Fin 1 → IVec S16 32) a x).toNat < S100000.size a)
    (hg : ∀ j, g j = accAt iw vw K (j 0).val)
    (hiv : ∀ x : S16.Idx, (iv x).toNat = iw (K + (x 0).val))
    (hv : ∀ x : S16.Idx, v x = vw (K + (x 0).val)) (j : S100000.Idx) :
    storeIdx g ![iv] v (fun _ => 1#1) true h j = accAt iw vw (K + 16) (j 0).val := by
  rw [storeIdx_eq_fold, foldl_lane_apply (List.finRange 16) (fun k => (iv (Shape.ofLane k)).toNat) (fun k => v (Shape.ofLane k)), hg,
    ← accAt_finRange iw vw K (j 0).val 16]
  congr 1
  funext a k
  rw [hiv, hv]; rfl

/-- The accumulator's contents after the first `K` edges. -/
def accFn (iw : ℕ → ℕ) (vw : ℕ → F .f32) (K : ℕ) : S100000.Idx → Elt F .f32 := fun j => accAt iw vw K (j 0).val

theorem storeIdx_accFn (iw : ℕ → ℕ) (vw : ℕ → F .f32) (K : ℕ) (iv : IVec S16 32) (v : Vec F S16 .f32)
    (h : ∀ a x, ((![iv] : Fin 1 → IVec S16 32) a x).toNat < S100000.size a)
    (hiv : ∀ x : S16.Idx, (iv x).toNat = iw (K + (x 0).val))
    (hv : ∀ x : S16.Idx, v x = vw (K + (x 0).val)) :
    storeIdx (accFn iw vw K) ![iv] v (fun _ => 1#1) true h = accFn iw vw (K + 16) :=
  funext fun j => storeIdx_accAt iw vw K (accFn iw vw K) iv v h (fun _ => rfl) hiv hv j

end Cert.Proof.KW.Sc

end
-- ==== Proof.ScatterTileOffW.lean ====
import proofs.«204254_g40355512713743_retrytranche2_1723_12_alg».proof.Proof.CommonW
import proofs.«204254_g40355512713743_retrytranche2_1723_12_alg».proof.Proof.ScatterTileSpecW

noncomputable section

namespace Cert.Proof.KW.Sc

open Cert.Proof.KW
open Cert.Kernel Cert.Kernel.Gen

open Idealize.ShloMosaic
open Idealize.ShloMosaic.ValueIdx (ix1 eq_ix1)

variable {F : FTy → Type} [FloatOps F]

/-! ## The block offsets in closed form, which task a tile runs, and the zero fill -/

/-- `k2_off2` in closed form. -/
theorem k2_off2_eq (i : grid2.Coords) (k2_t2 : Fin k2_t2_loop.trips) : k2_off2 i k2_t2 = ![800000 * ((2 * (i 1).val + (i 0).val) % 8) + 8000 * k2_t2.val] := by
  have h_c0_i32_25 : Affine.IsInt 0#32 (0) := Affine.ofNat _ (by omega)
  have r_i1 : (i 1).val < 16 := (i 1).isLt
  have h_arg1 : Affine.IsInt (BitVec.ofNat 32 (i 1).val) (((i 1).val : Int)) := Affine.ofNat _ (by omega)
  have h_c2_i32 : Affine.IsInt 2#32 (2) := Affine.ofNat _ (by omega)
  have h_v0 : Affine.IsInt _ (2 * ((i 1).val : Int)) := Affine.muli h_arg1 h_c2_i32 (by omega)
  have r_i0 : (i 0).val < 2 := (i 0).isLt
  have h_arg0 : Affine.IsInt (BitVec.ofNat 32 (i 0).val) (((i 0).val : Int)) := Affine.ofNat _ (by omega)
  have h_v1 : Affine.IsInt _ (2 * ((i 1).val : Int) + ((i 0).val : Int)) := Affine.addi h_v0 h_arg0 (by omega)
  have h_c8_i32_4 : Affine.IsInt 8#32 (8) := Affine.ofNat _ (by omega)
  have h_c0_i32_5 : Affine.IsInt 0#32 (0) := Affine.ofNat _ (by omega)
  have h_v19 : Affine.Fails _ := Affine.eq_fails h_c8_i32_4 h_c0_i32_5 (by omega)
  have h_c1_i32_6 : Affine.IsInt 1#32 (1) := Affine.ofNat _ (by omega)
  have h_v20 : Affine.IsInt _ (8) := Affine.select_fails h_v19 h_c1_i32_6 h_c8_i32_4 (by omega)
  have h_v21 : Affine.IsInt _ (((2 * ((i 1).val : Int) + ((i 0).val : Int)) % 8)) := Affine.remsi h_v1 h_v20 (by omega)
  have h_c0_i32_8 : Affine.IsInt 0#32 (0) := Affine.ofNat _ (by omega)
  have h_v23 : Affine.Fails _ := Affine.slt_fails h_v21 h_c0_i32_8 (by omega)
  have h_c0_i32_9 : Affine.IsInt 0#32 (0) := Affine.ofNat _ (by omega)
  have h_v24 : Affine.Fails _ := Affine.slt_fails h_v20 h_c0_i32_9 (by omega)
  have h_v25 : Affine.Fails _ := Affine.xori_ff h_v23 h_v24
  have h_c0_i32_7 : Affine.IsInt 0#32 (0) := Affine.ofNat _ (by omega)
  have h_v22 : Affine.Term _ := Affine.cmpi_term .ne h_v21 h_c0_i32_7
  have h_v26 : Affine.Fails _ := Affine.andi_fails_left h_v25 h_v22
  have h_v27 : Affine.IsInt _ (((2 * ((i 1).val : Int) + ((i 0).val : Int)) % 8) + 8) := Affine.addi h_v21 h_v20 (by omega)
  have h_v28 : Affine.IsInt _ (((2 * ((i 1).val : Int) + ((i 0).val : Int)) % 8)) := Affine.select_fails h_v26 h_v27 h_v21 (by omega)
  have h_c800000_i32 : Affine.IsInt 800000#32 (800000) := Affine.ofNat _ (by omega)
  have h_v47 : Affine.IsInt _ (800000 * ((2 * ((i 1).val : Int) + ((i 0).val : Int)) % 8)) := Affine.muli h_v28 h_c800000_i32 (by omega)
  have h_c0_i32_22 : Affine.IsInt 0#32 (0) := Affine.ofNat _ (by omega)
  have h_c1_i32_23 : Affine.IsInt 1#32 (1) := Affine.ofNat _ (by omega)
  have r_k2_t2 : k2_t2.val < 100 := Nat.lt_of_lt_of_le k2_t2.isLt k2_t2_abs.2.1
  have h_arg9 : Affine.IsInt _ ((k2_t2.val : Int)) := Affine.iv h_c0_i32_22 h_c1_i32_23 k2_t2.val (by omega)
  have c_arg9 : (k2_t2.val : Int) ≤ 100 - 1 := Affine.iv_lt k2_t2_abs.1 k2_t2.isLt k2_t2_abs.2.2 h_arg9
  have h_c8000_i32 : Affine.IsInt 8000#32 (8000) := Affine.ofNat _ (by omega)
  have h_v48 : Affine.IsInt _ (8000 * (k2_t2.val : Int)) := Affine.muli h_arg9 h_c8000_i32 (by omega)
  have h_v49 : Affine.IsInt _ (800000 * ((2 * ((i 1).val : Int) + ((i 0).val : Int)) % 8) + 8000 * (k2_t2.val : Int)) := Affine.addi h_v47 h_v48 (by omega)
  have h_v50 : Affine.IsInt _ (800000 * ((2 * ((i 1).val : Int) + ((i 0).val : Int)) % 8) + 8000 * (k2_t2.val : Int)) := Affine.addi h_c0_i32_25 h_v49 (by omega)
  exact Affine.vec_cons h_v50 (by omega) <| Affine.vec_nil
/-- `k2_off3` in closed form. -/
theorem k2_off3_eq (i : grid2.Coords) (k2_t2 : Fin k2_t2_loop.trips) : k2_off3 i k2_t2 = ![800000 * ((2 * (i 1).val + (i 0).val) % 8) + 8000 * k2_t2.val] := by
  have r_i1 : (i 1).val < 16 := (i 1).isLt
  have h_arg1 : Affine.IsInt (BitVec.ofNat 32 (i 1).val) (((i 1).val : Int)) := Affine.ofNat _ (by omega)
  have h_c2_i32 : Affine.IsInt 2#32 (2) := Affine.ofNat _ (by omega)
  have h_v0 : Affine.IsInt _ (2 * ((i 1).val : Int)) := Affine.muli h_arg1 h_c2_i32 (by omega)
  have r_i0 : (i 0).val < 2 := (i 0).isLt
  have h_arg0 : Affine.IsInt (BitVec.ofNat 32 (i 0).val) (((i 0).val : Int)) := Affine.ofNat _ (by omega)
  have h_v1 : Affine.IsInt _ (2 * ((i 1).val : Int) + ((i 0).val : Int)) := Affine.addi h_v0 h_arg0 (by omega)
  have h_c8_i32_4 : Affine.IsInt 8#32 (8) := Affine.ofNat _ (by omega)
  have h_c0_i32_5 : Affine.IsInt 0#32 (0) := Affine.ofNat _ (by omega)
  have h_v19 : Affine.Fails _ := Affine.eq_fails h_c8_i32_4 h_c0_i32_5 (by omega)
  have h_c1_i32_6 : Affine.IsInt 1#32 (1) := Affine.ofNat _ (by omega)
  have h_v20 : Affine.IsInt _ (8) := Affine.select_fails h_v19 h_c1_i32_6 h_c8_i32_4 (by omega)
  have h_v21 : Affine.IsInt _ (((2 * ((i 1).val : Int) + ((i 0).val : Int)) % 8)) := Affine.remsi h_v1 h_v20 (by omega)
  have h_c0_i32_8 : Affine.IsInt 0#32 (0) := Affine.ofNat _ (by omega)
  have h_v23 : Affine.Fails _ := Affine.slt_fails h_v21 h_c0_i32_8 (by omega)
  have h_c0_i32_9 : Affine.IsInt 0#32 (0) := Affine.ofNat _ (by omega)
  have h_v24 : Affine.Fails _ := Affine.slt_fails h_v20 h_c0_i32_9 (by omega)
  have h_v25 : Affine.Fails _ := Affine.xori_ff h_v23 h_v24
  have h_c0_i32_7 : Affine.IsInt 0#32 (0) := Affine.ofNat _ (by omega)
  have h_v22 : Affine.Term _ := Affine.cmpi_term .ne h_v21 h_c0_i32_7
  have h_v26 : Affine.Fails _ := Affine.andi_fails_left h_v25 h_v22
  have h_v27 : Affine.IsInt _ (((2 * ((i 1).val : Int) + ((i 0).val : Int)) % 8) + 8) := Affine.addi h_v21 h_v20 (by omega)
  have h_v28 : Affine.IsInt _ (((2 * ((i 1).val : Int) + ((i 0).val : Int)) % 8)) := Affine.select_fails h_v26 h_v27 h_v21 (by omega)
  have h_c800000_i32 : Affine.IsInt 800000#32 (800000) := Affine.ofNat _ (by omega)
  have h_v47 : Affine.IsInt _ (800000 * ((2 * ((i 1).val : Int) + ((i 0).val : Int)) % 8)) := Affine.muli h_v28 h_c800000_i32 (by omega)
  have h_c0_i32_22 : Affine.IsInt 0#32 (0) := Affine.ofNat _ (by omega)
  have h_c1_i32_23 : Affine.IsInt 1#32 (1) := Affine.ofNat _ (by omega)
  have r_k2_t2 : k2_t2.val < 100 := Nat.lt_of_lt_of_le k2_t2.isLt k2_t2_abs.2.1
  have h_arg9 : Affine.IsInt _ ((k2_t2.val : Int)) := Affine.iv h_c0_i32_22 h_c1_i32_23 k2_t2.val (by omega)
  have c_arg9 : (k2_t2.val : Int) ≤ 100 - 1 := Affine.iv_lt k2_t2_abs.1 k2_t2.isLt k2_t2_abs.2.2 h_arg9
  have h_c8000_i32 : Affine.IsInt 8000#32 (8000) := Affine.ofNat _ (by omega)
  have h_v48 : Affine.IsInt _ (8000 * (k2_t2.val : Int)) := Affine.muli h_arg9 h_c8000_i32 (by omega)
  have h_v49 : Affine.IsInt _ (800000 * ((2 * ((i 1).val : Int) + ((i 0).val : Int)) % 8) + 8000 * (k2_t2.val : Int)) := Affine.addi h_v47 h_v48 (by omega)
  exact Affine.vec_cons h_v49 (by omega) <| Affine.vec_nil
/-- `k2_off5` in closed form. -/
theorem k2_off5_eq (i : grid2.Coords) (k2_t4 : Fin k2_t4_loop.trips) : k2_off5 i k2_t4 = ![800000 * ((2 * (i 1).val + (i 0).val) % 8) + 8000 * k2_t4.val + 6400000] := by
  have h_c6400000_i32 : Affine.IsInt 6400000#32 (6400000) := Affine.ofNat _ (by omega)
  have r_i1 : (i 1).val < 16 := (i 1).isLt
  have h_arg1 : Affine.IsInt (BitVec.ofNat 32 (i 1).val) (((i 1).val : Int)) := Affine.ofNat _ (by omega)
  have h_c2_i32 : Affine.IsInt 2#32 (2) := Affine.ofNat _ (by omega)
  have h_v0 : Affine.IsInt _ (2 * ((i 1).val : Int)) := Affine.muli h_arg1 h_c2_i32 (by omega)
  have r_i0 : (i 0).val < 2 := (i 0).isLt
  have h_arg0 : Affine.IsInt (BitVec.ofNat 32 (i 0).val) (((i 0).val : Int)) := Affine.ofNat _ (by omega)
  have h_v1 : Affine.IsInt _ (2 * ((i 1).val : Int) + ((i 0).val : Int)) := Affine.addi h_v0 h_arg0 (by omega)
  have h_c8_i32_4 : Affine.IsInt 8#32 (8) := Affine.ofNat _ (by omega)
  have h_c0_i32_5 : Affine.IsInt 0#32 (0) := Affine.ofNat _ (by omega)
  have h_v19 : Affine.Fails _ := Affine.eq_fails h_c8_i32_4 h_c0_i32_5 (by omega)
  have h_c1_i32_6 : Affine.IsInt 1#32 (1) := Affine.ofNat _ (by omega)
  have h_v20 : Affine.IsInt _ (8) := Affine.select_fails h_v19 h_c1_i32_6 h_c8_i32_4 (by omega)
  have h_v21 : Affine.IsInt _ (((2 * ((i 1).val : Int) + ((i 0).val : Int)) % 8)) := Affine.remsi h_v1 h_v20 (by omega)
  have h_c0_i32_8 : Affine.IsInt 0#32 (0) := Affine.ofNat _ (by omega)
  have h_v23 : Affine.Fails _ := Affine.slt_fails h_v21 h_c0_i32_8 (by omega)
  have h_c0_i32_9 : Affine.IsInt 0#32 (0) := Affine.ofNat _ (by omega)
  have h_v24 : Affine.Fails _ := Affine.slt_fails h_v20 h_c0_i32_9 (by omega)
  have h_v25 : Affine.Fails _ := Affine.xori_ff h_v23 h_v24
  have h_c0_i32_7 : Affine.IsInt 0#32 (0) := Affine.ofNat _ (by omega)
  have h_v22 : Affine.Term _ := Affine.cmpi_term .ne h_v21 h_c0_i32_7
  have h_v26 : Affine.Fails _ := Affine.andi_fails_left h_v25 h_v22
  have h_v27 : Affine.IsInt _ (((2 * ((i 1).val : Int) + ((i 0).val : Int)) % 8) + 8) := Affine.addi h_v21 h_v20 (by omega)
  have h_v28 : Affine.IsInt _ (((2 * ((i 1).val : Int) + ((i 0).val : Int)) % 8)) := Affine.select_fails h_v26 h_v27 h_v21 (by omega)
  have h_c800000_i32 : Affine.IsInt 800000#32 (800000) := Affine.ofNat _ (by omega)
  have h_v47 : Affine.IsInt _ (800000 * ((2 * ((i 1).val : Int) + ((i 0).val : Int)) % 8)) := Affine.muli h_v28 h_c800000_i32 (by omega)
  have h_c0_i32_22 : Affine.IsInt 0#32 (0) := Affine.ofNat _ (by omega)
  have h_c1_i32_23 : Affine.IsInt 1#32 (1) := Affine.ofNat _ (by omega)
  have r_k2_t4 : k2_t4.val < 100 := Nat.lt_of_lt_of_le k2_t4.isLt k2_t4_abs.2.1
  have h_arg9 : Affine.IsInt _ ((k2_t4.val : Int)) := Affine.iv h_c0_i32_22 h_c1_i32_23 k2_t4.val (by omega)
  have c_arg9 : (k2_t4.val : Int) ≤ 100 - 1 := Affine.iv_lt k2_t4_abs.1 k2_t4.isLt k2_t4_abs.2.2 h_arg9
  have h_c8000_i32 : Affine.IsInt 8000#32 (8000) := Affine.ofNat _ (by omega)
  have h_v48 : Affine.IsInt _ (8000 * (k2_t4.val : Int)) := Affine.muli h_arg9 h_c8000_i32 (by omega)
  have h_v49 : Affine.IsInt _ (800000 * ((2 * ((i 1).val : Int) + ((i 0).val : Int)) % 8) + 8000 * (k2_t4.val : Int)) := Affine.addi h_v47 h_v48 (by omega)
  have h_v50 : Affine.IsInt _ (800000 * ((2 * ((i 1).val : Int) + ((i 0).val : Int)) % 8) + 8000 * (k2_t4.val : Int) + 6400000) := Affine.addi h_c6400000_i32 h_v49 (by omega)
  exact Affine.vec_cons h_v50 (by omega) <| Affine.vec_nil
/-- `k2_off6` in closed form. -/
theorem k2_off6_eq (i : grid2.Coords) (k2_t4 : Fin k2_t4_loop.trips) : k2_off6 i k2_t4 = ![800000 * ((2 * (i 1).val + (i 0).val) % 8) + 8000 * k2_t4.val] := by
  have r_i1 : (i 1).val < 16 := (i 1).isLt
  have h_arg1 : Affine.IsInt (BitVec.ofNat 32 (i 1).val) (((i 1).val : Int)) := Affine.ofNat _ (by omega)
  have h_c2_i32 : Affine.IsInt 2#32 (2) := Affine.ofNat _ (by omega)
  have h_v0 : Affine.IsInt _ (2 * ((i 1).val : Int)) := Affine.muli h_arg1 h_c2_i32 (by omega)
  have r_i0 : (i 0).val < 2 := (i 0).isLt
  have h_arg0 : Affine.IsInt (BitVec.ofNat 32 (i 0).val) (((i 0).val : Int)) := Affine.ofNat _ (by omega)
  have h_v1 : Affine.IsInt _ (2 * ((i 1).val : Int) + ((i 0).val : Int)) := Affine.addi h_v0 h_arg0 (by omega)
  have h_c8_i32_4 : Affine.IsInt 8#32 (8) := Affine.ofNat _ (by omega)
  have h_c0_i32_5 : Affine.IsInt 0#32 (0) := Affine.ofNat _ (by omega)
  have h_v19 : Affine.Fails _ := Affine.eq_fails h_c8_i32_4 h_c0_i32_5 (by omega)
  have h_c1_i32_6 : Affine.IsInt 1#32 (1) := Affine.ofNat _ (by omega)
  have h_v20 : Affine.IsInt _ (8) := Affine.select_fails h_v19 h_c1_i32_6 h_c8_i32_4 (by omega)
  have h_v21 : Affine.IsInt _ (((2 * ((i 1).val : Int) + ((i 0).val : Int)) % 8)) := Affine.remsi h_v1 h_v20 (by omega)
  have h_c0_i32_8 : Affine.IsInt 0#32 (0) := Affine.ofNat _ (by omega)
  have h_v23 : Affine.Fails _ := Affine.slt_fails h_v21 h_c0_i32_8 (by omega)
  have h_c0_i32_9 : Affine.IsInt 0#32 (0) := Affine.ofNat _ (by omega)
  have h_v24 : Affine.Fails _ := Affine.slt_fails h_v20 h_c0_i32_9 (by omega)
  have h_v25 : Affine.Fails _ := Affine.xori_ff h_v23 h_v24
  have h_c0_i32_7 : Affine.IsInt 0#32 (0) := Affine.ofNat _ (by omega)
  have h_v22 : Affine.Term _ := Affine.cmpi_term .ne h_v21 h_c0_i32_7
  have h_v26 : Affine.Fails _ := Affine.andi_fails_left h_v25 h_v22
  have h_v27 : Affine.IsInt _ (((2 * ((i 1).val : Int) + ((i 0).val : Int)) % 8) + 8) := Affine.addi h_v21 h_v20 (by omega)
  have h_v28 : Affine.IsInt _ (((2 * ((i 1).val : Int) + ((i 0).val : Int)) % 8)) := Affine.select_fails h_v26 h_v27 h_v21 (by omega)
  have h_c800000_i32 : Affine.IsInt 800000#32 (800000) := Affine.ofNat _ (by omega)
  have h_v47 : Affine.IsInt _ (800000 * ((2 * ((i 1).val : Int) + ((i 0).val : Int)) % 8)) := Affine.muli h_v28 h_c800000_i32 (by omega)
  have h_c0_i32_22 : Affine.IsInt 0#32 (0) := Affine.ofNat _ (by omega)
  have h_c1_i32_23 : Affine.IsInt 1#32 (1) := Affine.ofNat _ (by omega)
  have r_k2_t4 : k2_t4.val < 100 := Nat.lt_of_lt_of_le k2_t4.isLt k2_t4_abs.2.1
  have h_arg9 : Affine.IsInt _ ((k2_t4.val : Int)) := Affine.iv h_c0_i32_22 h_c1_i32_23 k2_t4.val (by omega)
  have c_arg9 : (k2_t4.val : Int) ≤ 100 - 1 := Affine.iv_lt k2_t4_abs.1 k2_t4.isLt k2_t4_abs.2.2 h_arg9
  have h_c8000_i32 : Affine.IsInt 8000#32 (8000) := Affine.ofNat _ (by omega)
  have h_v48 : Affine.IsInt _ (8000 * (k2_t4.val : Int)) := Affine.muli h_arg9 h_c8000_i32 (by omega)
  have h_v49 : Affine.IsInt _ (800000 * ((2 * ((i 1).val : Int) + ((i 0).val : Int)) % 8) + 8000 * (k2_t4.val : Int)) := Affine.addi h_v47 h_v48 (by omega)
  exact Affine.vec_cons h_v49 (by omega) <| Affine.vec_nil
/-- `k2_off8` in closed form. -/
theorem k2_off8_eq (i : grid2.Coords) (k2_t6 : Fin k2_t6_loop.trips) : k2_off8 i k2_t6 = ![800000 * ((2 * (i 1).val + (i 0).val) % 8) + 8000 * k2_t6.val] := by
  have h_c0_i32_25 : Affine.IsInt 0#32 (0) := Affine.ofNat _ (by omega)
  have r_i1 : (i 1).val < 16 := (i 1).isLt
  have h_arg1 : Affine.IsInt (BitVec.ofNat 32 (i 1).val) (((i 1).val : Int)) := Affine.ofNat _ (by omega)
  have h_c2_i32 : Affine.IsInt 2#32 (2) := Affine.ofNat _ (by omega)
  have h_v0 : Affine.IsInt _ (2 * ((i 1).val : Int)) := Affine.muli h_arg1 h_c2_i32 (by omega)
  have r_i0 : (i 0).val < 2 := (i 0).isLt
  have h_arg0 : Affine.IsInt (BitVec.ofNat 32 (i 0).val) (((i 0).val : Int)) := Affine.ofNat _ (by omega)
  have h_v1 : Affine.IsInt _ (2 * ((i 1).val : Int) + ((i 0).val : Int)) := Affine.addi h_v0 h_arg0 (by omega)
  have h_c8_i32_4 : Affine.IsInt 8#32 (8) := Affine.ofNat _ (by omega)
  have h_c0_i32_5 : Affine.IsInt 0#32 (0) := Affine.ofNat _ (by omega)
  have h_v19 : Affine.Fails _ := Affine.eq_fails h_c8_i32_4 h_c0_i32_5 (by omega)
  have h_c1_i32_6 : Affine.IsInt 1#32 (1) := Affine.ofNat _ (by omega)
  have h_v20 : Affine.IsInt _ (8) := Affine.select_fails h_v19 h_c1_i32_6 h_c8_i32_4 (by omega)
  have h_v21 : Affine.IsInt _ (((2 * ((i 1).val : Int) + ((i 0).val : Int)) % 8)) := Affine.remsi h_v1 h_v20 (by omega)
  have h_c0_i32_8 : Affine.IsInt 0#32 (0) := Affine.ofNat _ (by omega)
  have h_v23 : Affine.Fails _ := Affine.slt_fails h_v21 h_c0_i32_8 (by omega)
  have h_c0_i32_9 : Affine.IsInt 0#32 (0) := Affine.ofNat _ (by omega)
  have h_v24 : Affine.Fails _ := Affine.slt_fails h_v20 h_c0_i32_9 (by omega)
  have h_v25 : Affine.Fails _ := Affine.xori_ff h_v23 h_v24
  have h_c0_i32_7 : Affine.IsInt 0#32 (0) := Affine.ofNat _ (by omega)
  have h_v22 : Affine.Term _ := Affine.cmpi_term .ne h_v21 h_c0_i32_7
  have h_v26 : Affine.Fails _ := Affine.andi_fails_left h_v25 h_v22
  have h_v27 : Affine.IsInt _ (((2 * ((i 1).val : Int) + ((i 0).val : Int)) % 8) + 8) := Affine.addi h_v21 h_v20 (by omega)
  have h_v28 : Affine.IsInt _ (((2 * ((i 1).val : Int) + ((i 0).val : Int)) % 8)) := Affine.select_fails h_v26 h_v27 h_v21 (by omega)
  have h_c800000_i32 : Affine.IsInt 800000#32 (800000) := Affine.ofNat _ (by omega)
  have h_v47 : Affine.IsInt _ (800000 * ((2 * ((i 1).val : Int) + ((i 0).val : Int)) % 8)) := Affine.muli h_v28 h_c800000_i32 (by omega)
  have h_c0_i32_22 : Affine.IsInt 0#32 (0) := Affine.ofNat _ (by omega)
  have h_c1_i32_23 : Affine.IsInt 1#32 (1) := Affine.ofNat _ (by omega)
  have r_k2_t6 : k2_t6.val < 100 := Nat.lt_of_lt_of_le k2_t6.isLt k2_t6_abs.2.1
  have h_arg9 : Affine.IsInt _ ((k2_t6.val : Int)) := Affine.iv h_c0_i32_22 h_c1_i32_23 k2_t6.val (by omega)
  have c_arg9 : (k2_t6.val : Int) ≤ 100 - 1 := Affine.iv_lt k2_t6_abs.1 k2_t6.isLt k2_t6_abs.2.2 h_arg9
  have h_c8000_i32 : Affine.IsInt 8000#32 (8000) := Affine.ofNat _ (by omega)
  have h_v48 : Affine.IsInt _ (8000 * (k2_t6.val : Int)) := Affine.muli h_arg9 h_c8000_i32 (by omega)
  have h_v49 : Affine.IsInt _ (800000 * ((2 * ((i 1).val : Int) + ((i 0).val : Int)) % 8) + 8000 * (k2_t6.val : Int)) := Affine.addi h_v47 h_v48 (by omega)
  have h_v50 : Affine.IsInt _ (800000 * ((2 * ((i 1).val : Int) + ((i 0).val : Int)) % 8) + 8000 * (k2_t6.val : Int)) := Affine.addi h_c0_i32_25 h_v49 (by omega)
  exact Affine.vec_cons h_v50 (by omega) <| Affine.vec_nil
/-- `k2_off10` in closed form. -/
theorem k2_off10_eq (i : grid2.Coords) (k2_t8 : Fin k2_t8_loop.trips) : k2_off10 i k2_t8 = ![800000 * ((2 * (i 1).val + (i 0).val) % 8) + 8000 * k2_t8.val + 6400000] := by
  have h_c6400000_i32 : Affine.IsInt 6400000#32 (6400000) := Affine.ofNat _ (by omega)
  have r_i1 : (i 1).val < 16 := (i 1).isLt
  have h_arg1 : Affine.IsInt (BitVec.ofNat 32 (i 1).val) (((i 1).val : Int)) := Affine.ofNat _ (by omega)
  have h_c2_i32 : Affine.IsInt 2#32 (2) := Affine.ofNat _ (by omega)
  have h_v0 : Affine.IsInt _ (2 * ((i 1).val : Int)) := Affine.muli h_arg1 h_c2_i32 (by omega)
  have r_i0 : (i 0).val < 2 := (i 0).isLt
  have h_arg0 : Affine.IsInt (BitVec.ofNat 32 (i 0).val) (((i 0).val : Int)) := Affine.ofNat _ (by omega)
  have h_v1 : Affine.IsInt _ (2 * ((i 1).val : Int) + ((i 0).val : Int)) := Affine.addi h_v0 h_arg0 (by omega)
  have h_c8_i32_4 : Affine.IsInt 8#32 (8) := Affine.ofNat _ (by omega)
  have h_c0_i32_5 : Affine.IsInt 0#32 (0) := Affine.ofNat _ (by omega)
  have h_v19 : Affine.Fails _ := Affine.eq_fails h_c8_i32_4 h_c0_i32_5 (by omega)
  have h_c1_i32_6 : Affine.IsInt 1#32 (1) := Affine.ofNat _ (by omega)
  have h_v20 : Affine.IsInt _ (8) := Affine.select_fails h_v19 h_c1_i32_6 h_c8_i32_4 (by omega)
  have h_v21 : Affine.IsInt _ (((2 * ((i 1).val : Int) + ((i 0).val : Int)) % 8)) := Affine.remsi h_v1 h_v20 (by omega)
  have h_c0_i32_8 : Affine.IsInt 0#32 (0) := Affine.ofNat _ (by omega)
  have h_v23 : Affine.Fails _ := Affine.slt_fails h_v21 h_c0_i32_8 (by omega)
  have h_c0_i32_9 : Affine.IsInt 0#32 (0) := Affine.ofNat _ (by omega)
  have h_v24 : Affine.Fails _ := Affine.slt_fails h_v20 h_c0_i32_9 (by omega)
  have h_v25 : Affine.Fails _ := Affine.xori_ff h_v23 h_v24
  have h_c0_i32_7 : Affine.IsInt 0#32 (0) := Affine.ofNat _ (by omega)
  have h_v22 : Affine.Term _ := Affine.cmpi_term .ne h_v21 h_c0_i32_7
  have h_v26 : Affine.Fails _ := Affine.andi_fails_left h_v25 h_v22
  have h_v27 : Affine.IsInt _ (((2 * ((i 1).val : Int) + ((i 0).val : Int)) % 8) + 8) := Affine.addi h_v21 h_v20 (by omega)
  have h_v28 : Affine.IsInt _ (((2 * ((i 1).val : Int) + ((i 0).val : Int)) % 8)) := Affine.select_fails h_v26 h_v27 h_v21 (by omega)
  have h_c800000_i32 : Affine.IsInt 800000#32 (800000) := Affine.ofNat _ (by omega)
  have h_v47 : Affine.IsInt _ (800000 * ((2 * ((i 1).val : Int) + ((i 0).val : Int)) % 8)) := Affine.muli h_v28 h_c800000_i32 (by omega)
  have h_c0_i32_22 : Affine.IsInt 0#32 (0) := Affine.ofNat _ (by omega)
  have h_c1_i32_23 : Affine.IsInt 1#32 (1) := Affine.ofNat _ (by omega)
  have r_k2_t8 : k2_t8.val < 100 := Nat.lt_of_lt_of_le k2_t8.isLt k2_t8_abs.2.1
  have h_arg9 : Affine.IsInt _ ((k2_t8.val : Int)) := Affine.iv h_c0_i32_22 h_c1_i32_23 k2_t8.val (by omega)
  have c_arg9 : (k2_t8.val : Int) ≤ 100 - 1 := Affine.iv_lt k2_t8_abs.1 k2_t8.isLt k2_t8_abs.2.2 h_arg9
  have h_c8000_i32 : Affine.IsInt 8000#32 (8000) := Affine.ofNat _ (by omega)
  have h_v48 : Affine.IsInt _ (8000 * (k2_t8.val : Int)) := Affine.muli h_arg9 h_c8000_i32 (by omega)
  have h_v49 : Affine.IsInt _ (800000 * ((2 * ((i 1).val : Int) + ((i 0).val : Int)) % 8) + 8000 * (k2_t8.val : Int)) := Affine.addi h_v47 h_v48 (by omega)
  have h_v50 : Affine.IsInt _ (800000 * ((2 * ((i 1).val : Int) + ((i 0).val : Int)) % 8) + 8000 * (k2_t8.val : Int) + 6400000) := Affine.addi h_c6400000_i32 h_v49 (by omega)
  exact Affine.vec_cons h_v50 (by omega) <| Affine.vec_nil

theorem k2_conds (L : grid2.Coords) :
    (k2_cond1 L = 1#1 ↔ widOf L / 8 = 0) ∧ (k2_cond2 L = 1#1 ↔ widOf L / 8 = 1)
      ∧ (k2_cond3 L = 1#1 ↔ widOf L / 8 = 2) ∧ (k2_cond4 L = 1#1 ↔ widOf L / 8 = 3) := by
  revert L; decide +kernel

theorem widOf_lt (L : grid2.Coords) : widOf L < 32 := by
  have h1 : (L 1).val < 16 := (L 1).isLt
  have h0 : (L 0).val < 2 := (L 0).isLt
  unfold widOf; omega

def zfill (fa : S100000.Idx → Elt F .f32) (k : ℕ) : S100000.Idx → Elt F .f32 := fun j => if (j 0).val < 16 * k then fzero else fa j

theorem zfill_step (fa : S100000.Idx → Elt F .f32) (k : Fin k2_t1_loop.trips) :
    (Memref.whole cc2_scratch0 : Memref sig .scVector .vmem S100000 .f32).view.writes (Elt F) (zfill fa k.val)
        [⟨Rect.unit (s := S100000) (k2_off1 k) S16.size (k2_off1_inb k), k2_pay1 (F := F)⟩] = zfill fa (k.val + 1) := by
  funext j
  rw [View.writes_singleton]
  have hoff : k2_off1 k 0 = 16 * k.val := by rw [k2_off1_eq]; rfl
  by_cases hj : j ∈ (Rect.unit (s := S100000) (k2_off1 k) S16.size (k2_off1_inb k)).set
  · obtain ⟨x, rfl⟩ := (Rect.unit (s := S100000) (k2_off1 k) S16.size (k2_off1_inb k)).exists_idx_of_mem hj
    have hm := (Rect.mem_set_unit.mp hj) 0
    have := View.write_emb_of_mem (v := ((Memref.whole cc2_scratch0 : Memref sig .scVector .vmem S100000 .f32).view.slice (Rect.unit (s := S100000) (k2_off1 k) S16.size (k2_off1_inb k))))
      (Val := Elt F) (zfill fa k.val) (k2_pay1 (F := F)) (M := Finset.univ) (x := x) (Finset.mem_univ _)
    refine this.trans ?_
    unfold zfill
    rw [if_pos (by rw [hoff] at hm; have : S16.size 0 = 16 := rfl; omega)]
    rfl
  · have hj' : j ∉ ((Memref.whole cc2_scratch0 : Memref sig .scVector .vmem S100000 .f32).view.slice (Rect.unit (s := S100000) (k2_off1 k) S16.size (k2_off1_inb k))).setOn Finset.univ := by
      rw [View.setOn_univ, View.set_slice]; intro h; exact hj (by simpa using h)
    rw [View.write_of_not_mem _ _ _ hj']
    unfold zfill
    have hm : ¬ (k2_off1 k 0 ≤ (j 0).val ∧ (j 0).val < k2_off1 k 0 + S16.size 0) := by
      intro h; apply hj; rw [Rect.mem_set_unit]; intro a; obtain rfl : a = 0 := Subsingleton.elim _ _; exact h
    rw [hoff] at hm
    have : S16.size 0 = 16 := rfl
    by_cases h1 : (j 0).val < 16 * k.val
    · rw [if_pos h1, if_pos (by omega)]
    · rw [if_neg h1, if_neg (by omega)]

/-! ## Reading the arrays at a position; what a landed block holds; the accumulator's whole-buffer store -/

section Reads
variable (ei : S12800000.Idx → Elt F .i32)

theorem eiN_apply (y : S12800000.Idx) : eiN ei (y 0).val = (ei y).toNat := by
  unfold eiN
  have h : (y 0).val < 12800000 := (y 0).isLt
  rw [dif_pos h]
  exact congrArg (fun z => (ei z).toNat) (eq_ix1 y).symm
theorem fN_apply (t : S6400000.Idx → Elt F .f32) (y : S6400000.Idx) : fN t (y 0).val = t y := by
  unfold fN
  have h : (y 0).val < 6400000 := (y 0).isLt
  rw [dif_pos h]
  exact congrArg t (eq_ix1 y).symm

/-- A landed index block, read at a word: the flat index array at the block's offset plus the word's position. -/
theorem ei_block_word (off : Fin 1 → ℕ) (inb : ∀ a, off a + S8000.size a ≤ S12800000.size a) (fi : S8000.Idx → Elt F .i32) (x : S8000.Idx) :
    ((View.write (Elt F) (Memref.whole cc2_scratch1 : Memref sig .scVector .vmem S8000 .i32).view fi
        (ReadAs.same.apply (View.read (Elt F) ((Memref.whole main_v0_scv : Memref sig .scVector .hbm S12800000 .i32).slice (Rect.unit (s := S12800000) off S8000.size inb) (fun _ => rfl)).view ei))
        Finset.univ) x).toNat = eiN ei (off 0 + (x 0).val) := by
  refine (congrArg BitVec.toNat (congrFun (View.write_whole_univ (Val := Elt F) (cc2_scratch1 : Ref sig .scVector) fi _) x)).trans ?_
  rw [ReadAs.apply_same, View.read_apply, cast_eq, ← eiN_apply]
  congr 1
  show off 0 + 1 * (x 0).val = _
  omega

theorem eiN_lt (hidx : ∀ j, (ei j).toNat < 100000) (n : ℕ) : eiN ei n < 100000 := by
  unfold eiN; split
  · exact hidx _
  · omega

theorem tf_block_word (t : S6400000.Idx → Elt F .f32) (off : Fin 1 → ℕ) (inb : ∀ a, off a + S8000.size a ≤ S6400000.size a) (fv : S8000.Idx → Elt F .f32) (x : S8000.Idx) :
    (View.write (Elt F) (Memref.whole cc2_scratch2 : Memref sig .scVector .vmem S8000 .f32).view fv
        (ReadAs.same.apply (View.read (Elt F) ((Memref.whole main_v9_0_scv : Memref sig .scVector .hbm S6400000 .f32).slice (Rect.unit (s := S6400000) off S8000.size inb) (fun _ => rfl)).view t))
        Finset.univ) x = fN t (off 0 + (x 0).val) := by
  refine (congrFun (View.write_whole_univ (Val := Elt F) (cc2_scratch2 : Ref sig .scVector) fv _) x).trans ?_
  rw [ReadAs.apply_same, View.read_apply, cast_eq, ← fN_apply t]
  congr 1
  show off 0 + 1 * (x 0).val = _
  omega
theorem tb_block_word (t : S6400000.Idx → Elt F .f32) (off : Fin 1 → ℕ) (inb : ∀ a, off a + S8000.size a ≤ S6400000.size a) (fv : S8000.Idx → Elt F .f32) (x : S8000.Idx) :
    (View.write (Elt F) (Memref.whole cc2_scratch2 : Memref sig .scVector .vmem S8000 .f32).view fv
        (ReadAs.same.apply (View.read (Elt F) ((Memref.whole main_v9_1_scv : Memref sig .scVector .hbm S6400000 .f32).slice (Rect.unit (s := S6400000) off S8000.size inb) (fun _ => rfl)).view t))
        Finset.univ) x = fN t (off 0 + (x 0).val) := by
  refine (congrFun (View.write_whole_univ (Val := Elt F) (cc2_scratch2 : Ref sig .scVector) fv _) x).trans ?_
  rw [ReadAs.apply_same, View.read_apply, cast_eq, ← fN_apply t]
  congr 1
  show off 0 + 1 * (x 0).val = _
  omega

/-- The accumulator after its zero fill is the fold over no edges. -/
theorem zfill_full (fa : S100000.Idx → Elt F .f32) (iw : ℕ → ℕ) (vw : ℕ → F .f32) : zfill fa 6250 = accFn iw vw 0 := by
  funext j
  have h : (j 0).val < 100000 := (j 0).isLt
  unfold zfill accFn
  rw [if_pos (by omega)]; rfl
theorem zfill_zero (fa : S100000.Idx → Elt F .f32) : zfill fa 0 = fa := by
  funext j; unfold zfill; rw [if_neg (by omega)]

/-- The indexed store over the whole accumulator, read back. -/
theorem acc_store (f w : S100000.Idx → Elt F .f32) :
    View.write (Elt F) ((Memref.whole cc2_scratch0 : Memref sig .scVector .vmem S100000 .f32).access (Rect.whole S100000)) f w Finset.univ = w :=
  Memref.write_access_whole_univ (Elt F) (cc2_scratch0 : Ref sig .scVector) f w
theorem acc_read (f : S100000.Idx → Elt F .f32) :
    View.read (Elt F) ((Memref.whole cc2_scratch0 : Memref sig .scVector .vmem S100000 .f32).access (Rect.whole S100000)) f = f :=
  Memref.read_access_whole (Elt F) (cc2_scratch0 : Ref sig .scVector) f

end Reads

end Cert.Proof.KW.Sc

end
-- ==== Proof.ScatterTileW.lean ====
import proofs.«204254_g40355512713743_retrytranche2_1723_12_alg».proof.Proof.CommonW
import proofs.«204254_g40355512713743_retrytranche2_1723_12_alg».proof.Proof.ScatterTileSpecW
import proofs.«204254_g40355512713743_retrytranche2_1723_12_alg».proof.Proof.ScatterTileOffW

noncomputable section

namespace Cert.Proof.KW.Sc

open Cert.Proof.KW
open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 eq_ix1)

variable {F : FTy → Type}

local notation "𝕄" => MT nD τ sig (HIx 2) (Elt F) ℕ UU ℕ

/-! ## The arrays, the tile's thread and its memrefs -/

/-- The flat index array, the two edge-value arrays and the partial-sums array, as locations of device `d`. -/
abbrev eiLoc (d : Dev nD) : Loc nD τ sig := (SparseCore.T d).loc main_v0
abbrev tfLoc (d : Dev nD) : Loc nD τ sig := (SparseCore.T d).loc main_v9_0
abbrev tbLoc (d : Dev nD) : Loc nD τ sig := (SparseCore.T d).loc main_v9_1
abbrev pLoc (d : Dev nD) : Loc nD τ sig := (SparseCore.T d).loc main_v10

abbrev cV (L : grid2.Coords) : Fin τ.nSC := (L 0).castLE hcore2
abbrev jV (L : grid2.Coords) : Fin τ.nSub := (L 1).castLE hsub2

abbrev eiM : Memref sig .scVector .hbm S12800000 .i32 := Memref.whole main_v0_scv
abbrev tfM : Memref sig .scVector .hbm S6400000 .f32 := Memref.whole main_v9_0_scv
abbrev tbM : Memref sig .scVector .hbm S6400000 .f32 := Memref.whole main_v9_1_scv
abbrev pM : Memref sig .scVector .hbm S3200000 .f32 := Memref.whole main_v10_scv
/-- A tile's scratch: the accumulator, the index block, the value block. -/
abbrev accM : Memref sig .scVector .vmem S100000 .f32 := Memref.whole cc2_scratch0
abbrev ibM : Memref sig .scVector .vmem S8000 .i32 := Memref.whole cc2_scratch1
abbrev vbM : Memref sig .scVector .vmem S8000 .f32 := Memref.whole cc2_scratch2

/-- The tile's slice of the partial-sums array, as the program slices it. -/
abbrev outRect (L : grid2.Coords) : Rect S3200000 := Rect.unit (s := S3200000) (k2_off12 L) S100000.size (k2_off12_inb L)
abbrev outM (L : grid2.Coords) : Memref sig .scVector .hbm S100000 .f32 := (pM).slice (outRect L) (fun _ => rfl)
abbrev outSet (L : grid2.Coords) : Finset S3200000.Idx := (outM L).view.set

/-- The read share of the three input arrays a tile is handed: one token of the full share per tile number. -/
abbrev rsh (L : grid2.Coords) : PosShare TreeShare := Transfers.shareTokN fullShare (widOf L)

/-- Grid coordinates from a SparseCore and a subcore number. -/
def coords (c : Fin 2) (i : Fin 16) : grid2.Coords := fun | 0 => c | 1 => i | ⟨_ + 2, h⟩ => absurd h (Nat.not_lt.2 (Nat.le_add_left _ _))

variable [FloatOps F]

/-! ## What one tile is handed and hands back; what one SparseCore is -/

/-- A tile's operands: read shares of the three inputs whole, and its slice of the partial sums at some contents. -/
def go1 (ei : S12800000.Idx → Elt F .i32) (tf tb : S6400000.Idx → Elt F .f32) (d : Dev nD) (L : grid2.Coords) : sProp 𝕄 :=
  iprop((eiLoc d ↦{rsh L} ei) ∗ (tfLoc d ↦{rsh L} tf) ∗ (tbLoc d ↦{rsh L} tb) ∗ ∃ f, pLoc d ↦[outSet L]{fullShare} f)

/-- A tile's results: the same read shares, and its slice of the partial sums at the fold of its chunk's edges. -/
def td1 (ei : S12800000.Idx → Elt F .i32) (tf tb : S6400000.Idx → Elt F .f32) (d : Dev nD) (L : grid2.Coords) : sProp 𝕄 :=
  iprop((eiLoc d ↦{rsh L} ei) ∗ (tfLoc d ↦{rsh L} tf) ∗ (tbLoc d ↦{rsh L} tb) ∗ pLoc d ↦[outSet L]{fullShare} specPart ei tf tb)

instance go1_storable (ei : S12800000.Idx → Elt F .i32) (tf tb : S6400000.Idx → Elt F .f32) (d : Dev nD) (L : grid2.Coords) :
    BI.Storable (upEmb : UEmb _ 𝕄) (go1 ei tf tb d L) := by unfold go1; infer_instance
instance td1_storable (ei : S12800000.Idx → Elt F .i32) (tf tb : S6400000.Idx → Elt F .f32) (d : Dev nD) (L : grid2.Coords) :
    BI.Storable (upEmb : UEmb _ 𝕄) (td1 ei tf tb d L) := by unfold td1; infer_instance

/-- One SparseCore's part: its sixteen tiles'. -/
def st1 (ei : S12800000.Idx → Elt F .i32) (tf tb : S6400000.Idx → Elt F .f32) (d : Dev nD) (c : Fin 2) : sProp 𝕄 :=
  bigSep Finset.univ fun i : Fin 16 => go1 ei tf tb d (coords c i)
def dn1 (ei : S12800000.Idx → Elt F .i32) (tf tb : S6400000.Idx → Elt F .f32) (d : Dev nD) (c : Fin 2) : sProp 𝕄 :=
  bigSep Finset.univ fun i : Fin 16 => td1 ei tf tb d (coords c i)

instance st1_storable (ei : S12800000.Idx → Elt F .i32) (tf tb : S6400000.Idx → Elt F .f32) (d : Dev nD) (c : Fin 2) :
    BI.Storable (upEmb : UEmb _ 𝕄) (st1 ei tf tb d c) := by unfold st1; infer_instance
instance dn1_storable (ei : S12800000.Idx → Elt F .i32) (tf tb : S6400000.Idx → Elt F .f32) (d : Dev nD) (c : Fin 2) :
    BI.Storable (upEmb : UEmb _ 𝕄) (dn1 ei tf tb d c) := by unfold dn1; infer_instance

theorem vecSplit1 (ei : S12800000.Idx → Elt F .i32) (tf tb : S6400000.Idx → Elt F .f32) (d : Dev nD) (c : Fin 2) :
    st1 ei tf tb d c ⊢ |={Set.univ}=> iprop((bigSep Finset.univ fun i : Fin 16 => go1 ei tf tb d (coords c i))
      ∗ ((bigSep Finset.univ fun i : Fin 16 => td1 ei tf tb d (coords c i)) -∗ dn1 ei tf tb d c)) := by
  unfold st1 dn1
  iintro H; imodintro
  isplitl [H]; · iexact H
  iintro H; iexact H

section Tile

variable (ei : S12800000.Idx → Elt F .i32) (tf tb : S6400000.Idx → Elt F .f32) (d : Dev nD) (L : grid2.Coords)

omit [FloatOps F] in
theorem pts_acc_whole (f : S100000.Idx → Elt F .f32) :
    (((accM).access (.whole S100000)).loc (V d (cV L) (jV L)) ↦[((accM).access (.whole S100000)).set]{fullShare} f : sProp 𝕄)
      = (accM.view.loc (V d (cV L) (jV L)) ↦{fullShare} f) := by
  rw [show ((accM).access (.whole S100000)).set = Finset.univ from Memref.set_access_whole (cc2_scratch0 : Ref sig .scVector)]

/-! ### The zero fill -/

def Zinv (fa : S100000.Idx → Elt F .f32) (k : ℕ) (_ : BitVec 32) : sProp 𝕄 := (accM.view.loc (V d (cV L) (jV L)) ↦{fullShare} zfill fa k)

theorem zero_region (fa : S100000.Idx → Elt F .f32) (k : Fin k2_t1_loop.trips) (acc : BitVec 32) :
    Zinv d L fa k acc ⊢ wp frame (wpE (defs₀ (F := F)) 𝒱₀ (V d (cV L) (jV L)) none) Set.univ (k2_t1_body L eiM (Memref.isWhole_whole _) tfM (Memref.isWhole_whole _) tbM (Memref.isWhole_whole _) pM (Memref.isWhole_whole _) accM (Memref.isWhole_whole _) ibM (Memref.isWhole_whole _) vbM (Memref.isWhole_whole _) cc2_scoped0 cc2_scoped1 cc2_scoped2 cc2_scoped3 cc2_scoped4 cc2_scoped5 cc2_scoped6 k acc) (Zinv d L fa (k.val + 1)) := by
  unfold Zinv k2_t1_body
  iintro Hacc
  sl_exec
  rw [wp_ret]; imodintro
  rw [zfill_step]
  iexact Hacc

/-! ### Sixteen edges: one indexed store with add -/

def Iinv (iw : ℕ → ℕ) (vw : ℕ → F .f32) (B : ℕ) (fi : S8000.Idx → Elt F .i32) (fv : S8000.Idx → Elt F .f32) (t : ℕ) (_ : BitVec 32) : sProp 𝕄 :=
  iprop((accM.view.loc (V d (cV L) (jV L)) ↦{fullShare} accFn iw vw (B + 16 * t)) ∗ (ibM.view.loc (V d (cV L) (jV L)) ↦{fullShare} fi) ∗ (vbM.view.loc (V d (cV L) (jV L)) ↦{fullShare} fv))

/-! ### Task 0: sixteen edges, and one block -/

theorem inner1_region (k2_h1 : k2_cond1 L = 1#1) (iw : ℕ → ℕ) (vw : ℕ → F .f32) (B : ℕ) (fi : S8000.Idx → Elt F .i32) (fv : S8000.Idx → Elt F .f32)
    (hlt : ∀ x, (fi x).toNat < 100000) (hfi : ∀ x : S8000.Idx, (fi x).toNat = iw (B + (x 0).val)) (hfv : ∀ x : S8000.Idx, fv x = vw (B + (x 0).val))
    (k : Fin k2_t3_loop.trips) (acc : BitVec 32) :
    Iinv d L iw vw B fi fv k acc ⊢ wp frame (wpE (defs₀ (F := F)) 𝒱₀ (V d (cV L) (jV L)) none) Set.univ (k2_t3_body L eiM (Memref.isWhole_whole _) tfM (Memref.isWhole_whole _) tbM (Memref.isWhole_whole _) pM (Memref.isWhole_whole _) accM (Memref.isWhole_whole _) ibM (Memref.isWhole_whole _) vbM (Memref.isWhole_whole _) cc2_scoped0 cc2_scoped1 cc2_scoped2 cc2_scoped3 cc2_scoped4 cc2_scoped5 cc2_scoped6 k2_h1 k acc) (Iinv d L iw vw B fi fv (k.val + 1)) := by
  unfold Iinv k2_t3_body
  iintro ⟨Hacc, Hib, Hvb⟩
  sl_exec
  have hoff : k2_off4 k 0 = 16 * k.val := by rw [k2_off4_eq]; rfl
  have hlt' : ∀ x : S16.Idx, ((View.readAt (Elt F) ibM.view (Rect.unit (s := S8000) (k2_off4 k) S16.size (k2_off4_inb L k k2_h1)).toLoadRect fi) x).toNat < 100000 := by
    intro x
    simp only [View.readAt_apply, Memref.view_whole, View.read_whole]
    exact hlt _
  have hchk : k2_chk1 L (View.readAt (Elt F) ibM.view (Rect.unit (s := S8000) (k2_off4 k) S16.size (k2_off4_inb L k k2_h1)).toLoadRect fi) := by
    intro _ a x
    obtain rfl : a = 0 := Subsingleton.elim _ _
    exact hlt' x
  have hiv : ∀ x : S16.Idx, ((View.readAt (Elt F) ibM.view (Rect.unit (s := S8000) (k2_off4 k) S16.size (k2_off4_inb L k k2_h1)).toLoadRect fi) x).toNat = iw (B + 16 * k.val + (x 0).val) := by
    intro x
    simp only [View.readAt_apply, Memref.view_whole, View.read_whole]
    rw [hfi]; congr 1
    show B + (k2_off4 k 0 + 1 * (x 0).val) = _
    rw [hoff]; omega
  have hv : ∀ x : S16.Idx, (View.readAt (Elt F) vbM.view (Rect.unit (s := S8000) (k2_off4 k) S16.size (k2_off4_inb L k k2_h1)).toLoadRect fv) x = vw (B + 16 * k.val + (x 0).val) := by
    intro x
    simp only [View.readAt_apply, Memref.view_whole, View.read_whole]
    rw [hfv]; congr 1
    show B + (k2_off4 k 0 + 1 * (x 0).val) = _
    rw [hoff]; omega
  rw [wp_assume_of _ _ _ _ hchk]
  ihave Hacc' := (Entails.of_eq (pts_acc_whole (F := F) d L _).symm) $$ Hacc
  iapply (SparseCore.wp_vectorStoreIdx 𝒱₀ (V d (cV L) (jV L)) none Set.univ (base := accM)) $$ Hacc'; iintro Hacc
  rw [acc_store, acc_read, storeIdx_accFn iw vw (B + 16 * k.val) _ _ _ hiv hv]
  ihave Hacc' := (Entails.of_eq (pts_acc_whole (F := F) d L _)) $$ Hacc
  have e : B + 16 * (k.val + 1) = B + 16 * k.val + 16 := by omega
  rw [e]
  sl_step
  isplitl [Hacc']; · iexact Hacc'
  isplitl [Hib]; · iexact Hib
  iexact Hvb

def Binv1 (O : CellTallies nD τ sig (HIx 2)) (W : Waits sig (HIx 2)) (b : ℕ) (_ : BitVec 32) : sProp 𝕄 :=
  iprop(Transfers.MayWaits (V d (cV L) (jV L)) (none : HIx 2) O ∗ (eiM.view.loc (V d (cV L) (jV L)) ↦{rsh L} ei) ∗ (tfM.view.loc (V d (cV L) (jV L)) ↦{rsh L} tf)
    ∗ (accM.view.loc (V d (cV L) (jV L)) ↦{fullShare} accFn (iwOf ei (widOf L)) (vwOf tf tb (widOf L)) (8000 * b))
    ∗ (∃ fi, ibM.view.loc (V d (cV L) (jV L)) ↦{fullShare} fi) ∗ (∃ fv, vbM.view.loc (V d (cV L) (jV L)) ↦{fullShare} fv)
    ∗ semVal ((V d (cV L) (jV L)), SemLoc.dma cc2_scoped0.sem) 0 ∗ semVal ((V d (cV L) (jV L)), SemLoc.dma cc2_scoped1.sem) 0
    ∗ ∃ W', ⌜∀ p ∈ W', p ∈ W ∨ p.2 = none⌝ ∗ owes (V d (cV L) (jV L)) O W')

theorem blk1_region (k2_h1 : k2_cond1 L = 1#1) (hk : widOf L / 8 = 0) (hidx : ∀ j, (ei j).toNat < 100000)
    (O : CellTallies nD τ sig (HIx 2)) (W : Waits sig (HIx 2)) (k : Fin k2_t2_loop.trips) (acc : BitVec 32) :
    Binv1 ei tf tb d L O W k acc ⊢ wp frame (wpE (defs₀ (F := F)) 𝒱₀ (V d (cV L) (jV L)) none) Set.univ (k2_t2_body L eiM (Memref.isWhole_whole _) tfM (Memref.isWhole_whole _) tbM (Memref.isWhole_whole _) pM (Memref.isWhole_whole _) accM (Memref.isWhole_whole _) ibM (Memref.isWhole_whole _) vbM (Memref.isWhole_whole _) cc2_scoped0 cc2_scoped1 cc2_scoped2 cc2_scoped3 cc2_scoped4 cc2_scoped5 cc2_scoped6 k2_h1 k acc) (Binv1 ei tf tb d L O W (k.val + 1)) := by
  unfold Binv1 k2_t2_body
  iintro ⟨#Hmw, Hei, Htf, Hacc, ⟨%fi, Hib⟩, ⟨%fv, Hvb⟩, Hs0, Hs1, %W', %hW', HO⟩
  sl_exec
  generalize hfi' : View.write (Elt F) ibM.view fi _ Finset.univ = fi'
  generalize hfv' : View.write (Elt F) vbM.view fv _ Finset.univ = fv'
  have hib : idxBase (widOf L) = 800000 * (widOf L % 8) := by unfold idxBase; rw [hk]; simp
  have hfi : ∀ x : S8000.Idx, (fi' x).toNat = (iwOf ei (widOf L)) (8000 * k.val + (x 0).val) := by
    intro x
    rw [← hfi']
    sl_unfold_run_names
    rw [ei_block_word]
    unfold iwOf
    rw [hib, k2_off2_eq]
    congr 1
    show 800000 * ((2 * (L 1).val + (L 0).val) % 8) + 8000 * k.val + (x 0).val = _
    unfold widOf; omega
  have hlt : ∀ x : S8000.Idx, (fi' x).toNat < 100000 := by
    intro x; rw [hfi]; exact eiN_lt ei hidx _
  have hfv : ∀ x : S8000.Idx, fv' x = (vwOf tf tb (widOf L)) (8000 * k.val + (x 0).val) := by
    intro x
    rw [← hfv']
    sl_unfold_run_names
    rw [tf_block_word]
    unfold vwOf valBase
    rw [if_pos hk, k2_off3_eq]
    congr 1
    show 800000 * ((2 * (L 1).val + (L 0).val) % 8) + 8000 * k.val + (x 0).val = _
    unfold widOf; omega
  sl_for (Iinv d L (iwOf ei (widOf L)) (vwOf tf tb (widOf L)) (8000 * k.val) fi' fv') $$ [Hacc Hib Hvb]
  case region => exact inner1_region d L k2_h1 (iwOf ei (widOf L)) (vwOf tf tb (widOf L)) (8000 * k.val) fi' fv' hlt hfi hfv
  · unfold Iinv
    rw [Nat.mul_zero, Nat.add_zero]
    isplitl [Hacc]; · iexact Hacc
    isplitl [Hib]; · iexact Hib
    iexact Hvb
  iintro %acc' HI
  unfold Iinv
  icases HI with ⟨Hacc, Hib, Hvb⟩
  rw [show Scf.trips k2_t3_loop.lb k2_t3_loop.ub k2_t3_loop.st = 500 from by decide]
  rw [show 8000 * k.val + 16 * 500 = 8000 * (k.val + 1) from by omega]
  sl_exec
  rw [wp_ret]; imodintro
  isplitr; · iexact Hmw
  isplitl [Hei]; · iexact Hei
  isplitl [Htf]; · iexact Htf
  isplitl [Hacc]; · iexact Hacc
  isplitl [Hib]; · iexists _; iexact Hib
  isplitl [Hvb]; · iexists _; iexact Hvb
  isplitl [Hs0]; · iexact Hs0
  isplitl [Hs1]; · iexact Hs1
  iexists (insert (SemLoc.dma cc2_scoped1.sem, (default : HIx 2)) (insert (SemLoc.dma cc2_scoped0.sem, (default : HIx 2)) W')); isplitr
  · ipureintro; intro p hp
    rcases Finset.mem_insert.mp hp with hp | hp
    · exact .inr (hp ▸ rfl)
    rcases Finset.mem_insert.mp hp with hp | hp
    · exact .inr (hp ▸ rfl)
    · exact hW' p hp
  · iexact HO

/-! ### Task 1: sixteen edges, and one block -/

theorem inner2_region (k2_h2 : k2_cond2 L = 1#1) (iw : ℕ → ℕ) (vw : ℕ → F .f32) (B : ℕ) (fi : S8000.Idx → Elt F .i32) (fv : S8000.Idx → Elt F .f32)
    (hlt : ∀ x, (fi x).toNat < 100000) (hfi : ∀ x : S8000.Idx, (fi x).toNat = iw (B + (x 0).val)) (hfv : ∀ x : S8000.Idx, fv x = vw (B + (x 0).val))
    (k : Fin k2_t5_loop.trips) (acc : BitVec 32) :
    Iinv d L iw vw B fi fv k acc ⊢ wp frame (wpE (defs₀ (F := F)) 𝒱₀ (V d (cV L) (jV L)) none) Set.univ (k2_t5_body L eiM (Memref.isWhole_whole _) tfM (Memref.isWhole_whole _) tbM (Memref.isWhole_whole _) pM (Memref.isWhole_whole _) accM (Memref.isWhole_whole _) ibM (Memref.isWhole_whole _) vbM (Memref.isWhole_whole _) cc2_scoped0 cc2_scoped1 cc2_scoped2 cc2_scoped3 cc2_scoped4 cc2_scoped5 cc2_scoped6 k2_h2 k acc) (Iinv d L iw vw B fi fv (k.val + 1)) := by
  unfold Iinv k2_t5_body
  iintro ⟨Hacc, Hib, Hvb⟩
  sl_exec
  have hoff : k2_off7 k 0 = 16 * k.val := by rw [k2_off7_eq]; rfl
  have hlt' : ∀ x : S16.Idx, ((View.readAt (Elt F) ibM.view (Rect.unit (s := S8000) (k2_off7 k) S16.size (k2_off7_inb L k k2_h2)).toLoadRect fi) x).toNat < 100000 := by
    intro x
    simp only [View.readAt_apply, Memref.view_whole, View.read_whole]
    exact hlt _
  have hchk : k2_chk2 L (View.readAt (Elt F) ibM.view (Rect.unit (s := S8000) (k2_off7 k) S16.size (k2_off7_inb L k k2_h2)).toLoadRect fi) := by
    intro _ a x
    obtain rfl : a = 0 := Subsingleton.elim _ _
    exact hlt' x
  have hiv : ∀ x : S16.Idx, ((View.readAt (Elt F) ibM.view (Rect.unit (s := S8000) (k2_off7 k) S16.size (k2_off7_inb L k k2_h2)).toLoadRect fi) x).toNat = iw (B + 16 * k.val + (x 0).val) := by
    intro x
    simp only [View.readAt_apply, Memref.view_whole, View.read_whole]
    rw [hfi]; congr 1
    show B + (k2_off7 k 0 + 1 * (x 0).val) = _
    rw [hoff]; omega
  have hv : ∀ x : S16.Idx, (View.readAt (Elt F) vbM.view (Rect.unit (s := S8000) (k2_off7 k) S16.size (k2_off7_inb L k k2_h2)).toLoadRect fv) x = vw (B + 16 * k.val + (x 0).val) := by
    intro x
    simp only [View.readAt_apply, Memref.view_whole, View.read_whole]
    rw [hfv]; congr 1
    show B + (k2_off7 k 0 + 1 * (x 0).val) = _
    rw [hoff]; omega
  rw [wp_assume_of _ _ _ _ hchk]
  ihave Hacc' := (Entails.of_eq (pts_acc_whole (F := F) d L _).symm) $$ Hacc
  iapply (SparseCore.wp_vectorStoreIdx 𝒱₀ (V d (cV L) (jV L)) none Set.univ (base := accM)) $$ Hacc'; iintro Hacc
  rw [acc_store, acc_read, storeIdx_accFn iw vw (B + 16 * k.val) _ _ _ hiv hv]
  ihave Hacc' := (Entails.of_eq (pts_acc_whole (F := F) d L _)) $$ Hacc
  have e : B + 16 * (k.val + 1) = B + 16 * k.val + 16 := by omega
  rw [e]
  sl_step
  isplitl [Hacc']; · iexact Hacc'
  isplitl [Hib]; · iexact Hib
  iexact Hvb

def Binv2 (O : CellTallies nD τ sig (HIx 2)) (W : Waits sig (HIx 2)) (b : ℕ) (_ : BitVec 32) : sProp 𝕄 :=
  iprop(Transfers.MayWaits (V d (cV L) (jV L)) (none : HIx 2) O ∗ (eiM.view.loc (V d (cV L) (jV L)) ↦{rsh L} ei) ∗ (tbM.view.loc (V d (cV L) (jV L)) ↦{rsh L} tb)
    ∗ (accM.view.loc (V d (cV L) (jV L)) ↦{fullShare} accFn (iwOf ei (widOf L)) (vwOf tf tb (widOf L)) (8000 * b))
    ∗ (∃ fi, ibM.view.loc (V d (cV L) (jV L)) ↦{fullShare} fi) ∗ (∃ fv, vbM.view.loc (V d (cV L) (jV L)) ↦{fullShare} fv)
    ∗ semVal ((V d (cV L) (jV L)), SemLoc.dma cc2_scoped2.sem) 0 ∗ semVal ((V d (cV L) (jV L)), SemLoc.dma cc2_scoped3.sem) 0
    ∗ ∃ W', ⌜∀ p ∈ W', p ∈ W ∨ p.2 = none⌝ ∗ owes (V d (cV L) (jV L)) O W')

theorem blk2_region (k2_h2 : k2_cond2 L = 1#1) (hk : widOf L / 8 = 1) (hidx : ∀ j, (ei j).toNat < 100000)
    (O : CellTallies nD τ sig (HIx 2)) (W : Waits sig (HIx 2)) (k : Fin k2_t4_loop.trips) (acc : BitVec 32) :
    Binv2 ei tf tb d L O W k acc ⊢ wp frame (wpE (defs₀ (F := F)) 𝒱₀ (V d (cV L) (jV L)) none) Set.univ (k2_t4_body L eiM (Memref.isWhole_whole _) tfM (Memref.isWhole_whole _) tbM (Memref.isWhole_whole _) pM (Memref.isWhole_whole _) accM (Memref.isWhole_whole _) ibM (Memref.isWhole_whole _) vbM (Memref.isWhole_whole _) cc2_scoped0 cc2_scoped1 cc2_scoped2 cc2_scoped3 cc2_scoped4 cc2_scoped5 cc2_scoped6 k2_h2 k acc) (Binv2 ei tf tb d L O W (k.val + 1)) := by
  unfold Binv2 k2_t4_body
  iintro ⟨#Hmw, Hei, Htf, Hacc, ⟨%fi, Hib⟩, ⟨%fv, Hvb⟩, Hs0, Hs1, %W', %hW', HO⟩
  sl_exec
  generalize hfi' : View.write (Elt F) ibM.view fi _ Finset.univ = fi'
  generalize hfv' : View.write (Elt F) vbM.view fv _ Finset.univ = fv'
  have hib : idxBase (widOf L) = 6400000 + 800000 * (widOf L % 8) := by unfold idxBase; rw [hk]; simp
  have hfi : ∀ x : S8000.Idx, (fi' x).toNat = (iwOf ei (widOf L)) (8000 * k.val + (x 0).val) := by
    intro x
    rw [← hfi']
    sl_unfold_run_names
    rw [ei_block_word]
    unfold iwOf
    rw [hib, k2_off5_eq]
    congr 1
    show 800000 * ((2 * (L 1).val + (L 0).val) % 8) + 8000 * k.val + 6400000 + (x 0).val = _
    unfold widOf; omega
  have hlt : ∀ x : S8000.Idx, (fi' x).toNat < 100000 := by
    intro x; rw [hfi]; exact eiN_lt ei hidx _
  have hfv : ∀ x : S8000.Idx, fv' x = (vwOf tf tb (widOf L)) (8000 * k.val + (x 0).val) := by
    intro x
    rw [← hfv']
    sl_unfold_run_names
    rw [tb_block_word]
    unfold vwOf valBase
    rw [if_neg (by omega), if_pos hk, k2_off6_eq]
    congr 1
    show 800000 * ((2 * (L 1).val + (L 0).val) % 8) + 8000 * k.val + (x 0).val = _
    unfold widOf; omega
  sl_for (Iinv d L (iwOf ei (widOf L)) (vwOf tf tb (widOf L)) (8000 * k.val) fi' fv') $$ [Hacc Hib Hvb]
  case region => exact inner2_region d L k2_h2 (iwOf ei (widOf L)) (vwOf tf tb (widOf L)) (8000 * k.val) fi' fv' hlt hfi hfv
  · unfold Iinv
    rw [Nat.mul_zero, Nat.add_zero]
    isplitl [Hacc]; · iexact Hacc
    isplitl [Hib]; · iexact Hib
    iexact Hvb
  iintro %acc' HI
  unfold Iinv
  icases HI with ⟨Hacc, Hib, Hvb⟩
  rw [show Scf.trips k2_t5_loop.lb k2_t5_loop.ub k2_t5_loop.st = 500 from by decide]
  rw [show 8000 * k.val + 16 * 500 = 8000 * (k.val + 1) from by omega]
  sl_exec
  rw [wp_ret]; imodintro
  isplitr; · iexact Hmw
  isplitl [Hei]; · iexact Hei
  isplitl [Htf]; · iexact Htf
  isplitl [Hacc]; · iexact Hacc
  isplitl [Hib]; · iexists _; iexact Hib
  isplitl [Hvb]; · iexists _; iexact Hvb
  isplitl [Hs0]; · iexact Hs0
  isplitl [Hs1]; · iexact Hs1
  iexists (insert (SemLoc.dma cc2_scoped3.sem, (default : HIx 2)) (insert (SemLoc.dma cc2_scoped2.sem, (default : HIx 2)) W')); isplitr
  · ipureintro; intro p hp
    rcases Finset.mem_insert.mp hp with hp | hp
    · exact .inr (hp ▸ rfl)
    rcases Finset.mem_insert.mp hp with hp | hp
    · exact .inr (hp ▸ rfl)
    · exact hW' p hp
  · iexact HO

/-! ### Task 2: sixteen edges, and one block -/

theorem inner3_region (k2_h3 : k2_cond3 L = 1#1) (v31 : FVec F S16 .f32) (hv31 : ∀ x, v31 x = fone) (iw : ℕ → ℕ) (vw : ℕ → F .f32) (B : ℕ) (fi : S8000.Idx → Elt F .i32) (fv : S8000.Idx → Elt F .f32)
    (hlt : ∀ x, (fi x).toNat < 100000) (hfi : ∀ x : S8000.Idx, (fi x).toNat = iw (B + (x 0).val)) (hvw : ∀ e, vw e = fone)
    (k : Fin k2_t7_loop.trips) (acc : BitVec 32) :
    Iinv d L iw vw B fi fv k acc ⊢ wp frame (wpE (defs₀ (F := F)) 𝒱₀ (V d (cV L) (jV L)) none) Set.univ (k2_t7_body L eiM (Memref.isWhole_whole _) tfM (Memref.isWhole_whole _) tbM (Memref.isWhole_whole _) pM (Memref.isWhole_whole _) accM (Memref.isWhole_whole _) ibM (Memref.isWhole_whole _) vbM (Memref.isWhole_whole _) cc2_scoped0 cc2_scoped1 cc2_scoped2 cc2_scoped3 cc2_scoped4 cc2_scoped5 cc2_scoped6 v31 k2_h3 k acc) (Iinv d L iw vw B fi fv (k.val + 1)) := by
  unfold Iinv k2_t7_body
  iintro ⟨Hacc, Hib, Hvb⟩
  sl_exec
  have hoff : k2_off9 k 0 = 16 * k.val := by rw [k2_off9_eq]; rfl
  have hlt' : ∀ x : S16.Idx, ((View.readAt (Elt F) ibM.view (Rect.unit (s := S8000) (k2_off9 k) S16.size (k2_off9_inb L k k2_h3)).toLoadRect fi) x).toNat < 100000 := by
    intro x
    simp only [View.readAt_apply, Memref.view_whole, View.read_whole]
    exact hlt _
  have hchk : k2_chk3 L (View.readAt (Elt F) ibM.view (Rect.unit (s := S8000) (k2_off9 k) S16.size (k2_off9_inb L k k2_h3)).toLoadRect fi) := by
    intro _ a x
    obtain rfl : a = 0 := Subsingleton.elim _ _
    exact hlt' x
  have hiv : ∀ x : S16.Idx, ((View.readAt (Elt F) ibM.view (Rect.unit (s := S8000) (k2_off9 k) S16.size (k2_off9_inb L k k2_h3)).toLoadRect fi) x).toNat = iw (B + 16 * k.val + (x 0).val) := by
    intro x
    simp only [View.readAt_apply, Memref.view_whole, View.read_whole]
    rw [hfi]; congr 1
    show B + (k2_off9 k 0 + 1 * (x 0).val) = _
    rw [hoff]; omega
  have hv : ∀ x : S16.Idx, v31 x = vw (B + 16 * k.val + (x 0).val) := fun x => (hv31 x).trans (hvw _).symm
  rw [wp_assume_of _ _ _ _ hchk]
  ihave Hacc' := (Entails.of_eq (pts_acc_whole (F := F) d L _).symm) $$ Hacc
  iapply (SparseCore.wp_vectorStoreIdx 𝒱₀ (V d (cV L) (jV L)) none Set.univ (base := accM)) $$ Hacc'; iintro Hacc
  rw [acc_store, acc_read, storeIdx_accFn iw vw (B + 16 * k.val) _ _ _ hiv hv]
  ihave Hacc' := (Entails.of_eq (pts_acc_whole (F := F) d L _)) $$ Hacc
  have e : B + 16 * (k.val + 1) = B + 16 * k.val + 16 := by omega
  rw [e]
  sl_step
  isplitl [Hacc']; · iexact Hacc'
  isplitl [Hib]; · iexact Hib
  iexact Hvb

def Binv3 (O : CellTallies nD τ sig (HIx 2)) (W : Waits sig (HIx 2)) (b : ℕ) (_ : BitVec 32) : sProp 𝕄 :=
  iprop(Transfers.MayWaits (V d (cV L) (jV L)) (none : HIx 2) O ∗ (eiM.view.loc (V d (cV L) (jV L)) ↦{rsh L} ei)
    ∗ (accM.view.loc (V d (cV L) (jV L)) ↦{fullShare} accFn (iwOf ei (widOf L)) (vwOf tf tb (widOf L)) (8000 * b))
    ∗ (∃ fi, ibM.view.loc (V d (cV L) (jV L)) ↦{fullShare} fi) ∗ (∃ fv, vbM.view.loc (V d (cV L) (jV L)) ↦{fullShare} fv)
    ∗ semVal ((V d (cV L) (jV L)), SemLoc.dma cc2_scoped4.sem) 0
    ∗ ∃ W', ⌜∀ p ∈ W', p ∈ W ∨ p.2 = none⌝ ∗ owes (V d (cV L) (jV L)) O W')

theorem blk3_region (k2_h3 : k2_cond3 L = 1#1) (v31 : FVec F S16 .f32) (hv31 : ∀ x, v31 x = fone) (hk : widOf L / 8 = 2) (hidx : ∀ j, (ei j).toNat < 100000)
    (O : CellTallies nD τ sig (HIx 2)) (W : Waits sig (HIx 2)) (k : Fin k2_t6_loop.trips) (acc : BitVec 32) :
    Binv3 ei tf tb d L O W k acc ⊢ wp frame (wpE (defs₀ (F := F)) 𝒱₀ (V d (cV L) (jV L)) none) Set.univ (k2_t6_body L eiM (Memref.isWhole_whole _) tfM (Memref.isWhole_whole _) tbM (Memref.isWhole_whole _) pM (Memref.isWhole_whole _) accM (Memref.isWhole_whole _) ibM (Memref.isWhole_whole _) vbM (Memref.isWhole_whole _) cc2_scoped0 cc2_scoped1 cc2_scoped2 cc2_scoped3 cc2_scoped4 cc2_scoped5 cc2_scoped6 v31 k2_h3 k acc) (Binv3 ei tf tb d L O W (k.val + 1)) := by
  unfold Binv3 k2_t6_body
  iintro ⟨#Hmw, Hei, Hacc, ⟨%fi, Hib⟩, ⟨%fv, Hvb⟩, Hs0, %W', %hW', HO⟩
  sl_exec
  generalize hfi' : View.write (Elt F) ibM.view fi _ Finset.univ = fi'

  have hib : idxBase (widOf L) = 800000 * (widOf L % 8) := by unfold idxBase; rw [hk]; simp
  have hfi : ∀ x : S8000.Idx, (fi' x).toNat = (iwOf ei (widOf L)) (8000 * k.val + (x 0).val) := by
    intro x
    rw [← hfi']
    sl_unfold_run_names
    rw [ei_block_word]
    unfold iwOf
    rw [hib, k2_off8_eq]
    congr 1
    show 800000 * ((2 * (L 1).val + (L 0).val) % 8) + 8000 * k.val + (x 0).val = _
    unfold widOf; omega
  have hlt : ∀ x : S8000.Idx, (fi' x).toNat < 100000 := by
    intro x; rw [hfi]; exact eiN_lt ei hidx _
  have hvw : ∀ e, (vwOf tf tb (widOf L)) e = fone := by
    intro e; unfold vwOf; rw [if_neg (by omega), if_neg (by omega)]
  sl_for (Iinv d L (iwOf ei (widOf L)) (vwOf tf tb (widOf L)) (8000 * k.val) fi' fv) $$ [Hacc Hib Hvb]
  case region => exact inner3_region d L k2_h3 v31 hv31 (iwOf ei (widOf L)) (vwOf tf tb (widOf L)) (8000 * k.val) fi' fv hlt hfi hvw
  · unfold Iinv
    rw [Nat.mul_zero, Nat.add_zero]
    isplitl [Hacc]; · iexact Hacc
    isplitl [Hib]; · iexact Hib
    iexact Hvb
  iintro %acc' HI
  unfold Iinv
  icases HI with ⟨Hacc, Hib, Hvb⟩
  rw [show Scf.trips k2_t7_loop.lb k2_t7_loop.ub k2_t7_loop.st = 500 from by decide]
  rw [show 8000 * k.val + 16 * 500 = 8000 * (k.val + 1) from by omega]
  sl_exec
  rw [wp_ret]; imodintro
  isplitr; · iexact Hmw
  isplitl [Hei]; · iexact Hei
  isplitl [Hacc]; · iexact Hacc
  isplitl [Hib]; · iexists _; iexact Hib
  isplitl [Hvb]; · iexists _; iexact Hvb
  isplitl [Hs0]; · iexact Hs0
  iexists (insert (SemLoc.dma cc2_scoped4.sem, (default : HIx 2)) W'); isplitr
  · ipureintro; intro p hp
    rcases Finset.mem_insert.mp hp with hp | hp
    · exact .inr (hp ▸ rfl)
    · exact hW' p hp
  · iexact HO

/-! ### Task 3: sixteen edges, and one block -/

theorem inner4_region (k2_h4 : k2_cond4 L = 1#1) (v31 : FVec F S16 .f32) (hv31 : ∀ x, v31 x = fone) (iw : ℕ → ℕ) (vw : ℕ → F .f32) (B : ℕ) (fi : S8000.Idx → Elt F .i32) (fv : S8000.Idx → Elt F .f32)
    (hlt : ∀ x, (fi x).toNat < 100000) (hfi : ∀ x : S8000.Idx, (fi x).toNat = iw (B + (x 0).val)) (hvw : ∀ e, vw e = fone)
    (k : Fin k2_t9_loop.trips) (acc : BitVec 32) :
    Iinv d L iw vw B fi fv k acc ⊢ wp frame (wpE (defs₀ (F := F)) 𝒱₀ (V d (cV L) (jV L)) none) Set.univ (k2_t9_body L eiM (Memref.isWhole_whole _) tfM (Memref.isWhole_whole _) tbM (Memref.isWhole_whole _) pM (Memref.isWhole_whole _) accM (Memref.isWhole_whole _) ibM (Memref.isWhole_whole _) vbM (Memref.isWhole_whole _) cc2_scoped0 cc2_scoped1 cc2_scoped2 cc2_scoped3 cc2_scoped4 cc2_scoped5 cc2_scoped6 v31 k2_h4 k acc) (Iinv d L iw vw B fi fv (k.val + 1)) := by
  unfold Iinv k2_t9_body
  iintro ⟨Hacc, Hib, Hvb⟩
  sl_exec
  have hoff : k2_off11 k 0 = 16 * k.val := by rw [k2_off11_eq]; rfl
  have hlt' : ∀ x : S16.Idx, ((View.readAt (Elt F) ibM.view (Rect.unit (s := S8000) (k2_off11 k) S16.size (k2_off11_inb L k k2_h4)).toLoadRect fi) x).toNat < 100000 := by
    intro x
    simp only [View.readAt_apply, Memref.view_whole, View.read_whole]
    exact hlt _
  have hchk : k2_chk4 L (View.readAt (Elt F) ibM.view (Rect.unit (s := S8000) (k2_off11 k) S16.size (k2_off11_inb L k k2_h4)).toLoadRect fi) := by
    intro _ a x
    obtain rfl : a = 0 := Subsingleton.elim _ _
    exact hlt' x
  have hiv : ∀ x : S16.Idx, ((View.readAt (Elt F) ibM.view (Rect.unit (s := S8000) (k2_off11 k) S16.size (k2_off11_inb L k k2_h4)).toLoadRect fi) x).toNat = iw (B + 16 * k.val + (x 0).val) := by
    intro x
    simp only [View.readAt_apply, Memref.view_whole, View.read_whole]
    rw [hfi]; congr 1
    show B + (k2_off11 k 0 + 1 * (x 0).val) = _
    rw [hoff]; omega
  have hv : ∀ x : S16.Idx, v31 x = vw (B + 16 * k.val + (x 0).val) := fun x => (hv31 x).trans (hvw _).symm
  rw [wp_assume_of _ _ _ _ hchk]
  ihave Hacc' := (Entails.of_eq (pts_acc_whole (F := F) d L _).symm) $$ Hacc
  iapply (SparseCore.wp_vectorStoreIdx 𝒱₀ (V d (cV L) (jV L)) none Set.univ (base := accM)) $$ Hacc'; iintro Hacc
  rw [acc_store, acc_read, storeIdx_accFn iw vw (B + 16 * k.val) _ _ _ hiv hv]
  ihave Hacc' := (Entails.of_eq (pts_acc_whole (F := F) d L _)) $$ Hacc
  have e : B + 16 * (k.val + 1) = B + 16 * k.val + 16 := by omega
  rw [e]
  sl_step
  isplitl [Hacc']; · iexact Hacc'
  isplitl [Hib]; · iexact Hib
  iexact Hvb

def Binv4 (O : CellTallies nD τ sig (HIx 2)) (W : Waits sig (HIx 2)) (b : ℕ) (_ : BitVec 32) : sProp 𝕄 :=
  iprop(Transfers.MayWaits (V d (cV L) (jV L)) (none : HIx 2) O ∗ (eiM.view.loc (V d (cV L) (jV L)) ↦{rsh L} ei)
    ∗ (accM.view.loc (V d (cV L) (jV L)) ↦{fullShare} accFn (iwOf ei (widOf L)) (vwOf tf tb (widOf L)) (8000 * b))
    ∗ (∃ fi, ibM.view.loc (V d (cV L) (jV L)) ↦{fullShare} fi) ∗ (∃ fv, vbM.view.loc (V d (cV L) (jV L)) ↦{fullShare} fv)
    ∗ semVal ((V d (cV L) (jV L)), SemLoc.dma cc2_scoped5.sem) 0
    ∗ ∃ W', ⌜∀ p ∈ W', p ∈ W ∨ p.2 = none⌝ ∗ owes (V d (cV L) (jV L)) O W')

theorem blk4_region (k2_h4 : k2_cond4 L = 1#1) (v31 : FVec F S16 .f32) (hv31 : ∀ x, v31 x = fone) (hk : widOf L / 8 = 3) (hidx : ∀ j, (ei j).toNat < 100000)
    (O : CellTallies nD τ sig (HIx 2)) (W : Waits sig (HIx 2)) (k : Fin k2_t8_loop.trips) (acc : BitVec 32) :
    Binv4 ei tf tb d L O W k acc ⊢ wp frame (wpE (defs₀ (F := F)) 𝒱₀ (V d (cV L) (jV L)) none) Set.univ (k2_t8_body L eiM (Memref.isWhole_whole _) tfM (Memref.isWhole_whole _) tbM (Memref.isWhole_whole _) pM (Memref.isWhole_whole _) accM (Memref.isWhole_whole _) ibM (Memref.isWhole_whole _) vbM (Memref.isWhole_whole _) cc2_scoped0 cc2_scoped1 cc2_scoped2 cc2_scoped3 cc2_scoped4 cc2_scoped5 cc2_scoped6 v31 k2_h4 k acc) (Binv4 ei tf tb d L O W (k.val + 1)) := by
  unfold Binv4 k2_t8_body
  iintro ⟨#Hmw, Hei, Hacc, ⟨%fi, Hib⟩, ⟨%fv, Hvb⟩, Hs0, %W', %hW', HO⟩
  sl_exec
  generalize hfi' : View.write (Elt F) ibM.view fi _ Finset.univ = fi'

  have hib : idxBase (widOf L) = 6400000 + 800000 * (widOf L % 8) := by unfold idxBase; rw [hk]; simp
  have hfi : ∀ x : S8000.Idx, (fi' x).toNat = (iwOf ei (widOf L)) (8000 * k.val + (x 0).val) := by
    intro x
    rw [← hfi']
    sl_unfold_run_names
    rw [ei_block_word]
    unfold iwOf
    rw [hib, k2_off10_eq]
    congr 1
    show 800000 * ((2 * (L 1).val + (L 0).val) % 8) + 8000 * k.val + 6400000 + (x 0).val = _
    unfold widOf; omega
  have hlt : ∀ x : S8000.Idx, (fi' x).toNat < 100000 := by
    intro x; rw [hfi]; exact eiN_lt ei hidx _
  have hvw : ∀ e, (vwOf tf tb (widOf L)) e = fone := by
    intro e; unfold vwOf; rw [if_neg (by omega), if_neg (by omega)]
  sl_for (Iinv d L (iwOf ei (widOf L)) (vwOf tf tb (widOf L)) (8000 * k.val) fi' fv) $$ [Hacc Hib Hvb]
  case region => exact inner4_region d L k2_h4 v31 hv31 (iwOf ei (widOf L)) (vwOf tf tb (widOf L)) (8000 * k.val) fi' fv hlt hfi hvw
  · unfold Iinv
    rw [Nat.mul_zero, Nat.add_zero]
    isplitl [Hacc]; · iexact Hacc
    isplitl [Hib]; · iexact Hib
    iexact Hvb
  iintro %acc' HI
  unfold Iinv
  icases HI with ⟨Hacc, Hib, Hvb⟩
  rw [show Scf.trips k2_t9_loop.lb k2_t9_loop.ub k2_t9_loop.st = 500 from by decide]
  rw [show 8000 * k.val + 16 * 500 = 8000 * (k.val + 1) from by omega]
  sl_exec
  rw [wp_ret]; imodintro
  isplitr; · iexact Hmw
  isplitl [Hei]; · iexact Hei
  isplitl [Hacc]; · iexact Hacc
  isplitl [Hib]; · iexists _; iexact Hib
  isplitl [Hvb]; · iexists _; iexact Hvb
  isplitl [Hs0]; · iexact Hs0
  iexists (insert (SemLoc.dma cc2_scoped5.sem, (default : HIx 2)) W'); isplitr
  · ipureintro; intro p hp
    rcases Finset.mem_insert.mp hp with hp | hp
    · exact .inr (hp ▸ rfl)
    · exact hW' p hp
  · iexact HO

omit [FloatOps F] in
theorem cell_ne (d : Dev nD) (L : grid2.Coords) {a b : DmaSem sig} (h : a ≠ b) :
    ((V d (cV L) (jV L), SemLoc.dma a) : GSem nD τ sig) ≠ (V d (cV L) (jV L), SemLoc.dma b) :=
  fun e => h (SemLoc.dma.inj (Prod.mk.inj e).2)

omit [FloatOps F] in
/-- The seven transfer semaphores of the call are among the tile's own: they are them, at zero, and the rest. -/
theorem ownSems0_V1 (d : Dev nD) (L : grid2.Coords) :
    (ownSems0 (V d (cV L) (jV L)) : sProp 𝕄)
      = iprop(semVal ((V d (cV L) (jV L), SemLoc.dma cc2_scoped0.sem) : GSem nD τ sig) 0 ∗ semVal ((V d (cV L) (jV L), SemLoc.dma cc2_scoped1.sem) : GSem nD τ sig) 0 ∗ semVal ((V d (cV L) (jV L), SemLoc.dma cc2_scoped2.sem) : GSem nD τ sig) 0 ∗ semVal ((V d (cV L) (jV L), SemLoc.dma cc2_scoped3.sem) : GSem nD τ sig) 0 ∗ semVal ((V d (cV L) (jV L), SemLoc.dma cc2_scoped4.sem) : GSem nD τ sig) 0 ∗ semVal ((V d (cV L) (jV L), SemLoc.dma cc2_scoped5.sem) : GSem nD τ sig) 0 ∗ semVal ((V d (cV L) (jV L), SemLoc.dma cc2_scoped6.sem) : GSem nD τ sig) 0
          ∗ bigSep ((((((((ownCells (V d (cV L) (jV L))).erase ((V d (cV L) (jV L), SemLoc.dma cc2_scoped0.sem) : GSem nD τ sig)).erase ((V d (cV L) (jV L), SemLoc.dma cc2_scoped1.sem) : GSem nD τ sig)).erase ((V d (cV L) (jV L), SemLoc.dma cc2_scoped2.sem) : GSem nD τ sig)).erase ((V d (cV L) (jV L), SemLoc.dma cc2_scoped3.sem) : GSem nD τ sig)).erase ((V d (cV L) (jV L), SemLoc.dma cc2_scoped4.sem) : GSem nD τ sig)).erase ((V d (cV L) (jV L), SemLoc.dma cc2_scoped5.sem) : GSem nD τ sig)).erase ((V d (cV L) (jV L), SemLoc.dma cc2_scoped6.sem) : GSem nD τ sig)) fun g => semVal g 0) := by
  unfold SparseCore.Cfg.ownSems0
  rw [SparseCore.bigSep_erase' ((mem_ownCells (g := ((V d (cV L) (jV L), SemLoc.dma cc2_scoped0.sem) : GSem nD τ sig))).mpr ⟨rfl, by show (SemLoc.dma cc2_scoped0.sem : SemLoc sig).isScoped .scVector = true; decide⟩),
    SparseCore.bigSep_erase' (Finset.mem_erase.mpr ⟨cell_ne d L (show (cc2_scoped1.sem : DmaSem sig) ≠ cc2_scoped0.sem by decide), (mem_ownCells (g := ((V d (cV L) (jV L), SemLoc.dma cc2_scoped1.sem) : GSem nD τ sig))).mpr ⟨rfl, by show (SemLoc.dma cc2_scoped1.sem : SemLoc sig).isScoped .scVector = true; decide⟩⟩),
    SparseCore.bigSep_erase' (Finset.mem_erase.mpr ⟨cell_ne d L (show (cc2_scoped2.sem : DmaSem sig) ≠ cc2_scoped1.sem by decide), Finset.mem_erase.mpr ⟨cell_ne d L (show (cc2_scoped2.sem : DmaSem sig) ≠ cc2_scoped0.sem by decide), (mem_ownCells (g := ((V d (cV L) (jV L), SemLoc.dma cc2_scoped2.sem) : GSem nD τ sig))).mpr ⟨rfl, by show (SemLoc.dma cc2_scoped2.sem : SemLoc sig).isScoped .scVector = true; decide⟩⟩⟩),
    SparseCore.bigSep_erase' (Finset.mem_erase.mpr ⟨cell_ne d L (show (cc2_scoped3.sem : DmaSem sig) ≠ cc2_scoped2.sem by decide), Finset.mem_erase.mpr ⟨cell_ne d L (show (cc2_scoped3.sem : DmaSem sig) ≠ cc2_scoped1.sem by decide), Finset.mem_erase.mpr ⟨cell_ne d L (show (cc2_scoped3.sem : DmaSem sig) ≠ cc2_scoped0.sem by decide), (mem_ownCells (g := ((V d (cV L) (jV L), SemLoc.dma cc2_scoped3.sem) : GSem nD τ sig))).mpr ⟨rfl, by show (SemLoc.dma cc2_scoped3.sem : SemLoc sig).isScoped .scVector = true; decide⟩⟩⟩⟩),
    SparseCore.bigSep_erase' (Finset.mem_erase.mpr ⟨cell_ne d L (show (cc2_scoped4.sem : DmaSem sig) ≠ cc2_scoped3.sem by decide), Finset.mem_erase.mpr ⟨cell_ne d L (show (cc2_scoped4.sem : DmaSem sig) ≠ cc2_scoped2.sem by decide), Finset.mem_erase.mpr ⟨cell_ne d L (show (cc2_scoped4.sem : DmaSem sig) ≠ cc2_scoped1.sem by decide), Finset.mem_erase.mpr ⟨cell_ne d L (show (cc2_scoped4.sem : DmaSem sig) ≠ cc2_scoped0.sem by decide), (mem_ownCells (g := ((V d (cV L) (jV L), SemLoc.dma cc2_scoped4.sem) : GSem nD τ sig))).mpr ⟨rfl, by show (SemLoc.dma cc2_scoped4.sem : SemLoc sig).isScoped .scVector = true; decide⟩⟩⟩⟩⟩),
    SparseCore.bigSep_erase' (Finset.mem_erase.mpr ⟨cell_ne d L (show (cc2_scoped5.sem : DmaSem sig) ≠ cc2_scoped4.sem by decide), Finset.mem_erase.mpr ⟨cell_ne d L (show (cc2_scoped5.sem : DmaSem sig) ≠ cc2_scoped3.sem by decide), Finset.mem_erase.mpr ⟨cell_ne d L (show (cc2_scoped5.sem : DmaSem sig) ≠ cc2_scoped2.sem by decide), Finset.mem_erase.mpr ⟨cell_ne d L (show (cc2_scoped5.sem : DmaSem sig) ≠ cc2_scoped1.sem by decide), Finset.mem_erase.mpr ⟨cell_ne d L (show (cc2_scoped5.sem : DmaSem sig) ≠ cc2_scoped0.sem by decide), (mem_ownCells (g := ((V d (cV L) (jV L), SemLoc.dma cc2_scoped5.sem) : GSem nD τ sig))).mpr ⟨rfl, by show (SemLoc.dma cc2_scoped5.sem : SemLoc sig).isScoped .scVector = true; decide⟩⟩⟩⟩⟩⟩),
    SparseCore.bigSep_erase' (Finset.mem_erase.mpr ⟨cell_ne d L (show (cc2_scoped6.sem : DmaSem sig) ≠ cc2_scoped5.sem by decide), Finset.mem_erase.mpr ⟨cell_ne d L (show (cc2_scoped6.sem : DmaSem sig) ≠ cc2_scoped4.sem by decide), Finset.mem_erase.mpr ⟨cell_ne d L (show (cc2_scoped6.sem : DmaSem sig) ≠ cc2_scoped3.sem by decide), Finset.mem_erase.mpr ⟨cell_ne d L (show (cc2_scoped6.sem : DmaSem sig) ≠ cc2_scoped2.sem by decide), Finset.mem_erase.mpr ⟨cell_ne d L (show (cc2_scoped6.sem : DmaSem sig) ≠ cc2_scoped1.sem by decide), Finset.mem_erase.mpr ⟨cell_ne d L (show (cc2_scoped6.sem : DmaSem sig) ≠ cc2_scoped0.sem by decide), (mem_ownCells (g := ((V d (cV L) (jV L), SemLoc.dma cc2_scoped6.sem) : GSem nD τ sig))).mpr ⟨rfl, by show (SemLoc.dma cc2_scoped6.sem : SemLoc sig).isScoped .scVector = true; decide⟩⟩⟩⟩⟩⟩⟩)]

omit [FloatOps F] in
/-- The three scratch buffers of the call are among the tile's own: they are them, at some contents, and the rest. -/
theorem ownBufs_V1 (d : Dev nD) (L : grid2.Coords) :
    (ownBufs (V d (cV L) (jV L)) : sProp 𝕄)
      = iprop((∃ f, (V d (cV L) (jV L)).loc cc2_scratch0 ↦{fullShare} f) ∗ (∃ f, (V d (cV L) (jV L)).loc cc2_scratch1 ↦{fullShare} f)
          ∗ (∃ f, (V d (cV L) (jV L)).loc cc2_scratch2 ↦{fullShare} f)
          ∗ bigSep ((((ownRefs (τ := τ) (.scVector (cV L) (jV L))).erase ((Proc.scVector (cV L) (jV L)).devRef cc2_scratch0)).erase ((Proc.scVector (cV L) (jV L)).devRef cc2_scratch1)).erase ((Proc.scVector (cV L) (jV L)).devRef cc2_scratch2))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := ((Proc.scVector (cV L) (jV L)).devRef cc2_scratch0)) rfl),
    SparseCore.bigSep_erase' (Finset.mem_erase.mpr ⟨fun e => absurd (Proc.devRef_injective _ e) (show (cc2_scratch1 : Ref sig .scVector) ≠ cc2_scratch0 by decide), SparseCore.Cfg.mem_ownRefs_of_owner (p := Proc.scVector (cV L) (jV L)) (b := ((Proc.scVector (cV L) (jV L)).devRef cc2_scratch1)) rfl⟩),
    SparseCore.bigSep_erase' (Finset.mem_erase.mpr ⟨fun e => absurd (Proc.devRef_injective _ e) (show (cc2_scratch2 : Ref sig .scVector) ≠ cc2_scratch1 by decide), Finset.mem_erase.mpr ⟨fun e => absurd (Proc.devRef_injective _ e) (show (cc2_scratch2 : Ref sig .scVector) ≠ cc2_scratch0 by decide), SparseCore.Cfg.mem_ownRefs_of_owner (p := Proc.scVector (cV L) (jV L)) (b := ((Proc.scVector (cV L) (jV L)).devRef cc2_scratch2)) rfl⟩⟩)]

end Tile

/-! ## The write-out, and the tile's task whole -/

section Body

attribute [local irreducible] accAt

variable (ei : S12800000.Idx → Elt F .i32) (tf tb : S6400000.Idx → Elt F .f32) (d : Dev nD) (L : grid2.Coords)

omit [FloatOps F] in
/-- A slice of the partial-sums array written whole from the accumulator, read at a word of the slice: the accumulator's word;
    and where the word sits in the array. -/
theorem out_word (off : Fin 1 → ℕ) (inb : ∀ a, off a + S100000.size a ≤ S3200000.size a) (fo : S3200000.Idx → Elt F .f32)
    (g : S100000.Idx → Elt F .f32) (x : S100000.Idx) :
    ((pM).slice (Rect.unit (s := S3200000) off S100000.size inb) (fun _ => rfl)).view.writes (Elt F) fo
        [⟨Rect.whole S100000, ReadAs.same.apply (View.read (Elt F) accM.view g)⟩]
        (((pM).slice (Rect.unit (s := S3200000) off S100000.size inb) (fun _ => rfl)).view.emb x) = g x := by
  rw [View.writes_singleton]
  have he : ((((pM).slice (Rect.unit (s := S3200000) off S100000.size inb) (fun _ => rfl)).view).slice (Rect.whole S100000)).emb x
      = ((pM).slice (Rect.unit (s := S3200000) off S100000.size inb) (fun _ => rfl)).view.emb x := by
    show ((pM).slice (Rect.unit (s := S3200000) off S100000.size inb) (fun _ => rfl)).view.emb ((Rect.whole S100000).emb x) = _
    rw [Rect.emb_whole_apply]
  rw [← he, View.write_emb_of_mem _ _ (Finset.mem_univ x), cast_eq, ReadAs.apply_same]
  rfl

omit [FloatOps F] in
theorem out_emb (off : Fin 1 → ℕ) (inb : ∀ a, off a + S100000.size a ≤ S3200000.size a) (x : S100000.Idx) :
    ((((pM).slice (Rect.unit (s := S3200000) off S100000.size inb) (fun _ => rfl)).view.emb x) 0).val = off 0 + (x 0).val := by
  show off 0 + 1 * (x 0).val = _
  omega

omit [FloatOps F] in
theorem off12_wid : k2_off12 L 0 = 100000 * widOf L := by
  rw [k2_off12_eq]
  show 200000 * (L 1).val + 100000 * (L 0).val = _
  unfold widOf; omega

/-- The write-out: the tile's slice of the partial sums, holding the accumulator, is the fold of the tile's chunk. -/
theorem out_spec (fo : S3200000.Idx → Elt F .f32) (K : ℕ) (hK : K = 800000) (i : S3200000.Idx) (hi : i ∈ (outM L).view.set) :
    (outM L).view.writes (Elt F) fo [⟨Rect.whole S100000, ReadAs.same.apply (View.read (Elt F) accM.view (accFn (iwOf ei (widOf L)) (vwOf tf tb (widOf L)) K))⟩] i
      = specPart ei tf tb i := by
  obtain ⟨x, -, rfl⟩ := Finset.mem_map.mp hi
  have hx : (x 0).val < 100000 := (x 0).isLt
  have hp := out_emb (k2_off12 L) (k2_off12_inb L) x
  rw [off12_wid] at hp
  rw [out_word]
  unfold accFn specPart
  rw [hp, show (100000 * widOf L + (x 0).val) / 100000 = widOf L by omega, show (100000 * widOf L + (x 0).val) % 100000 = (x 0).val by omega, hK]
/-! ### The tile's task -/

set_option maxHeartbeats 16000000 in
theorem tile_body1 (hF : (K (F := F)).Facts) (hidx : ∀ j, (ei j).toNat < 100000)
    (O : CellTallies nD τ sig (HIx 2)) (W : Waits sig (HIx 2)) (hO : ∀ g, O g none = 0) :
    iprop(levAts (K (F := F)).L (K (F := F)).lev ∗ go1 ei tf tb d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc2__sc_scatter_body L eiM (Memref.isWhole_whole _) tfM (Memref.isWhole_whole _) tbM (Memref.isWhole_whole _) pM (Memref.isWhole_whole _) accM (Memref.isWhole_whole _) ibM (Memref.isWhole_whole _) vbM (Memref.isWhole_whole _) cc2_scoped0 cc2_scoped1 cc2_scoped2 cc2_scoped3 cc2_scoped4 cc2_scoped5 cc2_scoped6)
          fun _ => iprop(td1 ei tf tb d L ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc2__sc_scatter_body_eq_skeleton]; unfold cc2__sc_scatter_body_skel
  simp only [k2_part1_eq_skeleton]; unfold k2_part1_skel
  rw [(K (F := F)).scopedBufs_V hF d (cV L) (jV L), SparseCore.Cfg.scopedSems0_V (Val := Elt F) d (cV L) (jV L), ownSems0_V1, ownBufs_V1]
  unfold go1 td1
  iintro ⟨#Hlv, ⟨Hei, Htf, Htb, %fo, Hout⟩, ⟨⟨%fa, Hacc⟩, ⟨%fi, Hib⟩, ⟨%fv, Hvb⟩, Hbufs⟩, ⟨Hs0, Hs1, Hs2, Hs3, Hs4, Hs5, Hs6, Hsems⟩, HO⟩
  ihave Hmw := ((K (F := F)).mayWaits_none (thr := (V d (cV L) (jV L))) hO) $$ Hlv
  ihave Hei := (Entails.of_eq (show (eiLoc d ↦{rsh L} ei : sProp 𝕄) = (eiM.view.loc (V d (cV L) (jV L)) ↦{rsh L} ei) from rfl)) $$ Hei
  ihave Htf := (Entails.of_eq (show (tfLoc d ↦{rsh L} tf : sProp 𝕄) = (tfM.view.loc (V d (cV L) (jV L)) ↦{rsh L} tf) from rfl)) $$ Htf
  ihave Htb := (Entails.of_eq (show (tbLoc d ↦{rsh L} tb : sProp 𝕄) = (tbM.view.loc (V d (cV L) (jV L)) ↦{rsh L} tb) from rfl)) $$ Htb
  ihave Hacc := (Entails.of_eq (show (((V d (cV L) (jV L))).loc cc2_scratch0 ↦{fullShare} fa : sProp 𝕄) = (accM.view.loc (V d (cV L) (jV L)) ↦{fullShare} fa) from rfl)) $$ Hacc
  ihave Hib := (Entails.of_eq (show (((V d (cV L) (jV L))).loc cc2_scratch1 ↦{fullShare} fi : sProp 𝕄) = (ibM.view.loc (V d (cV L) (jV L)) ↦{fullShare} fi) from rfl)) $$ Hib
  ihave Hvb := (Entails.of_eq (show (((V d (cV L) (jV L))).loc cc2_scratch2 ↦{fullShare} fv : sProp 𝕄) = (vbM.view.loc (V d (cV L) (jV L)) ↦{fullShare} fv) from rfl)) $$ Hvb
  ihave Hout := (Entails.of_eq (show (pLoc d ↦[outSet L]{fullShare} fo : sProp 𝕄) = ((outM L).view.loc (V d (cV L) (jV L)) ↦[(outM L).view.set]{fullShare} fo) from rfl)) $$ Hout
  sl_exec
  rw [wp_bind]
  sl_for (Zinv d L fa) $$ [Hacc]
  case region => exact zero_region d L fa
  · unfold Zinv; rw [zfill_zero]; iexact Hacc
  iintro %acc0 Hacc
  unfold Zinv
  rw [show Scf.trips k2_t1_loop.lb k2_t1_loop.ub k2_t1_loop.st = 6250 from by decide, zfill_full fa (iwOf ei (widOf L)) (vwOf tf tb (widOf L))]
  obtain ⟨c1, c2, c3, c4⟩ := k2_conds L
  have hw := widOf_lt L
  rcases (show widOf L / 8 = 0 ∨ widOf L / 8 = 1 ∨ widOf L / 8 = 2 ∨ widOf L / 8 = 3 by omega) with hk | hk | hk | hk
  · -- task 0
    have k2_h1 : k2_cond1 L = 1#1 := c1.mpr hk
    have k2_h2 : ¬ k2_cond2 L = 1#1 := fun h => by have := c2.mp h; omega
    have k2_h3 : ¬ k2_cond3 L = 1#1 := fun h => by have := c3.mp h; omega
    have k2_h4 : ¬ k2_cond4 L = 1#1 := fun h => by have := c4.mp h; omega
    sl_exec
    sl_for (Binv1 ei tf tb d L O W) $$ [Hmw Hei Htf Hacc Hib Hvb Hs0 Hs1 HO]
    case region => exact blk1_region ei tf tb d L k2_h1 hk hidx O W
    · unfold Binv1
      rw [Nat.mul_zero]
      isplitr; · iexact Hmw
      isplitl [Hei]; · iexact Hei
      isplitl [Htf]; · iexact Htf
      isplitl [Hacc]; · iexact Hacc
      isplitl [Hib]; · iexists _; iexact Hib
      isplitl [Hvb]; · iexists _; iexact Hvb
      isplitl [Hs0]; · iexact Hs0
      isplitl [Hs1]; · iexact Hs1
      iexists W; isplitr
      · ipureintro; exact fun p hp => .inl hp
      · iexact HO
    iintro %acc1 HI
    unfold Binv1
    icases HI with ⟨-, Hei, Htf, Hacc, ⟨%fi', Hib⟩, ⟨%fv', Hvb⟩, Hs0, Hs1, %W', %hW', HO⟩
    rw [show 8000 * Scf.trips k2_t2_loop.lb k2_t2_loop.ub k2_t2_loop.st = 800000 from by decide]
    sl_exec
    rw [wp_ret]; imodintro
    sl_unfold_run_names
    ihave Hout := (Entails.of_eq (pointsTo_congr (ℓ := (outM L).view.loc (V d (cV L) (jV L))) (I := (outM L).view.set) (fun i hi => out_spec ei tf tb L fo 800000 rfl i hi))) $$ Hout
    isplitl [Hei Htf Htb Hout]
    · isplitl [Hei]; · iexact Hei
      isplitl [Htf]; · iexact Htf
      isplitl [Htb]; · iexact Htb
      iexact Hout
    isplitl [Hacc Hib Hvb Hbufs]
    · isplitl [Hacc]; · iexists _; iexact Hacc
      isplitl [Hib]; · iexists _; iexact Hib
      isplitl [Hvb]; · iexists _; iexact Hvb
      iexact Hbufs
    isplitl [Hs0 Hs1 Hs2 Hs3 Hs4 Hs5 Hs6 Hsems]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      iexact Hsems
    iexists (insert (SemLoc.dma cc2_scoped6.sem, (default : HIx 2)) W'); isplitr
    · ipureintro; intro p hp
      rcases Finset.mem_insert.mp hp with hp | hp
      · exact .inr (hp ▸ rfl)
      · exact hW' p hp
    · iexact HO
  · -- task 1
    have k2_h1 : ¬ k2_cond1 L = 1#1 := fun h => by have := c1.mp h; omega
    have k2_h2 : k2_cond2 L = 1#1 := c2.mpr hk
    have k2_h3 : ¬ k2_cond3 L = 1#1 := fun h => by have := c3.mp h; omega
    have k2_h4 : ¬ k2_cond4 L = 1#1 := fun h => by have := c4.mp h; omega
    sl_exec
    sl_for (Binv2 ei tf tb d L O W) $$ [Hmw Hei Htb Hacc Hib Hvb Hs2 Hs3 HO]
    case region => exact blk2_region ei tf tb d L k2_h2 hk hidx O W
    · unfold Binv2
      rw [Nat.mul_zero]
      isplitr; · iexact Hmw
      isplitl [Hei]; · iexact Hei
      isplitl [Htb]; · iexact Htb
      isplitl [Hacc]; · iexact Hacc
      isplitl [Hib]; · iexists _; iexact Hib
      isplitl [Hvb]; · iexists _; iexact Hvb
      isplitl [Hs2]; · iexact Hs2
      isplitl [Hs3]; · iexact Hs3
      iexists W; isplitr
      · ipureintro; exact fun p hp => .inl hp
      · iexact HO
    iintro %acc1 HI
    unfold Binv2
    icases HI with ⟨-, Hei, Htb, Hacc, ⟨%fi', Hib⟩, ⟨%fv', Hvb⟩, Hs2, Hs3, %W', %hW', HO⟩
    rw [show 8000 * Scf.trips k2_t4_loop.lb k2_t4_loop.ub k2_t4_loop.st = 800000 from by decide]
    sl_exec
    rw [wp_ret]; imodintro
    sl_unfold_run_names
    ihave Hout := (Entails.of_eq (pointsTo_congr (ℓ := (outM L).view.loc (V d (cV L) (jV L))) (I := (outM L).view.set) (fun i hi => out_spec ei tf tb L fo 800000 rfl i hi))) $$ Hout
    isplitl [Hei Htf Htb Hout]
    · isplitl [Hei]; · iexact Hei
      isplitl [Htf]; · iexact Htf
      isplitl [Htb]; · iexact Htb
      iexact Hout
    isplitl [Hacc Hib Hvb Hbufs]
    · isplitl [Hacc]; · iexists _; iexact Hacc
      isplitl [Hib]; · iexists _; iexact Hib
      isplitl [Hvb]; · iexists _; iexact Hvb
      iexact Hbufs
    isplitl [Hs0 Hs1 Hs2 Hs3 Hs4 Hs5 Hs6 Hsems]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      iexact Hsems
    iexists (insert (SemLoc.dma cc2_scoped6.sem, (default : HIx 2)) W'); isplitr
    · ipureintro; intro p hp
      rcases Finset.mem_insert.mp hp with hp | hp
      · exact .inr (hp ▸ rfl)
      · exact hW' p hp
    · iexact HO
  · -- task 2
    have k2_h1 : ¬ k2_cond1 L = 1#1 := fun h => by have := c1.mp h; omega
    have k2_h2 : ¬ k2_cond2 L = 1#1 := fun h => by have := c2.mp h; omega
    have k2_h3 : k2_cond3 L = 1#1 := c3.mpr hk
    have k2_h4 : ¬ k2_cond4 L = 1#1 := fun h => by have := c4.mp h; omega
    sl_exec
    sl_for (Binv3 ei tf tb d L O W) $$ [Hmw Hei Hacc Hib Hvb Hs4 HO]
    case region => exact blk3_region ei tf tb d L k2_h3 (k2_pay2 (F := F)) (fun _ => rfl) hk hidx O W
    · unfold Binv3
      rw [Nat.mul_zero]
      isplitr; · iexact Hmw
      isplitl [Hei]; · iexact Hei
      isplitl [Hacc]; · iexact Hacc
      isplitl [Hib]; · iexists _; iexact Hib
      isplitl [Hvb]; · iexists _; iexact Hvb
      isplitl [Hs4]; · iexact Hs4
      iexists W; isplitr
      · ipureintro; exact fun p hp => .inl hp
      · iexact HO
    iintro %acc1 HI
    unfold Binv3
    icases HI with ⟨-, Hei, Hacc, ⟨%fi', Hib⟩, ⟨%fv', Hvb⟩, Hs4, %W', %hW', HO⟩
    rw [show 8000 * Scf.trips k2_t6_loop.lb k2_t6_loop.ub k2_t6_loop.st = 800000 from by decide]
    sl_exec
    rw [wp_ret]; imodintro
    sl_unfold_run_names
    ihave Hout := (Entails.of_eq (pointsTo_congr (ℓ := (outM L).view.loc (V d (cV L) (jV L))) (I := (outM L).view.set) (fun i hi => out_spec ei tf tb L fo 800000 rfl i hi))) $$ Hout
    isplitl [Hei Htf Htb Hout]
    · isplitl [Hei]; · iexact Hei
      isplitl [Htf]; · iexact Htf
      isplitl [Htb]; · iexact Htb
      iexact Hout
    isplitl [Hacc Hib Hvb Hbufs]
    · isplitl [Hacc]; · iexists _; iexact Hacc
      isplitl [Hib]; · iexists _; iexact Hib
      isplitl [Hvb]; · iexists _; iexact Hvb
      iexact Hbufs
    isplitl [Hs0 Hs1 Hs2 Hs3 Hs4 Hs5 Hs6 Hsems]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      iexact Hsems
    iexists (insert (SemLoc.dma cc2_scoped6.sem, (default : HIx 2)) W'); isplitr
    · ipureintro; intro p hp
      rcases Finset.mem_insert.mp hp with hp | hp
      · exact .inr (hp ▸ rfl)
      · exact hW' p hp
    · iexact HO
  · -- task 3
    have k2_h1 : ¬ k2_cond1 L = 1#1 := fun h => by have := c1.mp h; omega
    have k2_h2 : ¬ k2_cond2 L = 1#1 := fun h => by have := c2.mp h; omega
    have k2_h3 : ¬ k2_cond3 L = 1#1 := fun h => by have := c3.mp h; omega
    have k2_h4 : k2_cond4 L = 1#1 := c4.mpr hk
    sl_exec
    sl_for (Binv4 ei tf tb d L O W) $$ [Hmw Hei Hacc Hib Hvb Hs5 HO]
    case region => exact blk4_region ei tf tb d L k2_h4 (k2_pay2 (F := F)) (fun _ => rfl) hk hidx O W
    · unfold Binv4
      rw [Nat.mul_zero]
      isplitr; · iexact Hmw
      isplitl [Hei]; · iexact Hei
      isplitl [Hacc]; · iexact Hacc
      isplitl [Hib]; · iexists _; iexact Hib
      isplitl [Hvb]; · iexists _; iexact Hvb
      isplitl [Hs5]; · iexact Hs5
      iexists W; isplitr
      · ipureintro; exact fun p hp => .inl hp
      · iexact HO
    iintro %acc1 HI
    unfold Binv4
    icases HI with ⟨-, Hei, Hacc, ⟨%fi', Hib⟩, ⟨%fv', Hvb⟩, Hs5, %W', %hW', HO⟩
    rw [show 8000 * Scf.trips k2_t8_loop.lb k2_t8_loop.ub k2_t8_loop.st = 800000 from by decide]
    sl_exec
    rw [wp_ret]; imodintro
    sl_unfold_run_names
    ihave Hout := (Entails.of_eq (pointsTo_congr (ℓ := (outM L).view.loc (V d (cV L) (jV L))) (I := (outM L).view.set) (fun i hi => out_spec ei tf tb L fo 800000 rfl i hi))) $$ Hout
    isplitl [Hei Htf Htb Hout]
    · isplitl [Hei]; · iexact Hei
      isplitl [Htf]; · iexact Htf
      isplitl [Htb]; · iexact Htb
      iexact Hout
    isplitl [Hacc Hib Hvb Hbufs]
    · isplitl [Hacc]; · iexists _; iexact Hacc
      isplitl [Hib]; · iexists _; iexact Hib
      isplitl [Hvb]; · iexists _; iexact Hvb
      iexact Hbufs
    isplitl [Hs0 Hs1 Hs2 Hs3 Hs4 Hs5 Hs6 Hsems]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      iexact Hsems
    iexists (insert (SemLoc.dma cc2_scoped6.sem, (default : HIx 2)) W'); isplitr
    · ipureintro; intro p hp
      rcases Finset.mem_insert.mp hp with hp | hp
      · exact .inr (hp ▸ rfl)
      · exact hW' p hp
    · iexact HO

end Body

/-! ## The call's operands split among the 32 tiles, and gathered back -/

section Split

variable (ei : S12800000.Idx → Elt F .i32) (tf tb : S6400000.Idx → Elt F .f32) (d : Dev nD)

/-- What the TensorCore keeps of the three inputs across the call: the share left after the 32 read tokens. -/
def rem1 : sProp 𝕄 :=
  iprop((eiLoc d ↦{Transfers.shareDrop fullShare 32} ei) ∗ (tfLoc d ↦{Transfers.shareDrop fullShare 32} tf)
    ∗ (tbLoc d ↦{Transfers.shareDrop fullShare 32} tb))

/-- The tile number of SparseCore `p.1`'s subcore `p.2`. -/
def widP (p : Fin 2 × Fin 16) : ℕ := 2 * p.2.val + p.1.val

omit [FloatOps F] in
theorem range32 : Finset.range 32 = (Finset.univ : Finset (Fin 2 × Fin 16)).image widP := by decide

omit [FloatOps F] in
theorem widP_inj : Set.InjOn widP (↑(Finset.univ : Finset (Fin 2 × Fin 16))) := by
  intro p _ q _ h
  unfold widP at h
  have h1 := p.1.isLt; have h2 := q.1.isLt
  exact Prod.ext (Fin.ext (by omega)) (Fin.ext (by omega))

omit [FloatOps F] in
/-- The full share of an array is the remainder and one read token per tile. -/
theorem shares_split {ℓ : Loc nD τ sig} (f : Buf (Elt F) ℓ) :
    (ℓ ↦{fullShare} f : sProp 𝕄) ⊣⊢ iprop((ℓ ↦{Transfers.shareDrop fullShare 32} f)
      ∗ bigSep Finset.univ (fun p : Fin 2 × Fin 16 => ℓ ↦{Transfers.shareTokN fullShare (widP p)} f)) := by
  have h := Transfers.pointsTo_toks_range (Lvl := ℕ) (U := UU) (Name := ℕ) (Ix := HIx 2) (ℓ := ℓ) (S := Finset.univ) (f := f) fullShare 32
  rw [range32, bigSep_image_of_injOn widP_inj] at h
  exact h

abbrev outSetP (p : Fin 2 × Fin 16) : Finset S3200000.Idx := outSet (coords p.1 p.2)

omit [FloatOps F] in
theorem outSet_eq (L : grid2.Coords) : outSet L = (outRect L).set := View.set_slice_whole _ _

omit [FloatOps F] in
theorem off12_coords (p : Fin 2 × Fin 16) : k2_off12 (coords p.1 p.2) 0 = 100000 * widP p := by
  rw [k2_off12_eq]
  show 200000 * p.2.val + 100000 * p.1.val = _
  unfold widP; omega

omit [FloatOps F] in
theorem outSet_disjoint : ∀ p ∈ (Finset.univ : Finset (Fin 2 × Fin 16)), ∀ q ∈ (Finset.univ : Finset (Fin 2 × Fin 16)), p ≠ q → Disjoint (outSetP p) (outSetP q) := by
  intro p hp q hq hpq
  have hne : widP p ≠ widP q := fun h => hpq (widP_inj (Finset.mem_coe.mpr hp) (Finset.mem_coe.mpr hq) h)
  show Disjoint (outSet (coords p.1 p.2)) (outSet (coords q.1 q.2))
  rw [outSet_eq, outSet_eq]
  refine Rect.unit_disjoint (0 : Fin S3200000.rank) ?_
  rw [off12_coords, off12_coords]
  show 100000 * widP p + 100000 ≤ 100000 * widP q ∨ 100000 * widP q + 100000 ≤ 100000 * widP p
  omega

omit [FloatOps F] in
theorem outSet_cover : (Finset.univ : Finset (Fin 2 × Fin 16)).biUnion outSetP = Finset.univ := by
  ext j
  simp only [Finset.mem_biUnion, Finset.mem_univ, true_and, iff_true]
  have hj : (j 0).val < 3200000 := (j 0).isLt
  refine ⟨(⟨(j 0).val / 100000 % 2, by omega⟩, ⟨(j 0).val / 100000 / 2, by omega⟩), ?_⟩
  show j ∈ outSet (coords _ _)
  rw [outSet_eq, Rect.mem_set_unit]
  intro a
  obtain rfl : a = 0 := Subsingleton.elim _ _
  rw [off12_coords]
  show 100000 * (2 * ((j 0).val / 100000 / 2) + (j 0).val / 100000 % 2) ≤ (j 0).val ∧ (j 0).val < 100000 * (2 * ((j 0).val / 100000 / 2) + (j 0).val / 100000 % 2) + 100000
  omega

omit [FloatOps F] in
/-- The partial-sums array whole is its 32 slices. -/
theorem out_split (f : S3200000.Idx → Elt F .f32) :
    (pLoc d ↦{fullShare} f : sProp 𝕄) = bigSep Finset.univ (fun p : Fin 2 × Fin 16 => pLoc d ↦[outSetP p]{fullShare} f) := by
  rw [← pointsTo_biUnion Finset.univ (ℓ := pLoc d) outSetP outSet_disjoint, outSet_cover]

theorem st_pair : iprop(st1 ei tf tb d 0 ∗ st1 ei tf tb d 1)
    = bigSep Finset.univ (fun p : Fin 2 × Fin 16 => go1 ei tf tb d (coords p.1 p.2)) := by
  rw [bigSep_univ_prod, bigSep_univ_two]; rfl
theorem dn_pair : iprop(dn1 ei tf tb d 0 ∗ dn1 ei tf tb d 1)
    = bigSep Finset.univ (fun p : Fin 2 × Fin 16 => td1 ei tf tb d (coords p.1 p.2)) := by
  rw [bigSep_univ_prod, bigSep_univ_two]; rfl

omit [FloatOps F] in
theorem ex_out (f : S3200000.Idx → Elt F .f32) :
    bigSep Finset.univ (fun p : Fin 2 × Fin 16 => (pLoc d ↦[outSetP p]{fullShare} f : sProp 𝕄))
      ⊢ bigSep Finset.univ (fun p : Fin 2 × Fin 16 => (iprop(∃ f, pLoc d ↦[outSet (coords p.1 p.2)]{fullShare} f) : sProp 𝕄)) := by
  refine bigSep_mono fun p _ => ?_
  show (pLoc d ↦[outSetP p]{fullShare} f : sProp 𝕄) ⊢ iprop(∃ f, pLoc d ↦[outSet (coords p.1 p.2)]{fullShare} f)
  iintro H; iexists f; iexact H

/-- Before the call: the three inputs and the partial-sums array whole go to the two SparseCores, a remainder of the inputs kept. -/
theorem callSplit1 :
    iprop((eiLoc d ↦{fullShare} ei) ∗ (tfLoc d ↦{fullShare} tf) ∗ (tbLoc d ↦{fullShare} tb) ∗ ∃ f, pLoc d ↦{fullShare} f)
      ⊢ iprop(rem1 ei tf tb d ∗ st1 ei tf tb d 0 ∗ st1 ei tf tb d 1) := by
  rw [st_pair]
  unfold go1 rem1
  rw [bigSep_sep', bigSep_sep', bigSep_sep']
  iintro ⟨Hei, Htf, Htb, %f, Hp⟩
  ihave Hei := (shares_split (F := F) (ℓ := eiLoc d) ei).1 $$ Hei
  icases Hei with ⟨Hei0, Hei⟩
  ihave Htf := (shares_split (F := F) (ℓ := tfLoc d) tf).1 $$ Htf
  icases Htf with ⟨Htf0, Htf⟩
  ihave Htb := (shares_split (F := F) (ℓ := tbLoc d) tb).1 $$ Htb
  icases Htb with ⟨Htb0, Htb⟩
  ihave Hp := (Entails.of_eq (out_split (F := F) d f)) $$ Hp
  ihave Hp := (ex_out (F := F) d f) $$ Hp
  isplitl [Hei0 Htf0 Htb0]
  · isplitl [Hei0]; · iexact Hei0
    isplitl [Htf0]; · iexact Htf0
    iexact Htb0
  isplitl [Hei]; · iexact Hei
  isplitl [Htf]; · iexact Htf
  isplitl [Htb]; · iexact Htb
  iexact Hp

/-- After the call: the inputs whole again, the partial-sums array whole at the folds of the 32 chunks. -/
theorem callJoin1 :
    iprop(rem1 ei tf tb d ∗ dn1 ei tf tb d 0 ∗ dn1 ei tf tb d 1)
      ⊢ iprop((eiLoc d ↦{fullShare} ei) ∗ (tfLoc d ↦{fullShare} tf) ∗ (tbLoc d ↦{fullShare} tb) ∗ pLoc d ↦{fullShare} specPart ei tf tb) := by
  rw [dn_pair]
  unfold td1 rem1
  rw [bigSep_sep', bigSep_sep', bigSep_sep']
  iintro ⟨⟨Hei0, Htf0, Htb0⟩, Hei, Htf, Htb, Hp⟩
  isplitl [Hei0 Hei]
  · iapply (shares_split (F := F) (ℓ := eiLoc d) ei).2
    isplitl [Hei0]; · iexact Hei0
    iexact Hei
  isplitl [Htf0 Htf]
  · iapply (shares_split (F := F) (ℓ := tfLoc d) tf).2
    isplitl [Htf0]; · iexact Htf0
    iexact Htf
  isplitl [Htb0 Htb]
  · iapply (shares_split (F := F) (ℓ := tbLoc d) tb).2
    isplitl [Htb0]; · iexact Htb0
    iexact Htb
  iapply (Entails.of_eq (out_split (F := F) d (specPart ei tf tb)).symm)
  iexact Hp

end Split

end Cert.Proof.KW.Sc

end
-- ==== Proof.GatherTileV1W.lean ====
import proofs.«204254_g40355512713743_retrytranche2_1723_12_alg».proof.Proof.CommonW
import Idealize.ShloMosaic.Lib.ValueIdx
import proofs.«204254_g40355512713743_retrytranche2_1723_12_alg».proof.Proof.GatherTileLibW
import proofs.«204254_g40355512713743_retrytranche2_1723_12_alg».proof.Proof.GatherTileValW

noncomputable section

namespace Cert.Proof.KW.Ga

open Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 eq_ix1)

variable {F : FTy → Type}

local notation "𝕄" => MT nD τ sig (HIx 2) (Elt F) ℕ UU ℕ

variable [FloatOps F]

section V1

variable (ei : S12800000.Idx → Elt F .i32) (vt : S300000.Idx → Elt F .f32) (d : Dev nD) (L : grid0.Coords)

/-- Block `k` of the tile's chunk of its output, as the kernel slices it. -/
abbrev outS1 (k : Fin k0_t1_loop.trips) (hc : k0_cond1 L = 1#1) : Memref sig .scVector .hbm S8000 .f32 :=
  (d0V).slice (Rect.unit (s := S6400000) (k0_off6 L k) S8000.size (k0_off6_inb L k hc)) (fun _ => rfl)

omit [FloatOps F] in
theorem pts_blk1 (k : Fin k0_t1_loop.trips) (hc : k0_cond1 L = 1#1) (g : Buf (Elt F) (d0Loc d)) :
    ((outS1 L k hc).view.loc (thrV d L) ↦[(outS1 L k hc).view.set]{fullShare} g : sProp 𝕄)
      = (d0Loc d ↦[(outS1 L k hc).view.set]{fullShare} g) := rfl

omit [FloatOps F] in
theorem blk1_set (k : Fin k0_t1_loop.trips) (hc : k0_cond1 L = 1#1) :
    (outS1 L k hc).view.set = rng (800000 * (wid L - 0) + 8000 * k.val) (800000 * (wid L - 0) + 8000 * k.val + 8000) :=
  (d0_set (k0_off6 L k) (k0_off6_inb L k hc)).trans (by rw [off6_val L k hc])

omit [FloatOps F] in
theorem blk1_sub (k : Fin k0_t1_loop.trips) (hc : k0_cond1 L = 1#1) : (outS1 L k hc).view.set ⊆ chunk (wid L - 0) := by
  rw [blk1_set]
  have hk : k.val < 100 := Nat.lt_of_lt_of_le k.isLt k0_t1_abs.2.1
  intro j
  simp only [chunk, rng, Finset.mem_filter, Finset.mem_univ, true_and]
  omega

omit [FloatOps F] in
theorem pts_tab_access1 (ft : Buf (Elt F) ((thrV d L).loc cc0_scratch0)) :
    (((tabV).access (.whole S100000)).loc (thrV d L) ↦{fullShare} ft : sProp 𝕄) = ((tabV).view.loc (thrV d L) ↦{fullShare} ft) := rfl

/-- The inner loop's invariant: the table and the index blocks as they are, the out scratch's first `16 k` entries computed. -/
def invI1 (ft : Buf (Elt F) ((thrV d L).loc cc0_scratch0)) (base : Nat) (k : Nat) (_ : BitVec 32) : sProp 𝕄 :=
  iprop(((tabV).view.loc (thrV d L) ↦{fullShare} ft)
    ∗ (∃ fi : Buf (Elt F) ((thrV d L).loc cc0_scratch1), ⌜IdxOK ei base fi⌝ ∗ (ibV).view.loc (thrV d L) ↦{fullShare} fi)
    ∗ (∃ fj : Buf (Elt F) ((thrV d L).loc cc0_scratch2), ⌜IdxOK ei (6400000 + base) fj⌝ ∗ (jbV).view.loc (thrV d L) ↦{fullShare} fj)
    ∗ ∃ fo : Buf (Elt F) ((thrV d L).loc cc0_scratch3), ⌜∀ j : S8000.Idx, (j 0).val < 16 * k → fo j = dval 0 ei vt (base + (j 0).val)⌝
        ∗ (obV).view.loc (thrV d L) ↦{fullShare} fo)

/-- The block loop's invariant: the edge indices' read share, the chunk with its first `k` blocks computed, the table, the
    scratches, the three semaphores at zero, the tile's debts. -/
def invB1 (O : CellTallies nD τ sig (HIx 2)) (W : Waits sig (HIx 2)) (k : Nat) (_ : BitVec 32) : sProp 𝕄 :=
  iprop(Transfers.MayWaits (thrV d L) (none : HIx 2) O
    ∗ ((eiV).view.loc (thrV d L) ↦{tsh L} ei)
    ∗ (∃ g : Buf (Elt F) (d0Loc d), ⌜∀ j ∈ chunk (wid L - 0), (j 0).val < 800000 * (wid L - 0) + 8000 * k → g j = dval 0 ei vt (j 0).val⌝
        ∗ d0Loc d ↦[chunk (wid L - 0)]{fullShare} g)
    ∗ (∃ ft : Buf (Elt F) ((thrV d L).loc cc0_scratch0), ⌜TabOK vt 0 ft⌝ ∗ (tabV).view.loc (thrV d L) ↦{fullShare} ft)
    ∗ (∃ f, (ibV).view.loc (thrV d L) ↦{fullShare} f) ∗ (∃ f, (jbV).view.loc (thrV d L) ↦{fullShare} f) ∗ (∃ f, (obV).view.loc (thrV d L) ↦{fullShare} f)
    ∗ semVal (cellV d L cc0_scoped1) 0 ∗ semVal (cellV d L cc0_scoped2) 0 ∗ semVal (cellV d L cc0_scoped3) 0
    ∗ ∃ W', ⌜∀ p ∈ W', p ∈ W ∨ p.2 = none⌝ ∗ owes (thrV d L) O W')

end V1

set_option maxHeartbeats 4000000 in
theorem tile_v1 (ei : S12800000.Idx → Elt F .i32) (rf : S19200000.Idx → Elt F .f32) (vt : S300000.Idx → Elt F .f32)
    (hF : (K (F := F)).Facts) (hidx : ∀ j, (BitVec.toNat (show BitVec 32 from ei j)) < 100000) (d : Dev nD) (L : grid0.Coords) (hc : k0_cond1 L = 1#1) (h2 : ¬ k0_cond2 L = 1#1) (h3 : ¬ k0_cond3 L = 1#1) (h4 : ¬ k0_cond4 L = 1#1)
    (O : CellTallies nD τ sig (HIx 2)) (W : Waits sig (HIx 2)) (hO : ∀ g, O g none = 0) :
    iprop(levAts (K (F := F)).L (K (F := F)).lev ∗ go0 ei rf vt d L ∗ scopedBufs (thrV d L) ∗ scopedSems0 (thrV d L) ∗ owes (thrV d L) O W)
      ⊢ wp frame (wpE (defs₀ (F := F)) 𝒱₀ (thrV d L) none) Set.univ
          (cc0__sc_gather_body L (Memref.whole main_v0_scv) (Memref.isWhole_whole _) (Memref.whole main_v1_scv) (Memref.isWhole_whole _)
            (Memref.whole main_v3_scv) (Memref.isWhole_whole _) (Memref.whole main_v4_0_scv) (Memref.isWhole_whole _)
            (Memref.whole main_v4_1_scv) (Memref.isWhole_whole _) (Memref.whole main_v4_2_scv) (Memref.isWhole_whole _)
            (Memref.whole main_v4_3_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) cc0_scoped0 cc0_scoped1 cc0_scoped2 cc0_scoped3 cc0_scoped4 cc0_scoped5
            cc0_scoped6 cc0_scoped7 cc0_scoped8 cc0_scoped9 cc0_scoped10 cc0_scoped11 cc0_scoped12 cc0_scoped13)
          fun _ => iprop(td0 ei rf vt d L ∗ scopedBufs (thrV d L) ∗ scopedSems0 (thrV d L)
            ∗ ∃ W', ⌜∀ p ∈ W', p ∈ W ∨ p.2 = none⌝ ∗ owes (thrV d L) O W') := by
  have hw : wid L < 8 := (cond1_iff L).mp hc
  have htI : k0_t2_loop.trips = 500 := by first | rfl | decide
  have htB : k0_t1_loop.trips = 100 := by first | rfl | decide
  simp only [cc0__sc_gather_body_eq_skeleton]; unfold cc0__sc_gather_body_skel
  rw [(K (F := F)).scopedBufs_V hF d (cV L) (jV L), SparseCore.Cfg.scopedSems0_V (Val := Elt F) d (cV L) (jV L),
    ownSems0_take4 d L cc0_scoped0 cc0_scoped1 cc0_scoped2 cc0_scoped3 (by decide) (by decide) (by decide) (by decide)
      (by decide) (by decide) (by decide) (by decide) (by decide) (by decide), ownBufs_V]
  unfold go0 td0 outGo outTd
  rw [if_pos hw, if_pos hw]
  iintro ⟨#Hlv, ⟨⟨Hei, Hrf, Hvt⟩, %g0, Hout⟩, ⟨⟨%ft0, Htab⟩, ⟨%fi0, Hib⟩, ⟨%fj0, Hjb⟩, ⟨%fo0, Hob⟩, Hbufs⟩, ⟨Hs0, Hs1, Hs2, Hs3, Hsems⟩, HO⟩
  ihave Hmw := ((K (F := F)).mayWaits_none (thr := thrV d L) hO) $$ Hlv
  ihave Hvt' := (Entails.of_eq (pts_vt (F := F) d L _ _).symm) $$ Hvt
  ihave Hei' := (Entails.of_eq (pts_ei (F := F) d L _ _).symm) $$ Hei
  ihave Htab' := (Entails.of_eq (pts_tab (F := F) d L _).symm) $$ Htab
  ihave Hib' := (Entails.of_eq (pts_ib (F := F) d L _).symm) $$ Hib
  ihave Hjb' := (Entails.of_eq (pts_jb (F := F) d L _).symm) $$ Hjb
  ihave Hob' := (Entails.of_eq (pts_ob (F := F) d L _).symm) $$ Hob
  sl_exec
  sl_for (invB1 ei vt d L O W) $$ [Hmw Hei' Hout Htab' Hib' Hjb' Hob' Hs1 Hs2 Hs3 HO]
  case region =>
    intro k _
    have hk : k.val < 100 := Nat.lt_of_lt_of_le k.isLt k0_t1_abs.2.1
    unfold invB1
    iintro ⟨Hmw, Hei, ⟨%g, %hg, Hout⟩, ⟨%ft, %hft, Htab⟩, ⟨%fi, Hib⟩, ⟨%fj, Hjb⟩, ⟨%fo, Hob⟩, Hs1, Hs2, Hs3, %W', %hW', HO⟩
    sl_exec (disch := exact View.amount_pos _ _ (show 0 < S8000.numel by decide))
    sl_for (invI1 ei vt d L ft (800000 * (wid L - 0) + 8000 * k.val)) $$ [Htab Hib Hjb Hob]
    case region =>
      intro k2 _
      have hk2 : k2.val < 500 := Nat.lt_of_lt_of_le k2.isLt k0_t2_abs.2.1
      unfold invI1
      iintro ⟨Htab, ⟨%fi', %hfi, Hib⟩, ⟨%fj', %hfj, Hjb⟩, %fo', %hfo, Hob⟩
      have hchkI : ∀ (off : Fin 1 → Nat) (inb : ∀ a, off a + S16.size a ≤ S8000.size a),
          k0_chk1 L ((ibV).view.readAt (Elt F) (Rect.unit (s := S8000) off S16.size inb).toLoadRect fi') := by
        intro off inb _ a x
        obtain rfl : a = (0 : Fin 1) := Subsingleton.elim (α := Fin 1) a 0
        show (BitVec.toNat ((ibV).view.readAt (Elt F) (Rect.unit (s := S8000) off S16.size inb).toLoadRect fi' x)) < 100000
        rw [load16_ib, hfi]; exact eAt_lt ei hidx _
      have hchkJ : ∀ (off : Fin 1 → Nat) (inb : ∀ a, off a + S16.size a ≤ S8000.size a),
          k0_chk2 L ((jbV).view.readAt (Elt F) (Rect.unit (s := S8000) off S16.size inb).toLoadRect fj') := by
        intro off inb _ a x
        obtain rfl : a = (0 : Fin 1) := Subsingleton.elim (α := Fin 1) a 0
        show (BitVec.toNat ((jbV).view.readAt (Elt F) (Rect.unit (s := S8000) off S16.size inb).toLoadRect fj' x)) < 100000
        rw [load16_jb, hfj]; exact eAt_lt ei hidx _
      sl_exec (disch := first | exact hchkI _ _ | exact hchkJ _ _)

      ihave Htab' := (Entails.of_eq (pts_tab_access1 (F := F) d L _).symm) $$ Htab
      iapply (SparseCore.wp_vectorLoadIdx 𝒱₀ (thrV d L) none Set.univ (base := tabV) (S := Finset.univ) (q := fullShare) (Finset.subset_univ _)) $$ Htab'; iintro Htab'
      ihave Htab := (Entails.of_eq (pts_tab_access1 (F := F) d L _)) $$ Htab'
      sl_exec (disch := first | exact hchkI _ _ | exact hchkJ _ _)
      ihave Htab' := (Entails.of_eq (pts_tab_access1 (F := F) d L _).symm) $$ Htab
      iapply (SparseCore.wp_vectorLoadIdx 𝒱₀ (thrV d L) none Set.univ (base := tabV) (S := Finset.univ) (q := fullShare) (Finset.subset_univ _)) $$ Htab'; iintro Htab'
      ihave Htab := (Entails.of_eq (pts_tab_access1 (F := F) d L _)) $$ Htab'
      sl_exec
      sl_step

      isplitl [Htab]; · iexact Htab
      isplitl [Hib]
      · iexists _; isplitr; · ipureintro; exact hfi
        iexact Hib
      isplitl [Hjb]
      · iexists _; isplitr; · ipureintro; exact hfj
        iexact Hjb
      iexists _; isplitr; rotate_left; · iexact Hob
      ipureintro
      exact trip_val d L ei vt 0 _ k2.val ft fi' fj' fo' hft hfi hfj k0_pay1 (fun _ _ => rfl) (k0_off3 k2) (k0_off4 k2) (k0_off5 k2) _ _ _
        (by rw [k0_off3_eq]; rfl) (by rw [k0_off4_eq]; rfl) (by rw [k0_off5_eq]; rfl) _ _ hfo
    · unfold invI1
      isplitl [Htab]; · iexact Htab
      isplitl [Hib]
      · iexists _; isplitr; rotate_left; · iexact Hib
        ipureintro; exact ib_val d L ei _ fi _ _ (off1_val L k hc)
      isplitl [Hjb]
      · iexists _; isplitr; rotate_left; · iexact Hjb
        ipureintro; exact jb_val d L ei _ fj _ _ (off2_val L k hc)
      iexists _; isplitr; rotate_left; · iexact Hob
      ipureintro; intro j hj; exact absurd hj (by omega)
    iintro %_ HI
    unfold invI1
    icases HI with ⟨Htab, ⟨%fi', %hfi, Hib⟩, ⟨%fj', %hfj, Hjb⟩, %fo', %hfo, Hob⟩
    ihave Hsp := (pointsTo_split_subset (ℓ := d0Loc d) (q := fullShare) (f := g) (blk1_sub L k hc)).1 $$ Hout
    icases Hsp with ⟨Hblk, Hrest⟩
    ihave Hblk' := (Entails.of_eq (pts_blk1 (F := F) d L k hc _).symm) $$ Hblk
    sl_exec (disch := exact View.amount_pos _ _ (show 0 < S8000.numel by decide))
    sl_step

    isplitl [Hmw]; · iexact Hmw
    isplitl [Hei]; · iexact Hei
    isplitl [Hblk' Hrest]
    · iexists _; isplitr; rotate_left
      · ihave Hblk := (Entails.of_eq (pts_blk1 (F := F) d L k hc _)) $$ Hblk'
        iapply (d0_rejoin (F := F) d (wid L - 0) g _ _ _ (blk1_sub L k hc))
        isplitl [Hblk]; · iexact Hblk
        iexact Hrest
      ipureintro
      rw [show 800000 * (wid L - 0) + 8000 * (k.val + 1) = (800000 * (wid L - 0) + 8000 * k.val) + 8000 by omega]
      exact d0_blk_val d L (dval 0 ei vt) _ _ g fo' _ _ (off6_val L k hc) _ (fun _ => rfl) hg
        (fun j => hfo j (by have := (j 0).isLt; simp at this; show (j 0).val < 16 * k0_t2_loop.trips; rw [htI]; omega))
    isplitl [Htab]
    · iexists ft; isplitr; · ipureintro; exact hft
      iexact Htab
    isplitl [Hib]; · iexists _; iexact Hib
    isplitl [Hjb]; · iexists _; iexact Hjb
    isplitl [Hob]; · iexists _; iexact Hob
    isplitl [Hs1]; · iexact Hs1
    isplitl [Hs2]; · iexact Hs2
    isplitl [Hs3]; · iexact Hs3
    iexists _; isplitr; rotate_left; · iexact HO
    ipureintro; exact waits_ok (waits_ok (waits_ok hW' _) _) _
  · unfold invB1
    isplitl [Hmw]; · iexact Hmw
    isplitl [Hei']; · iexact Hei'
    isplitl [Hout]
    · iexists g0; isplitr
      · ipureintro; intro j hj hlt; exfalso
        simp only [chunk, rng, Finset.mem_filter, Finset.mem_univ, true_and] at hj; omega
      iexact Hout
    isplitl [Htab']
    · iexists _; isplitr; rotate_left; · iexact Htab'
      ipureintro; exact tab_val d L vt 0 ft0 _ _ rfl
    isplitl [Hib']; · iexists _; iexact Hib'
    isplitl [Hjb']; · iexists _; iexact Hjb'
    isplitl [Hob']; · iexists _; iexact Hob'
    isplitl [Hs1]; · iexact Hs1
    isplitl [Hs2]; · iexact Hs2
    isplitl [Hs3]; · iexact Hs3
    iexists _; isplitr; rotate_left; · iexact HO
    ipureintro; exact waits_ok (fun p hp => .inl hp) _
  iintro %_ HI
  unfold invB1
  icases HI with ⟨-, Hei, ⟨%g, %hg, Hout⟩, ⟨%ft, %hft, Htab⟩, ⟨%fi, Hib⟩, ⟨%fj, Hjb⟩, ⟨%fo, Hob⟩, Hs1, Hs2, Hs3, %W', %hW', HO⟩
  sl_exec
  sl_step

  have hfin : ∀ i ∈ chunk (wid L - 0), g i = specD 0 ei vt i := by
    intro i hi
    refine (hg i hi ?_).trans (specD_dval 0 ei vt i).symm
    show (i 0).val < 800000 * (wid L - 0) + 8000 * k0_t1_loop.trips
    rw [htB]; simp only [chunk, rng, Finset.mem_filter, Finset.mem_univ, true_and] at hi; omega
  isplitl [Hei Hrf Hvt' Hout]
  · isplitl [Hei Hrf Hvt']
    · isplitl [Hei]; · iapply (Entails.of_eq (pts_ei (F := F) d L _ _)); iexact Hei
      isplitl [Hrf]; · iexact Hrf
      iapply (Entails.of_eq (pts_vt (F := F) d L _ _)); iexact Hvt'
    · iapply (Entails.of_eq (pointsTo_congr (ℓ := d0Loc d) (q := fullShare) hfin)); iexact Hout
  isplitl [Htab Hib Hjb Hob Hbufs]
  · isplitl [Htab]; · iexists _; iapply (Entails.of_eq (pts_tab (F := F) d L _)); iexact Htab
    isplitl [Hib]; · iexists _; iapply (Entails.of_eq (pts_ib (F := F) d L _)); iexact Hib
    isplitl [Hjb]; · iexists _; iapply (Entails.of_eq (pts_jb (F := F) d L _)); iexact Hjb
    isplitl [Hob]; · iexists _; iapply (Entails.of_eq (pts_ob (F := F) d L _)); iexact Hob
    iexact Hbufs
  isplitl [Hs0 Hs1 Hs2 Hs3 Hsems]
  · isplitl [Hs0]; · iexact Hs0
    isplitl [Hs1]; · iexact Hs1
    isplitl [Hs2]; · iexact Hs2
    isplitl [Hs3]; · iexact Hs3
    iexact Hsems
  iexists W'; isplitr
  · ipureintro; exact hW'
  · iexact HO

end Cert.Proof.KW.Ga

end
-- ==== Proof.GatherTileV2W.lean ====
import proofs.«204254_g40355512713743_retrytranche2_1723_12_alg».proof.Proof.CommonW
import Idealize.ShloMosaic.Lib.ValueIdx
import proofs.«204254_g40355512713743_retrytranche2_1723_12_alg».proof.Proof.GatherTileLibW
import proofs.«204254_g40355512713743_retrytranche2_1723_12_alg».proof.Proof.GatherTileValW

noncomputable section

namespace Cert.Proof.KW.Ga

open Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 eq_ix1)

variable {F : FTy → Type}

local notation "𝕄" => MT nD τ sig (HIx 2) (Elt F) ℕ UU ℕ

variable [FloatOps F]

section V2

variable (ei : S12800000.Idx → Elt F .i32) (vt : S300000.Idx → Elt F .f32) (d : Dev nD) (L : grid0.Coords)

/-- Block `k` of the tile's chunk of its output, as the kernel slices it. -/
abbrev outS2 (k : Fin k0_t3_loop.trips) (hc : k0_cond2 L = 1#1) : Memref sig .scVector .hbm S8000 .f32 :=
  (d1V).slice (Rect.unit (s := S6400000) (k0_off12 L k) S8000.size (k0_off12_inb L k hc)) (fun _ => rfl)

omit [FloatOps F] in
theorem pts_blk2 (k : Fin k0_t3_loop.trips) (hc : k0_cond2 L = 1#1) (g : Buf (Elt F) (d1Loc d)) :
    ((outS2 L k hc).view.loc (thrV d L) ↦[(outS2 L k hc).view.set]{fullShare} g : sProp 𝕄)
      = (d1Loc d ↦[(outS2 L k hc).view.set]{fullShare} g) := rfl

omit [FloatOps F] in
theorem blk2_set (k : Fin k0_t3_loop.trips) (hc : k0_cond2 L = 1#1) :
    (outS2 L k hc).view.set = rng (800000 * (wid L - 8) + 8000 * k.val) (800000 * (wid L - 8) + 8000 * k.val + 8000) :=
  (d1_set (k0_off12 L k) (k0_off12_inb L k hc)).trans (by rw [off12_val L k hc])

omit [FloatOps F] in
theorem blk2_sub (k : Fin k0_t3_loop.trips) (hc : k0_cond2 L = 1#1) : (outS2 L k hc).view.set ⊆ chunk (wid L - 8) := by
  rw [blk2_set]
  have hk : k.val < 100 := Nat.lt_of_lt_of_le k.isLt k0_t3_abs.2.1
  intro j
  simp only [chunk, rng, Finset.mem_filter, Finset.mem_univ, true_and]
  omega

omit [FloatOps F] in
theorem pts_tab_access2 (ft : Buf (Elt F) ((thrV d L).loc cc0_scratch0)) :
    (((tabV).access (.whole S100000)).loc (thrV d L) ↦{fullShare} ft : sProp 𝕄) = ((tabV).view.loc (thrV d L) ↦{fullShare} ft) := rfl

/-- The inner loop's invariant: the table and the index blocks as they are, the out scratch's first `16 k` entries computed. -/
def invI2 (ft : Buf (Elt F) ((thrV d L).loc cc0_scratch0)) (base : Nat) (k : Nat) (_ : BitVec 32) : sProp 𝕄 :=
  iprop(((tabV).view.loc (thrV d L) ↦{fullShare} ft)
    ∗ (∃ fi : Buf (Elt F) ((thrV d L).loc cc0_scratch1), ⌜IdxOK ei base fi⌝ ∗ (ibV).view.loc (thrV d L) ↦{fullShare} fi)
    ∗ (∃ fj : Buf (Elt F) ((thrV d L).loc cc0_scratch2), ⌜IdxOK ei (6400000 + base) fj⌝ ∗ (jbV).view.loc (thrV d L) ↦{fullShare} fj)
    ∗ ∃ fo : Buf (Elt F) ((thrV d L).loc cc0_scratch3), ⌜∀ j : S8000.Idx, (j 0).val < 16 * k → fo j = dval 1 ei vt (base + (j 0).val)⌝
        ∗ (obV).view.loc (thrV d L) ↦{fullShare} fo)

/-- The block loop's invariant: the edge indices' read share, the chunk with its first `k` blocks computed, the table, the
    scratches, the three semaphores at zero, the tile's debts. -/
def invB2 (O : CellTallies nD τ sig (HIx 2)) (W : Waits sig (HIx 2)) (k : Nat) (_ : BitVec 32) : sProp 𝕄 :=
  iprop(Transfers.MayWaits (thrV d L) (none : HIx 2) O
    ∗ ((eiV).view.loc (thrV d L) ↦{tsh L} ei)
    ∗ (∃ g : Buf (Elt F) (d1Loc d), ⌜∀ j ∈ chunk (wid L - 8), (j 0).val < 800000 * (wid L - 8) + 8000 * k → g j = dval 1 ei vt (j 0).val⌝
        ∗ d1Loc d ↦[chunk (wid L - 8)]{fullShare} g)
    ∗ (∃ ft : Buf (Elt F) ((thrV d L).loc cc0_scratch0), ⌜TabOK vt 1 ft⌝ ∗ (tabV).view.loc (thrV d L) ↦{fullShare} ft)
    ∗ (∃ f, (ibV).view.loc (thrV d L) ↦{fullShare} f) ∗ (∃ f, (jbV).view.loc (thrV d L) ↦{fullShare} f) ∗ (∃ f, (obV).view.loc (thrV d L) ↦{fullShare} f)
    ∗ semVal (cellV d L cc0_scoped5) 0 ∗ semVal (cellV d L cc0_scoped6) 0 ∗ semVal (cellV d L cc0_scoped7) 0
    ∗ ∃ W', ⌜∀ p ∈ W', p ∈ W ∨ p.2 = none⌝ ∗ owes (thrV d L) O W')

end V2

set_option maxHeartbeats 4000000 in
theorem tile_v2 (ei : S12800000.Idx → Elt F .i32) (rf : S19200000.Idx → Elt F .f32) (vt : S300000.Idx → Elt F .f32)
    (hF : (K (F := F)).Facts) (hidx : ∀ j, (BitVec.toNat (show BitVec 32 from ei j)) < 100000) (d : Dev nD) (L : grid0.Coords) (h1 : ¬ k0_cond1 L = 1#1) (hc : k0_cond2 L = 1#1) (h3 : ¬ k0_cond3 L = 1#1) (h4 : ¬ k0_cond4 L = 1#1)
    (O : CellTallies nD τ sig (HIx 2)) (W : Waits sig (HIx 2)) (hO : ∀ g, O g none = 0) :
    iprop(levAts (K (F := F)).L (K (F := F)).lev ∗ go0 ei rf vt d L ∗ scopedBufs (thrV d L) ∗ scopedSems0 (thrV d L) ∗ owes (thrV d L) O W)
      ⊢ wp frame (wpE (defs₀ (F := F)) 𝒱₀ (thrV d L) none) Set.univ
          (cc0__sc_gather_body L (Memref.whole main_v0_scv) (Memref.isWhole_whole _) (Memref.whole main_v1_scv) (Memref.isWhole_whole _)
            (Memref.whole main_v3_scv) (Memref.isWhole_whole _) (Memref.whole main_v4_0_scv) (Memref.isWhole_whole _)
            (Memref.whole main_v4_1_scv) (Memref.isWhole_whole _) (Memref.whole main_v4_2_scv) (Memref.isWhole_whole _)
            (Memref.whole main_v4_3_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) cc0_scoped0 cc0_scoped1 cc0_scoped2 cc0_scoped3 cc0_scoped4 cc0_scoped5
            cc0_scoped6 cc0_scoped7 cc0_scoped8 cc0_scoped9 cc0_scoped10 cc0_scoped11 cc0_scoped12 cc0_scoped13)
          fun _ => iprop(td0 ei rf vt d L ∗ scopedBufs (thrV d L) ∗ scopedSems0 (thrV d L)
            ∗ ∃ W', ⌜∀ p ∈ W', p ∈ W ∨ p.2 = none⌝ ∗ owes (thrV d L) O W') := by
  have hw := (cond2_iff L).mp hc
  have hn8 : ¬ wid L < 8 := by omega
  have h16 : wid L < 16 := hw.2
  have htI : k0_t4_loop.trips = 500 := by first | rfl | decide
  have htB : k0_t3_loop.trips = 100 := by first | rfl | decide
  simp only [cc0__sc_gather_body_eq_skeleton]; unfold cc0__sc_gather_body_skel
  rw [(K (F := F)).scopedBufs_V hF d (cV L) (jV L), SparseCore.Cfg.scopedSems0_V (Val := Elt F) d (cV L) (jV L),
    ownSems0_take4 d L cc0_scoped4 cc0_scoped5 cc0_scoped6 cc0_scoped7 (by decide) (by decide) (by decide) (by decide)
      (by decide) (by decide) (by decide) (by decide) (by decide) (by decide), ownBufs_V]
  unfold go0 td0 outGo outTd
  rw [if_neg hn8, if_pos h16, if_neg hn8, if_pos h16]
  iintro ⟨#Hlv, ⟨⟨Hei, Hrf, Hvt⟩, %g0, Hout⟩, ⟨⟨%ft0, Htab⟩, ⟨%fi0, Hib⟩, ⟨%fj0, Hjb⟩, ⟨%fo0, Hob⟩, Hbufs⟩, ⟨Hs0, Hs1, Hs2, Hs3, Hsems⟩, HO⟩
  ihave Hmw := ((K (F := F)).mayWaits_none (thr := thrV d L) hO) $$ Hlv
  ihave Hvt' := (Entails.of_eq (pts_vt (F := F) d L _ _).symm) $$ Hvt
  ihave Hei' := (Entails.of_eq (pts_ei (F := F) d L _ _).symm) $$ Hei
  ihave Htab' := (Entails.of_eq (pts_tab (F := F) d L _).symm) $$ Htab
  ihave Hib' := (Entails.of_eq (pts_ib (F := F) d L _).symm) $$ Hib
  ihave Hjb' := (Entails.of_eq (pts_jb (F := F) d L _).symm) $$ Hjb
  ihave Hob' := (Entails.of_eq (pts_ob (F := F) d L _).symm) $$ Hob
  sl_exec
  sl_for (invB2 ei vt d L O W) $$ [Hmw Hei' Hout Htab' Hib' Hjb' Hob' Hs1 Hs2 Hs3 HO]
  case region =>
    intro k _
    have hk : k.val < 100 := Nat.lt_of_lt_of_le k.isLt k0_t3_abs.2.1
    unfold invB2
    iintro ⟨Hmw, Hei, ⟨%g, %hg, Hout⟩, ⟨%ft, %hft, Htab⟩, ⟨%fi, Hib⟩, ⟨%fj, Hjb⟩, ⟨%fo, Hob⟩, Hs1, Hs2, Hs3, %W', %hW', HO⟩
    sl_exec (disch := exact View.amount_pos _ _ (show 0 < S8000.numel by decide))
    sl_for (invI2 ei vt d L ft (800000 * (wid L - 8) + 8000 * k.val)) $$ [Htab Hib Hjb Hob]
    case region =>
      intro k2 _
      have hk2 : k2.val < 500 := Nat.lt_of_lt_of_le k2.isLt k0_t4_abs.2.1
      unfold invI2
      iintro ⟨Htab, ⟨%fi', %hfi, Hib⟩, ⟨%fj', %hfj, Hjb⟩, %fo', %hfo, Hob⟩
      have hchkI : ∀ (off : Fin 1 → Nat) (inb : ∀ a, off a + S16.size a ≤ S8000.size a),
          k0_chk3 L ((ibV).view.readAt (Elt F) (Rect.unit (s := S8000) off S16.size inb).toLoadRect fi') := by
        intro off inb _ a x
        obtain rfl : a = (0 : Fin 1) := Subsingleton.elim (α := Fin 1) a 0
        show (BitVec.toNat ((ibV).view.readAt (Elt F) (Rect.unit (s := S8000) off S16.size inb).toLoadRect fi' x)) < 100000
        rw [load16_ib, hfi]; exact eAt_lt ei hidx _
      have hchkJ : ∀ (off : Fin 1 → Nat) (inb : ∀ a, off a + S16.size a ≤ S8000.size a),
          k0_chk4 L ((jbV).view.readAt (Elt F) (Rect.unit (s := S8000) off S16.size inb).toLoadRect fj') := by
        intro off inb _ a x
        obtain rfl : a = (0 : Fin 1) := Subsingleton.elim (α := Fin 1) a 0
        show (BitVec.toNat ((jbV).view.readAt (Elt F) (Rect.unit (s := S8000) off S16.size inb).toLoadRect fj' x)) < 100000
        rw [load16_jb, hfj]; exact eAt_lt ei hidx _
      sl_exec (disch := first | exact hchkI _ _ | exact hchkJ _ _)

      ihave Htab' := (Entails.of_eq (pts_tab_access2 (F := F) d L _).symm) $$ Htab
      iapply (SparseCore.wp_vectorLoadIdx 𝒱₀ (thrV d L) none Set.univ (base := tabV) (S := Finset.univ) (q := fullShare) (Finset.subset_univ _)) $$ Htab'; iintro Htab'
      ihave Htab := (Entails.of_eq (pts_tab_access2 (F := F) d L _)) $$ Htab'
      sl_exec (disch := first | exact hchkI _ _ | exact hchkJ _ _)
      ihave Htab' := (Entails.of_eq (pts_tab_access2 (F := F) d L _).symm) $$ Htab
      iapply (SparseCore.wp_vectorLoadIdx 𝒱₀ (thrV d L) none Set.univ (base := tabV) (S := Finset.univ) (q := fullShare) (Finset.subset_univ _)) $$ Htab'; iintro Htab'
      ihave Htab := (Entails.of_eq (pts_tab_access2 (F := F) d L _)) $$ Htab'
      sl_exec
      sl_step

      isplitl [Htab]; · iexact Htab
      isplitl [Hib]
      · iexists _; isplitr; · ipureintro; exact hfi
        iexact Hib
      isplitl [Hjb]
      · iexists _; isplitr; · ipureintro; exact hfj
        iexact Hjb
      iexists _; isplitr; rotate_left; · iexact Hob
      ipureintro
      exact trip_val d L ei vt 1 _ k2.val ft fi' fj' fo' hft hfi hfj k0_pay2 (fun _ _ => rfl) (k0_off9 k2) (k0_off10 k2) (k0_off11 k2) _ _ _
        (by rw [k0_off9_eq]; rfl) (by rw [k0_off10_eq]; rfl) (by rw [k0_off11_eq]; rfl) _ _ hfo
    · unfold invI2
      isplitl [Htab]; · iexact Htab
      isplitl [Hib]
      · iexists _; isplitr; rotate_left; · iexact Hib
        ipureintro; exact ib_val d L ei _ fi _ _ (off7_val L k hc)
      isplitl [Hjb]
      · iexists _; isplitr; rotate_left; · iexact Hjb
        ipureintro; exact jb_val d L ei _ fj _ _ (off8_val L k hc)
      iexists _; isplitr; rotate_left; · iexact Hob
      ipureintro; intro j hj; exact absurd hj (by omega)
    iintro %_ HI
    unfold invI2
    icases HI with ⟨Htab, ⟨%fi', %hfi, Hib⟩, ⟨%fj', %hfj, Hjb⟩, %fo', %hfo, Hob⟩
    ihave Hsp := (pointsTo_split_subset (ℓ := d1Loc d) (q := fullShare) (f := g) (blk2_sub L k hc)).1 $$ Hout
    icases Hsp with ⟨Hblk, Hrest⟩
    ihave Hblk' := (Entails.of_eq (pts_blk2 (F := F) d L k hc _).symm) $$ Hblk
    sl_exec (disch := exact View.amount_pos _ _ (show 0 < S8000.numel by decide))
    sl_step

    isplitl [Hmw]; · iexact Hmw
    isplitl [Hei]; · iexact Hei
    isplitl [Hblk' Hrest]
    · iexists _; isplitr; rotate_left
      · ihave Hblk := (Entails.of_eq (pts_blk2 (F := F) d L k hc _)) $$ Hblk'
        iapply (d1_rejoin (F := F) d (wid L - 8) g _ _ _ (blk2_sub L k hc))
        isplitl [Hblk]; · iexact Hblk
        iexact Hrest
      ipureintro
      rw [show 800000 * (wid L - 8) + 8000 * (k.val + 1) = (800000 * (wid L - 8) + 8000 * k.val) + 8000 by omega]
      exact d1_blk_val d L (dval 1 ei vt) _ _ g fo' _ _ (off12_val L k hc) _ (fun _ => rfl) hg
        (fun j => hfo j (by have := (j 0).isLt; simp at this; show (j 0).val < 16 * k0_t4_loop.trips; rw [htI]; omega))
    isplitl [Htab]
    · iexists ft; isplitr; · ipureintro; exact hft
      iexact Htab
    isplitl [Hib]; · iexists _; iexact Hib
    isplitl [Hjb]; · iexists _; iexact Hjb
    isplitl [Hob]; · iexists _; iexact Hob
    isplitl [Hs1]; · iexact Hs1
    isplitl [Hs2]; · iexact Hs2
    isplitl [Hs3]; · iexact Hs3
    iexists _; isplitr; rotate_left; · iexact HO
    ipureintro; exact waits_ok (waits_ok (waits_ok hW' _) _) _
  · unfold invB2
    isplitl [Hmw]; · iexact Hmw
    isplitl [Hei']; · iexact Hei'
    isplitl [Hout]
    · iexists g0; isplitr
      · ipureintro; intro j hj hlt; exfalso
        simp only [chunk, rng, Finset.mem_filter, Finset.mem_univ, true_and] at hj; omega
      iexact Hout
    isplitl [Htab']
    · iexists _; isplitr; rotate_left; · iexact Htab'
      ipureintro; exact tab_val d L vt 1 ft0 _ _ rfl
    isplitl [Hib']; · iexists _; iexact Hib'
    isplitl [Hjb']; · iexists _; iexact Hjb'
    isplitl [Hob']; · iexists _; iexact Hob'
    isplitl [Hs1]; · iexact Hs1
    isplitl [Hs2]; · iexact Hs2
    isplitl [Hs3]; · iexact Hs3
    iexists _; isplitr; rotate_left; · iexact HO
    ipureintro; exact waits_ok (fun p hp => .inl hp) _
  iintro %_ HI
  unfold invB2
  icases HI with ⟨-, Hei, ⟨%g, %hg, Hout⟩, ⟨%ft, %hft, Htab⟩, ⟨%fi, Hib⟩, ⟨%fj, Hjb⟩, ⟨%fo, Hob⟩, Hs1, Hs2, Hs3, %W', %hW', HO⟩
  sl_exec
  sl_step

  have hfin : ∀ i ∈ chunk (wid L - 8), g i = specD 1 ei vt i := by
    intro i hi
    refine (hg i hi ?_).trans (specD_dval 1 ei vt i).symm
    show (i 0).val < 800000 * (wid L - 8) + 8000 * k0_t3_loop.trips
    rw [htB]; simp only [chunk, rng, Finset.mem_filter, Finset.mem_univ, true_and] at hi; omega
  isplitl [Hei Hrf Hvt' Hout]
  · isplitl [Hei Hrf Hvt']
    · isplitl [Hei]; · iapply (Entails.of_eq (pts_ei (F := F) d L _ _)); iexact Hei
      isplitl [Hrf]; · iexact Hrf
      iapply (Entails.of_eq (pts_vt (F := F) d L _ _)); iexact Hvt'
    · iapply (Entails.of_eq (pointsTo_congr (ℓ := d1Loc d) (q := fullShare) hfin)); iexact Hout
  isplitl [Htab Hib Hjb Hob Hbufs]
  · isplitl [Htab]; · iexists _; iapply (Entails.of_eq (pts_tab (F := F) d L _)); iexact Htab
    isplitl [Hib]; · iexists _; iapply (Entails.of_eq (pts_ib (F := F) d L _)); iexact Hib
    isplitl [Hjb]; · iexists _; iapply (Entails.of_eq (pts_jb (F := F) d L _)); iexact Hjb
    isplitl [Hob]; · iexists _; iapply (Entails.of_eq (pts_ob (F := F) d L _)); iexact Hob
    iexact Hbufs
  isplitl [Hs0 Hs1 Hs2 Hs3 Hsems]
  · isplitl [Hs0]; · iexact Hs0
    isplitl [Hs1]; · iexact Hs1
    isplitl [Hs2]; · iexact Hs2
    isplitl [Hs3]; · iexact Hs3
    iexact Hsems
  iexists W'; isplitr
  · ipureintro; exact hW'
  · iexact HO

end Cert.Proof.KW.Ga

end
-- ==== Proof.GatherTileV3W.lean ====
import proofs.«204254_g40355512713743_retrytranche2_1723_12_alg».proof.Proof.CommonW
import Idealize.ShloMosaic.Lib.ValueIdx
import proofs.«204254_g40355512713743_retrytranche2_1723_12_alg».proof.Proof.GatherTileLibW
import proofs.«204254_g40355512713743_retrytranche2_1723_12_alg».proof.Proof.GatherTileValW

noncomputable section

namespace Cert.Proof.KW.Ga

open Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 eq_ix1)

variable {F : FTy → Type}

local notation "𝕄" => MT nD τ sig (HIx 2) (Elt F) ℕ UU ℕ

variable [FloatOps F]

section V3

variable (ei : S12800000.Idx → Elt F .i32) (vt : S300000.Idx → Elt F .f32) (d : Dev nD) (L : grid0.Coords)

/-- Block `k` of the tile's chunk of its output, as the kernel slices it. -/
abbrev outS3 (k : Fin k0_t5_loop.trips) (hc : k0_cond3 L = 1#1) : Memref sig .scVector .hbm S8000 .f32 :=
  (d2V).slice (Rect.unit (s := S6400000) (k0_off18 L k) S8000.size (k0_off18_inb L k hc)) (fun _ => rfl)

omit [FloatOps F] in
theorem pts_blk3 (k : Fin k0_t5_loop.trips) (hc : k0_cond3 L = 1#1) (g : Buf (Elt F) (d2Loc d)) :
    ((outS3 L k hc).view.loc (thrV d L) ↦[(outS3 L k hc).view.set]{fullShare} g : sProp 𝕄)
      = (d2Loc d ↦[(outS3 L k hc).view.set]{fullShare} g) := rfl

omit [FloatOps F] in
theorem blk3_set (k : Fin k0_t5_loop.trips) (hc : k0_cond3 L = 1#1) :
    (outS3 L k hc).view.set = rng (800000 * (wid L - 16) + 8000 * k.val) (800000 * (wid L - 16) + 8000 * k.val + 8000) :=
  (d2_set (k0_off18 L k) (k0_off18_inb L k hc)).trans (by rw [off18_val L k hc])

omit [FloatOps F] in
theorem blk3_sub (k : Fin k0_t5_loop.trips) (hc : k0_cond3 L = 1#1) : (outS3 L k hc).view.set ⊆ chunk (wid L - 16) := by
  rw [blk3_set]
  have hk : k.val < 100 := Nat.lt_of_lt_of_le k.isLt k0_t5_abs.2.1
  intro j
  simp only [chunk, rng, Finset.mem_filter, Finset.mem_univ, true_and]
  omega

omit [FloatOps F] in
theorem pts_tab_access3 (ft : Buf (Elt F) ((thrV d L).loc cc0_scratch0)) :
    (((tabV).access (.whole S100000)).loc (thrV d L) ↦{fullShare} ft : sProp 𝕄) = ((tabV).view.loc (thrV d L) ↦{fullShare} ft) := rfl

/-- The inner loop's invariant: the table and the index blocks as they are, the out scratch's first `16 k` entries computed. -/
def invI3 (ft : Buf (Elt F) ((thrV d L).loc cc0_scratch0)) (base : Nat) (k : Nat) (_ : BitVec 32) : sProp 𝕄 :=
  iprop(((tabV).view.loc (thrV d L) ↦{fullShare} ft)
    ∗ (∃ fi : Buf (Elt F) ((thrV d L).loc cc0_scratch1), ⌜IdxOK ei base fi⌝ ∗ (ibV).view.loc (thrV d L) ↦{fullShare} fi)
    ∗ (∃ fj : Buf (Elt F) ((thrV d L).loc cc0_scratch2), ⌜IdxOK ei (6400000 + base) fj⌝ ∗ (jbV).view.loc (thrV d L) ↦{fullShare} fj)
    ∗ ∃ fo : Buf (Elt F) ((thrV d L).loc cc0_scratch3), ⌜∀ j : S8000.Idx, (j 0).val < 16 * k → fo j = dval 2 ei vt (base + (j 0).val)⌝
        ∗ (obV).view.loc (thrV d L) ↦{fullShare} fo)

/-- The block loop's invariant: the edge indices' read share, the chunk with its first `k` blocks computed, the table, the
    scratches, the three semaphores at zero, the tile's debts. -/
def invB3 (O : CellTallies nD τ sig (HIx 2)) (W : Waits sig (HIx 2)) (k : Nat) (_ : BitVec 32) : sProp 𝕄 :=
  iprop(Transfers.MayWaits (thrV d L) (none : HIx 2) O
    ∗ ((eiV).view.loc (thrV d L) ↦{tsh L} ei)
    ∗ (∃ g : Buf (Elt F) (d2Loc d), ⌜∀ j ∈ chunk (wid L - 16), (j 0).val < 800000 * (wid L - 16) + 8000 * k → g j = dval 2 ei vt (j 0).val⌝
        ∗ d2Loc d ↦[chunk (wid L - 16)]{fullShare} g)
    ∗ (∃ ft : Buf (Elt F) ((thrV d L).loc cc0_scratch0), ⌜TabOK vt 2 ft⌝ ∗ (tabV).view.loc (thrV d L) ↦{fullShare} ft)
    ∗ (∃ f, (ibV).view.loc (thrV d L) ↦{fullShare} f) ∗ (∃ f, (jbV).view.loc (thrV d L) ↦{fullShare} f) ∗ (∃ f, (obV).view.loc (thrV d L) ↦{fullShare} f)
    ∗ semVal (cellV d L cc0_scoped9) 0 ∗ semVal (cellV d L cc0_scoped10) 0 ∗ semVal (cellV d L cc0_scoped11) 0
    ∗ ∃ W', ⌜∀ p ∈ W', p ∈ W ∨ p.2 = none⌝ ∗ owes (thrV d L) O W')

end V3

set_option maxHeartbeats 4000000 in
theorem tile_v3 (ei : S12800000.Idx → Elt F .i32) (rf : S19200000.Idx → Elt F .f32) (vt : S300000.Idx → Elt F .f32)
    (hF : (K (F := F)).Facts) (hidx : ∀ j, (BitVec.toNat (show BitVec 32 from ei j)) < 100000) (d : Dev nD) (L : grid0.Coords) (h1 : ¬ k0_cond1 L = 1#1) (h2 : ¬ k0_cond2 L = 1#1) (hc : k0_cond3 L = 1#1) (h4 : ¬ k0_cond4 L = 1#1)
    (O : CellTallies nD τ sig (HIx 2)) (W : Waits sig (HIx 2)) (hO : ∀ g, O g none = 0) :
    iprop(levAts (K (F := F)).L (K (F := F)).lev ∗ go0 ei rf vt d L ∗ scopedBufs (thrV d L) ∗ scopedSems0 (thrV d L) ∗ owes (thrV d L) O W)
      ⊢ wp frame (wpE (defs₀ (F := F)) 𝒱₀ (thrV d L) none) Set.univ
          (cc0__sc_gather_body L (Memref.whole main_v0_scv) (Memref.isWhole_whole _) (Memref.whole main_v1_scv) (Memref.isWhole_whole _)
            (Memref.whole main_v3_scv) (Memref.isWhole_whole _) (Memref.whole main_v4_0_scv) (Memref.isWhole_whole _)
            (Memref.whole main_v4_1_scv) (Memref.isWhole_whole _) (Memref.whole main_v4_2_scv) (Memref.isWhole_whole _)
            (Memref.whole main_v4_3_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) cc0_scoped0 cc0_scoped1 cc0_scoped2 cc0_scoped3 cc0_scoped4 cc0_scoped5
            cc0_scoped6 cc0_scoped7 cc0_scoped8 cc0_scoped9 cc0_scoped10 cc0_scoped11 cc0_scoped12 cc0_scoped13)
          fun _ => iprop(td0 ei rf vt d L ∗ scopedBufs (thrV d L) ∗ scopedSems0 (thrV d L)
            ∗ ∃ W', ⌜∀ p ∈ W', p ∈ W ∨ p.2 = none⌝ ∗ owes (thrV d L) O W') := by
  have hw := (cond3_iff L).mp hc
  have hn8 : ¬ wid L < 8 := by omega
  have hn16 : ¬ wid L < 16 := by omega
  have h24 : wid L < 24 := hw.2
  have htI : k0_t6_loop.trips = 500 := by first | rfl | decide
  have htB : k0_t5_loop.trips = 100 := by first | rfl | decide
  simp only [cc0__sc_gather_body_eq_skeleton]; unfold cc0__sc_gather_body_skel
  rw [(K (F := F)).scopedBufs_V hF d (cV L) (jV L), SparseCore.Cfg.scopedSems0_V (Val := Elt F) d (cV L) (jV L),
    ownSems0_take4 d L cc0_scoped8 cc0_scoped9 cc0_scoped10 cc0_scoped11 (by decide) (by decide) (by decide) (by decide)
      (by decide) (by decide) (by decide) (by decide) (by decide) (by decide), ownBufs_V]
  unfold go0 td0 outGo outTd
  rw [if_neg hn8, if_neg hn16, if_pos h24, if_neg hn8, if_neg hn16, if_pos h24]
  iintro ⟨#Hlv, ⟨⟨Hei, Hrf, Hvt⟩, %g0, Hout⟩, ⟨⟨%ft0, Htab⟩, ⟨%fi0, Hib⟩, ⟨%fj0, Hjb⟩, ⟨%fo0, Hob⟩, Hbufs⟩, ⟨Hs0, Hs1, Hs2, Hs3, Hsems⟩, HO⟩
  ihave Hmw := ((K (F := F)).mayWaits_none (thr := thrV d L) hO) $$ Hlv
  ihave Hvt' := (Entails.of_eq (pts_vt (F := F) d L _ _).symm) $$ Hvt
  ihave Hei' := (Entails.of_eq (pts_ei (F := F) d L _ _).symm) $$ Hei
  ihave Htab' := (Entails.of_eq (pts_tab (F := F) d L _).symm) $$ Htab
  ihave Hib' := (Entails.of_eq (pts_ib (F := F) d L _).symm) $$ Hib
  ihave Hjb' := (Entails.of_eq (pts_jb (F := F) d L _).symm) $$ Hjb
  ihave Hob' := (Entails.of_eq (pts_ob (F := F) d L _).symm) $$ Hob
  sl_exec
  sl_for (invB3 ei vt d L O W) $$ [Hmw Hei' Hout Htab' Hib' Hjb' Hob' Hs1 Hs2 Hs3 HO]
  case region =>
    intro k _
    have hk : k.val < 100 := Nat.lt_of_lt_of_le k.isLt k0_t5_abs.2.1
    unfold invB3
    iintro ⟨Hmw, Hei, ⟨%g, %hg, Hout⟩, ⟨%ft, %hft, Htab⟩, ⟨%fi, Hib⟩, ⟨%fj, Hjb⟩, ⟨%fo, Hob⟩, Hs1, Hs2, Hs3, %W', %hW', HO⟩
    sl_exec (disch := exact View.amount_pos _ _ (show 0 < S8000.numel by decide))
    sl_for (invI3 ei vt d L ft (800000 * (wid L - 16) + 8000 * k.val)) $$ [Htab Hib Hjb Hob]
    case region =>
      intro k2 _
      have hk2 : k2.val < 500 := Nat.lt_of_lt_of_le k2.isLt k0_t6_abs.2.1
      unfold invI3
      iintro ⟨Htab, ⟨%fi', %hfi, Hib⟩, ⟨%fj', %hfj, Hjb⟩, %fo', %hfo, Hob⟩
      have hchkI : ∀ (off : Fin 1 → Nat) (inb : ∀ a, off a + S16.size a ≤ S8000.size a),
          k0_chk5 L ((ibV).view.readAt (Elt F) (Rect.unit (s := S8000) off S16.size inb).toLoadRect fi') := by
        intro off inb _ a x
        obtain rfl : a = (0 : Fin 1) := Subsingleton.elim (α := Fin 1) a 0
        show (BitVec.toNat ((ibV).view.readAt (Elt F) (Rect.unit (s := S8000) off S16.size inb).toLoadRect fi' x)) < 100000
        rw [load16_ib, hfi]; exact eAt_lt ei hidx _
      have hchkJ : ∀ (off : Fin 1 → Nat) (inb : ∀ a, off a + S16.size a ≤ S8000.size a),
          k0_chk6 L ((jbV).view.readAt (Elt F) (Rect.unit (s := S8000) off S16.size inb).toLoadRect fj') := by
        intro off inb _ a x
        obtain rfl : a = (0 : Fin 1) := Subsingleton.elim (α := Fin 1) a 0
        show (BitVec.toNat ((jbV).view.readAt (Elt F) (Rect.unit (s := S8000) off S16.size inb).toLoadRect fj' x)) < 100000
        rw [load16_jb, hfj]; exact eAt_lt ei hidx _
      sl_exec (disch := first | exact hchkI _ _ | exact hchkJ _ _)

      ihave Htab' := (Entails.of_eq (pts_tab_access3 (F := F) d L _).symm) $$ Htab
      iapply (SparseCore.wp_vectorLoadIdx 𝒱₀ (thrV d L) none Set.univ (base := tabV) (S := Finset.univ) (q := fullShare) (Finset.subset_univ _)) $$ Htab'; iintro Htab'
      ihave Htab := (Entails.of_eq (pts_tab_access3 (F := F) d L _)) $$ Htab'
      sl_exec (disch := first | exact hchkI _ _ | exact hchkJ _ _)
      ihave Htab' := (Entails.of_eq (pts_tab_access3 (F := F) d L _).symm) $$ Htab
      iapply (SparseCore.wp_vectorLoadIdx 𝒱₀ (thrV d L) none Set.univ (base := tabV) (S := Finset.univ) (q := fullShare) (Finset.subset_univ _)) $$ Htab'; iintro Htab'
      ihave Htab := (Entails.of_eq (pts_tab_access3 (F := F) d L _)) $$ Htab'
      sl_exec
      sl_step

      isplitl [Htab]; · iexact Htab
      isplitl [Hib]
      · iexists _; isplitr; · ipureintro; exact hfi
        iexact Hib
      isplitl [Hjb]
      · iexists _; isplitr; · ipureintro; exact hfj
        iexact Hjb
      iexists _; isplitr; rotate_left; · iexact Hob
      ipureintro
      exact trip_val d L ei vt 2 _ k2.val ft fi' fj' fo' hft hfi hfj k0_pay3 (fun _ _ => rfl) (k0_off15 k2) (k0_off16 k2) (k0_off17 k2) _ _ _
        (by rw [k0_off15_eq]; rfl) (by rw [k0_off16_eq]; rfl) (by rw [k0_off17_eq]; rfl) _ _ hfo
    · unfold invI3
      isplitl [Htab]; · iexact Htab
      isplitl [Hib]
      · iexists _; isplitr; rotate_left; · iexact Hib
        ipureintro; exact ib_val d L ei _ fi _ _ (off13_val L k hc)
      isplitl [Hjb]
      · iexists _; isplitr; rotate_left; · iexact Hjb
        ipureintro; exact jb_val d L ei _ fj _ _ (off14_val L k hc)
      iexists _; isplitr; rotate_left; · iexact Hob
      ipureintro; intro j hj; exact absurd hj (by omega)
    iintro %_ HI
    unfold invI3
    icases HI with ⟨Htab, ⟨%fi', %hfi, Hib⟩, ⟨%fj', %hfj, Hjb⟩, %fo', %hfo, Hob⟩
    ihave Hsp := (pointsTo_split_subset (ℓ := d2Loc d) (q := fullShare) (f := g) (blk3_sub L k hc)).1 $$ Hout
    icases Hsp with ⟨Hblk, Hrest⟩
    ihave Hblk' := (Entails.of_eq (pts_blk3 (F := F) d L k hc _).symm) $$ Hblk
    sl_exec (disch := exact View.amount_pos _ _ (show 0 < S8000.numel by decide))
    sl_step

    isplitl [Hmw]; · iexact Hmw
    isplitl [Hei]; · iexact Hei
    isplitl [Hblk' Hrest]
    · iexists _; isplitr; rotate_left
      · ihave Hblk := (Entails.of_eq (pts_blk3 (F := F) d L k hc _)) $$ Hblk'
        iapply (d2_rejoin (F := F) d (wid L - 16) g _ _ _ (blk3_sub L k hc))
        isplitl [Hblk]; · iexact Hblk
        iexact Hrest
      ipureintro
      rw [show 800000 * (wid L - 16) + 8000 * (k.val + 1) = (800000 * (wid L - 16) + 8000 * k.val) + 8000 by omega]
      exact d2_blk_val d L (dval 2 ei vt) _ _ g fo' _ _ (off18_val L k hc) _ (fun _ => rfl) hg
        (fun j => hfo j (by have := (j 0).isLt; simp at this; show (j 0).val < 16 * k0_t6_loop.trips; rw [htI]; omega))
    isplitl [Htab]
    · iexists ft; isplitr; · ipureintro; exact hft
      iexact Htab
    isplitl [Hib]; · iexists _; iexact Hib
    isplitl [Hjb]; · iexists _; iexact Hjb
    isplitl [Hob]; · iexists _; iexact Hob
    isplitl [Hs1]; · iexact Hs1
    isplitl [Hs2]; · iexact Hs2
    isplitl [Hs3]; · iexact Hs3
    iexists _; isplitr; rotate_left; · iexact HO
    ipureintro; exact waits_ok (waits_ok (waits_ok hW' _) _) _
  · unfold invB3
    isplitl [Hmw]; · iexact Hmw
    isplitl [Hei']; · iexact Hei'
    isplitl [Hout]
    · iexists g0; isplitr
      · ipureintro; intro j hj hlt; exfalso
        simp only [chunk, rng, Finset.mem_filter, Finset.mem_univ, true_and] at hj; omega
      iexact Hout
    isplitl [Htab']
    · iexists _; isplitr; rotate_left; · iexact Htab'
      ipureintro; exact tab_val d L vt 2 ft0 _ _ rfl
    isplitl [Hib']; · iexists _; iexact Hib'
    isplitl [Hjb']; · iexists _; iexact Hjb'
    isplitl [Hob']; · iexists _; iexact Hob'
    isplitl [Hs1]; · iexact Hs1
    isplitl [Hs2]; · iexact Hs2
    isplitl [Hs3]; · iexact Hs3
    iexists _; isplitr; rotate_left; · iexact HO
    ipureintro; exact waits_ok (fun p hp => .inl hp) _
  iintro %_ HI
  unfold invB3
  icases HI with ⟨-, Hei, ⟨%g, %hg, Hout⟩, ⟨%ft, %hft, Htab⟩, ⟨%fi, Hib⟩, ⟨%fj, Hjb⟩, ⟨%fo, Hob⟩, Hs1, Hs2, Hs3, %W', %hW', HO⟩
  sl_exec
  sl_step

  have hfin : ∀ i ∈ chunk (wid L - 16), g i = specD 2 ei vt i := by
    intro i hi
    refine (hg i hi ?_).trans (specD_dval 2 ei vt i).symm
    show (i 0).val < 800000 * (wid L - 16) + 8000 * k0_t5_loop.trips
    rw [htB]; simp only [chunk, rng, Finset.mem_filter, Finset.mem_univ, true_and] at hi; omega
  isplitl [Hei Hrf Hvt' Hout]
  · isplitl [Hei Hrf Hvt']
    · isplitl [Hei]; · iapply (Entails.of_eq (pts_ei (F := F) d L _ _)); iexact Hei
      isplitl [Hrf]; · iexact Hrf
      iapply (Entails.of_eq (pts_vt (F := F) d L _ _)); iexact Hvt'
    · iapply (Entails.of_eq (pointsTo_congr (ℓ := d2Loc d) (q := fullShare) hfin)); iexact Hout
  isplitl [Htab Hib Hjb Hob Hbufs]
  · isplitl [Htab]; · iexists _; iapply (Entails.of_eq (pts_tab (F := F) d L _)); iexact Htab
    isplitl [Hib]; · iexists _; iapply (Entails.of_eq (pts_ib (F := F) d L _)); iexact Hib
    isplitl [Hjb]; · iexists _; iapply (Entails.of_eq (pts_jb (F := F) d L _)); iexact Hjb
    isplitl [Hob]; · iexists _; iapply (Entails.of_eq (pts_ob (F := F) d L _)); iexact Hob
    iexact Hbufs
  isplitl [Hs0 Hs1 Hs2 Hs3 Hsems]
  · isplitl [Hs0]; · iexact Hs0
    isplitl [Hs1]; · iexact Hs1
    isplitl [Hs2]; · iexact Hs2
    isplitl [Hs3]; · iexact Hs3
    iexact Hsems
  iexists W'; isplitr
  · ipureintro; exact hW'
  · iexact HO

end Cert.Proof.KW.Ga

end
-- ==== Proof.GatherTileCallW.lean ====
import proofs.«204254_g40355512713743_retrytranche2_1723_12_alg».proof.Proof.CommonW
import Idealize.ShloMosaic.Lib.ValueIdx
import proofs.«204254_g40355512713743_retrytranche2_1723_12_alg».proof.Proof.GatherTileDefsW

noncomputable section

namespace Cert.Proof.KW.Ga

open Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 eq_ix1)

variable {F : FTy → Type}

local notation "𝕄" => MT nD τ sig (HIx 2) (Elt F) ℕ UU ℕ

variable [FloatOps F]

section Call

variable (ei : S12800000.Idx → Elt F .i32) (rf : S19200000.Idx → Elt F .f32) (vt : S300000.Idx → Elt F .f32) (d : Dev nD)

/-! ## Tiles by their numbers -/

omit [FloatOps F] in
/-- A tile's chunk of its output array at some contents, by the tile's number. -/
def outGoW (d : Dev nD) (w : Nat) : sProp 𝕄 :=
  if w < 8 then iprop(∃ g, d0Loc d ↦[chunk w]{fullShare} g)
  else if w < 16 then iprop(∃ g, d1Loc d ↦[chunk (w - 8)]{fullShare} g)
  else if w < 24 then iprop(∃ g, d2Loc d ↦[chunk (w - 16)]{fullShare} g)
  else iprop(∃ g, r2Loc d ↦[chunk (w - 24)]{fullShare} g)
/-- and at what the call computes. -/
def outTdW (d : Dev nD) (w : Nat) : sProp 𝕄 :=
  if w < 8 then iprop(d0Loc d ↦[chunk w]{fullShare} specD 0 ei vt)
  else if w < 16 then iprop(d1Loc d ↦[chunk (w - 8)]{fullShare} specD 1 ei vt)
  else if w < 24 then iprop(d2Loc d ↦[chunk (w - 16)]{fullShare} specD 2 ei vt)
  else iprop(r2Loc d ↦[chunk (w - 24)]{fullShare} specR2 rf)

omit [FloatOps F] in
theorem wid_coords0 (c : Fin 2) (i : Fin 16) : wid (coords0 c i) = 2 * i.val + c.val := rfl

/-- Tile numbers: twice the subcore plus the core. -/
def tileEquiv : Fin 2 × Fin 16 ≃ Fin 32 where
  toFun p := ⟨2 * p.2.val + p.1.val, by omega⟩
  invFun w := (⟨w.val % 2, by omega⟩, ⟨w.val / 2, by omega⟩)
  left_inv p := by ext <;> simp <;> omega
  right_inv w := by ext; simp; omega

omit [FloatOps F] in
/-- The two SparseCores' sixteen tiles each are the thirty-two tile numbers. -/
theorem tiles_eq (Φ : Nat → sProp 𝕄) :
    iprop((bigSep Finset.univ fun i : Fin 16 => Φ (2 * i.val + (0 : Fin 2).val)) ∗ (bigSep Finset.univ fun i : Fin 16 => Φ (2 * i.val + (1 : Fin 2).val)))
      = bigSep (Finset.univ : Finset (Fin 32)) fun w => Φ w.val := by
  refine Eq.symm ?_
  rw [bigSep_univ_equiv tileEquiv (fun w : Fin 32 => Φ w.val), bigSep_univ_prod, bigSep_univ_two]
  rfl

theorem st_eq : iprop(st0 ei rf vt d 0 ∗ st0 ei rf vt d 1)
    = bigSep (Finset.univ : Finset (Fin 32)) fun w => iprop(ins ei rf vt d (Transfers.shareTokN fullShare w.val) ∗ outGoW (F := F) d w.val) :=
  tiles_eq (fun w => iprop(ins ei rf vt d (Transfers.shareTokN fullShare w) ∗ outGoW (F := F) d w))
theorem dn_eq : iprop(dn0 ei rf vt d 0 ∗ dn0 ei rf vt d 1)
    = bigSep (Finset.univ : Finset (Fin 32)) fun w => iprop(ins ei rf vt d (Transfers.shareTokN fullShare w.val) ∗ outTdW ei rf vt d w.val) :=
  tiles_eq (fun w => iprop(ins ei rf vt d (Transfers.shareTokN fullShare w) ∗ outTdW ei rf vt d w))

omit [FloatOps F] in
theorem ex_intro_pts {ℓ : Loc nD τ sig} {I : Finset (Idx ℓ)} (f : Buf (Elt F) ℓ) :
    (ℓ ↦[I]{fullShare} f : sProp 𝕄) ⊢ iprop(∃ g, ℓ ↦[I]{fullShare} g) := by
  iintro H; iexists f; iexact H

/-! ## The eight tiles of an output array and their chunks -/

/-- The tile numbers `[lo, lo + 8)`. -/
def T8 (lo : Nat) : Finset (Fin 32) := Finset.univ.filter fun w => lo ≤ w.val ∧ w.val < lo + 8

omit [FloatOps F] in
theorem T8_cover : (Finset.univ : Finset (Fin 32)) = T8 0 ∪ (T8 8 ∪ (T8 16 ∪ T8 24)) := by decide
omit [FloatOps F] in
theorem T8_d1 : Disjoint (T8 0) (T8 8 ∪ (T8 16 ∪ T8 24)) := by decide
omit [FloatOps F] in
theorem T8_d2 : Disjoint (T8 8) (T8 16 ∪ T8 24) := by decide
omit [FloatOps F] in
theorem T8_d3 : Disjoint (T8 16) (T8 24) := by decide

omit [FloatOps F] in
theorem chunks_cover (lo : Nat) (hlo : lo + 8 ≤ 32) : (T8 lo).biUnion (fun w => chunk (w.val - lo)) = (Finset.univ : Finset S6400000.Idx) := by
  ext j
  have hj : (j 0).val < 6400000 := by have := (j 0).isLt; simp at this; omega
  simp only [Finset.mem_biUnion, Finset.mem_univ, iff_true]
  refine ⟨⟨lo + (j 0).val / 800000, by omega⟩, ?_, ?_⟩
  · unfold T8; simp only [Finset.mem_filter, Finset.mem_univ, true_and]; omega
  · simp only [chunk, rng, Finset.mem_filter, Finset.mem_univ, true_and]; omega

omit [FloatOps F] in
theorem chunks_disj (lo : Nat) : ∀ w ∈ T8 lo, ∀ w' ∈ T8 lo, w ≠ w' → Disjoint (chunk (w.val - lo)) (chunk (w'.val - lo)) := by
  intro w hw w' hw' hne
  unfold T8 at hw hw'
  simp only [Finset.mem_filter, Finset.mem_univ, true_and] at hw hw'
  rw [Finset.disjoint_left]
  intro j hj hj'
  simp only [chunk, rng, Finset.mem_filter, Finset.mem_univ, true_and] at hj hj'
  exact hne (Fin.ext (by omega))

omit [FloatOps F] in
theorem d0Loc_chunks (f : Buf (Elt F) (d0Loc d)) :
    (d0Loc d ↦{fullShare} f : sProp 𝕄) = bigSep (T8 0) fun w => d0Loc d ↦[chunk (w.val - 0)]{fullShare} f := by
  rw [← pointsTo_biUnion (T8 0) (ℓ := d0Loc d) (fun w => chunk (w.val - 0)) (chunks_disj 0), chunks_cover 0 (by omega)]

omit [FloatOps F] in
theorem d0Loc_go : iprop(∃ f, d0Loc d ↦{fullShare} f) ⊢ (bigSep (T8 0) fun w => outGoW (F := F) d w.val : sProp 𝕄) := by
  have key : ∀ f : Buf (Elt F) (d0Loc d), (d0Loc d ↦{fullShare} f : sProp 𝕄) ⊢ bigSep (T8 0) fun w => outGoW (F := F) d w.val := by
    intro f
    rw [d0Loc_chunks]
    refine bigSep_mono ?_
    intro w hw
    unfold T8 at hw; simp only [Finset.mem_filter, Finset.mem_univ, true_and] at hw
    unfold outGoW
    rw [if_pos (by omega)]
    exact ex_intro_pts f
  iintro ⟨%f, H⟩
  iapply (key f); iexact H

theorem d0Loc_td : (bigSep (T8 0) fun w => outTdW ei rf vt d w.val : sProp 𝕄) ⊢ (d0Loc d ↦{fullShare} specD 0 ei vt) := by
  rw [d0Loc_chunks]
  refine bigSep_mono ?_
  intro w hw
  unfold T8 at hw; simp only [Finset.mem_filter, Finset.mem_univ, true_and] at hw
  unfold outTdW
  rw [if_pos (by omega)]
  exact Entails.refl _

omit [FloatOps F] in
theorem d1Loc_chunks (f : Buf (Elt F) (d1Loc d)) :
    (d1Loc d ↦{fullShare} f : sProp 𝕄) = bigSep (T8 8) fun w => d1Loc d ↦[chunk (w.val - 8)]{fullShare} f := by
  rw [← pointsTo_biUnion (T8 8) (ℓ := d1Loc d) (fun w => chunk (w.val - 8)) (chunks_disj 8), chunks_cover 8 (by omega)]

omit [FloatOps F] in
theorem d1Loc_go : iprop(∃ f, d1Loc d ↦{fullShare} f) ⊢ (bigSep (T8 8) fun w => outGoW (F := F) d w.val : sProp 𝕄) := by
  have key : ∀ f : Buf (Elt F) (d1Loc d), (d1Loc d ↦{fullShare} f : sProp 𝕄) ⊢ bigSep (T8 8) fun w => outGoW (F := F) d w.val := by
    intro f
    rw [d1Loc_chunks]
    refine bigSep_mono ?_
    intro w hw
    unfold T8 at hw; simp only [Finset.mem_filter, Finset.mem_univ, true_and] at hw
    unfold outGoW
    rw [if_neg (by omega), if_pos (by omega)]
    exact ex_intro_pts f
  iintro ⟨%f, H⟩
  iapply (key f); iexact H

theorem d1Loc_td : (bigSep (T8 8) fun w => outTdW ei rf vt d w.val : sProp 𝕄) ⊢ (d1Loc d ↦{fullShare} specD 1 ei vt) := by
  rw [d1Loc_chunks]
  refine bigSep_mono ?_
  intro w hw
  unfold T8 at hw; simp only [Finset.mem_filter, Finset.mem_univ, true_and] at hw
  unfold outTdW
  rw [if_neg (by omega), if_pos (by omega)]
  exact Entails.refl _

omit [FloatOps F] in
theorem d2Loc_chunks (f : Buf (Elt F) (d2Loc d)) :
    (d2Loc d ↦{fullShare} f : sProp 𝕄) = bigSep (T8 16) fun w => d2Loc d ↦[chunk (w.val - 16)]{fullShare} f := by
  rw [← pointsTo_biUnion (T8 16) (ℓ := d2Loc d) (fun w => chunk (w.val - 16)) (chunks_disj 16), chunks_cover 16 (by omega)]

omit [FloatOps F] in
theorem d2Loc_go : iprop(∃ f, d2Loc d ↦{fullShare} f) ⊢ (bigSep (T8 16) fun w => outGoW (F := F) d w.val : sProp 𝕄) := by
  have key : ∀ f : Buf (Elt F) (d2Loc d), (d2Loc d ↦{fullShare} f : sProp 𝕄) ⊢ bigSep (T8 16) fun w => outGoW (F := F) d w.val := by
    intro f
    rw [d2Loc_chunks]
    refine bigSep_mono ?_
    intro w hw
    unfold T8 at hw; simp only [Finset.mem_filter, Finset.mem_univ, true_and] at hw
    unfold outGoW
    rw [if_neg (by omega), if_neg (by omega), if_pos (by omega)]
    exact ex_intro_pts f
  iintro ⟨%f, H⟩
  iapply (key f); iexact H

theorem d2Loc_td : (bigSep (T8 16) fun w => outTdW ei rf vt d w.val : sProp 𝕄) ⊢ (d2Loc d ↦{fullShare} specD 2 ei vt) := by
  rw [d2Loc_chunks]
  refine bigSep_mono ?_
  intro w hw
  unfold T8 at hw; simp only [Finset.mem_filter, Finset.mem_univ, true_and] at hw
  unfold outTdW
  rw [if_neg (by omega), if_neg (by omega), if_pos (by omega)]
  exact Entails.refl _

omit [FloatOps F] in
theorem r2Loc_chunks (f : Buf (Elt F) (r2Loc d)) :
    (r2Loc d ↦{fullShare} f : sProp 𝕄) = bigSep (T8 24) fun w => r2Loc d ↦[chunk (w.val - 24)]{fullShare} f := by
  rw [← pointsTo_biUnion (T8 24) (ℓ := r2Loc d) (fun w => chunk (w.val - 24)) (chunks_disj 24), chunks_cover 24 (by omega)]

omit [FloatOps F] in
theorem r2Loc_go : iprop(∃ f, r2Loc d ↦{fullShare} f) ⊢ (bigSep (T8 24) fun w => outGoW (F := F) d w.val : sProp 𝕄) := by
  have key : ∀ f : Buf (Elt F) (r2Loc d), (r2Loc d ↦{fullShare} f : sProp 𝕄) ⊢ bigSep (T8 24) fun w => outGoW (F := F) d w.val := by
    intro f
    rw [r2Loc_chunks]
    refine bigSep_mono ?_
    intro w hw
    unfold T8 at hw; simp only [Finset.mem_filter, Finset.mem_univ, true_and] at hw
    unfold outGoW
    rw [if_neg (by omega), if_neg (by omega), if_neg (by omega)]
    exact ex_intro_pts f
  iintro ⟨%f, H⟩
  iapply (key f); iexact H

theorem r2Loc_td : (bigSep (T8 24) fun w => outTdW ei rf vt d w.val : sProp 𝕄) ⊢ (r2Loc d ↦{fullShare} specR2 rf) := by
  rw [r2Loc_chunks]
  refine bigSep_mono ?_
  intro w hw
  unfold T8 at hw; simp only [Finset.mem_filter, Finset.mem_univ, true_and] at hw
  unfold outTdW
  rw [if_neg (by omega), if_neg (by omega), if_neg (by omega)]
  exact Entails.refl _

omit [FloatOps F] in
theorem outs_go : iprop((∃ f, r2Loc d ↦{fullShare} f) ∗ (∃ f, d0Loc d ↦{fullShare} f) ∗ (∃ f, d1Loc d ↦{fullShare} f) ∗ ∃ f, d2Loc d ↦{fullShare} f)
    ⊢ (bigSep (Finset.univ : Finset (Fin 32)) fun w => outGoW (F := F) d w.val : sProp 𝕄) := by
  rw [T8_cover, SparseCore.bigSep_union' T8_d1, SparseCore.bigSep_union' T8_d2, SparseCore.bigSep_union' T8_d3]
  iintro ⟨H3, H0, H1, H2⟩
  isplitl [H0]; · iapply (d0Loc_go (F := F) d); iexact H0
  isplitl [H1]; · iapply (d1Loc_go (F := F) d); iexact H1
  isplitl [H2]; · iapply (d2Loc_go (F := F) d); iexact H2
  iapply (r2Loc_go (F := F) d); iexact H3

theorem outs_td : (bigSep (Finset.univ : Finset (Fin 32)) fun w => outTdW ei rf vt d w.val : sProp 𝕄)
    ⊢ iprop((r2Loc d ↦{fullShare} specR2 rf) ∗ (d0Loc d ↦{fullShare} specD 0 ei vt) ∗ (d1Loc d ↦{fullShare} specD 1 ei vt) ∗ d2Loc d ↦{fullShare} specD 2 ei vt) := by
  rw [T8_cover, SparseCore.bigSep_union' T8_d1, SparseCore.bigSep_union' T8_d2, SparseCore.bigSep_union' T8_d3]
  iintro ⟨H0, H1, H2, H3⟩
  isplitl [H3]; · iapply (r2Loc_td ei rf vt d); iexact H3
  isplitl [H0]; · iapply (d0Loc_td ei rf vt d); iexact H0
  isplitl [H1]; · iapply (d1Loc_td ei rf vt d); iexact H1
  iapply (d2Loc_td ei rf vt d); iexact H2

end Call

theorem callSplit0 (ei : S12800000.Idx → Elt F .i32) (rf : S19200000.Idx → Elt F .f32) (vt : S300000.Idx → Elt F .f32) (d : Dev nD) :
    iprop((eiLoc d ↦{fullShare} ei) ∗ (rfLoc d ↦{fullShare} rf) ∗ (vtLoc d ↦{fullShare} vt) ∗ (∃ f, r2Loc d ↦{fullShare} f)
        ∗ (∃ f, d0Loc d ↦{fullShare} f) ∗ (∃ f, d1Loc d ↦{fullShare} f) ∗ ∃ f, d2Loc d ↦{fullShare} f)
      ⊢ (iprop(rem0 ei rf vt d ∗ st0 ei rf vt d 0 ∗ st0 ei rf vt d 1) : sProp 𝕄) := by
  rw [st_eq, bigSep_sep', bigSep_sep', bigSep_sep']
  unfold rem0
  iintro ⟨Hei, Hrf, Hvt, Hout⟩
  ihave Hei' := (Transfers.pointsTo_toks_split (ℓ := eiLoc d) (S := Finset.univ) (f := ei) fullShare 32) $$ Hei
  icases Hei' with ⟨Heir, Heit⟩
  ihave Hrf' := (Transfers.pointsTo_toks_split (ℓ := rfLoc d) (S := Finset.univ) (f := rf) fullShare 32) $$ Hrf
  icases Hrf' with ⟨Hrfr, Hrft⟩
  ihave Hvt' := (Transfers.pointsTo_toks_split (ℓ := vtLoc d) (S := Finset.univ) (f := vt) fullShare 32) $$ Hvt
  icases Hvt' with ⟨Hvtr, Hvtt⟩
  isplitl [Heir Hrfr Hvtr]
  · isplitl [Heir]; · iexact Heir
    isplitl [Hrfr]; · iexact Hrfr
    iexact Hvtr
  isplitl [Heit Hrft Hvtt]
  · isplitl [Heit]; · iexact Heit
    isplitl [Hrft]; · iexact Hrft
    iexact Hvtt
  iapply (outs_go (F := F) d); iexact Hout

theorem callJoin0 (ei : S12800000.Idx → Elt F .i32) (rf : S19200000.Idx → Elt F .f32) (vt : S300000.Idx → Elt F .f32) (d : Dev nD) :
    iprop(rem0 ei rf vt d ∗ dn0 ei rf vt d 0 ∗ dn0 ei rf vt d 1)
      ⊢ (iprop((eiLoc d ↦{fullShare} ei) ∗ (rfLoc d ↦{fullShare} rf) ∗ (vtLoc d ↦{fullShare} vt) ∗ (r2Loc d ↦{fullShare} specR2 rf)
        ∗ (d0Loc d ↦{fullShare} specD 0 ei vt) ∗ (d1Loc d ↦{fullShare} specD 1 ei vt) ∗ d2Loc d ↦{fullShare} specD 2 ei vt) : sProp 𝕄) := by
  rw [dn_eq, bigSep_sep', bigSep_sep', bigSep_sep']
  unfold rem0
  iintro ⟨⟨Heir, Hrfr, Hvtr⟩, ⟨Heit, Hrft, Hvtt⟩, Hout⟩
  isplitl [Heir Heit]
  · iapply (Transfers.pointsTo_toks_join (ℓ := eiLoc d) (S := Finset.univ) (f := ei) fullShare 32)
    isplitl [Heir]; · iexact Heir
    iexact Heit
  isplitl [Hrfr Hrft]
  · iapply (Transfers.pointsTo_toks_join (ℓ := rfLoc d) (S := Finset.univ) (f := rf) fullShare 32)
    isplitl [Hrfr]; · iexact Hrfr
    iexact Hrft
  isplitl [Hvtr Hvtt]
  · iapply (Transfers.pointsTo_toks_join (ℓ := vtLoc d) (S := Finset.univ) (f := vt) fullShare 32)
    isplitl [Hvtr]; · iexact Hvtr
    iexact Hvtt
  iapply (outs_td ei rf vt d); iexact Hout

end Cert.Proof.KW.Ga

end
-- ==== Proof.GatherTileW.lean ====
import proofs.«204254_g40355512713743_retrytranche2_1723_12_alg».proof.Proof.CommonW
import Idealize.ShloMosaic.Lib.ValueIdx
import proofs.«204254_g40355512713743_retrytranche2_1723_12_alg».proof.Proof.GatherTileV1W
import proofs.«204254_g40355512713743_retrytranche2_1723_12_alg».proof.Proof.GatherTileV2W
import proofs.«204254_g40355512713743_retrytranche2_1723_12_alg».proof.Proof.GatherTileV3W
import proofs.«204254_g40355512713743_retrytranche2_1723_12_alg».proof.Proof.GatherTileStmtW
import proofs.«204254_g40355512713743_retrytranche2_1723_12_alg».proof.Proof.GatherTileCallW

noncomputable section

namespace Cert.Proof.KW.Ga

open Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 eq_ix1)

variable {F : FTy → Type}

local notation "𝕄" => MT nD τ sig (HIx 2) (Elt F) ℕ UU ℕ

variable [FloatOps F]

/-- A tile's task, whichever of the four branches its number selects; the row task's obligation is taken as given. -/
theorem tile_body0 (hr : TileR F) (ei : S12800000.Idx → Elt F .i32) (rf : S19200000.Idx → Elt F .f32) (vt : S300000.Idx → Elt F .f32)
    (hF : (K (F := F)).Facts) (hidx : ∀ j, (BitVec.toNat (show BitVec 32 from ei j)) < 100000) (d : Dev nD) (L : grid0.Coords)
    (O : CellTallies nD τ sig (HIx 2)) (W : Waits sig (HIx 2)) (hO : ∀ g, O g none = 0) :
    iprop(levAts (K (F := F)).L (K (F := F)).lev ∗ go0 ei rf vt d L ∗ scopedBufs (thrV d L) ∗ scopedSems0 (thrV d L) ∗ owes (thrV d L) O W)
      ⊢ wp frame (wpE (defs₀ (F := F)) 𝒱₀ (thrV d L) none) Set.univ
          (cc0__sc_gather_body L (Memref.whole main_v0_scv) (Memref.isWhole_whole _) (Memref.whole main_v1_scv) (Memref.isWhole_whole _)
            (Memref.whole main_v3_scv) (Memref.isWhole_whole _) (Memref.whole main_v4_0_scv) (Memref.isWhole_whole _)
            (Memref.whole main_v4_1_scv) (Memref.isWhole_whole _) (Memref.whole main_v4_2_scv) (Memref.isWhole_whole _)
            (Memref.whole main_v4_3_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) cc0_scoped0 cc0_scoped1 cc0_scoped2 cc0_scoped3 cc0_scoped4 cc0_scoped5
            cc0_scoped6 cc0_scoped7 cc0_scoped8 cc0_scoped9 cc0_scoped10 cc0_scoped11 cc0_scoped12 cc0_scoped13)
          fun _ => iprop(td0 ei rf vt d L ∗ scopedBufs (thrV d L) ∗ scopedSems0 (thrV d L)
            ∗ ∃ W', ⌜∀ p ∈ W', p ∈ W ∨ p.2 = none⌝ ∗ owes (thrV d L) O W') := by
  by_cases h1 : k0_cond1 L = 1#1
  · have hw := (cond1_iff L).mp h1
    exact tile_v1 ei rf vt hF hidx d L h1 (fun h => by have := (cond2_iff L).mp h; omega) (fun h => by have := (cond3_iff L).mp h; omega)
      (fun h => by have := (cond4_iff L).mp h; omega) O W hO
  by_cases h2 : k0_cond2 L = 1#1
  · have hw := (cond2_iff L).mp h2
    exact tile_v2 ei rf vt hF hidx d L h1 h2 (fun h => by have := (cond3_iff L).mp h; omega) (fun h => by have := (cond4_iff L).mp h; omega) O W hO
  by_cases h3 : k0_cond3 L = 1#1
  · have hw := (cond3_iff L).mp h3
    exact tile_v3 ei rf vt hF hidx d L h1 h2 h3 (fun h => by have := (cond4_iff L).mp h; omega) O W hO
  have n1 : ¬ wid L < 8 := fun h => h1 ((cond1_iff L).mpr h)
  have n2 : ¬ (8 ≤ wid L ∧ wid L < 16) := fun h => h2 ((cond2_iff L).mpr h)
  have n3 : ¬ (16 ≤ wid L ∧ wid L < 24) := fun h => h3 ((cond3_iff L).mpr h)
  have h4 : k0_cond4 L = 1#1 := (cond4_iff L).mpr (by omega)
  exact hr ei rf vt hF hidx d L h1 h2 h3 h4 O W hO

theorem vecSplit0 (ei : S12800000.Idx → Elt F .i32) (rf : S19200000.Idx → Elt F .f32) (vt : S300000.Idx → Elt F .f32) (d : Dev nD) (c : Fin 2) :
    st0 ei rf vt d c ⊢ |={Set.univ}=> iprop((bigSep Finset.univ fun i : Fin 16 => go0 ei rf vt d (coords0 c i))
      ∗ ((bigSep Finset.univ fun i : Fin 16 => td0 ei rf vt d (coords0 c i)) -∗ dn0 ei rf vt d c)) := by
  unfold st0 dn0
  iintro H; imodintro
  isplitl [H]; · iexact H
  iintro H; iexact H

end Cert.Proof.KW.Ga

end
-- ==== Proof.MainAW.lean ====
/-
  @main on the TensorCore inside the SparseCore launch: the host operations over the held set of @main's arrays, the two SparseCore calls, the two pipeline regions.
-/
import proofs.«204254_g40355512713743_retrytranche2_1723_12_alg».proof.Proof.CommonW
import proofs.«204254_g40355512713743_retrytranche2_1723_12_alg».proof.Proof.ScatterTileW
import proofs.«204254_g40355512713743_retrytranche2_1723_12_alg».proof.Proof.GatherTileW
import proofs.«204254_g40355512713743_retrytranche2_1723_12_alg».proof.Proof.GatherTileCallW
import Idealize.ShloMosaic.Lib.Pipeline.Frame
import Idealize.ShloMosaic.Lib.Pipeline.Regions

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable [∀ e, Nonempty (Elt F e)]
variable (m : (ℓ : Loc nD τ sig) → Buf (Elt F) ℓ) (ρ : Dev nD → PrngReg)

open Idealize.ShloMosaic.StableHlo (held wp_hlo_within)
open Idealize.ShloMosaic.Pipeline (ucRefs unscopedBufs_held sub_ucRefs)

/-! ## @main's host operations -/

abbrev hop0 : HloOp τ sig (Elt F) := StableHlo.reshape main_arg0 main_v0 rfl shapeCasts_S2x6400000_S12800000
abbrev hop1 : HloOp τ sig (Elt F) := StableHlo.reshape main_arg1 main_v1 rfl shapeCasts_S6400000x3_S19200000
abbrev hop2 : HloOp τ sig (Elt F) := StableHlo.unary main_arg2 main_v2 ((transpose S3x100000 [1, 0] · transposes_S100000x3_S3x100000_1_0) : (⟨S100000x3, .f32⟩ : BufTy).Contents (Elt F) → (⟨S3x100000, .f32⟩ : BufTy).Contents (Elt F))
abbrev hop3 : HloOp τ sig (Elt F) := StableHlo.reshape main_v2 main_v3 rfl shapeCasts_S3x100000_S300000
abbrev hop5 : HloOp τ sig (Elt F) := StableHlo.reshape main_arg4 main_v5 rfl shapeCasts_S32_S32x1
abbrev hop6 : HloOp τ sig (Elt F) := StableHlo.reshape main_arg6 main_v6 rfl shapeCasts_S32_S32x1
abbrev hop7 : HloOp τ sig (Elt F) := StableHlo.reshape main_arg7 main_v7 rfl shapeCasts_S1x32_S32x1
abbrev hop8 : HloOp τ sig (Elt F) := StableHlo.reshape main_arg8 main_v8 rfl shapeCasts_S1_S1x1
abbrev hop11 : HloOp τ sig (Elt F) := StableHlo.reshape main_v10 main_v11 rfl shapeCasts_S3200000_S32x100000
abbrev hop13 : HloOp τ sig (Elt F) := StableHlo.reshape main_v12 main_v13 rfl shapeCasts_S1x100000_S100000x1

omit [FloatOps F] [∀ e, Nonempty (Elt F e)] in
theorem pair_sub_uc (op : HloOp τ sig (Elt F)) (x y : Ref sig .tc) (h : op.bufs = {Proc.devRef .tc x, Proc.devRef .tc y}) : op.bufs ⊆ ucRefs τ sig :=
  sub_ucRefs op (by
    rw [h]; intro b hb
    rcases Finset.mem_insert.mp hb with rfl | hb
    · exact StableHlo.devRef_mem_tcRefs _
    · rw [Finset.mem_singleton.mp hb]; exact StableHlo.devRef_mem_tcRefs _)

theorem hs0 : (hop0 (F := F)).bufs ⊆ ucRefs τ sig := pair_sub_uc _ main_arg0 main_v0 rfl
theorem hs1 : (hop1 (F := F)).bufs ⊆ ucRefs τ sig := pair_sub_uc _ main_arg1 main_v1 rfl
theorem hs2 : (hop2 (F := F)).bufs ⊆ ucRefs τ sig := pair_sub_uc _ main_arg2 main_v2 rfl
theorem hs3 : (hop3 (F := F)).bufs ⊆ ucRefs τ sig := pair_sub_uc _ main_v2 main_v3 rfl
theorem hs5 : (hop5 (F := F)).bufs ⊆ ucRefs τ sig := pair_sub_uc _ main_arg4 main_v5 rfl
theorem hs6 : (hop6 (F := F)).bufs ⊆ ucRefs τ sig := pair_sub_uc _ main_arg6 main_v6 rfl
theorem hs7 : (hop7 (F := F)).bufs ⊆ ucRefs τ sig := pair_sub_uc _ main_arg7 main_v7 rfl
theorem hs8 : (hop8 (F := F)).bufs ⊆ ucRefs τ sig := pair_sub_uc _ main_arg8 main_v8 rfl
theorem hs11 : (hop11 (F := F)).bufs ⊆ ucRefs τ sig := pair_sub_uc _ main_v10 main_v11 rfl
theorem hs13 : (hop13 (F := F)).bufs ⊆ ucRefs τ sig := pair_sub_uc _ main_v12 main_v13 rfl

/-! ## The arrays' contents along @main -/

/-- As launched. -/
def V0 (d : Dev nD) : Valuation τ sig (Elt F) := fun b => m (d, b)
/-- After the four host operations before the first SparseCore call. -/
def Va (d : Dev nD) : Valuation τ sig (Elt F) := (hop3 (F := F)).result ((hop2 (F := F)).result ((hop1 (F := F)).result ((hop0 (F := F)).result (V0 m d))))

abbrev rV (b : Ref sig .tc) : DevRef τ sig := Proc.devRef .tc b

theorem unscoped_held (d : Dev nD) : (unscopedBufs d (fun b => m ((SparseCore.T d).loc b)) : sProp 𝕄) = held (SparseCore.T d) (ucRefs τ sig) (V0 m d) :=
  unscopedBufs_held (Ix := HIx 2) (Name := ℕ) (U := UU) (Lvl := ℕ) d (V0 m d)

/-- @main up to the first SparseCore call: the four host operations, the held set at `Va`. -/
theorem hmain_A (κ : GSem nD τ sig → ℕ) (d : Dev nD) {Φ : PUnit → sProp 𝕄} {k : Prog (TpuEff nD τ sig (Elt F) (SparseCore.Sig (ΛP (F := F)) 2) .tc) PUnit} :
    iprop(boundary (SparseCore.T d) ∗ held (SparseCore.T d) (ucRefs τ sig) (V0 m d)
        ∗ ((boundary (SparseCore.T d) ∗ held (SparseCore.T d) (ucRefs τ sig) (Va m d))
            -∗ wp frame (wpE ((K (F := F)).defs (D (F := F))) 𝒱 (SparseCore.T d) none) Set.univ k Φ))
      ⊢ wp frame (wpE ((K (F := F)).defs (D (F := F))) 𝒱 (SparseCore.T d) none) Set.univ
          (hlo rfl (hop0 (F := F)) (fun _ => Prog.ret PUnit.unit) >>= fun _ => hlo rfl (hop1 (F := F)) (fun _ => Prog.ret PUnit.unit) >>= fun _ =>
            hlo rfl (hop2 (F := F)) (fun _ => Prog.ret PUnit.unit) >>= fun _ => hlo rfl (hop3 (F := F)) (fun _ => Prog.ret PUnit.unit) >>= fun _ => k) Φ := by
  simp only [wp_bind]
  iintro ⟨Hb, Hheld, Hk⟩
  iapply (wp_hlo_within 𝒱 (SparseCore.T d) none Set.univ (op := hop0) (S := ucRefs τ sig) hs0 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := hop1) (S := ucRefs τ sig) hs1) $$ [Hb Hheld]
  · isplitl [Hb]; · iexact Hb
    iexact Hheld
  iintro ⟨Hb, Hheld⟩
  rw [wp_ret]; imodintro
  iapply (wp_hlo_within 𝒱 (SparseCore.T d) none Set.univ (op := hop2) (S := ucRefs τ sig) hs2) $$ [Hb Hheld]
  · isplitl [Hb]; · iexact Hb
    iexact Hheld
  iintro ⟨Hb, Hheld⟩
  rw [wp_ret]; imodintro
  iapply (wp_hlo_within 𝒱 (SparseCore.T d) none Set.univ (op := hop3) (S := ucRefs τ sig) hs3) $$ [Hb Hheld]
  · isplitl [Hb]; · iexact Hb
    iexact Hheld
  iintro ⟨Hb, Hheld⟩
  rw [wp_ret]; imodintro
  iapply Hk
  isplitl [Hb]; · iexact Hb
  iexact Hheld

/-! ## Held sets: one array out, one array back -/

section HeldOne
open Idealize.ShloMosaic.StableHlo (held)

omit [FloatOps F] [∀ e, Nonempty (Elt F e)] in
/-- One array out of a held set. -/
theorem held_take (c : Thread nD τ) {S : Finset (DevRef τ sig)} {b : DevRef τ sig} (hb : b ∈ S) (V : Valuation τ sig (Elt F)) :
    (held c S V : sProp 𝕄) = iprop(((c.1, b) ↦{fullShare} V b) ∗ held c (S.erase b) V) := by
  unfold held
  exact SparseCore.bigSep_erase' hb

omit [FloatOps F] [∀ e, Nonempty (Elt F e)] in
/-- One array back into a held set, at new contents. -/
theorem held_put (c : Thread nD τ) {S : Finset (DevRef τ sig)} {b : DevRef τ sig} (hb : b ∈ S) (V : Valuation τ sig (Elt F)) (f : Buf (Elt F) (c.1, b)) :
    iprop(((c.1, b) ↦{fullShare} f) ∗ held c (S.erase b) V) ⊢ (held c S (Function.update V b f) : sProp 𝕄) := by
  rw [held_take c hb (Function.update V b f), Function.update_self]
  refine sep_mono_right (Entails.of_eq ?_)
  exact StableHlo.held_congr c fun b' hb' => (Function.update_of_ne (Finset.ne_of_mem_erase hb') _ _).symm

end HeldOne

/-! ## The contents the first SparseCore call reads, and what it leaves -/

abbrev eiOf (d : Dev nD) : S12800000.Idx → Elt F .i32 := Va m d (rV main_v0)
abbrev rfOf (d : Dev nD) : S19200000.Idx → Elt F .f32 := Va m d (rV main_v1)
abbrev vtOf (d : Dev nD) : S300000.Idx → Elt F .f32 := Va m d (rV main_v3)

/-- After the first SparseCore call: the four result arrays at the gather kernel's functions of the flattened inputs. -/
def Vb (d : Dev nD) : Valuation τ sig (Elt F) :=
  Function.update (Function.update (Function.update (Function.update (Va m d)
    (rV main_v4_0) (Ga.specR2 (rfOf m d))) (rV main_v4_1) (Ga.specD 0 (eiOf m d) (vtOf m d)))
    (rV main_v4_2) (Ga.specD 1 (eiOf m d) (vtOf m d))) (rV main_v4_3) (Ga.specD 2 (eiOf m d) (vtOf m d))

/-- After the four reshapes of the bias and last-layer arrays. -/
def Vc (d : Dev nD) : Valuation τ sig (Elt F) := (hop8 (F := F)).result ((hop7 (F := F)).result ((hop6 (F := F)).result ((hop5 (F := F)).result (Vb m d))))

/-- The four reshapes between the first SparseCore call and the first pipeline region. -/
theorem hmain_C (d : Dev nD) (V : Valuation τ sig (Elt F)) {Φ : PUnit → sProp 𝕄} {k : Prog (TpuEff nD τ sig (Elt F) (SparseCore.Sig (ΛP (F := F)) 2) .tc) PUnit} :
    iprop(boundary (SparseCore.T d) ∗ held (SparseCore.T d) (ucRefs τ sig) V
        ∗ ((boundary (SparseCore.T d) ∗ held (SparseCore.T d) (ucRefs τ sig) ((hop8 (F := F)).result ((hop7 (F := F)).result ((hop6 (F := F)).result ((hop5 (F := F)).result V)))))
            -∗ wp frame (wpE ((K (F := F)).defs (D (F := F))) 𝒱 (SparseCore.T d) none) Set.univ k Φ))
      ⊢ wp frame (wpE ((K (F := F)).defs (D (F := F))) 𝒱 (SparseCore.T d) none) Set.univ
          (hlo rfl (hop5 (F := F)) (fun _ => Prog.ret PUnit.unit) >>= fun _ => hlo rfl (hop6 (F := F)) (fun _ => Prog.ret PUnit.unit) >>= fun _ =>
            hlo rfl (hop7 (F := F)) (fun _ => Prog.ret PUnit.unit) >>= fun _ => hlo rfl (hop8 (F := F)) (fun _ => Prog.ret PUnit.unit) >>= fun _ => k) Φ := by
  simp only [wp_bind]
  iintro ⟨Hb, Hheld, Hk⟩
  iapply (wp_hlo_within 𝒱 (SparseCore.T d) none Set.univ (op := hop5) (S := ucRefs τ sig) hs5 (V := V)) $$ [Hb Hheld]
  · isplitl [Hb]; · iexact Hb
    iexact Hheld
  iintro ⟨Hb, Hheld⟩
  rw [wp_ret]; imodintro
  iapply (wp_hlo_within 𝒱 (SparseCore.T d) none Set.univ (op := hop6) (S := ucRefs τ sig) hs6) $$ [Hb Hheld]
  · isplitl [Hb]; · iexact Hb
    iexact Hheld
  iintro ⟨Hb, Hheld⟩
  rw [wp_ret]; imodintro
  iapply (wp_hlo_within 𝒱 (SparseCore.T d) none Set.univ (op := hop7) (S := ucRefs τ sig) hs7) $$ [Hb Hheld]
  · isplitl [Hb]; · iexact Hb
    iexact Hheld
  iintro ⟨Hb, Hheld⟩
  rw [wp_ret]; imodintro
  iapply (wp_hlo_within 𝒱 (SparseCore.T d) none Set.univ (op := hop8) (S := ucRefs τ sig) hs8) $$ [Hb Hheld]
  · isplitl [Hb]; · iexact Hb
    iexact Hheld
  iintro ⟨Hb, Hheld⟩
  rw [wp_ret]; imodintro
  iapply Hk
  isplitl [Hb]; · iexact Hb
  iexact Hheld

/-- One host operation at the head of a program, over the held set. -/
theorem hmain_one (d : Dev nD) (op : HloOp τ sig (Elt F)) (hs : op.bufs ⊆ ucRefs τ sig) (hf : op.fresh = ∅) (V : Valuation τ sig (Elt F)) {Φ : PUnit → sProp 𝕄}
    {k : Prog (TpuEff nD τ sig (Elt F) (SparseCore.Sig (ΛP (F := F)) 2) .tc) PUnit} :
    iprop(boundary (SparseCore.T d) ∗ held (SparseCore.T d) (ucRefs τ sig) V
        ∗ ((boundary (SparseCore.T d) ∗ held (SparseCore.T d) (ucRefs τ sig) (op.result V))
            -∗ wp frame (wpE ((K (F := F)).defs (D (F := F))) 𝒱 (SparseCore.T d) none) Set.univ k Φ))
      ⊢ wp frame (wpE ((K (F := F)).defs (D (F := F))) 𝒱 (SparseCore.T d) none) Set.univ
          (hlo rfl op (fun _ => Prog.ret PUnit.unit) >>= fun _ => k) Φ := by
  simp only [wp_bind]
  iintro ⟨Hb, Hheld, Hk⟩
  iapply (wp_hlo_within 𝒱 (SparseCore.T d) none Set.univ (op := op) (S := ucRefs τ sig) hs (V := V) (hf := hf)) $$ [Hb Hheld]
  · isplitl [Hb]; · iexact Hb
    iexact Hheld
  iintro ⟨Hb, Hheld⟩
  rw [wp_ret]; imodintro
  iapply Hk
  isplitl [Hb]; · iexact Hb
  iexact Hheld

end Cert.Proof.KW

end
-- ==== Proof.MlpRegionW.lean ====
import proofs.«204254_g40355512713743_retrytranche2_1723_12_alg».proof.Proof.CommonW
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Proof.KW.Tc

open Cert.Proof.KW

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 2) (Elt F) ℕ UU ℕ

/-! ## custom_call 1: the per-edge network, block by block

The pipeline stages, per grid point, one block of 10240 edges of each of the four edge arrays and the six weight
arrays whole; the body computes the two outputs of the network on the block and stores each whole. -/

/-- The rectangles of the body's accesses: each is a whole staging buffer. -/
abbrev rE : Rect S10240 := Rect.unit (s := S10240) ![0] S10240.size inb_S10240_S10240_0
abbrev rW1 : Rect S32x4 := Rect.unit (s := S32x4) ![0, 0] S32x4.size inb_S32x4_S32x4_0_0
abbrev rB : Rect S32x1 := Rect.unit (s := S32x1) ![0, 0] S32x1.size inb_S32x1_S32x1_0_0
abbrev rW2 : Rect S32x32 := Rect.unit (s := S32x32) ![0, 0] S32x32.size inb_S32x32_S32x32_0_0
abbrev rS : Rect S1x1 := Rect.unit (s := S1x1) ![0, 0] S1x1.size inb_S1x1_S1x1_0_0

/-- Window `w`'s block at point `t`, read off the array's contents `A1 w` when the region is entered. -/
def iblk1 (c : Dev nD) (A1 : (w : Fin 12) → Buf (Elt F) ((cfg1.win w).arr.view.loc (c.tc : Thread nD τ)))
    (w : Fin cfg1.W) (t : Fin cfg1.N) : ((cfg1.win w).xblock (cfg1.grid.coords t)).Idx → Elt F (cfg1.win w).elt :=
  ((cfg1.win w).blk t).view.read (Elt F) (A1 w)

/-- The forward output's block from the ten input blocks: the one whole store's payload. -/
def out1_10 (x0 x1 x2 x3 : Vec F S10240 .f32) (x4 : Vec F S32x4 .f32) (x5 : Vec F S32x1 .f32) (x6 : Vec F S32x32 .f32)
    (x7 x8 : Vec F S32x1 .f32) (x9 : Vec F S1x1 .f32) : Vec F S10240 .f32 :=
  View.canon [⟨rE, k1_pay1 (k1_pay10 (k1_pay5 (View.ld x0 rE) (View.ld x4 rW1) (View.ld x5 rB) (View.ld x1 rE) (View.ld x2 rE) (View.ld x3 rE))
      (View.ld x6 rW2) (View.ld x7 rB) (View.ld x8 rB)) (View.ld x9 rS)⟩]

/-- The backward output's block likewise. -/
def out1_11 (x0 x1 x2 x3 : Vec F S10240 .f32) (x4 : Vec F S32x4 .f32) (x5 : Vec F S32x1 .f32) (x6 : Vec F S32x32 .f32)
    (x7 x8 : Vec F S32x1 .f32) (x9 : Vec F S1x1 .f32) : Vec F S10240 .f32 :=
  View.canon [⟨rE, k1_pay2 (k1_pay8 (k1_pay6 (View.ld x0 rE) (View.ld x4 rW1) (View.ld x5 rB) (View.ld x1 rE) (View.ld x2 rE) (View.ld x3 rE))
      (k1_pay7 (F := F)) (View.ld x6 rW2) (View.ld x7 rB)) (k1_pay9 (View.ld x8 rB)) (View.ld x9 rS)⟩]

/-- The one store of each output covers its buffer. -/
theorem cover1 (p0 : Vec F S10240 .f32) (y : S10240.Idx) :
    ∃ pc ∈ ([⟨rE, p0⟩] : List (View.Piece (Elt F) S10240 .f32)), y ∈ pc.1.set :=
  View.cover_of_tiled [⟨rE, p0⟩] S10240.size (by rfl) y

/-- The proof data of pipeline 0 on core `c`: the arrays as the region finds them (`A1`); after the body each
    input's buffer at its block and each output's at the network's value on the input blocks; the invariant the
    core's scoped buffers that are no staging buffer of this pipeline, untouched; the tallies owed the constant `O`,
    the recorded pairs within the constant `B`. -/
def dat1 (c : Dev nD) (A1 : (w : Fin 12) → Buf (Elt F) ((cfg1.win w).arr.view.loc (c.tc : Thread nD τ)))
    (O : CellTallies nD τ sig (HIx 2)) (B : Set (SemLoc sig × HIx 2)) : Dat τ (Elt F) (HIx 2) ℕ UU ℕ cfg1 c where
  A := A1
  after w t := match w with
    | ⟨0, _⟩ => iblk1 c A1 0 t
    | ⟨1, _⟩ => iblk1 c A1 1 t
    | ⟨2, _⟩ => iblk1 c A1 2 t
    | ⟨3, _⟩ => iblk1 c A1 3 t
    | ⟨4, _⟩ => iblk1 c A1 4 t
    | ⟨5, _⟩ => iblk1 c A1 5 t
    | ⟨6, _⟩ => iblk1 c A1 6 t
    | ⟨7, _⟩ => iblk1 c A1 7 t
    | ⟨8, _⟩ => iblk1 c A1 8 t
    | ⟨9, _⟩ => iblk1 c A1 9 t
    | ⟨10, _⟩ => out1_10 (iblk1 c A1 0 t) (iblk1 c A1 1 t) (iblk1 c A1 2 t) (iblk1 c A1 3 t) (iblk1 c A1 4 t) (iblk1 c A1 5 t) (iblk1 c A1 6 t) (iblk1 c A1 7 t) (iblk1 c A1 8 t) (iblk1 c A1 9 t)
    | ⟨11, _⟩ => out1_11 (iblk1 c A1 0 t) (iblk1 c A1 1 t) (iblk1 c A1 2 t) (iblk1 c A1 3 t) (iblk1 c A1 4 t) (iblk1 c A1 5 t) (iblk1 c A1 6 t) (iblk1 c A1 7 t) (iblk1 c A1 8 t) (iblk1 c A1 9 t)
  Φ _ := Pipeline.scopedRest (Ix := HIx 2) (Name := ℕ) (U := UU) (Lvl := ℕ) (Val := Elt F) spec1 c
  q _ := fullShare
  owed _ := O
  recorded _ := B

/-! ## The body's triple -/

set_option maxHeartbeats 4000000 in
/-- The kernel body on whole staging memrefs, the inputs' at read contents `xW` and the outputs' at anything, runs to
    the continuation holding the inputs' as they were and each output's at the network's value on the inputs'. -/
theorem sound_kernel1 (c : Dev nD) (E : Set ℕ) (i : grid1.Coords) (arg1 : Memref sig .tc .vmem S10240 .f32) (harg1 : arg1.IsWhole) (arg2 : Memref sig .tc .vmem S10240 .f32) (harg2 : arg2.IsWhole) (arg3 : Memref sig .tc .vmem S10240 .f32) (harg3 : arg3.IsWhole) (arg4 : Memref sig .tc .vmem S10240 .f32) (harg4 : arg4.IsWhole) (arg5 : Memref sig .tc .vmem S32x4 .f32) (harg5 : arg5.IsWhole) (arg6 : Memref sig .tc .vmem S32x1 .f32) (harg6 : arg6.IsWhole) (arg7 : Memref sig .tc .vmem S32x32 .f32) (harg7 : arg7.IsWhole) (arg8 : Memref sig .tc .vmem S32x1 .f32) (harg8 : arg8.IsWhole) (arg9 : Memref sig .tc .vmem S32x1 .f32) (harg9 : arg9.IsWhole) (arg10 : Memref sig .tc .vmem S1x1 .f32) (harg10 : arg10.IsWhole) (arg11 : Memref sig .tc .vmem S10240 .f32) (harg11 : arg11.IsWhole) (arg12 : Memref sig .tc .vmem S10240 .f32) (harg12 : arg12.IsWhole)
    (x0 : Vec F S10240 .f32) (x1 : Vec F S10240 .f32) (x2 : Vec F S10240 .f32) (x3 : Vec F S10240 .f32) (x4 : Vec F S32x4 .f32) (x5 : Vec F S32x1 .f32) (x6 : Vec F S32x32 .f32) (x7 : Vec F S32x1 .f32) (x8 : Vec F S32x1 .f32) (x9 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare (out1_10 x0 x1 x2 x3 x4 x5 x6 x7 x8 x9) ∗ owns (c : Thread nD τ) arg12 fullShare (out1_11 x0 x1 x2 x3 x4 x5 x6 x7 x8 x9)) -∗ K ⟨⟩))
      ⊢ wp frame (wpE (defs₀ (F := F)) Variants.none c none) E (cc1__mlp_body i arg1 harg1 arg2 harg2 arg3 harg3 arg4 harg4 arg5 harg5 arg6 harg6 arg7 harg7 arg8 harg8 arg9 harg9 arg10 harg10 arg11 harg11 arg12 harg12) K := by
  simp only [cc1__mlp_body_eq_skeleton]; unfold cc1__mlp_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact View.read_writes_eq_canon _ _ _ (cover1 _)
  · iexists _; isplitr
    swap; · iexact H11
    ipureintro
    exact View.read_writes_eq_canon _ _ _ (cover1 _)

variable (c : Dev nD) (A1 : (w : Fin 12) → Buf (Elt F) ((cfg1.win w).arr.view.loc (c.tc : Thread nD τ)))
    (O : CellTallies nD τ sig (HIx 2)) (B : Set (SemLoc sig × HIx 2))

theorem A1_eq (w : Fin cfg1.W) : (dat1 c A1 O B).A w = A1 w := by dsimp only [dat1]

theorem after1_0 (t : Fin cfg1.N) : (dat1 c A1 O B).after 0 t = iblk1 c A1 0 t := by dsimp only [dat1]
theorem after1_1 (t : Fin cfg1.N) : (dat1 c A1 O B).after 1 t = iblk1 c A1 1 t := by dsimp only [dat1]
theorem after1_2 (t : Fin cfg1.N) : (dat1 c A1 O B).after 2 t = iblk1 c A1 2 t := by dsimp only [dat1]
theorem after1_3 (t : Fin cfg1.N) : (dat1 c A1 O B).after 3 t = iblk1 c A1 3 t := by dsimp only [dat1]
theorem after1_4 (t : Fin cfg1.N) : (dat1 c A1 O B).after 4 t = iblk1 c A1 4 t := by dsimp only [dat1]
theorem after1_5 (t : Fin cfg1.N) : (dat1 c A1 O B).after 5 t = iblk1 c A1 5 t := by dsimp only [dat1]
theorem after1_6 (t : Fin cfg1.N) : (dat1 c A1 O B).after 6 t = iblk1 c A1 6 t := by dsimp only [dat1]
theorem after1_7 (t : Fin cfg1.N) : (dat1 c A1 O B).after 7 t = iblk1 c A1 7 t := by dsimp only [dat1]
theorem after1_8 (t : Fin cfg1.N) : (dat1 c A1 O B).after 8 t = iblk1 c A1 8 t := by dsimp only [dat1]
theorem after1_9 (t : Fin cfg1.N) : (dat1 c A1 O B).after 9 t = iblk1 c A1 9 t := by dsimp only [dat1]
theorem after1_10 (t : Fin cfg1.N) : (dat1 c A1 O B).after 10 t = out1_10 (iblk1 c A1 0 t) (iblk1 c A1 1 t) (iblk1 c A1 2 t) (iblk1 c A1 3 t) (iblk1 c A1 4 t) (iblk1 c A1 5 t) (iblk1 c A1 6 t) (iblk1 c A1 7 t) (iblk1 c A1 8 t) (iblk1 c A1 9 t) := by dsimp only [dat1]
theorem after1_11 (t : Fin cfg1.N) : (dat1 c A1 O B).after 11 t = out1_11 (iblk1 c A1 0 t) (iblk1 c A1 1 t) (iblk1 c A1 2 t) (iblk1 c A1 3 t) (iblk1 c A1 4 t) (iblk1 c A1 5 t) (iblk1 c A1 6 t) (iblk1 c A1 7 t) (iblk1 c A1 8 t) (iblk1 c A1 9 t) := by dsimp only [dat1]

/-- Each input's current staging buffer holds its block at every point, fetched there or not: an input not fetched
    at a point has the block index it had at the point before. -/
theorem before1_0 (t : Fin cfg1.N) (d) : (dat1 c A1 O B).before 0 t d = iblk1 c A1 0 t :=
  ((dat1 c A1 O B).before_in_eq_fetched 0 rfl (fun _ => rfl) (fun _ _ _ => rfl)
    (fun t => by rw [after1_0]; unfold Dat.blockOf iblk1; rw [A1_eq]; try rfl) t d).trans
    (by unfold Dat.fetched Dat.blockOf iblk1; rw [A1_eq]; try rfl)
theorem before1_1 (t : Fin cfg1.N) (d) : (dat1 c A1 O B).before 1 t d = iblk1 c A1 1 t :=
  ((dat1 c A1 O B).before_in_eq_fetched 1 rfl (fun _ => rfl) (fun _ _ _ => rfl)
    (fun t => by rw [after1_1]; unfold Dat.blockOf iblk1; rw [A1_eq]; try rfl) t d).trans
    (by unfold Dat.fetched Dat.blockOf iblk1; rw [A1_eq]; try rfl)
theorem before1_2 (t : Fin cfg1.N) (d) : (dat1 c A1 O B).before 2 t d = iblk1 c A1 2 t :=
  ((dat1 c A1 O B).before_in_eq_fetched 2 rfl (fun _ => rfl) (fun _ _ _ => rfl)
    (fun t => by rw [after1_2]; unfold Dat.blockOf iblk1; rw [A1_eq]; try rfl) t d).trans
    (by unfold Dat.fetched Dat.blockOf iblk1; rw [A1_eq]; try rfl)
theorem before1_3 (t : Fin cfg1.N) (d) : (dat1 c A1 O B).before 3 t d = iblk1 c A1 3 t :=
  ((dat1 c A1 O B).before_in_eq_fetched 3 rfl (fun _ => rfl) (fun _ _ _ => rfl)
    (fun t => by rw [after1_3]; unfold Dat.blockOf iblk1; rw [A1_eq]; try rfl) t d).trans
    (by unfold Dat.fetched Dat.blockOf iblk1; rw [A1_eq]; try rfl)
theorem before1_4 (t : Fin cfg1.N) (d) : (dat1 c A1 O B).before 4 t d = iblk1 c A1 4 t :=
  ((dat1 c A1 O B).before_in_eq_fetched 4 rfl (fun _ => rfl) (fun _ _ _ => rfl)
    (fun t => by rw [after1_4]; unfold Dat.blockOf iblk1; rw [A1_eq]; try rfl) t d).trans
    (by unfold Dat.fetched Dat.blockOf iblk1; rw [A1_eq]; try rfl)
theorem before1_5 (t : Fin cfg1.N) (d) : (dat1 c A1 O B).before 5 t d = iblk1 c A1 5 t :=
  ((dat1 c A1 O B).before_in_eq_fetched 5 rfl (fun _ => rfl) (fun _ _ _ => rfl)
    (fun t => by rw [after1_5]; unfold Dat.blockOf iblk1; rw [A1_eq]; try rfl) t d).trans
    (by unfold Dat.fetched Dat.blockOf iblk1; rw [A1_eq]; try rfl)
theorem before1_6 (t : Fin cfg1.N) (d) : (dat1 c A1 O B).before 6 t d = iblk1 c A1 6 t :=
  ((dat1 c A1 O B).before_in_eq_fetched 6 rfl (fun _ => rfl) (fun _ _ _ => rfl)
    (fun t => by rw [after1_6]; unfold Dat.blockOf iblk1; rw [A1_eq]; try rfl) t d).trans
    (by unfold Dat.fetched Dat.blockOf iblk1; rw [A1_eq]; try rfl)
theorem before1_7 (t : Fin cfg1.N) (d) : (dat1 c A1 O B).before 7 t d = iblk1 c A1 7 t :=
  ((dat1 c A1 O B).before_in_eq_fetched 7 rfl (fun _ => rfl) (fun _ _ _ => rfl)
    (fun t => by rw [after1_7]; unfold Dat.blockOf iblk1; rw [A1_eq]; try rfl) t d).trans
    (by unfold Dat.fetched Dat.blockOf iblk1; rw [A1_eq]; try rfl)
theorem before1_8 (t : Fin cfg1.N) (d) : (dat1 c A1 O B).before 8 t d = iblk1 c A1 8 t :=
  ((dat1 c A1 O B).before_in_eq_fetched 8 rfl (fun _ => rfl) (fun _ _ _ => rfl)
    (fun t => by rw [after1_8]; unfold Dat.blockOf iblk1; rw [A1_eq]; try rfl) t d).trans
    (by unfold Dat.fetched Dat.blockOf iblk1; rw [A1_eq]; try rfl)
theorem before1_9 (t : Fin cfg1.N) (d) : (dat1 c A1 O B).before 9 t d = iblk1 c A1 9 t :=
  ((dat1 c A1 O B).before_in_eq_fetched 9 rfl (fun _ => rfl) (fun _ _ _ => rfl)
    (fun t => by rw [after1_9]; unfold Dat.blockOf iblk1; rw [A1_eq]; try rfl) t d).trans
    (by unfold Dat.fetched Dat.blockOf iblk1; rw [A1_eq]; try rfl)

/-! ## The body obligation, at a generic point -/

/-- What the body is called with at point `t`, the windows one by one, -/
def bodyPre1 (t : Fin cfg1.N) : sProp 𝕄 :=
  iprop((dat1 c A1 O B).Φ t.castSucc ∗ (dat1 c A1 O B).owesAt (none : HIx 2) t.castSucc
    ∗ (∃ d, owns (c : Thread nD τ) (st1_0 t) fullShare ((dat1 c A1 O B).before 0 t d))
    ∗ (∃ d, owns (c : Thread nD τ) (st1_1 t) fullShare ((dat1 c A1 O B).before 1 t d))
    ∗ (∃ d, owns (c : Thread nD τ) (st1_2 t) fullShare ((dat1 c A1 O B).before 2 t d))
    ∗ (∃ d, owns (c : Thread nD τ) (st1_3 t) fullShare ((dat1 c A1 O B).before 3 t d))
    ∗ (∃ d, owns (c : Thread nD τ) (st1_4 t) fullShare ((dat1 c A1 O B).before 4 t d))
    ∗ (∃ d, owns (c : Thread nD τ) (st1_5 t) fullShare ((dat1 c A1 O B).before 5 t d))
    ∗ (∃ d, owns (c : Thread nD τ) (st1_6 t) fullShare ((dat1 c A1 O B).before 6 t d))
    ∗ (∃ d, owns (c : Thread nD τ) (st1_7 t) fullShare ((dat1 c A1 O B).before 7 t d))
    ∗ (∃ d, owns (c : Thread nD τ) (st1_8 t) fullShare ((dat1 c A1 O B).before 8 t d))
    ∗ (∃ d, owns (c : Thread nD τ) (st1_9 t) fullShare ((dat1 c A1 O B).before 9 t d))
    ∗ (∃ d, owns (c : Thread nD τ) (st1_10 t) fullShare ((dat1 c A1 O B).before 10 t d))
    ∗ (∃ d, owns (c : Thread nD τ) (st1_11 t) fullShare ((dat1 c A1 O B).before 11 t d)))

/-- and what it returns. -/
def bodyPost1 (t : Fin cfg1.N) : sProp 𝕄 :=
  iprop((dat1 c A1 O B).Φ t.succ ∗ (dat1 c A1 O B).owesAt (none : HIx 2) t.succ
    ∗ owns (c : Thread nD τ) (st1_0 t) fullShare ((dat1 c A1 O B).after 0 t)
    ∗ owns (c : Thread nD τ) (st1_1 t) fullShare ((dat1 c A1 O B).after 1 t)
    ∗ owns (c : Thread nD τ) (st1_2 t) fullShare ((dat1 c A1 O B).after 2 t)
    ∗ owns (c : Thread nD τ) (st1_3 t) fullShare ((dat1 c A1 O B).after 3 t)
    ∗ owns (c : Thread nD τ) (st1_4 t) fullShare ((dat1 c A1 O B).after 4 t)
    ∗ owns (c : Thread nD τ) (st1_5 t) fullShare ((dat1 c A1 O B).after 5 t)
    ∗ owns (c : Thread nD τ) (st1_6 t) fullShare ((dat1 c A1 O B).after 6 t)
    ∗ owns (c : Thread nD τ) (st1_7 t) fullShare ((dat1 c A1 O B).after 7 t)
    ∗ owns (c : Thread nD τ) (st1_8 t) fullShare ((dat1 c A1 O B).after 8 t)
    ∗ owns (c : Thread nD τ) (st1_9 t) fullShare ((dat1 c A1 O B).after 9 t)
    ∗ owns (c : Thread nD τ) (st1_10 t) fullShare ((dat1 c A1 O B).after 10 t)
    ∗ owns (c : Thread nD τ) (st1_11 t) fullShare ((dat1 c A1 O B).after 11 t))

/-- The body at any point: the inputs' memrefs hold their blocks, so the body's triple applies; the invariant and the
    core's tallies pass through unread. -/
theorem sound_body1 (t : Fin cfg1.N) :
    bodyPre1 c A1 O B t ⊢ wp frame (wpE (defs₀ (F := F)) Variants.none c none) Set.univ (bodyAt1 t) (fun _ => bodyPost1 c A1 O B t) := by
  unfold bodyPre1 bodyPost1 bodyAt1
  simp only [before1_0, before1_1, before1_2, before1_3, before1_4, before1_5, before1_6, before1_7, before1_8, before1_9]
  rw [show (dat1 c A1 O B).Φ t.succ = (dat1 c A1 O B).Φ t.castSucc from rfl,
    show (dat1 c A1 O B).owesAt (none : HIx 2) t.succ = (dat1 c A1 O B).owesAt (none : HIx 2) t.castSucc from rfl,
    after1_0, after1_1, after1_2, after1_3, after1_4, after1_5, after1_6, after1_7, after1_8, after1_9, after1_10, after1_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel1 c Set.univ _ _ _ _ _ _ _ _ _ _ _ _ _ _ _ _ _ _ _ _ _ _ _ _ _ (iblk1 c A1 0 t) (iblk1 c A1 1 t) (iblk1 c A1 2 t) (iblk1 c A1 3 t) (iblk1 c A1 4 t) (iblk1 c A1 5 t) (iblk1 c A1 6 t) (iblk1 c A1 7 t) (iblk1 c A1 8 t) (iblk1 c A1 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obl1x : BodyObligation (dat1 c A1 O B) (defs₀ (F := F)) Variants.none (none : HIx 2) Set.univ := fun t => by
  rw [bigSep_W1, bigSep_W1]
  exact sound_body1 c A1 O B t

theorem body_obl1 : BodyObligationLoose (dat1 c A1 O B) (defs₀ (F := F)) Variants.none (none : HIx 2) Set.univ :=
  (body_obl1x c A1 O B).loose

/-! ## The same, as relational proof data -/

/-- The proof data read relationally. -/
def rd1 (c : Dev nD) (A1 : (w : Fin 12) → Buf (Elt F) ((cfg1.win w).arr.view.loc (c.tc : Thread nD τ)))
    (O : CellTallies nD τ sig (HIx 2)) (B : Set (SemLoc sig × HIx 2)) : Pipeline.RDat τ (Elt F) (HIx 2) ℕ UU ℕ cfg1 c := (dat1 c A1 O B).toR

theorem rbody1 : (rd1 c A1 O B).BodyObligation (defs₀ (F := F)) Variants.none (none : HIx 2) Set.univ :=
  (body_obl1 c A1 O B).toR

/-! ## The region's boundary -/

theorem Φ1_eq (t : Fin (cfg1.N + 1)) : (rd1 c A1 O B).Φ t
    = Pipeline.scopedRest (Ix := HIx 2) (Name := ℕ) (U := UU) (Lvl := ℕ) (Val := Elt F) cfg1.spec c := rfl

/-- The invariant at the first point: the scoped buffers no window stages, as the region hands them over. -/
theorem entry_hin1 :
    iprop((emp : sProp 𝕄) ∗ Pipeline.prefHeld (pcfgs (F := F) 0).pre c (fun _ => fullShare) ((cfgs 0).toPCfg_adm (Val := Elt F)).1
        ∗ Pipeline.scopedRest cfg1.spec c) ⊢ (rd1 c A1 O B).Φ 0 := by
  rw [Φ1_eq]; iintro ⟨-, -, H⟩; iexact H

/-- The invariant at the last point gives them back; the kernel has no semaphore of its own. -/
theorem entry_hout1 {K : Type} [Fintype K] [IsEmpty K] (osem : K → SemLoc sig) :
    (rd1 c A1 O B).Φ (Fin.last cfg1.N) ⊢ iprop((emp : sProp 𝕄) ∗ Pipeline.ownSems0 osem c ∗ Pipeline.scopedRest cfg1.spec c) := by
  rw [Φ1_eq]
  iintro H
  isplitr; · iempintro
  isplitr
  · unfold Pipeline.ownSems0; rw [Finset.univ_eq_empty, bigSep_empty]; iempintro
  iexact H

theorem share1 (w : Fin cfg1.W) : (rd1 c A1 O B).share w = fullShare := (rd1 c A1 O B).share_full (fun _ => rfl) w
theorem dshare1 (w : Fin cfg1.W) : (dat1 c A1 O B).share w = fullShare := (dat1 c A1 O B).share_full (fun _ => rfl) w
theorem set1 (w : Fin cfg1.W) : (cfg1.win w).arr.view.set = Finset.univ := (arr_whole1 w).set_eq_univ
theorem rA1_eq (w : Fin cfg1.W) : (rd1 c A1 O B).A w = A1 w := rfl

/-- One array whole at the full share at its entry contents, as the pipeline holds it. -/
theorem arr1_in (w : Fin cfg1.W) :
    ((cfg1.win w).arr.view.loc (c.tc : Thread nD τ) ↦{fullShare} A1 w : sProp 𝕄)
      ⊢ ((cfg1.win w).arr.view.loc (c.tc : Thread nD τ) ↦[(cfg1.win w).arr.view.set]{(rd1 c A1 O B).share w} (rd1 c A1 O B).A w) := by
  rw [share1, set1, rA1_eq]

/-- One array as the pipeline leaves it, whole at the full share. -/
theorem arr1_out (w : Fin cfg1.W) (G : Buf (Elt F) ((cfg1.win w).arr.view.loc (c.tc : Thread nD τ)))
    (h : (dat1 c A1 O B).arrAt w cfg1.N = G) :
    ((cfg1.win w).arr.view.loc (c.tc : Thread nD τ) ↦[(cfg1.win w).arr.view.set]{(dat1 c A1 O B).share w} (dat1 c A1 O B).arrAt w cfg1.N : sProp 𝕄)
      ⊢ ((cfg1.win w).arr.view.loc (c.tc : Thread nD τ) ↦{fullShare} G) := by
  subst h; rw [dshare1, set1]

theorem arrAt1_in (w : Fin cfg1.W) (hw : (cfg1.win w).isOut = false) : (dat1 c A1 O B).arrAt w cfg1.N = A1 w :=
  ((dat1 c A1 O B).arrAt_in w hw cfg1.N).trans (A1_eq c A1 O B w)

set_option maxHeartbeats 2000000 in
/-- ENTRY: the twelve windowed arrays, each whole at the full share at its entry contents, are the pipeline's arrays. -/
theorem arrays1_intro :
    iprop((((cfg1.win 0).arr.view.loc (c.tc : Thread nD τ)) ↦{fullShare} A1 0 : sProp 𝕄)
      ∗ (((cfg1.win 1).arr.view.loc (c.tc : Thread nD τ)) ↦{fullShare} A1 1 : sProp 𝕄)
      ∗ (((cfg1.win 2).arr.view.loc (c.tc : Thread nD τ)) ↦{fullShare} A1 2 : sProp 𝕄)
      ∗ (((cfg1.win 3).arr.view.loc (c.tc : Thread nD τ)) ↦{fullShare} A1 3 : sProp 𝕄)
      ∗ (((cfg1.win 4).arr.view.loc (c.tc : Thread nD τ)) ↦{fullShare} A1 4 : sProp 𝕄)
      ∗ (((cfg1.win 5).arr.view.loc (c.tc : Thread nD τ)) ↦{fullShare} A1 5 : sProp 𝕄)
      ∗ (((cfg1.win 6).arr.view.loc (c.tc : Thread nD τ)) ↦{fullShare} A1 6 : sProp 𝕄)
      ∗ (((cfg1.win 7).arr.view.loc (c.tc : Thread nD τ)) ↦{fullShare} A1 7 : sProp 𝕄)
      ∗ (((cfg1.win 8).arr.view.loc (c.tc : Thread nD τ)) ↦{fullShare} A1 8 : sProp 𝕄)
      ∗ (((cfg1.win 9).arr.view.loc (c.tc : Thread nD τ)) ↦{fullShare} A1 9 : sProp 𝕄)
      ∗ (((cfg1.win 10).arr.view.loc (c.tc : Thread nD τ)) ↦{fullShare} A1 10 : sProp 𝕄)
      ∗ (((cfg1.win 11).arr.view.loc (c.tc : Thread nD τ)) ↦{fullShare} A1 11 : sProp 𝕄))
      ⊢ (rd1 c A1 O B).arrays (rd1 c A1 O B).A := by
  unfold Pipeline.RDat.arrays
  rw [bigSep_W1]
  refine Idealize.SL.BI.sep_mono (arr1_in c A1 O B 0) ?_
  refine Idealize.SL.BI.sep_mono (arr1_in c A1 O B 1) ?_
  refine Idealize.SL.BI.sep_mono (arr1_in c A1 O B 2) ?_
  refine Idealize.SL.BI.sep_mono (arr1_in c A1 O B 3) ?_
  refine Idealize.SL.BI.sep_mono (arr1_in c A1 O B 4) ?_
  refine Idealize.SL.BI.sep_mono (arr1_in c A1 O B 5) ?_
  refine Idealize.SL.BI.sep_mono (arr1_in c A1 O B 6) ?_
  refine Idealize.SL.BI.sep_mono (arr1_in c A1 O B 7) ?_
  refine Idealize.SL.BI.sep_mono (arr1_in c A1 O B 8) ?_
  refine Idealize.SL.BI.sep_mono (arr1_in c A1 O B 9) ?_
  refine Idealize.SL.BI.sep_mono (arr1_in c A1 O B 10) ?_
  exact arr1_in c A1 O B 11

set_option maxHeartbeats 2000000 in
/-- EXIT: after every write-back the ten inputs are as they were and each output holds what the library computes from
    the proof data. -/
theorem arraysAt1_elim :
    (rd1 c A1 O B).arraysAt cfg1.N
      ⊢ iprop((((cfg1.win 0).arr.view.loc (c.tc : Thread nD τ)) ↦{fullShare} A1 0 : sProp 𝕄)
      ∗ (((cfg1.win 1).arr.view.loc (c.tc : Thread nD τ)) ↦{fullShare} A1 1 : sProp 𝕄)
      ∗ (((cfg1.win 2).arr.view.loc (c.tc : Thread nD τ)) ↦{fullShare} A1 2 : sProp 𝕄)
      ∗ (((cfg1.win 3).arr.view.loc (c.tc : Thread nD τ)) ↦{fullShare} A1 3 : sProp 𝕄)
      ∗ (((cfg1.win 4).arr.view.loc (c.tc : Thread nD τ)) ↦{fullShare} A1 4 : sProp 𝕄)
      ∗ (((cfg1.win 5).arr.view.loc (c.tc : Thread nD τ)) ↦{fullShare} A1 5 : sProp 𝕄)
      ∗ (((cfg1.win 6).arr.view.loc (c.tc : Thread nD τ)) ↦{fullShare} A1 6 : sProp 𝕄)
      ∗ (((cfg1.win 7).arr.view.loc (c.tc : Thread nD τ)) ↦{fullShare} A1 7 : sProp 𝕄)
      ∗ (((cfg1.win 8).arr.view.loc (c.tc : Thread nD τ)) ↦{fullShare} A1 8 : sProp 𝕄)
      ∗ (((cfg1.win 9).arr.view.loc (c.tc : Thread nD τ)) ↦{fullShare} A1 9 : sProp 𝕄)
      ∗ (((cfg1.win 10).arr.view.loc (c.tc : Thread nD τ)) ↦{fullShare} (dat1 c A1 O B).arrAt 10 cfg1.N : sProp 𝕄)
      ∗ (((cfg1.win 11).arr.view.loc (c.tc : Thread nD τ)) ↦{fullShare} (dat1 c A1 O B).arrAt 11 cfg1.N : sProp 𝕄)) := by
  refine ((dat1 c A1 O B).toR_arraysAt_post cfg1.N).trans ?_
  unfold Dat.arrays
  rw [bigSep_W1]
  refine Idealize.SL.BI.sep_mono (arr1_out c A1 O B 0 _ (arrAt1_in c A1 O B 0 rfl)) ?_
  refine Idealize.SL.BI.sep_mono (arr1_out c A1 O B 1 _ (arrAt1_in c A1 O B 1 rfl)) ?_
  refine Idealize.SL.BI.sep_mono (arr1_out c A1 O B 2 _ (arrAt1_in c A1 O B 2 rfl)) ?_
  refine Idealize.SL.BI.sep_mono (arr1_out c A1 O B 3 _ (arrAt1_in c A1 O B 3 rfl)) ?_
  refine Idealize.SL.BI.sep_mono (arr1_out c A1 O B 4 _ (arrAt1_in c A1 O B 4 rfl)) ?_
  refine Idealize.SL.BI.sep_mono (arr1_out c A1 O B 5 _ (arrAt1_in c A1 O B 5 rfl)) ?_
  refine Idealize.SL.BI.sep_mono (arr1_out c A1 O B 6 _ (arrAt1_in c A1 O B 6 rfl)) ?_
  refine Idealize.SL.BI.sep_mono (arr1_out c A1 O B 7 _ (arrAt1_in c A1 O B 7 rfl)) ?_
  refine Idealize.SL.BI.sep_mono (arr1_out c A1 O B 8 _ (arrAt1_in c A1 O B 8 rfl)) ?_
  refine Idealize.SL.BI.sep_mono (arr1_out c A1 O B 9 _ (arrAt1_in c A1 O B 9 rfl)) ?_
  refine Idealize.SL.BI.sep_mono (arr1_out c A1 O B 10 _ rfl) ?_
  exact arr1_out c A1 O B 11 _ rfl

end Cert.Proof.KW.Tc

end
-- ==== Proof.CombineRegionW.lean ====
import proofs.«204254_g40355512713743_retrytranche2_1723_12_alg».proof.Proof.CommonW
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Proof.KW.Tc

open Cert.Proof.KW

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 2) (Elt F) ℕ UU ℕ

/-! ## custom_call 3: the combination of the 32 partial rows, block by block

The pipeline stages, per grid point, a block of 8192 columns of the [32, 100000] array of partial sums and of the
[1, 100000] result; the thirteenth block overhangs both arrays (100000 = 12 · 8192 + 1696), so its transfers are cut:
the fetch fills the first 1696 columns of the staging buffer and leaves the rest at contents nothing names, and the
write-back writes the first 1696 columns only. -/

abbrev rP : Rect S32x8192 := Rect.unit (s := S32x8192) ![0, 0] S32x8192.size inb_S32x8192_S32x8192_0_0
abbrev rO : Rect S1x8192 := Rect.unit (s := S1x8192) ![0, 0] S1x8192.size inb_S1x8192_S1x8192_0_0

/-- Window `w`'s block at point `t` as the transfer reads it: its part inside the array. -/
def iblk3 (c : Dev nD) (A3 : (w : Fin 2) → Buf (Elt F) ((cfg3.win w).arr.view.loc (c.tc : Thread nD τ)))
    (w : Fin cfg3.W) (t : Fin cfg3.N) : ((cfg3.win w).xblock (cfg3.grid.coords t)).Idx → Elt F (cfg3.win w).elt :=
  ((cfg3.win w).blk t).view.read (Elt F) (A3 w)

/-- The input's staging buffer at point `t` on the columns inside the array, filled out with the zero word past the
    array's end (where the body obligation states nothing). -/
def in3 (c : Dev nD) (A3 : (w : Fin 2) → Buf (Elt F) ((cfg3.win w).arr.view.loc (c.tc : Thread nD τ)))
    (t : Fin cfg3.N) : Vec F S32x8192 .f32 :=
  win3_0.fill (grid3.coords t) (fun _ => Scalar.ofBits .f32 0#32) (iblk3 c A3 0 t)

/-- The result's block from the input's: the one whole store's payload. -/
def out3 (x : Vec F S32x8192 .f32) : Vec F S1x8192 .f32 :=
  View.canon [⟨rO, k3_pay1 (View.ld x rP)⟩]

theorem cover3 (p0 : Vec F S1x8192 .f32) (y : S1x8192.Idx) :
    ∃ pc ∈ ([⟨rO, p0⟩] : List (View.Piece (Elt F) S1x8192 .f32)), y ∈ pc.1.set :=
  View.cover_of_tiled [⟨rO, p0⟩] S1x8192.size (by rfl) y

/-- The windows the frame does not read: the result's. -/
abbrev fgt3 : Fin cfg3.W → Bool := fun | 0 => false | 1 => true | ⟨_ + 2, h⟩ => absurd h (Nat.not_lt.2 (Nat.le_add_left _ _))

/-- The proof data of pipeline 1 on core `c`. -/
def dat3 (c : Dev nD) (A3 : (w : Fin 2) → Buf (Elt F) ((cfg3.win w).arr.view.loc (c.tc : Thread nD τ)))
    (O : CellTallies nD τ sig (HIx 2)) (B : Set (SemLoc sig × HIx 2)) : Dat τ (Elt F) (HIx 2) ℕ UU ℕ cfg3 c where
  A := A3
  after w t := match w with
    | ⟨0, _⟩ => in3 c A3 t
    | ⟨1, _⟩ => out3 (in3 c A3 t)
  Φ _ := Pipeline.scopedRest (Ix := HIx 2) (Name := ℕ) (U := UU) (Lvl := ℕ) (Val := Elt F) spec3 c
  q _ := fullShare
  owed _ := O
  recorded _ := B

set_option maxHeartbeats 4000000 in
/-- The kernel body on whole staging memrefs, the input's at read contents `x0` and the result's at anything, runs to
    the continuation holding the input's as it was and the result's at `out3 x0`. -/
theorem sound_kernel3 (c : Dev nD) (E : Set ℕ) (i : grid3.Coords) (arg1 : Memref sig .tc .vmem S32x8192 .f32) (harg1 : arg1.IsWhole)
    (arg2 : Memref sig .tc .vmem S1x8192 .f32) (harg2 : arg2.IsWhole) (x0 : Vec F S32x8192 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out3 x0)) -∗ K ⟨⟩))
      ⊢ wp frame (wpE (defs₀ (F := F)) Variants.none c none) E (cc3__combine_body i arg1 harg1 arg2 harg2) K := by
  simp only [cc3__combine_body_eq_skeleton]; unfold cc3__combine_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover3 _)

variable (c : Dev nD) (A3 : (w : Fin 2) → Buf (Elt F) ((cfg3.win w).arr.view.loc (c.tc : Thread nD τ)))
    (O : CellTallies nD τ sig (HIx 2)) (B : Set (SemLoc sig × HIx 2))

theorem A3_eq (w : Fin cfg3.W) : (dat3 c A3 O B).A w = A3 w := by dsimp only [dat3]
theorem after3_0 (t : Fin cfg3.N) : (dat3 c A3 O B).after 0 t = in3 c A3 t := by dsimp only [dat3]
theorem after3_1 (t : Fin cfg3.N) : (dat3 c A3 O B).after 1 t = out3 (in3 c A3 t) := by dsimp only [dat3]

/-- The input's buffer arrives just fetched: the block on the columns inside the array, `d` elsewhere. -/
theorem before3_0 (t : Fin cfg3.N) (d) : (dat3 c A3 O B).before 0 t d = win3_0.fill (grid3.coords t) d (iblk3 c A3 0 t) := by
  unfold Dat.before; rw [if_pos (fetch3_0 t)]
  unfold Dat.fetched Dat.blockOf iblk3; rw [A3_eq]; try rfl

/-- What the body is called with at point `t` when the result's window is forgotten, -/
def bodyPre3f (t : Fin cfg3.N) : sProp 𝕄 :=
  iprop((dat3 c A3 O B).Φ t.castSucc ∗ (dat3 c A3 O B).owesAt (none : HIx 2) t.castSucc
    ∗ (∃ d, owns (c : Thread nD τ) (st3_0 t) fullShare ((dat3 c A3 O B).before 0 t d))
    ∗ (∃ X, owns (c : Thread nD τ) (st3_1 t) fullShare X))

/-- and what it returns: the input's buffer stated on the columns inside the array, the result's at anything. -/
def bodyPost3f (t : Fin cfg3.N) : sProp 𝕄 :=
  iprop((dat3 c A3 O B).Φ t.succ ∗ (dat3 c A3 O B).owesAt (none : HIx 2) t.succ
    ∗ (∃ d, owns (c : Thread nD τ) (st3_0 t) fullShare (win3_0.fill (grid3.coords t) d (win3_0.cut (grid3.coords t) ((dat3 c A3 O B).after 0 t))))
    ∗ (∃ X, owns (c : Thread nD τ) (st3_1 t) fullShare X))

theorem sound_body3f (t : Fin cfg3.N) :
    bodyPre3f c A3 O B t ⊢ wp frame (wpE (defs₀ (F := F)) Variants.none c none) Set.univ (bodyAt3 t) (fun _ => bodyPost3f c A3 O B t) := by
  unfold bodyPre3f bodyPost3f bodyAt3
  rw [show (dat3 c A3 O B).Φ t.succ = (dat3 c A3 O B).Φ t.castSucc from rfl,
    show (dat3 c A3 O B).owesAt (none : HIx 2) t.succ = (dat3 c A3 O B).owesAt (none : HIx 2) t.castSucc from rfl, after3_0]
  iintro ⟨HΦ, Ho, ⟨%d0, H0⟩, ⟨%X1, H1⟩⟩
  rw [before3_0 c A3 O B t d0]
  iapply (sound_kernel3 (F := F) c Set.univ _ _ _ _ _ (win3_0.fill (grid3.coords t) d0 (iblk3 c A3 0 t)) _)
  isplitl [H0]; · iexact H0
  isplitl [H1]; · iexists _; iexact H1
  iintro ⟨H0, H1⟩
  isplitl [HΦ]; · iexact HΦ
  isplitl [Ho]; · iexact Ho
  have hx : win3_0.cut (grid3.coords t) (in3 c A3 t) = iblk3 c A3 0 t := win3_0.cut_fill _ _ _
  isplitl [H0]
  · iexists d0; rw [hx]; try iexact H0
  · iexists _; iexact H1

/-- The forgetful body obligation, at every float instance: the input's buffer is handed back as found, which on the
    columns inside the array is its block; of the result's buffer nothing is said. -/
theorem body_obl3_fgt : BodyObligationLoose (dat3 c A3 O B) (defs₀ (F := F)) Variants.none (none : HIx 2) Set.univ fgt3 := fun t => by
  rw [bigSep_W3, bigSep_W3]
  exact sound_body3f c A3 O B t

/-- The proof data read relationally, the result's window forgotten: what the frames use. -/
def rd3f (c : Dev nD) (A3 : (w : Fin 2) → Buf (Elt F) ((cfg3.win w).arr.view.loc (c.tc : Thread nD τ)))
    (O : CellTallies nD τ sig (HIx 2)) (B : Set (SemLoc sig × HIx 2)) : Pipeline.RDat τ (Elt F) (HIx 2) ℕ UU ℕ cfg3 c := (dat3 c A3 O B).toRForget fgt3

theorem rbody3f : (rd3f c A3 O B).BodyObligation (defs₀ (F := F)) Variants.none (none : HIx 2) Set.univ :=
  (body_obl3_fgt c A3 O B).toRForget

/-! ## The region's boundary, the result's window forgotten -/

theorem Φ3f_eq (t : Fin (cfg3.N + 1)) : (rd3f c A3 O B).Φ t
    = Pipeline.scopedRest (Ix := HIx 2) (Name := ℕ) (U := UU) (Lvl := ℕ) (Val := Elt F) cfg3.spec c := rfl

theorem entry_hin3f :
    iprop((emp : sProp 𝕄) ∗ Pipeline.prefHeld (pcfgs (F := F) 1).pre c (fun _ => fullShare) ((cfgs 1).toPCfg_adm (Val := Elt F)).1
        ∗ Pipeline.scopedRest cfg3.spec c) ⊢ (rd3f c A3 O B).Φ 0 := by
  rw [Φ3f_eq]; iintro ⟨-, -, H⟩; iexact H

theorem entry_hout3f {K : Type} [Fintype K] [IsEmpty K] (osem : K → SemLoc sig) :
    (rd3f c A3 O B).Φ (Fin.last cfg3.N) ⊢ iprop((emp : sProp 𝕄) ∗ Pipeline.ownSems0 osem c ∗ Pipeline.scopedRest cfg3.spec c) := by
  rw [Φ3f_eq]
  iintro H
  isplitr; · iempintro
  isplitr
  · unfold Pipeline.ownSems0; rw [Finset.univ_eq_empty, bigSep_empty]; iempintro
  iexact H

theorem share3f (w : Fin cfg3.W) : (rd3f c A3 O B).share w = fullShare := (rd3f c A3 O B).share_full (fun _ => rfl) w
theorem dshare3 (w : Fin cfg3.W) : (dat3 c A3 O B).share w = fullShare := (dat3 c A3 O B).share_full (fun _ => rfl) w
theorem set3 (w : Fin cfg3.W) : (cfg3.win w).arr.view.set = Finset.univ := (arr_whole3 w).set_eq_univ
theorem rA3f_eq (w : Fin cfg3.W) : (rd3f c A3 O B).A w = A3 w := rfl

theorem arr3f_in (w : Fin cfg3.W) :
    ((cfg3.win w).arr.view.loc (c.tc : Thread nD τ) ↦{fullShare} A3 w : sProp 𝕄)
      ⊢ ((cfg3.win w).arr.view.loc (c.tc : Thread nD τ) ↦[(cfg3.win w).arr.view.set]{(rd3f c A3 O B).share w} (rd3f c A3 O B).A w) := by
  rw [share3f, set3, rA3f_eq]

/-- ENTRY: the two windowed arrays, each whole at the full share at its entry contents, are the pipeline's arrays. -/
theorem arrays3f_intro :
    iprop((((cfg3.win 0).arr.view.loc (c.tc : Thread nD τ)) ↦{fullShare} A3 0 : sProp 𝕄) ∗ (((cfg3.win 1).arr.view.loc (c.tc : Thread nD τ)) ↦{fullShare} A3 1 : sProp 𝕄))
      ⊢ (rd3f c A3 O B).arrays (rd3f c A3 O B).A := by
  unfold Pipeline.RDat.arrays
  rw [bigSep_W3]
  exact Idealize.SL.BI.sep_mono (arr3f_in c A3 O B 0) (arr3f_in c A3 O B 1)

theorem arrAt3_in : (dat3 c A3 O B).arrAt 0 cfg3.N = A3 0 :=
  ((dat3 c A3 O B).arrAt_in 0 rfl cfg3.N).trans (A3_eq c A3 O B 0)

/-- EXIT: after every write-back the input is as it was; the result's array holds something. -/
theorem arraysAt3f_elim :
    (rd3f c A3 O B).arraysAt cfg3.N
      ⊢ iprop((((cfg3.win 0).arr.view.loc (c.tc : Thread nD τ)) ↦{fullShare} A3 0 : sProp 𝕄) ∗ ∃ f, (((cfg3.win 1).arr.view.loc (c.tc : Thread nD τ)) ↦{fullShare} f : sProp 𝕄)) := by
  unfold Pipeline.RDat.arraysAt
  rw [bigSep_W3]
  iintro ⟨⟨%F0, %h0, H0⟩, ⟨%F1, -, H1⟩⟩
  isplitl [H0]
  · have h0' : ((dat3 c A3 O B).toRForget fgt3).ArrAt 0 cfg3.N F0 := h0
    have e : F0 = A3 0 := (((dat3 c A3 O B).toRForget_arrAt_iff (fgt := fgt3) (w := 0) rfl cfg3.N F0).mp h0').trans
      (arrAt3_in c A3 O B)
    rw [e, share3f, set3]; iexact H0
  · iexists F1; rw [share3f, set3]; iexact H1

end Cert.Proof.KW.Tc

end
-- ==== Proof.RegsW.lean ====
/-
  The two TensorCore pipeline regions as the segment library's records, inside the SparseCore launch: what each is entered from and leaves (all of @main's arrays at a valuation, the TensorCore's debts to the later SparseCore calls), entry and exit.
-/
import proofs.«204254_g40355512713743_retrytranche2_1723_12_alg».proof.Proof.CommonW
import proofs.«204254_g40355512713743_retrytranche2_1723_12_alg».proof.Proof.MainAW
import proofs.«204254_g40355512713743_retrytranche2_1723_12_alg».proof.Proof.MlpRegionW
import proofs.«204254_g40355512713743_retrytranche2_1723_12_alg».proof.Proof.CombineRegionW

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable [∀ e, Nonempty (Elt F e)]
variable (m : (ℓ : Loc nD τ sig) → Buf (Elt F) ℓ)

open Idealize.ShloMosaic.TcCoe
open Idealize.ShloMosaic.StableHlo (held)
open Idealize.ShloMosaic.Pipeline (ucRefs unscopedRest unscopedBufs_held)

/-- No pipeline has prefetched tables. -/
abbrev adm : (p : Fin 2) → (pcfgs (F := F) p).Adm := fun p => (cfgs p).toPCfg_adm

/-- The pairs a TensorCore's waits may have recorded before SparseCore call `n`: those at level at most `8 n`. -/
def Bn (c : Dev nD) (n : ℕ) : Set (SemLoc sig × HIx 2) := {p | (K (F := F)).lev (SparseCore.T c, p.1) p.2 ≤ 8 * n}

/-- What the TensorCore owes before SparseCore call `n`, its recorded pairs bounded. -/
abbrev owesTC (c : Dev nD) (n : ℕ) : sProp 𝕄 :=
  iprop(∃ W, ⌜(K (F := F)).WBelow (SparseCore.T c) W (8 * n)⌝ ∗ owes (SparseCore.T c) ((K (F := F)).Otc c n) W)

omit [FloatOps F] [∀ e, Nonempty (Elt F e)] in
/-- The TensorCore's debts are all at a call's index. -/
theorem Otc_none (c : Dev nD) (n : ℕ) (g : GSem nD τ sig) : (K (F := F)).Otc c n g none = 0 := by
  unfold SparseCore.Cfg.Otc
  rw [Finset.sum_apply, Finsupp.finset_sum_apply]
  refine Finset.sum_eq_zero fun q _ => ?_
  split
  · rw [Finset.sum_apply, Finsupp.finset_sum_apply]
    exact Finset.sum_eq_zero fun c _ => by rw [tallyAt_apply]; simp
  · rfl

/-- The first pipeline's twelve arrays as it finds them. -/
abbrev A1 (c : Dev nD) : (w : Fin 12) → Buf (Elt F) ((cfg1.win w).arr.view.loc (c.tc : Thread nD τ)) := fun w => Vc m c (Pipeline.arrRef spec1 w)

/-- The contents the first pipeline leaves in its two result arrays. -/
abbrev tfR (c : Dev nD) := (Tc.dat1 c (A1 m c) ((K (F := F)).Otc c 1) (Bn (F := F) c 1)).arrAt 10 cfg1.N
abbrev tbR (c : Dev nD) := (Tc.dat1 c (A1 m c) ((K (F := F)).Otc c 1) (Bn (F := F) c 1)).arrAt 11 cfg1.N

/-- After the first pipeline. -/
def Vd (c : Dev nD) : Valuation τ sig (Elt F) := Function.update (Function.update (Vc m c) (rV main_v9_0) (tfR m c)) (rV main_v9_1) (tbR m c)

theorem Vd_of_ne (c : Dev nD) (b : DevRef τ sig) (h0 : b ≠ rV main_v9_0) (h1 : b ≠ rV main_v9_1) : Vd m c b = Vc m c b := by
  unfold Vd; rw [Function.update_of_ne h1, Function.update_of_ne h0]
theorem Vd_v90 (c : Dev nD) : Vd m c (rV main_v9_0) = tfR m c := by
  unfold Vd; rw [Function.update_of_ne (StableHlo.devRef_ne_of_ne (by decide)), Function.update_self]
theorem Vd_v91 (c : Dev nD) : Vd m c (rV main_v9_1) = tbR m c := by
  unfold Vd; rw [Function.update_self]

/-- After the second SparseCore call: the partial sums at the scatter kernel's function of the flattened indices and the two MLP outputs. -/
def Ve (c : Dev nD) : Valuation τ sig (Elt F) := Function.update (Vd m c) (rV main_v10) (Sc.specPart (eiOf m c) (tfR m c) (tbR m c))
/-- After the reshape of the partial sums to 32 rows. -/
def Vf (c : Dev nD) : Valuation τ sig (Elt F) := (hop11 (F := F)).result (Ve m c)
/-- The second pipeline's two arrays as it finds them. -/
abbrev A3 (c : Dev nD) : (w : Fin 2) → Buf (Elt F) ((cfg3.win w).arr.view.loc (c.tc : Thread nD τ)) := fun w => Vf m c (Pipeline.arrRef spec3 w)

/-- The proof data of the two pipelines, relational form: the first exact, the second with its result window forgotten. -/
def rdats : (p : Fin 2) → (c : Dev nD) → Pipeline.RDat τ (Elt F) (HIx 2) ℕ UU ℕ (Pipeline.pin (pcfgs (F := F)) adm p) c
  | ⟨0, _⟩ => fun c => Tc.rd1 c (A1 m c) ((K (F := F)).Otc c 1) (Bn (F := F) c 1)
  | ⟨1, _⟩ => fun c => Tc.rd3f c (A3 m c) ((K (F := F)).Otc c 2) (Bn (F := F) c 2)

omit [FloatOps F] [∀ e, Nonempty (Elt F e)] in
/-- Recorded pairs within the bound of call `n` or at the loop's own waits (index `none`, level 0) are below `8 n`. -/
theorem wbelow_of_bound {c : Dev nD} {n : ℕ} {W : Waits sig (HIx 2)} {cfg : Pipeline.Cfg sig Λ₀}
    (h : (↑W : Set (SemLoc sig × HIx 2)) ⊆ Bn (F := F) c n ∪ cfg.waitPairs (none : HIx 2)) : (K (F := F)).WBelow (SparseCore.T c) W (8 * n) := by
  intro p hp
  rcases h (Finset.mem_coe.mpr hp) with hb | ⟨w, s, rfl⟩
  · exact hb
  · rw [SparseCore.Cfg.lev_none]; exact Nat.zero_le _

/-- THE FIRST PIPELINE REGION (the per-edge MLP): entered from all of @main's arrays at `Vc` and the TensorCore's debts before the second
    SparseCore call; leaves them at `Vd` and the same debts. -/
def reg1 : Pipeline.RDat.RegionSeg (pcfgs (F := F)) adm (rdats m) (none : HIx 2) (defs₀ (F := F)) 𝒱₀ (K (F := F)).L (K (F := F)).lev 0 where
  win := launch1.win.to₀
  block_pos := launch1.block_pos
  stage_whole := launch1.stage_whole
  K := PEmpty
  osem k := k.elim
  ho := Pipeline.OwnSemFacts.none _
  hbody c := Tc.rbody1 c _ _ _
  hwaits c := Pipeline.RDat.cellsWaits_intro _ (rdats m) (none : HIx 2) 0 c fun w s t => (K (F := F)).mayWait_none _ (Otc_none c 1)
  pre c := iprop(unscopedBufs c (fun b => Vc m c b) ∗ owesTC (F := F) c 1)
  post c := iprop(unscopedBufs c (fun b => Vd m c b) ∗ owesTC (F := F) c 1)
  X _ := iprop(emp)
  Y _ := iprop(emp)
  Z c := unscopedRest (Ix := HIx 2) (Name := ℕ) (U := UU) (Lvl := ℕ) spec1 c (fun b => Vc m c b)
  hentry c := by
    rw [Pipeline.ownSems0_none]
    have hsplit := Pipeline.RDat.arrays_of_unscopedBufs (pcfgs (F := F)) adm (rdats m) (p := 0) launch1.win launch1.arr_whole c
      (Tc.share1 c _ _ _) (fun b => Vc m c b) (fun _ => rfl)
    iintro ⟨⟨Hub, %W, %hW, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · iexists W; isplitr
      · ipureintro; exact fun p hp => Or.inl (hW p (Finset.mem_coe.mp hp))
      iexact HO
    isplitr; · iempintro
    iexact Hr
  hin c := Tc.entry_hin1 c _ _ _
  hout c := Tc.entry_hout1 c _ _ _ _
  hexit c := by
    have hrest : (unscopedRest (Ix := HIx 2) (Name := ℕ) (U := UU) (Lvl := ℕ) (cfgs 0).spec c (fun b => Vd m c b) : sProp 𝕄)
        = unscopedRest (cfgs 0).spec c (fun b => Vc m c b) := by
      unfold Pipeline.unscopedRest
      exact bigSep_congr fun b hb => by
        have hb' := (Finset.mem_sdiff.mp hb).2
        beta_reduce
        rw [Vd_of_ne m c _ (fun e => hb' (Finset.mem_image.mpr ⟨10, Finset.mem_univ _, (Proc.devRef_injective _ e).symm⟩))
          (fun e => hb' (Finset.mem_image.mpr ⟨11, Finset.mem_univ _, (Proc.devRef_injective _ e).symm⟩))]
    show iprop((Tc.rd1 c (A1 m c) ((K (F := F)).Otc c 1) (Bn (F := F) c 1)).arraysAt cfg1.N
        ∗ (Tc.rd1 c (A1 m c) ((K (F := F)).Otc c 1) (Bn (F := F) c 1)).owesAt (none : HIx 2) (Fin.last cfg1.N) ∗ emp
        ∗ unscopedRest (Ix := HIx 2) (Name := ℕ) (U := UU) (Lvl := ℕ) cfg1.spec c (fun b => Vc m c b)) ⊢ _
    iintro ⟨Ha, ⟨%W, %hW, HO⟩, -, Hr⟩
    ihave Ha' := (Tc.arraysAt1_elim c (A1 m c) ((K (F := F)).Otc c 1) (Bn (F := F) c 1)) $$ Ha
    icases Ha' with ⟨H0, H1, H2, H3, H4, H5, H6, H7, H8, H9, H10, H11⟩
    imodintro
    isplitr [HO]
    · rw [Pipeline.unscopedBufs_split cfgs 0 launch1.win.arr_unscoped launch1.win.arr_inj c (fun b => Vd m c b), bigSep_W1]
      isplitr [Hr]
      · isplitl [H0]; · rw [Vd_of_ne m c _ (StableHlo.devRef_ne_of_ne (by decide)) (StableHlo.devRef_ne_of_ne (by decide))]; iexact H0
        isplitl [H1]; · rw [Vd_of_ne m c _ (StableHlo.devRef_ne_of_ne (by decide)) (StableHlo.devRef_ne_of_ne (by decide))]; iexact H1
        isplitl [H2]; · rw [Vd_of_ne m c _ (StableHlo.devRef_ne_of_ne (by decide)) (StableHlo.devRef_ne_of_ne (by decide))]; iexact H2
        isplitl [H3]; · rw [Vd_of_ne m c _ (StableHlo.devRef_ne_of_ne (by decide)) (StableHlo.devRef_ne_of_ne (by decide))]; iexact H3
        isplitl [H4]; · rw [Vd_of_ne m c _ (StableHlo.devRef_ne_of_ne (by decide)) (StableHlo.devRef_ne_of_ne (by decide))]; iexact H4
        isplitl [H5]; · rw [Vd_of_ne m c _ (StableHlo.devRef_ne_of_ne (by decide)) (StableHlo.devRef_ne_of_ne (by decide))]; iexact H5
        isplitl [H6]; · rw [Vd_of_ne m c _ (StableHlo.devRef_ne_of_ne (by decide)) (StableHlo.devRef_ne_of_ne (by decide))]; iexact H6
        isplitl [H7]; · rw [Vd_of_ne m c _ (StableHlo.devRef_ne_of_ne (by decide)) (StableHlo.devRef_ne_of_ne (by decide))]; iexact H7
        isplitl [H8]; · rw [Vd_of_ne m c _ (StableHlo.devRef_ne_of_ne (by decide)) (StableHlo.devRef_ne_of_ne (by decide))]; iexact H8
        isplitl [H9]; · rw [Vd_of_ne m c _ (StableHlo.devRef_ne_of_ne (by decide)) (StableHlo.devRef_ne_of_ne (by decide))]; iexact H9
        isplitl [H10]; · rw [show Vd m c (Proc.devRef .tc (Pipeline.arrRef (cfgs 0).spec 10)) = tfR m c from Vd_v90 m c]; iexact H10
        rw [show Vd m c (Proc.devRef .tc (Pipeline.arrRef (cfgs 0).spec 11)) = tbR m c from Vd_v91 m c]; iexact H11
      · rw [hrest]; iexact Hr
    · iexists W; isplitr
      · ipureintro; exact wbelow_of_bound (F := F) hW
      iexact HO

/-- After the second pipeline, its result array at contents `f`. -/
def Vg (c : Dev nD) (f : Buf (Elt F) ((c.tc : Thread nD τ).loc main_v12)) : Valuation τ sig (Elt F) := Function.update (Vf m c) (rV main_v12) f

theorem Vg_of_ne (c : Dev nD) (f) (b : DevRef τ sig) (h : b ≠ rV main_v12) : Vg m c f b = Vf m c b := by
  unfold Vg; rw [Function.update_of_ne h]
theorem Vg_v12 (c : Dev nD) (f) : Vg m c f (rV main_v12) = f := by
  unfold Vg; rw [Function.update_self]

/-- THE SECOND PIPELINE REGION (the combine of the 32 partial sums), its result window forgotten: entered from all of @main's arrays at `Vf`
    and the TensorCore owing nothing more; leaves them at `Vg` of some contents of the result array. -/
def reg3 : Pipeline.RDat.RegionSeg (pcfgs (F := F)) adm (rdats m) (none : HIx 2) (defs₀ (F := F)) 𝒱₀ (K (F := F)).L (K (F := F)).lev 1 where
  win := launch3.win.to₀
  block_pos := launch3.block_pos
  stage_whole := launch3.stage_whole
  K := PEmpty
  osem k := k.elim
  ho := Pipeline.OwnSemFacts.none _
  hbody c := Tc.rbody3f c _ _ _
  hwaits c := Pipeline.RDat.cellsWaits_intro _ (rdats m) (none : HIx 2) 1 c fun w s t => (K (F := F)).mayWait_none _ (Otc_none c 2)
  pre c := iprop(unscopedBufs c (fun b => Vf m c b) ∗ owesTC (F := F) c 2)
  post c := iprop((∃ f, unscopedBufs c (fun b => Vg m c f b)) ∗ owesTC (F := F) c 2)
  X _ := iprop(emp)
  Y _ := iprop(emp)
  Z c := unscopedRest (Ix := HIx 2) (Name := ℕ) (U := UU) (Lvl := ℕ) spec3 c (fun b => Vf m c b)
  hentry c := by
    rw [Pipeline.ownSems0_none]
    have hsplit := Pipeline.RDat.arrays_of_unscopedBufs (pcfgs (F := F)) adm (rdats m) (p := 1) launch3.win launch3.arr_whole c
      (Tc.share3f c _ _ _) (fun b => Vf m c b) (fun _ => rfl)
    iintro ⟨⟨Hub, %W, %hW, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · iexists W; isplitr
      · ipureintro; exact fun p hp => Or.inl (hW p (Finset.mem_coe.mp hp))
      iexact HO
    isplitr; · iempintro
    iexact Hr
  hin c := Tc.entry_hin3f c _ _ _
  hout c := Tc.entry_hout3f c _ _ _ _
  hexit c := by
    have hrest : ∀ f, (unscopedRest (Ix := HIx 2) (Name := ℕ) (U := UU) (Lvl := ℕ) (cfgs 1).spec c (fun b => Vg m c f b) : sProp 𝕄)
        = unscopedRest (cfgs 1).spec c (fun b => Vf m c b) := fun f => by
      unfold Pipeline.unscopedRest
      exact bigSep_congr fun b hb => by
        have hb' := (Finset.mem_sdiff.mp hb).2
        beta_reduce
        rw [Vg_of_ne m c f _ (fun e => hb' (Finset.mem_image.mpr ⟨1, Finset.mem_univ _, (Proc.devRef_injective _ e).symm⟩))]
    show iprop((Tc.rd3f c (A3 m c) ((K (F := F)).Otc c 2) (Bn (F := F) c 2)).arraysAt cfg3.N
        ∗ (Tc.rd3f c (A3 m c) ((K (F := F)).Otc c 2) (Bn (F := F) c 2)).owesAt (none : HIx 2) (Fin.last cfg3.N) ∗ emp
        ∗ unscopedRest (Ix := HIx 2) (Name := ℕ) (U := UU) (Lvl := ℕ) cfg3.spec c (fun b => Vf m c b)) ⊢ _
    iintro ⟨Ha, ⟨%W, %hW, HO⟩, -, Hr⟩
    ihave Ha' := (Tc.arraysAt3f_elim c (A3 m c) ((K (F := F)).Otc c 2) (Bn (F := F) c 2)) $$ Ha
    icases Ha' with ⟨H0, %f, H1⟩
    imodintro
    isplitr [HO]
    · iexists f
      rw [Pipeline.unscopedBufs_split cfgs 1 launch3.win.arr_unscoped launch3.win.arr_inj c (fun b => Vg m c f b), bigSep_W3]
      isplitr [Hr]
      · isplitl [H0]; · rw [Vg_of_ne m c f _ (StableHlo.devRef_ne_of_ne (by decide))]; iexact H0
        rw [show Vg m c f (Proc.devRef .tc (Pipeline.arrRef (cfgs 1).spec 1)) = f from Vg_v12 m c f]; iexact H1
      · rw [hrest]; iexact Hr
    · iexists W; isplitr
      · ipureintro; exact wbelow_of_bound (F := F) hW
      iexact HO

end Cert.Proof.KW

end
-- ==== Proof.LaunchAW.lean ====
/-
  The launch of the kernel's program: what each SparseCore call hands its processors, the tile tasks as the launch theorem's obligations, the launch element of the ghost state, and the run.
-/
import proofs.«204254_g40355512713743_retrytranche2_1723_12_alg».proof.Proof.CommonW
import proofs.«204254_g40355512713743_retrytranche2_1723_12_alg».proof.Proof.RegsW
import Idealize.ShloMosaic.Lib.Pipeline.Regions

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable [∀ e, Nonempty (Elt F e)]
variable (m : (ℓ : Loc nD τ sig) → Buf (Elt F) ℓ) (ρ : Dev nD → PrngReg)

/-! ## What the calls hand over -/

def P : (K (F := F)).Pay (nD := nD) (Val := Elt F) (Name := ℕ) (U := UU) where
  st := fun q d c => match q with
    | 0 => Ga.st0 (eiOf m d) (rfOf m d) (vtOf m d) d (Fin.cast (nCore_q 0) c)
    | 1 => Sc.st1 (eiOf m d) (tfR m d) (tbR m d) d (Fin.cast (nCore_q 1) c)
  dn := fun q d c => match q with
    | 0 => Ga.dn0 (eiOf m d) (rfOf m d) (vtOf m d) d (Fin.cast (nCore_q 0) c)
    | 1 => Sc.dn1 (eiOf m d) (tfR m d) (tbR m d) d (Fin.cast (nCore_q 1) c)
  go := fun q d c i => match q with
    | 0 => Ga.go0 (eiOf m d) (rfOf m d) (vtOf m d) d (Ga.coords0 (Fin.cast (nCore_q 0) c) (Fin.cast (nSub_q 0) i))
    | 1 => Sc.go1 (eiOf m d) (tfR m d) (tbR m d) d (Sc.coords (Fin.cast (nCore_q 1) c) (Fin.cast (nSub_q 1) i))
  td := fun q d c i => match q with
    | 0 => Ga.td0 (eiOf m d) (rfOf m d) (vtOf m d) d (Ga.coords0 (Fin.cast (nCore_q 0) c) (Fin.cast (nSub_q 0) i))
    | 1 => Sc.td1 (eiOf m d) (tfR m d) (tbR m d) d (Sc.coords (Fin.cast (nCore_q 1) c) (Fin.cast (nSub_q 1) i))
  x := fun _ _ => iprop(emp)

instance P_storable : (P (F := F) m).IsStorable where
  st q d c := match q with
    | 0 => by unfold P; infer_instance
    | 1 => by unfold P; infer_instance
  dn q d c := match q with
    | 0 => by unfold P; infer_instance
    | 1 => by unfold P; infer_instance
  go q d c i := match q with
    | 0 => by unfold P; infer_instance
    | 1 => by unfold P; infer_instance
  td q d c i := match q with
    | 0 => by unfold P; infer_instance
    | 1 => by unfold P; infer_instance

/-! ## The launch theorem's obligations -/

theorem defs₀_vector0 (c : Fin τ.nSC) (s : Fin τ.nSub) :
    defs₀ (F := F) (.scVector c s) 0 ()
      = SparseCore.onTile hcore0 hsub0 (fun c s => cc0__sc_gather_body (Ga.coords0 c s) (Memref.whole main_v0_scv) (Memref.isWhole_whole _) (Memref.whole main_v1_scv) (Memref.isWhole_whole _) (Memref.whole main_v3_scv) (Memref.isWhole_whole _)
            (Memref.whole main_v4_0_scv) (Memref.isWhole_whole _) (Memref.whole main_v4_1_scv) (Memref.isWhole_whole _) (Memref.whole main_v4_2_scv) (Memref.isWhole_whole _) (Memref.whole main_v4_3_scv) (Memref.isWhole_whole _)
            (Memref.whole cc0_scratch0) (Memref.isWhole_whole _) (Memref.whole cc0_scratch1) (Memref.isWhole_whole _) (Memref.whole cc0_scratch2) (Memref.isWhole_whole _) (Memref.whole cc0_scratch3) (Memref.isWhole_whole _)
            cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13) ⟨⟩ c s := rfl

theorem defs₀_vector2 (c : Fin τ.nSC) (s : Fin τ.nSub) :
    defs₀ (F := F) (.scVector c s) 2 ()
      = SparseCore.onTile hcore2 hsub2 (fun c s => cc2__sc_scatter_body (Sc.coords c s) (Memref.whole main_v0_scv) (Memref.isWhole_whole _) (Memref.whole main_v9_0_scv) (Memref.isWhole_whole _) (Memref.whole main_v9_1_scv) (Memref.isWhole_whole _)
            (Memref.whole main_v10_scv) (Memref.isWhole_whole _) (Memref.whole cc2_scratch0) (Memref.isWhole_whole _) (Memref.whole cc2_scratch1) (Memref.isWhole_whole _) (Memref.whole cc2_scratch2) (Memref.isWhole_whole _)
            cc2_scoped0 cc2_scoped1 cc2_scoped2 cc2_scoped3 cc2_scoped4 cc2_scoped5 cc2_scoped6) ⟨⟩ c s := rfl

omit [FloatOps F] [∀ e, Nonempty (Elt F e)] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] [∀ e, Nonempty (Elt F e)] in
theorem drop_emp {A B : sProp 𝕄} : iprop(A ∗ emp ∗ B) ⊢ iprop(A ∗ B) := by
  iintro ⟨HA, -, HB⟩
  isplitl [HA]; · iexact HA
  iexact HB

/-- Every index word of the flattened edge list, read unsigned, names a node. -/
def PreOK : Prop := ∀ (d : Dev nD) j, (BitVec.toNat (show BitVec 32 from eiOf m d j)) < 100000

theorem tileObl0 (hr : Ga.TileR F) (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector0]; simp only [SparseCore.onTile, hc, and_self, ↓reduceDIte]
  exact drop_emp.trans ((Ga.tile_body0 hr (eiOf m d) (rfOf m d) (vtOf m d) hF (hpre d) d (Ga.coords0 ⟨_, hc.1⟩ ⟨_, hc.2⟩) O W hO).trans (wp_mono frame _ _ fun _ => obl_post (q := 0)))

theorem tileObl1 (hF : (K (F := F)).Facts) (hpre : PreOK m) : (K (F := F)).TileObl (D (F := F)) 𝒱 (P m) v₀ 1 := by
  intro d c i O W hO _ _
  simp only [show (P m).ox = fun _ _ => 0 from rfl, add_zero]
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  have hc : ((K (F := F)).core 1 c).val < grid2.bound 0 ∧ ((K (F := F)).sub 1 i).val < grid2.bound 1 := ⟨c.isLt, i.isLt⟩
  rw [defs₀_vector2]; simp only [SparseCore.onTile, hc, and_self, ↓reduceDIte]
  exact drop_emp.trans ((Sc.tile_body1 (eiOf m d) (tfR m d) (tbR m d) d (Sc.coords ⟨_, hc.1⟩ ⟨_, hc.2⟩) hF (hpre d) O W hO).trans (wp_mono frame _ _ fun _ => obl_post (q := 1)))

omit [FloatOps F] [∀ e, Nonempty (Elt F e)] in
theorem bigSep_tasks (q : Fin 2) (Φ : Fin 16 → sProp 𝕄) :
    (bigSep Finset.univ fun i : Fin ((K (F := F)).nSub q) => Φ (Fin.cast (nSub_q q) i)) = bigSep Finset.univ Φ := by
  match q with
  | 0 => exact bigSep_congr fun _ _ => congrArg Φ (Fin.ext rfl)
  | 1 => exact bigSep_congr fun _ _ => congrArg Φ (Fin.ext rfl)

theorem vecSplit0' : (K (F := F)).VecSplit' (P m) 0 := by
  intro d c
  show Ga.st0 (eiOf m d) (rfOf m d) (vtOf m d) d (Fin.cast (nCore_q 0) c) ⊢ |={Set.univ}=> iprop(
      (bigSep Finset.univ fun i : Fin ((K (F := F)).nSub 0) => Ga.go0 (eiOf m d) (rfOf m d) (vtOf m d) d (Ga.coords0 (Fin.cast (nCore_q 0) c) (Fin.cast (nSub_q 0) i)))
      ∗ ((bigSep Finset.univ fun i : Fin ((K (F := F)).nSub 0) => Ga.td0 (eiOf m d) (rfOf m d) (vtOf m d) d (Ga.coords0 (Fin.cast (nCore_q 0) c) (Fin.cast (nSub_q 0) i)))
          -∗ Ga.dn0 (eiOf m d) (rfOf m d) (vtOf m d) d (Fin.cast (nCore_q 0) c)))
  rw [bigSep_tasks (F := F) 0 (fun i => Ga.go0 (eiOf m d) (rfOf m d) (vtOf m d) d (Ga.coords0 (Fin.cast (nCore_q 0) c) i)),
    bigSep_tasks (F := F) 0 (fun i => Ga.td0 (eiOf m d) (rfOf m d) (vtOf m d) d (Ga.coords0 (Fin.cast (nCore_q 0) c) i))]
  exact Ga.vecSplit0 _ _ _ d _

theorem vecSplit1' : (K (F := F)).VecSplit' (P m) 1 := by
  intro d c
  show Sc.st1 (eiOf m d) (tfR m d) (tbR m d) d (Fin.cast (nCore_q 1) c) ⊢ |={Set.univ}=> iprop(
      (bigSep Finset.univ fun i : Fin ((K (F := F)).nSub 1) => Sc.go1 (eiOf m d) (tfR m d) (tbR m d) d (Sc.coords (Fin.cast (nCore_q 1) c) (Fin.cast (nSub_q 1) i)))
      ∗ ((bigSep Finset.univ fun i : Fin ((K (F := F)).nSub 1) => Sc.td1 (eiOf m d) (tfR m d) (tbR m d) d (Sc.coords (Fin.cast (nCore_q 1) c) (Fin.cast (nSub_q 1) i)))
          -∗ Sc.dn1 (eiOf m d) (tfR m d) (tbR m d) d (Fin.cast (nCore_q 1) c)))
  rw [bigSep_tasks (F := F) 1 (fun i => Sc.go1 (eiOf m d) (tfR m d) (tbR m d) d (Sc.coords (Fin.cast (nCore_q 1) c) i)),
    bigSep_tasks (F := F) 1 (fun i => Sc.td1 (eiOf m d) (tfR m d) (tbR m d) d (Sc.coords (Fin.cast (nCore_q 1) c) i))]
  exact Sc.vecSplit1 _ _ _ d _

/-! ## The launch element: the handshakes' rounds, the pipelines' staging cells' rounds, nothing for the transfers -/

def u₀ : UU := (initOf (K (F := F)).hsCells (K (F := F)).hsToks, (initOf (Pipeline.cells cfgs cellOf_inj) (Pipeline.launchToks cfgs cellOf_inj), 1))

/-- What @main's proof starts from on device `d`: the launch ghost state of both pipelines' staging cells and their duty tokens. -/
def G (d : Dev nD) : sProp 𝕄 :=
  iprop((bigSep Finset.univ fun p : Fin 2 => Pipeline.cellsGhost (nD := nD) (τ := τ) cfgs (EP (F := F)) p d)
    ∗ bigSep Finset.univ fun p : Fin 2 => Pipeline.toksInit (nD := nD) (τ := τ) cfgs (EP (F := F)) p d)

omit [FloatOps F] [∀ e, Nonempty (Elt F e)] in
theorem bigSep_emp' {I : Type} (s : Finset I) : (bigSep s fun _ => iprop(emp)) = (iprop(emp) : sProp 𝕄) := bigSep_emp_const s

omit [FloatOps F] [∀ e, Nonempty (Elt F e)] in
theorem own_EP (b : UP) :
    (BI.own (((Emb.inl : Emb UP (UP × Counters)).trans (embR : Emb (UP × Counters) 𝕄)) b) : sProp 𝕄) = BI.own (EP (F := F) b) := by
  unfold EP embR; rfl

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 2 => (P m).x q thr) := by
  unfold u₀
  iintro Hu
  ihave H := (ownU_pair _ _) $$ Hu
  icases H with ⟨HH, HR⟩
  ihave H2 := ((own_pair_emb (embR : Emb (UP × Counters) 𝕄) _ _).trans (sep_mono_left (Entails.of_eq (own_EP (F := F) _)))) $$ HR
  icases H2 with ⟨HP, -⟩
  imod (Pipeline.fund_ghost (nD := nD) (τ := τ) cfgs (EP (F := F)) cellOf_inj) $$ HP with ⟨Hg, Ht⟩
  imodintro
  isplitl [HH]; · iexact HH
  isplitl [Hg Ht]
  · unfold G; rw [bigSep_sep']
    isplitl [Hg]; · iexact Hg
    iexact Ht
  unfold P; dsimp only
  rw [show (bigSep Finset.univ fun _ : Thread nD τ => bigSep Finset.univ fun _ : Fin 2 => (iprop(emp) : sProp 𝕄)) = iprop(emp) from by
    rw [bigSep_congr fun _ _ => bigSep_emp' _, bigSep_emp']]
  iempintro

end Cert.Proof.KW

end
-- ==== Proof.MainBW.lean ====
/-
  @main on the TensorCore inside the SparseCore launch, assembled: host stretches, the two SparseCore calls, the two pipeline regions; then the program's run.
-/
import proofs.«204254_g40355512713743_retrytranche2_1723_12_alg».proof.Proof.CommonW
import proofs.«204254_g40355512713743_retrytranche2_1723_12_alg».proof.Proof.LaunchAW

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable [∀ e, Nonempty (Elt F e)]
variable (m : (ℓ : Loc nD τ sig) → Buf (Elt F) ℓ) (ρ : Dev nD → PrngReg)

open Idealize.ShloMosaic.TcCoe
open Idealize.ShloMosaic.StableHlo (held wp_hlo_within)
open Idealize.ShloMosaic.Pipeline (ucRefs unscopedBufs_held sub_ucRefs)

/-! ## The first SparseCore call's arrays out of the held set, and back -/

omit [FloatOps F] [∀ e, Nonempty (Elt F e)] in
theorem mem_uc (b : Ref sig .tc) (h : (rV b : DevRef τ sig).isScoped = false) : rV b ∈ ucRefs τ sig :=
  Finset.mem_filter.mpr ⟨StableHlo.devRef_mem_tcRefs b, by rw [h]; exact Bool.false_ne_true⟩

/-- The arrays the first SparseCore call reads and writes. -/
abbrev T0 : Finset (DevRef τ sig) := {rV main_v0, rV main_v1, rV main_v3, rV main_v4_0, rV main_v4_1, rV main_v4_2, rV main_v4_3}

omit [FloatOps F] [∀ e, Nonempty (Elt F e)] in
theorem T0_sub : (T0 : Finset (DevRef τ sig)) ⊆ ucRefs τ sig := by
  intro b hb
  simp only [T0, Finset.mem_insert, Finset.mem_singleton] at hb
  rcases hb with rfl | rfl | rfl | rfl | rfl | rfl | rfl <;> exact mem_uc _ (by decide)

omit [FloatOps F] [∀ e, Nonempty (Elt F e)] in
theorem held_T0 (d : Dev nD) (V : Valuation τ sig (Elt F)) :
    (held (SparseCore.T d) T0 V : sProp 𝕄)
      = iprop((Ga.eiLoc d ↦{fullShare} V (rV main_v0)) ∗ (Ga.rfLoc d ↦{fullShare} V (rV main_v1)) ∗ (Ga.vtLoc d ↦{fullShare} V (rV main_v3))
          ∗ (Ga.r2Loc d ↦{fullShare} V (rV main_v4_0)) ∗ (Ga.d0Loc d ↦{fullShare} V (rV main_v4_1)) ∗ (Ga.d1Loc d ↦{fullShare} V (rV main_v4_2))
          ∗ (Ga.d2Loc d ↦{fullShare} V (rV main_v4_3))) := by
  unfold held T0
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- Off the four result arrays the first call leaves everything as it found it. -/
theorem Vb_of_not_out (d : Dev nD) (b : DevRef τ sig) (h0 : b ≠ rV main_v4_0) (h1 : b ≠ rV main_v4_1) (h2 : b ≠ rV main_v4_2) (h3 : b ≠ rV main_v4_3) :
    Vb m d b = Va m d b := by
  unfold Vb
  rw [Function.update_of_ne h3, Function.update_of_ne h2, Function.update_of_ne h1, Function.update_of_ne h0]
theorem Vb_v40 (d : Dev nD) : Vb m d (rV main_v4_0) = Ga.specR2 (rfOf m d) := by
  unfold Vb
  rw [Function.update_of_ne (StableHlo.devRef_ne_of_ne (by decide)), Function.update_of_ne (StableHlo.devRef_ne_of_ne (by decide)),
    Function.update_of_ne (StableHlo.devRef_ne_of_ne (by decide)), Function.update_self]
theorem Vb_v41 (d : Dev nD) : Vb m d (rV main_v4_1) = Ga.specD 0 (eiOf m d) (vtOf m d) := by
  unfold Vb
  rw [Function.update_of_ne (StableHlo.devRef_ne_of_ne (by decide)), Function.update_of_ne (StableHlo.devRef_ne_of_ne (by decide)), Function.update_self]
theorem Vb_v42 (d : Dev nD) : Vb m d (rV main_v4_2) = Ga.specD 1 (eiOf m d) (vtOf m d) := by
  unfold Vb
  rw [Function.update_of_ne (StableHlo.devRef_ne_of_ne (by decide)), Function.update_self]
theorem Vb_v43 (d : Dev nD) : Vb m d (rV main_v4_3) = Ga.specD 2 (eiOf m d) (vtOf m d) := by
  unfold Vb; rw [Function.update_self]

/-- The seven arrays as the first call leaves them, with the rest of the held set, are the held set at `Vb`. -/
theorem join_T0 (d : Dev nD) :
    iprop((Ga.eiLoc d ↦{fullShare} eiOf m d) ∗ (Ga.rfLoc d ↦{fullShare} rfOf m d) ∗ (Ga.vtLoc d ↦{fullShare} vtOf m d)
        ∗ (Ga.r2Loc d ↦{fullShare} Ga.specR2 (rfOf m d)) ∗ (Ga.d0Loc d ↦{fullShare} Ga.specD 0 (eiOf m d) (vtOf m d))
        ∗ (Ga.d1Loc d ↦{fullShare} Ga.specD 1 (eiOf m d) (vtOf m d)) ∗ (Ga.d2Loc d ↦{fullShare} Ga.specD 2 (eiOf m d) (vtOf m d))
        ∗ held (SparseCore.T d) (ucRefs τ sig \ T0) (Va m d))
      ⊢ (held (SparseCore.T d) (ucRefs τ sig) (Vb m d) : sProp 𝕄) := by
  rw [StableHlo.held_sub_split (SparseCore.T d) T0_sub (Vb m d), held_T0,
    Vb_of_not_out m d (rV main_v0) (StableHlo.devRef_ne_of_ne (by decide)) (StableHlo.devRef_ne_of_ne (by decide)) (StableHlo.devRef_ne_of_ne (by decide)) (StableHlo.devRef_ne_of_ne (by decide)),
    Vb_of_not_out m d (rV main_v1) (StableHlo.devRef_ne_of_ne (by decide)) (StableHlo.devRef_ne_of_ne (by decide)) (StableHlo.devRef_ne_of_ne (by decide)) (StableHlo.devRef_ne_of_ne (by decide)),
    Vb_of_not_out m d (rV main_v3) (StableHlo.devRef_ne_of_ne (by decide)) (StableHlo.devRef_ne_of_ne (by decide)) (StableHlo.devRef_ne_of_ne (by decide)) (StableHlo.devRef_ne_of_ne (by decide)),
    Vb_v40, Vb_v41, Vb_v42, Vb_v43,
    StableHlo.held_congr (SparseCore.T d) (V := Vb m d) (V' := Va m d) (S := ucRefs τ sig \ T0) fun b hb => by
      have hb' := (Finset.mem_sdiff.mp hb).2
      simp only [T0, Finset.mem_insert, Finset.mem_singleton, not_or] at hb'
      exact Vb_of_not_out m d b hb'.2.2.2.1 hb'.2.2.2.2.1 hb'.2.2.2.2.2.1 hb'.2.2.2.2.2.2]
  iintro ⟨H0, H1, H2, H3, H4, H5, H6, Hr⟩
  isplitr [Hr]
  · isplitl [H0]; · iexact H0
    isplitl [H1]; · iexact H1
    isplitl [H2]; · iexact H2
    isplitl [H3]; · iexact H3
    isplitl [H4]; · iexact H4
    isplitl [H5]; · iexact H5
    iexact H6
  iexact Hr

/-! ## The second SparseCore call's arrays -/

abbrev T1 : Finset (DevRef τ sig) := {rV main_v0, rV main_v9_0, rV main_v9_1, rV main_v10}

omit [FloatOps F] [∀ e, Nonempty (Elt F e)] in
theorem T1_sub : (T1 : Finset (DevRef τ sig)) ⊆ ucRefs τ sig := by
  intro b hb
  simp only [T1, Finset.mem_insert, Finset.mem_singleton] at hb
  rcases hb with rfl | rfl | rfl | rfl <;> exact mem_uc _ (by decide)

omit [FloatOps F] [∀ e, Nonempty (Elt F e)] in
theorem held_T1 (d : Dev nD) (V : Valuation τ sig (Elt F)) :
    (held (SparseCore.T d) T1 V : sProp 𝕄)
      = iprop((Sc.eiLoc d ↦{fullShare} V (rV main_v0)) ∗ (Sc.tfLoc d ↦{fullShare} V (rV main_v9_0)) ∗ (Sc.tbLoc d ↦{fullShare} V (rV main_v9_1))
          ∗ (Sc.pLoc d ↦{fullShare} V (rV main_v10))) := by
  unfold held T1
  rw [SparseCore.bigSep_insert' (by decide), SparseCore.bigSep_insert' (by decide), SparseCore.bigSep_insert' (by decide), bigSep_singleton]

theorem Ve_of_ne (d : Dev nD) (b : DevRef τ sig) (h : b ≠ rV main_v10) : Ve m d b = Vd m d b := by
  unfold Ve; rw [Function.update_of_ne h]
theorem Ve_v10 (d : Dev nD) : Ve m d (rV main_v10) = Sc.specPart (eiOf m d) (tfR m d) (tbR m d) := by
  unfold Ve; rw [Function.update_self]

/-- The flattened index array is untouched from the first host stretch to the second call. -/
theorem Vd_v0 (d : Dev nD) : Vd m d (rV main_v0) = eiOf m d := by
  rw [Vd_of_ne m d _ (StableHlo.devRef_ne_of_ne (by decide)) (StableHlo.devRef_ne_of_ne (by decide))]
  unfold Vc
  rw [(hop8 (F := F)).result_of_not_mem _ (show rV main_v0 ∉ ({rV main_v8} : Finset (DevRef τ sig)) by decide),
    (hop7 (F := F)).result_of_not_mem _ (show rV main_v0 ∉ ({rV main_v7} : Finset (DevRef τ sig)) by decide),
    (hop6 (F := F)).result_of_not_mem _ (show rV main_v0 ∉ ({rV main_v6} : Finset (DevRef τ sig)) by decide),
    (hop5 (F := F)).result_of_not_mem _ (show rV main_v0 ∉ ({rV main_v5} : Finset (DevRef τ sig)) by decide),
    Vb_of_not_out m d (rV main_v0) (StableHlo.devRef_ne_of_ne (by decide)) (StableHlo.devRef_ne_of_ne (by decide)) (StableHlo.devRef_ne_of_ne (by decide)) (StableHlo.devRef_ne_of_ne (by decide))]

theorem join_T1 (d : Dev nD) :
    iprop((Sc.eiLoc d ↦{fullShare} eiOf m d) ∗ (Sc.tfLoc d ↦{fullShare} tfR m d) ∗ (Sc.tbLoc d ↦{fullShare} tbR m d)
        ∗ (Sc.pLoc d ↦{fullShare} Sc.specPart (eiOf m d) (tfR m d) (tbR m d))
        ∗ held (SparseCore.T d) (ucRefs τ sig \ T1) (Vd m d))
      ⊢ (held (SparseCore.T d) (ucRefs τ sig) (Ve m d) : sProp 𝕄) := by
  rw [StableHlo.held_sub_split (SparseCore.T d) T1_sub (Ve m d), held_T1,
    Ve_of_ne m d (rV main_v0) (StableHlo.devRef_ne_of_ne (by decide)), Ve_of_ne m d (rV main_v9_0) (StableHlo.devRef_ne_of_ne (by decide)),
    Ve_of_ne m d (rV main_v9_1) (StableHlo.devRef_ne_of_ne (by decide)), Ve_v10, Vd_v0, Vd_v90, Vd_v91,
    StableHlo.held_congr (SparseCore.T d) (V := Ve m d) (V' := Vd m d) (S := ucRefs τ sig \ T1) fun b hb => by
      have hb' := (Finset.mem_sdiff.mp hb).2
      simp only [T1, Finset.mem_insert, Finset.mem_singleton, not_or] at hb'
      exact Ve_of_ne m d b hb'.2.2.2]
  iintro ⟨H0, H1, H2, H3, Hr⟩
  isplitr [Hr]
  · isplitl [H0]; · iexact H0
    isplitl [H1]; · iexact H1
    isplitl [H2]; · iexact H2
    iexact H3
  iexact Hr

/-! ## The pieces of the thread state and of the launch ghost state -/

/-- The TensorCore's handshake state before call `n`, its debts apart. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

omit [FloatOps F] [∀ e, Nonempty (Elt F e)] in
theorem tcSt_eq (d : Dev nD) (n : ℕ) : ((K (F := F)).tcSt EH d n : sProp 𝕄) = iprop(owesTC (F := F) d n ∗ tcRest (F := F) d n) := rfl

omit [FloatOps F] [∀ e, Nonempty (Elt F e)] in
theorem tcSt_split (d : Dev nD) (n n' : ℕ) (h : n = n') : ((K (F := F)).tcSt EH d n : sProp 𝕄) ⊢ iprop(owesTC (F := F) d n' ∗ tcRest (F := F) d n') := by
  subst h; exact Entails.of_eq (tcSt_eq d n)
omit [FloatOps F] [∀ e, Nonempty (Elt F e)] in
theorem tcSt_join (d : Dev nD) (n : ℕ) : iprop(owesTC (F := F) d n ∗ tcRest (F := F) d n) ⊢ ((K (F := F)).tcSt EH d n : sProp 𝕄) :=
  Entails.of_eq (tcSt_eq d n).symm

omit [FloatOps F] [∀ e, Nonempty (Elt F e)] in
theorem G_eq (d : Dev nD) :
    (G (F := F) d : sProp 𝕄)
      = iprop((Pipeline.cellsGhost (nD := nD) (τ := τ) cfgs (EP (F := F)) 0 d ∗ Pipeline.cellsGhost (nD := nD) (τ := τ) cfgs (EP (F := F)) 1 d)
          ∗ (Pipeline.toksInit (nD := nD) (τ := τ) cfgs (EP (F := F)) 0 d ∗ Pipeline.toksInit (nD := nD) (τ := τ) cfgs (EP (F := F)) 1 d)) := by
  unfold G
  rw [show (Finset.univ : Finset (Fin 2)) = {0, 1} by decide, SparseCore.bigSep_insert' (by decide), bigSep_singleton,
    SparseCore.bigSep_insert' (by decide), bigSep_singleton]

theorem reg1_pre (d : Dev nD) : (reg1 m).pre d = iprop(unscopedBufs d (fun b => Vc m d b) ∗ owesTC (F := F) d 1) := rfl
theorem reg1_post (d : Dev nD) : (reg1 m).post d = iprop(unscopedBufs d (fun b => Vd m d b) ∗ owesTC (F := F) d 1) := rfl
theorem reg3_pre (d : Dev nD) : (reg3 m).pre d = iprop(unscopedBufs d (fun b => Vf m d b) ∗ owesTC (F := F) d 2) := rfl
theorem reg3_post (d : Dev nD) : (reg3 m).post d = iprop((∃ f, unscopedBufs d (fun b => Vg m d f b)) ∗ owesTC (F := F) d 2) := rfl

/-- A pipeline's entry call in @main is the certificate's own, lifted to the extended body table. -/
theorem lift_entry (p : Fin 2) :
    (Prog.lift (.customCall (SparseCore.inner (Pipeline.entry p)) ()) : Prog (TpuEff nD τ sig (Elt F) (SparseCore.Sig (ΛP (F := F)) 2) .tc) PUnit)
      = SparseCore.liftProg (Prog.op (.customCall (Pipeline.entry p) ()) fun _ => Prog.ret PUnit.unit) := rfl

omit [FloatOps F] [∀ e, Nonempty (Elt F e)] in
/-- The held set of all of @main's arrays, as the launch's "unscoped buffers" at the same valuation; and back. -/
theorem held_to_ub (d : Dev nD) (V V' : Valuation τ sig (Elt F)) (h : V = V') :
    (held (SparseCore.T d) (ucRefs τ sig) V : sProp 𝕄) ⊢ unscopedBufs d (fun b => V' b) := by
  subst h; exact Entails.of_eq (unscopedBufs_held (Ix := HIx 2) (Name := ℕ) (U := UU) (Lvl := ℕ) d V).symm
omit [FloatOps F] [∀ e, Nonempty (Elt F e)] in
theorem ub_to_held (d : Dev nD) (V : Valuation τ sig (Elt F)) :
    (unscopedBufs d (fun b => V b) : sProp 𝕄) ⊢ held (SparseCore.T d) (ucRefs τ sig) V :=
  Entails.of_eq (unscopedBufs_held (Ix := HIx 2) (Name := ℕ) (U := UU) (Lvl := ℕ) d V)

/-! ## @main -/

/-- After the final reshape, the second pipeline's result at contents `f`. -/
def Vh (d : Dev nD) (f : Buf (Elt F) ((d.tc : Thread nD τ).loc main_v12)) : Valuation τ sig (Elt F) := (hop13 (F := F)).result (Vg m d f)

/-- What @main leaves the claim: all its arrays held at the final valuation, for some contents of the forgotten result window. -/
def FIN (d : Dev nD) : sProp 𝕄 := iprop(∃ f, held (SparseCore.T d) (ucRefs τ sig) (Vh m d f))

theorem st0_eq (d : Dev nD) :
    (bigSep Finset.univ fun c : Fin ((K (F := F)).nCore 0) => (P m).st 0 d c)
      = iprop(Ga.st0 (eiOf m d) (rfOf m d) (vtOf m d) d 0 ∗ Ga.st0 (eiOf m d) (rfOf m d) (vtOf m d) d 1) := by
  show (bigSep (Finset.univ : Finset (Fin 2)) fun c : Fin 2 => (P m).st 0 d c) = _
  rw [show (Finset.univ : Finset (Fin 2)) = {0, 1} by decide, SparseCore.bigSep_insert' (by decide), bigSep_singleton]
  rfl
theorem dn0_eq (d : Dev nD) :
    (bigSep Finset.univ fun c : Fin ((K (F := F)).nCore 0) => (P m).dn 0 d c)
      = iprop(Ga.dn0 (eiOf m d) (rfOf m d) (vtOf m d) d 0 ∗ Ga.dn0 (eiOf m d) (rfOf m d) (vtOf m d) d 1) := by
  show (bigSep (Finset.univ : Finset (Fin 2)) fun c : Fin 2 => (P m).dn 0 d c) = _
  rw [show (Finset.univ : Finset (Fin 2)) = {0, 1} by decide, SparseCore.bigSep_insert' (by decide), bigSep_singleton]
  rfl
theorem st1_eq (d : Dev nD) :
    (bigSep Finset.univ fun c : Fin ((K (F := F)).nCore 1) => (P m).st 1 d c)
      = iprop(Sc.st1 (eiOf m d) (tfR m d) (tbR m d) d 0 ∗ Sc.st1 (eiOf m d) (tfR m d) (tbR m d) d 1) := by
  show (bigSep (Finset.univ : Finset (Fin 2)) fun c : Fin 2 => (P m).st 1 d c) = _
  rw [show (Finset.univ : Finset (Fin 2)) = {0, 1} by decide, SparseCore.bigSep_insert' (by decide), bigSep_singleton]
  rfl
theorem dn1_eq (d : Dev nD) :
    (bigSep Finset.univ fun c : Fin ((K (F := F)).nCore 1) => (P m).dn 1 d c)
      = iprop(Sc.dn1 (eiOf m d) (tfR m d) (tbR m d) d 0 ∗ Sc.dn1 (eiOf m d) (tfR m d) (tbR m d) d 1) := by
  show (bigSep (Finset.univ : Finset (Fin 2)) fun c : Fin 2 => (P m).dn 1 d c) = _
  rw [show (Finset.univ : Finset (Fin 2)) = {0, 1} by decide, SparseCore.bigSep_insert' (by decide), bigSep_singleton]
  rfl

set_option maxHeartbeats 1600000 in
theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 2 ∗ FIN (F := F) m d) := by
  unfold SparseCore.Cfg.tcRes
  rw [unscoped_held, G_eq]
  iintro ⟨#Hctx, Hst, ⟨Hb, Hheld, -, -⟩, ⟨Hg0, Hg1⟩, ⟨Ht0, Ht1⟩⟩
  ihave #Hlev := ((K (F := F)).ctx_levAts κ) $$ Hctx
  -- the four host operations before the first call
  iapply (hmain_A m κ d) $$ [Hb Hheld Hst Hg0 Hg1 Ht0 Ht1]
  isplitl [Hb]; · iexact Hb
  isplitl [Hheld]; · iexact Hheld
  iintro ⟨Hb, Hheld⟩
  -- the first SparseCore call: its seven arrays out of the held set
  ihave H := (Entails.of_eq (StableHlo.held_sub_split (SparseCore.T d) T0_sub (Va m d))) $$ Hheld
  icases H with ⟨H0, Hrest⟩
  ihave H0' := (Entails.of_eq (held_T0 (F := F) d (Va m d))) $$ H0
  icases H0' with ⟨Hei, Hrf, Hvt, Hr2, Hd0, Hd1, Hd2⟩
  ihave Hs := (Ga.callSplit0 (eiOf m d) (rfOf m d) (vtOf m d) d) $$ [Hei Hrf Hvt Hr2 Hd0 Hd1 Hd2]
  · isplitl [Hei]; · iexact Hei
    isplitl [Hrf]; · iexact Hrf
    isplitl [Hvt]; · iexact Hvt
    isplitl [Hr2]; · iexists _; iexact Hr2
    isplitl [Hd0]; · iexists _; iexact Hd0
    isplitl [Hd1]; · iexists _; iexact Hd1
    iexists _; iexact Hd2
  icases Hs with ⟨Hrem, Hs0, Hs1⟩
  rw [wp_bind]
  iapply ((K (F := F)).wp_run (D (F := F)) 𝒱 (EH := EH) (P := P m) κ d 0) $$ [Hst Hs0 Hs1 Hb Hrest Hrem Hg0 Hg1 Ht0 Ht1]
  isplitr; · iexact Hctx
  isplitl [Hst]; · iexact Hst
  isplitl [Hs0 Hs1]
  · rw [st0_eq]
    isplitl [Hs0]; · iexact Hs0
    iexact Hs1
  iintro ⟨Hst, Hdn⟩
  ihave Hdn' := (Entails.of_eq (dn0_eq m d)) $$ Hdn
  icases Hdn' with ⟨Hd0, Hd1⟩
  ihave Hj := (Ga.callJoin0 (eiOf m d) (rfOf m d) (vtOf m d) d) $$ [Hrem Hd0 Hd1]
  · isplitl [Hrem]; · iexact Hrem
    isplitl [Hd0]; · iexact Hd0
    iexact Hd1
  icases Hj with ⟨Hei, Hrf, Hvt, Hr2, Hd0, Hd1, Hd2⟩
  ihave Hheld := (join_T0 m d) $$ [Hei Hrf Hvt Hr2 Hd0 Hd1 Hd2 Hrest]
  · isplitl [Hei]; · iexact Hei
    isplitl [Hrf]; · iexact Hrf
    isplitl [Hvt]; · iexact Hvt
    isplitl [Hr2]; · iexact Hr2
    isplitl [Hd0]; · iexact Hd0
    isplitl [Hd1]; · iexact Hd1
    isplitl [Hd2]; · iexact Hd2
    iexact Hrest
  -- the four reshapes before the first pipeline region
  iapply (hmain_C d (Vb m d)) $$ [Hb Hheld Hst Hg0 Hg1 Ht0 Ht1]
  isplitl [Hb]; · iexact Hb
  isplitl [Hheld]; · iexact Hheld
  iintro ⟨Hb, Hheld⟩
  -- the first pipeline region
  ihave Hub := (held_to_ub d ((hop8 (F := F)).result ((hop7 (F := F)).result ((hop6 (F := F)).result ((hop5 (F := F)).result (Vb m d))))) (Vc m d) rfl) $$ Hheld
  ihave Hst' := (tcSt_split (F := F) d ((0 : Fin 2).val + 1) 1 rfl) $$ Hst
  icases Hst' with ⟨HO, Hstr⟩
  rw [wp_bind, lift_entry]
  iapply ((K (F := F)).wp_liftProg (D (F := F)) 𝒱 (SparseCore.T d) Set.univ none _ _)
  iapply (Pipeline.RDat.RegionSeg.wp (pcfgs (F := F)) adm (rdats m) (none : HIx 2) cellOf_inj (EP (F := F)) (defs₀ (F := F)) 𝒱₀
      (K (F := F)).L (K (F := F)).lev (reg1 m) d none (fun _ h => nomatch h) (fun _ => Prog.ret PUnit.unit) _) $$ [Hb Hub HO Hg0 Ht0 Hstr Hg1 Ht1]
  isplitr [Hb Hub HO Hg0 Ht0]
  swap
  · isplitl [Hb]; · iexact Hb
    isplitl [Hub HO]
    · rw [reg1_pre]
      isplitl [Hub]; · iexact Hub
      iexact HO
    isplitr; · iexact Hlev
    isplitl [Hg0]; · iexact Hg0
    iexact Ht0
  iintro ⟨Hb, Hpost⟩
  ihave Hpost' := (Entails.of_eq (reg1_post m d)) $$ Hpost
  icases Hpost' with ⟨Hub, HO⟩
  rw [wp_ret]; imodintro
  ihave Hst := (tcSt_join (F := F) d 1) $$ [HO Hstr]
  · isplitl [HO]; · iexact HO
    iexact Hstr
  ihave Hheld := (ub_to_held d (Vd m d)) $$ Hub
  -- the second SparseCore call: its four arrays out of the held set
  ihave H := (Entails.of_eq (StableHlo.held_sub_split (SparseCore.T d) T1_sub (Vd m d))) $$ Hheld
  icases H with ⟨H1, Hrest⟩
  ihave H1' := (Entails.of_eq (held_T1 (F := F) d (Vd m d))) $$ H1
  rw [Vd_v0, Vd_v90, Vd_v91]
  icases H1' with ⟨Hei, Htf, Htb, Hp⟩
  ihave Hs := (Sc.callSplit1 (eiOf m d) (tfR m d) (tbR m d) d) $$ [Hei Htf Htb Hp]
  · isplitl [Hei]; · iexact Hei
    isplitl [Htf]; · iexact Htf
    isplitl [Htb]; · iexact Htb
    iexists _; iexact Hp
  icases Hs with ⟨Hrem, Hs0, Hs1⟩
  rw [wp_bind]
  iapply ((K (F := F)).wp_run (D (F := F)) 𝒱 (EH := EH) (P := P m) κ d 1) $$ [Hst Hs0 Hs1 Hb Hrest Hrem Hg1 Ht1]
  isplitr; · iexact Hctx
  isplitl [Hst]; · iexact Hst
  isplitl [Hs0 Hs1]
  · rw [st1_eq]
    isplitl [Hs0]; · iexact Hs0
    iexact Hs1
  iintro ⟨Hst, Hdn⟩
  ihave Hdn' := (Entails.of_eq (dn1_eq m d)) $$ Hdn
  icases Hdn' with ⟨Hd0, Hd1⟩
  ihave Hj := (Sc.callJoin1 (eiOf m d) (tfR m d) (tbR m d) d) $$ [Hrem Hd0 Hd1]
  · isplitl [Hrem]; · iexact Hrem
    isplitl [Hd0]; · iexact Hd0
    iexact Hd1
  icases Hj with ⟨Hei, Htf, Htb, Hp⟩
  ihave Hheld := (join_T1 m d) $$ [Hei Htf Htb Hp Hrest]
  · isplitl [Hei]; · iexact Hei
    isplitl [Htf]; · iexact Htf
    isplitl [Htb]; · iexact Htb
    isplitl [Hp]; · iexact Hp
    iexact Hrest
  -- the reshape of the partial sums
  iapply (hmain_one d (hop11 (F := F)) hs11 rfl (Ve m d)) $$ [Hb Hheld Hst Hg1 Ht1]
  isplitl [Hb]; · iexact Hb
  isplitl [Hheld]; · iexact Hheld
  iintro ⟨Hb, Hheld⟩
  -- the second pipeline region
  ihave Hub := (held_to_ub d ((hop11 (F := F)).result (Ve m d)) (Vf m d) rfl) $$ Hheld
  ihave Hst' := (tcSt_split (F := F) d ((1 : Fin 2).val + 1) 2 rfl) $$ Hst
  icases Hst' with ⟨HO, Hstr⟩
  rw [wp_bind, lift_entry]
  iapply ((K (F := F)).wp_liftProg (D (F := F)) 𝒱 (SparseCore.T d) Set.univ none _ _)
  iapply (Pipeline.RDat.RegionSeg.wp (pcfgs (F := F)) adm (rdats m) (none : HIx 2) cellOf_inj (EP (F := F)) (defs₀ (F := F)) 𝒱₀
      (K (F := F)).L (K (F := F)).lev (reg3 m) d none (fun _ h => nomatch h) (fun _ => Prog.ret PUnit.unit) _) $$ [Hb Hub HO Hg1 Ht1 Hstr]
  isplitr [Hb Hub HO Hg1 Ht1]
  swap
  · isplitl [Hb]; · iexact Hb
    isplitl [Hub HO]
    · rw [reg3_pre]
      isplitl [Hub]; · iexact Hub
      iexact HO
    isplitr; · iexact Hlev
    isplitl [Hg1]; · iexact Hg1
    iexact Ht1
  iintro ⟨Hb, Hpost⟩
  ihave Hpost' := (Entails.of_eq (reg3_post m d)) $$ Hpost
  icases Hpost' with ⟨⟨%f, Hub⟩, HO⟩
  rw [wp_ret]; imodintro
  ihave Hst := (tcSt_join (F := F) d 2) $$ [HO Hstr]
  · isplitl [HO]; · iexact HO
    iexact Hstr
  ihave Hheld := (ub_to_held d (Vg m d f)) $$ Hub
  -- the final reshape
  iapply (hmain_one d (hop13 (F := F)) hs13 rfl (Vg m d f)) $$ [Hb Hheld Hst]
  isplitl [Hb]; · iexact Hb
  isplitl [Hheld]; · iexact Hheld
  iintro ⟨Hb, Hheld⟩
  rw [wp_pure]; imodintro
  isplitl [Hst]; · iexact Hst
  unfold FIN
  iexists f; iexact Hheld

/-! ## What the final state holds -/

/-- Every array some host operation, SparseCore call or pipeline writes. -/
abbrev Wset : Finset (DevRef τ sig) :=
  {rV main_v0, rV main_v1, rV main_v2, rV main_v3, rV main_v4_0, rV main_v4_1, rV main_v4_2, rV main_v4_3, rV main_v5, rV main_v6, rV main_v7, rV main_v8,
    rV main_v9_0, rV main_v9_1, rV main_v10, rV main_v11, rV main_v12, rV main_v13}

/-- An array nothing writes ends as launched. -/
theorem Vh_of_input (d : Dev nD) (f) (b : DevRef τ sig) (hb : b ∉ (Wset : Finset (DevRef τ sig))) : Vh m d f b = m (d, b) := by
  have hne : ∀ x ∈ (Wset : Finset (DevRef τ sig)), b ≠ x := fun x hx e => hb (e ▸ hx)
  have w1 : ∀ x, x ∈ (Wset : Finset (DevRef τ sig)) → b ∉ ({x} : Finset (DevRef τ sig)) := fun x hx h => hne x hx (Finset.mem_singleton.mp h)
  unfold Vh
  rw [(hop13 (F := F)).result_of_not_mem _ (w1 (rV main_v13) (by decide)), Vg_of_ne m d f b (hne _ (by decide))]
  unfold Vf
  rw [(hop11 (F := F)).result_of_not_mem _ (w1 (rV main_v11) (by decide)), Ve_of_ne m d b (hne _ (by decide)),
    Vd_of_ne m d b (hne _ (by decide)) (hne _ (by decide))]
  unfold Vc
  rw [(hop8 (F := F)).result_of_not_mem _ (w1 (rV main_v8) (by decide)), (hop7 (F := F)).result_of_not_mem _ (w1 (rV main_v7) (by decide)),
    (hop6 (F := F)).result_of_not_mem _ (w1 (rV main_v6) (by decide)), (hop5 (F := F)).result_of_not_mem _ (w1 (rV main_v5) (by decide)),
    Vb_of_not_out m d b (hne _ (by decide)) (hne _ (by decide)) (hne _ (by decide)) (hne _ (by decide))]
  unfold Va
  rw [(hop3 (F := F)).result_of_not_mem _ (w1 (rV main_v3) (by decide)), (hop2 (F := F)).result_of_not_mem _ (w1 (rV main_v2) (by decide)),
    (hop1 (F := F)).result_of_not_mem _ (w1 (rV main_v1) (by decide)), (hop0 (F := F)).result_of_not_mem _ (w1 (rV main_v0) (by decide))]
  rfl

def fq (d : Dev nD) (s' : Phys nD τ sig (Elt F)) : Prop := ∃ f, ∀ b ∈ ucRefs τ sig, s'.mem.mem (d, b) = Vh m d f b

theorem hfin (d : Dev nD) (s' : Phys nD τ sig (Elt F)) : iprop(FIN (F := F) m d ∗ SI s') ⊢ (⌜fq (F := F) m d s'⌝ : sProp 𝕄) := by
  unfold FIN held
  iintro ⟨⟨%f, Hh⟩, HSI⟩
  ihave Hr := (pointsTo_read_all (ucRefs τ sig) (fun b : DevRef τ sig => ((d, b) : Loc nD τ sig)) (Vh m d f) s') $$ [Hh HSI]
  · isplitl [Hh] <;> iassumption
  icases Hr with ⟨%ha, -⟩
  ipureintro; exact ⟨f, ha⟩

/-- The run's post: on every device, @main's arrays hold the final valuation, for some contents of the forgotten window. -/
def QC : PUnit × MemSt nD τ sig (Elt F) → Prop := fun r => ∀ c : Dev nD, ∃ f, ∀ b ∈ ucRefs τ sig, r.2.mem (c, b) = Vh m c f b

theorem run_main (hr : Ga.TileR F) (hpre : PreOK m) :
    θ_run (Cert.Kernel.defs (F := F)) (Cert.Kernel.threads (F := F)) ⟨m, fun _ => 0, ρ⟩ (QC (F := F) m) :=
  SparseCore.Cfg.θ_run_sc (K := K (F := F)) (D := D (F := F)) (𝒱 := 𝒱) (EH := EH) (P := P m) facts v₀
    (fun q hq => match q with | 0 => nomatch hq | 1 => nomatch hq)
    (fun q _ => match q with | 0 => tileObl0 m hr facts hpre | 1 => tileObl1 m facts hpre)
    (fun q _ => match q with | 0 => SparseCore.Cfg.VecSplit.of_plain (vecSplit0' m) | 1 => SparseCore.Cfg.VecSplit.of_plain (vecSplit1' m))
    m ρ main (G (F := F)) (FIN (F := F) m) (u₀ (F := F)) (sep_elim_left.trans (hu₀ m)) (hmain m ρ) (fq (F := F) m) (hfin m) (QC (F := F) m) (fun _ h => h)

/-- Each argument array is unscoped, and nothing writes it. -/
theorem arg_kept (r : PUnit × MemSt nD τ sig (Elt F)) (h : QC (F := F) m r) (c : Dev nD) (a : Ref sig .tc) (hu : (rV a : DevRef τ sig).isScoped = false)
    (hw : rV a ∉ (Wset : Finset (DevRef τ sig))) : r.2.mem ((c.tc : Thread nD τ).loc a) = m ((c.tc : Thread nD τ).loc a) := by
  obtain ⟨f, hf⟩ := h c
  exact (hf (rV a) (mem_uc a hu)).trans (Vh_of_input m c f (rV a) hw)

end Cert.Proof.KW

end
-- ==== Proof.LibEdgeSums.lean ====
/-
  General facts about sums on the extended reals `EReal = ℝ ∪ {⊥, ⊤}`, used to compare two arrangements of one
  edge-to-node accumulation.

  * A left fold of additions, over a list or over `Fin n` in increasing order, is the finite sum: addition on the
    extended reals is commutative and associative (an additive commutative monoid), so no finiteness is needed.
  * A sum over `Fin (c · N)` is the sum over `c` chunks of `N` consecutive indices.
  * `IsReal x`: `x` is (the image of) a real number. Real-ness is closed under `+`, `−`, `·`, negation, `exp`,
    `sqrt` of a nonnegative real, `x / y` for `y ≠ 0`, `max`, and finite sums.
  * On REAL entries the extended reals obey the ring laws: `−(a + b) = −a + −b`, and an affine form evaluated at
    `(r, −d)` is the part in `r` minus the part in `d`.
-/
import Idealize.ShloMosaic.PureOps.Ideal
import Idealize.ShloMosaic.PureOps.Ideal.Laws

noncomputable section

open scoped BigOperators

namespace EdgeSums

open Idealize.ShloMosaic

/-! ## Left folds of additions are finite sums -/

section Fold
variable {M : Type*} [AddCommMonoid M]

/-- Folding `+` from the left over a list, starting at `a`, adds the list's sum to `a`. -/
theorem foldl_add_eq (l : List M) (a : M) : l.foldl (· + ·) a = a + l.sum := by
  induction l generalizing a with
  | nil => simp
  | cons x xs ih => rw [List.foldl_cons, ih, List.sum_cons, add_assoc]

/-- Folding `acc ↦ acc + f x` from the left over a list of indices, starting at `a`, adds `Σ f` over the list. -/
theorem foldl_add_map_eq {ι : Type*} (f : ι → M) (l : List ι) (a : M) :
    l.foldl (fun acc x => acc + f x) a = a + (l.map f).sum := by
  induction l generalizing a with
  | nil => simp
  | cons x xs ih => rw [List.foldl_cons, ih, List.map_cons, List.sum_cons, add_assoc]

/-- Accumulating `f 0, f 1, …, f (n−1)` in increasing order onto `a` gives `a + Σ_i f i`. -/
theorem foldl_finRange_eq {n : Nat} (f : Fin n → M) (a : M) :
    (List.finRange n).foldl (fun acc i => acc + f i) a = a + ∑ i, f i := by
  rw [foldl_add_map_eq, Fin.sum_univ_def]

/-- The same for the loop combinator `Fin.foldl`. -/
theorem fin_foldl_eq {n : Nat} (f : Fin n → M) (a : M) :
    Fin.foldl n (fun acc i => acc + f i) a = a + ∑ i, f i := by
  rw [Fin.foldl_eq_finRange_foldl, foldl_finRange_eq]

/-- From zero: the fold IS the sum. -/
theorem fin_foldl_zero_eq {n : Nat} (f : Fin n → M) :
    Fin.foldl n (fun acc i => acc + f i) 0 = ∑ i, f i := by
  rw [fin_foldl_eq, zero_add]

/-! ## A sum over `c · N` indices in `c` chunks of `N` -/

/-- Index `q · N + r` of chunk `q`, position `r`. -/
def chunkIx {T c N : Nat} (hT : T = c * N) (q : Fin c) (r : Fin N) : Fin T :=
  ⟨q.val * N + r.val, by
    subst hT
    have hq := q.isLt; have hr := r.isLt
    calc q.val * N + r.val < q.val * N + N := by omega
      _ = (q.val + 1) * N := by ring
      _ ≤ c * N := Nat.mul_le_mul_right N hq⟩

@[simp] theorem chunkIx_val {T c N : Nat} (hT : T = c * N) (q : Fin c) (r : Fin N) :
    (chunkIx hT q r).val = q.val * N + r.val := rfl

/-- A sum over `Fin (c · N)` is the sum over the `c` chunks of the sum over each chunk's `N` positions. -/
theorem sum_chunks {T c N : Nat} (hT : T = c * N) (f : Fin T → M) :
    ∑ i : Fin T, f i = ∑ q : Fin c, ∑ r : Fin N, f (chunkIx hT q r) := by
  subst hT
  rw [← Fintype.sum_prod_type' (f := fun q r => f (chunkIx rfl q r)), ← (finProdFinEquiv (m := c) (n := N)).sum_comp]
  refine Finset.sum_congr rfl fun x _ => congrArg f (Fin.ext ?_)
  show x.2.val + N * x.1.val = x.1.val * N + x.2.val
  rw [Nat.mul_comm, Nat.add_comm]

/-- The indicator-weighted form: the terms with `p i` summed over all indices, chunk by chunk. -/
theorem sum_ite_chunks {T c N : Nat} (hT : T = c * N) (p : Fin T → Prop) [DecidablePred p] (t : Fin T → M) :
    (∑ i : Fin T, if p i then t i else 0)
      = ∑ q : Fin c, ∑ r : Fin N, if p (chunkIx hT q r) then t (chunkIx hT q r) else 0 :=
  sum_chunks hT fun i => if p i then t i else 0

end Fold

/-! ## Real entries -/

/-- `x` is a real number (neither infinity). -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

theorem IsReal.ne_top {x : EReal} (h : IsReal x) : x ≠ ⊤ := by obtain ⟨r, rfl⟩ := h; exact EReal.coe_ne_top r
theorem IsReal.ne_bot {x : EReal} (h : IsReal x) : x ≠ ⊥ := by obtain ⟨r, rfl⟩ := h; exact EReal.coe_ne_bot r

theorem isReal_iff {x : EReal} : IsReal x ↔ x ≠ ⊥ ∧ x ≠ ⊤ := by
  constructor
  · exact fun h => ⟨h.ne_bot, h.ne_top⟩
  · rintro ⟨hb, ht⟩
    induction x using EReal.rec with
    | bot => exact absurd rfl hb
    | coe r => exact ⟨r, rfl⟩
    | top => exact absurd rfl ht

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.max {x y : EReal} (hx : IsReal x) (hy : IsReal y) : IsReal (max x y) := by
  rcases max_choice x y with h | h <;> rw [h] <;> assumption

/-- The exponential of a real is a real. -/
theorem IsReal.exp {x : EReal} (hx : IsReal x) : IsReal (Ideal.exp x) := by
  obtain ⟨a, rfl⟩ := hx; exact ⟨Real.exp a, rfl⟩

/-- The square root of a nonnegative real is a real. -/
theorem isReal_sqrt {a : ℝ} (ha : 0 ≤ a) : IsReal (Ideal.sqrt (a : EReal)) :=
  ⟨Real.sqrt a, by show (if a < 0 then ⊥ else (Real.sqrt a : EReal)) = _; rw [if_neg (not_lt.2 ha)]⟩

/-- The quotient of a real by a nonzero real is a real: `x / y = x · (1/y)`. -/
theorem isReal_div {x : EReal} {b : ℝ} (hx : IsReal x) (hb : b ≠ 0) : IsReal (Ideal.div x (b : EReal)) := by
  obtain ⟨a, rfl⟩ := hx
  rw [Ideal.div_coe hb]
  exact (isReal_coe a).mul (isReal_coe _)

/-- A finite sum of reals, coerced, is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is a real. -/
theorem isReal_sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A finite sum of indicator-weighted reals is a real. -/
theorem isReal_sum_ite {ι : Type*} (s : Finset ι) (p : ι → Prop) [DecidablePred p] (f : ι → EReal)
    (h : ∀ i ∈ s, IsReal (f i)) : IsReal (∑ i ∈ s, if p i then f i else 0) :=
  isReal_sum s _ fun i hi => by split; exacts [h i hi, isReal_zero]

/-! ## Ring laws on real entries -/

/-- On reals, negation distributes over addition (on the extended reals it fails at `⊤ + ⊥`). -/
theorem neg_add_of_isReal {a b : EReal} (ha : IsReal a) (hb : IsReal b) : -(a + b) = -a + -b := by
  obtain ⟨x, rfl⟩ := ha; obtain ⟨y, rfl⟩ := hb
  rw [← EReal.coe_add, ← EReal.coe_neg, ← EReal.coe_neg, ← EReal.coe_neg, ← EReal.coe_add, neg_add]

/-- A product with a negated factor is the negated product (true of all extended reals). -/
theorem mul_neg_eq (x y : EReal) : x * -y = -(x * y) := mul_neg x y
/-- The same with the negated factor on the left. -/
theorem neg_mul_eq' (x y : EReal) : -x * y = -(x * y) := neg_mul x y

/-- The first layer's affine form at `(r, d0, d1, d2)`, summed in the order input-times-weight with the bias last, is
    the part in `r` (weight times input, plus the bias) PLUS the part in `d` (weight times input, the first two
    first), when all entries are real. -/
theorem affine4_pos {r d0 d1 d2 w0 w1 w2 w3 b : EReal} (hr : IsReal r) (h0 : IsReal d0) (h1 : IsReal d1) (h2 : IsReal d2)
    (k0 : IsReal w0) (k1 : IsReal w1) (k2 : IsReal w2) (k3 : IsReal w3) (hb : IsReal b) :
    r * w0 + d0 * w1 + d1 * w2 + d2 * w3 + b = (w0 * r + b) + ((w1 * d0 + w2 * d1) + w3 * d2) := by
  obtain ⟨r, rfl⟩ := hr; obtain ⟨d0, rfl⟩ := h0; obtain ⟨d1, rfl⟩ := h1; obtain ⟨d2, rfl⟩ := h2
  obtain ⟨w0, rfl⟩ := k0; obtain ⟨w1, rfl⟩ := k1; obtain ⟨w2, rfl⟩ := k2; obtain ⟨w3, rfl⟩ := k3; obtain ⟨b, rfl⟩ := hb
  simp only [← EReal.coe_mul, ← EReal.coe_add]
  exact congrArg _ (by ring)

/-- The same form at `(r, −d0, −d1, −d2)` is the part in `r` MINUS the part in `d`, when all entries are real. -/
theorem affine4_neg {r d0 d1 d2 w0 w1 w2 w3 b : EReal} (hr : IsReal r) (h0 : IsReal d0) (h1 : IsReal d1) (h2 : IsReal d2)
    (k0 : IsReal w0) (k1 : IsReal w1) (k2 : IsReal w2) (k3 : IsReal w3) (hb : IsReal b) :
    r * w0 + -d0 * w1 + -d1 * w2 + -d2 * w3 + b = (w0 * r + b) - ((w1 * d0 + w2 * d1) + w3 * d2) := by
  obtain ⟨r, rfl⟩ := hr; obtain ⟨d0, rfl⟩ := h0; obtain ⟨d1, rfl⟩ := h1; obtain ⟨d2, rfl⟩ := h2
  obtain ⟨w0, rfl⟩ := k0; obtain ⟨w1, rfl⟩ := k1; obtain ⟨w2, rfl⟩ := k2; obtain ⟨w3, rfl⟩ := k3; obtain ⟨b, rfl⟩ := hb
  simp only [← EReal.coe_neg, ← EReal.coe_mul, ← EReal.coe_add, ← EReal.coe_sub]
  exact congrArg _ (by ring)

end EdgeSums

end
-- ==== Proof.PreFacts.lean ====
/-
  The precondition decoded. The certificate's precondition is one bit, computed from the nine argument arrays: the
  conjunction, over every float array, of "every entry has absolute value below +∞", and of "every index word is at
  least 0 and at most 99999, read signed". When that bit is 1:
    * at the extended reals, every entry of r_ij, v, W1, b1, W2, b2, W3, b3 is a real number (neither infinity), since
      `max x (−x) < ⊤` excludes both `⊤` and `⊥`;
    * at every float instance, every index word, read unsigned, is below 100000.
  The decoding is done once, for the precondition as a function of plain arrays at any float instance, and then read
  at the three programs' argument buffers.
-/
import proofs.«204254_g40355512713743_retrytranche2_1723_12_alg».proof.Defs
import proofs.«204254_g40355512713743_retrytranche2_1723_12_alg».proof.Proof.Gen.Pre_input_domain
import proofs.«204254_g40355512713743_retrytranche2_1723_12_alg».proof.Proof.LibEdgeSums
import Idealize.ShloMosaic.Lib.ReduceAll
import Idealize.ShloMosaic.Lib.Affine
import Idealize.ShloMosaic.Lib.ValueIdx

noncomputable section

namespace Cert.Proof.KI.Rf

open Idealize.ShloMosaic Idealize.ShloMosaic.ValueIdx Idealize.ShloMosaic.TcCoe Idealize.SL.Sem Cert.Pre_input_domain EdgeSums

instance : Subsingleton S_.Idx := ⟨fun a b => funext fun d => d.elim0⟩

/-- The bit the precondition computes of one float entry: "its absolute value is below +∞". -/
def finBit {F : FTy → Type} [FloatOps F] (x : F .f32) : BitVec 1 :=
  FloatOps.cmpf .olt (FloatOps.hostAbsf x) (FloatOps.ofBits .f32 0x7F800000#32)

/-- An extended real whose absolute value is below `⊤` is a real number. -/
theorem isReal_of_finBit {x : EReal} (h : finBit (F := Ideal) x = 1#1) : IsReal x := by
  have hinf : Ideal.ofBits .f32 0x7F800000#32 = ⊤ := by simp [Ideal.ofBits, Ideal.ieee]
  have h' : BitVec.ofBool (decide (max x (-x) < Ideal.ofBits .f32 0x7F800000#32)) = 1#1 := h
  rw [hinf] at h'
  induction x using EReal.rec with
  | bot => exact absurd h' (by simp)
  | coe r => exact ⟨r, rfl⟩
  | top => exact absurd h' (by simp)

/-- A word that is at least 0 and at most 99999, read signed, is below 100000, read unsigned. -/
theorem toNat_lt_of_bits {w : BitVec 32} (h0 : IntOp.cmpi .sge w 0#32 = 1#1) (h1 : IntOp.cmpi .sle w 99999#32 = 1#1) :
    w.toNat < 100000 := by
  have a0 := IntOp.cmpi_sge.1 h0
  have a1 := IntOp.cmpi_sle.1 h1
  have z0 : (0#32 : BitVec 32).toInt = 0 := by decide
  have z1 : (99999#32 : BitVec 32).toInt = 99999 := by decide
  rw [z0] at a0; rw [z1] at a1
  rw [BitVec.toInt_eq_toNat_cond] at a0 a1
  have hw := w.isLt
  split at a0 <;> omega

/-- What the precondition says of the nine arrays, entry by entry. -/
structure Decoded {F : FTy → Type} [FloatOps F] (a0 : IVec S2x6400000 32) (a1 : FVec F S6400000x3 .f32)
    (a2 : FVec F S100000x3 .f32) (a3 : FVec F S32x4 .f32) (a4 : FVec F S32 .f32) (a5 : FVec F S32x32 .f32)
    (a6 : FVec F S32 .f32) (a7 : FVec F S1x32 .f32) (a8 : FVec F S1 .f32) : Prop where
  idx : ∀ i, (a0 i).toNat < 100000
  f1 : ∀ i, finBit (a1 i) = 1#1
  f2 : ∀ i, finBit (a2 i) = 1#1
  f3 : ∀ i, finBit (a3 i) = 1#1
  f4 : ∀ i, finBit (a4 i) = 1#1
  f5 : ∀ i, finBit (a5 i) = 1#1
  f6 : ∀ i, finBit (a6 i) = 1#1
  f7 : ∀ i, finBit (a7 i) = 1#1
  f8 : ∀ i, finBit (a8 i) = 1#1

variable [Cert.Pre_input_domain.Facts]

/-- THE PRECONDITION DECODED, at any float instance: the precondition's bit is the conjunction of the nine "all"
    reductions, each of which gives its element fact at every index. -/
theorem decode {F : FTy → Type} [FloatOps F] (a0 : IVec S2x6400000 32) (a1 : FVec F S6400000x3 .f32)
    (a2 : FVec F S100000x3 .f32) (a3 : FVec F S32x4 .f32) (a4 : FVec F S32 .f32) (a5 : FVec F S32x32 .f32)
    (a6 : FVec F S32 .f32) (a7 : FVec F S1x32 .f32) (a8 : FVec F S1 .f32)
    (h : Cert.Pre_input_domain.fn (F := F) a0 a1 a2 a3 a4 a5 a6 a7 a8 = fun _ => 1#1) :
    Decoded a0 a1 a2 a3 a4 a5 a6 a7 a8 := by
  have h0 := congrFun h ix0
  unfold Cert.Pre_input_domain.fn Cert.Pre_input_domain.fn_part1 Cert.Pre_input_domain.fn_part2 at h0
  dsimp only at h0
  simp only [andi, IntOp.andi_eq_one] at h0
  obtain ⟨⟨⟨⟨⟨⟨⟨⟨e1, e2⟩, e3⟩, e4⟩, e5⟩, e6⟩, e7⟩, e8⟩, e0⟩ := h0
  refine ⟨fun i => ?_, fun i => Host.reduce_andi_all _ _ _ _ ix0 e1 i, fun i => Host.reduce_andi_all _ _ _ _ ix0 e2 i,
    fun i => Host.reduce_andi_all _ _ _ _ ix0 e3 i, fun i => Host.reduce_andi_all _ _ _ _ ix0 e4 i,
    fun i => Host.reduce_andi_all _ _ _ _ ix0 e5 i, fun i => Host.reduce_andi_all _ _ _ _ ix0 e6 i,
    fun i => Host.reduce_andi_all _ _ _ _ ix0 e7 i, fun i => Host.reduce_andi_all _ _ _ _ ix0 e8 i⟩
  have hi := Host.reduce_andi_all _ _ _ _ ix0 e0 i
  obtain ⟨g0, g1⟩ := IntOp.andi_eq_one.1 hi
  exact toNat_lt_of_bits g0 g1

/-- At the extended reals: every index word in range and every float entry a real number. -/
structure InputsOK (a0 : IVec S2x6400000 32) (a1 : FVec Ideal S6400000x3 .f32)
    (a2 : FVec Ideal S100000x3 .f32) (a3 : FVec Ideal S32x4 .f32) (a4 : FVec Ideal S32 .f32) (a5 : FVec Ideal S32x32 .f32)
    (a6 : FVec Ideal S32 .f32) (a7 : FVec Ideal S1x32 .f32) (a8 : FVec Ideal S1 .f32) : Prop where
  idx : ∀ i, (a0 i).toNat < 100000
  rij : ∀ i, IsReal (a1 i)
  v : ∀ i, IsReal (a2 i)
  W1 : ∀ i, IsReal (a3 i)
  b1 : ∀ i, IsReal (a4 i)
  W2 : ∀ i, IsReal (a5 i)
  b2 : ∀ i, IsReal (a6 i)
  W3 : ∀ i, IsReal (a7 i)
  b3 : ∀ i, IsReal (a8 i)

/-- The precondition at the extended reals gives `InputsOK`. -/
theorem inputsOK_of_pre (a0 : IVec S2x6400000 32) (a1 : FVec Ideal S6400000x3 .f32)
    (a2 : FVec Ideal S100000x3 .f32) (a3 : FVec Ideal S32x4 .f32) (a4 : FVec Ideal S32 .f32) (a5 : FVec Ideal S32x32 .f32)
    (a6 : FVec Ideal S32 .f32) (a7 : FVec Ideal S1x32 .f32) (a8 : FVec Ideal S1 .f32)
    (h : Cert.Pre_input_domain.fn (F := Ideal) a0 a1 a2 a3 a4 a5 a6 a7 a8 = fun _ => 1#1) :
    InputsOK a0 a1 a2 a3 a4 a5 a6 a7 a8 :=
  have d := decode a0 a1 a2 a3 a4 a5 a6 a7 a8 h
  ⟨d.idx, fun i => isReal_of_finBit (d.f1 i), fun i => isReal_of_finBit (d.f2 i), fun i => isReal_of_finBit (d.f3 i),
    fun i => isReal_of_finBit (d.f4 i), fun i => isReal_of_finBit (d.f5 i), fun i => isReal_of_finBit (d.f6 i),
    fun i => isReal_of_finBit (d.f7 i), fun i => isReal_of_finBit (d.f8 i)⟩

/-! ## The three instances -/

/-- The reference's precondition: its argument buffers are `InputsOK`, on every device. -/
theorem pre_reference (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    InputsOK (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) :=
  inputsOK_of_pre _ _ _ _ _ _ _ _ _ (h c)

/-- The idealized kernel's precondition: its argument buffers are `InputsOK`, on every device. -/
theorem pre_kernelIdeal (m : (ℓ : Loc Cert.KernelIdeal.nD Cert.KernelIdeal.τ Cert.KernelIdeal.sig) → Buf (Elt Ideal) ℓ)
    (h : Cert.Pre_KernelIdeal m) (c : Dev Cert.KernelIdeal.nD) :
    InputsOK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) :=
  inputsOK_of_pre _ _ _ _ _ _ _ _ _ (h c)

/-- The kernel's precondition at the machine's words: every index word of its argument buffer is below 100000. -/
theorem pre_kernel_idx (m : (ℓ : Loc Cert.Kernel.nD Cert.Kernel.τ Cert.Kernel.sig) → Buf (Elt Bits) ℓ)
    (h : Cert.Pre_Kernel m) (c : Dev Cert.Kernel.nD) :
    ∀ i, (m ((c.tc : Thread Cert.Kernel.nD Cert.Kernel.τ).loc Cert.Kernel.main_arg0) i).toNat < 100000 :=
  (decode (F := Bits) _ _ _ _ _ _ _ _ _ (h c)).idx

end Cert.Proof.KI.Rf

end
-- ==== Proof.FramesKW.lean ====
/-
  The frame of the kernel from its run: the precondition's index range reaches the flattened index array through the host reshape, and every argument array ends as launched.
-/
import proofs.«204254_g40355512713743_retrytranche2_1723_12_alg».proof.Proof.CommonW
import proofs.«204254_g40355512713743_retrytranche2_1723_12_alg».proof.Proof.MainBW
import proofs.«204254_g40355512713743_retrytranche2_1723_12_alg».proof.Proof.PreFacts

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable [∀ e, Nonempty (Elt F e)]
variable (m : (ℓ : Loc nD τ sig) → Buf (Elt F) ℓ) (ρ : Dev nD → PrngReg)

open Idealize.ShloMosaic.TcCoe

/-- The flattened index array's words are the words of `edge_index`: a reshape permutes nothing away. -/
theorem preOK_of_idx (hidx : ∀ (d : Dev nD) i, (BitVec.toNat (show BitVec 32 from m ((d.tc : Thread nD τ).loc main_arg0) i)) < 100000) : PreOK m := by
  intro d j
  have h : eiOf m d j = shapeCast S12800000 (m ((d.tc : Thread nD τ).loc main_arg0)) shapeCasts_S2x6400000_S12800000 j := by
    show Va m d (rV main_v0) j = _
    unfold Va
    rw [(hop3 (F := F)).result_of_not_mem _ (show rV main_v0 ∉ ({rV main_v3} : Finset (DevRef τ sig)) by decide),
      (hop2 (F := F)).result_of_not_mem _ (show rV main_v0 ∉ ({rV main_v2} : Finset (DevRef τ sig)) by decide),
      (hop1 (F := F)).result_of_not_mem _ (show rV main_v0 ∉ ({rV main_v1} : Finset (DevRef τ sig)) by decide),
      StableHlo.reshape_result']
    rfl
  rw [h]; unfold shapeCast; exact hidx d _

/-- The run's post gives the frame's: each of the nine arguments is unscoped and written by nothing. -/
theorem frame_of_run (r : PUnit × MemSt nD τ sig (Elt F)) (h : QC (F := F) m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8) :=
  ⟨arg_kept m r h c main_arg0 rfl (by decide), arg_kept m r h c main_arg1 rfl (by decide), arg_kept m r h c main_arg2 rfl (by decide),
    arg_kept m r h c main_arg3 rfl (by decide), arg_kept m r h c main_arg4 rfl (by decide), arg_kept m r h c main_arg5 rfl (by decide),
    arg_kept m r h c main_arg6 rfl (by decide), arg_kept m r h c main_arg7 rfl (by decide), arg_kept m r h c main_arg8 rfl (by decide)⟩

/-- `Cert.frame_Kernel`: the run at the bit-level floats, the values dropped. -/
theorem frame_p (hr : Ga.TileR Bits) : Cert.frame_Kernel (hKernel := Cert.Kernel.Gen.facts) (hPre_input_domain := Cert.Pre_input_domain.Gen.facts) := fun m ρ hpre =>
  (θ_run Cert.Kernel.defs _ _).mono (fun r h c => frame_of_run m r h c)
    (run_main (F := Bits) m ρ hr (preOK_of_idx m fun d => _root_.Cert.Proof.KI.Rf.pre_kernel_idx m hpre d))

end Cert.Proof.KW

end
-- ==== Proof.ScatterTileSpec.lean ====
import proofs.«204254_g40355512713743_retrytranche2_1723_12_alg».proof.Proof.Common
import Idealize.ShloMosaic.Lib.ValueIdx

noncomputable section

namespace Cert.Proof.KI.Sc

open Cert.Proof.KI
open Cert.KernelIdeal Cert.KernelIdeal.Gen

open Idealize.ShloMosaic
open Idealize.ShloMosaic.ValueIdx (ix1 eq_ix1)

variable {F : FTy → Type} [FloatOps F]

/-! ## What the scatter call computes, as the fold its loops perform

Tile number `w = 2 * subcore + core` handles chunk `w % 8` (800000 consecutive edges) of one of four tasks
`w / 8`: tasks 0 and 2 read the first half of the flat index array, tasks 1 and 3 the second; task 0 adds the forward
values, task 1 the backward values, tasks 2 and 3 add one. An accumulator of 100000 entries starts at zero and takes
the edges in increasing order, each added (by the indexed store's own addition) onto the entry its index word names. -/

/-- The zero and the one the kernel broadcasts. -/
def fzero : F .f32 := Scalar.ofBits .f32 0x00000000#32
def fone : F .f32 := Scalar.ofBits .f32 0x3F800000#32

/-- A tile's number from its grid coordinates. -/
def widOf (L : grid2.Coords) : ℕ := 2 * (L 1).val + (L 0).val

/-- The flat index array read at a position, unsigned (zero beyond its end). -/
def eiN (ei : S12800000.Idx → Elt F .i32) (n : ℕ) : ℕ := if h : n < 12800000 then (ei (ix1 ⟨n, h⟩)).toNat else 0
/-- An edge-value array read at a position (zero beyond its end). -/
def fN (t : S6400000.Idx → Elt F .f32) (n : ℕ) : F .f32 := if h : n < 6400000 then t (ix1 ⟨n, h⟩) else fzero

/-- Where tile `w`'s index words start in the flat index array. -/
def idxBase (w : ℕ) : ℕ := (if (w / 8) % 2 = 1 then 6400000 else 0) + 800000 * (w % 8)
/-- Where tile `w`'s edge values start. -/
def valBase (w : ℕ) : ℕ := 800000 * (w % 8)

/-- The index word of edge `e` of tile `w`'s chunk. -/
def iwOf (ei : S12800000.Idx → Elt F .i32) (w e : ℕ) : ℕ := eiN ei (idxBase w + e)
/-- The value tile `w` adds for edge `e` of its chunk. -/
def vwOf (tf tb : S6400000.Idx → Elt F .f32) (w e : ℕ) : F .f32 :=
  if w / 8 = 0 then fN tf (valBase w + e) else if w / 8 = 1 then fN tb (valBase w + e) else fone

/-- Entry `n` of an accumulator after the first `k` edges: from zero, each edge whose index word is `n` added in turn. -/
def accAt (iw : ℕ → ℕ) (vw : ℕ → F .f32) : ℕ → ℕ → F .f32
  | 0, _ => fzero
  | k + 1, n => if iw k = n then FloatOps.idxAddf (accAt iw vw k n) (vw k) else accAt iw vw k n

/-- The partial-sums array after the call: entry `w * 100000 + n` is tile `w`'s accumulator entry `n` after its 800000 edges. -/
def specPart (ei : S12800000.Idx → Elt F .i32) (tf tb : S6400000.Idx → Elt F .f32) : S3200000.Idx → Elt F .f32 :=
  fun j => accAt (iwOf ei ((j 0).val / 100000)) (vwOf tf tb ((j 0).val / 100000)) 800000 ((j 0).val % 100000)

/-! ## The indexed store with add, sixteen lanes at a time, is sixteen more edges of the fold -/

/-- The fold of lane updates, read at one entry, is the fold of that entry's updates. -/
theorem foldl_lane_apply {n : ℕ} (l : List (Fin n)) (tgt : Fin n → ℕ) (val : Fin n → F .f32) (g₀ : S100000.Idx → F .f32) (j : S100000.Idx) :
    (l.foldl (fun g k => fun j' => if tgt k = (j' 0).val then FloatOps.idxAddf (g j') (val k) else g j') g₀) j
      = l.foldl (fun a k => if tgt k = (j 0).val then FloatOps.idxAddf a (val k) else a) (g₀ j) := by
  induction l generalizing g₀ with
  | nil => rfl
  | cons k l ih => rw [List.foldl_cons, List.foldl_cons, ih]

/-- `n` more edges, one at a time. -/
theorem accAt_finRange (iw : ℕ → ℕ) (vw : ℕ → F .f32) (K m : ℕ) (n : ℕ) :
    (List.finRange n).foldl (fun a (k : Fin n) => if iw (K + k.val) = m then FloatOps.idxAddf a (vw (K + k.val)) else a) (accAt iw vw K m)
      = accAt iw vw (K + n) m := by
  induction n with
  | zero => rfl
  | succ n ih =>
    rw [List.finRange_succ_last, List.foldl_append, List.foldl_map]
    simp only [Fin.coe_castSucc, List.foldl_cons, List.foldl_nil, Fin.val_last]
    rw [ih]; rfl

theorem storeIdx_eq_fold (g : Vec F S100000 .f32) (iv : IVec S16 32) (v : Vec F S16 .f32)
    (h : ∀ a x, ((![iv] : Fin 1 → IVec S16 32) a x).toNat < S100000.size a) :
    storeIdx g ![iv] v (fun _ => 1#1) true h
      = (List.finRange 16).foldl (fun g' (k : Fin 16) => fun j' =>
          if (iv (Shape.ofLane k)).toNat = (j' 0).val then FloatOps.idxAddf (g' j') (v (Shape.ofLane k)) else g' j') g := by
  unfold storeIdx
  show (List.finRange 16).foldl _ g = _
  congr 1
  funext g' k j'
  rw [if_pos (show (1#1 : BitVec 1) = 1 from rfl), if_pos rfl]
  by_cases hc : (iv (Shape.ofLane k)).toNat = (j' 0).val
  · have hij : idxAt ![iv] h (Shape.ofLane k) = j' := by
      funext a; obtain rfl : a = 0 := Subsingleton.elim _ _
      exact Fin.ext hc
    rw [if_pos hc, hij, if_pos (fun _ => rfl)]; rfl
  · rw [if_neg hc, if_neg]
    intro hall; exact hc (hall 0).symm

theorem storeIdx_accAt (iw : ℕ → ℕ) (vw : ℕ → F .f32) (K : ℕ) (g : Vec F S100000 .f32) (iv : IVec S16 32) (v : Vec F S16 .f32)
    (h : ∀ a x, ((![iv] : Fin 1 → IVec S16 32) a x).toNat < S100000.size a)
    (hg : ∀ j, g j = accAt iw vw K (j 0).val)
    (hiv : ∀ x : S16.Idx, (iv x).toNat = iw (K + (x 0).val))
    (hv : ∀ x : S16.Idx, v x = vw (K + (x 0).val)) (j : S100000.Idx) :
    storeIdx g ![iv] v (fun _ => 1#1) true h j = accAt iw vw (K + 16) (j 0).val := by
  rw [storeIdx_eq_fold, foldl_lane_apply (List.finRange 16) (fun k => (iv (Shape.ofLane k)).toNat) (fun k => v (Shape.ofLane k)), hg,
    ← accAt_finRange iw vw K (j 0).val 16]
  congr 1
  funext a k
  rw [hiv, hv]; rfl

/-- The accumulator's contents after the first `K` edges. -/
def accFn (iw : ℕ → ℕ) (vw : ℕ → F .f32) (K : ℕ) : S100000.Idx → Elt F .f32 := fun j => accAt iw vw K (j 0).val

theorem storeIdx_accFn (iw : ℕ → ℕ) (vw : ℕ → F .f32) (K : ℕ) (iv : IVec S16 32) (v : Vec F S16 .f32)
    (h : ∀ a x, ((![iv] : Fin 1 → IVec S16 32) a x).toNat < S100000.size a)
    (hiv : ∀ x : S16.Idx, (iv x).toNat = iw (K + (x 0).val))
    (hv : ∀ x : S16.Idx, v x = vw (K + (x 0).val)) :
    storeIdx (accFn iw vw K) ![iv] v (fun _ => 1#1) true h = accFn iw vw (K + 16) :=
  funext fun j => storeIdx_accAt iw vw K (accFn iw vw K) iv v h (fun _ => rfl) hiv hv j

end Cert.Proof.KI.Sc

end
-- ==== Proof.ScatterTileOff.lean ====
import proofs.«204254_g40355512713743_retrytranche2_1723_12_alg».proof.Proof.Common
import proofs.«204254_g40355512713743_retrytranche2_1723_12_alg».proof.Proof.ScatterTileSpec

noncomputable section

namespace Cert.Proof.KI.Sc

open Cert.Proof.KI
open Cert.KernelIdeal Cert.KernelIdeal.Gen

open Idealize.ShloMosaic
open Idealize.ShloMosaic.ValueIdx (ix1 eq_ix1)

variable {F : FTy → Type} [FloatOps F]

/-! ## The block offsets in closed form, which task a tile runs, and the zero fill -/

/-- `k2_off2` in closed form. -/
theorem k2_off2_eq (i : grid2.Coords) (k2_t2 : Fin k2_t2_loop.trips) : k2_off2 i k2_t2 = ![800000 * ((2 * (i 1).val + (i 0).val) % 8) + 8000 * k2_t2.val] := by
  have h_c0_i32_25 : Affine.IsInt 0#32 (0) := Affine.ofNat _ (by omega)
  have r_i1 : (i 1).val < 16 := (i 1).isLt
  have h_arg1 : Affine.IsInt (BitVec.ofNat 32 (i 1).val) (((i 1).val : Int)) := Affine.ofNat _ (by omega)
  have h_c2_i32 : Affine.IsInt 2#32 (2) := Affine.ofNat _ (by omega)
  have h_v0 : Affine.IsInt _ (2 * ((i 1).val : Int)) := Affine.muli h_arg1 h_c2_i32 (by omega)
  have r_i0 : (i 0).val < 2 := (i 0).isLt
  have h_arg0 : Affine.IsInt (BitVec.ofNat 32 (i 0).val) (((i 0).val : Int)) := Affine.ofNat _ (by omega)
  have h_v1 : Affine.IsInt _ (2 * ((i 1).val : Int) + ((i 0).val : Int)) := Affine.addi h_v0 h_arg0 (by omega)
  have h_c8_i32_4 : Affine.IsInt 8#32 (8) := Affine.ofNat _ (by omega)
  have h_c0_i32_5 : Affine.IsInt 0#32 (0) := Affine.ofNat _ (by omega)
  have h_v19 : Affine.Fails _ := Affine.eq_fails h_c8_i32_4 h_c0_i32_5 (by omega)
  have h_c1_i32_6 : Affine.IsInt 1#32 (1) := Affine.ofNat _ (by omega)
  have h_v20 : Affine.IsInt _ (8) := Affine.select_fails h_v19 h_c1_i32_6 h_c8_i32_4 (by omega)
  have h_v21 : Affine.IsInt _ (((2 * ((i 1).val : Int) + ((i 0).val : Int)) % 8)) := Affine.remsi h_v1 h_v20 (by omega)
  have h_c0_i32_8 : Affine.IsInt 0#32 (0) := Affine.ofNat _ (by omega)
  have h_v23 : Affine.Fails _ := Affine.slt_fails h_v21 h_c0_i32_8 (by omega)
  have h_c0_i32_9 : Affine.IsInt 0#32 (0) := Affine.ofNat _ (by omega)
  have h_v24 : Affine.Fails _ := Affine.slt_fails h_v20 h_c0_i32_9 (by omega)
  have h_v25 : Affine.Fails _ := Affine.xori_ff h_v23 h_v24
  have h_c0_i32_7 : Affine.IsInt 0#32 (0) := Affine.ofNat _ (by omega)
  have h_v22 : Affine.Term _ := Affine.cmpi_term .ne h_v21 h_c0_i32_7
  have h_v26 : Affine.Fails _ := Affine.andi_fails_left h_v25 h_v22
  have h_v27 : Affine.IsInt _ (((2 * ((i 1).val : Int) + ((i 0).val : Int)) % 8) + 8) := Affine.addi h_v21 h_v20 (by omega)
  have h_v28 : Affine.IsInt _ (((2 * ((i 1).val : Int) + ((i 0).val : Int)) % 8)) := Affine.select_fails h_v26 h_v27 h_v21 (by omega)
  have h_c800000_i32 : Affine.IsInt 800000#32 (800000) := Affine.ofNat _ (by omega)
  have h_v47 : Affine.IsInt _ (800000 * ((2 * ((i 1).val : Int) + ((i 0).val : Int)) % 8)) := Affine.muli h_v28 h_c800000_i32 (by omega)
  have h_c0_i32_22 : Affine.IsInt 0#32 (0) := Affine.ofNat _ (by omega)
  have h_c1_i32_23 : Affine.IsInt 1#32 (1) := Affine.ofNat _ (by omega)
  have r_k2_t2 : k2_t2.val < 100 := Nat.lt_of_lt_of_le k2_t2.isLt k2_t2_abs.2.1
  have h_arg9 : Affine.IsInt _ ((k2_t2.val : Int)) := Affine.iv h_c0_i32_22 h_c1_i32_23 k2_t2.val (by omega)
  have c_arg9 : (k2_t2.val : Int) ≤ 100 - 1 := Affine.iv_lt k2_t2_abs.1 k2_t2.isLt k2_t2_abs.2.2 h_arg9
  have h_c8000_i32 : Affine.IsInt 8000#32 (8000) := Affine.ofNat _ (by omega)
  have h_v48 : Affine.IsInt _ (8000 * (k2_t2.val : Int)) := Affine.muli h_arg9 h_c8000_i32 (by omega)
  have h_v49 : Affine.IsInt _ (800000 * ((2 * ((i 1).val : Int) + ((i 0).val : Int)) % 8) + 8000 * (k2_t2.val : Int)) := Affine.addi h_v47 h_v48 (by omega)
  have h_v50 : Affine.IsInt _ (800000 * ((2 * ((i 1).val : Int) + ((i 0).val : Int)) % 8) + 8000 * (k2_t2.val : Int)) := Affine.addi h_c0_i32_25 h_v49 (by omega)
  exact Affine.vec_cons h_v50 (by omega) <| Affine.vec_nil
/-- `k2_off3` in closed form. -/
theorem k2_off3_eq (i : grid2.Coords) (k2_t2 : Fin k2_t2_loop.trips) : k2_off3 i k2_t2 = ![800000 * ((2 * (i 1).val + (i 0).val) % 8) + 8000 * k2_t2.val] := by
  have r_i1 : (i 1).val < 16 := (i 1).isLt
  have h_arg1 : Affine.IsInt (BitVec.ofNat 32 (i 1).val) (((i 1).val : Int)) := Affine.ofNat _ (by omega)
  have h_c2_i32 : Affine.IsInt 2#32 (2) := Affine.ofNat _ (by omega)
  have h_v0 : Affine.IsInt _ (2 * ((i 1).val : Int)) := Affine.muli h_arg1 h_c2_i32 (by omega)
  have r_i0 : (i 0).val < 2 := (i 0).isLt
  have h_arg0 : Affine.IsInt (BitVec.ofNat 32 (i 0).val) (((i 0).val : Int)) := Affine.ofNat _ (by omega)
  have h_v1 : Affine.IsInt _ (2 * ((i 1).val : Int) + ((i 0).val : Int)) := Affine.addi h_v0 h_arg0 (by omega)
  have h_c8_i32_4 : Affine.IsInt 8#32 (8) := Affine.ofNat _ (by omega)
  have h_c0_i32_5 : Affine.IsInt 0#32 (0) := Affine.ofNat _ (by omega)
  have h_v19 : Affine.Fails _ := Affine.eq_fails h_c8_i32_4 h_c0_i32_5 (by omega)
  have h_c1_i32_6 : Affine.IsInt 1#32 (1) := Affine.ofNat _ (by omega)
  have h_v20 : Affine.IsInt _ (8) := Affine.select_fails h_v19 h_c1_i32_6 h_c8_i32_4 (by omega)
  have h_v21 : Affine.IsInt _ (((2 * ((i 1).val : Int) + ((i 0).val : Int)) % 8)) := Affine.remsi h_v1 h_v20 (by omega)
  have h_c0_i32_8 : Affine.IsInt 0#32 (0) := Affine.ofNat _ (by omega)
  have h_v23 : Affine.Fails _ := Affine.slt_fails h_v21 h_c0_i32_8 (by omega)
  have h_c0_i32_9 : Affine.IsInt 0#32 (0) := Affine.ofNat _ (by omega)
  have h_v24 : Affine.Fails _ := Affine.slt_fails h_v20 h_c0_i32_9 (by omega)
  have h_v25 : Affine.Fails _ := Affine.xori_ff h_v23 h_v24
  have h_c0_i32_7 : Affine.IsInt 0#32 (0) := Affine.ofNat _ (by omega)
  have h_v22 : Affine.Term _ := Affine.cmpi_term .ne h_v21 h_c0_i32_7
  have h_v26 : Affine.Fails _ := Affine.andi_fails_left h_v25 h_v22
  have h_v27 : Affine.IsInt _ (((2 * ((i 1).val : Int) + ((i 0).val : Int)) % 8) + 8) := Affine.addi h_v21 h_v20 (by omega)
  have h_v28 : Affine.IsInt _ (((2 * ((i 1).val : Int) + ((i 0).val : Int)) % 8)) := Affine.select_fails h_v26 h_v27 h_v21 (by omega)
  have h_c800000_i32 : Affine.IsInt 800000#32 (800000) := Affine.ofNat _ (by omega)
  have h_v47 : Affine.IsInt _ (800000 * ((2 * ((i 1).val : Int) + ((i 0).val : Int)) % 8)) := Affine.muli h_v28 h_c800000_i32 (by omega)
  have h_c0_i32_22 : Affine.IsInt 0#32 (0) := Affine.ofNat _ (by omega)
  have h_c1_i32_23 : Affine.IsInt 1#32 (1) := Affine.ofNat _ (by omega)
  have r_k2_t2 : k2_t2.val < 100 := Nat.lt_of_lt_of_le k2_t2.isLt k2_t2_abs.2.1
  have h_arg9 : Affine.IsInt _ ((k2_t2.val : Int)) := Affine.iv h_c0_i32_22 h_c1_i32_23 k2_t2.val (by omega)
  have c_arg9 : (k2_t2.val : Int) ≤ 100 - 1 := Affine.iv_lt k2_t2_abs.1 k2_t2.isLt k2_t2_abs.2.2 h_arg9
  have h_c8000_i32 : Affine.IsInt 8000#32 (8000) := Affine.ofNat _ (by omega)
  have h_v48 : Affine.IsInt _ (8000 * (k2_t2.val : Int)) := Affine.muli h_arg9 h_c8000_i32 (by omega)
  have h_v49 : Affine.IsInt _ (800000 * ((2 * ((i 1).val : Int) + ((i 0).val : Int)) % 8) + 8000 * (k2_t2.val : Int)) := Affine.addi h_v47 h_v48 (by omega)
  exact Affine.vec_cons h_v49 (by omega) <| Affine.vec_nil
/-- `k2_off5` in closed form. -/
theorem k2_off5_eq (i : grid2.Coords) (k2_t4 : Fin k2_t4_loop.trips) : k2_off5 i k2_t4 = ![800000 * ((2 * (i 1).val + (i 0).val) % 8) + 8000 * k2_t4.val + 6400000] := by
  have h_c6400000_i32 : Affine.IsInt 6400000#32 (6400000) := Affine.ofNat _ (by omega)
  have r_i1 : (i 1).val < 16 := (i 1).isLt
  have h_arg1 : Affine.IsInt (BitVec.ofNat 32 (i 1).val) (((i 1).val : Int)) := Affine.ofNat _ (by omega)
  have h_c2_i32 : Affine.IsInt 2#32 (2) := Affine.ofNat _ (by omega)
  have h_v0 : Affine.IsInt _ (2 * ((i 1).val : Int)) := Affine.muli h_arg1 h_c2_i32 (by omega)
  have r_i0 : (i 0).val < 2 := (i 0).isLt
  have h_arg0 : Affine.IsInt (BitVec.ofNat 32 (i 0).val) (((i 0).val : Int)) := Affine.ofNat _ (by omega)
  have h_v1 : Affine.IsInt _ (2 * ((i 1).val : Int) + ((i 0).val : Int)) := Affine.addi h_v0 h_arg0 (by omega)
  have h_c8_i32_4 : Affine.IsInt 8#32 (8) := Affine.ofNat _ (by omega)
  have h_c0_i32_5 : Affine.IsInt 0#32 (0) := Affine.ofNat _ (by omega)
  have h_v19 : Affine.Fails _ := Affine.eq_fails h_c8_i32_4 h_c0_i32_5 (by omega)
  have h_c1_i32_6 : Affine.IsInt 1#32 (1) := Affine.ofNat _ (by omega)
  have h_v20 : Affine.IsInt _ (8) := Affine.select_fails h_v19 h_c1_i32_6 h_c8_i32_4 (by omega)
  have h_v21 : Affine.IsInt _ (((2 * ((i 1).val : Int) + ((i 0).val : Int)) % 8)) := Affine.remsi h_v1 h_v20 (by omega)
  have h_c0_i32_8 : Affine.IsInt 0#32 (0) := Affine.ofNat _ (by omega)
  have h_v23 : Affine.Fails _ := Affine.slt_fails h_v21 h_c0_i32_8 (by omega)
  have h_c0_i32_9 : Affine.IsInt 0#32 (0) := Affine.ofNat _ (by omega)
  have h_v24 : Affine.Fails _ := Affine.slt_fails h_v20 h_c0_i32_9 (by omega)
  have h_v25 : Affine.Fails _ := Affine.xori_ff h_v23 h_v24
  have h_c0_i32_7 : Affine.IsInt 0#32 (0) := Affine.ofNat _ (by omega)
  have h_v22 : Affine.Term _ := Affine.cmpi_term .ne h_v21 h_c0_i32_7
  have h_v26 : Affine.Fails _ := Affine.andi_fails_left h_v25 h_v22
  have h_v27 : Affine.IsInt _ (((2 * ((i 1).val : Int) + ((i 0).val : Int)) % 8) + 8) := Affine.addi h_v21 h_v20 (by omega)
  have h_v28 : Affine.IsInt _ (((2 * ((i 1).val : Int) + ((i 0).val : Int)) % 8)) := Affine.select_fails h_v26 h_v27 h_v21 (by omega)
  have h_c800000_i32 : Affine.IsInt 800000#32 (800000) := Affine.ofNat _ (by omega)
  have h_v47 : Affine.IsInt _ (800000 * ((2 * ((i 1).val : Int) + ((i 0).val : Int)) % 8)) := Affine.muli h_v28 h_c800000_i32 (by omega)
  have h_c0_i32_22 : Affine.IsInt 0#32 (0) := Affine.ofNat _ (by omega)
  have h_c1_i32_23 : Affine.IsInt 1#32 (1) := Affine.ofNat _ (by omega)
  have r_k2_t4 : k2_t4.val < 100 := Nat.lt_of_lt_of_le k2_t4.isLt k2_t4_abs.2.1
  have h_arg9 : Affine.IsInt _ ((k2_t4.val : Int)) := Affine.iv h_c0_i32_22 h_c1_i32_23 k2_t4.val (by omega)
  have c_arg9 : (k2_t4.val : Int) ≤ 100 - 1 := Affine.iv_lt k2_t4_abs.1 k2_t4.isLt k2_t4_abs.2.2 h_arg9
  have h_c8000_i32 : Affine.IsInt 8000#32 (8000) := Affine.ofNat _ (by omega)
  have h_v48 : Affine.IsInt _ (8000 * (k2_t4.val : Int)) := Affine.muli h_arg9 h_c8000_i32 (by omega)
  have h_v49 : Affine.IsInt _ (800000 * ((2 * ((i 1).val : Int) + ((i 0).val : Int)) % 8) + 8000 * (k2_t4.val : Int)) := Affine.addi h_v47 h_v48 (by omega)
  have h_v50 : Affine.IsInt _ (800000 * ((2 * ((i 1).val : Int) + ((i 0).val : Int)) % 8) + 8000 * (k2_t4.val : Int) + 6400000) := Affine.addi h_c6400000_i32 h_v49 (by omega)
  exact Affine.vec_cons h_v50 (by omega) <| Affine.vec_nil
/-- `k2_off6` in closed form. -/
theorem k2_off6_eq (i : grid2.Coords) (k2_t4 : Fin k2_t4_loop.trips) : k2_off6 i k2_t4 = ![800000 * ((2 * (i 1).val + (i 0).val) % 8) + 8000 * k2_t4.val] := by
  have r_i1 : (i 1).val < 16 := (i 1).isLt
  have h_arg1 : Affine.IsInt (BitVec.ofNat 32 (i 1).val) (((i 1).val : Int)) := Affine.ofNat _ (by omega)
  have h_c2_i32 : Affine.IsInt 2#32 (2) := Affine.ofNat _ (by omega)
  have h_v0 : Affine.IsInt _ (2 * ((i 1).val : Int)) := Affine.muli h_arg1 h_c2_i32 (by omega)
  have r_i0 : (i 0).val < 2 := (i 0).isLt
  have h_arg0 : Affine.IsInt (BitVec.ofNat 32 (i 0).val) (((i 0).val : Int)) := Affine.ofNat _ (by omega)
  have h_v1 : Affine.IsInt _ (2 * ((i 1).val : Int) + ((i 0).val : Int)) := Affine.addi h_v0 h_arg0 (by omega)
  have h_c8_i32_4 : Affine.IsInt 8#32 (8) := Affine.ofNat _ (by omega)
  have h_c0_i32_5 : Affine.IsInt 0#32 (0) := Affine.ofNat _ (by omega)
  have h_v19 : Affine.Fails _ := Affine.eq_fails h_c8_i32_4 h_c0_i32_5 (by omega)
  have h_c1_i32_6 : Affine.IsInt 1#32 (1) := Affine.ofNat _ (by omega)
  have h_v20 : Affine.IsInt _ (8) := Affine.select_fails h_v19 h_c1_i32_6 h_c8_i32_4 (by omega)
  have h_v21 : Affine.IsInt _ (((2 * ((i 1).val : Int) + ((i 0).val : Int)) % 8)) := Affine.remsi h_v1 h_v20 (by omega)
  have h_c0_i32_8 : Affine.IsInt 0#32 (0) := Affine.ofNat _ (by omega)
  have h_v23 : Affine.Fails _ := Affine.slt_fails h_v21 h_c0_i32_8 (by omega)
  have h_c0_i32_9 : Affine.IsInt 0#32 (0) := Affine.ofNat _ (by omega)
  have h_v24 : Affine.Fails _ := Affine.slt_fails h_v20 h_c0_i32_9 (by omega)
  have h_v25 : Affine.Fails _ := Affine.xori_ff h_v23 h_v24
  have h_c0_i32_7 : Affine.IsInt 0#32 (0) := Affine.ofNat _ (by omega)
  have h_v22 : Affine.Term _ := Affine.cmpi_term .ne h_v21 h_c0_i32_7
  have h_v26 : Affine.Fails _ := Affine.andi_fails_left h_v25 h_v22
  have h_v27 : Affine.IsInt _ (((2 * ((i 1).val : Int) + ((i 0).val : Int)) % 8) + 8) := Affine.addi h_v21 h_v20 (by omega)
  have h_v28 : Affine.IsInt _ (((2 * ((i 1).val : Int) + ((i 0).val : Int)) % 8)) := Affine.select_fails h_v26 h_v27 h_v21 (by omega)
  have h_c800000_i32 : Affine.IsInt 800000#32 (800000) := Affine.ofNat _ (by omega)
  have h_v47 : Affine.IsInt _ (800000 * ((2 * ((i 1).val : Int) + ((i 0).val : Int)) % 8)) := Affine.muli h_v28 h_c800000_i32 (by omega)
  have h_c0_i32_22 : Affine.IsInt 0#32 (0) := Affine.ofNat _ (by omega)
  have h_c1_i32_23 : Affine.IsInt 1#32 (1) := Affine.ofNat _ (by omega)
  have r_k2_t4 : k2_t4.val < 100 := Nat.lt_of_lt_of_le k2_t4.isLt k2_t4_abs.2.1
  have h_arg9 : Affine.IsInt _ ((k2_t4.val : Int)) := Affine.iv h_c0_i32_22 h_c1_i32_23 k2_t4.val (by omega)
  have c_arg9 : (k2_t4.val : Int) ≤ 100 - 1 := Affine.iv_lt k2_t4_abs.1 k2_t4.isLt k2_t4_abs.2.2 h_arg9
  have h_c8000_i32 : Affine.IsInt 8000#32 (8000) := Affine.ofNat _ (by omega)
  have h_v48 : Affine.IsInt _ (8000 * (k2_t4.val : Int)) := Affine.muli h_arg9 h_c8000_i32 (by omega)
  have h_v49 : Affine.IsInt _ (800000 * ((2 * ((i 1).val : Int) + ((i 0).val : Int)) % 8) + 8000 * (k2_t4.val : Int)) := Affine.addi h_v47 h_v48 (by omega)
  exact Affine.vec_cons h_v49 (by omega) <| Affine.vec_nil
/-- `k2_off8` in closed form. -/
theorem k2_off8_eq (i : grid2.Coords) (k2_t6 : Fin k2_t6_loop.trips) : k2_off8 i k2_t6 = ![800000 * ((2 * (i 1).val + (i 0).val) % 8) + 8000 * k2_t6.val] := by
  have h_c0_i32_25 : Affine.IsInt 0#32 (0) := Affine.ofNat _ (by omega)
  have r_i1 : (i 1).val < 16 := (i 1).isLt
  have h_arg1 : Affine.IsInt (BitVec.ofNat 32 (i 1).val) (((i 1).val : Int)) := Affine.ofNat _ (by omega)
  have h_c2_i32 : Affine.IsInt 2#32 (2) := Affine.ofNat _ (by omega)
  have h_v0 : Affine.IsInt _ (2 * ((i 1).val : Int)) := Affine.muli h_arg1 h_c2_i32 (by omega)
  have r_i0 : (i 0).val < 2 := (i 0).isLt
  have h_arg0 : Affine.IsInt (BitVec.ofNat 32 (i 0).val) (((i 0).val : Int)) := Affine.ofNat _ (by omega)
  have h_v1 : Affine.IsInt _ (2 * ((i 1).val : Int) + ((i 0).val : Int)) := Affine.addi h_v0 h_arg0 (by omega)
  have h_c8_i32_4 : Affine.IsInt 8#32 (8) := Affine.ofNat _ (by omega)
  have h_c0_i32_5 : Affine.IsInt 0#32 (0) := Affine.ofNat _ (by omega)
  have h_v19 : Affine.Fails _ := Affine.eq_fails h_c8_i32_4 h_c0_i32_5 (by omega)
  have h_c1_i32_6 : Affine.IsInt 1#32 (1) := Affine.ofNat _ (by omega)
  have h_v20 : Affine.IsInt _ (8) := Affine.select_fails h_v19 h_c1_i32_6 h_c8_i32_4 (by omega)
  have h_v21 : Affine.IsInt _ (((2 * ((i 1).val : Int) + ((i 0).val : Int)) % 8)) := Affine.remsi h_v1 h_v20 (by omega)
  have h_c0_i32_8 : Affine.IsInt 0#32 (0) := Affine.ofNat _ (by omega)
  have h_v23 : Affine.Fails _ := Affine.slt_fails h_v21 h_c0_i32_8 (by omega)
  have h_c0_i32_9 : Affine.IsInt 0#32 (0) := Affine.ofNat _ (by omega)
  have h_v24 : Affine.Fails _ := Affine.slt_fails h_v20 h_c0_i32_9 (by omega)
  have h_v25 : Affine.Fails _ := Affine.xori_ff h_v23 h_v24
  have h_c0_i32_7 : Affine.IsInt 0#32 (0) := Affine.ofNat _ (by omega)
  have h_v22 : Affine.Term _ := Affine.cmpi_term .ne h_v21 h_c0_i32_7
  have h_v26 : Affine.Fails _ := Affine.andi_fails_left h_v25 h_v22
  have h_v27 : Affine.IsInt _ (((2 * ((i 1).val : Int) + ((i 0).val : Int)) % 8) + 8) := Affine.addi h_v21 h_v20 (by omega)
  have h_v28 : Affine.IsInt _ (((2 * ((i 1).val : Int) + ((i 0).val : Int)) % 8)) := Affine.select_fails h_v26 h_v27 h_v21 (by omega)
  have h_c800000_i32 : Affine.IsInt 800000#32 (800000) := Affine.ofNat _ (by omega)
  have h_v47 : Affine.IsInt _ (800000 * ((2 * ((i 1).val : Int) + ((i 0).val : Int)) % 8)) := Affine.muli h_v28 h_c800000_i32 (by omega)
  have h_c0_i32_22 : Affine.IsInt 0#32 (0) := Affine.ofNat _ (by omega)
  have h_c1_i32_23 : Affine.IsInt 1#32 (1) := Affine.ofNat _ (by omega)
  have r_k2_t6 : k2_t6.val < 100 := Nat.lt_of_lt_of_le k2_t6.isLt k2_t6_abs.2.1
  have h_arg9 : Affine.IsInt _ ((k2_t6.val : Int)) := Affine.iv h_c0_i32_22 h_c1_i32_23 k2_t6.val (by omega)
  have c_arg9 : (k2_t6.val : Int) ≤ 100 - 1 := Affine.iv_lt k2_t6_abs.1 k2_t6.isLt k2_t6_abs.2.2 h_arg9
  have h_c8000_i32 : Affine.IsInt 8000#32 (8000) := Affine.ofNat _ (by omega)
  have h_v48 : Affine.IsInt _ (8000 * (k2_t6.val : Int)) := Affine.muli h_arg9 h_c8000_i32 (by omega)
  have h_v49 : Affine.IsInt _ (800000 * ((2 * ((i 1).val : Int) + ((i 0).val : Int)) % 8) + 8000 * (k2_t6.val : Int)) := Affine.addi h_v47 h_v48 (by omega)
  have h_v50 : Affine.IsInt _ (800000 * ((2 * ((i 1).val : Int) + ((i 0).val : Int)) % 8) + 8000 * (k2_t6.val : Int)) := Affine.addi h_c0_i32_25 h_v49 (by omega)
  exact Affine.vec_cons h_v50 (by omega) <| Affine.vec_nil
/-- `k2_off10` in closed form. -/
theorem k2_off10_eq (i : grid2.Coords) (k2_t8 : Fin k2_t8_loop.trips) : k2_off10 i k2_t8 = ![800000 * ((2 * (i 1).val + (i 0).val) % 8) + 8000 * k2_t8.val + 6400000] := by
  have h_c6400000_i32 : Affine.IsInt 6400000#32 (6400000) := Affine.ofNat _ (by omega)
  have r_i1 : (i 1).val < 16 := (i 1).isLt
  have h_arg1 : Affine.IsInt (BitVec.ofNat 32 (i 1).val) (((i 1).val : Int)) := Affine.ofNat _ (by omega)
  have h_c2_i32 : Affine.IsInt 2#32 (2) := Affine.ofNat _ (by omega)
  have h_v0 : Affine.IsInt _ (2 * ((i 1).val : Int)) := Affine.muli h_arg1 h_c2_i32 (by omega)
  have r_i0 : (i 0).val < 2 := (i 0).isLt
  have h_arg0 : Affine.IsInt (BitVec.ofNat 32 (i 0).val) (((i 0).val : Int)) := Affine.ofNat _ (by omega)
  have h_v1 : Affine.IsInt _ (2 * ((i 1).val : Int) + ((i 0).val : Int)) := Affine.addi h_v0 h_arg0 (by omega)
  have h_c8_i32_4 : Affine.IsInt 8#32 (8) := Affine.ofNat _ (by omega)
  have h_c0_i32_5 : Affine.IsInt 0#32 (0) := Affine.ofNat _ (by omega)
  have h_v19 : Affine.Fails _ := Affine.eq_fails h_c8_i32_4 h_c0_i32_5 (by omega)
  have h_c1_i32_6 : Affine.IsInt 1#32 (1) := Affine.ofNat _ (by omega)
  have h_v20 : Affine.IsInt _ (8) := Affine.select_fails h_v19 h_c1_i32_6 h_c8_i32_4 (by omega)
  have h_v21 : Affine.IsInt _ (((2 * ((i 1).val : Int) + ((i 0).val : Int)) % 8)) := Affine.remsi h_v1 h_v20 (by omega)
  have h_c0_i32_8 : Affine.IsInt 0#32 (0) := Affine.ofNat _ (by omega)
  have h_v23 : Affine.Fails _ := Affine.slt_fails h_v21 h_c0_i32_8 (by omega)
  have h_c0_i32_9 : Affine.IsInt 0#32 (0) := Affine.ofNat _ (by omega)
  have h_v24 : Affine.Fails _ := Affine.slt_fails h_v20 h_c0_i32_9 (by omega)
  have h_v25 : Affine.Fails _ := Affine.xori_ff h_v23 h_v24
  have h_c0_i32_7 : Affine.IsInt 0#32 (0) := Affine.ofNat _ (by omega)
  have h_v22 : Affine.Term _ := Affine.cmpi_term .ne h_v21 h_c0_i32_7
  have h_v26 : Affine.Fails _ := Affine.andi_fails_left h_v25 h_v22
  have h_v27 : Affine.IsInt _ (((2 * ((i 1).val : Int) + ((i 0).val : Int)) % 8) + 8) := Affine.addi h_v21 h_v20 (by omega)
  have h_v28 : Affine.IsInt _ (((2 * ((i 1).val : Int) + ((i 0).val : Int)) % 8)) := Affine.select_fails h_v26 h_v27 h_v21 (by omega)
  have h_c800000_i32 : Affine.IsInt 800000#32 (800000) := Affine.ofNat _ (by omega)
  have h_v47 : Affine.IsInt _ (800000 * ((2 * ((i 1).val : Int) + ((i 0).val : Int)) % 8)) := Affine.muli h_v28 h_c800000_i32 (by omega)
  have h_c0_i32_22 : Affine.IsInt 0#32 (0) := Affine.ofNat _ (by omega)
  have h_c1_i32_23 : Affine.IsInt 1#32 (1) := Affine.ofNat _ (by omega)
  have r_k2_t8 : k2_t8.val < 100 := Nat.lt_of_lt_of_le k2_t8.isLt k2_t8_abs.2.1
  have h_arg9 : Affine.IsInt _ ((k2_t8.val : Int)) := Affine.iv h_c0_i32_22 h_c1_i32_23 k2_t8.val (by omega)
  have c_arg9 : (k2_t8.val : Int) ≤ 100 - 1 := Affine.iv_lt k2_t8_abs.1 k2_t8.isLt k2_t8_abs.2.2 h_arg9
  have h_c8000_i32 : Affine.IsInt 8000#32 (8000) := Affine.ofNat _ (by omega)
  have h_v48 : Affine.IsInt _ (8000 * (k2_t8.val : Int)) := Affine.muli h_arg9 h_c8000_i32 (by omega)
  have h_v49 : Affine.IsInt _ (800000 * ((2 * ((i 1).val : Int) + ((i 0).val : Int)) % 8) + 8000 * (k2_t8.val : Int)) := Affine.addi h_v47 h_v48 (by omega)
  have h_v50 : Affine.IsInt _ (800000 * ((2 * ((i 1).val : Int) + ((i 0).val : Int)) % 8) + 8000 * (k2_t8.val : Int) + 6400000) := Affine.addi h_c6400000_i32 h_v49 (by omega)
  exact Affine.vec_cons h_v50 (by omega) <| Affine.vec_nil

theorem k2_conds (L : grid2.Coords) :
    (k2_cond1 L = 1#1 ↔ widOf L / 8 = 0) ∧ (k2_cond2 L = 1#1 ↔ widOf L / 8 = 1)
      ∧ (k2_cond3 L = 1#1 ↔ widOf L / 8 = 2) ∧ (k2_cond4 L = 1#1 ↔ widOf L / 8 = 3) := by
  revert L; decide +kernel

theorem widOf_lt (L : grid2.Coords) : widOf L < 32 := by
  have h1 : (L 1).val < 16 := (L 1).isLt
  have h0 : (L 0).val < 2 := (L 0).isLt
  unfold widOf; omega

def zfill (fa : S100000.Idx → Elt F .f32) (k : ℕ) : S100000.Idx → Elt F .f32 := fun j => if (j 0).val < 16 * k then fzero else fa j

theorem zfill_step (fa : S100000.Idx → Elt F .f32) (k : Fin k2_t1_loop.trips) :
    (Memref.whole cc2_scratch0 : Memref sig .scVector .vmem S100000 .f32).view.writes (Elt F) (zfill fa k.val)
        [⟨Rect.unit (s := S100000) (k2_off1 k) S16.size (k2_off1_inb k), k2_pay1 (F := F)⟩] = zfill fa (k.val + 1) := by
  funext j
  rw [View.writes_singleton]
  have hoff : k2_off1 k 0 = 16 * k.val := by rw [k2_off1_eq]; rfl
  by_cases hj : j ∈ (Rect.unit (s := S100000) (k2_off1 k) S16.size (k2_off1_inb k)).set
  · obtain ⟨x, rfl⟩ := (Rect.unit (s := S100000) (k2_off1 k) S16.size (k2_off1_inb k)).exists_idx_of_mem hj
    have hm := (Rect.mem_set_unit.mp hj) 0
    have := View.write_emb_of_mem (v := ((Memref.whole cc2_scratch0 : Memref sig .scVector .vmem S100000 .f32).view.slice (Rect.unit (s := S100000) (k2_off1 k) S16.size (k2_off1_inb k))))
      (Val := Elt F) (zfill fa k.val) (k2_pay1 (F := F)) (M := Finset.univ) (x := x) (Finset.mem_univ _)
    refine this.trans ?_
    unfold zfill
    rw [if_pos (by rw [hoff] at hm; have : S16.size 0 = 16 := rfl; omega)]
    rfl
  · have hj' : j ∉ ((Memref.whole cc2_scratch0 : Memref sig .scVector .vmem S100000 .f32).view.slice (Rect.unit (s := S100000) (k2_off1 k) S16.size (k2_off1_inb k))).setOn Finset.univ := by
      rw [View.setOn_univ, View.set_slice]; intro h; exact hj (by simpa using h)
    rw [View.write_of_not_mem _ _ _ hj']
    unfold zfill
    have hm : ¬ (k2_off1 k 0 ≤ (j 0).val ∧ (j 0).val < k2_off1 k 0 + S16.size 0) := by
      intro h; apply hj; rw [Rect.mem_set_unit]; intro a; obtain rfl : a = 0 := Subsingleton.elim _ _; exact h
    rw [hoff] at hm
    have : S16.size 0 = 16 := rfl
    by_cases h1 : (j 0).val < 16 * k.val
    · rw [if_pos h1, if_pos (by omega)]
    · rw [if_neg h1, if_neg (by omega)]

/-! ## Reading the arrays at a position; what a landed block holds; the accumulator's whole-buffer store -/

section Reads
variable (ei : S12800000.Idx → Elt F .i32)

theorem eiN_apply (y : S12800000.Idx) : eiN ei (y 0).val = (ei y).toNat := by
  unfold eiN
  have h : (y 0).val < 12800000 := (y 0).isLt
  rw [dif_pos h]
  exact congrArg (fun z => (ei z).toNat) (eq_ix1 y).symm
theorem fN_apply (t : S6400000.Idx → Elt F .f32) (y : S6400000.Idx) : fN t (y 0).val = t y := by
  unfold fN
  have h : (y 0).val < 6400000 := (y 0).isLt
  rw [dif_pos h]
  exact congrArg t (eq_ix1 y).symm

/-- A landed index block, read at a word: the flat index array at the block's offset plus the word's position. -/
theorem ei_block_word (off : Fin 1 → ℕ) (inb : ∀ a, off a + S8000.size a ≤ S12800000.size a) (fi : S8000.Idx → Elt F .i32) (x : S8000.Idx) :
    ((View.write (Elt F) (Memref.whole cc2_scratch1 : Memref sig .scVector .vmem S8000 .i32).view fi
        (ReadAs.same.apply (View.read (Elt F) ((Memref.whole main_v0_scv : Memref sig .scVector .hbm S12800000 .i32).slice (Rect.unit (s := S12800000) off S8000.size inb) (fun _ => rfl)).view ei))
        Finset.univ) x).toNat = eiN ei (off 0 + (x 0).val) := by
  refine (congrArg BitVec.toNat (congrFun (View.write_whole_univ (Val := Elt F) (cc2_scratch1 : Ref sig .scVector) fi _) x)).trans ?_
  rw [ReadAs.apply_same, View.read_apply, cast_eq, ← eiN_apply]
  congr 1
  show off 0 + 1 * (x 0).val = _
  omega

theorem eiN_lt (hidx : ∀ j, (ei j).toNat < 100000) (n : ℕ) : eiN ei n < 100000 := by
  unfold eiN; split
  · exact hidx _
  · omega

theorem tf_block_word (t : S6400000.Idx → Elt F .f32) (off : Fin 1 → ℕ) (inb : ∀ a, off a + S8000.size a ≤ S6400000.size a) (fv : S8000.Idx → Elt F .f32) (x : S8000.Idx) :
    (View.write (Elt F) (Memref.whole cc2_scratch2 : Memref sig .scVector .vmem S8000 .f32).view fv
        (ReadAs.same.apply (View.read (Elt F) ((Memref.whole main_v9_0_scv : Memref sig .scVector .hbm S6400000 .f32).slice (Rect.unit (s := S6400000) off S8000.size inb) (fun _ => rfl)).view t))
        Finset.univ) x = fN t (off 0 + (x 0).val) := by
  refine (congrFun (View.write_whole_univ (Val := Elt F) (cc2_scratch2 : Ref sig .scVector) fv _) x).trans ?_
  rw [ReadAs.apply_same, View.read_apply, cast_eq, ← fN_apply t]
  congr 1
  show off 0 + 1 * (x 0).val = _
  omega
theorem tb_block_word (t : S6400000.Idx → Elt F .f32) (off : Fin 1 → ℕ) (inb : ∀ a, off a + S8000.size a ≤ S6400000.size a) (fv : S8000.Idx → Elt F .f32) (x : S8000.Idx) :
    (View.write (Elt F) (Memref.whole cc2_scratch2 : Memref sig .scVector .vmem S8000 .f32).view fv
        (ReadAs.same.apply (View.read (Elt F) ((Memref.whole main_v9_1_scv : Memref sig .scVector .hbm S6400000 .f32).slice (Rect.unit (s := S6400000) off S8000.size inb) (fun _ => rfl)).view t))
        Finset.univ) x = fN t (off 0 + (x 0).val) := by
  refine (congrFun (View.write_whole_univ (Val := Elt F) (cc2_scratch2 : Ref sig .scVector) fv _) x).trans ?_
  rw [ReadAs.apply_same, View.read_apply, cast_eq, ← fN_apply t]
  congr 1
  show off 0 + 1 * (x 0).val = _
  omega

/-- The accumulator after its zero fill is the fold over no edges. -/
theorem zfill_full (fa : S100000.Idx → Elt F .f32) (iw : ℕ → ℕ) (vw : ℕ → F .f32) : zfill fa 6250 = accFn iw vw 0 := by
  funext j
  have h : (j 0).val < 100000 := (j 0).isLt
  unfold zfill accFn
  rw [if_pos (by omega)]; rfl
theorem zfill_zero (fa : S100000.Idx → Elt F .f32) : zfill fa 0 = fa := by
  funext j; unfold zfill; rw [if_neg (by omega)]

/-- The indexed store over the whole accumulator, read back. -/
theorem acc_store (f w : S100000.Idx → Elt F .f32) :
    View.write (Elt F) ((Memref.whole cc2_scratch0 : Memref sig .scVector .vmem S100000 .f32).access (Rect.whole S100000)) f w Finset.univ = w :=
  Memref.write_access_whole_univ (Elt F) (cc2_scratch0 : Ref sig .scVector) f w
theorem acc_read (f : S100000.Idx → Elt F .f32) :
    View.read (Elt F) ((Memref.whole cc2_scratch0 : Memref sig .scVector .vmem S100000 .f32).access (Rect.whole S100000)) f = f :=
  Memref.read_access_whole (Elt F) (cc2_scratch0 : Ref sig .scVector) f

end Reads

end Cert.Proof.KI.Sc

end
-- ==== Proof.ScatterTile.lean ====
import proofs.«204254_g40355512713743_retrytranche2_1723_12_alg».proof.Proof.Common
import proofs.«204254_g40355512713743_retrytranche2_1723_12_alg».proof.Proof.ScatterTileSpec
import proofs.«204254_g40355512713743_retrytranche2_1723_12_alg».proof.Proof.ScatterTileOff

noncomputable section

namespace Cert.Proof.KI.Sc

open Cert.Proof.KI
open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 eq_ix1)

variable {F : FTy → Type}

local notation "𝕄" => MT nD τ sig (HIx 2) (Elt F) ℕ UU ℕ

/-! ## The arrays, the tile's thread and its memrefs -/

/-- The flat index array, the two edge-value arrays and the partial-sums array, as locations of device `d`. -/
abbrev eiLoc (d : Dev nD) : Loc nD τ sig := (SparseCore.T d).loc main_v0
abbrev tfLoc (d : Dev nD) : Loc nD τ sig := (SparseCore.T d).loc main_v9_0
abbrev tbLoc (d : Dev nD) : Loc nD τ sig := (SparseCore.T d).loc main_v9_1
abbrev pLoc (d : Dev nD) : Loc nD τ sig := (SparseCore.T d).loc main_v10

abbrev cV (L : grid2.Coords) : Fin τ.nSC := (L 0).castLE hcore2
abbrev jV (L : grid2.Coords) : Fin τ.nSub := (L 1).castLE hsub2

abbrev eiM : Memref sig .scVector .hbm S12800000 .i32 := Memref.whole main_v0_scv
abbrev tfM : Memref sig .scVector .hbm S6400000 .f32 := Memref.whole main_v9_0_scv
abbrev tbM : Memref sig .scVector .hbm S6400000 .f32 := Memref.whole main_v9_1_scv
abbrev pM : Memref sig .scVector .hbm S3200000 .f32 := Memref.whole main_v10_scv
/-- A tile's scratch: the accumulator, the index block, the value block. -/
abbrev accM : Memref sig .scVector .vmem S100000 .f32 := Memref.whole cc2_scratch0
abbrev ibM : Memref sig .scVector .vmem S8000 .i32 := Memref.whole cc2_scratch1
abbrev vbM : Memref sig .scVector .vmem S8000 .f32 := Memref.whole cc2_scratch2

/-- The tile's slice of the partial-sums array, as the program slices it. -/
abbrev outRect (L : grid2.Coords) : Rect S3200000 := Rect.unit (s := S3200000) (k2_off12 L) S100000.size (k2_off12_inb L)
abbrev outM (L : grid2.Coords) : Memref sig .scVector .hbm S100000 .f32 := (pM).slice (outRect L) (fun _ => rfl)
abbrev outSet (L : grid2.Coords) : Finset S3200000.Idx := (outM L).view.set

/-- The read share of the three input arrays a tile is handed: one token of the full share per tile number. -/
abbrev rsh (L : grid2.Coords) : PosShare TreeShare := Transfers.shareTokN fullShare (widOf L)

/-- Grid coordinates from a SparseCore and a subcore number. -/
def coords (c : Fin 2) (i : Fin 16) : grid2.Coords := fun | 0 => c | 1 => i | ⟨_ + 2, h⟩ => absurd h (Nat.not_lt.2 (Nat.le_add_left _ _))

variable [FloatOps F]

/-! ## What one tile is handed and hands back; what one SparseCore is -/

/-- A tile's operands: read shares of the three inputs whole, and its slice of the partial sums at some contents. -/
def go1 (ei : S12800000.Idx → Elt F .i32) (tf tb : S6400000.Idx → Elt F .f32) (d : Dev nD) (L : grid2.Coords) : sProp 𝕄 :=
  iprop((eiLoc d ↦{rsh L} ei) ∗ (tfLoc d ↦{rsh L} tf) ∗ (tbLoc d ↦{rsh L} tb) ∗ ∃ f, pLoc d ↦[outSet L]{fullShare} f)

/-- A tile's results: the same read shares, and its slice of the partial sums at the fold of its chunk's edges. -/
def td1 (ei : S12800000.Idx → Elt F .i32) (tf tb : S6400000.Idx → Elt F .f32) (d : Dev nD) (L : grid2.Coords) : sProp 𝕄 :=
  iprop((eiLoc d ↦{rsh L} ei) ∗ (tfLoc d ↦{rsh L} tf) ∗ (tbLoc d ↦{rsh L} tb) ∗ pLoc d ↦[outSet L]{fullShare} specPart ei tf tb)

instance go1_storable (ei : S12800000.Idx → Elt F .i32) (tf tb : S6400000.Idx → Elt F .f32) (d : Dev nD) (L : grid2.Coords) :
    BI.Storable (upEmb : UEmb _ 𝕄) (go1 ei tf tb d L) := by unfold go1; infer_instance
instance td1_storable (ei : S12800000.Idx → Elt F .i32) (tf tb : S6400000.Idx → Elt F .f32) (d : Dev nD) (L : grid2.Coords) :
    BI.Storable (upEmb : UEmb _ 𝕄) (td1 ei tf tb d L) := by unfold td1; infer_instance

/-- One SparseCore's part: its sixteen tiles'. -/
def st1 (ei : S12800000.Idx → Elt F .i32) (tf tb : S6400000.Idx → Elt F .f32) (d : Dev nD) (c : Fin 2) : sProp 𝕄 :=
  bigSep Finset.univ fun i : Fin 16 => go1 ei tf tb d (coords c i)
def dn1 (ei : S12800000.Idx → Elt F .i32) (tf tb : S6400000.Idx → Elt F .f32) (d : Dev nD) (c : Fin 2) : sProp 𝕄 :=
  bigSep Finset.univ fun i : Fin 16 => td1 ei tf tb d (coords c i)

instance st1_storable (ei : S12800000.Idx → Elt F .i32) (tf tb : S6400000.Idx → Elt F .f32) (d : Dev nD) (c : Fin 2) :
    BI.Storable (upEmb : UEmb _ 𝕄) (st1 ei tf tb d c) := by unfold st1; infer_instance
instance dn1_storable (ei : S12800000.Idx → Elt F .i32) (tf tb : S6400000.Idx → Elt F .f32) (d : Dev nD) (c : Fin 2) :
    BI.Storable (upEmb : UEmb _ 𝕄) (dn1 ei tf tb d c) := by unfold dn1; infer_instance

theorem vecSplit1 (ei : S12800000.Idx → Elt F .i32) (tf tb : S6400000.Idx → Elt F .f32) (d : Dev nD) (c : Fin 2) :
    st1 ei tf tb d c ⊢ |={Set.univ}=> iprop((bigSep Finset.univ fun i : Fin 16 => go1 ei tf tb d (coords c i))
      ∗ ((bigSep Finset.univ fun i : Fin 16 => td1 ei tf tb d (coords c i)) -∗ dn1 ei tf tb d c)) := by
  unfold st1 dn1
  iintro H; imodintro
  isplitl [H]; · iexact H
  iintro H; iexact H

section Tile

variable (ei : S12800000.Idx → Elt F .i32) (tf tb : S6400000.Idx → Elt F .f32) (d : Dev nD) (L : grid2.Coords)

omit [FloatOps F] in
theorem pts_acc_whole (f : S100000.Idx → Elt F .f32) :
    (((accM).access (.whole S100000)).loc (V d (cV L) (jV L)) ↦[((accM).access (.whole S100000)).set]{fullShare} f : sProp 𝕄)
      = (accM.view.loc (V d (cV L) (jV L)) ↦{fullShare} f) := by
  rw [show ((accM).access (.whole S100000)).set = Finset.univ from Memref.set_access_whole (cc2_scratch0 : Ref sig .scVector)]

/-! ### The zero fill -/

def Zinv (fa : S100000.Idx → Elt F .f32) (k : ℕ) (_ : BitVec 32) : sProp 𝕄 := (accM.view.loc (V d (cV L) (jV L)) ↦{fullShare} zfill fa k)

theorem zero_region (fa : S100000.Idx → Elt F .f32) (k : Fin k2_t1_loop.trips) (acc : BitVec 32) :
    Zinv d L fa k acc ⊢ wp frame (wpE (defs₀ (F := F)) 𝒱₀ (V d (cV L) (jV L)) none) Set.univ (k2_t1_body L eiM (Memref.isWhole_whole _) tfM (Memref.isWhole_whole _) tbM (Memref.isWhole_whole _) pM (Memref.isWhole_whole _) accM (Memref.isWhole_whole _) ibM (Memref.isWhole_whole _) vbM (Memref.isWhole_whole _) cc2_scoped0 cc2_scoped1 cc2_scoped2 cc2_scoped3 cc2_scoped4 cc2_scoped5 cc2_scoped6 k acc) (Zinv d L fa (k.val + 1)) := by
  unfold Zinv k2_t1_body
  iintro Hacc
  sl_exec
  rw [wp_ret]; imodintro
  rw [zfill_step]
  iexact Hacc

/-! ### Sixteen edges: one indexed store with add -/

def Iinv (iw : ℕ → ℕ) (vw : ℕ → F .f32) (B : ℕ) (fi : S8000.Idx → Elt F .i32) (fv : S8000.Idx → Elt F .f32) (t : ℕ) (_ : BitVec 32) : sProp 𝕄 :=
  iprop((accM.view.loc (V d (cV L) (jV L)) ↦{fullShare} accFn iw vw (B + 16 * t)) ∗ (ibM.view.loc (V d (cV L) (jV L)) ↦{fullShare} fi) ∗ (vbM.view.loc (V d (cV L) (jV L)) ↦{fullShare} fv))

/-! ### Task 0: sixteen edges, and one block -/

theorem inner1_region (k2_h1 : k2_cond1 L = 1#1) (iw : ℕ → ℕ) (vw : ℕ → F .f32) (B : ℕ) (fi : S8000.Idx → Elt F .i32) (fv : S8000.Idx → Elt F .f32)
    (hlt : ∀ x, (fi x).toNat < 100000) (hfi : ∀ x : S8000.Idx, (fi x).toNat = iw (B + (x 0).val)) (hfv : ∀ x : S8000.Idx, fv x = vw (B + (x 0).val))
    (k : Fin k2_t3_loop.trips) (acc : BitVec 32) :
    Iinv d L iw vw B fi fv k acc ⊢ wp frame (wpE (defs₀ (F := F)) 𝒱₀ (V d (cV L) (jV L)) none) Set.univ (k2_t3_body L eiM (Memref.isWhole_whole _) tfM (Memref.isWhole_whole _) tbM (Memref.isWhole_whole _) pM (Memref.isWhole_whole _) accM (Memref.isWhole_whole _) ibM (Memref.isWhole_whole _) vbM (Memref.isWhole_whole _) cc2_scoped0 cc2_scoped1 cc2_scoped2 cc2_scoped3 cc2_scoped4 cc2_scoped5 cc2_scoped6 k2_h1 k acc) (Iinv d L iw vw B fi fv (k.val + 1)) := by
  unfold Iinv k2_t3_body
  iintro ⟨Hacc, Hib, Hvb⟩
  sl_exec
  have hoff : k2_off4 k 0 = 16 * k.val := by rw [k2_off4_eq]; rfl
  have hlt' : ∀ x : S16.Idx, ((View.readAt (Elt F) ibM.view (Rect.unit (s := S8000) (k2_off4 k) S16.size (k2_off4_inb L k k2_h1)).toLoadRect fi) x).toNat < 100000 := by
    intro x
    simp only [View.readAt_apply, Memref.view_whole, View.read_whole]
    exact hlt _
  have hchk : k2_chk1 L (View.readAt (Elt F) ibM.view (Rect.unit (s := S8000) (k2_off4 k) S16.size (k2_off4_inb L k k2_h1)).toLoadRect fi) := by
    intro _ a x
    obtain rfl : a = 0 := Subsingleton.elim _ _
    exact hlt' x
  have hiv : ∀ x : S16.Idx, ((View.readAt (Elt F) ibM.view (Rect.unit (s := S8000) (k2_off4 k) S16.size (k2_off4_inb L k k2_h1)).toLoadRect fi) x).toNat = iw (B + 16 * k.val + (x 0).val) := by
    intro x
    simp only [View.readAt_apply, Memref.view_whole, View.read_whole]
    rw [hfi]; congr 1
    show B + (k2_off4 k 0 + 1 * (x 0).val) = _
    rw [hoff]; omega
  have hv : ∀ x : S16.Idx, (View.readAt (Elt F) vbM.view (Rect.unit (s := S8000) (k2_off4 k) S16.size (k2_off4_inb L k k2_h1)).toLoadRect fv) x = vw (B + 16 * k.val + (x 0).val) := by
    intro x
    simp only [View.readAt_apply, Memref.view_whole, View.read_whole]
    rw [hfv]; congr 1
    show B + (k2_off4 k 0 + 1 * (x 0).val) = _
    rw [hoff]; omega
  rw [wp_assume_of _ _ _ _ hchk]
  ihave Hacc' := (Entails.of_eq (pts_acc_whole (F := F) d L _).symm) $$ Hacc
  iapply (SparseCore.wp_vectorStoreIdx 𝒱₀ (V d (cV L) (jV L)) none Set.univ (base := accM)) $$ Hacc'; iintro Hacc
  rw [acc_store, acc_read, storeIdx_accFn iw vw (B + 16 * k.val) _ _ _ hiv hv]
  ihave Hacc' := (Entails.of_eq (pts_acc_whole (F := F) d L _)) $$ Hacc
  have e : B + 16 * (k.val + 1) = B + 16 * k.val + 16 := by omega
  rw [e]
  sl_step
  isplitl [Hacc']; · iexact Hacc'
  isplitl [Hib]; · iexact Hib
  iexact Hvb

def Binv1 (O : CellTallies nD τ sig (HIx 2)) (W : Waits sig (HIx 2)) (b : ℕ) (_ : BitVec 32) : sProp 𝕄 :=
  iprop(Transfers.MayWaits (V d (cV L) (jV L)) (none : HIx 2) O ∗ (eiM.view.loc (V d (cV L) (jV L)) ↦{rsh L} ei) ∗ (tfM.view.loc (V d (cV L) (jV L)) ↦{rsh L} tf)
    ∗ (accM.view.loc (V d (cV L) (jV L)) ↦{fullShare} accFn (iwOf ei (widOf L)) (vwOf tf tb (widOf L)) (8000 * b))
    ∗ (∃ fi, ibM.view.loc (V d (cV L) (jV L)) ↦{fullShare} fi) ∗ (∃ fv, vbM.view.loc (V d (cV L) (jV L)) ↦{fullShare} fv)
    ∗ semVal ((V d (cV L) (jV L)), SemLoc.dma cc2_scoped0.sem) 0 ∗ semVal ((V d (cV L) (jV L)), SemLoc.dma cc2_scoped1.sem) 0
    ∗ ∃ W', ⌜∀ p ∈ W', p ∈ W ∨ p.2 = none⌝ ∗ owes (V d (cV L) (jV L)) O W')

theorem blk1_region (k2_h1 : k2_cond1 L = 1#1) (hk : widOf L / 8 = 0) (hidx : ∀ j, (ei j).toNat < 100000)
    (O : CellTallies nD τ sig (HIx 2)) (W : Waits sig (HIx 2)) (k : Fin k2_t2_loop.trips) (acc : BitVec 32) :
    Binv1 ei tf tb d L O W k acc ⊢ wp frame (wpE (defs₀ (F := F)) 𝒱₀ (V d (cV L) (jV L)) none) Set.univ (k2_t2_body L eiM (Memref.isWhole_whole _) tfM (Memref.isWhole_whole _) tbM (Memref.isWhole_whole _) pM (Memref.isWhole_whole _) accM (Memref.isWhole_whole _) ibM (Memref.isWhole_whole _) vbM (Memref.isWhole_whole _) cc2_scoped0 cc2_scoped1 cc2_scoped2 cc2_scoped3 cc2_scoped4 cc2_scoped5 cc2_scoped6 k2_h1 k acc) (Binv1 ei tf tb d L O W (k.val + 1)) := by
  unfold Binv1 k2_t2_body
  iintro ⟨#Hmw, Hei, Htf, Hacc, ⟨%fi, Hib⟩, ⟨%fv, Hvb⟩, Hs0, Hs1, %W', %hW', HO⟩
  sl_exec
  generalize hfi' : View.write (Elt F) ibM.view fi _ Finset.univ = fi'
  generalize hfv' : View.write (Elt F) vbM.view fv _ Finset.univ = fv'
  have hib : idxBase (widOf L) = 800000 * (widOf L % 8) := by unfold idxBase; rw [hk]; simp
  have hfi : ∀ x : S8000.Idx, (fi' x).toNat = (iwOf ei (widOf L)) (8000 * k.val + (x 0).val) := by
    intro x
    rw [← hfi']
    sl_unfold_run_names
    rw [ei_block_word]
    unfold iwOf
    rw [hib, k2_off2_eq]
    congr 1
    show 800000 * ((2 * (L 1).val + (L 0).val) % 8) + 8000 * k.val + (x 0).val = _
    unfold widOf; omega
  have hlt : ∀ x : S8000.Idx, (fi' x).toNat < 100000 := by
    intro x; rw [hfi]; exact eiN_lt ei hidx _
  have hfv : ∀ x : S8000.Idx, fv' x = (vwOf tf tb (widOf L)) (8000 * k.val + (x 0).val) := by
    intro x
    rw [← hfv']
    sl_unfold_run_names
    rw [tf_block_word]
    unfold vwOf valBase
    rw [if_pos hk, k2_off3_eq]
    congr 1
    show 800000 * ((2 * (L 1).val + (L 0).val) % 8) + 8000 * k.val + (x 0).val = _
    unfold widOf; omega
  sl_for (Iinv d L (iwOf ei (widOf L)) (vwOf tf tb (widOf L)) (8000 * k.val) fi' fv') $$ [Hacc Hib Hvb]
  case region => exact inner1_region d L k2_h1 (iwOf ei (widOf L)) (vwOf tf tb (widOf L)) (8000 * k.val) fi' fv' hlt hfi hfv
  · unfold Iinv
    rw [Nat.mul_zero, Nat.add_zero]
    isplitl [Hacc]; · iexact Hacc
    isplitl [Hib]; · iexact Hib
    iexact Hvb
  iintro %acc' HI
  unfold Iinv
  icases HI with ⟨Hacc, Hib, Hvb⟩
  rw [show Scf.trips k2_t3_loop.lb k2_t3_loop.ub k2_t3_loop.st = 500 from by decide]
  rw [show 8000 * k.val + 16 * 500 = 8000 * (k.val + 1) from by omega]
  sl_exec
  rw [wp_ret]; imodintro
  isplitr; · iexact Hmw
  isplitl [Hei]; · iexact Hei
  isplitl [Htf]; · iexact Htf
  isplitl [Hacc]; · iexact Hacc
  isplitl [Hib]; · iexists _; iexact Hib
  isplitl [Hvb]; · iexists _; iexact Hvb
  isplitl [Hs0]; · iexact Hs0
  isplitl [Hs1]; · iexact Hs1
  iexists (insert (SemLoc.dma cc2_scoped1.sem, (default : HIx 2)) (insert (SemLoc.dma cc2_scoped0.sem, (default : HIx 2)) W')); isplitr
  · ipureintro; intro p hp
    rcases Finset.mem_insert.mp hp with hp | hp
    · exact .inr (hp ▸ rfl)
    rcases Finset.mem_insert.mp hp with hp | hp
    · exact .inr (hp ▸ rfl)
    · exact hW' p hp
  · iexact HO

/-! ### Task 1: sixteen edges, and one block -/

theorem inner2_region (k2_h2 : k2_cond2 L = 1#1) (iw : ℕ → ℕ) (vw : ℕ → F .f32) (B : ℕ) (fi : S8000.Idx → Elt F .i32) (fv : S8000.Idx → Elt F .f32)
    (hlt : ∀ x, (fi x).toNat < 100000) (hfi : ∀ x : S8000.Idx, (fi x).toNat = iw (B + (x 0).val)) (hfv : ∀ x : S8000.Idx, fv x = vw (B + (x 0).val))
    (k : Fin k2_t5_loop.trips) (acc : BitVec 32) :
    Iinv d L iw vw B fi fv k acc ⊢ wp frame (wpE (defs₀ (F := F)) 𝒱₀ (V d (cV L) (jV L)) none) Set.univ (k2_t5_body L eiM (Memref.isWhole_whole _) tfM (Memref.isWhole_whole _) tbM (Memref.isWhole_whole _) pM (Memref.isWhole_whole _) accM (Memref.isWhole_whole _) ibM (Memref.isWhole_whole _) vbM (Memref.isWhole_whole _) cc2_scoped0 cc2_scoped1 cc2_scoped2 cc2_scoped3 cc2_scoped4 cc2_scoped5 cc2_scoped6 k2_h2 k acc) (Iinv d L iw vw B fi fv (k.val + 1)) := by
  unfold Iinv k2_t5_body
  iintro ⟨Hacc, Hib, Hvb⟩
  sl_exec
  have hoff : k2_off7 k 0 = 16 * k.val := by rw [k2_off7_eq]; rfl
  have hlt' : ∀ x : S16.Idx, ((View.readAt (Elt F) ibM.view (Rect.unit (s := S8000) (k2_off7 k) S16.size (k2_off7_inb L k k2_h2)).toLoadRect fi) x).toNat < 100000 := by
    intro x
    simp only [View.readAt_apply, Memref.view_whole, View.read_whole]
    exact hlt _
  have hchk : k2_chk2 L (View.readAt (Elt F) ibM.view (Rect.unit (s := S8000) (k2_off7 k) S16.size (k2_off7_inb L k k2_h2)).toLoadRect fi) := by
    intro _ a x
    obtain rfl : a = 0 := Subsingleton.elim _ _
    exact hlt' x
  have hiv : ∀ x : S16.Idx, ((View.readAt (Elt F) ibM.view (Rect.unit (s := S8000) (k2_off7 k) S16.size (k2_off7_inb L k k2_h2)).toLoadRect fi) x).toNat = iw (B + 16 * k.val + (x 0).val) := by
    intro x
    simp only [View.readAt_apply, Memref.view_whole, View.read_whole]
    rw [hfi]; congr 1
    show B + (k2_off7 k 0 + 1 * (x 0).val) = _
    rw [hoff]; omega
  have hv : ∀ x : S16.Idx, (View.readAt (Elt F) vbM.view (Rect.unit (s := S8000) (k2_off7 k) S16.size (k2_off7_inb L k k2_h2)).toLoadRect fv) x = vw (B + 16 * k.val + (x 0).val) := by
    intro x
    simp only [View.readAt_apply, Memref.view_whole, View.read_whole]
    rw [hfv]; congr 1
    show B + (k2_off7 k 0 + 1 * (x 0).val) = _
    rw [hoff]; omega
  rw [wp_assume_of _ _ _ _ hchk]
  ihave Hacc' := (Entails.of_eq (pts_acc_whole (F := F) d L _).symm) $$ Hacc
  iapply (SparseCore.wp_vectorStoreIdx 𝒱₀ (V d (cV L) (jV L)) none Set.univ (base := accM)) $$ Hacc'; iintro Hacc
  rw [acc_store, acc_read, storeIdx_accFn iw vw (B + 16 * k.val) _ _ _ hiv hv]
  ihave Hacc' := (Entails.of_eq (pts_acc_whole (F := F) d L _)) $$ Hacc
  have e : B + 16 * (k.val + 1) = B + 16 * k.val + 16 := by omega
  rw [e]
  sl_step
  isplitl [Hacc']; · iexact Hacc'
  isplitl [Hib]; · iexact Hib
  iexact Hvb

def Binv2 (O : CellTallies nD τ sig (HIx 2)) (W : Waits sig (HIx 2)) (b : ℕ) (_ : BitVec 32) : sProp 𝕄 :=
  iprop(Transfers.MayWaits (V d (cV L) (jV L)) (none : HIx 2) O ∗ (eiM.view.loc (V d (cV L) (jV L)) ↦{rsh L} ei) ∗ (tbM.view.loc (V d (cV L) (jV L)) ↦{rsh L} tb)
    ∗ (accM.view.loc (V d (cV L) (jV L)) ↦{fullShare} accFn (iwOf ei (widOf L)) (vwOf tf tb (widOf L)) (8000 * b))
    ∗ (∃ fi, ibM.view.loc (V d (cV L) (jV L)) ↦{fullShare} fi) ∗ (∃ fv, vbM.view.loc (V d (cV L) (jV L)) ↦{fullShare} fv)
    ∗ semVal ((V d (cV L) (jV L)), SemLoc.dma cc2_scoped2.sem) 0 ∗ semVal ((V d (cV L) (jV L)), SemLoc.dma cc2_scoped3.sem) 0
    ∗ ∃ W', ⌜∀ p ∈ W', p ∈ W ∨ p.2 = none⌝ ∗ owes (V d (cV L) (jV L)) O W')

theorem blk2_region (k2_h2 : k2_cond2 L = 1#1) (hk : widOf L / 8 = 1) (hidx : ∀ j, (ei j).toNat < 100000)
    (O : CellTallies nD τ sig (HIx 2)) (W : Waits sig (HIx 2)) (k : Fin k2_t4_loop.trips) (acc : BitVec 32) :
    Binv2 ei tf tb d L O W k acc ⊢ wp frame (wpE (defs₀ (F := F)) 𝒱₀ (V d (cV L) (jV L)) none) Set.univ (k2_t4_body L eiM (Memref.isWhole_whole _) tfM (Memref.isWhole_whole _) tbM (Memref.isWhole_whole _) pM (Memref.isWhole_whole _) accM (Memref.isWhole_whole _) ibM (Memref.isWhole_whole _) vbM (Memref.isWhole_whole _) cc2_scoped0 cc2_scoped1 cc2_scoped2 cc2_scoped3 cc2_scoped4 cc2_scoped5 cc2_scoped6 k2_h2 k acc) (Binv2 ei tf tb d L O W (k.val + 1)) := by
  unfold Binv2 k2_t4_body
  iintro ⟨#Hmw, Hei, Htf, Hacc, ⟨%fi, Hib⟩, ⟨%fv, Hvb⟩, Hs0, Hs1, %W', %hW', HO⟩
  sl_exec
  generalize hfi' : View.write (Elt F) ibM.view fi _ Finset.univ = fi'
  generalize hfv' : View.write (Elt F) vbM.view fv _ Finset.univ = fv'
  have hib : idxBase (widOf L) = 6400000 + 800000 * (widOf L % 8) := by unfold idxBase; rw [hk]; simp
  have hfi : ∀ x : S8000.Idx, (fi' x).toNat = (iwOf ei (widOf L)) (8000 * k.val + (x 0).val) := by
    intro x
    rw [← hfi']
    sl_unfold_run_names
    rw [ei_block_word]
    unfold iwOf
    rw [hib, k2_off5_eq]
    congr 1
    show 800000 * ((2 * (L 1).val + (L 0).val) % 8) + 8000 * k.val + 6400000 + (x 0).val = _
    unfold widOf; omega
  have hlt : ∀ x : S8000.Idx, (fi' x).toNat < 100000 := by
    intro x; rw [hfi]; exact eiN_lt ei hidx _
  have hfv : ∀ x : S8000.Idx, fv' x = (vwOf tf tb (widOf L)) (8000 * k.val + (x 0).val) := by
    intro x
    rw [← hfv']
    sl_unfold_run_names
    rw [tb_block_word]
    unfold vwOf valBase
    rw [if_neg (by omega), if_pos hk, k2_off6_eq]
    congr 1
    show 800000 * ((2 * (L 1).val + (L 0).val) % 8) + 8000 * k.val + (x 0).val = _
    unfold widOf; omega
  sl_for (Iinv d L (iwOf ei (widOf L)) (vwOf tf tb (widOf L)) (8000 * k.val) fi' fv') $$ [Hacc Hib Hvb]
  case region => exact inner2_region d L k2_h2 (iwOf ei (widOf L)) (vwOf tf tb (widOf L)) (8000 * k.val) fi' fv' hlt hfi hfv
  · unfold Iinv
    rw [Nat.mul_zero, Nat.add_zero]
    isplitl [Hacc]; · iexact Hacc
    isplitl [Hib]; · iexact Hib
    iexact Hvb
  iintro %acc' HI
  unfold Iinv
  icases HI with ⟨Hacc, Hib, Hvb⟩
  rw [show Scf.trips k2_t5_loop.lb k2_t5_loop.ub k2_t5_loop.st = 500 from by decide]
  rw [show 8000 * k.val + 16 * 500 = 8000 * (k.val + 1) from by omega]
  sl_exec
  rw [wp_ret]; imodintro
  isplitr; · iexact Hmw
  isplitl [Hei]; · iexact Hei
  isplitl [Htf]; · iexact Htf
  isplitl [Hacc]; · iexact Hacc
  isplitl [Hib]; · iexists _; iexact Hib
  isplitl [Hvb]; · iexists _; iexact Hvb
  isplitl [Hs0]; · iexact Hs0
  isplitl [Hs1]; · iexact Hs1
  iexists (insert (SemLoc.dma cc2_scoped3.sem, (default : HIx 2)) (insert (SemLoc.dma cc2_scoped2.sem, (default : HIx 2)) W')); isplitr
  · ipureintro; intro p hp
    rcases Finset.mem_insert.mp hp with hp | hp
    · exact .inr (hp ▸ rfl)
    rcases Finset.mem_insert.mp hp with hp | hp
    · exact .inr (hp ▸ rfl)
    · exact hW' p hp
  · iexact HO

/-! ### Task 2: sixteen edges, and one block -/

theorem inner3_region (k2_h3 : k2_cond3 L = 1#1) (v31 : FVec F S16 .f32) (hv31 : ∀ x, v31 x = fone) (iw : ℕ → ℕ) (vw : ℕ → F .f32) (B : ℕ) (fi : S8000.Idx → Elt F .i32) (fv : S8000.Idx → Elt F .f32)
    (hlt : ∀ x, (fi x).toNat < 100000) (hfi : ∀ x : S8000.Idx, (fi x).toNat = iw (B + (x 0).val)) (hvw : ∀ e, vw e = fone)
    (k : Fin k2_t7_loop.trips) (acc : BitVec 32) :
    Iinv d L iw vw B fi fv k acc ⊢ wp frame (wpE (defs₀ (F := F)) 𝒱₀ (V d (cV L) (jV L)) none) Set.univ (k2_t7_body L eiM (Memref.isWhole_whole _) tfM (Memref.isWhole_whole _) tbM (Memref.isWhole_whole _) pM (Memref.isWhole_whole _) accM (Memref.isWhole_whole _) ibM (Memref.isWhole_whole _) vbM (Memref.isWhole_whole _) cc2_scoped0 cc2_scoped1 cc2_scoped2 cc2_scoped3 cc2_scoped4 cc2_scoped5 cc2_scoped6 v31 k2_h3 k acc) (Iinv d L iw vw B fi fv (k.val + 1)) := by
  unfold Iinv k2_t7_body
  iintro ⟨Hacc, Hib, Hvb⟩
  sl_exec
  have hoff : k2_off9 k 0 = 16 * k.val := by rw [k2_off9_eq]; rfl
  have hlt' : ∀ x : S16.Idx, ((View.readAt (Elt F) ibM.view (Rect.unit (s := S8000) (k2_off9 k) S16.size (k2_off9_inb L k k2_h3)).toLoadRect fi) x).toNat < 100000 := by
    intro x
    simp only [View.readAt_apply, Memref.view_whole, View.read_whole]
    exact hlt _
  have hchk : k2_chk3 L (View.readAt (Elt F) ibM.view (Rect.unit (s := S8000) (k2_off9 k) S16.size (k2_off9_inb L k k2_h3)).toLoadRect fi) := by
    intro _ a x
    obtain rfl : a = 0 := Subsingleton.elim _ _
    exact hlt' x
  have hiv : ∀ x : S16.Idx, ((View.readAt (Elt F) ibM.view (Rect.unit (s := S8000) (k2_off9 k) S16.size (k2_off9_inb L k k2_h3)).toLoadRect fi) x).toNat = iw (B + 16 * k.val + (x 0).val) := by
    intro x
    simp only [View.readAt_apply, Memref.view_whole, View.read_whole]
    rw [hfi]; congr 1
    show B + (k2_off9 k 0 + 1 * (x 0).val) = _
    rw [hoff]; omega
  have hv : ∀ x : S16.Idx, v31 x = vw (B + 16 * k.val + (x 0).val) := fun x => (hv31 x).trans (hvw _).symm
  rw [wp_assume_of _ _ _ _ hchk]
  ihave Hacc' := (Entails.of_eq (pts_acc_whole (F := F) d L _).symm) $$ Hacc
  iapply (SparseCore.wp_vectorStoreIdx 𝒱₀ (V d (cV L) (jV L)) none Set.univ (base := accM)) $$ Hacc'; iintro Hacc
  rw [acc_store, acc_read, storeIdx_accFn iw vw (B + 16 * k.val) _ _ _ hiv hv]
  ihave Hacc' := (Entails.of_eq (pts_acc_whole (F := F) d L _)) $$ Hacc
  have e : B + 16 * (k.val + 1) = B + 16 * k.val + 16 := by omega
  rw [e]
  sl_step
  isplitl [Hacc']; · iexact Hacc'
  isplitl [Hib]; · iexact Hib
  iexact Hvb

def Binv3 (O : CellTallies nD τ sig (HIx 2)) (W : Waits sig (HIx 2)) (b : ℕ) (_ : BitVec 32) : sProp 𝕄 :=
  iprop(Transfers.MayWaits (V d (cV L) (jV L)) (none : HIx 2) O ∗ (eiM.view.loc (V d (cV L) (jV L)) ↦{rsh L} ei)
    ∗ (accM.view.loc (V d (cV L) (jV L)) ↦{fullShare} accFn (iwOf ei (widOf L)) (vwOf tf tb (widOf L)) (8000 * b))
    ∗ (∃ fi, ibM.view.loc (V d (cV L) (jV L)) ↦{fullShare} fi) ∗ (∃ fv, vbM.view.loc (V d (cV L) (jV L)) ↦{fullShare} fv)
    ∗ semVal ((V d (cV L) (jV L)), SemLoc.dma cc2_scoped4.sem) 0
    ∗ ∃ W', ⌜∀ p ∈ W', p ∈ W ∨ p.2 = none⌝ ∗ owes (V d (cV L) (jV L)) O W')

theorem blk3_region (k2_h3 : k2_cond3 L = 1#1) (v31 : FVec F S16 .f32) (hv31 : ∀ x, v31 x = fone) (hk : widOf L / 8 = 2) (hidx : ∀ j, (ei j).toNat < 100000)
    (O : CellTallies nD τ sig (HIx 2)) (W : Waits sig (HIx 2)) (k : Fin k2_t6_loop.trips) (acc : BitVec 32) :
    Binv3 ei tf tb d L O W k acc ⊢ wp frame (wpE (defs₀ (F := F)) 𝒱₀ (V d (cV L) (jV L)) none) Set.univ (k2_t6_body L eiM (Memref.isWhole_whole _) tfM (Memref.isWhole_whole _) tbM (Memref.isWhole_whole _) pM (Memref.isWhole_whole _) accM (Memref.isWhole_whole _) ibM (Memref.isWhole_whole _) vbM (Memref.isWhole_whole _) cc2_scoped0 cc2_scoped1 cc2_scoped2 cc2_scoped3 cc2_scoped4 cc2_scoped5 cc2_scoped6 v31 k2_h3 k acc) (Binv3 ei tf tb d L O W (k.val + 1)) := by
  unfold Binv3 k2_t6_body
  iintro ⟨#Hmw, Hei, Hacc, ⟨%fi, Hib⟩, ⟨%fv, Hvb⟩, Hs0, %W', %hW', HO⟩
  sl_exec
  generalize hfi' : View.write (Elt F) ibM.view fi _ Finset.univ = fi'

  have hib : idxBase (widOf L) = 800000 * (widOf L % 8) := by unfold idxBase; rw [hk]; simp
  have hfi : ∀ x : S8000.Idx, (fi' x).toNat = (iwOf ei (widOf L)) (8000 * k.val + (x 0).val) := by
    intro x
    rw [← hfi']
    sl_unfold_run_names
    rw [ei_block_word]
    unfold iwOf
    rw [hib, k2_off8_eq]
    congr 1
    show 800000 * ((2 * (L 1).val + (L 0).val) % 8) + 8000 * k.val + (x 0).val = _
    unfold widOf; omega
  have hlt : ∀ x : S8000.Idx, (fi' x).toNat < 100000 := by
    intro x; rw [hfi]; exact eiN_lt ei hidx _
  have hvw : ∀ e, (vwOf tf tb (widOf L)) e = fone := by
    intro e; unfold vwOf; rw [if_neg (by omega), if_neg (by omega)]
  sl_for (Iinv d L (iwOf ei (widOf L)) (vwOf tf tb (widOf L)) (8000 * k.val) fi' fv) $$ [Hacc Hib Hvb]
  case region => exact inner3_region d L k2_h3 v31 hv31 (iwOf ei (widOf L)) (vwOf tf tb (widOf L)) (8000 * k.val) fi' fv hlt hfi hvw
  · unfold Iinv
    rw [Nat.mul_zero, Nat.add_zero]
    isplitl [Hacc]; · iexact Hacc
    isplitl [Hib]; · iexact Hib
    iexact Hvb
  iintro %acc' HI
  unfold Iinv
  icases HI with ⟨Hacc, Hib, Hvb⟩
  rw [show Scf.trips k2_t7_loop.lb k2_t7_loop.ub k2_t7_loop.st = 500 from by decide]
  rw [show 8000 * k.val + 16 * 500 = 8000 * (k.val + 1) from by omega]
  sl_exec
  rw [wp_ret]; imodintro
  isplitr; · iexact Hmw
  isplitl [Hei]; · iexact Hei
  isplitl [Hacc]; · iexact Hacc
  isplitl [Hib]; · iexists _; iexact Hib
  isplitl [Hvb]; · iexists _; iexact Hvb
  isplitl [Hs0]; · iexact Hs0
  iexists (insert (SemLoc.dma cc2_scoped4.sem, (default : HIx 2)) W'); isplitr
  · ipureintro; intro p hp
    rcases Finset.mem_insert.mp hp with hp | hp
    · exact .inr (hp ▸ rfl)
    · exact hW' p hp
  · iexact HO

/-! ### Task 3: sixteen edges, and one block -/

theorem inner4_region (k2_h4 : k2_cond4 L = 1#1) (v31 : FVec F S16 .f32) (hv31 : ∀ x, v31 x = fone) (iw : ℕ → ℕ) (vw : ℕ → F .f32) (B : ℕ) (fi : S8000.Idx → Elt F .i32) (fv : S8000.Idx → Elt F .f32)
    (hlt : ∀ x, (fi x).toNat < 100000) (hfi : ∀ x : S8000.Idx, (fi x).toNat = iw (B + (x 0).val)) (hvw : ∀ e, vw e = fone)
    (k : Fin k2_t9_loop.trips) (acc : BitVec 32) :
    Iinv d L iw vw B fi fv k acc ⊢ wp frame (wpE (defs₀ (F := F)) 𝒱₀ (V d (cV L) (jV L)) none) Set.univ (k2_t9_body L eiM (Memref.isWhole_whole _) tfM (Memref.isWhole_whole _) tbM (Memref.isWhole_whole _) pM (Memref.isWhole_whole _) accM (Memref.isWhole_whole _) ibM (Memref.isWhole_whole _) vbM (Memref.isWhole_whole _) cc2_scoped0 cc2_scoped1 cc2_scoped2 cc2_scoped3 cc2_scoped4 cc2_scoped5 cc2_scoped6 v31 k2_h4 k acc) (Iinv d L iw vw B fi fv (k.val + 1)) := by
  unfold Iinv k2_t9_body
  iintro ⟨Hacc, Hib, Hvb⟩
  sl_exec
  have hoff : k2_off11 k 0 = 16 * k.val := by rw [k2_off11_eq]; rfl
  have hlt' : ∀ x : S16.Idx, ((View.readAt (Elt F) ibM.view (Rect.unit (s := S8000) (k2_off11 k) S16.size (k2_off11_inb L k k2_h4)).toLoadRect fi) x).toNat < 100000 := by
    intro x
    simp only [View.readAt_apply, Memref.view_whole, View.read_whole]
    exact hlt _
  have hchk : k2_chk4 L (View.readAt (Elt F) ibM.view (Rect.unit (s := S8000) (k2_off11 k) S16.size (k2_off11_inb L k k2_h4)).toLoadRect fi) := by
    intro _ a x
    obtain rfl : a = 0 := Subsingleton.elim _ _
    exact hlt' x
  have hiv : ∀ x : S16.Idx, ((View.readAt (Elt F) ibM.view (Rect.unit (s := S8000) (k2_off11 k) S16.size (k2_off11_inb L k k2_h4)).toLoadRect fi) x).toNat = iw (B + 16 * k.val + (x 0).val) := by
    intro x
    simp only [View.readAt_apply, Memref.view_whole, View.read_whole]
    rw [hfi]; congr 1
    show B + (k2_off11 k 0 + 1 * (x 0).val) = _
    rw [hoff]; omega
  have hv : ∀ x : S16.Idx, v31 x = vw (B + 16 * k.val + (x 0).val) := fun x => (hv31 x).trans (hvw _).symm
  rw [wp_assume_of _ _ _ _ hchk]
  ihave Hacc' := (Entails.of_eq (pts_acc_whole (F := F) d L _).symm) $$ Hacc
  iapply (SparseCore.wp_vectorStoreIdx 𝒱₀ (V d (cV L) (jV L)) none Set.univ (base := accM)) $$ Hacc'; iintro Hacc
  rw [acc_store, acc_read, storeIdx_accFn iw vw (B + 16 * k.val) _ _ _ hiv hv]
  ihave Hacc' := (Entails.of_eq (pts_acc_whole (F := F) d L _)) $$ Hacc
  have e : B + 16 * (k.val + 1) = B + 16 * k.val + 16 := by omega
  rw [e]
  sl_step
  isplitl [Hacc']; · iexact Hacc'
  isplitl [Hib]; · iexact Hib
  iexact Hvb

def Binv4 (O : CellTallies nD τ sig (HIx 2)) (W : Waits sig (HIx 2)) (b : ℕ) (_ : BitVec 32) : sProp 𝕄 :=
  iprop(Transfers.MayWaits (V d (cV L) (jV L)) (none : HIx 2) O ∗ (eiM.view.loc (V d (cV L) (jV L)) ↦{rsh L} ei)
    ∗ (accM.view.loc (V d (cV L) (jV L)) ↦{fullShare} accFn (iwOf ei (widOf L)) (vwOf tf tb (widOf L)) (8000 * b))
    ∗ (∃ fi, ibM.view.loc (V d (cV L) (jV L)) ↦{fullShare} fi) ∗ (∃ fv, vbM.view.loc (V d (cV L) (jV L)) ↦{fullShare} fv)
    ∗ semVal ((V d (cV L) (jV L)), SemLoc.dma cc2_scoped5.sem) 0
    ∗ ∃ W', ⌜∀ p ∈ W', p ∈ W ∨ p.2 = none⌝ ∗ owes (V d (cV L) (jV L)) O W')

theorem blk4_region (k2_h4 : k2_cond4 L = 1#1) (v31 : FVec F S16 .f32) (hv31 : ∀ x, v31 x = fone) (hk : widOf L / 8 = 3) (hidx : ∀ j, (ei j).toNat < 100000)
    (O : CellTallies nD τ sig (HIx 2)) (W : Waits sig (HIx 2)) (k : Fin k2_t8_loop.trips) (acc : BitVec 32) :
    Binv4 ei tf tb d L O W k acc ⊢ wp frame (wpE (defs₀ (F := F)) 𝒱₀ (V d (cV L) (jV L)) none) Set.univ (k2_t8_body L eiM (Memref.isWhole_whole _) tfM (Memref.isWhole_whole _) tbM (Memref.isWhole_whole _) pM (Memref.isWhole_whole _) accM (Memref.isWhole_whole _) ibM (Memref.isWhole_whole _) vbM (Memref.isWhole_whole _) cc2_scoped0 cc2_scoped1 cc2_scoped2 cc2_scoped3 cc2_scoped4 cc2_scoped5 cc2_scoped6 v31 k2_h4 k acc) (Binv4 ei tf tb d L O W (k.val + 1)) := by
  unfold Binv4 k2_t8_body
  iintro ⟨#Hmw, Hei, Hacc, ⟨%fi, Hib⟩, ⟨%fv, Hvb⟩, Hs0, %W', %hW', HO⟩
  sl_exec
  generalize hfi' : View.write (Elt F) ibM.view fi _ Finset.univ = fi'

  have hib : idxBase (widOf L) = 6400000 + 800000 * (widOf L % 8) := by unfold idxBase; rw [hk]; simp
  have hfi : ∀ x : S8000.Idx, (fi' x).toNat = (iwOf ei (widOf L)) (8000 * k.val + (x 0).val) := by
    intro x
    rw [← hfi']
    sl_unfold_run_names
    rw [ei_block_word]
    unfold iwOf
    rw [hib, k2_off10_eq]
    congr 1
    show 800000 * ((2 * (L 1).val + (L 0).val) % 8) + 8000 * k.val + 6400000 + (x 0).val = _
    unfold widOf; omega
  have hlt : ∀ x : S8000.Idx, (fi' x).toNat < 100000 := by
    intro x; rw [hfi]; exact eiN_lt ei hidx _
  have hvw : ∀ e, (vwOf tf tb (widOf L)) e = fone := by
    intro e; unfold vwOf; rw [if_neg (by omega), if_neg (by omega)]
  sl_for (Iinv d L (iwOf ei (widOf L)) (vwOf tf tb (widOf L)) (8000 * k.val) fi' fv) $$ [Hacc Hib Hvb]
  case region => exact inner4_region d L k2_h4 v31 hv31 (iwOf ei (widOf L)) (vwOf tf tb (widOf L)) (8000 * k.val) fi' fv hlt hfi hvw
  · unfold Iinv
    rw [Nat.mul_zero, Nat.add_zero]
    isplitl [Hacc]; · iexact Hacc
    isplitl [Hib]; · iexact Hib
    iexact Hvb
  iintro %acc' HI
  unfold Iinv
  icases HI with ⟨Hacc, Hib, Hvb⟩
  rw [show Scf.trips k2_t9_loop.lb k2_t9_loop.ub k2_t9_loop.st = 500 from by decide]
  rw [show 8000 * k.val + 16 * 500 = 8000 * (k.val + 1) from by omega]
  sl_exec
  rw [wp_ret]; imodintro
  isplitr; · iexact Hmw
  isplitl [Hei]; · iexact Hei
  isplitl [Hacc]; · iexact Hacc
  isplitl [Hib]; · iexists _; iexact Hib
  isplitl [Hvb]; · iexists _; iexact Hvb
  isplitl [Hs0]; · iexact Hs0
  iexists (insert (SemLoc.dma cc2_scoped5.sem, (default : HIx 2)) W'); isplitr
  · ipureintro; intro p hp
    rcases Finset.mem_insert.mp hp with hp | hp
    · exact .inr (hp ▸ rfl)
    · exact hW' p hp
  · iexact HO

omit [FloatOps F] in
theorem cell_ne (d : Dev nD) (L : grid2.Coords) {a b : DmaSem sig} (h : a ≠ b) :
    ((V d (cV L) (jV L), SemLoc.dma a) : GSem nD τ sig) ≠ (V d (cV L) (jV L), SemLoc.dma b) :=
  fun e => h (SemLoc.dma.inj (Prod.mk.inj e).2)

omit [FloatOps F] in
/-- The seven transfer semaphores of the call are among the tile's own: they are them, at zero, and the rest. -/
theorem ownSems0_V1 (d : Dev nD) (L : grid2.Coords) :
    (ownSems0 (V d (cV L) (jV L)) : sProp 𝕄)
      = iprop(semVal ((V d (cV L) (jV L), SemLoc.dma cc2_scoped0.sem) : GSem nD τ sig) 0 ∗ semVal ((V d (cV L) (jV L), SemLoc.dma cc2_scoped1.sem) : GSem nD τ sig) 0 ∗ semVal ((V d (cV L) (jV L), SemLoc.dma cc2_scoped2.sem) : GSem nD τ sig) 0 ∗ semVal ((V d (cV L) (jV L), SemLoc.dma cc2_scoped3.sem) : GSem nD τ sig) 0 ∗ semVal ((V d (cV L) (jV L), SemLoc.dma cc2_scoped4.sem) : GSem nD τ sig) 0 ∗ semVal ((V d (cV L) (jV L), SemLoc.dma cc2_scoped5.sem) : GSem nD τ sig) 0 ∗ semVal ((V d (cV L) (jV L), SemLoc.dma cc2_scoped6.sem) : GSem nD τ sig) 0
          ∗ bigSep ((((((((ownCells (V d (cV L) (jV L))).erase ((V d (cV L) (jV L), SemLoc.dma cc2_scoped0.sem) : GSem nD τ sig)).erase ((V d (cV L) (jV L), SemLoc.dma cc2_scoped1.sem) : GSem nD τ sig)).erase ((V d (cV L) (jV L), SemLoc.dma cc2_scoped2.sem) : GSem nD τ sig)).erase ((V d (cV L) (jV L), SemLoc.dma cc2_scoped3.sem) : GSem nD τ sig)).erase ((V d (cV L) (jV L), SemLoc.dma cc2_scoped4.sem) : GSem nD τ sig)).erase ((V d (cV L) (jV L), SemLoc.dma cc2_scoped5.sem) : GSem nD τ sig)).erase ((V d (cV L) (jV L), SemLoc.dma cc2_scoped6.sem) : GSem nD τ sig)) fun g => semVal g 0) := by
  unfold SparseCore.Cfg.ownSems0
  rw [SparseCore.bigSep_erase' ((mem_ownCells (g := ((V d (cV L) (jV L), SemLoc.dma cc2_scoped0.sem) : GSem nD τ sig))).mpr ⟨rfl, by show (SemLoc.dma cc2_scoped0.sem : SemLoc sig).isScoped .scVector = true; decide⟩),
    SparseCore.bigSep_erase' (Finset.mem_erase.mpr ⟨cell_ne d L (show (cc2_scoped1.sem : DmaSem sig) ≠ cc2_scoped0.sem by decide), (mem_ownCells (g := ((V d (cV L) (jV L), SemLoc.dma cc2_scoped1.sem) : GSem nD τ sig))).mpr ⟨rfl, by show (SemLoc.dma cc2_scoped1.sem : SemLoc sig).isScoped .scVector = true; decide⟩⟩),
    SparseCore.bigSep_erase' (Finset.mem_erase.mpr ⟨cell_ne d L (show (cc2_scoped2.sem : DmaSem sig) ≠ cc2_scoped1.sem by decide), Finset.mem_erase.mpr ⟨cell_ne d L (show (cc2_scoped2.sem : DmaSem sig) ≠ cc2_scoped0.sem by decide), (mem_ownCells (g := ((V d (cV L) (jV L), SemLoc.dma cc2_scoped2.sem) : GSem nD τ sig))).mpr ⟨rfl, by show (SemLoc.dma cc2_scoped2.sem : SemLoc sig).isScoped .scVector = true; decide⟩⟩⟩),
    SparseCore.bigSep_erase' (Finset.mem_erase.mpr ⟨cell_ne d L (show (cc2_scoped3.sem : DmaSem sig) ≠ cc2_scoped2.sem by decide), Finset.mem_erase.mpr ⟨cell_ne d L (show (cc2_scoped3.sem : DmaSem sig) ≠ cc2_scoped1.sem by decide), Finset.mem_erase.mpr ⟨cell_ne d L (show (cc2_scoped3.sem : DmaSem sig) ≠ cc2_scoped0.sem by decide), (mem_ownCells (g := ((V d (cV L) (jV L), SemLoc.dma cc2_scoped3.sem) : GSem nD τ sig))).mpr ⟨rfl, by show (SemLoc.dma cc2_scoped3.sem : SemLoc sig).isScoped .scVector = true; decide⟩⟩⟩⟩),
    SparseCore.bigSep_erase' (Finset.mem_erase.mpr ⟨cell_ne d L (show (cc2_scoped4.sem : DmaSem sig) ≠ cc2_scoped3.sem by decide), Finset.mem_erase.mpr ⟨cell_ne d L (show (cc2_scoped4.sem : DmaSem sig) ≠ cc2_scoped2.sem by decide), Finset.mem_erase.mpr ⟨cell_ne d L (show (cc2_scoped4.sem : DmaSem sig) ≠ cc2_scoped1.sem by decide), Finset.mem_erase.mpr ⟨cell_ne d L (show (cc2_scoped4.sem : DmaSem sig) ≠ cc2_scoped0.sem by decide), (mem_ownCells (g := ((V d (cV L) (jV L), SemLoc.dma cc2_scoped4.sem) : GSem nD τ sig))).mpr ⟨rfl, by show (SemLoc.dma cc2_scoped4.sem : SemLoc sig).isScoped .scVector = true; decide⟩⟩⟩⟩⟩),
    SparseCore.bigSep_erase' (Finset.mem_erase.mpr ⟨cell_ne d L (show (cc2_scoped5.sem : DmaSem sig) ≠ cc2_scoped4.sem by decide), Finset.mem_erase.mpr ⟨cell_ne d L (show (cc2_scoped5.sem : DmaSem sig) ≠ cc2_scoped3.sem by decide), Finset.mem_erase.mpr ⟨cell_ne d L (show (cc2_scoped5.sem : DmaSem sig) ≠ cc2_scoped2.sem by decide), Finset.mem_erase.mpr ⟨cell_ne d L (show (cc2_scoped5.sem : DmaSem sig) ≠ cc2_scoped1.sem by decide), Finset.mem_erase.mpr ⟨cell_ne d L (show (cc2_scoped5.sem : DmaSem sig) ≠ cc2_scoped0.sem by decide), (mem_ownCells (g := ((V d (cV L) (jV L), SemLoc.dma cc2_scoped5.sem) : GSem nD τ sig))).mpr ⟨rfl, by show (SemLoc.dma cc2_scoped5.sem : SemLoc sig).isScoped .scVector = true; decide⟩⟩⟩⟩⟩⟩),
    SparseCore.bigSep_erase' (Finset.mem_erase.mpr ⟨cell_ne d L (show (cc2_scoped6.sem : DmaSem sig) ≠ cc2_scoped5.sem by decide), Finset.mem_erase.mpr ⟨cell_ne d L (show (cc2_scoped6.sem : DmaSem sig) ≠ cc2_scoped4.sem by decide), Finset.mem_erase.mpr ⟨cell_ne d L (show (cc2_scoped6.sem : DmaSem sig) ≠ cc2_scoped3.sem by decide), Finset.mem_erase.mpr ⟨cell_ne d L (show (cc2_scoped6.sem : DmaSem sig) ≠ cc2_scoped2.sem by decide), Finset.mem_erase.mpr ⟨cell_ne d L (show (cc2_scoped6.sem : DmaSem sig) ≠ cc2_scoped1.sem by decide), Finset.mem_erase.mpr ⟨cell_ne d L (show (cc2_scoped6.sem : DmaSem sig) ≠ cc2_scoped0.sem by decide), (mem_ownCells (g := ((V d (cV L) (jV L), SemLoc.dma cc2_scoped6.sem) : GSem nD τ sig))).mpr ⟨rfl, by show (SemLoc.dma cc2_scoped6.sem : SemLoc sig).isScoped .scVector = true; decide⟩⟩⟩⟩⟩⟩⟩)]

omit [FloatOps F] in
/-- The three scratch buffers of the call are among the tile's own: they are them, at some contents, and the rest. -/
theorem ownBufs_V1 (d : Dev nD) (L : grid2.Coords) :
    (ownBufs (V d (cV L) (jV L)) : sProp 𝕄)
      = iprop((∃ f, (V d (cV L) (jV L)).loc cc2_scratch0 ↦{fullShare} f) ∗ (∃ f, (V d (cV L) (jV L)).loc cc2_scratch1 ↦{fullShare} f)
          ∗ (∃ f, (V d (cV L) (jV L)).loc cc2_scratch2 ↦{fullShare} f)
          ∗ bigSep ((((ownRefs (τ := τ) (.scVector (cV L) (jV L))).erase ((Proc.scVector (cV L) (jV L)).devRef cc2_scratch0)).erase ((Proc.scVector (cV L) (jV L)).devRef cc2_scratch1)).erase ((Proc.scVector (cV L) (jV L)).devRef cc2_scratch2))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := ((Proc.scVector (cV L) (jV L)).devRef cc2_scratch0)) rfl),
    SparseCore.bigSep_erase' (Finset.mem_erase.mpr ⟨fun e => absurd (Proc.devRef_injective _ e) (show (cc2_scratch1 : Ref sig .scVector) ≠ cc2_scratch0 by decide), SparseCore.Cfg.mem_ownRefs_of_owner (p := Proc.scVector (cV L) (jV L)) (b := ((Proc.scVector (cV L) (jV L)).devRef cc2_scratch1)) rfl⟩),
    SparseCore.bigSep_erase' (Finset.mem_erase.mpr ⟨fun e => absurd (Proc.devRef_injective _ e) (show (cc2_scratch2 : Ref sig .scVector) ≠ cc2_scratch1 by decide), Finset.mem_erase.mpr ⟨fun e => absurd (Proc.devRef_injective _ e) (show (cc2_scratch2 : Ref sig .scVector) ≠ cc2_scratch0 by decide), SparseCore.Cfg.mem_ownRefs_of_owner (p := Proc.scVector (cV L) (jV L)) (b := ((Proc.scVector (cV L) (jV L)).devRef cc2_scratch2)) rfl⟩⟩)]

end Tile

/-! ## The write-out, and the tile's task whole -/

section Body

attribute [local irreducible] accAt

variable (ei : S12800000.Idx → Elt F .i32) (tf tb : S6400000.Idx → Elt F .f32) (d : Dev nD) (L : grid2.Coords)

omit [FloatOps F] in
/-- A slice of the partial-sums array written whole from the accumulator, read at a word of the slice: the accumulator's word;
    and where the word sits in the array. -/
theorem out_word (off : Fin 1 → ℕ) (inb : ∀ a, off a + S100000.size a ≤ S3200000.size a) (fo : S3200000.Idx → Elt F .f32)
    (g : S100000.Idx → Elt F .f32) (x : S100000.Idx) :
    ((pM).slice (Rect.unit (s := S3200000) off S100000.size inb) (fun _ => rfl)).view.writes (Elt F) fo
        [⟨Rect.whole S100000, ReadAs.same.apply (View.read (Elt F) accM.view g)⟩]
        (((pM).slice (Rect.unit (s := S3200000) off S100000.size inb) (fun _ => rfl)).view.emb x) = g x := by
  rw [View.writes_singleton]
  have he : ((((pM).slice (Rect.unit (s := S3200000) off S100000.size inb) (fun _ => rfl)).view).slice (Rect.whole S100000)).emb x
      = ((pM).slice (Rect.unit (s := S3200000) off S100000.size inb) (fun _ => rfl)).view.emb x := by
    show ((pM).slice (Rect.unit (s := S3200000) off S100000.size inb) (fun _ => rfl)).view.emb ((Rect.whole S100000).emb x) = _
    rw [Rect.emb_whole_apply]
  rw [← he, View.write_emb_of_mem _ _ (Finset.mem_univ x), cast_eq, ReadAs.apply_same]
  rfl

omit [FloatOps F] in
theorem out_emb (off : Fin 1 → ℕ) (inb : ∀ a, off a + S100000.size a ≤ S3200000.size a) (x : S100000.Idx) :
    ((((pM).slice (Rect.unit (s := S3200000) off S100000.size inb) (fun _ => rfl)).view.emb x) 0).val = off 0 + (x 0).val := by
  show off 0 + 1 * (x 0).val = _
  omega

omit [FloatOps F] in
theorem off12_wid : k2_off12 L 0 = 100000 * widOf L := by
  rw [k2_off12_eq]
  show 200000 * (L 1).val + 100000 * (L 0).val = _
  unfold widOf; omega

/-- The write-out: the tile's slice of the partial sums, holding the accumulator, is the fold of the tile's chunk. -/
theorem out_spec (fo : S3200000.Idx → Elt F .f32) (K : ℕ) (hK : K = 800000) (i : S3200000.Idx) (hi : i ∈ (outM L).view.set) :
    (outM L).view.writes (Elt F) fo [⟨Rect.whole S100000, ReadAs.same.apply (View.read (Elt F) accM.view (accFn (iwOf ei (widOf L)) (vwOf tf tb (widOf L)) K))⟩] i
      = specPart ei tf tb i := by
  obtain ⟨x, -, rfl⟩ := Finset.mem_map.mp hi
  have hx : (x 0).val < 100000 := (x 0).isLt
  have hp := out_emb (k2_off12 L) (k2_off12_inb L) x
  rw [off12_wid] at hp
  rw [out_word]
  unfold accFn specPart
  rw [hp, show (100000 * widOf L + (x 0).val) / 100000 = widOf L by omega, show (100000 * widOf L + (x 0).val) % 100000 = (x 0).val by omega, hK]
/-! ### The tile's task -/

set_option maxHeartbeats 16000000 in
theorem tile_body1 (hF : (K (F := F)).Facts) (hidx : ∀ j, (ei j).toNat < 100000)
    (O : CellTallies nD τ sig (HIx 2)) (W : Waits sig (HIx 2)) (hO : ∀ g, O g none = 0) :
    iprop(levAts (K (F := F)).L (K (F := F)).lev ∗ go1 ei tf tb d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc2__sc_scatter_body L eiM (Memref.isWhole_whole _) tfM (Memref.isWhole_whole _) tbM (Memref.isWhole_whole _) pM (Memref.isWhole_whole _) accM (Memref.isWhole_whole _) ibM (Memref.isWhole_whole _) vbM (Memref.isWhole_whole _) cc2_scoped0 cc2_scoped1 cc2_scoped2 cc2_scoped3 cc2_scoped4 cc2_scoped5 cc2_scoped6)
          fun _ => iprop(td1 ei tf tb d L ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc2__sc_scatter_body_eq_skeleton]; unfold cc2__sc_scatter_body_skel
  simp only [k2_part1_eq_skeleton]; unfold k2_part1_skel
  rw [(K (F := F)).scopedBufs_V hF d (cV L) (jV L), SparseCore.Cfg.scopedSems0_V (Val := Elt F) d (cV L) (jV L), ownSems0_V1, ownBufs_V1]
  unfold go1 td1
  iintro ⟨#Hlv, ⟨Hei, Htf, Htb, %fo, Hout⟩, ⟨⟨%fa, Hacc⟩, ⟨%fi, Hib⟩, ⟨%fv, Hvb⟩, Hbufs⟩, ⟨Hs0, Hs1, Hs2, Hs3, Hs4, Hs5, Hs6, Hsems⟩, HO⟩
  ihave Hmw := ((K (F := F)).mayWaits_none (thr := (V d (cV L) (jV L))) hO) $$ Hlv
  ihave Hei := (Entails.of_eq (show (eiLoc d ↦{rsh L} ei : sProp 𝕄) = (eiM.view.loc (V d (cV L) (jV L)) ↦{rsh L} ei) from rfl)) $$ Hei
  ihave Htf := (Entails.of_eq (show (tfLoc d ↦{rsh L} tf : sProp 𝕄) = (tfM.view.loc (V d (cV L) (jV L)) ↦{rsh L} tf) from rfl)) $$ Htf
  ihave Htb := (Entails.of_eq (show (tbLoc d ↦{rsh L} tb : sProp 𝕄) = (tbM.view.loc (V d (cV L) (jV L)) ↦{rsh L} tb) from rfl)) $$ Htb
  ihave Hacc := (Entails.of_eq (show (((V d (cV L) (jV L))).loc cc2_scratch0 ↦{fullShare} fa : sProp 𝕄) = (accM.view.loc (V d (cV L) (jV L)) ↦{fullShare} fa) from rfl)) $$ Hacc
  ihave Hib := (Entails.of_eq (show (((V d (cV L) (jV L))).loc cc2_scratch1 ↦{fullShare} fi : sProp 𝕄) = (ibM.view.loc (V d (cV L) (jV L)) ↦{fullShare} fi) from rfl)) $$ Hib
  ihave Hvb := (Entails.of_eq (show (((V d (cV L) (jV L))).loc cc2_scratch2 ↦{fullShare} fv : sProp 𝕄) = (vbM.view.loc (V d (cV L) (jV L)) ↦{fullShare} fv) from rfl)) $$ Hvb
  ihave Hout := (Entails.of_eq (show (pLoc d ↦[outSet L]{fullShare} fo : sProp 𝕄) = ((outM L).view.loc (V d (cV L) (jV L)) ↦[(outM L).view.set]{fullShare} fo) from rfl)) $$ Hout
  sl_exec
  rw [wp_bind]
  sl_for (Zinv d L fa) $$ [Hacc]
  case region => exact zero_region d L fa
  · unfold Zinv; rw [zfill_zero]; iexact Hacc
  iintro %acc0 Hacc
  unfold Zinv
  rw [show Scf.trips k2_t1_loop.lb k2_t1_loop.ub k2_t1_loop.st = 6250 from by decide, zfill_full fa (iwOf ei (widOf L)) (vwOf tf tb (widOf L))]
  obtain ⟨c1, c2, c3, c4⟩ := k2_conds L
  have hw := widOf_lt L
  rcases (show widOf L / 8 = 0 ∨ widOf L / 8 = 1 ∨ widOf L / 8 = 2 ∨ widOf L / 8 = 3 by omega) with hk | hk | hk | hk
  · -- task 0
    have k2_h1 : k2_cond1 L = 1#1 := c1.mpr hk
    have k2_h2 : ¬ k2_cond2 L = 1#1 := fun h => by have := c2.mp h; omega
    have k2_h3 : ¬ k2_cond3 L = 1#1 := fun h => by have := c3.mp h; omega
    have k2_h4 : ¬ k2_cond4 L = 1#1 := fun h => by have := c4.mp h; omega
    sl_exec
    sl_for (Binv1 ei tf tb d L O W) $$ [Hmw Hei Htf Hacc Hib Hvb Hs0 Hs1 HO]
    case region => exact blk1_region ei tf tb d L k2_h1 hk hidx O W
    · unfold Binv1
      rw [Nat.mul_zero]
      isplitr; · iexact Hmw
      isplitl [Hei]; · iexact Hei
      isplitl [Htf]; · iexact Htf
      isplitl [Hacc]; · iexact Hacc
      isplitl [Hib]; · iexists _; iexact Hib
      isplitl [Hvb]; · iexists _; iexact Hvb
      isplitl [Hs0]; · iexact Hs0
      isplitl [Hs1]; · iexact Hs1
      iexists W; isplitr
      · ipureintro; exact fun p hp => .inl hp
      · iexact HO
    iintro %acc1 HI
    unfold Binv1
    icases HI with ⟨-, Hei, Htf, Hacc, ⟨%fi', Hib⟩, ⟨%fv', Hvb⟩, Hs0, Hs1, %W', %hW', HO⟩
    rw [show 8000 * Scf.trips k2_t2_loop.lb k2_t2_loop.ub k2_t2_loop.st = 800000 from by decide]
    sl_exec
    rw [wp_ret]; imodintro
    sl_unfold_run_names
    ihave Hout := (Entails.of_eq (pointsTo_congr (ℓ := (outM L).view.loc (V d (cV L) (jV L))) (I := (outM L).view.set) (fun i hi => out_spec ei tf tb L fo 800000 rfl i hi))) $$ Hout
    isplitl [Hei Htf Htb Hout]
    · isplitl [Hei]; · iexact Hei
      isplitl [Htf]; · iexact Htf
      isplitl [Htb]; · iexact Htb
      iexact Hout
    isplitl [Hacc Hib Hvb Hbufs]
    · isplitl [Hacc]; · iexists _; iexact Hacc
      isplitl [Hib]; · iexists _; iexact Hib
      isplitl [Hvb]; · iexists _; iexact Hvb
      iexact Hbufs
    isplitl [Hs0 Hs1 Hs2 Hs3 Hs4 Hs5 Hs6 Hsems]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      iexact Hsems
    iexists (insert (SemLoc.dma cc2_scoped6.sem, (default : HIx 2)) W'); isplitr
    · ipureintro; intro p hp
      rcases Finset.mem_insert.mp hp with hp | hp
      · exact .inr (hp ▸ rfl)
      · exact hW' p hp
    · iexact HO
  · -- task 1
    have k2_h1 : ¬ k2_cond1 L = 1#1 := fun h => by have := c1.mp h; omega
    have k2_h2 : k2_cond2 L = 1#1 := c2.mpr hk
    have k2_h3 : ¬ k2_cond3 L = 1#1 := fun h => by have := c3.mp h; omega
    have k2_h4 : ¬ k2_cond4 L = 1#1 := fun h => by have := c4.mp h; omega
    sl_exec
    sl_for (Binv2 ei tf tb d L O W) $$ [Hmw Hei Htb Hacc Hib Hvb Hs2 Hs3 HO]
    case region => exact blk2_region ei tf tb d L k2_h2 hk hidx O W
    · unfold Binv2
      rw [Nat.mul_zero]
      isplitr; · iexact Hmw
      isplitl [Hei]; · iexact Hei
      isplitl [Htb]; · iexact Htb
      isplitl [Hacc]; · iexact Hacc
      isplitl [Hib]; · iexists _; iexact Hib
      isplitl [Hvb]; · iexists _; iexact Hvb
      isplitl [Hs2]; · iexact Hs2
      isplitl [Hs3]; · iexact Hs3
      iexists W; isplitr
      · ipureintro; exact fun p hp => .inl hp
      · iexact HO
    iintro %acc1 HI
    unfold Binv2
    icases HI with ⟨-, Hei, Htb, Hacc, ⟨%fi', Hib⟩, ⟨%fv', Hvb⟩, Hs2, Hs3, %W', %hW', HO⟩
    rw [show 8000 * Scf.trips k2_t4_loop.lb k2_t4_loop.ub k2_t4_loop.st = 800000 from by decide]
    sl_exec
    rw [wp_ret]; imodintro
    sl_unfold_run_names
    ihave Hout := (Entails.of_eq (pointsTo_congr (ℓ := (outM L).view.loc (V d (cV L) (jV L))) (I := (outM L).view.set) (fun i hi => out_spec ei tf tb L fo 800000 rfl i hi))) $$ Hout
    isplitl [Hei Htf Htb Hout]
    · isplitl [Hei]; · iexact Hei
      isplitl [Htf]; · iexact Htf
      isplitl [Htb]; · iexact Htb
      iexact Hout
    isplitl [Hacc Hib Hvb Hbufs]
    · isplitl [Hacc]; · iexists _; iexact Hacc
      isplitl [Hib]; · iexists _; iexact Hib
      isplitl [Hvb]; · iexists _; iexact Hvb
      iexact Hbufs
    isplitl [Hs0 Hs1 Hs2 Hs3 Hs4 Hs5 Hs6 Hsems]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      iexact Hsems
    iexists (insert (SemLoc.dma cc2_scoped6.sem, (default : HIx 2)) W'); isplitr
    · ipureintro; intro p hp
      rcases Finset.mem_insert.mp hp with hp | hp
      · exact .inr (hp ▸ rfl)
      · exact hW' p hp
    · iexact HO
  · -- task 2
    have k2_h1 : ¬ k2_cond1 L = 1#1 := fun h => by have := c1.mp h; omega
    have k2_h2 : ¬ k2_cond2 L = 1#1 := fun h => by have := c2.mp h; omega
    have k2_h3 : k2_cond3 L = 1#1 := c3.mpr hk
    have k2_h4 : ¬ k2_cond4 L = 1#1 := fun h => by have := c4.mp h; omega
    sl_exec
    sl_for (Binv3 ei tf tb d L O W) $$ [Hmw Hei Hacc Hib Hvb Hs4 HO]
    case region => exact blk3_region ei tf tb d L k2_h3 (k2_pay2 (F := F)) (fun _ => rfl) hk hidx O W
    · unfold Binv3
      rw [Nat.mul_zero]
      isplitr; · iexact Hmw
      isplitl [Hei]; · iexact Hei
      isplitl [Hacc]; · iexact Hacc
      isplitl [Hib]; · iexists _; iexact Hib
      isplitl [Hvb]; · iexists _; iexact Hvb
      isplitl [Hs4]; · iexact Hs4
      iexists W; isplitr
      · ipureintro; exact fun p hp => .inl hp
      · iexact HO
    iintro %acc1 HI
    unfold Binv3
    icases HI with ⟨-, Hei, Hacc, ⟨%fi', Hib⟩, ⟨%fv', Hvb⟩, Hs4, %W', %hW', HO⟩
    rw [show 8000 * Scf.trips k2_t6_loop.lb k2_t6_loop.ub k2_t6_loop.st = 800000 from by decide]
    sl_exec
    rw [wp_ret]; imodintro
    sl_unfold_run_names
    ihave Hout := (Entails.of_eq (pointsTo_congr (ℓ := (outM L).view.loc (V d (cV L) (jV L))) (I := (outM L).view.set) (fun i hi => out_spec ei tf tb L fo 800000 rfl i hi))) $$ Hout
    isplitl [Hei Htf Htb Hout]
    · isplitl [Hei]; · iexact Hei
      isplitl [Htf]; · iexact Htf
      isplitl [Htb]; · iexact Htb
      iexact Hout
    isplitl [Hacc Hib Hvb Hbufs]
    · isplitl [Hacc]; · iexists _; iexact Hacc
      isplitl [Hib]; · iexists _; iexact Hib
      isplitl [Hvb]; · iexists _; iexact Hvb
      iexact Hbufs
    isplitl [Hs0 Hs1 Hs2 Hs3 Hs4 Hs5 Hs6 Hsems]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      iexact Hsems
    iexists (insert (SemLoc.dma cc2_scoped6.sem, (default : HIx 2)) W'); isplitr
    · ipureintro; intro p hp
      rcases Finset.mem_insert.mp hp with hp | hp
      · exact .inr (hp ▸ rfl)
      · exact hW' p hp
    · iexact HO
  · -- task 3
    have k2_h1 : ¬ k2_cond1 L = 1#1 := fun h => by have := c1.mp h; omega
    have k2_h2 : ¬ k2_cond2 L = 1#1 := fun h => by have := c2.mp h; omega
    have k2_h3 : ¬ k2_cond3 L = 1#1 := fun h => by have := c3.mp h; omega
    have k2_h4 : k2_cond4 L = 1#1 := c4.mpr hk
    sl_exec
    sl_for (Binv4 ei tf tb d L O W) $$ [Hmw Hei Hacc Hib Hvb Hs5 HO]
    case region => exact blk4_region ei tf tb d L k2_h4 (k2_pay2 (F := F)) (fun _ => rfl) hk hidx O W
    · unfold Binv4
      rw [Nat.mul_zero]
      isplitr; · iexact Hmw
      isplitl [Hei]; · iexact Hei
      isplitl [Hacc]; · iexact Hacc
      isplitl [Hib]; · iexists _; iexact Hib
      isplitl [Hvb]; · iexists _; iexact Hvb
      isplitl [Hs5]; · iexact Hs5
      iexists W; isplitr
      · ipureintro; exact fun p hp => .inl hp
      · iexact HO
    iintro %acc1 HI
    unfold Binv4
    icases HI with ⟨-, Hei, Hacc, ⟨%fi', Hib⟩, ⟨%fv', Hvb⟩, Hs5, %W', %hW', HO⟩
    rw [show 8000 * Scf.trips k2_t8_loop.lb k2_t8_loop.ub k2_t8_loop.st = 800000 from by decide]
    sl_exec
    rw [wp_ret]; imodintro
    sl_unfold_run_names
    ihave Hout := (Entails.of_eq (pointsTo_congr (ℓ := (outM L).view.loc (V d (cV L) (jV L))) (I := (outM L).view.set) (fun i hi => out_spec ei tf tb L fo 800000 rfl i hi))) $$ Hout
    isplitl [Hei Htf Htb Hout]
    · isplitl [Hei]; · iexact Hei
      isplitl [Htf]; · iexact Htf
      isplitl [Htb]; · iexact Htb
      iexact Hout
    isplitl [Hacc Hib Hvb Hbufs]
    · isplitl [Hacc]; · iexists _; iexact Hacc
      isplitl [Hib]; · iexists _; iexact Hib
      isplitl [Hvb]; · iexists _; iexact Hvb
      iexact Hbufs
    isplitl [Hs0 Hs1 Hs2 Hs3 Hs4 Hs5 Hs6 Hsems]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      iexact Hsems
    iexists (insert (SemLoc.dma cc2_scoped6.sem, (default : HIx 2)) W'); isplitr
    · ipureintro; intro p hp
      rcases Finset.mem_insert.mp hp with hp | hp
      · exact .inr (hp ▸ rfl)
      · exact hW' p hp
    · iexact HO

end Body

/-! ## The call's operands split among the 32 tiles, and gathered back -/

section Split

variable (ei : S12800000.Idx → Elt F .i32) (tf tb : S6400000.Idx → Elt F .f32) (d : Dev nD)

/-- What the TensorCore keeps of the three inputs across the call: the share left after the 32 read tokens. -/
def rem1 : sProp 𝕄 :=
  iprop((eiLoc d ↦{Transfers.shareDrop fullShare 32} ei) ∗ (tfLoc d ↦{Transfers.shareDrop fullShare 32} tf)
    ∗ (tbLoc d ↦{Transfers.shareDrop fullShare 32} tb))

/-- The tile number of SparseCore `p.1`'s subcore `p.2`. -/
def widP (p : Fin 2 × Fin 16) : ℕ := 2 * p.2.val + p.1.val

omit [FloatOps F] in
theorem range32 : Finset.range 32 = (Finset.univ : Finset (Fin 2 × Fin 16)).image widP := by decide

omit [FloatOps F] in
theorem widP_inj : Set.InjOn widP (↑(Finset.univ : Finset (Fin 2 × Fin 16))) := by
  intro p _ q _ h
  unfold widP at h
  have h1 := p.1.isLt; have h2 := q.1.isLt
  exact Prod.ext (Fin.ext (by omega)) (Fin.ext (by omega))

omit [FloatOps F] in
/-- The full share of an array is the remainder and one read token per tile. -/
theorem shares_split {ℓ : Loc nD τ sig} (f : Buf (Elt F) ℓ) :
    (ℓ ↦{fullShare} f : sProp 𝕄) ⊣⊢ iprop((ℓ ↦{Transfers.shareDrop fullShare 32} f)
      ∗ bigSep Finset.univ (fun p : Fin 2 × Fin 16 => ℓ ↦{Transfers.shareTokN fullShare (widP p)} f)) := by
  have h := Transfers.pointsTo_toks_range (Lvl := ℕ) (U := UU) (Name := ℕ) (Ix := HIx 2) (ℓ := ℓ) (S := Finset.univ) (f := f) fullShare 32
  rw [range32, bigSep_image_of_injOn widP_inj] at h
  exact h

abbrev outSetP (p : Fin 2 × Fin 16) : Finset S3200000.Idx := outSet (coords p.1 p.2)

omit [FloatOps F] in
theorem outSet_eq (L : grid2.Coords) : outSet L = (outRect L).set := View.set_slice_whole _ _

omit [FloatOps F] in
theorem off12_coords (p : Fin 2 × Fin 16) : k2_off12 (coords p.1 p.2) 0 = 100000 * widP p := by
  rw [k2_off12_eq]
  show 200000 * p.2.val + 100000 * p.1.val = _
  unfold widP; omega

omit [FloatOps F] in
theorem outSet_disjoint : ∀ p ∈ (Finset.univ : Finset (Fin 2 × Fin 16)), ∀ q ∈ (Finset.univ : Finset (Fin 2 × Fin 16)), p ≠ q → Disjoint (outSetP p) (outSetP q) := by
  intro p hp q hq hpq
  have hne : widP p ≠ widP q := fun h => hpq (widP_inj (Finset.mem_coe.mpr hp) (Finset.mem_coe.mpr hq) h)
  show Disjoint (outSet (coords p.1 p.2)) (outSet (coords q.1 q.2))
  rw [outSet_eq, outSet_eq]
  refine Rect.unit_disjoint (0 : Fin S3200000.rank) ?_
  rw [off12_coords, off12_coords]
  show 100000 * widP p + 100000 ≤ 100000 * widP q ∨ 100000 * widP q + 100000 ≤ 100000 * widP p
  omega

omit [FloatOps F] in
theorem outSet_cover : (Finset.univ : Finset (Fin 2 × Fin 16)).biUnion outSetP = Finset.univ := by
  ext j
  simp only [Finset.mem_biUnion, Finset.mem_univ, true_and, iff_true]
  have hj : (j 0).val < 3200000 := (j 0).isLt
  refine ⟨(⟨(j 0).val / 100000 % 2, by omega⟩, ⟨(j 0).val / 100000 / 2, by omega⟩), ?_⟩
  show j ∈ outSet (coords _ _)
  rw [outSet_eq, Rect.mem_set_unit]
  intro a
  obtain rfl : a = 0 := Subsingleton.elim _ _
  rw [off12_coords]
  show 100000 * (2 * ((j 0).val / 100000 / 2) + (j 0).val / 100000 % 2) ≤ (j 0).val ∧ (j 0).val < 100000 * (2 * ((j 0).val / 100000 / 2) + (j 0).val / 100000 % 2) + 100000
  omega

omit [FloatOps F] in
/-- The partial-sums array whole is its 32 slices. -/
theorem out_split (f : S3200000.Idx → Elt F .f32) :
    (pLoc d ↦{fullShare} f : sProp 𝕄) = bigSep Finset.univ (fun p : Fin 2 × Fin 16 => pLoc d ↦[outSetP p]{fullShare} f) := by
  rw [← pointsTo_biUnion Finset.univ (ℓ := pLoc d) outSetP outSet_disjoint, outSet_cover]

theorem st_pair : iprop(st1 ei tf tb d 0 ∗ st1 ei tf tb d 1)
    = bigSep Finset.univ (fun p : Fin 2 × Fin 16 => go1 ei tf tb d (coords p.1 p.2)) := by
  rw [bigSep_univ_prod, bigSep_univ_two]; rfl
theorem dn_pair : iprop(dn1 ei tf tb d 0 ∗ dn1 ei tf tb d 1)
    = bigSep Finset.univ (fun p : Fin 2 × Fin 16 => td1 ei tf tb d (coords p.1 p.2)) := by
  rw [bigSep_univ_prod, bigSep_univ_two]; rfl

omit [FloatOps F] in
theorem ex_out (f : S3200000.Idx → Elt F .f32) :
    bigSep Finset.univ (fun p : Fin 2 × Fin 16 => (pLoc d ↦[outSetP p]{fullShare} f : sProp 𝕄))
      ⊢ bigSep Finset.univ (fun p : Fin 2 × Fin 16 => (iprop(∃ f, pLoc d ↦[outSet (coords p.1 p.2)]{fullShare} f) : sProp 𝕄)) := by
  refine bigSep_mono fun p _ => ?_
  show (pLoc d ↦[outSetP p]{fullShare} f : sProp 𝕄) ⊢ iprop(∃ f, pLoc d ↦[outSet (coords p.1 p.2)]{fullShare} f)
  iintro H; iexists f; iexact H

/-- Before the call: the three inputs and the partial-sums array whole go to the two SparseCores, a remainder of the inputs kept. -/
theorem callSplit1 :
    iprop((eiLoc d ↦{fullShare} ei) ∗ (tfLoc d ↦{fullShare} tf) ∗ (tbLoc d ↦{fullShare} tb) ∗ ∃ f, pLoc d ↦{fullShare} f)
      ⊢ iprop(rem1 ei tf tb d ∗ st1 ei tf tb d 0 ∗ st1 ei tf tb d 1) := by
  rw [st_pair]
  unfold go1 rem1
  rw [bigSep_sep', bigSep_sep', bigSep_sep']
  iintro ⟨Hei, Htf, Htb, %f, Hp⟩
  ihave Hei := (shares_split (F := F) (ℓ := eiLoc d) ei).1 $$ Hei
  icases Hei with ⟨Hei0, Hei⟩
  ihave Htf := (shares_split (F := F) (ℓ := tfLoc d) tf).1 $$ Htf
  icases Htf with ⟨Htf0, Htf⟩
  ihave Htb := (shares_split (F := F) (ℓ := tbLoc d) tb).1 $$ Htb
  icases Htb with ⟨Htb0, Htb⟩
  ihave Hp := (Entails.of_eq (out_split (F := F) d f)) $$ Hp
  ihave Hp := (ex_out (F := F) d f) $$ Hp
  isplitl [Hei0 Htf0 Htb0]
  · isplitl [Hei0]; · iexact Hei0
    isplitl [Htf0]; · iexact Htf0
    iexact Htb0
  isplitl [Hei]; · iexact Hei
  isplitl [Htf]; · iexact Htf
  isplitl [Htb]; · iexact Htb
  iexact Hp

/-- After the call: the inputs whole again, the partial-sums array whole at the folds of the 32 chunks. -/
theorem callJoin1 :
    iprop(rem1 ei tf tb d ∗ dn1 ei tf tb d 0 ∗ dn1 ei tf tb d 1)
      ⊢ iprop((eiLoc d ↦{fullShare} ei) ∗ (tfLoc d ↦{fullShare} tf) ∗ (tbLoc d ↦{fullShare} tb) ∗ pLoc d ↦{fullShare} specPart ei tf tb) := by
  rw [dn_pair]
  unfold td1 rem1
  rw [bigSep_sep', bigSep_sep', bigSep_sep']
  iintro ⟨⟨Hei0, Htf0, Htb0⟩, Hei, Htf, Htb, Hp⟩
  isplitl [Hei0 Hei]
  · iapply (shares_split (F := F) (ℓ := eiLoc d) ei).2
    isplitl [Hei0]; · iexact Hei0
    iexact Hei
  isplitl [Htf0 Htf]
  · iapply (shares_split (F := F) (ℓ := tfLoc d) tf).2
    isplitl [Htf0]; · iexact Htf0
    iexact Htf
  isplitl [Htb0 Htb]
  · iapply (shares_split (F := F) (ℓ := tbLoc d) tb).2
    isplitl [Htb0]; · iexact Htb0
    iexact Htb
  iapply (Entails.of_eq (out_split (F := F) d (specPart ei tf tb)).symm)
  iexact Hp

end Split

end Cert.Proof.KI.Sc

end
-- ==== Proof.GatherTileV1.lean ====
import proofs.«204254_g40355512713743_retrytranche2_1723_12_alg».proof.Proof.Common
import Idealize.ShloMosaic.Lib.ValueIdx
import proofs.«204254_g40355512713743_retrytranche2_1723_12_alg».proof.Proof.GatherTileLib
import proofs.«204254_g40355512713743_retrytranche2_1723_12_alg».proof.Proof.GatherTileVal

noncomputable section

namespace Cert.Proof.KI.Ga

open Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 eq_ix1)

variable {F : FTy → Type}

local notation "𝕄" => MT nD τ sig (HIx 2) (Elt F) ℕ UU ℕ

variable [FloatOps F]

section V1

variable (ei : S12800000.Idx → Elt F .i32) (vt : S300000.Idx → Elt F .f32) (d : Dev nD) (L : grid0.Coords)

/-- Block `k` of the tile's chunk of its output, as the kernel slices it. -/
abbrev outS1 (k : Fin k0_t1_loop.trips) (hc : k0_cond1 L = 1#1) : Memref sig .scVector .hbm S8000 .f32 :=
  (d0V).slice (Rect.unit (s := S6400000) (k0_off6 L k) S8000.size (k0_off6_inb L k hc)) (fun _ => rfl)

omit [FloatOps F] in
theorem pts_blk1 (k : Fin k0_t1_loop.trips) (hc : k0_cond1 L = 1#1) (g : Buf (Elt F) (d0Loc d)) :
    ((outS1 L k hc).view.loc (thrV d L) ↦[(outS1 L k hc).view.set]{fullShare} g : sProp 𝕄)
      = (d0Loc d ↦[(outS1 L k hc).view.set]{fullShare} g) := rfl

omit [FloatOps F] in
theorem blk1_set (k : Fin k0_t1_loop.trips) (hc : k0_cond1 L = 1#1) :
    (outS1 L k hc).view.set = rng (800000 * (wid L - 0) + 8000 * k.val) (800000 * (wid L - 0) + 8000 * k.val + 8000) :=
  (d0_set (k0_off6 L k) (k0_off6_inb L k hc)).trans (by rw [off6_val L k hc])

omit [FloatOps F] in
theorem blk1_sub (k : Fin k0_t1_loop.trips) (hc : k0_cond1 L = 1#1) : (outS1 L k hc).view.set ⊆ chunk (wid L - 0) := by
  rw [blk1_set]
  have hk : k.val < 100 := Nat.lt_of_lt_of_le k.isLt k0_t1_abs.2.1
  intro j
  simp only [chunk, rng, Finset.mem_filter, Finset.mem_univ, true_and]
  omega

omit [FloatOps F] in
theorem pts_tab_access1 (ft : Buf (Elt F) ((thrV d L).loc cc0_scratch0)) :
    (((tabV).access (.whole S100000)).loc (thrV d L) ↦{fullShare} ft : sProp 𝕄) = ((tabV).view.loc (thrV d L) ↦{fullShare} ft) := rfl

/-- The inner loop's invariant: the table and the index blocks as they are, the out scratch's first `16 k` entries computed. -/
def invI1 (ft : Buf (Elt F) ((thrV d L).loc cc0_scratch0)) (base : Nat) (k : Nat) (_ : BitVec 32) : sProp 𝕄 :=
  iprop(((tabV).view.loc (thrV d L) ↦{fullShare} ft)
    ∗ (∃ fi : Buf (Elt F) ((thrV d L).loc cc0_scratch1), ⌜IdxOK ei base fi⌝ ∗ (ibV).view.loc (thrV d L) ↦{fullShare} fi)
    ∗ (∃ fj : Buf (Elt F) ((thrV d L).loc cc0_scratch2), ⌜IdxOK ei (6400000 + base) fj⌝ ∗ (jbV).view.loc (thrV d L) ↦{fullShare} fj)
    ∗ ∃ fo : Buf (Elt F) ((thrV d L).loc cc0_scratch3), ⌜∀ j : S8000.Idx, (j 0).val < 16 * k → fo j = dval 0 ei vt (base + (j 0).val)⌝
        ∗ (obV).view.loc (thrV d L) ↦{fullShare} fo)

/-- The block loop's invariant: the edge indices' read share, the chunk with its first `k` blocks computed, the table, the
    scratches, the three semaphores at zero, the tile's debts. -/
def invB1 (O : CellTallies nD τ sig (HIx 2)) (W : Waits sig (HIx 2)) (k : Nat) (_ : BitVec 32) : sProp 𝕄 :=
  iprop(Transfers.MayWaits (thrV d L) (none : HIx 2) O
    ∗ ((eiV).view.loc (thrV d L) ↦{tsh L} ei)
    ∗ (∃ g : Buf (Elt F) (d0Loc d), ⌜∀ j ∈ chunk (wid L - 0), (j 0).val < 800000 * (wid L - 0) + 8000 * k → g j = dval 0 ei vt (j 0).val⌝
        ∗ d0Loc d ↦[chunk (wid L - 0)]{fullShare} g)
    ∗ (∃ ft : Buf (Elt F) ((thrV d L).loc cc0_scratch0), ⌜TabOK vt 0 ft⌝ ∗ (tabV).view.loc (thrV d L) ↦{fullShare} ft)
    ∗ (∃ f, (ibV).view.loc (thrV d L) ↦{fullShare} f) ∗ (∃ f, (jbV).view.loc (thrV d L) ↦{fullShare} f) ∗ (∃ f, (obV).view.loc (thrV d L) ↦{fullShare} f)
    ∗ semVal (cellV d L cc0_scoped1) 0 ∗ semVal (cellV d L cc0_scoped2) 0 ∗ semVal (cellV d L cc0_scoped3) 0
    ∗ ∃ W', ⌜∀ p ∈ W', p ∈ W ∨ p.2 = none⌝ ∗ owes (thrV d L) O W')

end V1

set_option maxHeartbeats 4000000 in
theorem tile_v1 (ei : S12800000.Idx → Elt F .i32) (rf : S19200000.Idx → Elt F .f32) (vt : S300000.Idx → Elt F .f32)
    (hF : (K (F := F)).Facts) (hidx : ∀ j, (BitVec.toNat (show BitVec 32 from ei j)) < 100000) (d : Dev nD) (L : grid0.Coords) (hc : k0_cond1 L = 1#1) (h2 : ¬ k0_cond2 L = 1#1) (h3 : ¬ k0_cond3 L = 1#1) (h4 : ¬ k0_cond4 L = 1#1)
    (O : CellTallies nD τ sig (HIx 2)) (W : Waits sig (HIx 2)) (hO : ∀ g, O g none = 0) :
    iprop(levAts (K (F := F)).L (K (F := F)).lev ∗ go0 ei rf vt d L ∗ scopedBufs (thrV d L) ∗ scopedSems0 (thrV d L) ∗ owes (thrV d L) O W)
      ⊢ wp frame (wpE (defs₀ (F := F)) 𝒱₀ (thrV d L) none) Set.univ
          (cc0__sc_gather_body L (Memref.whole main_v0_scv) (Memref.isWhole_whole _) (Memref.whole main_v1_scv) (Memref.isWhole_whole _)
            (Memref.whole main_v3_scv) (Memref.isWhole_whole _) (Memref.whole main_v4_0_scv) (Memref.isWhole_whole _)
            (Memref.whole main_v4_1_scv) (Memref.isWhole_whole _) (Memref.whole main_v4_2_scv) (Memref.isWhole_whole _)
            (Memref.whole main_v4_3_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) cc0_scoped0 cc0_scoped1 cc0_scoped2 cc0_scoped3 cc0_scoped4 cc0_scoped5
            cc0_scoped6 cc0_scoped7 cc0_scoped8 cc0_scoped9 cc0_scoped10 cc0_scoped11 cc0_scoped12 cc0_scoped13)
          fun _ => iprop(td0 ei rf vt d L ∗ scopedBufs (thrV d L) ∗ scopedSems0 (thrV d L)
            ∗ ∃ W', ⌜∀ p ∈ W', p ∈ W ∨ p.2 = none⌝ ∗ owes (thrV d L) O W') := by
  have hw : wid L < 8 := (cond1_iff L).mp hc
  have htI : k0_t2_loop.trips = 500 := by first | rfl | decide
  have htB : k0_t1_loop.trips = 100 := by first | rfl | decide
  simp only [cc0__sc_gather_body_eq_skeleton]; unfold cc0__sc_gather_body_skel
  rw [(K (F := F)).scopedBufs_V hF d (cV L) (jV L), SparseCore.Cfg.scopedSems0_V (Val := Elt F) d (cV L) (jV L),
    ownSems0_take4 d L cc0_scoped0 cc0_scoped1 cc0_scoped2 cc0_scoped3 (by decide) (by decide) (by decide) (by decide)
      (by decide) (by decide) (by decide) (by decide) (by decide) (by decide), ownBufs_V]
  unfold go0 td0 outGo outTd
  rw [if_pos hw, if_pos hw]
  iintro ⟨#Hlv, ⟨⟨Hei, Hrf, Hvt⟩, %g0, Hout⟩, ⟨⟨%ft0, Htab⟩, ⟨%fi0, Hib⟩, ⟨%fj0, Hjb⟩, ⟨%fo0, Hob⟩, Hbufs⟩, ⟨Hs0, Hs1, Hs2, Hs3, Hsems⟩, HO⟩
  ihave Hmw := ((K (F := F)).mayWaits_none (thr := thrV d L) hO) $$ Hlv
  ihave Hvt' := (Entails.of_eq (pts_vt (F := F) d L _ _).symm) $$ Hvt
  ihave Hei' := (Entails.of_eq (pts_ei (F := F) d L _ _).symm) $$ Hei
  ihave Htab' := (Entails.of_eq (pts_tab (F := F) d L _).symm) $$ Htab
  ihave Hib' := (Entails.of_eq (pts_ib (F := F) d L _).symm) $$ Hib
  ihave Hjb' := (Entails.of_eq (pts_jb (F := F) d L _).symm) $$ Hjb
  ihave Hob' := (Entails.of_eq (pts_ob (F := F) d L _).symm) $$ Hob
  sl_exec
  sl_for (invB1 ei vt d L O W) $$ [Hmw Hei' Hout Htab' Hib' Hjb' Hob' Hs1 Hs2 Hs3 HO]
  case region =>
    intro k _
    have hk : k.val < 100 := Nat.lt_of_lt_of_le k.isLt k0_t1_abs.2.1
    unfold invB1
    iintro ⟨Hmw, Hei, ⟨%g, %hg, Hout⟩, ⟨%ft, %hft, Htab⟩, ⟨%fi, Hib⟩, ⟨%fj, Hjb⟩, ⟨%fo, Hob⟩, Hs1, Hs2, Hs3, %W', %hW', HO⟩
    sl_exec (disch := exact View.amount_pos _ _ (show 0 < S8000.numel by decide))
    sl_for (invI1 ei vt d L ft (800000 * (wid L - 0) + 8000 * k.val)) $$ [Htab Hib Hjb Hob]
    case region =>
      intro k2 _
      have hk2 : k2.val < 500 := Nat.lt_of_lt_of_le k2.isLt k0_t2_abs.2.1
      unfold invI1
      iintro ⟨Htab, ⟨%fi', %hfi, Hib⟩, ⟨%fj', %hfj, Hjb⟩, %fo', %hfo, Hob⟩
      have hchkI : ∀ (off : Fin 1 → Nat) (inb : ∀ a, off a + S16.size a ≤ S8000.size a),
          k0_chk1 L ((ibV).view.readAt (Elt F) (Rect.unit (s := S8000) off S16.size inb).toLoadRect fi') := by
        intro off inb _ a x
        obtain rfl : a = (0 : Fin 1) := Subsingleton.elim (α := Fin 1) a 0
        show (BitVec.toNat ((ibV).view.readAt (Elt F) (Rect.unit (s := S8000) off S16.size inb).toLoadRect fi' x)) < 100000
        rw [load16_ib, hfi]; exact eAt_lt ei hidx _
      have hchkJ : ∀ (off : Fin 1 → Nat) (inb : ∀ a, off a + S16.size a ≤ S8000.size a),
          k0_chk2 L ((jbV).view.readAt (Elt F) (Rect.unit (s := S8000) off S16.size inb).toLoadRect fj') := by
        intro off inb _ a x
        obtain rfl : a = (0 : Fin 1) := Subsingleton.elim (α := Fin 1) a 0
        show (BitVec.toNat ((jbV).view.readAt (Elt F) (Rect.unit (s := S8000) off S16.size inb).toLoadRect fj' x)) < 100000
        rw [load16_jb, hfj]; exact eAt_lt ei hidx _
      sl_exec (disch := first | exact hchkI _ _ | exact hchkJ _ _)

      ihave Htab' := (Entails.of_eq (pts_tab_access1 (F := F) d L _).symm) $$ Htab
      iapply (SparseCore.wp_vectorLoadIdx 𝒱₀ (thrV d L) none Set.univ (base := tabV) (S := Finset.univ) (q := fullShare) (Finset.subset_univ _)) $$ Htab'; iintro Htab'
      ihave Htab := (Entails.of_eq (pts_tab_access1 (F := F) d L _)) $$ Htab'
      sl_exec (disch := first | exact hchkI _ _ | exact hchkJ _ _)
      ihave Htab' := (Entails.of_eq (pts_tab_access1 (F := F) d L _).symm) $$ Htab
      iapply (SparseCore.wp_vectorLoadIdx 𝒱₀ (thrV d L) none Set.univ (base := tabV) (S := Finset.univ) (q := fullShare) (Finset.subset_univ _)) $$ Htab'; iintro Htab'
      ihave Htab := (Entails.of_eq (pts_tab_access1 (F := F) d L _)) $$ Htab'
      sl_exec
      sl_step

      isplitl [Htab]; · iexact Htab
      isplitl [Hib]
      · iexists _; isplitr; · ipureintro; exact hfi
        iexact Hib
      isplitl [Hjb]
      · iexists _; isplitr; · ipureintro; exact hfj
        iexact Hjb
      iexists _; isplitr; rotate_left; · iexact Hob
      ipureintro
      exact trip_val d L ei vt 0 _ k2.val ft fi' fj' fo' hft hfi hfj k0_pay1 (fun _ _ => rfl) (k0_off3 k2) (k0_off4 k2) (k0_off5 k2) _ _ _
        (by rw [k0_off3_eq]; rfl) (by rw [k0_off4_eq]; rfl) (by rw [k0_off5_eq]; rfl) _ _ hfo
    · unfold invI1
      isplitl [Htab]; · iexact Htab
      isplitl [Hib]
      · iexists _; isplitr; rotate_left; · iexact Hib
        ipureintro; exact ib_val d L ei _ fi _ _ (off1_val L k hc)
      isplitl [Hjb]
      · iexists _; isplitr; rotate_left; · iexact Hjb
        ipureintro; exact jb_val d L ei _ fj _ _ (off2_val L k hc)
      iexists _; isplitr; rotate_left; · iexact Hob
      ipureintro; intro j hj; exact absurd hj (by omega)
    iintro %_ HI
    unfold invI1
    icases HI with ⟨Htab, ⟨%fi', %hfi, Hib⟩, ⟨%fj', %hfj, Hjb⟩, %fo', %hfo, Hob⟩
    ihave Hsp := (pointsTo_split_subset (ℓ := d0Loc d) (q := fullShare) (f := g) (blk1_sub L k hc)).1 $$ Hout
    icases Hsp with ⟨Hblk, Hrest⟩
    ihave Hblk' := (Entails.of_eq (pts_blk1 (F := F) d L k hc _).symm) $$ Hblk
    sl_exec (disch := exact View.amount_pos _ _ (show 0 < S8000.numel by decide))
    sl_step

    isplitl [Hmw]; · iexact Hmw
    isplitl [Hei]; · iexact Hei
    isplitl [Hblk' Hrest]
    · iexists _; isplitr; rotate_left
      · ihave Hblk := (Entails.of_eq (pts_blk1 (F := F) d L k hc _)) $$ Hblk'
        iapply (d0_rejoin (F := F) d (wid L - 0) g _ _ _ (blk1_sub L k hc))
        isplitl [Hblk]; · iexact Hblk
        iexact Hrest
      ipureintro
      rw [show 800000 * (wid L - 0) + 8000 * (k.val + 1) = (800000 * (wid L - 0) + 8000 * k.val) + 8000 by omega]
      exact d0_blk_val d L (dval 0 ei vt) _ _ g fo' _ _ (off6_val L k hc) _ (fun _ => rfl) hg
        (fun j => hfo j (by have := (j 0).isLt; simp at this; show (j 0).val < 16 * k0_t2_loop.trips; rw [htI]; omega))
    isplitl [Htab]
    · iexists ft; isplitr; · ipureintro; exact hft
      iexact Htab
    isplitl [Hib]; · iexists _; iexact Hib
    isplitl [Hjb]; · iexists _; iexact Hjb
    isplitl [Hob]; · iexists _; iexact Hob
    isplitl [Hs1]; · iexact Hs1
    isplitl [Hs2]; · iexact Hs2
    isplitl [Hs3]; · iexact Hs3
    iexists _; isplitr; rotate_left; · iexact HO
    ipureintro; exact waits_ok (waits_ok (waits_ok hW' _) _) _
  · unfold invB1
    isplitl [Hmw]; · iexact Hmw
    isplitl [Hei']; · iexact Hei'
    isplitl [Hout]
    · iexists g0; isplitr
      · ipureintro; intro j hj hlt; exfalso
        simp only [chunk, rng, Finset.mem_filter, Finset.mem_univ, true_and] at hj; omega
      iexact Hout
    isplitl [Htab']
    · iexists _; isplitr; rotate_left; · iexact Htab'
      ipureintro; exact tab_val d L vt 0 ft0 _ _ rfl
    isplitl [Hib']; · iexists _; iexact Hib'
    isplitl [Hjb']; · iexists _; iexact Hjb'
    isplitl [Hob']; · iexists _; iexact Hob'
    isplitl [Hs1]; · iexact Hs1
    isplitl [Hs2]; · iexact Hs2
    isplitl [Hs3]; · iexact Hs3
    iexists _; isplitr; rotate_left; · iexact HO
    ipureintro; exact waits_ok (fun p hp => .inl hp) _
  iintro %_ HI
  unfold invB1
  icases HI with ⟨-, Hei, ⟨%g, %hg, Hout⟩, ⟨%ft, %hft, Htab⟩, ⟨%fi, Hib⟩, ⟨%fj, Hjb⟩, ⟨%fo, Hob⟩, Hs1, Hs2, Hs3, %W', %hW', HO⟩
  sl_exec
  sl_step

  have hfin : ∀ i ∈ chunk (wid L - 0), g i = specD 0 ei vt i := by
    intro i hi
    refine (hg i hi ?_).trans (specD_dval 0 ei vt i).symm
    show (i 0).val < 800000 * (wid L - 0) + 8000 * k0_t1_loop.trips
    rw [htB]; simp only [chunk, rng, Finset.mem_filter, Finset.mem_univ, true_and] at hi; omega
  isplitl [Hei Hrf Hvt' Hout]
  · isplitl [Hei Hrf Hvt']
    · isplitl [Hei]; · iapply (Entails.of_eq (pts_ei (F := F) d L _ _)); iexact Hei
      isplitl [Hrf]; · iexact Hrf
      iapply (Entails.of_eq (pts_vt (F := F) d L _ _)); iexact Hvt'
    · iapply (Entails.of_eq (pointsTo_congr (ℓ := d0Loc d) (q := fullShare) hfin)); iexact Hout
  isplitl [Htab Hib Hjb Hob Hbufs]
  · isplitl [Htab]; · iexists _; iapply (Entails.of_eq (pts_tab (F := F) d L _)); iexact Htab
    isplitl [Hib]; · iexists _; iapply (Entails.of_eq (pts_ib (F := F) d L _)); iexact Hib
    isplitl [Hjb]; · iexists _; iapply (Entails.of_eq (pts_jb (F := F) d L _)); iexact Hjb
    isplitl [Hob]; · iexists _; iapply (Entails.of_eq (pts_ob (F := F) d L _)); iexact Hob
    iexact Hbufs
  isplitl [Hs0 Hs1 Hs2 Hs3 Hsems]
  · isplitl [Hs0]; · iexact Hs0
    isplitl [Hs1]; · iexact Hs1
    isplitl [Hs2]; · iexact Hs2
    isplitl [Hs3]; · iexact Hs3
    iexact Hsems
  iexists W'; isplitr
  · ipureintro; exact hW'
  · iexact HO

end Cert.Proof.KI.Ga

end
-- ==== Proof.GatherTileV2.lean ====
import proofs.«204254_g40355512713743_retrytranche2_1723_12_alg».proof.Proof.Common
import Idealize.ShloMosaic.Lib.ValueIdx
import proofs.«204254_g40355512713743_retrytranche2_1723_12_alg».proof.Proof.GatherTileLib
import proofs.«204254_g40355512713743_retrytranche2_1723_12_alg».proof.Proof.GatherTileVal

noncomputable section

namespace Cert.Proof.KI.Ga

open Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 eq_ix1)

variable {F : FTy → Type}

local notation "𝕄" => MT nD τ sig (HIx 2) (Elt F) ℕ UU ℕ

variable [FloatOps F]

section V2

variable (ei : S12800000.Idx → Elt F .i32) (vt : S300000.Idx → Elt F .f32) (d : Dev nD) (L : grid0.Coords)

/-- Block `k` of the tile's chunk of its output, as the kernel slices it. -/
abbrev outS2 (k : Fin k0_t3_loop.trips) (hc : k0_cond2 L = 1#1) : Memref sig .scVector .hbm S8000 .f32 :=
  (d1V).slice (Rect.unit (s := S6400000) (k0_off12 L k) S8000.size (k0_off12_inb L k hc)) (fun _ => rfl)

omit [FloatOps F] in
theorem pts_blk2 (k : Fin k0_t3_loop.trips) (hc : k0_cond2 L = 1#1) (g : Buf (Elt F) (d1Loc d)) :
    ((outS2 L k hc).view.loc (thrV d L) ↦[(outS2 L k hc).view.set]{fullShare} g : sProp 𝕄)
      = (d1Loc d ↦[(outS2 L k hc).view.set]{fullShare} g) := rfl

omit [FloatOps F] in
theorem blk2_set (k : Fin k0_t3_loop.trips) (hc : k0_cond2 L = 1#1) :
    (outS2 L k hc).view.set = rng (800000 * (wid L - 8) + 8000 * k.val) (800000 * (wid L - 8) + 8000 * k.val + 8000) :=
  (d1_set (k0_off12 L k) (k0_off12_inb L k hc)).trans (by rw [off12_val L k hc])

omit [FloatOps F] in
theorem blk2_sub (k : Fin k0_t3_loop.trips) (hc : k0_cond2 L = 1#1) : (outS2 L k hc).view.set ⊆ chunk (wid L - 8) := by
  rw [blk2_set]
  have hk : k.val < 100 := Nat.lt_of_lt_of_le k.isLt k0_t3_abs.2.1
  intro j
  simp only [chunk, rng, Finset.mem_filter, Finset.mem_univ, true_and]
  omega

omit [FloatOps F] in
theorem pts_tab_access2 (ft : Buf (Elt F) ((thrV d L).loc cc0_scratch0)) :
    (((tabV).access (.whole S100000)).loc (thrV d L) ↦{fullShare} ft : sProp 𝕄) = ((tabV).view.loc (thrV d L) ↦{fullShare} ft) := rfl

/-- The inner loop's invariant: the table and the index blocks as they are, the out scratch's first `16 k` entries computed. -/
def invI2 (ft : Buf (Elt F) ((thrV d L).loc cc0_scratch0)) (base : Nat) (k : Nat) (_ : BitVec 32) : sProp 𝕄 :=
  iprop(((tabV).view.loc (thrV d L) ↦{fullShare} ft)
    ∗ (∃ fi : Buf (Elt F) ((thrV d L).loc cc0_scratch1), ⌜IdxOK ei base fi⌝ ∗ (ibV).view.loc (thrV d L) ↦{fullShare} fi)
    ∗ (∃ fj : Buf (Elt F) ((thrV d L).loc cc0_scratch2), ⌜IdxOK ei (6400000 + base) fj⌝ ∗ (jbV).view.loc (thrV d L) ↦{fullShare} fj)
    ∗ ∃ fo : Buf (Elt F) ((thrV d L).loc cc0_scratch3), ⌜∀ j : S8000.Idx, (j 0).val < 16 * k → fo j = dval 1 ei vt (base + (j 0).val)⌝
        ∗ (obV).view.loc (thrV d L) ↦{fullShare} fo)

/-- The block loop's invariant: the edge indices' read share, the chunk with its first `k` blocks computed, the table, the
    scratches, the three semaphores at zero, the tile's debts. -/
def invB2 (O : CellTallies nD τ sig (HIx 2)) (W : Waits sig (HIx 2)) (k : Nat) (_ : BitVec 32) : sProp 𝕄 :=
  iprop(Transfers.MayWaits (thrV d L) (none : HIx 2) O
    ∗ ((eiV).view.loc (thrV d L) ↦{tsh L} ei)
    ∗ (∃ g : Buf (Elt F) (d1Loc d), ⌜∀ j ∈ chunk (wid L - 8), (j 0).val < 800000 * (wid L - 8) + 8000 * k → g j = dval 1 ei vt (j 0).val⌝
        ∗ d1Loc d ↦[chunk (wid L - 8)]{fullShare} g)
    ∗ (∃ ft : Buf (Elt F) ((thrV d L).loc cc0_scratch0), ⌜TabOK vt 1 ft⌝ ∗ (tabV).view.loc (thrV d L) ↦{fullShare} ft)
    ∗ (∃ f, (ibV).view.loc (thrV d L) ↦{fullShare} f) ∗ (∃ f, (jbV).view.loc (thrV d L) ↦{fullShare} f) ∗ (∃ f, (obV).view.loc (thrV d L) ↦{fullShare} f)
    ∗ semVal (cellV d L cc0_scoped5) 0 ∗ semVal (cellV d L cc0_scoped6) 0 ∗ semVal (cellV d L cc0_scoped7) 0
    ∗ ∃ W', ⌜∀ p ∈ W', p ∈ W ∨ p.2 = none⌝ ∗ owes (thrV d L) O W')

end V2

set_option maxHeartbeats 4000000 in
theorem tile_v2 (ei : S12800000.Idx → Elt F .i32) (rf : S19200000.Idx → Elt F .f32) (vt : S300000.Idx → Elt F .f32)
    (hF : (K (F := F)).Facts) (hidx : ∀ j, (BitVec.toNat (show BitVec 32 from ei j)) < 100000) (d : Dev nD) (L : grid0.Coords) (h1 : ¬ k0_cond1 L = 1#1) (hc : k0_cond2 L = 1#1) (h3 : ¬ k0_cond3 L = 1#1) (h4 : ¬ k0_cond4 L = 1#1)
    (O : CellTallies nD τ sig (HIx 2)) (W : Waits sig (HIx 2)) (hO : ∀ g, O g none = 0) :
    iprop(levAts (K (F := F)).L (K (F := F)).lev ∗ go0 ei rf vt d L ∗ scopedBufs (thrV d L) ∗ scopedSems0 (thrV d L) ∗ owes (thrV d L) O W)
      ⊢ wp frame (wpE (defs₀ (F := F)) 𝒱₀ (thrV d L) none) Set.univ
          (cc0__sc_gather_body L (Memref.whole main_v0_scv) (Memref.isWhole_whole _) (Memref.whole main_v1_scv) (Memref.isWhole_whole _)
            (Memref.whole main_v3_scv) (Memref.isWhole_whole _) (Memref.whole main_v4_0_scv) (Memref.isWhole_whole _)
            (Memref.whole main_v4_1_scv) (Memref.isWhole_whole _) (Memref.whole main_v4_2_scv) (Memref.isWhole_whole _)
            (Memref.whole main_v4_3_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) cc0_scoped0 cc0_scoped1 cc0_scoped2 cc0_scoped3 cc0_scoped4 cc0_scoped5
            cc0_scoped6 cc0_scoped7 cc0_scoped8 cc0_scoped9 cc0_scoped10 cc0_scoped11 cc0_scoped12 cc0_scoped13)
          fun _ => iprop(td0 ei rf vt d L ∗ scopedBufs (thrV d L) ∗ scopedSems0 (thrV d L)
            ∗ ∃ W', ⌜∀ p ∈ W', p ∈ W ∨ p.2 = none⌝ ∗ owes (thrV d L) O W') := by
  have hw := (cond2_iff L).mp hc
  have hn8 : ¬ wid L < 8 := by omega
  have h16 : wid L < 16 := hw.2
  have htI : k0_t4_loop.trips = 500 := by first | rfl | decide
  have htB : k0_t3_loop.trips = 100 := by first | rfl | decide
  simp only [cc0__sc_gather_body_eq_skeleton]; unfold cc0__sc_gather_body_skel
  rw [(K (F := F)).scopedBufs_V hF d (cV L) (jV L), SparseCore.Cfg.scopedSems0_V (Val := Elt F) d (cV L) (jV L),
    ownSems0_take4 d L cc0_scoped4 cc0_scoped5 cc0_scoped6 cc0_scoped7 (by decide) (by decide) (by decide) (by decide)
      (by decide) (by decide) (by decide) (by decide) (by decide) (by decide), ownBufs_V]
  unfold go0 td0 outGo outTd
  rw [if_neg hn8, if_pos h16, if_neg hn8, if_pos h16]
  iintro ⟨#Hlv, ⟨⟨Hei, Hrf, Hvt⟩, %g0, Hout⟩, ⟨⟨%ft0, Htab⟩, ⟨%fi0, Hib⟩, ⟨%fj0, Hjb⟩, ⟨%fo0, Hob⟩, Hbufs⟩, ⟨Hs0, Hs1, Hs2, Hs3, Hsems⟩, HO⟩
  ihave Hmw := ((K (F := F)).mayWaits_none (thr := thrV d L) hO) $$ Hlv
  ihave Hvt' := (Entails.of_eq (pts_vt (F := F) d L _ _).symm) $$ Hvt
  ihave Hei' := (Entails.of_eq (pts_ei (F := F) d L _ _).symm) $$ Hei
  ihave Htab' := (Entails.of_eq (pts_tab (F := F) d L _).symm) $$ Htab
  ihave Hib' := (Entails.of_eq (pts_ib (F := F) d L _).symm) $$ Hib
  ihave Hjb' := (Entails.of_eq (pts_jb (F := F) d L _).symm) $$ Hjb
  ihave Hob' := (Entails.of_eq (pts_ob (F := F) d L _).symm) $$ Hob
  sl_exec
  sl_for (invB2 ei vt d L O W) $$ [Hmw Hei' Hout Htab' Hib' Hjb' Hob' Hs1 Hs2 Hs3 HO]
  case region =>
    intro k _
    have hk : k.val < 100 := Nat.lt_of_lt_of_le k.isLt k0_t3_abs.2.1
    unfold invB2
    iintro ⟨Hmw, Hei, ⟨%g, %hg, Hout⟩, ⟨%ft, %hft, Htab⟩, ⟨%fi, Hib⟩, ⟨%fj, Hjb⟩, ⟨%fo, Hob⟩, Hs1, Hs2, Hs3, %W', %hW', HO⟩
    sl_exec (disch := exact View.amount_pos _ _ (show 0 < S8000.numel by decide))
    sl_for (invI2 ei vt d L ft (800000 * (wid L - 8) + 8000 * k.val)) $$ [Htab Hib Hjb Hob]
    case region =>
      intro k2 _
      have hk2 : k2.val < 500 := Nat.lt_of_lt_of_le k2.isLt k0_t4_abs.2.1
      unfold invI2
      iintro ⟨Htab, ⟨%fi', %hfi, Hib⟩, ⟨%fj', %hfj, Hjb⟩, %fo', %hfo, Hob⟩
      have hchkI : ∀ (off : Fin 1 → Nat) (inb : ∀ a, off a + S16.size a ≤ S8000.size a),
          k0_chk3 L ((ibV).view.readAt (Elt F) (Rect.unit (s := S8000) off S16.size inb).toLoadRect fi') := by
        intro off inb _ a x
        obtain rfl : a = (0 : Fin 1) := Subsingleton.elim (α := Fin 1) a 0
        show (BitVec.toNat ((ibV).view.readAt (Elt F) (Rect.unit (s := S8000) off S16.size inb).toLoadRect fi' x)) < 100000
        rw [load16_ib, hfi]; exact eAt_lt ei hidx _
      have hchkJ : ∀ (off : Fin 1 → Nat) (inb : ∀ a, off a + S16.size a ≤ S8000.size a),
          k0_chk4 L ((jbV).view.readAt (Elt F) (Rect.unit (s := S8000) off S16.size inb).toLoadRect fj') := by
        intro off inb _ a x
        obtain rfl : a = (0 : Fin 1) := Subsingleton.elim (α := Fin 1) a 0
        show (BitVec.toNat ((jbV).view.readAt (Elt F) (Rect.unit (s := S8000) off S16.size inb).toLoadRect fj' x)) < 100000
        rw [load16_jb, hfj]; exact eAt_lt ei hidx _
      sl_exec (disch := first | exact hchkI _ _ | exact hchkJ _ _)

      ihave Htab' := (Entails.of_eq (pts_tab_access2 (F := F) d L _).symm) $$ Htab
      iapply (SparseCore.wp_vectorLoadIdx 𝒱₀ (thrV d L) none Set.univ (base := tabV) (S := Finset.univ) (q := fullShare) (Finset.subset_univ _)) $$ Htab'; iintro Htab'
      ihave Htab := (Entails.of_eq (pts_tab_access2 (F := F) d L _)) $$ Htab'
      sl_exec (disch := first | exact hchkI _ _ | exact hchkJ _ _)
      ihave Htab' := (Entails.of_eq (pts_tab_access2 (F := F) d L _).symm) $$ Htab
      iapply (SparseCore.wp_vectorLoadIdx 𝒱₀ (thrV d L) none Set.univ (base := tabV) (S := Finset.univ) (q := fullShare) (Finset.subset_univ _)) $$ Htab'; iintro Htab'
      ihave Htab := (Entails.of_eq (pts_tab_access2 (F := F) d L _)) $$ Htab'
      sl_exec
      sl_step

      isplitl [Htab]; · iexact Htab
      isplitl [Hib]
      · iexists _; isplitr; · ipureintro; exact hfi
        iexact Hib
      isplitl [Hjb]
      · iexists _; isplitr; · ipureintro; exact hfj
        iexact Hjb
      iexists _; isplitr; rotate_left; · iexact Hob
      ipureintro
      exact trip_val d L ei vt 1 _ k2.val ft fi' fj' fo' hft hfi hfj k0_pay2 (fun _ _ => rfl) (k0_off9 k2) (k0_off10 k2) (k0_off11 k2) _ _ _
        (by rw [k0_off9_eq]; rfl) (by rw [k0_off10_eq]; rfl) (by rw [k0_off11_eq]; rfl) _ _ hfo
    · unfold invI2
      isplitl [Htab]; · iexact Htab
      isplitl [Hib]
      · iexists _; isplitr; rotate_left; · iexact Hib
        ipureintro; exact ib_val d L ei _ fi _ _ (off7_val L k hc)
      isplitl [Hjb]
      · iexists _; isplitr; rotate_left; · iexact Hjb
        ipureintro; exact jb_val d L ei _ fj _ _ (off8_val L k hc)
      iexists _; isplitr; rotate_left; · iexact Hob
      ipureintro; intro j hj; exact absurd hj (by omega)
    iintro %_ HI
    unfold invI2
    icases HI with ⟨Htab, ⟨%fi', %hfi, Hib⟩, ⟨%fj', %hfj, Hjb⟩, %fo', %hfo, Hob⟩
    ihave Hsp := (pointsTo_split_subset (ℓ := d1Loc d) (q := fullShare) (f := g) (blk2_sub L k hc)).1 $$ Hout
    icases Hsp with ⟨Hblk, Hrest⟩
    ihave Hblk' := (Entails.of_eq (pts_blk2 (F := F) d L k hc _).symm) $$ Hblk
    sl_exec (disch := exact View.amount_pos _ _ (show 0 < S8000.numel by decide))
    sl_step

    isplitl [Hmw]; · iexact Hmw
    isplitl [Hei]; · iexact Hei
    isplitl [Hblk' Hrest]
    · iexists _; isplitr; rotate_left
      · ihave Hblk := (Entails.of_eq (pts_blk2 (F := F) d L k hc _)) $$ Hblk'
        iapply (d1_rejoin (F := F) d (wid L - 8) g _ _ _ (blk2_sub L k hc))
        isplitl [Hblk]; · iexact Hblk
        iexact Hrest
      ipureintro
      rw [show 800000 * (wid L - 8) + 8000 * (k.val + 1) = (800000 * (wid L - 8) + 8000 * k.val) + 8000 by omega]
      exact d1_blk_val d L (dval 1 ei vt) _ _ g fo' _ _ (off12_val L k hc) _ (fun _ => rfl) hg
        (fun j => hfo j (by have := (j 0).isLt; simp at this; show (j 0).val < 16 * k0_t4_loop.trips; rw [htI]; omega))
    isplitl [Htab]
    · iexists ft; isplitr; · ipureintro; exact hft
      iexact Htab
    isplitl [Hib]; · iexists _; iexact Hib
    isplitl [Hjb]; · iexists _; iexact Hjb
    isplitl [Hob]; · iexists _; iexact Hob
    isplitl [Hs1]; · iexact Hs1
    isplitl [Hs2]; · iexact Hs2
    isplitl [Hs3]; · iexact Hs3
    iexists _; isplitr; rotate_left; · iexact HO
    ipureintro; exact waits_ok (waits_ok (waits_ok hW' _) _) _
  · unfold invB2
    isplitl [Hmw]; · iexact Hmw
    isplitl [Hei']; · iexact Hei'
    isplitl [Hout]
    · iexists g0; isplitr
      · ipureintro; intro j hj hlt; exfalso
        simp only [chunk, rng, Finset.mem_filter, Finset.mem_univ, true_and] at hj; omega
      iexact Hout
    isplitl [Htab']
    · iexists _; isplitr; rotate_left; · iexact Htab'
      ipureintro; exact tab_val d L vt 1 ft0 _ _ rfl
    isplitl [Hib']; · iexists _; iexact Hib'
    isplitl [Hjb']; · iexists _; iexact Hjb'
    isplitl [Hob']; · iexists _; iexact Hob'
    isplitl [Hs1]; · iexact Hs1
    isplitl [Hs2]; · iexact Hs2
    isplitl [Hs3]; · iexact Hs3
    iexists _; isplitr; rotate_left; · iexact HO
    ipureintro; exact waits_ok (fun p hp => .inl hp) _
  iintro %_ HI
  unfold invB2
  icases HI with ⟨-, Hei, ⟨%g, %hg, Hout⟩, ⟨%ft, %hft, Htab⟩, ⟨%fi, Hib⟩, ⟨%fj, Hjb⟩, ⟨%fo, Hob⟩, Hs1, Hs2, Hs3, %W', %hW', HO⟩
  sl_exec
  sl_step

  have hfin : ∀ i ∈ chunk (wid L - 8), g i = specD 1 ei vt i := by
    intro i hi
    refine (hg i hi ?_).trans (specD_dval 1 ei vt i).symm
    show (i 0).val < 800000 * (wid L - 8) + 8000 * k0_t3_loop.trips
    rw [htB]; simp only [chunk, rng, Finset.mem_filter, Finset.mem_univ, true_and] at hi; omega
  isplitl [Hei Hrf Hvt' Hout]
  · isplitl [Hei Hrf Hvt']
    · isplitl [Hei]; · iapply (Entails.of_eq (pts_ei (F := F) d L _ _)); iexact Hei
      isplitl [Hrf]; · iexact Hrf
      iapply (Entails.of_eq (pts_vt (F := F) d L _ _)); iexact Hvt'
    · iapply (Entails.of_eq (pointsTo_congr (ℓ := d1Loc d) (q := fullShare) hfin)); iexact Hout
  isplitl [Htab Hib Hjb Hob Hbufs]
  · isplitl [Htab]; · iexists _; iapply (Entails.of_eq (pts_tab (F := F) d L _)); iexact Htab
    isplitl [Hib]; · iexists _; iapply (Entails.of_eq (pts_ib (F := F) d L _)); iexact Hib
    isplitl [Hjb]; · iexists _; iapply (Entails.of_eq (pts_jb (F := F) d L _)); iexact Hjb
    isplitl [Hob]; · iexists _; iapply (Entails.of_eq (pts_ob (F := F) d L _)); iexact Hob
    iexact Hbufs
  isplitl [Hs0 Hs1 Hs2 Hs3 Hsems]
  · isplitl [Hs0]; · iexact Hs0
    isplitl [Hs1]; · iexact Hs1
    isplitl [Hs2]; · iexact Hs2
    isplitl [Hs3]; · iexact Hs3
    iexact Hsems
  iexists W'; isplitr
  · ipureintro; exact hW'
  · iexact HO

end Cert.Proof.KI.Ga

end
-- ==== Proof.GatherTileV3.lean ====
import proofs.«204254_g40355512713743_retrytranche2_1723_12_alg».proof.Proof.Common
import Idealize.ShloMosaic.Lib.ValueIdx
import proofs.«204254_g40355512713743_retrytranche2_1723_12_alg».proof.Proof.GatherTileLib
import proofs.«204254_g40355512713743_retrytranche2_1723_12_alg».proof.Proof.GatherTileVal

noncomputable section

namespace Cert.Proof.KI.Ga

open Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 eq_ix1)

variable {F : FTy → Type}

local notation "𝕄" => MT nD τ sig (HIx 2) (Elt F) ℕ UU ℕ

variable [FloatOps F]

section V3

variable (ei : S12800000.Idx → Elt F .i32) (vt : S300000.Idx → Elt F .f32) (d : Dev nD) (L : grid0.Coords)

/-- Block `k` of the tile's chunk of its output, as the kernel slices it. -/
abbrev outS3 (k : Fin k0_t5_loop.trips) (hc : k0_cond3 L = 1#1) : Memref sig .scVector .hbm S8000 .f32 :=
  (d2V).slice (Rect.unit (s := S6400000) (k0_off18 L k) S8000.size (k0_off18_inb L k hc)) (fun _ => rfl)

omit [FloatOps F] in
theorem pts_blk3 (k : Fin k0_t5_loop.trips) (hc : k0_cond3 L = 1#1) (g : Buf (Elt F) (d2Loc d)) :
    ((outS3 L k hc).view.loc (thrV d L) ↦[(outS3 L k hc).view.set]{fullShare} g : sProp 𝕄)
      = (d2Loc d ↦[(outS3 L k hc).view.set]{fullShare} g) := rfl

omit [FloatOps F] in
theorem blk3_set (k : Fin k0_t5_loop.trips) (hc : k0_cond3 L = 1#1) :
    (outS3 L k hc).view.set = rng (800000 * (wid L - 16) + 8000 * k.val) (800000 * (wid L - 16) + 8000 * k.val + 8000) :=
  (d2_set (k0_off18 L k) (k0_off18_inb L k hc)).trans (by rw [off18_val L k hc])

omit [FloatOps F] in
theorem blk3_sub (k : Fin k0_t5_loop.trips) (hc : k0_cond3 L = 1#1) : (outS3 L k hc).view.set ⊆ chunk (wid L - 16) := by
  rw [blk3_set]
  have hk : k.val < 100 := Nat.lt_of_lt_of_le k.isLt k0_t5_abs.2.1
  intro j
  simp only [chunk, rng, Finset.mem_filter, Finset.mem_univ, true_and]
  omega

omit [FloatOps F] in
theorem pts_tab_access3 (ft : Buf (Elt F) ((thrV d L).loc cc0_scratch0)) :
    (((tabV).access (.whole S100000)).loc (thrV d L) ↦{fullShare} ft : sProp 𝕄) = ((tabV).view.loc (thrV d L) ↦{fullShare} ft) := rfl

/-- The inner loop's invariant: the table and the index blocks as they are, the out scratch's first `16 k` entries computed. -/
def invI3 (ft : Buf (Elt F) ((thrV d L).loc cc0_scratch0)) (base : Nat) (k : Nat) (_ : BitVec 32) : sProp 𝕄 :=
  iprop(((tabV).view.loc (thrV d L) ↦{fullShare} ft)
    ∗ (∃ fi : Buf (Elt F) ((thrV d L).loc cc0_scratch1), ⌜IdxOK ei base fi⌝ ∗ (ibV).view.loc (thrV d L) ↦{fullShare} fi)
    ∗ (∃ fj : Buf (Elt F) ((thrV d L).loc cc0_scratch2), ⌜IdxOK ei (6400000 + base) fj⌝ ∗ (jbV).view.loc (thrV d L) ↦{fullShare} fj)
    ∗ ∃ fo : Buf (Elt F) ((thrV d L).loc cc0_scratch3), ⌜∀ j : S8000.Idx, (j 0).val < 16 * k → fo j = dval 2 ei vt (base + (j 0).val)⌝
        ∗ (obV).view.loc (thrV d L) ↦{fullShare} fo)

/-- The block loop's invariant: the edge indices' read share, the chunk with its first `k` blocks computed, the table, the
    scratches, the three semaphores at zero, the tile's debts. -/
def invB3 (O : CellTallies nD τ sig (HIx 2)) (W : Waits sig (HIx 2)) (k : Nat) (_ : BitVec 32) : sProp 𝕄 :=
  iprop(Transfers.MayWaits (thrV d L) (none : HIx 2) O
    ∗ ((eiV).view.loc (thrV d L) ↦{tsh L} ei)
    ∗ (∃ g : Buf (Elt F) (d2Loc d), ⌜∀ j ∈ chunk (wid L - 16), (j 0).val < 800000 * (wid L - 16) + 8000 * k → g j = dval 2 ei vt (j 0).val⌝
        ∗ d2Loc d ↦[chunk (wid L - 16)]{fullShare} g)
    ∗ (∃ ft : Buf (Elt F) ((thrV d L).loc cc0_scratch0), ⌜TabOK vt 2 ft⌝ ∗ (tabV).view.loc (thrV d L) ↦{fullShare} ft)
    ∗ (∃ f, (ibV).view.loc (thrV d L) ↦{fullShare} f) ∗ (∃ f, (jbV).view.loc (thrV d L) ↦{fullShare} f) ∗ (∃ f, (obV).view.loc (thrV d L) ↦{fullShare} f)
    ∗ semVal (cellV d L cc0_scoped9) 0 ∗ semVal (cellV d L cc0_scoped10) 0 ∗ semVal (cellV d L cc0_scoped11) 0
    ∗ ∃ W', ⌜∀ p ∈ W', p ∈ W ∨ p.2 = none⌝ ∗ owes (thrV d L) O W')

end V3

set_option maxHeartbeats 4000000 in
theorem tile_v3 (ei : S12800000.Idx → Elt F .i32) (rf : S19200000.Idx → Elt F .f32) (vt : S300000.Idx → Elt F .f32)
    (hF : (K (F := F)).Facts) (hidx : ∀ j, (BitVec.toNat (show BitVec 32 from ei j)) < 100000) (d : Dev nD) (L : grid0.Coords) (h1 : ¬ k0_cond1 L = 1#1) (h2 : ¬ k0_cond2 L = 1#1) (hc : k0_cond3 L = 1#1) (h4 : ¬ k0_cond4 L = 1#1)
    (O : CellTallies nD τ sig (HIx 2)) (W : Waits sig (HIx 2)) (hO : ∀ g, O g none = 0) :
    iprop(levAts (K (F := F)).L (K (F := F)).lev ∗ go0 ei rf vt d L ∗ scopedBufs (thrV d L) ∗ scopedSems0 (thrV d L) ∗ owes (thrV d L) O W)
      ⊢ wp frame (wpE (defs₀ (F := F)) 𝒱₀ (thrV d L) none) Set.univ
          (cc0__sc_gather_body L (Memref.whole main_v0_scv) (Memref.isWhole_whole _) (Memref.whole main_v1_scv) (Memref.isWhole_whole _)
            (Memref.whole main_v3_scv) (Memref.isWhole_whole _) (Memref.whole main_v4_0_scv) (Memref.isWhole_whole _)
            (Memref.whole main_v4_1_scv) (Memref.isWhole_whole _) (Memref.whole main_v4_2_scv) (Memref.isWhole_whole _)
            (Memref.whole main_v4_3_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) cc0_scoped0 cc0_scoped1 cc0_scoped2 cc0_scoped3 cc0_scoped4 cc0_scoped5
            cc0_scoped6 cc0_scoped7 cc0_scoped8 cc0_scoped9 cc0_scoped10 cc0_scoped11 cc0_scoped12 cc0_scoped13)
          fun _ => iprop(td0 ei rf vt d L ∗ scopedBufs (thrV d L) ∗ scopedSems0 (thrV d L)
            ∗ ∃ W', ⌜∀ p ∈ W', p ∈ W ∨ p.2 = none⌝ ∗ owes (thrV d L) O W') := by
  have hw := (cond3_iff L).mp hc
  have hn8 : ¬ wid L < 8 := by omega
  have hn16 : ¬ wid L < 16 := by omega
  have h24 : wid L < 24 := hw.2
  have htI : k0_t6_loop.trips = 500 := by first | rfl | decide
  have htB : k0_t5_loop.trips = 100 := by first | rfl | decide
  simp only [cc0__sc_gather_body_eq_skeleton]; unfold cc0__sc_gather_body_skel
  rw [(K (F := F)).scopedBufs_V hF d (cV L) (jV L), SparseCore.Cfg.scopedSems0_V (Val := Elt F) d (cV L) (jV L),
    ownSems0_take4 d L cc0_scoped8 cc0_scoped9 cc0_scoped10 cc0_scoped11 (by decide) (by decide) (by decide) (by decide)
      (by decide) (by decide) (by decide) (by decide) (by decide) (by decide), ownBufs_V]
  unfold go0 td0 outGo outTd
  rw [if_neg hn8, if_neg hn16, if_pos h24, if_neg hn8, if_neg hn16, if_pos h24]
  iintro ⟨#Hlv, ⟨⟨Hei, Hrf, Hvt⟩, %g0, Hout⟩, ⟨⟨%ft0, Htab⟩, ⟨%fi0, Hib⟩, ⟨%fj0, Hjb⟩, ⟨%fo0, Hob⟩, Hbufs⟩, ⟨Hs0, Hs1, Hs2, Hs3, Hsems⟩, HO⟩
  ihave Hmw := ((K (F := F)).mayWaits_none (thr := thrV d L) hO) $$ Hlv
  ihave Hvt' := (Entails.of_eq (pts_vt (F := F) d L _ _).symm) $$ Hvt
  ihave Hei' := (Entails.of_eq (pts_ei (F := F) d L _ _).symm) $$ Hei
  ihave Htab' := (Entails.of_eq (pts_tab (F := F) d L _).symm) $$ Htab
  ihave Hib' := (Entails.of_eq (pts_ib (F := F) d L _).symm) $$ Hib
  ihave Hjb' := (Entails.of_eq (pts_jb (F := F) d L _).symm) $$ Hjb
  ihave Hob' := (Entails.of_eq (pts_ob (F := F) d L _).symm) $$ Hob
  sl_exec
  sl_for (invB3 ei vt d L O W) $$ [Hmw Hei' Hout Htab' Hib' Hjb' Hob' Hs1 Hs2 Hs3 HO]
  case region =>
    intro k _
    have hk : k.val < 100 := Nat.lt_of_lt_of_le k.isLt k0_t5_abs.2.1
    unfold invB3
    iintro ⟨Hmw, Hei, ⟨%g, %hg, Hout⟩, ⟨%ft, %hft, Htab⟩, ⟨%fi, Hib⟩, ⟨%fj, Hjb⟩, ⟨%fo, Hob⟩, Hs1, Hs2, Hs3, %W', %hW', HO⟩
    sl_exec (disch := exact View.amount_pos _ _ (show 0 < S8000.numel by decide))
    sl_for (invI3 ei vt d L ft (800000 * (wid L - 16) + 8000 * k.val)) $$ [Htab Hib Hjb Hob]
    case region =>
      intro k2 _
      have hk2 : k2.val < 500 := Nat.lt_of_lt_of_le k2.isLt k0_t6_abs.2.1
      unfold invI3
      iintro ⟨Htab, ⟨%fi', %hfi, Hib⟩, ⟨%fj', %hfj, Hjb⟩, %fo', %hfo, Hob⟩
      have hchkI : ∀ (off : Fin 1 → Nat) (inb : ∀ a, off a + S16.size a ≤ S8000.size a),
          k0_chk5 L ((ibV).view.readAt (Elt F) (Rect.unit (s := S8000) off S16.size inb).toLoadRect fi') := by
        intro off inb _ a x
        obtain rfl : a = (0 : Fin 1) := Subsingleton.elim (α := Fin 1) a 0
        show (BitVec.toNat ((ibV).view.readAt (Elt F) (Rect.unit (s := S8000) off S16.size inb).toLoadRect fi' x)) < 100000
        rw [load16_ib, hfi]; exact eAt_lt ei hidx _
      have hchkJ : ∀ (off : Fin 1 → Nat) (inb : ∀ a, off a + S16.size a ≤ S8000.size a),
          k0_chk6 L ((jbV).view.readAt (Elt F) (Rect.unit (s := S8000) off S16.size inb).toLoadRect fj') := by
        intro off inb _ a x
        obtain rfl : a = (0 : Fin 1) := Subsingleton.elim (α := Fin 1) a 0
        show (BitVec.toNat ((jbV).view.readAt (Elt F) (Rect.unit (s := S8000) off S16.size inb).toLoadRect fj' x)) < 100000
        rw [load16_jb, hfj]; exact eAt_lt ei hidx _
      sl_exec (disch := first | exact hchkI _ _ | exact hchkJ _ _)

      ihave Htab' := (Entails.of_eq (pts_tab_access3 (F := F) d L _).symm) $$ Htab
      iapply (SparseCore.wp_vectorLoadIdx 𝒱₀ (thrV d L) none Set.univ (base := tabV) (S := Finset.univ) (q := fullShare) (Finset.subset_univ _)) $$ Htab'; iintro Htab'
      ihave Htab := (Entails.of_eq (pts_tab_access3 (F := F) d L _)) $$ Htab'
      sl_exec (disch := first | exact hchkI _ _ | exact hchkJ _ _)
      ihave Htab' := (Entails.of_eq (pts_tab_access3 (F := F) d L _).symm) $$ Htab
      iapply (SparseCore.wp_vectorLoadIdx 𝒱₀ (thrV d L) none Set.univ (base := tabV) (S := Finset.univ) (q := fullShare) (Finset.subset_univ _)) $$ Htab'; iintro Htab'
      ihave Htab := (Entails.of_eq (pts_tab_access3 (F := F) d L _)) $$ Htab'
      sl_exec
      sl_step

      isplitl [Htab]; · iexact Htab
      isplitl [Hib]
      · iexists _; isplitr; · ipureintro; exact hfi
        iexact Hib
      isplitl [Hjb]
      · iexists _; isplitr; · ipureintro; exact hfj
        iexact Hjb
      iexists _; isplitr; rotate_left; · iexact Hob
      ipureintro
      exact trip_val d L ei vt 2 _ k2.val ft fi' fj' fo' hft hfi hfj k0_pay3 (fun _ _ => rfl) (k0_off15 k2) (k0_off16 k2) (k0_off17 k2) _ _ _
        (by rw [k0_off15_eq]; rfl) (by rw [k0_off16_eq]; rfl) (by rw [k0_off17_eq]; rfl) _ _ hfo
    · unfold invI3
      isplitl [Htab]; · iexact Htab
      isplitl [Hib]
      · iexists _; isplitr; rotate_left; · iexact Hib
        ipureintro; exact ib_val d L ei _ fi _ _ (off13_val L k hc)
      isplitl [Hjb]
      · iexists _; isplitr; rotate_left; · iexact Hjb
        ipureintro; exact jb_val d L ei _ fj _ _ (off14_val L k hc)
      iexists _; isplitr; rotate_left; · iexact Hob
      ipureintro; intro j hj; exact absurd hj (by omega)
    iintro %_ HI
    unfold invI3
    icases HI with ⟨Htab, ⟨%fi', %hfi, Hib⟩, ⟨%fj', %hfj, Hjb⟩, %fo', %hfo, Hob⟩
    ihave Hsp := (pointsTo_split_subset (ℓ := d2Loc d) (q := fullShare) (f := g) (blk3_sub L k hc)).1 $$ Hout
    icases Hsp with ⟨Hblk, Hrest⟩
    ihave Hblk' := (Entails.of_eq (pts_blk3 (F := F) d L k hc _).symm) $$ Hblk
    sl_exec (disch := exact View.amount_pos _ _ (show 0 < S8000.numel by decide))
    sl_step

    isplitl [Hmw]; · iexact Hmw
    isplitl [Hei]; · iexact Hei
    isplitl [Hblk' Hrest]
    · iexists _; isplitr; rotate_left
      · ihave Hblk := (Entails.of_eq (pts_blk3 (F := F) d L k hc _)) $$ Hblk'
        iapply (d2_rejoin (F := F) d (wid L - 16) g _ _ _ (blk3_sub L k hc))
        isplitl [Hblk]; · iexact Hblk
        iexact Hrest
      ipureintro
      rw [show 800000 * (wid L - 16) + 8000 * (k.val + 1) = (800000 * (wid L - 16) + 8000 * k.val) + 8000 by omega]
      exact d2_blk_val d L (dval 2 ei vt) _ _ g fo' _ _ (off18_val L k hc) _ (fun _ => rfl) hg
        (fun j => hfo j (by have := (j 0).isLt; simp at this; show (j 0).val < 16 * k0_t6_loop.trips; rw [htI]; omega))
    isplitl [Htab]
    · iexists ft; isplitr; · ipureintro; exact hft
      iexact Htab
    isplitl [Hib]; · iexists _; iexact Hib
    isplitl [Hjb]; · iexists _; iexact Hjb
    isplitl [Hob]; · iexists _; iexact Hob
    isplitl [Hs1]; · iexact Hs1
    isplitl [Hs2]; · iexact Hs2
    isplitl [Hs3]; · iexact Hs3
    iexists _; isplitr; rotate_left; · iexact HO
    ipureintro; exact waits_ok (waits_ok (waits_ok hW' _) _) _
  · unfold invB3
    isplitl [Hmw]; · iexact Hmw
    isplitl [Hei']; · iexact Hei'
    isplitl [Hout]
    · iexists g0; isplitr
      · ipureintro; intro j hj hlt; exfalso
        simp only [chunk, rng, Finset.mem_filter, Finset.mem_univ, true_and] at hj; omega
      iexact Hout
    isplitl [Htab']
    · iexists _; isplitr; rotate_left; · iexact Htab'
      ipureintro; exact tab_val d L vt 2 ft0 _ _ rfl
    isplitl [Hib']; · iexists _; iexact Hib'
    isplitl [Hjb']; · iexists _; iexact Hjb'
    isplitl [Hob']; · iexists _; iexact Hob'
    isplitl [Hs1]; · iexact Hs1
    isplitl [Hs2]; · iexact Hs2
    isplitl [Hs3]; · iexact Hs3
    iexists _; isplitr; rotate_left; · iexact HO
    ipureintro; exact waits_ok (fun p hp => .inl hp) _
  iintro %_ HI
  unfold invB3
  icases HI with ⟨-, Hei, ⟨%g, %hg, Hout⟩, ⟨%ft, %hft, Htab⟩, ⟨%fi, Hib⟩, ⟨%fj, Hjb⟩, ⟨%fo, Hob⟩, Hs1, Hs2, Hs3, %W', %hW', HO⟩
  sl_exec
  sl_step

  have hfin : ∀ i ∈ chunk (wid L - 16), g i = specD 2 ei vt i := by
    intro i hi
    refine (hg i hi ?_).trans (specD_dval 2 ei vt i).symm
    show (i 0).val < 800000 * (wid L - 16) + 8000 * k0_t5_loop.trips
    rw [htB]; simp only [chunk, rng, Finset.mem_filter, Finset.mem_univ, true_and] at hi; omega
  isplitl [Hei Hrf Hvt' Hout]
  · isplitl [Hei Hrf Hvt']
    · isplitl [Hei]; · iapply (Entails.of_eq (pts_ei (F := F) d L _ _)); iexact Hei
      isplitl [Hrf]; · iexact Hrf
      iapply (Entails.of_eq (pts_vt (F := F) d L _ _)); iexact Hvt'
    · iapply (Entails.of_eq (pointsTo_congr (ℓ := d2Loc d) (q := fullShare) hfin)); iexact Hout
  isplitl [Htab Hib Hjb Hob Hbufs]
  · isplitl [Htab]; · iexists _; iapply (Entails.of_eq (pts_tab (F := F) d L _)); iexact Htab
    isplitl [Hib]; · iexists _; iapply (Entails.of_eq (pts_ib (F := F) d L _)); iexact Hib
    isplitl [Hjb]; · iexists _; iapply (Entails.of_eq (pts_jb (F := F) d L _)); iexact Hjb
    isplitl [Hob]; · iexists _; iapply (Entails.of_eq (pts_ob (F := F) d L _)); iexact Hob
    iexact Hbufs
  isplitl [Hs0 Hs1 Hs2 Hs3 Hsems]
  · isplitl [Hs0]; · iexact Hs0
    isplitl [Hs1]; · iexact Hs1
    isplitl [Hs2]; · iexact Hs2
    isplitl [Hs3]; · iexact Hs3
    iexact Hsems
  iexists W'; isplitr
  · ipureintro; exact hW'
  · iexact HO

end Cert.Proof.KI.Ga

end
-- ==== Proof.GatherTileCall.lean ====
import proofs.«204254_g40355512713743_retrytranche2_1723_12_alg».proof.Proof.Common
import Idealize.ShloMosaic.Lib.ValueIdx
import proofs.«204254_g40355512713743_retrytranche2_1723_12_alg».proof.Proof.GatherTileDefs

noncomputable section

namespace Cert.Proof.KI.Ga

open Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 eq_ix1)

variable {F : FTy → Type}

local notation "𝕄" => MT nD τ sig (HIx 2) (Elt F) ℕ UU ℕ

variable [FloatOps F]

section Call

variable (ei : S12800000.Idx → Elt F .i32) (rf : S19200000.Idx → Elt F .f32) (vt : S300000.Idx → Elt F .f32) (d : Dev nD)

/-! ## Tiles by their numbers -/

omit [FloatOps F] in
/-- A tile's chunk of its output array at some contents, by the tile's number. -/
def outGoW (d : Dev nD) (w : Nat) : sProp 𝕄 :=
  if w < 8 then iprop(∃ g, d0Loc d ↦[chunk w]{fullShare} g)
  else if w < 16 then iprop(∃ g, d1Loc d ↦[chunk (w - 8)]{fullShare} g)
  else if w < 24 then iprop(∃ g, d2Loc d ↦[chunk (w - 16)]{fullShare} g)
  else iprop(∃ g, r2Loc d ↦[chunk (w - 24)]{fullShare} g)
/-- and at what the call computes. -/
def outTdW (d : Dev nD) (w : Nat) : sProp 𝕄 :=
  if w < 8 then iprop(d0Loc d ↦[chunk w]{fullShare} specD 0 ei vt)
  else if w < 16 then iprop(d1Loc d ↦[chunk (w - 8)]{fullShare} specD 1 ei vt)
  else if w < 24 then iprop(d2Loc d ↦[chunk (w - 16)]{fullShare} specD 2 ei vt)
  else iprop(r2Loc d ↦[chunk (w - 24)]{fullShare} specR2 rf)

omit [FloatOps F] in
theorem wid_coords0 (c : Fin 2) (i : Fin 16) : wid (coords0 c i) = 2 * i.val + c.val := rfl

/-- Tile numbers: twice the subcore plus the core. -/
def tileEquiv : Fin 2 × Fin 16 ≃ Fin 32 where
  toFun p := ⟨2 * p.2.val + p.1.val, by omega⟩
  invFun w := (⟨w.val % 2, by omega⟩, ⟨w.val / 2, by omega⟩)
  left_inv p := by ext <;> simp <;> omega
  right_inv w := by ext; simp; omega

omit [FloatOps F] in
/-- The two SparseCores' sixteen tiles each are the thirty-two tile numbers. -/
theorem tiles_eq (Φ : Nat → sProp 𝕄) :
    iprop((bigSep Finset.univ fun i : Fin 16 => Φ (2 * i.val + (0 : Fin 2).val)) ∗ (bigSep Finset.univ fun i : Fin 16 => Φ (2 * i.val + (1 : Fin 2).val)))
      = bigSep (Finset.univ : Finset (Fin 32)) fun w => Φ w.val := by
  refine Eq.symm ?_
  rw [bigSep_univ_equiv tileEquiv (fun w : Fin 32 => Φ w.val), bigSep_univ_prod, bigSep_univ_two]
  rfl

theorem st_eq : iprop(st0 ei rf vt d 0 ∗ st0 ei rf vt d 1)
    = bigSep (Finset.univ : Finset (Fin 32)) fun w => iprop(ins ei rf vt d (Transfers.shareTokN fullShare w.val) ∗ outGoW (F := F) d w.val) :=
  tiles_eq (fun w => iprop(ins ei rf vt d (Transfers.shareTokN fullShare w) ∗ outGoW (F := F) d w))
theorem dn_eq : iprop(dn0 ei rf vt d 0 ∗ dn0 ei rf vt d 1)
    = bigSep (Finset.univ : Finset (Fin 32)) fun w => iprop(ins ei rf vt d (Transfers.shareTokN fullShare w.val) ∗ outTdW ei rf vt d w.val) :=
  tiles_eq (fun w => iprop(ins ei rf vt d (Transfers.shareTokN fullShare w) ∗ outTdW ei rf vt d w))

omit [FloatOps F] in
theorem ex_intro_pts {ℓ : Loc nD τ sig} {I : Finset (Idx ℓ)} (f : Buf (Elt F) ℓ) :
    (ℓ ↦[I]{fullShare} f : sProp 𝕄) ⊢ iprop(∃ g, ℓ ↦[I]{fullShare} g) := by
  iintro H; iexists f; iexact H

/-! ## The eight tiles of an output array and their chunks -/

/-- The tile numbers `[lo, lo + 8)`. -/
def T8 (lo : Nat) : Finset (Fin 32) := Finset.univ.filter fun w => lo ≤ w.val ∧ w.val < lo + 8

omit [FloatOps F] in
theorem T8_cover : (Finset.univ : Finset (Fin 32)) = T8 0 ∪ (T8 8 ∪ (T8 16 ∪ T8 24)) := by decide
omit [FloatOps F] in
theorem T8_d1 : Disjoint (T8 0) (T8 8 ∪ (T8 16 ∪ T8 24)) := by decide
omit [FloatOps F] in
theorem T8_d2 : Disjoint (T8 8) (T8 16 ∪ T8 24) := by decide
omit [FloatOps F] in
theorem T8_d3 : Disjoint (T8 16) (T8 24) := by decide

omit [FloatOps F] in
theorem chunks_cover (lo : Nat) (hlo : lo + 8 ≤ 32) : (T8 lo).biUnion (fun w => chunk (w.val - lo)) = (Finset.univ : Finset S6400000.Idx) := by
  ext j
  have hj : (j 0).val < 6400000 := by have := (j 0).isLt; simp at this; omega
  simp only [Finset.mem_biUnion, Finset.mem_univ, iff_true]
  refine ⟨⟨lo + (j 0).val / 800000, by omega⟩, ?_, ?_⟩
  · unfold T8; simp only [Finset.mem_filter, Finset.mem_univ, true_and]; omega
  · simp only [chunk, rng, Finset.mem_filter, Finset.mem_univ, true_and]; omega

omit [FloatOps F] in
theorem chunks_disj (lo : Nat) : ∀ w ∈ T8 lo, ∀ w' ∈ T8 lo, w ≠ w' → Disjoint (chunk (w.val - lo)) (chunk (w'.val - lo)) := by
  intro w hw w' hw' hne
  unfold T8 at hw hw'
  simp only [Finset.mem_filter, Finset.mem_univ, true_and] at hw hw'
  rw [Finset.disjoint_left]
  intro j hj hj'
  simp only [chunk, rng, Finset.mem_filter, Finset.mem_univ, true_and] at hj hj'
  exact hne (Fin.ext (by omega))

omit [FloatOps F] in
theorem d0Loc_chunks (f : Buf (Elt F) (d0Loc d)) :
    (d0Loc d ↦{fullShare} f : sProp 𝕄) = bigSep (T8 0) fun w => d0Loc d ↦[chunk (w.val - 0)]{fullShare} f := by
  rw [← pointsTo_biUnion (T8 0) (ℓ := d0Loc d) (fun w => chunk (w.val - 0)) (chunks_disj 0), chunks_cover 0 (by omega)]

omit [FloatOps F] in
theorem d0Loc_go : iprop(∃ f, d0Loc d ↦{fullShare} f) ⊢ (bigSep (T8 0) fun w => outGoW (F := F) d w.val : sProp 𝕄) := by
  have key : ∀ f : Buf (Elt F) (d0Loc d), (d0Loc d ↦{fullShare} f : sProp 𝕄) ⊢ bigSep (T8 0) fun w => outGoW (F := F) d w.val := by
    intro f
    rw [d0Loc_chunks]
    refine bigSep_mono ?_
    intro w hw
    unfold T8 at hw; simp only [Finset.mem_filter, Finset.mem_univ, true_and] at hw
    unfold outGoW
    rw [if_pos (by omega)]
    exact ex_intro_pts f
  iintro ⟨%f, H⟩
  iapply (key f); iexact H

theorem d0Loc_td : (bigSep (T8 0) fun w => outTdW ei rf vt d w.val : sProp 𝕄) ⊢ (d0Loc d ↦{fullShare} specD 0 ei vt) := by
  rw [d0Loc_chunks]
  refine bigSep_mono ?_
  intro w hw
  unfold T8 at hw; simp only [Finset.mem_filter, Finset.mem_univ, true_and] at hw
  unfold outTdW
  rw [if_pos (by omega)]
  exact Entails.refl _

omit [FloatOps F] in
theorem d1Loc_chunks (f : Buf (Elt F) (d1Loc d)) :
    (d1Loc d ↦{fullShare} f : sProp 𝕄) = bigSep (T8 8) fun w => d1Loc d ↦[chunk (w.val - 8)]{fullShare} f := by
  rw [← pointsTo_biUnion (T8 8) (ℓ := d1Loc d) (fun w => chunk (w.val - 8)) (chunks_disj 8), chunks_cover 8 (by omega)]

omit [FloatOps F] in
theorem d1Loc_go : iprop(∃ f, d1Loc d ↦{fullShare} f) ⊢ (bigSep (T8 8) fun w => outGoW (F := F) d w.val : sProp 𝕄) := by
  have key : ∀ f : Buf (Elt F) (d1Loc d), (d1Loc d ↦{fullShare} f : sProp 𝕄) ⊢ bigSep (T8 8) fun w => outGoW (F := F) d w.val := by
    intro f
    rw [d1Loc_chunks]
    refine bigSep_mono ?_
    intro w hw
    unfold T8 at hw; simp only [Finset.mem_filter, Finset.mem_univ, true_and] at hw
    unfold outGoW
    rw [if_neg (by omega), if_pos (by omega)]
    exact ex_intro_pts f
  iintro ⟨%f, H⟩
  iapply (key f); iexact H

theorem d1Loc_td : (bigSep (T8 8) fun w => outTdW ei rf vt d w.val : sProp 𝕄) ⊢ (d1Loc d ↦{fullShare} specD 1 ei vt) := by
  rw [d1Loc_chunks]
  refine bigSep_mono ?_
  intro w hw
  unfold T8 at hw; simp only [Finset.mem_filter, Finset.mem_univ, true_and] at hw
  unfold outTdW
  rw [if_neg (by omega), if_pos (by omega)]
  exact Entails.refl _

omit [FloatOps F] in
theorem d2Loc_chunks (f : Buf (Elt F) (d2Loc d)) :
    (d2Loc d ↦{fullShare} f : sProp 𝕄) = bigSep (T8 16) fun w => d2Loc d ↦[chunk (w.val - 16)]{fullShare} f := by
  rw [← pointsTo_biUnion (T8 16) (ℓ := d2Loc d) (fun w => chunk (w.val - 16)) (chunks_disj 16), chunks_cover 16 (by omega)]

omit [FloatOps F] in
theorem d2Loc_go : iprop(∃ f, d2Loc d ↦{fullShare} f) ⊢ (bigSep (T8 16) fun w => outGoW (F := F) d w.val : sProp 𝕄) := by
  have key : ∀ f : Buf (Elt F) (d2Loc d), (d2Loc d ↦{fullShare} f : sProp 𝕄) ⊢ bigSep (T8 16) fun w => outGoW (F := F) d w.val := by
    intro f
    rw [d2Loc_chunks]
    refine bigSep_mono ?_
    intro w hw
    unfold T8 at hw; simp only [Finset.mem_filter, Finset.mem_univ, true_and] at hw
    unfold outGoW
    rw [if_neg (by omega), if_neg (by omega), if_pos (by omega)]
    exact ex_intro_pts f
  iintro ⟨%f, H⟩
  iapply (key f); iexact H

theorem d2Loc_td : (bigSep (T8 16) fun w => outTdW ei rf vt d w.val : sProp 𝕄) ⊢ (d2Loc d ↦{fullShare} specD 2 ei vt) := by
  rw [d2Loc_chunks]
  refine bigSep_mono ?_
  intro w hw
  unfold T8 at hw; simp only [Finset.mem_filter, Finset.mem_univ, true_and] at hw
  unfold outTdW
  rw [if_neg (by omega), if_neg (by omega), if_pos (by omega)]
  exact Entails.refl _

omit [FloatOps F] in
theorem r2Loc_chunks (f : Buf (Elt F) (r2Loc d)) :
    (r2Loc d ↦{fullShare} f : sProp 𝕄) = bigSep (T8 24) fun w => r2Loc d ↦[chunk (w.val - 24)]{fullShare} f := by
  rw [← pointsTo_biUnion (T8 24) (ℓ := r2Loc d) (fun w => chunk (w.val - 24)) (chunks_disj 24), chunks_cover 24 (by omega)]

omit [FloatOps F] in
theorem r2Loc_go : iprop(∃ f, r2Loc d ↦{fullShare} f) ⊢ (bigSep (T8 24) fun w => outGoW (F := F) d w.val : sProp 𝕄) := by
  have key : ∀ f : Buf (Elt F) (r2Loc d), (r2Loc d ↦{fullShare} f : sProp 𝕄) ⊢ bigSep (T8 24) fun w => outGoW (F := F) d w.val := by
    intro f
    rw [r2Loc_chunks]
    refine bigSep_mono ?_
    intro w hw
    unfold T8 at hw; simp only [Finset.mem_filter, Finset.mem_univ, true_and] at hw
    unfold outGoW
    rw [if_neg (by omega), if_neg (by omega), if_neg (by omega)]
    exact ex_intro_pts f
  iintro ⟨%f, H⟩
  iapply (key f); iexact H

theorem r2Loc_td : (bigSep (T8 24) fun w => outTdW ei rf vt d w.val : sProp 𝕄) ⊢ (r2Loc d ↦{fullShare} specR2 rf) := by
  rw [r2Loc_chunks]
  refine bigSep_mono ?_
  intro w hw
  unfold T8 at hw; simp only [Finset.mem_filter, Finset.mem_univ, true_and] at hw
  unfold outTdW
  rw [if_neg (by omega), if_neg (by omega), if_neg (by omega)]
  exact Entails.refl _

omit [FloatOps F] in
theorem outs_go : iprop((∃ f, r2Loc d ↦{fullShare} f) ∗ (∃ f, d0Loc d ↦{fullShare} f) ∗ (∃ f, d1Loc d ↦{fullShare} f) ∗ ∃ f, d2Loc d ↦{fullShare} f)
    ⊢ (bigSep (Finset.univ : Finset (Fin 32)) fun w => outGoW (F := F) d w.val : sProp 𝕄) := by
  rw [T8_cover, SparseCore.bigSep_union' T8_d1, SparseCore.bigSep_union' T8_d2, SparseCore.bigSep_union' T8_d3]
  iintro ⟨H3, H0, H1, H2⟩
  isplitl [H0]; · iapply (d0Loc_go (F := F) d); iexact H0
  isplitl [H1]; · iapply (d1Loc_go (F := F) d); iexact H1
  isplitl [H2]; · iapply (d2Loc_go (F := F) d); iexact H2
  iapply (r2Loc_go (F := F) d); iexact H3

theorem outs_td : (bigSep (Finset.univ : Finset (Fin 32)) fun w => outTdW ei rf vt d w.val : sProp 𝕄)
    ⊢ iprop((r2Loc d ↦{fullShare} specR2 rf) ∗ (d0Loc d ↦{fullShare} specD 0 ei vt) ∗ (d1Loc d ↦{fullShare} specD 1 ei vt) ∗ d2Loc d ↦{fullShare} specD 2 ei vt) := by
  rw [T8_cover, SparseCore.bigSep_union' T8_d1, SparseCore.bigSep_union' T8_d2, SparseCore.bigSep_union' T8_d3]
  iintro ⟨H0, H1, H2, H3⟩
  isplitl [H3]; · iapply (r2Loc_td ei rf vt d); iexact H3
  isplitl [H0]; · iapply (d0Loc_td ei rf vt d); iexact H0
  isplitl [H1]; · iapply (d1Loc_td ei rf vt d); iexact H1
  iapply (d2Loc_td ei rf vt d); iexact H2

end Call

theorem callSplit0 (ei : S12800000.Idx → Elt F .i32) (rf : S19200000.Idx → Elt F .f32) (vt : S300000.Idx → Elt F .f32) (d : Dev nD) :
    iprop((eiLoc d ↦{fullShare} ei) ∗ (rfLoc d ↦{fullShare} rf) ∗ (vtLoc d ↦{fullShare} vt) ∗ (∃ f, r2Loc d ↦{fullShare} f)
        ∗ (∃ f, d0Loc d ↦{fullShare} f) ∗ (∃ f, d1Loc d ↦{fullShare} f) ∗ ∃ f, d2Loc d ↦{fullShare} f)
      ⊢ (iprop(rem0 ei rf vt d ∗ st0 ei rf vt d 0 ∗ st0 ei rf vt d 1) : sProp 𝕄) := by
  rw [st_eq, bigSep_sep', bigSep_sep', bigSep_sep']
  unfold rem0
  iintro ⟨Hei, Hrf, Hvt, Hout⟩
  ihave Hei' := (Transfers.pointsTo_toks_split (ℓ := eiLoc d) (S := Finset.univ) (f := ei) fullShare 32) $$ Hei
  icases Hei' with ⟨Heir, Heit⟩
  ihave Hrf' := (Transfers.pointsTo_toks_split (ℓ := rfLoc d) (S := Finset.univ) (f := rf) fullShare 32) $$ Hrf
  icases Hrf' with ⟨Hrfr, Hrft⟩
  ihave Hvt' := (Transfers.pointsTo_toks_split (ℓ := vtLoc d) (S := Finset.univ) (f := vt) fullShare 32) $$ Hvt
  icases Hvt' with ⟨Hvtr, Hvtt⟩
  isplitl [Heir Hrfr Hvtr]
  · isplitl [Heir]; · iexact Heir
    isplitl [Hrfr]; · iexact Hrfr
    iexact Hvtr
  isplitl [Heit Hrft Hvtt]
  · isplitl [Heit]; · iexact Heit
    isplitl [Hrft]; · iexact Hrft
    iexact Hvtt
  iapply (outs_go (F := F) d); iexact Hout

theorem callJoin0 (ei : S12800000.Idx → Elt F .i32) (rf : S19200000.Idx → Elt F .f32) (vt : S300000.Idx → Elt F .f32) (d : Dev nD) :
    iprop(rem0 ei rf vt d ∗ dn0 ei rf vt d 0 ∗ dn0 ei rf vt d 1)
      ⊢ (iprop((eiLoc d ↦{fullShare} ei) ∗ (rfLoc d ↦{fullShare} rf) ∗ (vtLoc d ↦{fullShare} vt) ∗ (r2Loc d ↦{fullShare} specR2 rf)
        ∗ (d0Loc d ↦{fullShare} specD 0 ei vt) ∗ (d1Loc d ↦{fullShare} specD 1 ei vt) ∗ d2Loc d ↦{fullShare} specD 2 ei vt) : sProp 𝕄) := by
  rw [dn_eq, bigSep_sep', bigSep_sep', bigSep_sep']
  unfold rem0
  iintro ⟨⟨Heir, Hrfr, Hvtr⟩, ⟨Heit, Hrft, Hvtt⟩, Hout⟩
  isplitl [Heir Heit]
  · iapply (Transfers.pointsTo_toks_join (ℓ := eiLoc d) (S := Finset.univ) (f := ei) fullShare 32)
    isplitl [Heir]; · iexact Heir
    iexact Heit
  isplitl [Hrfr Hrft]
  · iapply (Transfers.pointsTo_toks_join (ℓ := rfLoc d) (S := Finset.univ) (f := rf) fullShare 32)
    isplitl [Hrfr]; · iexact Hrfr
    iexact Hrft
  isplitl [Hvtr Hvtt]
  · iapply (Transfers.pointsTo_toks_join (ℓ := vtLoc d) (S := Finset.univ) (f := vt) fullShare 32)
    isplitl [Hvtr]; · iexact Hvtr
    iexact Hvtt
  iapply (outs_td ei rf vt d); iexact Hout

end Cert.Proof.KI.Ga

end
-- ==== Proof.GatherTile.lean ====
import proofs.«204254_g40355512713743_retrytranche2_1723_12_alg».proof.Proof.Common
import Idealize.ShloMosaic.Lib.ValueIdx
import proofs.«204254_g40355512713743_retrytranche2_1723_12_alg».proof.Proof.GatherTileV1
import proofs.«204254_g40355512713743_retrytranche2_1723_12_alg».proof.Proof.GatherTileV2
import proofs.«204254_g40355512713743_retrytranche2_1723_12_alg».proof.Proof.GatherTileV3
import proofs.«204254_g40355512713743_retrytranche2_1723_12_alg».proof.Proof.GatherTileStmt
import proofs.«204254_g40355512713743_retrytranche2_1723_12_alg».proof.Proof.GatherTileCall

noncomputable section

namespace Cert.Proof.KI.Ga

open Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 eq_ix1)

variable {F : FTy → Type}

local notation "𝕄" => MT nD τ sig (HIx 2) (Elt F) ℕ UU ℕ

variable [FloatOps F]

/-- A tile's task, whichever of the four branches its number selects; the row task's obligation is taken as given. -/
theorem tile_body0 (hr : TileR F) (ei : S12800000.Idx → Elt F .i32) (rf : S19200000.Idx → Elt F .f32) (vt : S300000.Idx → Elt F .f32)
    (hF : (K (F := F)).Facts) (hidx : ∀ j, (BitVec.toNat (show BitVec 32 from ei j)) < 100000) (d : Dev nD) (L : grid0.Coords)
    (O : CellTallies nD τ sig (HIx 2)) (W : Waits sig (HIx 2)) (hO : ∀ g, O g none = 0) :
    iprop(levAts (K (F := F)).L (K (F := F)).lev ∗ go0 ei rf vt d L ∗ scopedBufs (thrV d L) ∗ scopedSems0 (thrV d L) ∗ owes (thrV d L) O W)
      ⊢ wp frame (wpE (defs₀ (F := F)) 𝒱₀ (thrV d L) none) Set.univ
          (cc0__sc_gather_body L (Memref.whole main_v0_scv) (Memref.isWhole_whole _) (Memref.whole main_v1_scv) (Memref.isWhole_whole _)
            (Memref.whole main_v3_scv) (Memref.isWhole_whole _) (Memref.whole main_v4_0_scv) (Memref.isWhole_whole _)
            (Memref.whole main_v4_1_scv) (Memref.isWhole_whole _) (Memref.whole main_v4_2_scv) (Memref.isWhole_whole _)
            (Memref.whole main_v4_3_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) cc0_scoped0 cc0_scoped1 cc0_scoped2 cc0_scoped3 cc0_scoped4 cc0_scoped5
            cc0_scoped6 cc0_scoped7 cc0_scoped8 cc0_scoped9 cc0_scoped10 cc0_scoped11 cc0_scoped12 cc0_scoped13)
          fun _ => iprop(td0 ei rf vt d L ∗ scopedBufs (thrV d L) ∗ scopedSems0 (thrV d L)
            ∗ ∃ W', ⌜∀ p ∈ W', p ∈ W ∨ p.2 = none⌝ ∗ owes (thrV d L) O W') := by
  by_cases h1 : k0_cond1 L = 1#1
  · have hw := (cond1_iff L).mp h1
    exact tile_v1 ei rf vt hF hidx d L h1 (fun h => by have := (cond2_iff L).mp h; omega) (fun h => by have := (cond3_iff L).mp h; omega)
      (fun h => by have := (cond4_iff L).mp h; omega) O W hO
  by_cases h2 : k0_cond2 L = 1#1
  · have hw := (cond2_iff L).mp h2
    exact tile_v2 ei rf vt hF hidx d L h1 h2 (fun h => by have := (cond3_iff L).mp h; omega) (fun h => by have := (cond4_iff L).mp h; omega) O W hO
  by_cases h3 : k0_cond3 L = 1#1
  · have hw := (cond3_iff L).mp h3
    exact tile_v3 ei rf vt hF hidx d L h1 h2 h3 (fun h => by have := (cond4_iff L).mp h; omega) O W hO
  have n1 : ¬ wid L < 8 := fun h => h1 ((cond1_iff L).mpr h)
  have n2 : ¬ (8 ≤ wid L ∧ wid L < 16) := fun h => h2 ((cond2_iff L).mpr h)
  have n3 : ¬ (16 ≤ wid L ∧ wid L < 24) := fun h => h3 ((cond3_iff L).mpr h)
  have h4 : k0_cond4 L = 1#1 := (cond4_iff L).mpr (by omega)
  exact hr ei rf vt hF hidx d L h1 h2 h3 h4 O W hO

theorem vecSplit0 (ei : S12800000.Idx → Elt F .i32) (rf : S19200000.Idx → Elt F .f32) (vt : S300000.Idx → Elt F .f32) (d : Dev nD) (c : Fin 2) :
    st0 ei rf vt d c ⊢ |={Set.univ}=> iprop((bigSep Finset.univ fun i : Fin 16 => go0 ei rf vt d (coords0 c i))
      ∗ ((bigSep Finset.univ fun i : Fin 16 => td0 ei rf vt d (coords0 c i)) -∗ dn0 ei rf vt d c)) := by
  unfold st0 dn0
  iintro H; imodintro
  isplitl [H]; · iexact H
  iintro H; iexact H

end Cert.Proof.KI.Ga

end
-- ==== Proof.MainA.lean ====
/-
  @main on the TensorCore inside the SparseCore launch: the host operations over the held set of @main's arrays, the two SparseCore calls, the two pipeline regions.
-/
import proofs.«204254_g40355512713743_retrytranche2_1723_12_alg».proof.Proof.Common
import proofs.«204254_g40355512713743_retrytranche2_1723_12_alg».proof.Proof.ScatterTile
import proofs.«204254_g40355512713743_retrytranche2_1723_12_alg».proof.Proof.GatherTile
import proofs.«204254_g40355512713743_retrytranche2_1723_12_alg».proof.Proof.GatherTileCall
import Idealize.ShloMosaic.Lib.Pipeline.Frame
import Idealize.ShloMosaic.Lib.Pipeline.Regions

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable [∀ e, Nonempty (Elt F e)]
variable (m : (ℓ : Loc nD τ sig) → Buf (Elt F) ℓ) (ρ : Dev nD → PrngReg)

open Idealize.ShloMosaic.StableHlo (held wp_hlo_within)
open Idealize.ShloMosaic.Pipeline (ucRefs unscopedBufs_held sub_ucRefs)

/-! ## @main's host operations -/

abbrev hop0 : HloOp τ sig (Elt F) := StableHlo.reshape main_arg0 main_v0 rfl shapeCasts_S2x6400000_S12800000
abbrev hop1 : HloOp τ sig (Elt F) := StableHlo.reshape main_arg1 main_v1 rfl shapeCasts_S6400000x3_S19200000
abbrev hop2 : HloOp τ sig (Elt F) := StableHlo.unary main_arg2 main_v2 ((transpose S3x100000 [1, 0] · transposes_S100000x3_S3x100000_1_0) : (⟨S100000x3, .f32⟩ : BufTy).Contents (Elt F) → (⟨S3x100000, .f32⟩ : BufTy).Contents (Elt F))
abbrev hop3 : HloOp τ sig (Elt F) := StableHlo.reshape main_v2 main_v3 rfl shapeCasts_S3x100000_S300000
abbrev hop5 : HloOp τ sig (Elt F) := StableHlo.reshape main_arg4 main_v5 rfl shapeCasts_S32_S32x1
abbrev hop6 : HloOp τ sig (Elt F) := StableHlo.reshape main_arg6 main_v6 rfl shapeCasts_S32_S32x1
abbrev hop7 : HloOp τ sig (Elt F) := StableHlo.reshape main_arg7 main_v7 rfl shapeCasts_S1x32_S32x1
abbrev hop8 : HloOp τ sig (Elt F) := StableHlo.reshape main_arg8 main_v8 rfl shapeCasts_S1_S1x1
abbrev hop11 : HloOp τ sig (Elt F) := StableHlo.reshape main_v10 main_v11 rfl shapeCasts_S3200000_S32x100000
abbrev hop13 : HloOp τ sig (Elt F) := StableHlo.reshape main_v12 main_v13 rfl shapeCasts_S1x100000_S100000x1

omit [FloatOps F] [∀ e, Nonempty (Elt F e)] in
theorem pair_sub_uc (op : HloOp τ sig (Elt F)) (x y : Ref sig .tc) (h : op.bufs = {Proc.devRef .tc x, Proc.devRef .tc y}) : op.bufs ⊆ ucRefs τ sig :=
  sub_ucRefs op (by
    rw [h]; intro b hb
    rcases Finset.mem_insert.mp hb with rfl | hb
    · exact StableHlo.devRef_mem_tcRefs _
    · rw [Finset.mem_singleton.mp hb]; exact StableHlo.devRef_mem_tcRefs _)

theorem hs0 : (hop0 (F := F)).bufs ⊆ ucRefs τ sig := pair_sub_uc _ main_arg0 main_v0 rfl
theorem hs1 : (hop1 (F := F)).bufs ⊆ ucRefs τ sig := pair_sub_uc _ main_arg1 main_v1 rfl
theorem hs2 : (hop2 (F := F)).bufs ⊆ ucRefs τ sig := pair_sub_uc _ main_arg2 main_v2 rfl
theorem hs3 : (hop3 (F := F)).bufs ⊆ ucRefs τ sig := pair_sub_uc _ main_v2 main_v3 rfl
theorem hs5 : (hop5 (F := F)).bufs ⊆ ucRefs τ sig := pair_sub_uc _ main_arg4 main_v5 rfl
theorem hs6 : (hop6 (F := F)).bufs ⊆ ucRefs τ sig := pair_sub_uc _ main_arg6 main_v6 rfl
theorem hs7 : (hop7 (F := F)).bufs ⊆ ucRefs τ sig := pair_sub_uc _ main_arg7 main_v7 rfl
theorem hs8 : (hop8 (F := F)).bufs ⊆ ucRefs τ sig := pair_sub_uc _ main_arg8 main_v8 rfl
theorem hs11 : (hop11 (F := F)).bufs ⊆ ucRefs τ sig := pair_sub_uc _ main_v10 main_v11 rfl
theorem hs13 : (hop13 (F := F)).bufs ⊆ ucRefs τ sig := pair_sub_uc _ main_v12 main_v13 rfl

/-! ## The arrays' contents along @main -/

/-- As launched. -/
def V0 (d : Dev nD) : Valuation τ sig (Elt F) := fun b => m (d, b)
/-- After the four host operations before the first SparseCore call. -/
def Va (d : Dev nD) : Valuation τ sig (Elt F) := (hop3 (F := F)).result ((hop2 (F := F)).result ((hop1 (F := F)).result ((hop0 (F := F)).result (V0 m d))))

abbrev rV (b : Ref sig .tc) : DevRef τ sig := Proc.devRef .tc b

theorem unscoped_held (d : Dev nD) : (unscopedBufs d (fun b => m ((SparseCore.T d).loc b)) : sProp 𝕄) = held (SparseCore.T d) (ucRefs τ sig) (V0 m d) :=
  unscopedBufs_held (Ix := HIx 2) (Name := ℕ) (U := UU) (Lvl := ℕ) d (V0 m d)

/-- @main up to the first SparseCore call: the four host operations, the held set at `Va`. -/
theorem hmain_A (κ : GSem nD τ sig → ℕ) (d : Dev nD) {Φ : PUnit → sProp 𝕄} {k : Prog (TpuEff nD τ sig (Elt F) (SparseCore.Sig (ΛP (F := F)) 2) .tc) PUnit} :
    iprop(boundary (SparseCore.T d) ∗ held (SparseCore.T d) (ucRefs τ sig) (V0 m d)
        ∗ ((boundary (SparseCore.T d) ∗ held (SparseCore.T d) (ucRefs τ sig) (Va m d))
            -∗ wp frame (wpE ((K (F := F)).defs (D (F := F))) 𝒱 (SparseCore.T d) none) Set.univ k Φ))
      ⊢ wp frame (wpE ((K (F := F)).defs (D (F := F))) 𝒱 (SparseCore.T d) none) Set.univ
          (hlo rfl (hop0 (F := F)) (fun _ => Prog.ret PUnit.unit) >>= fun _ => hlo rfl (hop1 (F := F)) (fun _ => Prog.ret PUnit.unit) >>= fun _ =>
            hlo rfl (hop2 (F := F)) (fun _ => Prog.ret PUnit.unit) >>= fun _ => hlo rfl (hop3 (F := F)) (fun _ => Prog.ret PUnit.unit) >>= fun _ => k) Φ := by
  simp only [wp_bind]
  iintro ⟨Hb, Hheld, Hk⟩
  iapply (wp_hlo_within 𝒱 (SparseCore.T d) none Set.univ (op := hop0) (S := ucRefs τ sig) hs0 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := hop1) (S := ucRefs τ sig) hs1) $$ [Hb Hheld]
  · isplitl [Hb]; · iexact Hb
    iexact Hheld
  iintro ⟨Hb, Hheld⟩
  rw [wp_ret]; imodintro
  iapply (wp_hlo_within 𝒱 (SparseCore.T d) none Set.univ (op := hop2) (S := ucRefs τ sig) hs2) $$ [Hb Hheld]
  · isplitl [Hb]; · iexact Hb
    iexact Hheld
  iintro ⟨Hb, Hheld⟩
  rw [wp_ret]; imodintro
  iapply (wp_hlo_within 𝒱 (SparseCore.T d) none Set.univ (op := hop3) (S := ucRefs τ sig) hs3) $$ [Hb Hheld]
  · isplitl [Hb]; · iexact Hb
    iexact Hheld
  iintro ⟨Hb, Hheld⟩
  rw [wp_ret]; imodintro
  iapply Hk
  isplitl [Hb]; · iexact Hb
  iexact Hheld

/-! ## Held sets: one array out, one array back -/

section HeldOne
open Idealize.ShloMosaic.StableHlo (held)

omit [FloatOps F] [∀ e, Nonempty (Elt F e)] in
/-- One array out of a held set. -/
theorem held_take (c : Thread nD τ) {S : Finset (DevRef τ sig)} {b : DevRef τ sig} (hb : b ∈ S) (V : Valuation τ sig (Elt F)) :
    (held c S V : sProp 𝕄) = iprop(((c.1, b) ↦{fullShare} V b) ∗ held c (S.erase b) V) := by
  unfold held
  exact SparseCore.bigSep_erase' hb

omit [FloatOps F] [∀ e, Nonempty (Elt F e)] in
/-- One array back into a held set, at new contents. -/
theorem held_put (c : Thread nD τ) {S : Finset (DevRef τ sig)} {b : DevRef τ sig} (hb : b ∈ S) (V : Valuation τ sig (Elt F)) (f : Buf (Elt F) (c.1, b)) :
    iprop(((c.1, b) ↦{fullShare} f) ∗ held c (S.erase b) V) ⊢ (held c S (Function.update V b f) : sProp 𝕄) := by
  rw [held_take c hb (Function.update V b f), Function.update_self]
  refine sep_mono_right (Entails.of_eq ?_)
  exact StableHlo.held_congr c fun b' hb' => (Function.update_of_ne (Finset.ne_of_mem_erase hb') _ _).symm

end HeldOne

/-! ## The contents the first SparseCore call reads, and what it leaves -/

abbrev eiOf (d : Dev nD) : S12800000.Idx → Elt F .i32 := Va m d (rV main_v0)
abbrev rfOf (d : Dev nD) : S19200000.Idx → Elt F .f32 := Va m d (rV main_v1)
abbrev vtOf (d : Dev nD) : S300000.Idx → Elt F .f32 := Va m d (rV main_v3)

/-- After the first SparseCore call: the four result arrays at the gather kernel's functions of the flattened inputs. -/
def Vb (d : Dev nD) : Valuation τ sig (Elt F) :=
  Function.update (Function.update (Function.update (Function.update (Va m d)
    (rV main_v4_0) (Ga.specR2 (rfOf m d))) (rV main_v4_1) (Ga.specD 0 (eiOf m d) (vtOf m d)))
    (rV main_v4_2) (Ga.specD 1 (eiOf m d) (vtOf m d))) (rV main_v4_3) (Ga.specD 2 (eiOf m d) (vtOf m d))

/-- After the four reshapes of the bias and last-layer arrays. -/
def Vc (d : Dev nD) : Valuation τ sig (Elt F) := (hop8 (F := F)).result ((hop7 (F := F)).result ((hop6 (F := F)).result ((hop5 (F := F)).result (Vb m d))))

/-- The four reshapes between the first SparseCore call and the first pipeline region. -/
theorem hmain_C (d : Dev nD) (V : Valuation τ sig (Elt F)) {Φ : PUnit → sProp 𝕄} {k : Prog (TpuEff nD τ sig (Elt F) (SparseCore.Sig (ΛP (F := F)) 2) .tc) PUnit} :
    iprop(boundary (SparseCore.T d) ∗ held (SparseCore.T d) (ucRefs τ sig) V
        ∗ ((boundary (SparseCore.T d) ∗ held (SparseCore.T d) (ucRefs τ sig) ((hop8 (F := F)).result ((hop7 (F := F)).result ((hop6 (F := F)).result ((hop5 (F := F)).result V)))))
            -∗ wp frame (wpE ((K (F := F)).defs (D (F := F))) 𝒱 (SparseCore.T d) none) Set.univ k Φ))
      ⊢ wp frame (wpE ((K (F := F)).defs (D (F := F))) 𝒱 (SparseCore.T d) none) Set.univ
          (hlo rfl (hop5 (F := F)) (fun _ => Prog.ret PUnit.unit) >>= fun _ => hlo rfl (hop6 (F := F)) (fun _ => Prog.ret PUnit.unit) >>= fun _ =>
            hlo rfl (hop7 (F := F)) (fun _ => Prog.ret PUnit.unit) >>= fun _ => hlo rfl (hop8 (F := F)) (fun _ => Prog.ret PUnit.unit) >>= fun _ => k) Φ := by
  simp only [wp_bind]
  iintro ⟨Hb, Hheld, Hk⟩
  iapply (wp_hlo_within 𝒱 (SparseCore.T d) none Set.univ (op := hop5) (S := ucRefs τ sig) hs5 (V := V)) $$ [Hb Hheld]
  · isplitl [Hb]; · iexact Hb
    iexact Hheld
  iintro ⟨Hb, Hheld⟩
  rw [wp_ret]; imodintro
  iapply (wp_hlo_within 𝒱 (SparseCore.T d) none Set.univ (op := hop6) (S := ucRefs τ sig) hs6) $$ [Hb Hheld]
  · isplitl [Hb]; · iexact Hb
    iexact Hheld
  iintro ⟨Hb, Hheld⟩
  rw [wp_ret]; imodintro
  iapply (wp_hlo_within 𝒱 (SparseCore.T d) none Set.univ (op := hop7) (S := ucRefs τ sig) hs7) $$ [Hb Hheld]
  · isplitl [Hb]; · iexact Hb
    iexact Hheld
  iintro ⟨Hb, Hheld⟩
  rw [wp_ret]; imodintro
  iapply (wp_hlo_within 𝒱 (SparseCore.T d) none Set.univ (op := hop8) (S := ucRefs τ sig) hs8) $$ [Hb Hheld]
  · isplitl [Hb]; · iexact Hb
    iexact Hheld
  iintro ⟨Hb, Hheld⟩
  rw [wp_ret]; imodintro
  iapply Hk
  isplitl [Hb]; · iexact Hb
  iexact Hheld

/-- One host operation at the head of a program, over the held set. -/
theorem hmain_one (d : Dev nD) (op : HloOp τ sig (Elt F)) (hs : op.bufs ⊆ ucRefs τ sig) (hf : op.fresh = ∅) (V : Valuation τ sig (Elt F)) {Φ : PUnit → sProp 𝕄}
    {k : Prog (TpuEff nD τ sig (Elt F) (SparseCore.Sig (ΛP (F := F)) 2) .tc) PUnit} :
    iprop(boundary (SparseCore.T d) ∗ held (SparseCore.T d) (ucRefs τ sig) V
        ∗ ((boundary (SparseCore.T d) ∗ held (SparseCore.T d) (ucRefs τ sig) (op.result V))
            -∗ wp frame (wpE ((K (F := F)).defs (D (F := F))) 𝒱 (SparseCore.T d) none) Set.univ k Φ))
      ⊢ wp frame (wpE ((K (F := F)).defs (D (F := F))) 𝒱 (SparseCore.T d) none) Set.univ
          (hlo rfl op (fun _ => Prog.ret PUnit.unit) >>= fun _ => k) Φ := by
  simp only [wp_bind]
  iintro ⟨Hb, Hheld, Hk⟩
  iapply (wp_hlo_within 𝒱 (SparseCore.T d) none Set.univ (op := op) (S := ucRefs τ sig) hs (V := V) (hf := hf)) $$ [Hb Hheld]
  · isplitl [Hb]; · iexact Hb
    iexact Hheld
  iintro ⟨Hb, Hheld⟩
  rw [wp_ret]; imodintro
  iapply Hk
  isplitl [Hb]; · iexact Hb
  iexact Hheld

end Cert.Proof.KI

end
-- ==== Proof.MlpRegion.lean ====
import proofs.«204254_g40355512713743_retrytranche2_1723_12_alg».proof.Proof.Common
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Proof.KI.Tc

open Cert.Proof.KI

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 2) (Elt F) ℕ UU ℕ

/-! ## custom_call 1: the per-edge network, block by block

The pipeline stages, per grid point, one block of 10240 edges of each of the four edge arrays and the six weight
arrays whole; the body computes the two outputs of the network on the block and stores each whole. -/

/-- The rectangles of the body's accesses: each is a whole staging buffer. -/
abbrev rE : Rect S10240 := Rect.unit (s := S10240) ![0] S10240.size inb_S10240_S10240_0
abbrev rW1 : Rect S32x4 := Rect.unit (s := S32x4) ![0, 0] S32x4.size inb_S32x4_S32x4_0_0
abbrev rB : Rect S32x1 := Rect.unit (s := S32x1) ![0, 0] S32x1.size inb_S32x1_S32x1_0_0
abbrev rW2 : Rect S32x32 := Rect.unit (s := S32x32) ![0, 0] S32x32.size inb_S32x32_S32x32_0_0
abbrev rS : Rect S1x1 := Rect.unit (s := S1x1) ![0, 0] S1x1.size inb_S1x1_S1x1_0_0

/-- Window `w`'s block at point `t`, read off the array's contents `A1 w` when the region is entered. -/
def iblk1 (c : Dev nD) (A1 : (w : Fin 12) → Buf (Elt F) ((cfg1.win w).arr.view.loc (c.tc : Thread nD τ)))
    (w : Fin cfg1.W) (t : Fin cfg1.N) : ((cfg1.win w).xblock (cfg1.grid.coords t)).Idx → Elt F (cfg1.win w).elt :=
  ((cfg1.win w).blk t).view.read (Elt F) (A1 w)

/-- The forward output's block from the ten input blocks: the one whole store's payload. -/
def out1_10 (x0 x1 x2 x3 : Vec F S10240 .f32) (x4 : Vec F S32x4 .f32) (x5 : Vec F S32x1 .f32) (x6 : Vec F S32x32 .f32)
    (x7 x8 : Vec F S32x1 .f32) (x9 : Vec F S1x1 .f32) : Vec F S10240 .f32 :=
  View.canon [⟨rE, k1_pay1 (k1_pay10 (k1_pay5 (View.ld x0 rE) (View.ld x4 rW1) (View.ld x5 rB) (View.ld x1 rE) (View.ld x2 rE) (View.ld x3 rE))
      (View.ld x6 rW2) (View.ld x7 rB) (View.ld x8 rB)) (View.ld x9 rS)⟩]

/-- The backward output's block likewise. -/
def out1_11 (x0 x1 x2 x3 : Vec F S10240 .f32) (x4 : Vec F S32x4 .f32) (x5 : Vec F S32x1 .f32) (x6 : Vec F S32x32 .f32)
    (x7 x8 : Vec F S32x1 .f32) (x9 : Vec F S1x1 .f32) : Vec F S10240 .f32 :=
  View.canon [⟨rE, k1_pay2 (k1_pay8 (k1_pay6 (View.ld x0 rE) (View.ld x4 rW1) (View.ld x5 rB) (View.ld x1 rE) (View.ld x2 rE) (View.ld x3 rE))
      (k1_pay7 (F := F)) (View.ld x6 rW2) (View.ld x7 rB)) (k1_pay9 (View.ld x8 rB)) (View.ld x9 rS)⟩]

/-- The one store of each output covers its buffer. -/
theorem cover1 (p0 : Vec F S10240 .f32) (y : S10240.Idx) :
    ∃ pc ∈ ([⟨rE, p0⟩] : List (View.Piece (Elt F) S10240 .f32)), y ∈ pc.1.set :=
  View.cover_of_tiled [⟨rE, p0⟩] S10240.size (by rfl) y

/-- The proof data of pipeline 0 on core `c`: the arrays as the region finds them (`A1`); after the body each
    input's buffer at its block and each output's at the network's value on the input blocks; the invariant the
    core's scoped buffers that are no staging buffer of this pipeline, untouched; the tallies owed the constant `O`,
    the recorded pairs within the constant `B`. -/
def dat1 (c : Dev nD) (A1 : (w : Fin 12) → Buf (Elt F) ((cfg1.win w).arr.view.loc (c.tc : Thread nD τ)))
    (O : CellTallies nD τ sig (HIx 2)) (B : Set (SemLoc sig × HIx 2)) : Dat τ (Elt F) (HIx 2) ℕ UU ℕ cfg1 c where
  A := A1
  after w t := match w with
    | ⟨0, _⟩ => iblk1 c A1 0 t
    | ⟨1, _⟩ => iblk1 c A1 1 t
    | ⟨2, _⟩ => iblk1 c A1 2 t
    | ⟨3, _⟩ => iblk1 c A1 3 t
    | ⟨4, _⟩ => iblk1 c A1 4 t
    | ⟨5, _⟩ => iblk1 c A1 5 t
    | ⟨6, _⟩ => iblk1 c A1 6 t
    | ⟨7, _⟩ => iblk1 c A1 7 t
    | ⟨8, _⟩ => iblk1 c A1 8 t
    | ⟨9, _⟩ => iblk1 c A1 9 t
    | ⟨10, _⟩ => out1_10 (iblk1 c A1 0 t) (iblk1 c A1 1 t) (iblk1 c A1 2 t) (iblk1 c A1 3 t) (iblk1 c A1 4 t) (iblk1 c A1 5 t) (iblk1 c A1 6 t) (iblk1 c A1 7 t) (iblk1 c A1 8 t) (iblk1 c A1 9 t)
    | ⟨11, _⟩ => out1_11 (iblk1 c A1 0 t) (iblk1 c A1 1 t) (iblk1 c A1 2 t) (iblk1 c A1 3 t) (iblk1 c A1 4 t) (iblk1 c A1 5 t) (iblk1 c A1 6 t) (iblk1 c A1 7 t) (iblk1 c A1 8 t) (iblk1 c A1 9 t)
  Φ _ := Pipeline.scopedRest (Ix := HIx 2) (Name := ℕ) (U := UU) (Lvl := ℕ) (Val := Elt F) spec1 c
  q _ := fullShare
  owed _ := O
  recorded _ := B

/-! ## The body's triple -/

set_option maxHeartbeats 4000000 in
/-- The kernel body on whole staging memrefs, the inputs' at read contents `xW` and the outputs' at anything, runs to
    the continuation holding the inputs' as they were and each output's at the network's value on the inputs'. -/
theorem sound_kernel1 (c : Dev nD) (E : Set ℕ) (i : grid1.Coords) (arg1 : Memref sig .tc .vmem S10240 .f32) (harg1 : arg1.IsWhole) (arg2 : Memref sig .tc .vmem S10240 .f32) (harg2 : arg2.IsWhole) (arg3 : Memref sig .tc .vmem S10240 .f32) (harg3 : arg3.IsWhole) (arg4 : Memref sig .tc .vmem S10240 .f32) (harg4 : arg4.IsWhole) (arg5 : Memref sig .tc .vmem S32x4 .f32) (harg5 : arg5.IsWhole) (arg6 : Memref sig .tc .vmem S32x1 .f32) (harg6 : arg6.IsWhole) (arg7 : Memref sig .tc .vmem S32x32 .f32) (harg7 : arg7.IsWhole) (arg8 : Memref sig .tc .vmem S32x1 .f32) (harg8 : arg8.IsWhole) (arg9 : Memref sig .tc .vmem S32x1 .f32) (harg9 : arg9.IsWhole) (arg10 : Memref sig .tc .vmem S1x1 .f32) (harg10 : arg10.IsWhole) (arg11 : Memref sig .tc .vmem S10240 .f32) (harg11 : arg11.IsWhole) (arg12 : Memref sig .tc .vmem S10240 .f32) (harg12 : arg12.IsWhole)
    (x0 : Vec F S10240 .f32) (x1 : Vec F S10240 .f32) (x2 : Vec F S10240 .f32) (x3 : Vec F S10240 .f32) (x4 : Vec F S32x4 .f32) (x5 : Vec F S32x1 .f32) (x6 : Vec F S32x32 .f32) (x7 : Vec F S32x1 .f32) (x8 : Vec F S32x1 .f32) (x9 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare (out1_10 x0 x1 x2 x3 x4 x5 x6 x7 x8 x9) ∗ owns (c : Thread nD τ) arg12 fullShare (out1_11 x0 x1 x2 x3 x4 x5 x6 x7 x8 x9)) -∗ K ⟨⟩))
      ⊢ wp frame (wpE (defs₀ (F := F)) Variants.none c none) E (cc1__mlp_body i arg1 harg1 arg2 harg2 arg3 harg3 arg4 harg4 arg5 harg5 arg6 harg6 arg7 harg7 arg8 harg8 arg9 harg9 arg10 harg10 arg11 harg11 arg12 harg12) K := by
  simp only [cc1__mlp_body_eq_skeleton]; unfold cc1__mlp_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact View.read_writes_eq_canon _ _ _ (cover1 _)
  · iexists _; isplitr
    swap; · iexact H11
    ipureintro
    exact View.read_writes_eq_canon _ _ _ (cover1 _)

variable (c : Dev nD) (A1 : (w : Fin 12) → Buf (Elt F) ((cfg1.win w).arr.view.loc (c.tc : Thread nD τ)))
    (O : CellTallies nD τ sig (HIx 2)) (B : Set (SemLoc sig × HIx 2))

theorem A1_eq (w : Fin cfg1.W) : (dat1 c A1 O B).A w = A1 w := by dsimp only [dat1]

theorem after1_0 (t : Fin cfg1.N) : (dat1 c A1 O B).after 0 t = iblk1 c A1 0 t := by dsimp only [dat1]
theorem after1_1 (t : Fin cfg1.N) : (dat1 c A1 O B).after 1 t = iblk1 c A1 1 t := by dsimp only [dat1]
theorem after1_2 (t : Fin cfg1.N) : (dat1 c A1 O B).after 2 t = iblk1 c A1 2 t := by dsimp only [dat1]
theorem after1_3 (t : Fin cfg1.N) : (dat1 c A1 O B).after 3 t = iblk1 c A1 3 t := by dsimp only [dat1]
theorem after1_4 (t : Fin cfg1.N) : (dat1 c A1 O B).after 4 t = iblk1 c A1 4 t := by dsimp only [dat1]
theorem after1_5 (t : Fin cfg1.N) : (dat1 c A1 O B).after 5 t = iblk1 c A1 5 t := by dsimp only [dat1]
theorem after1_6 (t : Fin cfg1.N) : (dat1 c A1 O B).after 6 t = iblk1 c A1 6 t := by dsimp only [dat1]
theorem after1_7 (t : Fin cfg1.N) : (dat1 c A1 O B).after 7 t = iblk1 c A1 7 t := by dsimp only [dat1]
theorem after1_8 (t : Fin cfg1.N) : (dat1 c A1 O B).after 8 t = iblk1 c A1 8 t := by dsimp only [dat1]
theorem after1_9 (t : Fin cfg1.N) : (dat1 c A1 O B).after 9 t = iblk1 c A1 9 t := by dsimp only [dat1]
theorem after1_10 (t : Fin cfg1.N) : (dat1 c A1 O B).after 10 t = out1_10 (iblk1 c A1 0 t) (iblk1 c A1 1 t) (iblk1 c A1 2 t) (iblk1 c A1 3 t) (iblk1 c A1 4 t) (iblk1 c A1 5 t) (iblk1 c A1 6 t) (iblk1 c A1 7 t) (iblk1 c A1 8 t) (iblk1 c A1 9 t) := by dsimp only [dat1]
theorem after1_11 (t : Fin cfg1.N) : (dat1 c A1 O B).after 11 t = out1_11 (iblk1 c A1 0 t) (iblk1 c A1 1 t) (iblk1 c A1 2 t) (iblk1 c A1 3 t) (iblk1 c A1 4 t) (iblk1 c A1 5 t) (iblk1 c A1 6 t) (iblk1 c A1 7 t) (iblk1 c A1 8 t) (iblk1 c A1 9 t) := by dsimp only [dat1]

/-- Each input's current staging buffer holds its block at every point, fetched there or not: an input not fetched
    at a point has the block index it had at the point before. -/
theorem before1_0 (t : Fin cfg1.N) (d) : (dat1 c A1 O B).before 0 t d = iblk1 c A1 0 t :=
  ((dat1 c A1 O B).before_in_eq_fetched 0 rfl (fun _ => rfl) (fun _ _ _ => rfl)
    (fun t => by rw [after1_0]; unfold Dat.blockOf iblk1; rw [A1_eq]; try rfl) t d).trans
    (by unfold Dat.fetched Dat.blockOf iblk1; rw [A1_eq]; try rfl)
theorem before1_1 (t : Fin cfg1.N) (d) : (dat1 c A1 O B).before 1 t d = iblk1 c A1 1 t :=
  ((dat1 c A1 O B).before_in_eq_fetched 1 rfl (fun _ => rfl) (fun _ _ _ => rfl)
    (fun t => by rw [after1_1]; unfold Dat.blockOf iblk1; rw [A1_eq]; try rfl) t d).trans
    (by unfold Dat.fetched Dat.blockOf iblk1; rw [A1_eq]; try rfl)
theorem before1_2 (t : Fin cfg1.N) (d) : (dat1 c A1 O B).before 2 t d = iblk1 c A1 2 t :=
  ((dat1 c A1 O B).before_in_eq_fetched 2 rfl (fun _ => rfl) (fun _ _ _ => rfl)
    (fun t => by rw [after1_2]; unfold Dat.blockOf iblk1; rw [A1_eq]; try rfl) t d).trans
    (by unfold Dat.fetched Dat.blockOf iblk1; rw [A1_eq]; try rfl)
theorem before1_3 (t : Fin cfg1.N) (d) : (dat1 c A1 O B).before 3 t d = iblk1 c A1 3 t :=
  ((dat1 c A1 O B).before_in_eq_fetched 3 rfl (fun _ => rfl) (fun _ _ _ => rfl)
    (fun t => by rw [after1_3]; unfold Dat.blockOf iblk1; rw [A1_eq]; try rfl) t d).trans
    (by unfold Dat.fetched Dat.blockOf iblk1; rw [A1_eq]; try rfl)
theorem before1_4 (t : Fin cfg1.N) (d) : (dat1 c A1 O B).before 4 t d = iblk1 c A1 4 t :=
  ((dat1 c A1 O B).before_in_eq_fetched 4 rfl (fun _ => rfl) (fun _ _ _ => rfl)
    (fun t => by rw [after1_4]; unfold Dat.blockOf iblk1; rw [A1_eq]; try rfl) t d).trans
    (by unfold Dat.fetched Dat.blockOf iblk1; rw [A1_eq]; try rfl)
theorem before1_5 (t : Fin cfg1.N) (d) : (dat1 c A1 O B).before 5 t d = iblk1 c A1 5 t :=
  ((dat1 c A1 O B).before_in_eq_fetched 5 rfl (fun _ => rfl) (fun _ _ _ => rfl)
    (fun t => by rw [after1_5]; unfold Dat.blockOf iblk1; rw [A1_eq]; try rfl) t d).trans
    (by unfold Dat.fetched Dat.blockOf iblk1; rw [A1_eq]; try rfl)
theorem before1_6 (t : Fin cfg1.N) (d) : (dat1 c A1 O B).before 6 t d = iblk1 c A1 6 t :=
  ((dat1 c A1 O B).before_in_eq_fetched 6 rfl (fun _ => rfl) (fun _ _ _ => rfl)
    (fun t => by rw [after1_6]; unfold Dat.blockOf iblk1; rw [A1_eq]; try rfl) t d).trans
    (by unfold Dat.fetched Dat.blockOf iblk1; rw [A1_eq]; try rfl)
theorem before1_7 (t : Fin cfg1.N) (d) : (dat1 c A1 O B).before 7 t d = iblk1 c A1 7 t :=
  ((dat1 c A1 O B).before_in_eq_fetched 7 rfl (fun _ => rfl) (fun _ _ _ => rfl)
    (fun t => by rw [after1_7]; unfold Dat.blockOf iblk1; rw [A1_eq]; try rfl) t d).trans
    (by unfold Dat.fetched Dat.blockOf iblk1; rw [A1_eq]; try rfl)
theorem before1_8 (t : Fin cfg1.N) (d) : (dat1 c A1 O B).before 8 t d = iblk1 c A1 8 t :=
  ((dat1 c A1 O B).before_in_eq_fetched 8 rfl (fun _ => rfl) (fun _ _ _ => rfl)
    (fun t => by rw [after1_8]; unfold Dat.blockOf iblk1; rw [A1_eq]; try rfl) t d).trans
    (by unfold Dat.fetched Dat.blockOf iblk1; rw [A1_eq]; try rfl)
theorem before1_9 (t : Fin cfg1.N) (d) : (dat1 c A1 O B).before 9 t d = iblk1 c A1 9 t :=
  ((dat1 c A1 O B).before_in_eq_fetched 9 rfl (fun _ => rfl) (fun _ _ _ => rfl)
    (fun t => by rw [after1_9]; unfold Dat.blockOf iblk1; rw [A1_eq]; try rfl) t d).trans
    (by unfold Dat.fetched Dat.blockOf iblk1; rw [A1_eq]; try rfl)

/-! ## The body obligation, at a generic point -/

/-- What the body is called with at point `t`, the windows one by one, -/
def bodyPre1 (t : Fin cfg1.N) : sProp 𝕄 :=
  iprop((dat1 c A1 O B).Φ t.castSucc ∗ (dat1 c A1 O B).owesAt (none : HIx 2) t.castSucc
    ∗ (∃ d, owns (c : Thread nD τ) (st1_0 t) fullShare ((dat1 c A1 O B).before 0 t d))
    ∗ (∃ d, owns (c : Thread nD τ) (st1_1 t) fullShare ((dat1 c A1 O B).before 1 t d))
    ∗ (∃ d, owns (c : Thread nD τ) (st1_2 t) fullShare ((dat1 c A1 O B).before 2 t d))
    ∗ (∃ d, owns (c : Thread nD τ) (st1_3 t) fullShare ((dat1 c A1 O B).before 3 t d))
    ∗ (∃ d, owns (c : Thread nD τ) (st1_4 t) fullShare ((dat1 c A1 O B).before 4 t d))
    ∗ (∃ d, owns (c : Thread nD τ) (st1_5 t) fullShare ((dat1 c A1 O B).before 5 t d))
    ∗ (∃ d, owns (c : Thread nD τ) (st1_6 t) fullShare ((dat1 c A1 O B).before 6 t d))
    ∗ (∃ d, owns (c : Thread nD τ) (st1_7 t) fullShare ((dat1 c A1 O B).before 7 t d))
    ∗ (∃ d, owns (c : Thread nD τ) (st1_8 t) fullShare ((dat1 c A1 O B).before 8 t d))
    ∗ (∃ d, owns (c : Thread nD τ) (st1_9 t) fullShare ((dat1 c A1 O B).before 9 t d))
    ∗ (∃ d, owns (c : Thread nD τ) (st1_10 t) fullShare ((dat1 c A1 O B).before 10 t d))
    ∗ (∃ d, owns (c : Thread nD τ) (st1_11 t) fullShare ((dat1 c A1 O B).before 11 t d)))

/-- and what it returns. -/
def bodyPost1 (t : Fin cfg1.N) : sProp 𝕄 :=
  iprop((dat1 c A1 O B).Φ t.succ ∗ (dat1 c A1 O B).owesAt (none : HIx 2) t.succ
    ∗ owns (c : Thread nD τ) (st1_0 t) fullShare ((dat1 c A1 O B).after 0 t)
    ∗ owns (c : Thread nD τ) (st1_1 t) fullShare ((dat1 c A1 O B).after 1 t)
    ∗ owns (c : Thread nD τ) (st1_2 t) fullShare ((dat1 c A1 O B).after 2 t)
    ∗ owns (c : Thread nD τ) (st1_3 t) fullShare ((dat1 c A1 O B).after 3 t)
    ∗ owns (c : Thread nD τ) (st1_4 t) fullShare ((dat1 c A1 O B).after 4 t)
    ∗ owns (c : Thread nD τ) (st1_5 t) fullShare ((dat1 c A1 O B).after 5 t)
    ∗ owns (c : Thread nD τ) (st1_6 t) fullShare ((dat1 c A1 O B).after 6 t)
    ∗ owns (c : Thread nD τ) (st1_7 t) fullShare ((dat1 c A1 O B).after 7 t)
    ∗ owns (c : Thread nD τ) (st1_8 t) fullShare ((dat1 c A1 O B).after 8 t)
    ∗ owns (c : Thread nD τ) (st1_9 t) fullShare ((dat1 c A1 O B).after 9 t)
    ∗ owns (c : Thread nD τ) (st1_10 t) fullShare ((dat1 c A1 O B).after 10 t)
    ∗ owns (c : Thread nD τ) (st1_11 t) fullShare ((dat1 c A1 O B).after 11 t))

/-- The body at any point: the inputs' memrefs hold their blocks, so the body's triple applies; the invariant and the
    core's tallies pass through unread. -/
theorem sound_body1 (t : Fin cfg1.N) :
    bodyPre1 c A1 O B t ⊢ wp frame (wpE (defs₀ (F := F)) Variants.none c none) Set.univ (bodyAt1 t) (fun _ => bodyPost1 c A1 O B t) := by
  unfold bodyPre1 bodyPost1 bodyAt1
  simp only [before1_0, before1_1, before1_2, before1_3, before1_4, before1_5, before1_6, before1_7, before1_8, before1_9]
  rw [show (dat1 c A1 O B).Φ t.succ = (dat1 c A1 O B).Φ t.castSucc from rfl,
    show (dat1 c A1 O B).owesAt (none : HIx 2) t.succ = (dat1 c A1 O B).owesAt (none : HIx 2) t.castSucc from rfl,
    after1_0, after1_1, after1_2, after1_3, after1_4, after1_5, after1_6, after1_7, after1_8, after1_9, after1_10, after1_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel1 c Set.univ _ _ _ _ _ _ _ _ _ _ _ _ _ _ _ _ _ _ _ _ _ _ _ _ _ (iblk1 c A1 0 t) (iblk1 c A1 1 t) (iblk1 c A1 2 t) (iblk1 c A1 3 t) (iblk1 c A1 4 t) (iblk1 c A1 5 t) (iblk1 c A1 6 t) (iblk1 c A1 7 t) (iblk1 c A1 8 t) (iblk1 c A1 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obl1x : BodyObligation (dat1 c A1 O B) (defs₀ (F := F)) Variants.none (none : HIx 2) Set.univ := fun t => by
  rw [bigSep_W1, bigSep_W1]
  exact sound_body1 c A1 O B t

theorem body_obl1 : BodyObligationLoose (dat1 c A1 O B) (defs₀ (F := F)) Variants.none (none : HIx 2) Set.univ :=
  (body_obl1x c A1 O B).loose

/-! ## The same, as relational proof data -/

/-- The proof data read relationally. -/
def rd1 (c : Dev nD) (A1 : (w : Fin 12) → Buf (Elt F) ((cfg1.win w).arr.view.loc (c.tc : Thread nD τ)))
    (O : CellTallies nD τ sig (HIx 2)) (B : Set (SemLoc sig × HIx 2)) : Pipeline.RDat τ (Elt F) (HIx 2) ℕ UU ℕ cfg1 c := (dat1 c A1 O B).toR

theorem rbody1 : (rd1 c A1 O B).BodyObligation (defs₀ (F := F)) Variants.none (none : HIx 2) Set.univ :=
  (body_obl1 c A1 O B).toR

/-! ## The region's boundary -/

theorem Φ1_eq (t : Fin (cfg1.N + 1)) : (rd1 c A1 O B).Φ t
    = Pipeline.scopedRest (Ix := HIx 2) (Name := ℕ) (U := UU) (Lvl := ℕ) (Val := Elt F) cfg1.spec c := rfl

/-- The invariant at the first point: the scoped buffers no window stages, as the region hands them over. -/
theorem entry_hin1 :
    iprop((emp : sProp 𝕄) ∗ Pipeline.prefHeld (pcfgs (F := F) 0).pre c (fun _ => fullShare) ((cfgs 0).toPCfg_adm (Val := Elt F)).1
        ∗ Pipeline.scopedRest cfg1.spec c) ⊢ (rd1 c A1 O B).Φ 0 := by
  rw [Φ1_eq]; iintro ⟨-, -, H⟩; iexact H

/-- The invariant at the last point gives them back; the kernel has no semaphore of its own. -/
theorem entry_hout1 {K : Type} [Fintype K] [IsEmpty K] (osem : K → SemLoc sig) :
    (rd1 c A1 O B).Φ (Fin.last cfg1.N) ⊢ iprop((emp : sProp 𝕄) ∗ Pipeline.ownSems0 osem c ∗ Pipeline.scopedRest cfg1.spec c) := by
  rw [Φ1_eq]
  iintro H
  isplitr; · iempintro
  isplitr
  · unfold Pipeline.ownSems0; rw [Finset.univ_eq_empty, bigSep_empty]; iempintro
  iexact H

theorem share1 (w : Fin cfg1.W) : (rd1 c A1 O B).share w = fullShare := (rd1 c A1 O B).share_full (fun _ => rfl) w
theorem dshare1 (w : Fin cfg1.W) : (dat1 c A1 O B).share w = fullShare := (dat1 c A1 O B).share_full (fun _ => rfl) w
theorem set1 (w : Fin cfg1.W) : (cfg1.win w).arr.view.set = Finset.univ := (arr_whole1 w).set_eq_univ
theorem rA1_eq (w : Fin cfg1.W) : (rd1 c A1 O B).A w = A1 w := rfl

/-- One array whole at the full share at its entry contents, as the pipeline holds it. -/
theorem arr1_in (w : Fin cfg1.W) :
    ((cfg1.win w).arr.view.loc (c.tc : Thread nD τ) ↦{fullShare} A1 w : sProp 𝕄)
      ⊢ ((cfg1.win w).arr.view.loc (c.tc : Thread nD τ) ↦[(cfg1.win w).arr.view.set]{(rd1 c A1 O B).share w} (rd1 c A1 O B).A w) := by
  rw [share1, set1, rA1_eq]

/-- One array as the pipeline leaves it, whole at the full share. -/
theorem arr1_out (w : Fin cfg1.W) (G : Buf (Elt F) ((cfg1.win w).arr.view.loc (c.tc : Thread nD τ)))
    (h : (dat1 c A1 O B).arrAt w cfg1.N = G) :
    ((cfg1.win w).arr.view.loc (c.tc : Thread nD τ) ↦[(cfg1.win w).arr.view.set]{(dat1 c A1 O B).share w} (dat1 c A1 O B).arrAt w cfg1.N : sProp 𝕄)
      ⊢ ((cfg1.win w).arr.view.loc (c.tc : Thread nD τ) ↦{fullShare} G) := by
  subst h; rw [dshare1, set1]

theorem arrAt1_in (w : Fin cfg1.W) (hw : (cfg1.win w).isOut = false) : (dat1 c A1 O B).arrAt w cfg1.N = A1 w :=
  ((dat1 c A1 O B).arrAt_in w hw cfg1.N).trans (A1_eq c A1 O B w)

set_option maxHeartbeats 2000000 in
/-- ENTRY: the twelve windowed arrays, each whole at the full share at its entry contents, are the pipeline's arrays. -/
theorem arrays1_intro :
    iprop((((cfg1.win 0).arr.view.loc (c.tc : Thread nD τ)) ↦{fullShare} A1 0 : sProp 𝕄)
      ∗ (((cfg1.win 1).arr.view.loc (c.tc : Thread nD τ)) ↦{fullShare} A1 1 : sProp 𝕄)
      ∗ (((cfg1.win 2).arr.view.loc (c.tc : Thread nD τ)) ↦{fullShare} A1 2 : sProp 𝕄)
      ∗ (((cfg1.win 3).arr.view.loc (c.tc : Thread nD τ)) ↦{fullShare} A1 3 : sProp 𝕄)
      ∗ (((cfg1.win 4).arr.view.loc (c.tc : Thread nD τ)) ↦{fullShare} A1 4 : sProp 𝕄)
      ∗ (((cfg1.win 5).arr.view.loc (c.tc : Thread nD τ)) ↦{fullShare} A1 5 : sProp 𝕄)
      ∗ (((cfg1.win 6).arr.view.loc (c.tc : Thread nD τ)) ↦{fullShare} A1 6 : sProp 𝕄)
      ∗ (((cfg1.win 7).arr.view.loc (c.tc : Thread nD τ)) ↦{fullShare} A1 7 : sProp 𝕄)
      ∗ (((cfg1.win 8).arr.view.loc (c.tc : Thread nD τ)) ↦{fullShare} A1 8 : sProp 𝕄)
      ∗ (((cfg1.win 9).arr.view.loc (c.tc : Thread nD τ)) ↦{fullShare} A1 9 : sProp 𝕄)
      ∗ (((cfg1.win 10).arr.view.loc (c.tc : Thread nD τ)) ↦{fullShare} A1 10 : sProp 𝕄)
      ∗ (((cfg1.win 11).arr.view.loc (c.tc : Thread nD τ)) ↦{fullShare} A1 11 : sProp 𝕄))
      ⊢ (rd1 c A1 O B).arrays (rd1 c A1 O B).A := by
  unfold Pipeline.RDat.arrays
  rw [bigSep_W1]
  refine Idealize.SL.BI.sep_mono (arr1_in c A1 O B 0) ?_
  refine Idealize.SL.BI.sep_mono (arr1_in c A1 O B 1) ?_
  refine Idealize.SL.BI.sep_mono (arr1_in c A1 O B 2) ?_
  refine Idealize.SL.BI.sep_mono (arr1_in c A1 O B 3) ?_
  refine Idealize.SL.BI.sep_mono (arr1_in c A1 O B 4) ?_
  refine Idealize.SL.BI.sep_mono (arr1_in c A1 O B 5) ?_
  refine Idealize.SL.BI.sep_mono (arr1_in c A1 O B 6) ?_
  refine Idealize.SL.BI.sep_mono (arr1_in c A1 O B 7) ?_
  refine Idealize.SL.BI.sep_mono (arr1_in c A1 O B 8) ?_
  refine Idealize.SL.BI.sep_mono (arr1_in c A1 O B 9) ?_
  refine Idealize.SL.BI.sep_mono (arr1_in c A1 O B 10) ?_
  exact arr1_in c A1 O B 11

set_option maxHeartbeats 2000000 in
/-- EXIT: after every write-back the ten inputs are as they were and each output holds what the library computes from
    the proof data. -/
theorem arraysAt1_elim :
    (rd1 c A1 O B).arraysAt cfg1.N
      ⊢ iprop((((cfg1.win 0).arr.view.loc (c.tc : Thread nD τ)) ↦{fullShare} A1 0 : sProp 𝕄)
      ∗ (((cfg1.win 1).arr.view.loc (c.tc : Thread nD τ)) ↦{fullShare} A1 1 : sProp 𝕄)
      ∗ (((cfg1.win 2).arr.view.loc (c.tc : Thread nD τ)) ↦{fullShare} A1 2 : sProp 𝕄)
      ∗ (((cfg1.win 3).arr.view.loc (c.tc : Thread nD τ)) ↦{fullShare} A1 3 : sProp 𝕄)
      ∗ (((cfg1.win 4).arr.view.loc (c.tc : Thread nD τ)) ↦{fullShare} A1 4 : sProp 𝕄)
      ∗ (((cfg1.win 5).arr.view.loc (c.tc : Thread nD τ)) ↦{fullShare} A1 5 : sProp 𝕄)
      ∗ (((cfg1.win 6).arr.view.loc (c.tc : Thread nD τ)) ↦{fullShare} A1 6 : sProp 𝕄)
      ∗ (((cfg1.win 7).arr.view.loc (c.tc : Thread nD τ)) ↦{fullShare} A1 7 : sProp 𝕄)
      ∗ (((cfg1.win 8).arr.view.loc (c.tc : Thread nD τ)) ↦{fullShare} A1 8 : sProp 𝕄)
      ∗ (((cfg1.win 9).arr.view.loc (c.tc : Thread nD τ)) ↦{fullShare} A1 9 : sProp 𝕄)
      ∗ (((cfg1.win 10).arr.view.loc (c.tc : Thread nD τ)) ↦{fullShare} (dat1 c A1 O B).arrAt 10 cfg1.N : sProp 𝕄)
      ∗ (((cfg1.win 11).arr.view.loc (c.tc : Thread nD τ)) ↦{fullShare} (dat1 c A1 O B).arrAt 11 cfg1.N : sProp 𝕄)) := by
  refine ((dat1 c A1 O B).toR_arraysAt_post cfg1.N).trans ?_
  unfold Dat.arrays
  rw [bigSep_W1]
  refine Idealize.SL.BI.sep_mono (arr1_out c A1 O B 0 _ (arrAt1_in c A1 O B 0 rfl)) ?_
  refine Idealize.SL.BI.sep_mono (arr1_out c A1 O B 1 _ (arrAt1_in c A1 O B 1 rfl)) ?_
  refine Idealize.SL.BI.sep_mono (arr1_out c A1 O B 2 _ (arrAt1_in c A1 O B 2 rfl)) ?_
  refine Idealize.SL.BI.sep_mono (arr1_out c A1 O B 3 _ (arrAt1_in c A1 O B 3 rfl)) ?_
  refine Idealize.SL.BI.sep_mono (arr1_out c A1 O B 4 _ (arrAt1_in c A1 O B 4 rfl)) ?_
  refine Idealize.SL.BI.sep_mono (arr1_out c A1 O B 5 _ (arrAt1_in c A1 O B 5 rfl)) ?_
  refine Idealize.SL.BI.sep_mono (arr1_out c A1 O B 6 _ (arrAt1_in c A1 O B 6 rfl)) ?_
  refine Idealize.SL.BI.sep_mono (arr1_out c A1 O B 7 _ (arrAt1_in c A1 O B 7 rfl)) ?_
  refine Idealize.SL.BI.sep_mono (arr1_out c A1 O B 8 _ (arrAt1_in c A1 O B 8 rfl)) ?_
  refine Idealize.SL.BI.sep_mono (arr1_out c A1 O B 9 _ (arrAt1_in c A1 O B 9 rfl)) ?_
  refine Idealize.SL.BI.sep_mono (arr1_out c A1 O B 10 _ rfl) ?_
  exact arr1_out c A1 O B 11 _ rfl

end Cert.Proof.KI.Tc

end
-- ==== Proof.CombineRegion.lean ====
import proofs.«204254_g40355512713743_retrytranche2_1723_12_alg».proof.Proof.Common
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Proof.KI.Tc

open Cert.Proof.KI

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 2) (Elt F) ℕ UU ℕ

/-! ## custom_call 3: the combination of the 32 partial rows, block by block

The pipeline stages, per grid point, a block of 8192 columns of the [32, 100000] array of partial sums and of the
[1, 100000] result; the thirteenth block overhangs both arrays (100000 = 12 · 8192 + 1696), so its transfers are cut:
the fetch fills the first 1696 columns of the staging buffer and leaves the rest at contents nothing names, and the
write-back writes the first 1696 columns only. -/

abbrev rP : Rect S32x8192 := Rect.unit (s := S32x8192) ![0, 0] S32x8192.size inb_S32x8192_S32x8192_0_0
abbrev rO : Rect S1x8192 := Rect.unit (s := S1x8192) ![0, 0] S1x8192.size inb_S1x8192_S1x8192_0_0

/-- Window `w`'s block at point `t` as the transfer reads it: its part inside the array. -/
def iblk3 (c : Dev nD) (A3 : (w : Fin 2) → Buf (Elt F) ((cfg3.win w).arr.view.loc (c.tc : Thread nD τ)))
    (w : Fin cfg3.W) (t : Fin cfg3.N) : ((cfg3.win w).xblock (cfg3.grid.coords t)).Idx → Elt F (cfg3.win w).elt :=
  ((cfg3.win w).blk t).view.read (Elt F) (A3 w)

/-- The input's staging buffer at point `t` on the columns inside the array, filled out with the zero word past the
    array's end (where the body obligation states nothing). -/
def in3 (c : Dev nD) (A3 : (w : Fin 2) → Buf (Elt F) ((cfg3.win w).arr.view.loc (c.tc : Thread nD τ)))
    (t : Fin cfg3.N) : Vec F S32x8192 .f32 :=
  win3_0.fill (grid3.coords t) (fun _ => Scalar.ofBits .f32 0#32) (iblk3 c A3 0 t)

/-- The result's block from the input's: the one whole store's payload. -/
def out3 (x : Vec F S32x8192 .f32) : Vec F S1x8192 .f32 :=
  View.canon [⟨rO, k3_pay1 (View.ld x rP)⟩]

theorem cover3 (p0 : Vec F S1x8192 .f32) (y : S1x8192.Idx) :
    ∃ pc ∈ ([⟨rO, p0⟩] : List (View.Piece (Elt F) S1x8192 .f32)), y ∈ pc.1.set :=
  View.cover_of_tiled [⟨rO, p0⟩] S1x8192.size (by rfl) y

/-- The windows the frame does not read: the result's. -/
abbrev fgt3 : Fin cfg3.W → Bool := fun | 0 => false | 1 => true | ⟨_ + 2, h⟩ => absurd h (Nat.not_lt.2 (Nat.le_add_left _ _))

/-- The proof data of pipeline 1 on core `c`. -/
def dat3 (c : Dev nD) (A3 : (w : Fin 2) → Buf (Elt F) ((cfg3.win w).arr.view.loc (c.tc : Thread nD τ)))
    (O : CellTallies nD τ sig (HIx 2)) (B : Set (SemLoc sig × HIx 2)) : Dat τ (Elt F) (HIx 2) ℕ UU ℕ cfg3 c where
  A := A3
  after w t := match w with
    | ⟨0, _⟩ => in3 c A3 t
    | ⟨1, _⟩ => out3 (in3 c A3 t)
  Φ _ := Pipeline.scopedRest (Ix := HIx 2) (Name := ℕ) (U := UU) (Lvl := ℕ) (Val := Elt F) spec3 c
  q _ := fullShare
  owed _ := O
  recorded _ := B

set_option maxHeartbeats 4000000 in
/-- The kernel body on whole staging memrefs, the input's at read contents `x0` and the result's at anything, runs to
    the continuation holding the input's as it was and the result's at `out3 x0`. -/
theorem sound_kernel3 (c : Dev nD) (E : Set ℕ) (i : grid3.Coords) (arg1 : Memref sig .tc .vmem S32x8192 .f32) (harg1 : arg1.IsWhole)
    (arg2 : Memref sig .tc .vmem S1x8192 .f32) (harg2 : arg2.IsWhole) (x0 : Vec F S32x8192 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out3 x0)) -∗ K ⟨⟩))
      ⊢ wp frame (wpE (defs₀ (F := F)) Variants.none c none) E (cc3__combine_body i arg1 harg1 arg2 harg2) K := by
  simp only [cc3__combine_body_eq_skeleton]; unfold cc3__combine_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover3 _)

variable (c : Dev nD) (A3 : (w : Fin 2) → Buf (Elt F) ((cfg3.win w).arr.view.loc (c.tc : Thread nD τ)))
    (O : CellTallies nD τ sig (HIx 2)) (B : Set (SemLoc sig × HIx 2))

theorem A3_eq (w : Fin cfg3.W) : (dat3 c A3 O B).A w = A3 w := by dsimp only [dat3]
theorem after3_0 (t : Fin cfg3.N) : (dat3 c A3 O B).after 0 t = in3 c A3 t := by dsimp only [dat3]
theorem after3_1 (t : Fin cfg3.N) : (dat3 c A3 O B).after 1 t = out3 (in3 c A3 t) := by dsimp only [dat3]

/-- The input's buffer arrives just fetched: the block on the columns inside the array, `d` elsewhere. -/
theorem before3_0 (t : Fin cfg3.N) (d) : (dat3 c A3 O B).before 0 t d = win3_0.fill (grid3.coords t) d (iblk3 c A3 0 t) := by
  unfold Dat.before; rw [if_pos (fetch3_0 t)]
  unfold Dat.fetched Dat.blockOf iblk3; rw [A3_eq]; try rfl

/-- What the body is called with at point `t` when the result's window is forgotten, -/
def bodyPre3f (t : Fin cfg3.N) : sProp 𝕄 :=
  iprop((dat3 c A3 O B).Φ t.castSucc ∗ (dat3 c A3 O B).owesAt (none : HIx 2) t.castSucc
    ∗ (∃ d, owns (c : Thread nD τ) (st3_0 t) fullShare ((dat3 c A3 O B).before 0 t d))
    ∗ (∃ X, owns (c : Thread nD τ) (st3_1 t) fullShare X))

/-- and what it returns: the input's buffer stated on the columns inside the array, the result's at anything. -/
def bodyPost3f (t : Fin cfg3.N) : sProp 𝕄 :=
  iprop((dat3 c A3 O B).Φ t.succ ∗ (dat3 c A3 O B).owesAt (none : HIx 2) t.succ
    ∗ (∃ d, owns (c : Thread nD τ) (st3_0 t) fullShare (win3_0.fill (grid3.coords t) d (win3_0.cut (grid3.coords t) ((dat3 c A3 O B).after 0 t))))
    ∗ (∃ X, owns (c : Thread nD τ) (st3_1 t) fullShare X))

theorem sound_body3f (t : Fin cfg3.N) :
    bodyPre3f c A3 O B t ⊢ wp frame (wpE (defs₀ (F := F)) Variants.none c none) Set.univ (bodyAt3 t) (fun _ => bodyPost3f c A3 O B t) := by
  unfold bodyPre3f bodyPost3f bodyAt3
  rw [show (dat3 c A3 O B).Φ t.succ = (dat3 c A3 O B).Φ t.castSucc from rfl,
    show (dat3 c A3 O B).owesAt (none : HIx 2) t.succ = (dat3 c A3 O B).owesAt (none : HIx 2) t.castSucc from rfl, after3_0]
  iintro ⟨HΦ, Ho, ⟨%d0, H0⟩, ⟨%X1, H1⟩⟩
  rw [before3_0 c A3 O B t d0]
  iapply (sound_kernel3 (F := F) c Set.univ _ _ _ _ _ (win3_0.fill (grid3.coords t) d0 (iblk3 c A3 0 t)) _)
  isplitl [H0]; · iexact H0
  isplitl [H1]; · iexists _; iexact H1
  iintro ⟨H0, H1⟩
  isplitl [HΦ]; · iexact HΦ
  isplitl [Ho]; · iexact Ho
  have hx : win3_0.cut (grid3.coords t) (in3 c A3 t) = iblk3 c A3 0 t := win3_0.cut_fill _ _ _
  isplitl [H0]
  · iexists d0; rw [hx]; try iexact H0
  · iexists _; iexact H1

/-- The forgetful body obligation, at every float instance: the input's buffer is handed back as found, which on the
    columns inside the array is its block; of the result's buffer nothing is said. -/
theorem body_obl3_fgt : BodyObligationLoose (dat3 c A3 O B) (defs₀ (F := F)) Variants.none (none : HIx 2) Set.univ fgt3 := fun t => by
  rw [bigSep_W3, bigSep_W3]
  exact sound_body3f c A3 O B t

/-- The proof data read relationally, the result's window forgotten: what the frames use. -/
def rd3f (c : Dev nD) (A3 : (w : Fin 2) → Buf (Elt F) ((cfg3.win w).arr.view.loc (c.tc : Thread nD τ)))
    (O : CellTallies nD τ sig (HIx 2)) (B : Set (SemLoc sig × HIx 2)) : Pipeline.RDat τ (Elt F) (HIx 2) ℕ UU ℕ cfg3 c := (dat3 c A3 O B).toRForget fgt3

theorem rbody3f : (rd3f c A3 O B).BodyObligation (defs₀ (F := F)) Variants.none (none : HIx 2) Set.univ :=
  (body_obl3_fgt c A3 O B).toRForget

/-! ## The region's boundary, the result's window forgotten -/

theorem Φ3f_eq (t : Fin (cfg3.N + 1)) : (rd3f c A3 O B).Φ t
    = Pipeline.scopedRest (Ix := HIx 2) (Name := ℕ) (U := UU) (Lvl := ℕ) (Val := Elt F) cfg3.spec c := rfl

theorem entry_hin3f :
    iprop((emp : sProp 𝕄) ∗ Pipeline.prefHeld (pcfgs (F := F) 1).pre c (fun _ => fullShare) ((cfgs 1).toPCfg_adm (Val := Elt F)).1
        ∗ Pipeline.scopedRest cfg3.spec c) ⊢ (rd3f c A3 O B).Φ 0 := by
  rw [Φ3f_eq]; iintro ⟨-, -, H⟩; iexact H

theorem entry_hout3f {K : Type} [Fintype K] [IsEmpty K] (osem : K → SemLoc sig) :
    (rd3f c A3 O B).Φ (Fin.last cfg3.N) ⊢ iprop((emp : sProp 𝕄) ∗ Pipeline.ownSems0 osem c ∗ Pipeline.scopedRest cfg3.spec c) := by
  rw [Φ3f_eq]
  iintro H
  isplitr; · iempintro
  isplitr
  · unfold Pipeline.ownSems0; rw [Finset.univ_eq_empty, bigSep_empty]; iempintro
  iexact H

theorem share3f (w : Fin cfg3.W) : (rd3f c A3 O B).share w = fullShare := (rd3f c A3 O B).share_full (fun _ => rfl) w
theorem dshare3 (w : Fin cfg3.W) : (dat3 c A3 O B).share w = fullShare := (dat3 c A3 O B).share_full (fun _ => rfl) w
theorem set3 (w : Fin cfg3.W) : (cfg3.win w).arr.view.set = Finset.univ := (arr_whole3 w).set_eq_univ
theorem rA3f_eq (w : Fin cfg3.W) : (rd3f c A3 O B).A w = A3 w := rfl

theorem arr3f_in (w : Fin cfg3.W) :
    ((cfg3.win w).arr.view.loc (c.tc : Thread nD τ) ↦{fullShare} A3 w : sProp 𝕄)
      ⊢ ((cfg3.win w).arr.view.loc (c.tc : Thread nD τ) ↦[(cfg3.win w).arr.view.set]{(rd3f c A3 O B).share w} (rd3f c A3 O B).A w) := by
  rw [share3f, set3, rA3f_eq]

/-- ENTRY: the two windowed arrays, each whole at the full share at its entry contents, are the pipeline's arrays. -/
theorem arrays3f_intro :
    iprop((((cfg3.win 0).arr.view.loc (c.tc : Thread nD τ)) ↦{fullShare} A3 0 : sProp 𝕄) ∗ (((cfg3.win 1).arr.view.loc (c.tc : Thread nD τ)) ↦{fullShare} A3 1 : sProp 𝕄))
      ⊢ (rd3f c A3 O B).arrays (rd3f c A3 O B).A := by
  unfold Pipeline.RDat.arrays
  rw [bigSep_W3]
  exact Idealize.SL.BI.sep_mono (arr3f_in c A3 O B 0) (arr3f_in c A3 O B 1)

theorem arrAt3_in : (dat3 c A3 O B).arrAt 0 cfg3.N = A3 0 :=
  ((dat3 c A3 O B).arrAt_in 0 rfl cfg3.N).trans (A3_eq c A3 O B 0)

/-- EXIT: after every write-back the input is as it was; the result's array holds something. -/
theorem arraysAt3f_elim :
    (rd3f c A3 O B).arraysAt cfg3.N
      ⊢ iprop((((cfg3.win 0).arr.view.loc (c.tc : Thread nD τ)) ↦{fullShare} A3 0 : sProp 𝕄) ∗ ∃ f, (((cfg3.win 1).arr.view.loc (c.tc : Thread nD τ)) ↦{fullShare} f : sProp 𝕄)) := by
  unfold Pipeline.RDat.arraysAt
  rw [bigSep_W3]
  iintro ⟨⟨%F0, %h0, H0⟩, ⟨%F1, -, H1⟩⟩
  isplitl [H0]
  · have h0' : ((dat3 c A3 O B).toRForget fgt3).ArrAt 0 cfg3.N F0 := h0
    have e : F0 = A3 0 := (((dat3 c A3 O B).toRForget_arrAt_iff (fgt := fgt3) (w := 0) rfl cfg3.N F0).mp h0').trans
      (arrAt3_in c A3 O B)
    rw [e, share3f, set3]; iexact H0
  · iexists F1; rw [share3f, set3]; iexact H1

end Cert.Proof.KI.Tc

end
-- ==== Proof.CombineValue.lean ====
import Idealize.ShloMosaic.Lib.Pipeline.FrameBody
import Idealize.ShloMosaic.Lib.Pipeline.Value
import Idealize.ShloMosaic.Lib.Ring
import Idealize.ShloMosaic.Lib.Tactic
import proofs.«204254_g40355512713743_retrytranche2_1723_12_alg».proof.Proof.CombineRegion
set_option maxRecDepth 16384

noncomputable section

namespace Cert.Proof.KI.Tc

open Cert.Proof.KI

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 2) (Elt F) ℕ UU ℕ

/-! ## custom_call 3, exactly: the result's block as a function of the input's

At the last point the input's staging buffer holds the array's 1696 last columns and, past them, contents nothing
names; the result's columns inside the array must not depend on those. That the body's sums over rows are taken
column by column is a fact about the float instance's reduction, which an instance that fixes no order of summation
does not state; it enters as the hypothesis `K3Local`. -/

theorem hz2' : (![0, 0] : Fin 2 → Nat) = fun _ => 0 := funext fun a => by fin_cases a <;> rfl

/-- The result's block in the kernel's own operation order, over the whole input block. -/
theorem out3_eq (x : Vec F S32x8192 .f32) : out3 x = k3_pay1 x := by
  unfold out3
  simp only [View.canon_unit_zero (S := S1x8192) hz2', View.ld_unit_zero (S := S32x8192) hz2']

/-- Column-locality of the body's payload, as the cut transfers see it: input blocks that agree on the part the
    fetch at point `t` moves give results that agree on the part the write-back at `t` moves. -/
def K3Local (F : FTy → Type) [FloatOps F] : Prop :=
  ∀ (t : Fin cfg3.N) (X X' : Vec F S32x8192 .f32),
    win3_0.cut (grid3.coords t) X = win3_0.cut (grid3.coords t) X' →
      win3_1.cut (grid3.coords t) (k3_pay1 X) = win3_1.cut (grid3.coords t) (k3_pay1 X')

variable (c : Dev nD) (A3 : (w : Fin 2) → Buf (Elt F) ((cfg3.win w).arr.view.loc (c.tc : Thread nD τ)))
    (O : CellTallies nD τ sig (HIx 2)) (B : Set (SemLoc sig × HIx 2))

/-- The result's buffer arrives at contents nothing names. -/
def bodyPre3 (t : Fin cfg3.N) : sProp 𝕄 :=
  iprop((dat3 c A3 O B).Φ t.castSucc ∗ (dat3 c A3 O B).owesAt (none : HIx 2) t.castSucc
    ∗ (∃ d, owns (c : Thread nD τ) (st3_0 t) fullShare ((dat3 c A3 O B).before 0 t d))
    ∗ (∃ d, owns (c : Thread nD τ) (st3_1 t) fullShare ((dat3 c A3 O B).before 1 t d)))

/-- Both buffers are handed back stated on the columns inside the array. -/
def bodyPost3 (t : Fin cfg3.N) : sProp 𝕄 :=
  iprop((dat3 c A3 O B).Φ t.succ ∗ (dat3 c A3 O B).owesAt (none : HIx 2) t.succ
    ∗ (∃ d, owns (c : Thread nD τ) (st3_0 t) fullShare (win3_0.fill (grid3.coords t) d (win3_0.cut (grid3.coords t) ((dat3 c A3 O B).after 0 t))))
    ∗ (∃ d, owns (c : Thread nD τ) (st3_1 t) fullShare (win3_1.fill (grid3.coords t) d (win3_1.cut (grid3.coords t) ((dat3 c A3 O B).after 1 t)))))

theorem sound_body3 (hloc : K3Local F) (t : Fin cfg3.N) :
    bodyPre3 c A3 O B t ⊢ wp frame (wpE (defs₀ (F := F)) Variants.none c none) Set.univ (bodyAt3 t) (fun _ => bodyPost3 c A3 O B t) := by
  unfold bodyPre3 bodyPost3 bodyAt3
  rw [show (dat3 c A3 O B).Φ t.succ = (dat3 c A3 O B).Φ t.castSucc from rfl,
    show (dat3 c A3 O B).owesAt (none : HIx 2) t.succ = (dat3 c A3 O B).owesAt (none : HIx 2) t.castSucc from rfl, after3_0, after3_1]
  iintro ⟨HΦ, Ho, ⟨%d0, H0⟩, ⟨%d1, H1⟩⟩
  rw [before3_0 c A3 O B t d0]
  iapply (sound_kernel3 (F := F) c Set.univ _ _ _ _ _ (win3_0.fill (grid3.coords t) d0 (iblk3 c A3 0 t)) _)
  isplitl [H0]; · iexact H0
  isplitl [H1]; · iexists _; iexact H1
  iintro ⟨H0, H1⟩
  isplitl [HΦ]; · iexact HΦ
  isplitl [Ho]; · iexact Ho
  have hx : win3_0.cut (grid3.coords t) (in3 c A3 t) = iblk3 c A3 0 t := win3_0.cut_fill _ _ _
  have hy : win3_0.cut (grid3.coords t) (win3_0.fill (grid3.coords t) d0 (iblk3 c A3 0 t)) = iblk3 c A3 0 t := win3_0.cut_fill _ _ _
  have hc : win3_1.cut (grid3.coords t) (out3 (win3_0.fill (grid3.coords t) d0 (iblk3 c A3 0 t)))
      = win3_1.cut (grid3.coords t) (out3 (in3 c A3 t)) := by
    rw [out3_eq, out3_eq]; exact hloc t _ _ (hy.trans hx.symm)
  isplitl [H0]
  · iexists d0; rw [hx]; try iexact H0
  · iexists (out3 (win3_0.fill (grid3.coords t) d0 (iblk3 c A3 0 t)))
    rw [win3_1.fill_congr_cut (grid3.coords t) hc]; try iexact H1

/-- The exact body obligation, for an instance whose sums over rows are columnwise. -/
theorem body_obl3 (hloc : K3Local F) : BodyObligationLoose (dat3 c A3 O B) (defs₀ (F := F)) Variants.none (none : HIx 2) Set.univ := fun t => by
  rw [bigSep_W3, bigSep_W3]
  exact sound_body3 c A3 O B hloc t

/-- The proof data read relationally, nothing forgotten: what the value uses. -/
def rd3x (c : Dev nD) (A3 : (w : Fin 2) → Buf (Elt F) ((cfg3.win w).arr.view.loc (c.tc : Thread nD τ)))
    (O : CellTallies nD τ sig (HIx 2)) (B : Set (SemLoc sig × HIx 2)) : Pipeline.RDat τ (Elt F) (HIx 2) ℕ UU ℕ cfg3 c := (dat3 c A3 O B).toR

theorem rbody3x (hloc : K3Local F) : (rd3x c A3 O B).BodyObligation (defs₀ (F := F)) Variants.none (none : HIx 2) Set.univ :=
  (body_obl3 c A3 O B hloc).toR

theorem Φ3x_eq (t : Fin (cfg3.N + 1)) : (rd3x c A3 O B).Φ t
    = Pipeline.scopedRest (Ix := HIx 2) (Name := ℕ) (U := UU) (Lvl := ℕ) (Val := Elt F) cfg3.spec c := rfl

theorem entry_hin3x :
    iprop((emp : sProp 𝕄) ∗ Pipeline.prefHeld (pcfgs (F := F) 1).pre c (fun _ => fullShare) ((cfgs 1).toPCfg_adm (Val := Elt F)).1
        ∗ Pipeline.scopedRest cfg3.spec c) ⊢ (rd3x c A3 O B).Φ 0 := by
  rw [Φ3x_eq]; iintro ⟨-, -, H⟩; iexact H

theorem entry_hout3x {K : Type} [Fintype K] [IsEmpty K] (osem : K → SemLoc sig) :
    (rd3x c A3 O B).Φ (Fin.last cfg3.N) ⊢ iprop((emp : sProp 𝕄) ∗ Pipeline.ownSems0 osem c ∗ Pipeline.scopedRest cfg3.spec c) := by
  rw [Φ3x_eq]
  iintro H
  isplitr; · iempintro
  isplitr
  · unfold Pipeline.ownSems0; rw [Finset.univ_eq_empty, bigSep_empty]; iempintro
  iexact H

theorem share3x (w : Fin cfg3.W) : (rd3x c A3 O B).share w = fullShare := (rd3x c A3 O B).share_full (fun _ => rfl) w
theorem rA3x_eq (w : Fin cfg3.W) : (rd3x c A3 O B).A w = A3 w := rfl

theorem arr3x_in (w : Fin cfg3.W) :
    ((cfg3.win w).arr.view.loc (c.tc : Thread nD τ) ↦{fullShare} A3 w : sProp 𝕄)
      ⊢ ((cfg3.win w).arr.view.loc (c.tc : Thread nD τ) ↦[(cfg3.win w).arr.view.set]{(rd3x c A3 O B).share w} (rd3x c A3 O B).A w) := by
  rw [share3x, set3, rA3x_eq]

theorem arrays3x_intro :
    iprop((((cfg3.win 0).arr.view.loc (c.tc : Thread nD τ)) ↦{fullShare} A3 0 : sProp 𝕄) ∗ (((cfg3.win 1).arr.view.loc (c.tc : Thread nD τ)) ↦{fullShare} A3 1 : sProp 𝕄))
      ⊢ (rd3x c A3 O B).arrays (rd3x c A3 O B).A := by
  unfold Pipeline.RDat.arrays
  rw [bigSep_W3]
  exact Idealize.SL.BI.sep_mono (arr3x_in c A3 O B 0) (arr3x_in c A3 O B 1)

theorem arr3_out (w : Fin cfg3.W) (G : Buf (Elt F) ((cfg3.win w).arr.view.loc (c.tc : Thread nD τ)))
    (h : (dat3 c A3 O B).arrAt w cfg3.N = G) :
    ((cfg3.win w).arr.view.loc (c.tc : Thread nD τ) ↦[(cfg3.win w).arr.view.set]{(dat3 c A3 O B).share w} (dat3 c A3 O B).arrAt w cfg3.N : sProp 𝕄)
      ⊢ ((cfg3.win w).arr.view.loc (c.tc : Thread nD τ) ↦{fullShare} G) := by
  subst h; rw [dshare3, set3]

/-- EXIT, exactly: the input as it was, the result at what the library computes from the proof data. -/
theorem arraysAt3x_elim :
    (rd3x c A3 O B).arraysAt cfg3.N
      ⊢ iprop((((cfg3.win 0).arr.view.loc (c.tc : Thread nD τ)) ↦{fullShare} A3 0 : sProp 𝕄) ∗ (((cfg3.win 1).arr.view.loc (c.tc : Thread nD τ)) ↦{fullShare} (dat3 c A3 O B).arrAt 1 cfg3.N : sProp 𝕄)) := by
  refine ((dat3 c A3 O B).toR_arraysAt_post cfg3.N).trans ?_
  unfold Dat.arrays
  rw [bigSep_W3]
  exact Idealize.SL.BI.sep_mono (arr3_out c A3 O B 0 _ (arrAt3_in c A3 O B)) (arr3_out c A3 O B 1 _ rfl)

/-! ## The value: the result's array block by block -/

/-- The result window's block index at point `t` is (0, t). -/
theorem index3_1 : ∀ t : Fin cfg3.N, (cfg3.win 1).index t 1 = t.val :=
  (by decide +kernel : ∀ t : Fin grid3.N, win3_1.index t 1 = t.val)

theorem hdisj3_1 (t t' : Fin cfg3.N) (_ : (cfg3.win 1).flush t = true) (_ : (cfg3.win 1).flush t' = true) (h : t ≠ t') :
    Disjoint ((cfg3.win 1).blk t).view.set ((cfg3.win 1).blk t').view.set :=
  (cfg3.win 1).disjoint_blk fun e => h (Fin.ext (by have := congrFun e 1; rwa [index3_1, index3_1] at this))

/-- Block `t` of the result after the region, its part inside the array: the moved part of the payload on the input's
    block filled out with zeros. -/
theorem s_block (t : Fin cfg3.N) :
    ((cfg3.win 1).blk t).view.read (Elt F) ((dat3 c A3 O B).arrAt 1 cfg3.N)
      = win3_1.cut (grid3.coords t) (k3_pay1 (in3 c A3 t)) :=
  ((dat3 c A3 O B).read_blk_arrAt_eq_flushed 1 (hdisj3_1) cfg3.N t t.isLt (flush3_1 t)).trans
    (by show win3_1.cut (grid3.coords t) ((dat3 c A3 O B).after 1 t) = _; rw [after3_1, out3_eq])

end Cert.Proof.KI.Tc

end
-- ==== Proof.Regs.lean ====
/-
  The two TensorCore pipeline regions as the segment library's records, inside the SparseCore launch: what each is entered from and leaves (all of @main's arrays at a valuation, the TensorCore's debts to the later SparseCore calls), entry and exit.
-/
import proofs.«204254_g40355512713743_retrytranche2_1723_12_alg».proof.Proof.Common
import proofs.«204254_g40355512713743_retrytranche2_1723_12_alg».proof.Proof.MainA
import proofs.«204254_g40355512713743_retrytranche2_1723_12_alg».proof.Proof.MlpRegion
import proofs.«204254_g40355512713743_retrytranche2_1723_12_alg».proof.Proof.CombineRegion
import proofs.«204254_g40355512713743_retrytranche2_1723_12_alg».proof.Proof.CombineValue

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable [∀ e, Nonempty (Elt F e)]
variable (m : (ℓ : Loc nD τ sig) → Buf (Elt F) ℓ)

open Idealize.ShloMosaic.TcCoe
open Idealize.ShloMosaic.StableHlo (held)
open Idealize.ShloMosaic.Pipeline (ucRefs unscopedRest unscopedBufs_held)

/-- No pipeline has prefetched tables. -/
abbrev adm : (p : Fin 2) → (pcfgs (F := F) p).Adm := fun p => (cfgs p).toPCfg_adm

/-- The pairs a TensorCore's waits may have recorded before SparseCore call `n`: those at level at most `8 n`. -/
def Bn (c : Dev nD) (n : ℕ) : Set (SemLoc sig × HIx 2) := {p | (K (F := F)).lev (SparseCore.T c, p.1) p.2 ≤ 8 * n}

/-- What the TensorCore owes before SparseCore call `n`, its recorded pairs bounded. -/
abbrev owesTC (c : Dev nD) (n : ℕ) : sProp 𝕄 :=
  iprop(∃ W, ⌜(K (F := F)).WBelow (SparseCore.T c) W (8 * n)⌝ ∗ owes (SparseCore.T c) ((K (F := F)).Otc c n) W)

omit [FloatOps F] [∀ e, Nonempty (Elt F e)] in
/-- The TensorCore's debts are all at a call's index. -/
theorem Otc_none (c : Dev nD) (n : ℕ) (g : GSem nD τ sig) : (K (F := F)).Otc c n g none = 0 := by
  unfold SparseCore.Cfg.Otc
  rw [Finset.sum_apply, Finsupp.finset_sum_apply]
  refine Finset.sum_eq_zero fun q _ => ?_
  split
  · rw [Finset.sum_apply, Finsupp.finset_sum_apply]
    exact Finset.sum_eq_zero fun c _ => by rw [tallyAt_apply]; simp
  · rfl

/-- The first pipeline's twelve arrays as it finds them. -/
abbrev A1 (c : Dev nD) : (w : Fin 12) → Buf (Elt F) ((cfg1.win w).arr.view.loc (c.tc : Thread nD τ)) := fun w => Vc m c (Pipeline.arrRef spec1 w)

/-- The contents the first pipeline leaves in its two result arrays. -/
abbrev tfR (c : Dev nD) := (Tc.dat1 c (A1 m c) ((K (F := F)).Otc c 1) (Bn (F := F) c 1)).arrAt 10 cfg1.N
abbrev tbR (c : Dev nD) := (Tc.dat1 c (A1 m c) ((K (F := F)).Otc c 1) (Bn (F := F) c 1)).arrAt 11 cfg1.N

/-- After the first pipeline. -/
def Vd (c : Dev nD) : Valuation τ sig (Elt F) := Function.update (Function.update (Vc m c) (rV main_v9_0) (tfR m c)) (rV main_v9_1) (tbR m c)

theorem Vd_of_ne (c : Dev nD) (b : DevRef τ sig) (h0 : b ≠ rV main_v9_0) (h1 : b ≠ rV main_v9_1) : Vd m c b = Vc m c b := by
  unfold Vd; rw [Function.update_of_ne h1, Function.update_of_ne h0]
theorem Vd_v90 (c : Dev nD) : Vd m c (rV main_v9_0) = tfR m c := by
  unfold Vd; rw [Function.update_of_ne (StableHlo.devRef_ne_of_ne (by decide)), Function.update_self]
theorem Vd_v91 (c : Dev nD) : Vd m c (rV main_v9_1) = tbR m c := by
  unfold Vd; rw [Function.update_self]

/-- After the second SparseCore call: the partial sums at the scatter kernel's function of the flattened indices and the two MLP outputs. -/
def Ve (c : Dev nD) : Valuation τ sig (Elt F) := Function.update (Vd m c) (rV main_v10) (Sc.specPart (eiOf m c) (tfR m c) (tbR m c))
/-- After the reshape of the partial sums to 32 rows. -/
def Vf (c : Dev nD) : Valuation τ sig (Elt F) := (hop11 (F := F)).result (Ve m c)
/-- The second pipeline's two arrays as it finds them. -/
abbrev A3 (c : Dev nD) : (w : Fin 2) → Buf (Elt F) ((cfg3.win w).arr.view.loc (c.tc : Thread nD τ)) := fun w => Vf m c (Pipeline.arrRef spec3 w)

/-- The contents the second pipeline leaves in its result array. -/
abbrev sR (c : Dev nD) := (Tc.dat3 c (A3 m c) ((K (F := F)).Otc c 2) (Bn (F := F) c 2)).arrAt 1 cfg3.N

/-- The proof data of the two pipelines, relational form, both exact. -/
def rdats : (p : Fin 2) → (c : Dev nD) → Pipeline.RDat τ (Elt F) (HIx 2) ℕ UU ℕ (Pipeline.pin (pcfgs (F := F)) adm p) c
  | ⟨0, _⟩ => fun c => Tc.rd1 c (A1 m c) ((K (F := F)).Otc c 1) (Bn (F := F) c 1)
  | ⟨1, _⟩ => fun c => Tc.rd3x c (A3 m c) ((K (F := F)).Otc c 2) (Bn (F := F) c 2)

omit [FloatOps F] [∀ e, Nonempty (Elt F e)] in
/-- Recorded pairs within the bound of call `n` or at the loop's own waits (index `none`, level 0) are below `8 n`. -/
theorem wbelow_of_bound {c : Dev nD} {n : ℕ} {W : Waits sig (HIx 2)} {cfg : Pipeline.Cfg sig Λ₀}
    (h : (↑W : Set (SemLoc sig × HIx 2)) ⊆ Bn (F := F) c n ∪ cfg.waitPairs (none : HIx 2)) : (K (F := F)).WBelow (SparseCore.T c) W (8 * n) := by
  intro p hp
  rcases h (Finset.mem_coe.mpr hp) with hb | ⟨w, s, rfl⟩
  · exact hb
  · rw [SparseCore.Cfg.lev_none]; exact Nat.zero_le _

/-- THE FIRST PIPELINE REGION (the per-edge MLP): entered from all of @main's arrays at `Vc` and the TensorCore's debts before the second
    SparseCore call; leaves them at `Vd` and the same debts. -/
def reg1 : Pipeline.RDat.RegionSeg (pcfgs (F := F)) adm (rdats m) (none : HIx 2) (defs₀ (F := F)) 𝒱₀ (K (F := F)).L (K (F := F)).lev 0 where
  win := launch1.win.to₀
  block_pos := launch1.block_pos
  stage_whole := launch1.stage_whole
  K := PEmpty
  osem k := k.elim
  ho := Pipeline.OwnSemFacts.none _
  hbody c := Tc.rbody1 c _ _ _
  hwaits c := Pipeline.RDat.cellsWaits_intro _ (rdats m) (none : HIx 2) 0 c fun w s t => (K (F := F)).mayWait_none _ (Otc_none c 1)
  pre c := iprop(unscopedBufs c (fun b => Vc m c b) ∗ owesTC (F := F) c 1)
  post c := iprop(unscopedBufs c (fun b => Vd m c b) ∗ owesTC (F := F) c 1)
  X _ := iprop(emp)
  Y _ := iprop(emp)
  Z c := unscopedRest (Ix := HIx 2) (Name := ℕ) (U := UU) (Lvl := ℕ) spec1 c (fun b => Vc m c b)
  hentry c := by
    rw [Pipeline.ownSems0_none]
    have hsplit := Pipeline.RDat.arrays_of_unscopedBufs (pcfgs (F := F)) adm (rdats m) (p := 0) launch1.win launch1.arr_whole c
      (Tc.share1 c _ _ _) (fun b => Vc m c b) (fun _ => rfl)
    iintro ⟨⟨Hub, %W, %hW, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · iexists W; isplitr
      · ipureintro; exact fun p hp => Or.inl (hW p (Finset.mem_coe.mp hp))
      iexact HO
    isplitr; · iempintro
    iexact Hr
  hin c := Tc.entry_hin1 c _ _ _
  hout c := Tc.entry_hout1 c _ _ _ _
  hexit c := by
    have hrest : (unscopedRest (Ix := HIx 2) (Name := ℕ) (U := UU) (Lvl := ℕ) (cfgs 0).spec c (fun b => Vd m c b) : sProp 𝕄)
        = unscopedRest (cfgs 0).spec c (fun b => Vc m c b) := by
      unfold Pipeline.unscopedRest
      exact bigSep_congr fun b hb => by
        have hb' := (Finset.mem_sdiff.mp hb).2
        beta_reduce
        rw [Vd_of_ne m c _ (fun e => hb' (Finset.mem_image.mpr ⟨10, Finset.mem_univ _, (Proc.devRef_injective _ e).symm⟩))
          (fun e => hb' (Finset.mem_image.mpr ⟨11, Finset.mem_univ _, (Proc.devRef_injective _ e).symm⟩))]
    show iprop((Tc.rd1 c (A1 m c) ((K (F := F)).Otc c 1) (Bn (F := F) c 1)).arraysAt cfg1.N
        ∗ (Tc.rd1 c (A1 m c) ((K (F := F)).Otc c 1) (Bn (F := F) c 1)).owesAt (none : HIx 2) (Fin.last cfg1.N) ∗ emp
        ∗ unscopedRest (Ix := HIx 2) (Name := ℕ) (U := UU) (Lvl := ℕ) cfg1.spec c (fun b => Vc m c b)) ⊢ _
    iintro ⟨Ha, ⟨%W, %hW, HO⟩, -, Hr⟩
    ihave Ha' := (Tc.arraysAt1_elim c (A1 m c) ((K (F := F)).Otc c 1) (Bn (F := F) c 1)) $$ Ha
    icases Ha' with ⟨H0, H1, H2, H3, H4, H5, H6, H7, H8, H9, H10, H11⟩
    imodintro
    isplitr [HO]
    · rw [Pipeline.unscopedBufs_split cfgs 0 launch1.win.arr_unscoped launch1.win.arr_inj c (fun b => Vd m c b), bigSep_W1]
      isplitr [Hr]
      · isplitl [H0]; · rw [Vd_of_ne m c _ (StableHlo.devRef_ne_of_ne (by decide)) (StableHlo.devRef_ne_of_ne (by decide))]; iexact H0
        isplitl [H1]; · rw [Vd_of_ne m c _ (StableHlo.devRef_ne_of_ne (by decide)) (StableHlo.devRef_ne_of_ne (by decide))]; iexact H1
        isplitl [H2]; · rw [Vd_of_ne m c _ (StableHlo.devRef_ne_of_ne (by decide)) (StableHlo.devRef_ne_of_ne (by decide))]; iexact H2
        isplitl [H3]; · rw [Vd_of_ne m c _ (StableHlo.devRef_ne_of_ne (by decide)) (StableHlo.devRef_ne_of_ne (by decide))]; iexact H3
        isplitl [H4]; · rw [Vd_of_ne m c _ (StableHlo.devRef_ne_of_ne (by decide)) (StableHlo.devRef_ne_of_ne (by decide))]; iexact H4
        isplitl [H5]; · rw [Vd_of_ne m c _ (StableHlo.devRef_ne_of_ne (by decide)) (StableHlo.devRef_ne_of_ne (by decide))]; iexact H5
        isplitl [H6]; · rw [Vd_of_ne m c _ (StableHlo.devRef_ne_of_ne (by decide)) (StableHlo.devRef_ne_of_ne (by decide))]; iexact H6
        isplitl [H7]; · rw [Vd_of_ne m c _ (StableHlo.devRef_ne_of_ne (by decide)) (StableHlo.devRef_ne_of_ne (by decide))]; iexact H7
        isplitl [H8]; · rw [Vd_of_ne m c _ (StableHlo.devRef_ne_of_ne (by decide)) (StableHlo.devRef_ne_of_ne (by decide))]; iexact H8
        isplitl [H9]; · rw [Vd_of_ne m c _ (StableHlo.devRef_ne_of_ne (by decide)) (StableHlo.devRef_ne_of_ne (by decide))]; iexact H9
        isplitl [H10]; · rw [show Vd m c (Proc.devRef .tc (Pipeline.arrRef (cfgs 0).spec 10)) = tfR m c from Vd_v90 m c]; iexact H10
        rw [show Vd m c (Proc.devRef .tc (Pipeline.arrRef (cfgs 0).spec 11)) = tbR m c from Vd_v91 m c]; iexact H11
      · rw [hrest]; iexact Hr
    · iexists W; isplitr
      · ipureintro; exact wbelow_of_bound (F := F) hW
      iexact HO

/-- After the second pipeline, its result array at contents `f`. -/
def Vg (c : Dev nD) (f : Buf (Elt F) ((c.tc : Thread nD τ).loc main_v12)) : Valuation τ sig (Elt F) := Function.update (Vf m c) (rV main_v12) f

theorem Vg_of_ne (c : Dev nD) (f) (b : DevRef τ sig) (h : b ≠ rV main_v12) : Vg m c f b = Vf m c b := by
  unfold Vg; rw [Function.update_of_ne h]
theorem Vg_v12 (c : Dev nD) (f) : Vg m c f (rV main_v12) = f := by
  unfold Vg; rw [Function.update_self]

/-- THE SECOND PIPELINE REGION (the combine of the 32 partial sums), exact under the column-locality of its body's sums: entered from all of
    @main's arrays at `Vf` and the TensorCore owing nothing more; leaves them at `Vg` of the pipeline's result. -/
def reg3 (hloc : Tc.K3Local F) : Pipeline.RDat.RegionSeg (pcfgs (F := F)) adm (rdats m) (none : HIx 2) (defs₀ (F := F)) 𝒱₀ (K (F := F)).L (K (F := F)).lev 1 where
  win := launch3.win.to₀
  block_pos := launch3.block_pos
  stage_whole := launch3.stage_whole
  K := PEmpty
  osem k := k.elim
  ho := Pipeline.OwnSemFacts.none _
  hbody c := Tc.rbody3x c _ _ _ hloc
  hwaits c := Pipeline.RDat.cellsWaits_intro _ (rdats m) (none : HIx 2) 1 c fun w s t => (K (F := F)).mayWait_none _ (Otc_none c 2)
  pre c := iprop(unscopedBufs c (fun b => Vf m c b) ∗ owesTC (F := F) c 2)
  post c := iprop(unscopedBufs c (fun b => Vg m c (sR m c) b) ∗ owesTC (F := F) c 2)
  X _ := iprop(emp)
  Y _ := iprop(emp)
  Z c := unscopedRest (Ix := HIx 2) (Name := ℕ) (U := UU) (Lvl := ℕ) spec3 c (fun b => Vf m c b)
  hentry c := by
    rw [Pipeline.ownSems0_none]
    have hsplit := Pipeline.RDat.arrays_of_unscopedBufs (pcfgs (F := F)) adm (rdats m) (p := 1) launch3.win launch3.arr_whole c
      (Tc.share3x c _ _ _) (fun b => Vf m c b) (fun _ => rfl)
    iintro ⟨⟨Hub, %W, %hW, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · iexists W; isplitr
      · ipureintro; exact fun p hp => Or.inl (hW p (Finset.mem_coe.mp hp))
      iexact HO
    isplitr; · iempintro
    iexact Hr
  hin c := Tc.entry_hin3x c _ _ _
  hout c := Tc.entry_hout3x c _ _ _ _
  hexit c := by
    have hrest : ∀ f, (unscopedRest (Ix := HIx 2) (Name := ℕ) (U := UU) (Lvl := ℕ) (cfgs 1).spec c (fun b => Vg m c f b) : sProp 𝕄)
        = unscopedRest (cfgs 1).spec c (fun b => Vf m c b) := fun f => by
      unfold Pipeline.unscopedRest
      exact bigSep_congr fun b hb => by
        have hb' := (Finset.mem_sdiff.mp hb).2
        beta_reduce
        rw [Vg_of_ne m c f _ (fun e => hb' (Finset.mem_image.mpr ⟨1, Finset.mem_univ _, (Proc.devRef_injective _ e).symm⟩))]
    show iprop((Tc.rd3x c (A3 m c) ((K (F := F)).Otc c 2) (Bn (F := F) c 2)).arraysAt cfg3.N
        ∗ (Tc.rd3x c (A3 m c) ((K (F := F)).Otc c 2) (Bn (F := F) c 2)).owesAt (none : HIx 2) (Fin.last cfg3.N) ∗ emp
        ∗ unscopedRest (Ix := HIx 2) (Name := ℕ) (U := UU) (Lvl := ℕ) cfg3.spec c (fun b => Vf m c b)) ⊢ _
    iintro ⟨Ha, ⟨%W, %hW, HO⟩, -, Hr⟩
    ihave Ha' := (Tc.arraysAt3x_elim c (A3 m c) ((K (F := F)).Otc c 2) (Bn (F := F) c 2)) $$ Ha
    icases Ha' with ⟨H0, H1⟩
    imodintro
    isplitr [HO]
    · rw [Pipeline.unscopedBufs_split cfgs 1 launch3.win.arr_unscoped launch3.win.arr_inj c (fun b => Vg m c (sR m c) b), bigSep_W3]
      isplitr [Hr]
      · isplitl [H0]; · rw [Vg_of_ne m c (sR m c) _ (StableHlo.devRef_ne_of_ne (by decide))]; iexact H0
        rw [show Vg m c (sR m c) (Proc.devRef .tc (Pipeline.arrRef (cfgs 1).spec 1)) = sR m c from Vg_v12 m c (sR m c)]; iexact H1
      · rw [hrest]; iexact Hr
    · iexists W; isplitr
      · ipureintro; exact wbelow_of_bound (F := F) hW
      iexact HO

end Cert.Proof.KI

end
-- ==== Proof.LaunchA.lean ====
/-
  The launch of the kernel's program: what each SparseCore call hands its processors, the tile tasks as the launch theorem's obligations, the launch element of the ghost state, and the run.
-/
import proofs.«204254_g40355512713743_retrytranche2_1723_12_alg».proof.Proof.Common
import proofs.«204254_g40355512713743_retrytranche2_1723_12_alg».proof.Proof.Regs
import Idealize.ShloMosaic.Lib.Pipeline.Regions

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable [∀ e, Nonempty (Elt F e)]
variable (m : (ℓ : Loc nD τ sig) → Buf (Elt F) ℓ) (ρ : Dev nD → PrngReg)

/-! ## What the calls hand over -/

def P : (K (F := F)).Pay (nD := nD) (Val := Elt F) (Name := ℕ) (U := UU) where
  st := fun q d c => match q with
    | 0 => Ga.st0 (eiOf m d) (rfOf m d) (vtOf m d) d (Fin.cast (nCore_q 0) c)
    | 1 => Sc.st1 (eiOf m d) (tfR m d) (tbR m d) d (Fin.cast (nCore_q 1) c)
  dn := fun q d c => match q with
    | 0 => Ga.dn0 (eiOf m d) (rfOf m d) (vtOf m d) d (Fin.cast (nCore_q 0) c)
    | 1 => Sc.dn1 (eiOf m d) (tfR m d) (tbR m d) d (Fin.cast (nCore_q 1) c)
  go := fun q d c i => match q with
    | 0 => Ga.go0 (eiOf m d) (rfOf m d) (vtOf m d) d (Ga.coords0 (Fin.cast (nCore_q 0) c) (Fin.cast (nSub_q 0) i))
    | 1 => Sc.go1 (eiOf m d) (tfR m d) (tbR m d) d (Sc.coords (Fin.cast (nCore_q 1) c) (Fin.cast (nSub_q 1) i))
  td := fun q d c i => match q with
    | 0 => Ga.td0 (eiOf m d) (rfOf m d) (vtOf m d) d (Ga.coords0 (Fin.cast (nCore_q 0) c) (Fin.cast (nSub_q 0) i))
    | 1 => Sc.td1 (eiOf m d) (tfR m d) (tbR m d) d (Sc.coords (Fin.cast (nCore_q 1) c) (Fin.cast (nSub_q 1) i))
  x := fun _ _ => iprop(emp)

instance P_storable : (P (F := F) m).IsStorable where
  st q d c := match q with
    | 0 => by unfold P; infer_instance
    | 1 => by unfold P; infer_instance
  dn q d c := match q with
    | 0 => by unfold P; infer_instance
    | 1 => by unfold P; infer_instance
  go q d c i := match q with
    | 0 => by unfold P; infer_instance
    | 1 => by unfold P; infer_instance
  td q d c i := match q with
    | 0 => by unfold P; infer_instance
    | 1 => by unfold P; infer_instance

/-! ## The launch theorem's obligations -/

theorem defs₀_vector0 (c : Fin τ.nSC) (s : Fin τ.nSub) :
    defs₀ (F := F) (.scVector c s) 0 ()
      = SparseCore.onTile hcore0 hsub0 (fun c s => cc0__sc_gather_body (Ga.coords0 c s) (Memref.whole main_v0_scv) (Memref.isWhole_whole _) (Memref.whole main_v1_scv) (Memref.isWhole_whole _) (Memref.whole main_v3_scv) (Memref.isWhole_whole _)
            (Memref.whole main_v4_0_scv) (Memref.isWhole_whole _) (Memref.whole main_v4_1_scv) (Memref.isWhole_whole _) (Memref.whole main_v4_2_scv) (Memref.isWhole_whole _) (Memref.whole main_v4_3_scv) (Memref.isWhole_whole _)
            (Memref.whole cc0_scratch0) (Memref.isWhole_whole _) (Memref.whole cc0_scratch1) (Memref.isWhole_whole _) (Memref.whole cc0_scratch2) (Memref.isWhole_whole _) (Memref.whole cc0_scratch3) (Memref.isWhole_whole _)
            cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13) ⟨⟩ c s := rfl

theorem defs₀_vector2 (c : Fin τ.nSC) (s : Fin τ.nSub) :
    defs₀ (F := F) (.scVector c s) 2 ()
      = SparseCore.onTile hcore2 hsub2 (fun c s => cc2__sc_scatter_body (Sc.coords c s) (Memref.whole main_v0_scv) (Memref.isWhole_whole _) (Memref.whole main_v9_0_scv) (Memref.isWhole_whole _) (Memref.whole main_v9_1_scv) (Memref.isWhole_whole _)
            (Memref.whole main_v10_scv) (Memref.isWhole_whole _) (Memref.whole cc2_scratch0) (Memref.isWhole_whole _) (Memref.whole cc2_scratch1) (Memref.isWhole_whole _) (Memref.whole cc2_scratch2) (Memref.isWhole_whole _)
            cc2_scoped0 cc2_scoped1 cc2_scoped2 cc2_scoped3 cc2_scoped4 cc2_scoped5 cc2_scoped6) ⟨⟩ c s := rfl

omit [FloatOps F] [∀ e, Nonempty (Elt F e)] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] [∀ e, Nonempty (Elt F e)] in
theorem drop_emp {A B : sProp 𝕄} : iprop(A ∗ emp ∗ B) ⊢ iprop(A ∗ B) := by
  iintro ⟨HA, -, HB⟩
  isplitl [HA]; · iexact HA
  iexact HB

/-- Every index word of the flattened edge list, read unsigned, names a node. -/
def PreOK : Prop := ∀ (d : Dev nD) j, (BitVec.toNat (show BitVec 32 from eiOf m d j)) < 100000

theorem tileObl0 (hr : Ga.TileR F) (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector0]; simp only [SparseCore.onTile, hc, and_self, ↓reduceDIte]
  exact drop_emp.trans ((Ga.tile_body0 hr (eiOf m d) (rfOf m d) (vtOf m d) hF (hpre d) d (Ga.coords0 ⟨_, hc.1⟩ ⟨_, hc.2⟩) O W hO).trans (wp_mono frame _ _ fun _ => obl_post (q := 0)))

theorem tileObl1 (hF : (K (F := F)).Facts) (hpre : PreOK m) : (K (F := F)).TileObl (D (F := F)) 𝒱 (P m) v₀ 1 := by
  intro d c i O W hO _ _
  simp only [show (P m).ox = fun _ _ => 0 from rfl, add_zero]
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  have hc : ((K (F := F)).core 1 c).val < grid2.bound 0 ∧ ((K (F := F)).sub 1 i).val < grid2.bound 1 := ⟨c.isLt, i.isLt⟩
  rw [defs₀_vector2]; simp only [SparseCore.onTile, hc, and_self, ↓reduceDIte]
  exact drop_emp.trans ((Sc.tile_body1 (eiOf m d) (tfR m d) (tbR m d) d (Sc.coords ⟨_, hc.1⟩ ⟨_, hc.2⟩) hF (hpre d) O W hO).trans (wp_mono frame _ _ fun _ => obl_post (q := 1)))

omit [FloatOps F] [∀ e, Nonempty (Elt F e)] in
theorem bigSep_tasks (q : Fin 2) (Φ : Fin 16 → sProp 𝕄) :
    (bigSep Finset.univ fun i : Fin ((K (F := F)).nSub q) => Φ (Fin.cast (nSub_q q) i)) = bigSep Finset.univ Φ := by
  match q with
  | 0 => exact bigSep_congr fun _ _ => congrArg Φ (Fin.ext rfl)
  | 1 => exact bigSep_congr fun _ _ => congrArg Φ (Fin.ext rfl)

theorem vecSplit0' : (K (F := F)).VecSplit' (P m) 0 := by
  intro d c
  show Ga.st0 (eiOf m d) (rfOf m d) (vtOf m d) d (Fin.cast (nCore_q 0) c) ⊢ |={Set.univ}=> iprop(
      (bigSep Finset.univ fun i : Fin ((K (F := F)).nSub 0) => Ga.go0 (eiOf m d) (rfOf m d) (vtOf m d) d (Ga.coords0 (Fin.cast (nCore_q 0) c) (Fin.cast (nSub_q 0) i)))
      ∗ ((bigSep Finset.univ fun i : Fin ((K (F := F)).nSub 0) => Ga.td0 (eiOf m d) (rfOf m d) (vtOf m d) d (Ga.coords0 (Fin.cast (nCore_q 0) c) (Fin.cast (nSub_q 0) i)))
          -∗ Ga.dn0 (eiOf m d) (rfOf m d) (vtOf m d) d (Fin.cast (nCore_q 0) c)))
  rw [bigSep_tasks (F := F) 0 (fun i => Ga.go0 (eiOf m d) (rfOf m d) (vtOf m d) d (Ga.coords0 (Fin.cast (nCore_q 0) c) i)),
    bigSep_tasks (F := F) 0 (fun i => Ga.td0 (eiOf m d) (rfOf m d) (vtOf m d) d (Ga.coords0 (Fin.cast (nCore_q 0) c) i))]
  exact Ga.vecSplit0 _ _ _ d _

theorem vecSplit1' : (K (F := F)).VecSplit' (P m) 1 := by
  intro d c
  show Sc.st1 (eiOf m d) (tfR m d) (tbR m d) d (Fin.cast (nCore_q 1) c) ⊢ |={Set.univ}=> iprop(
      (bigSep Finset.univ fun i : Fin ((K (F := F)).nSub 1) => Sc.go1 (eiOf m d) (tfR m d) (tbR m d) d (Sc.coords (Fin.cast (nCore_q 1) c) (Fin.cast (nSub_q 1) i)))
      ∗ ((bigSep Finset.univ fun i : Fin ((K (F := F)).nSub 1) => Sc.td1 (eiOf m d) (tfR m d) (tbR m d) d (Sc.coords (Fin.cast (nCore_q 1) c) (Fin.cast (nSub_q 1) i)))
          -∗ Sc.dn1 (eiOf m d) (tfR m d) (tbR m d) d (Fin.cast (nCore_q 1) c)))
  rw [bigSep_tasks (F := F) 1 (fun i => Sc.go1 (eiOf m d) (tfR m d) (tbR m d) d (Sc.coords (Fin.cast (nCore_q 1) c) i)),
    bigSep_tasks (F := F) 1 (fun i => Sc.td1 (eiOf m d) (tfR m d) (tbR m d) d (Sc.coords (Fin.cast (nCore_q 1) c) i))]
  exact Sc.vecSplit1 _ _ _ d _

/-! ## The launch element: the handshakes' rounds, the pipelines' staging cells' rounds, nothing for the transfers -/

def u₀ : UU := (initOf (K (F := F)).hsCells (K (F := F)).hsToks, (initOf (Pipeline.cells cfgs cellOf_inj) (Pipeline.launchToks cfgs cellOf_inj), 1))

/-- What @main's proof starts from on device `d`: the launch ghost state of both pipelines' staging cells and their duty tokens. -/
def G (d : Dev nD) : sProp 𝕄 :=
  iprop((bigSep Finset.univ fun p : Fin 2 => Pipeline.cellsGhost (nD := nD) (τ := τ) cfgs (EP (F := F)) p d)
    ∗ bigSep Finset.univ fun p : Fin 2 => Pipeline.toksInit (nD := nD) (τ := τ) cfgs (EP (F := F)) p d)

omit [FloatOps F] [∀ e, Nonempty (Elt F e)] in
theorem bigSep_emp' {I : Type} (s : Finset I) : (bigSep s fun _ => iprop(emp)) = (iprop(emp) : sProp 𝕄) := bigSep_emp_const s

omit [FloatOps F] [∀ e, Nonempty (Elt F e)] in
theorem own_EP (b : UP) :
    (BI.own (((Emb.inl : Emb UP (UP × Counters)).trans (embR : Emb (UP × Counters) 𝕄)) b) : sProp 𝕄) = BI.own (EP (F := F) b) := by
  unfold EP embR; rfl

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 2 => (P m).x q thr) := by
  unfold u₀
  iintro Hu
  ihave H := (ownU_pair _ _) $$ Hu
  icases H with ⟨HH, HR⟩
  ihave H2 := ((own_pair_emb (embR : Emb (UP × Counters) 𝕄) _ _).trans (sep_mono_left (Entails.of_eq (own_EP (F := F) _)))) $$ HR
  icases H2 with ⟨HP, -⟩
  imod (Pipeline.fund_ghost (nD := nD) (τ := τ) cfgs (EP (F := F)) cellOf_inj) $$ HP with ⟨Hg, Ht⟩
  imodintro
  isplitl [HH]; · iexact HH
  isplitl [Hg Ht]
  · unfold G; rw [bigSep_sep']
    isplitl [Hg]; · iexact Hg
    iexact Ht
  unfold P; dsimp only
  rw [show (bigSep Finset.univ fun _ : Thread nD τ => bigSep Finset.univ fun _ : Fin 2 => (iprop(emp) : sProp 𝕄)) = iprop(emp) from by
    rw [bigSep_congr fun _ _ => bigSep_emp' _, bigSep_emp']]
  iempintro

end Cert.Proof.KI

end
-- ==== Proof.MainB.lean ====
/-
  @main on the TensorCore inside the SparseCore launch, assembled: host stretches, the two SparseCore calls, the two pipeline regions; then the program's run.
-/
import proofs.«204254_g40355512713743_retrytranche2_1723_12_alg».proof.Proof.Common
import proofs.«204254_g40355512713743_retrytranche2_1723_12_alg».proof.Proof.LaunchA

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable [∀ e, Nonempty (Elt F e)]
variable (m : (ℓ : Loc nD τ sig) → Buf (Elt F) ℓ) (ρ : Dev nD → PrngReg) (hloc : Tc.K3Local F)

open Idealize.ShloMosaic.TcCoe
open Idealize.ShloMosaic.StableHlo (held wp_hlo_within)
open Idealize.ShloMosaic.Pipeline (ucRefs unscopedBufs_held sub_ucRefs)

/-! ## The first SparseCore call's arrays out of the held set, and back -/

omit [FloatOps F] [∀ e, Nonempty (Elt F e)] in
theorem mem_uc (b : Ref sig .tc) (h : (rV b : DevRef τ sig).isScoped = false) : rV b ∈ ucRefs τ sig :=
  Finset.mem_filter.mpr ⟨StableHlo.devRef_mem_tcRefs b, by rw [h]; exact Bool.false_ne_true⟩

/-- The arrays the first SparseCore call reads and writes. -/
abbrev T0 : Finset (DevRef τ sig) := {rV main_v0, rV main_v1, rV main_v3, rV main_v4_0, rV main_v4_1, rV main_v4_2, rV main_v4_3}

omit [FloatOps F] [∀ e, Nonempty (Elt F e)] in
theorem T0_sub : (T0 : Finset (DevRef τ sig)) ⊆ ucRefs τ sig := by
  intro b hb
  simp only [T0, Finset.mem_insert, Finset.mem_singleton] at hb
  rcases hb with rfl | rfl | rfl | rfl | rfl | rfl | rfl <;> exact mem_uc _ (by decide)

omit [FloatOps F] [∀ e, Nonempty (Elt F e)] in
theorem held_T0 (d : Dev nD) (V : Valuation τ sig (Elt F)) :
    (held (SparseCore.T d) T0 V : sProp 𝕄)
      = iprop((Ga.eiLoc d ↦{fullShare} V (rV main_v0)) ∗ (Ga.rfLoc d ↦{fullShare} V (rV main_v1)) ∗ (Ga.vtLoc d ↦{fullShare} V (rV main_v3))
          ∗ (Ga.r2Loc d ↦{fullShare} V (rV main_v4_0)) ∗ (Ga.d0Loc d ↦{fullShare} V (rV main_v4_1)) ∗ (Ga.d1Loc d ↦{fullShare} V (rV main_v4_2))
          ∗ (Ga.d2Loc d ↦{fullShare} V (rV main_v4_3))) := by
  unfold held T0
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- Off the four result arrays the first call leaves everything as it found it. -/
theorem Vb_of_not_out (d : Dev nD) (b : DevRef τ sig) (h0 : b ≠ rV main_v4_0) (h1 : b ≠ rV main_v4_1) (h2 : b ≠ rV main_v4_2) (h3 : b ≠ rV main_v4_3) :
    Vb m d b = Va m d b := by
  unfold Vb
  rw [Function.update_of_ne h3, Function.update_of_ne h2, Function.update_of_ne h1, Function.update_of_ne h0]
theorem Vb_v40 (d : Dev nD) : Vb m d (rV main_v4_0) = Ga.specR2 (rfOf m d) := by
  unfold Vb
  rw [Function.update_of_ne (StableHlo.devRef_ne_of_ne (by decide)), Function.update_of_ne (StableHlo.devRef_ne_of_ne (by decide)),
    Function.update_of_ne (StableHlo.devRef_ne_of_ne (by decide)), Function.update_self]
theorem Vb_v41 (d : Dev nD) : Vb m d (rV main_v4_1) = Ga.specD 0 (eiOf m d) (vtOf m d) := by
  unfold Vb
  rw [Function.update_of_ne (StableHlo.devRef_ne_of_ne (by decide)), Function.update_of_ne (StableHlo.devRef_ne_of_ne (by decide)), Function.update_self]
theorem Vb_v42 (d : Dev nD) : Vb m d (rV main_v4_2) = Ga.specD 1 (eiOf m d) (vtOf m d) := by
  unfold Vb
  rw [Function.update_of_ne (StableHlo.devRef_ne_of_ne (by decide)), Function.update_self]
theorem Vb_v43 (d : Dev nD) : Vb m d (rV main_v4_3) = Ga.specD 2 (eiOf m d) (vtOf m d) := by
  unfold Vb; rw [Function.update_self]

/-- The seven arrays as the first call leaves them, with the rest of the held set, are the held set at `Vb`. -/
theorem join_T0 (d : Dev nD) :
    iprop((Ga.eiLoc d ↦{fullShare} eiOf m d) ∗ (Ga.rfLoc d ↦{fullShare} rfOf m d) ∗ (Ga.vtLoc d ↦{fullShare} vtOf m d)
        ∗ (Ga.r2Loc d ↦{fullShare} Ga.specR2 (rfOf m d)) ∗ (Ga.d0Loc d ↦{fullShare} Ga.specD 0 (eiOf m d) (vtOf m d))
        ∗ (Ga.d1Loc d ↦{fullShare} Ga.specD 1 (eiOf m d) (vtOf m d)) ∗ (Ga.d2Loc d ↦{fullShare} Ga.specD 2 (eiOf m d) (vtOf m d))
        ∗ held (SparseCore.T d) (ucRefs τ sig \ T0) (Va m d))
      ⊢ (held (SparseCore.T d) (ucRefs τ sig) (Vb m d) : sProp 𝕄) := by
  rw [StableHlo.held_sub_split (SparseCore.T d) T0_sub (Vb m d), held_T0,
    Vb_of_not_out m d (rV main_v0) (StableHlo.devRef_ne_of_ne (by decide)) (StableHlo.devRef_ne_of_ne (by decide)) (StableHlo.devRef_ne_of_ne (by decide)) (StableHlo.devRef_ne_of_ne (by decide)),
    Vb_of_not_out m d (rV main_v1) (StableHlo.devRef_ne_of_ne (by decide)) (StableHlo.devRef_ne_of_ne (by decide)) (StableHlo.devRef_ne_of_ne (by decide)) (StableHlo.devRef_ne_of_ne (by decide)),
    Vb_of_not_out m d (rV main_v3) (StableHlo.devRef_ne_of_ne (by decide)) (StableHlo.devRef_ne_of_ne (by decide)) (StableHlo.devRef_ne_of_ne (by decide)) (StableHlo.devRef_ne_of_ne (by decide)),
    Vb_v40, Vb_v41, Vb_v42, Vb_v43,
    StableHlo.held_congr (SparseCore.T d) (V := Vb m d) (V' := Va m d) (S := ucRefs τ sig \ T0) fun b hb => by
      have hb' := (Finset.mem_sdiff.mp hb).2
      simp only [T0, Finset.mem_insert, Finset.mem_singleton, not_or] at hb'
      exact Vb_of_not_out m d b hb'.2.2.2.1 hb'.2.2.2.2.1 hb'.2.2.2.2.2.1 hb'.2.2.2.2.2.2]
  iintro ⟨H0, H1, H2, H3, H4, H5, H6, Hr⟩
  isplitr [Hr]
  · isplitl [H0]; · iexact H0
    isplitl [H1]; · iexact H1
    isplitl [H2]; · iexact H2
    isplitl [H3]; · iexact H3
    isplitl [H4]; · iexact H4
    isplitl [H5]; · iexact H5
    iexact H6
  iexact Hr

/-! ## The second SparseCore call's arrays -/

abbrev T1 : Finset (DevRef τ sig) := {rV main_v0, rV main_v9_0, rV main_v9_1, rV main_v10}

omit [FloatOps F] [∀ e, Nonempty (Elt F e)] in
theorem T1_sub : (T1 : Finset (DevRef τ sig)) ⊆ ucRefs τ sig := by
  intro b hb
  simp only [T1, Finset.mem_insert, Finset.mem_singleton] at hb
  rcases hb with rfl | rfl | rfl | rfl <;> exact mem_uc _ (by decide)

omit [FloatOps F] [∀ e, Nonempty (Elt F e)] in
theorem held_T1 (d : Dev nD) (V : Valuation τ sig (Elt F)) :
    (held (SparseCore.T d) T1 V : sProp 𝕄)
      = iprop((Sc.eiLoc d ↦{fullShare} V (rV main_v0)) ∗ (Sc.tfLoc d ↦{fullShare} V (rV main_v9_0)) ∗ (Sc.tbLoc d ↦{fullShare} V (rV main_v9_1))
          ∗ (Sc.pLoc d ↦{fullShare} V (rV main_v10))) := by
  unfold held T1
  rw [SparseCore.bigSep_insert' (by decide), SparseCore.bigSep_insert' (by decide), SparseCore.bigSep_insert' (by decide), bigSep_singleton]

theorem Ve_of_ne (d : Dev nD) (b : DevRef τ sig) (h : b ≠ rV main_v10) : Ve m d b = Vd m d b := by
  unfold Ve; rw [Function.update_of_ne h]
theorem Ve_v10 (d : Dev nD) : Ve m d (rV main_v10) = Sc.specPart (eiOf m d) (tfR m d) (tbR m d) := by
  unfold Ve; rw [Function.update_self]

/-- The flattened index array is untouched from the first host stretch to the second call. -/
theorem Vd_v0 (d : Dev nD) : Vd m d (rV main_v0) = eiOf m d := by
  rw [Vd_of_ne m d _ (StableHlo.devRef_ne_of_ne (by decide)) (StableHlo.devRef_ne_of_ne (by decide))]
  unfold Vc
  rw [(hop8 (F := F)).result_of_not_mem _ (show rV main_v0 ∉ ({rV main_v8} : Finset (DevRef τ sig)) by decide),
    (hop7 (F := F)).result_of_not_mem _ (show rV main_v0 ∉ ({rV main_v7} : Finset (DevRef τ sig)) by decide),
    (hop6 (F := F)).result_of_not_mem _ (show rV main_v0 ∉ ({rV main_v6} : Finset (DevRef τ sig)) by decide),
    (hop5 (F := F)).result_of_not_mem _ (show rV main_v0 ∉ ({rV main_v5} : Finset (DevRef τ sig)) by decide),
    Vb_of_not_out m d (rV main_v0) (StableHlo.devRef_ne_of_ne (by decide)) (StableHlo.devRef_ne_of_ne (by decide)) (StableHlo.devRef_ne_of_ne (by decide)) (StableHlo.devRef_ne_of_ne (by decide))]

theorem join_T1 (d : Dev nD) :
    iprop((Sc.eiLoc d ↦{fullShare} eiOf m d) ∗ (Sc.tfLoc d ↦{fullShare} tfR m d) ∗ (Sc.tbLoc d ↦{fullShare} tbR m d)
        ∗ (Sc.pLoc d ↦{fullShare} Sc.specPart (eiOf m d) (tfR m d) (tbR m d))
        ∗ held (SparseCore.T d) (ucRefs τ sig \ T1) (Vd m d))
      ⊢ (held (SparseCore.T d) (ucRefs τ sig) (Ve m d) : sProp 𝕄) := by
  rw [StableHlo.held_sub_split (SparseCore.T d) T1_sub (Ve m d), held_T1,
    Ve_of_ne m d (rV main_v0) (StableHlo.devRef_ne_of_ne (by decide)), Ve_of_ne m d (rV main_v9_0) (StableHlo.devRef_ne_of_ne (by decide)),
    Ve_of_ne m d (rV main_v9_1) (StableHlo.devRef_ne_of_ne (by decide)), Ve_v10, Vd_v0, Vd_v90, Vd_v91,
    StableHlo.held_congr (SparseCore.T d) (V := Ve m d) (V' := Vd m d) (S := ucRefs τ sig \ T1) fun b hb => by
      have hb' := (Finset.mem_sdiff.mp hb).2
      simp only [T1, Finset.mem_insert, Finset.mem_singleton, not_or] at hb'
      exact Ve_of_ne m d b hb'.2.2.2]
  iintro ⟨H0, H1, H2, H3, Hr⟩
  isplitr [Hr]
  · isplitl [H0]; · iexact H0
    isplitl [H1]; · iexact H1
    isplitl [H2]; · iexact H2
    iexact H3
  iexact Hr

/-! ## The pieces of the thread state and of the launch ghost state -/

/-- The TensorCore's handshake state before call `n`, its debts apart. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

omit [FloatOps F] [∀ e, Nonempty (Elt F e)] in
theorem tcSt_eq (d : Dev nD) (n : ℕ) : ((K (F := F)).tcSt EH d n : sProp 𝕄) = iprop(owesTC (F := F) d n ∗ tcRest (F := F) d n) := rfl

omit [FloatOps F] [∀ e, Nonempty (Elt F e)] in
theorem tcSt_split (d : Dev nD) (n n' : ℕ) (h : n = n') : ((K (F := F)).tcSt EH d n : sProp 𝕄) ⊢ iprop(owesTC (F := F) d n' ∗ tcRest (F := F) d n') := by
  subst h; exact Entails.of_eq (tcSt_eq d n)
omit [FloatOps F] [∀ e, Nonempty (Elt F e)] in
theorem tcSt_join (d : Dev nD) (n : ℕ) : iprop(owesTC (F := F) d n ∗ tcRest (F := F) d n) ⊢ ((K (F := F)).tcSt EH d n : sProp 𝕄) :=
  Entails.of_eq (tcSt_eq d n).symm

omit [FloatOps F] [∀ e, Nonempty (Elt F e)] in
theorem G_eq (d : Dev nD) :
    (G (F := F) d : sProp 𝕄)
      = iprop((Pipeline.cellsGhost (nD := nD) (τ := τ) cfgs (EP (F := F)) 0 d ∗ Pipeline.cellsGhost (nD := nD) (τ := τ) cfgs (EP (F := F)) 1 d)
          ∗ (Pipeline.toksInit (nD := nD) (τ := τ) cfgs (EP (F := F)) 0 d ∗ Pipeline.toksInit (nD := nD) (τ := τ) cfgs (EP (F := F)) 1 d)) := by
  unfold G
  rw [show (Finset.univ : Finset (Fin 2)) = {0, 1} by decide, SparseCore.bigSep_insert' (by decide), bigSep_singleton,
    SparseCore.bigSep_insert' (by decide), bigSep_singleton]

theorem reg1_pre (d : Dev nD) : (reg1 m).pre d = iprop(unscopedBufs d (fun b => Vc m d b) ∗ owesTC (F := F) d 1) := rfl
theorem reg1_post (d : Dev nD) : (reg1 m).post d = iprop(unscopedBufs d (fun b => Vd m d b) ∗ owesTC (F := F) d 1) := rfl
theorem reg3_pre (d : Dev nD) : (reg3 m hloc).pre d = iprop(unscopedBufs d (fun b => Vf m d b) ∗ owesTC (F := F) d 2) := rfl
theorem reg3_post (d : Dev nD) : (reg3 m hloc).post d = iprop(unscopedBufs d (fun b => Vg m d (sR m d) b) ∗ owesTC (F := F) d 2) := rfl

/-- A pipeline's entry call in @main is the certificate's own, lifted to the extended body table. -/
theorem lift_entry (p : Fin 2) :
    (Prog.lift (.customCall (SparseCore.inner (Pipeline.entry p)) ()) : Prog (TpuEff nD τ sig (Elt F) (SparseCore.Sig (ΛP (F := F)) 2) .tc) PUnit)
      = SparseCore.liftProg (Prog.op (.customCall (Pipeline.entry p) ()) fun _ => Prog.ret PUnit.unit) := rfl

omit [FloatOps F] [∀ e, Nonempty (Elt F e)] in
/-- The held set of all of @main's arrays, as the launch's "unscoped buffers" at the same valuation; and back. -/
theorem held_to_ub (d : Dev nD) (V V' : Valuation τ sig (Elt F)) (h : V = V') :
    (held (SparseCore.T d) (ucRefs τ sig) V : sProp 𝕄) ⊢ unscopedBufs d (fun b => V' b) := by
  subst h; exact Entails.of_eq (unscopedBufs_held (Ix := HIx 2) (Name := ℕ) (U := UU) (Lvl := ℕ) d V).symm
omit [FloatOps F] [∀ e, Nonempty (Elt F e)] in
theorem ub_to_held (d : Dev nD) (V : Valuation τ sig (Elt F)) :
    (unscopedBufs d (fun b => V b) : sProp 𝕄) ⊢ held (SparseCore.T d) (ucRefs τ sig) V :=
  Entails.of_eq (unscopedBufs_held (Ix := HIx 2) (Name := ℕ) (U := UU) (Lvl := ℕ) d V)

/-! ## @main -/

/-- After the final reshape, the second pipeline's result at contents `f`. -/
def Vh (d : Dev nD) (f : Buf (Elt F) ((d.tc : Thread nD τ).loc main_v12)) : Valuation τ sig (Elt F) := (hop13 (F := F)).result (Vg m d f)

/-- What @main leaves the claim: all its arrays held at the final valuation. -/
def FIN (d : Dev nD) : sProp 𝕄 := held (SparseCore.T d) (ucRefs τ sig) (Vh m d (sR m d))

theorem st0_eq (d : Dev nD) :
    (bigSep Finset.univ fun c : Fin ((K (F := F)).nCore 0) => (P m).st 0 d c)
      = iprop(Ga.st0 (eiOf m d) (rfOf m d) (vtOf m d) d 0 ∗ Ga.st0 (eiOf m d) (rfOf m d) (vtOf m d) d 1) := by
  show (bigSep (Finset.univ : Finset (Fin 2)) fun c : Fin 2 => (P m).st 0 d c) = _
  rw [show (Finset.univ : Finset (Fin 2)) = {0, 1} by decide, SparseCore.bigSep_insert' (by decide), bigSep_singleton]
  rfl
theorem dn0_eq (d : Dev nD) :
    (bigSep Finset.univ fun c : Fin ((K (F := F)).nCore 0) => (P m).dn 0 d c)
      = iprop(Ga.dn0 (eiOf m d) (rfOf m d) (vtOf m d) d 0 ∗ Ga.dn0 (eiOf m d) (rfOf m d) (vtOf m d) d 1) := by
  show (bigSep (Finset.univ : Finset (Fin 2)) fun c : Fin 2 => (P m).dn 0 d c) = _
  rw [show (Finset.univ : Finset (Fin 2)) = {0, 1} by decide, SparseCore.bigSep_insert' (by decide), bigSep_singleton]
  rfl
theorem st1_eq (d : Dev nD) :
    (bigSep Finset.univ fun c : Fin ((K (F := F)).nCore 1) => (P m).st 1 d c)
      = iprop(Sc.st1 (eiOf m d) (tfR m d) (tbR m d) d 0 ∗ Sc.st1 (eiOf m d) (tfR m d) (tbR m d) d 1) := by
  show (bigSep (Finset.univ : Finset (Fin 2)) fun c : Fin 2 => (P m).st 1 d c) = _
  rw [show (Finset.univ : Finset (Fin 2)) = {0, 1} by decide, SparseCore.bigSep_insert' (by decide), bigSep_singleton]
  rfl
theorem dn1_eq (d : Dev nD) :
    (bigSep Finset.univ fun c : Fin ((K (F := F)).nCore 1) => (P m).dn 1 d c)
      = iprop(Sc.dn1 (eiOf m d) (tfR m d) (tbR m d) d 0 ∗ Sc.dn1 (eiOf m d) (tfR m d) (tbR m d) d 1) := by
  show (bigSep (Finset.univ : Finset (Fin 2)) fun c : Fin 2 => (P m).dn 1 d c) = _
  rw [show (Finset.univ : Finset (Fin 2)) = {0, 1} by decide, SparseCore.bigSep_insert' (by decide), bigSep_singleton]
  rfl

include hloc in
set_option maxHeartbeats 1600000 in
theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 2 ∗ FIN (F := F) m d) := by
  unfold SparseCore.Cfg.tcRes
  rw [unscoped_held, G_eq]
  iintro ⟨#Hctx, Hst, ⟨Hb, Hheld, -, -⟩, ⟨Hg0, Hg1⟩, ⟨Ht0, Ht1⟩⟩
  ihave #Hlev := ((K (F := F)).ctx_levAts κ) $$ Hctx
  -- the four host operations before the first call
  iapply (hmain_A m κ d) $$ [Hb Hheld Hst Hg0 Hg1 Ht0 Ht1]
  isplitl [Hb]; · iexact Hb
  isplitl [Hheld]; · iexact Hheld
  iintro ⟨Hb, Hheld⟩
  -- the first SparseCore call: its seven arrays out of the held set
  ihave H := (Entails.of_eq (StableHlo.held_sub_split (SparseCore.T d) T0_sub (Va m d))) $$ Hheld
  icases H with ⟨H0, Hrest⟩
  ihave H0' := (Entails.of_eq (held_T0 (F := F) d (Va m d))) $$ H0
  icases H0' with ⟨Hei, Hrf, Hvt, Hr2, Hd0, Hd1, Hd2⟩
  ihave Hs := (Ga.callSplit0 (eiOf m d) (rfOf m d) (vtOf m d) d) $$ [Hei Hrf Hvt Hr2 Hd0 Hd1 Hd2]
  · isplitl [Hei]; · iexact Hei
    isplitl [Hrf]; · iexact Hrf
    isplitl [Hvt]; · iexact Hvt
    isplitl [Hr2]; · iexists _; iexact Hr2
    isplitl [Hd0]; · iexists _; iexact Hd0
    isplitl [Hd1]; · iexists _; iexact Hd1
    iexists _; iexact Hd2
  icases Hs with ⟨Hrem, Hs0, Hs1⟩
  rw [wp_bind]
  iapply ((K (F := F)).wp_run (D (F := F)) 𝒱 (EH := EH) (P := P m) κ d 0) $$ [Hst Hs0 Hs1 Hb Hrest Hrem Hg0 Hg1 Ht0 Ht1]
  isplitr; · iexact Hctx
  isplitl [Hst]; · iexact Hst
  isplitl [Hs0 Hs1]
  · rw [st0_eq]
    isplitl [Hs0]; · iexact Hs0
    iexact Hs1
  iintro ⟨Hst, Hdn⟩
  ihave Hdn' := (Entails.of_eq (dn0_eq m d)) $$ Hdn
  icases Hdn' with ⟨Hd0, Hd1⟩
  ihave Hj := (Ga.callJoin0 (eiOf m d) (rfOf m d) (vtOf m d) d) $$ [Hrem Hd0 Hd1]
  · isplitl [Hrem]; · iexact Hrem
    isplitl [Hd0]; · iexact Hd0
    iexact Hd1
  icases Hj with ⟨Hei, Hrf, Hvt, Hr2, Hd0, Hd1, Hd2⟩
  ihave Hheld := (join_T0 m d) $$ [Hei Hrf Hvt Hr2 Hd0 Hd1 Hd2 Hrest]
  · isplitl [Hei]; · iexact Hei
    isplitl [Hrf]; · iexact Hrf
    isplitl [Hvt]; · iexact Hvt
    isplitl [Hr2]; · iexact Hr2
    isplitl [Hd0]; · iexact Hd0
    isplitl [Hd1]; · iexact Hd1
    isplitl [Hd2]; · iexact Hd2
    iexact Hrest
  -- the four reshapes before the first pipeline region
  iapply (hmain_C d (Vb m d)) $$ [Hb Hheld Hst Hg0 Hg1 Ht0 Ht1]
  isplitl [Hb]; · iexact Hb
  isplitl [Hheld]; · iexact Hheld
  iintro ⟨Hb, Hheld⟩
  -- the first pipeline region
  ihave Hub := (held_to_ub d ((hop8 (F := F)).result ((hop7 (F := F)).result ((hop6 (F := F)).result ((hop5 (F := F)).result (Vb m d))))) (Vc m d) rfl) $$ Hheld
  ihave Hst' := (tcSt_split (F := F) d ((0 : Fin 2).val + 1) 1 rfl) $$ Hst
  icases Hst' with ⟨HO, Hstr⟩
  rw [wp_bind, lift_entry]
  iapply ((K (F := F)).wp_liftProg (D (F := F)) 𝒱 (SparseCore.T d) Set.univ none _ _)
  iapply (Pipeline.RDat.RegionSeg.wp (pcfgs (F := F)) adm (rdats m) (none : HIx 2) cellOf_inj (EP (F := F)) (defs₀ (F := F)) 𝒱₀
      (K (F := F)).L (K (F := F)).lev (reg1 m) d none (fun _ h => nomatch h) (fun _ => Prog.ret PUnit.unit) _) $$ [Hb Hub HO Hg0 Ht0 Hstr Hg1 Ht1]
  isplitr [Hb Hub HO Hg0 Ht0]
  swap
  · isplitl [Hb]; · iexact Hb
    isplitl [Hub HO]
    · rw [reg1_pre]
      isplitl [Hub]; · iexact Hub
      iexact HO
    isplitr; · iexact Hlev
    isplitl [Hg0]; · iexact Hg0
    iexact Ht0
  iintro ⟨Hb, Hpost⟩
  ihave Hpost' := (Entails.of_eq (reg1_post m d)) $$ Hpost
  icases Hpost' with ⟨Hub, HO⟩
  rw [wp_ret]; imodintro
  ihave Hst := (tcSt_join (F := F) d 1) $$ [HO Hstr]
  · isplitl [HO]; · iexact HO
    iexact Hstr
  ihave Hheld := (ub_to_held d (Vd m d)) $$ Hub
  -- the second SparseCore call: its four arrays out of the held set
  ihave H := (Entails.of_eq (StableHlo.held_sub_split (SparseCore.T d) T1_sub (Vd m d))) $$ Hheld
  icases H with ⟨H1, Hrest⟩
  ihave H1' := (Entails.of_eq (held_T1 (F := F) d (Vd m d))) $$ H1
  rw [Vd_v0, Vd_v90, Vd_v91]
  icases H1' with ⟨Hei, Htf, Htb, Hp⟩
  ihave Hs := (Sc.callSplit1 (eiOf m d) (tfR m d) (tbR m d) d) $$ [Hei Htf Htb Hp]
  · isplitl [Hei]; · iexact Hei
    isplitl [Htf]; · iexact Htf
    isplitl [Htb]; · iexact Htb
    iexists _; iexact Hp
  icases Hs with ⟨Hrem, Hs0, Hs1⟩
  rw [wp_bind]
  iapply ((K (F := F)).wp_run (D (F := F)) 𝒱 (EH := EH) (P := P m) κ d 1) $$ [Hst Hs0 Hs1 Hb Hrest Hrem Hg1 Ht1]
  isplitr; · iexact Hctx
  isplitl [Hst]; · iexact Hst
  isplitl [Hs0 Hs1]
  · rw [st1_eq]
    isplitl [Hs0]; · iexact Hs0
    iexact Hs1
  iintro ⟨Hst, Hdn⟩
  ihave Hdn' := (Entails.of_eq (dn1_eq m d)) $$ Hdn
  icases Hdn' with ⟨Hd0, Hd1⟩
  ihave Hj := (Sc.callJoin1 (eiOf m d) (tfR m d) (tbR m d) d) $$ [Hrem Hd0 Hd1]
  · isplitl [Hrem]; · iexact Hrem
    isplitl [Hd0]; · iexact Hd0
    iexact Hd1
  icases Hj with ⟨Hei, Htf, Htb, Hp⟩
  ihave Hheld := (join_T1 m d) $$ [Hei Htf Htb Hp Hrest]
  · isplitl [Hei]; · iexact Hei
    isplitl [Htf]; · iexact Htf
    isplitl [Htb]; · iexact Htb
    isplitl [Hp]; · iexact Hp
    iexact Hrest
  -- the reshape of the partial sums
  iapply (hmain_one d (hop11 (F := F)) hs11 rfl (Ve m d)) $$ [Hb Hheld Hst Hg1 Ht1]
  isplitl [Hb]; · iexact Hb
  isplitl [Hheld]; · iexact Hheld
  iintro ⟨Hb, Hheld⟩
  -- the second pipeline region
  ihave Hub := (held_to_ub d ((hop11 (F := F)).result (Ve m d)) (Vf m d) rfl) $$ Hheld
  ihave Hst' := (tcSt_split (F := F) d ((1 : Fin 2).val + 1) 2 rfl) $$ Hst
  icases Hst' with ⟨HO, Hstr⟩
  rw [wp_bind, lift_entry]
  iapply ((K (F := F)).wp_liftProg (D (F := F)) 𝒱 (SparseCore.T d) Set.univ none _ _)
  iapply (Pipeline.RDat.RegionSeg.wp (pcfgs (F := F)) adm (rdats m) (none : HIx 2) cellOf_inj (EP (F := F)) (defs₀ (F := F)) 𝒱₀
      (K (F := F)).L (K (F := F)).lev (reg3 m hloc) d none (fun _ h => nomatch h) (fun _ => Prog.ret PUnit.unit) _) $$ [Hb Hub HO Hg1 Ht1 Hstr]
  isplitr [Hb Hub HO Hg1 Ht1]
  swap
  · isplitl [Hb]; · iexact Hb
    isplitl [Hub HO]
    · rw [reg3_pre m hloc]
      isplitl [Hub]; · iexact Hub
      iexact HO
    isplitr; · iexact Hlev
    isplitl [Hg1]; · iexact Hg1
    iexact Ht1
  iintro ⟨Hb, Hpost⟩
  ihave Hpost' := (Entails.of_eq (reg3_post m hloc d)) $$ Hpost
  icases Hpost' with ⟨Hub, HO⟩
  rw [wp_ret]; imodintro
  ihave Hst := (tcSt_join (F := F) d 2) $$ [HO Hstr]
  · isplitl [HO]; · iexact HO
    iexact Hstr
  ihave Hheld := (ub_to_held d (Vg m d (sR m d))) $$ Hub
  -- the final reshape
  iapply (hmain_one d (hop13 (F := F)) hs13 rfl (Vg m d (sR m d))) $$ [Hb Hheld Hst]
  isplitl [Hb]; · iexact Hb
  isplitl [Hheld]; · iexact Hheld
  iintro ⟨Hb, Hheld⟩
  rw [wp_pure]; imodintro
  isplitl [Hst]; · iexact Hst
  unfold FIN Vh
  iexact Hheld

/-! ## What the final state holds -/

/-- Every array some host operation, SparseCore call or pipeline writes. -/
abbrev Wset : Finset (DevRef τ sig) :=
  {rV main_v0, rV main_v1, rV main_v2, rV main_v3, rV main_v4_0, rV main_v4_1, rV main_v4_2, rV main_v4_3, rV main_v5, rV main_v6, rV main_v7, rV main_v8,
    rV main_v9_0, rV main_v9_1, rV main_v10, rV main_v11, rV main_v12, rV main_v13}

/-- An array nothing writes ends as launched. -/
theorem Vh_of_input (d : Dev nD) (f) (b : DevRef τ sig) (hb : b ∉ (Wset : Finset (DevRef τ sig))) : Vh m d f b = m (d, b) := by
  have hne : ∀ x ∈ (Wset : Finset (DevRef τ sig)), b ≠ x := fun x hx e => hb (e ▸ hx)
  have w1 : ∀ x, x ∈ (Wset : Finset (DevRef τ sig)) → b ∉ ({x} : Finset (DevRef τ sig)) := fun x hx h => hne x hx (Finset.mem_singleton.mp h)
  unfold Vh
  rw [(hop13 (F := F)).result_of_not_mem _ (w1 (rV main_v13) (by decide)), Vg_of_ne m d f b (hne _ (by decide))]
  unfold Vf
  rw [(hop11 (F := F)).result_of_not_mem _ (w1 (rV main_v11) (by decide)), Ve_of_ne m d b (hne _ (by decide)),
    Vd_of_ne m d b (hne _ (by decide)) (hne _ (by decide))]
  unfold Vc
  rw [(hop8 (F := F)).result_of_not_mem _ (w1 (rV main_v8) (by decide)), (hop7 (F := F)).result_of_not_mem _ (w1 (rV main_v7) (by decide)),
    (hop6 (F := F)).result_of_not_mem _ (w1 (rV main_v6) (by decide)), (hop5 (F := F)).result_of_not_mem _ (w1 (rV main_v5) (by decide)),
    Vb_of_not_out m d b (hne _ (by decide)) (hne _ (by decide)) (hne _ (by decide)) (hne _ (by decide))]
  unfold Va
  rw [(hop3 (F := F)).result_of_not_mem _ (w1 (rV main_v3) (by decide)), (hop2 (F := F)).result_of_not_mem _ (w1 (rV main_v2) (by decide)),
    (hop1 (F := F)).result_of_not_mem _ (w1 (rV main_v1) (by decide)), (hop0 (F := F)).result_of_not_mem _ (w1 (rV main_v0) (by decide))]
  rfl

def fq (d : Dev nD) (s' : Phys nD τ sig (Elt F)) : Prop := ∀ b ∈ ucRefs τ sig, s'.mem.mem (d, b) = Vh m d (sR m d) b

theorem hfin (d : Dev nD) (s' : Phys nD τ sig (Elt F)) : iprop(FIN (F := F) m d ∗ SI s') ⊢ (⌜fq (F := F) m d s'⌝ : sProp 𝕄) := by
  unfold FIN held
  iintro ⟨Hh, HSI⟩
  ihave Hr := (pointsTo_read_all (ucRefs τ sig) (fun b : DevRef τ sig => ((d, b) : Loc nD τ sig)) (Vh m d (sR m d)) s') $$ [Hh HSI]
  · isplitl [Hh] <;> iassumption
  icases Hr with ⟨%ha, -⟩
  ipureintro; exact ha

/-- The run's post: on every device, @main's arrays hold the final valuation. -/
def QC : PUnit × MemSt nD τ sig (Elt F) → Prop := fun r => ∀ c : Dev nD, ∀ b ∈ ucRefs τ sig, r.2.mem (c, b) = Vh m c (sR m c) b

theorem run_main (hr : Ga.TileR F) (hloc : Tc.K3Local F) (hpre : PreOK m) :
    θ_run (Cert.KernelIdeal.defs (F := F)) (Cert.KernelIdeal.threads (F := F)) ⟨m, fun _ => 0, ρ⟩ (QC (F := F) m) :=
  SparseCore.Cfg.θ_run_sc (K := K (F := F)) (D := D (F := F)) (𝒱 := 𝒱) (EH := EH) (P := P m) facts v₀
    (fun q hq => match q with | 0 => nomatch hq | 1 => nomatch hq)
    (fun q _ => match q with | 0 => tileObl0 m hr facts hpre | 1 => tileObl1 m facts hpre)
    (fun q _ => match q with | 0 => SparseCore.Cfg.VecSplit.of_plain (vecSplit0' m) | 1 => SparseCore.Cfg.VecSplit.of_plain (vecSplit1' m))
    m ρ main (G (F := F)) (FIN (F := F) m) (u₀ (F := F)) (sep_elim_left.trans (hu₀ m)) (hmain m ρ hloc) (fq (F := F) m) (hfin m) (QC (F := F) m) (fun _ h => h)

/-- Each argument array is unscoped, and nothing writes it. -/
theorem arg_kept (r : PUnit × MemSt nD τ sig (Elt F)) (h : QC (F := F) m r) (c : Dev nD) (a : Ref sig .tc) (hu : (rV a : DevRef τ sig).isScoped = false)
    (hw : rV a ∉ (Wset : Finset (DevRef τ sig))) : r.2.mem ((c.tc : Thread nD τ).loc a) = m ((c.tc : Thread nD τ).loc a) := by
  exact (h c (rV a) (mem_uc a hu)).trans (Vh_of_input m c (sR m c) (rV a) hw)

end Cert.Proof.KI

end
-- ==== Proof.CombineIdeal.lean ====
import Idealize.ShloMosaic.Lib.Pipeline.FrameBody
import Idealize.ShloMosaic.Lib.Pipeline.Value
import Idealize.ShloMosaic.Lib.Ring
import Idealize.ShloMosaic.Lib.Tactic
import Idealize.ShloMosaic.Lib.ValueIdx
import Idealize.ShloMosaic.PureOps.Ideal.Laws
import proofs.«204254_g40355512713743_retrytranche2_1723_12_alg».proof.Proof.CombineValue
set_option maxRecDepth 16384

noncomputable section

namespace Cert.Proof.KI.Tc

open Cert.Proof.KI

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 2) (Elt F) ℕ UU ℕ

/-! ## At the ideal values: the result per column

At the ideal values the sum over rows of an 8-row slice is, column by column, the sum of the eight elements; so the
result at column `j` is, of the input's column `j`, the first two octets' sums each divided by the greater of one and the
matching later octet's sum, added. -/

section AtIdeal

open Idealize.ShloMosaic.ValueIdx

/-- Row `r`, column `j` of the [32, 8192] block. -/
abbrev rc32 (r : Fin 32) (j : Fin 8192) : S32x8192.Idx :=
  fun a => match a with
    | ⟨0, _⟩ => r
    | ⟨1, _⟩ => j
    | ⟨_ + 2, h⟩ => absurd h (Nat.not_lt.2 (Nat.le_add_left _ _))

/-- The kernel's reduction over rows of the 8-row slice from row `o`, read at column `j'`. -/
theorem sliceSum_ideal (X : FVec Ideal S32x8192 .f32) (o : Nat) (ho : o + 8 ≤ 32) (hsl : S32x8192.Slices ![o, 0] S8x8192)
    (j' : S8192.Idx) :
    multiReduction .add [0] S8192 (extractStridedSlice S8x8192 ![o, 0] X hsl) 0x00000000#32 reduces_S8x8192_S8192 (.inl rfl) rfl j'
      = ∑ r : Fin 8, X (rc32 ⟨o + r.val, by have := r.isLt; omega⟩ (j' 0)) :=
  (Idealize.ShloMosaic.Ideal.multiReduction_add_single _ _ _ _ _ j').trans (Finset.sum_congr rfl fun r _ =>
    extractStridedSlice_apply _ X hsl _ _ fun a => by
      match a with
      | ⟨0, _⟩ => rfl
      | ⟨1, _⟩ => exact (Nat.zero_add _).symm)

theorem one_f32 : (Scalar.ofBits .f32 0x3F800000#32 : Ideal .f32) = 1 := by
  show Ideal.ofBits .f32 0x3F800000#32 = 1
  simp [Ideal.ofBits, Ideal.ieee, -EReal.coe_mul]; norm_num

/-- The result's block at the ideal values, column by column. -/
theorem k3_pay1_ideal (X : Vec Ideal S32x8192 .f32) (k : S1x8192.Idx) :
    k3_pay1 X k
      = Ideal.div (∑ r : Fin 8, X (rc32 ⟨0 + r.val, by have := r.isLt; omega⟩ (k 1)))
            (max (∑ r : Fin 8, X (rc32 ⟨16 + r.val, by have := r.isLt; omega⟩ (k 1))) 1)
        + Ideal.div (∑ r : Fin 8, X (rc32 ⟨8 + r.val, by have := r.isLt; omega⟩ (k 1)))
            (max (∑ r : Fin 8, X (rc32 ⟨24 + r.val, by have := r.isLt; omega⟩ (k 1))) 1) := by
  unfold k3_pay1
  simp only [addf_apply, divf_apply, maximumf_apply, broadcast_apply, shapeCast_self, shapeCast_addUnit_apply, one_f32]
  exact congrArg₂ (· + ·)
    (congrArg₂ Ideal.div (sliceSum_ideal X 0 (by omega) _ _) (congrArg (fun z => max z 1) (sliceSum_ideal X 16 (by omega) _ _)))
    (congrArg₂ Ideal.div (sliceSum_ideal X 8 (by omega) _ _) (congrArg (fun z => max z 1) (sliceSum_ideal X 24 (by omega) _ _)))

/-- Contents that agree on the part a cut transfer moves agree at every index of that part. -/
theorem eq_of_cut_eq {G : Pipeline.Grid} (w : Pipeline.Window sig G) {α : Type} (i : G.Coords) {X X' : w.block.Idx → α}
    (h : w.cut i X = w.cut i X') (j : w.block.Idx) (hm : w.moved i j = true) : X j = X' j := by
  have h1 := congrFun (w.fill_cut i X) j
  rw [h] at h1
  have h2 : w.fill i X (w.cut i X') j = X' j := by unfold Pipeline.Window.fill; rw [dif_pos hm]
  exact h1.symm.trans h2

/-- The two windows' transfers are cut alike: never on the rows, and on the same columns. -/
theorem xsize3 : ∀ t : Fin grid3.N, win3_0.xsize (grid3.coords t) 0 = 32
    ∧ win3_1.xsize (grid3.coords t) 1 ≤ win3_0.xsize (grid3.coords t) 1 := by decide +kernel

/-- So the ideal instance's sums over rows are columnwise. -/
theorem k3Local_ideal : K3Local Ideal := fun t X X' h => by
  obtain ⟨h0, h1⟩ := xsize3 t
  funext j
  show k3_pay1 X (win3_1.xinj (grid3.coords t) j) = k3_pay1 X' (win3_1.xinj (grid3.coords t) j)
  have hcol : (j 1).val < win3_0.xsize (grid3.coords t) 1 := Nat.lt_of_lt_of_le (j 1).isLt h1
  have key : ∀ rr : Fin 32, X (rc32 rr (win3_1.xinj (grid3.coords t) j 1)) = X' (rc32 rr (win3_1.xinj (grid3.coords t) j 1)) := fun rr =>
    eq_of_cut_eq win3_0 _ h _ ((win3_0.moved_iff _ _).mpr fun a => by
      match a with
      | ⟨0, _⟩ => show rr.val < win3_0.xsize (grid3.coords t) 0; rw [h0]; exact rr.isLt
      | ⟨1, _⟩ => exact hcol)
  rw [k3_pay1_ideal, k3_pay1_ideal]
  simp only [key]

end AtIdeal

end Cert.Proof.KI.Tc

end
-- ==== Proof.FramesKI.lean ====
/-
  The frame of the idealized kernel from its run: the precondition's index range reaches the flattened index array through the host reshape, and every argument array ends as launched.
-/
import proofs.«204254_g40355512713743_retrytranche2_1723_12_alg».proof.Proof.Common
import proofs.«204254_g40355512713743_retrytranche2_1723_12_alg».proof.Proof.MainB
import proofs.«204254_g40355512713743_retrytranche2_1723_12_alg».proof.Proof.PreFacts
import proofs.«204254_g40355512713743_retrytranche2_1723_12_alg».proof.Proof.CombineIdeal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable [∀ e, Nonempty (Elt F e)]
variable (m : (ℓ : Loc nD τ sig) → Buf (Elt F) ℓ) (ρ : Dev nD → PrngReg)

open Idealize.ShloMosaic.TcCoe

/-- The flattened index array's words are the words of `edge_index`: a reshape permutes nothing away. -/
theorem preOK_of_idx (hidx : ∀ (d : Dev nD) i, (BitVec.toNat (show BitVec 32 from m ((d.tc : Thread nD τ).loc main_arg0) i)) < 100000) : PreOK m := by
  intro d j
  have h : eiOf m d j = shapeCast S12800000 (m ((d.tc : Thread nD τ).loc main_arg0)) shapeCasts_S2x6400000_S12800000 j := by
    show Va m d (rV main_v0) j = _
    unfold Va
    rw [(hop3 (F := F)).result_of_not_mem _ (show rV main_v0 ∉ ({rV main_v3} : Finset (DevRef τ sig)) by decide),
      (hop2 (F := F)).result_of_not_mem _ (show rV main_v0 ∉ ({rV main_v2} : Finset (DevRef τ sig)) by decide),
      (hop1 (F := F)).result_of_not_mem _ (show rV main_v0 ∉ ({rV main_v1} : Finset (DevRef τ sig)) by decide),
      StableHlo.reshape_result']
    rfl
  rw [h]; unfold shapeCast; exact hidx d _

/-- The run's post gives the frame's: each of the nine arguments is unscoped and written by nothing. -/
theorem frame_of_run (r : PUnit × MemSt nD τ sig (Elt F)) (h : QC (F := F) m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8) :=
  ⟨arg_kept m r h c main_arg0 rfl (by decide), arg_kept m r h c main_arg1 rfl (by decide), arg_kept m r h c main_arg2 rfl (by decide),
    arg_kept m r h c main_arg3 rfl (by decide), arg_kept m r h c main_arg4 rfl (by decide), arg_kept m r h c main_arg5 rfl (by decide),
    arg_kept m r h c main_arg6 rfl (by decide), arg_kept m r h c main_arg7 rfl (by decide), arg_kept m r h c main_arg8 rfl (by decide)⟩

/-- `Cert.frame_KernelIdeal`: the run at the extended reals, the values dropped. -/
theorem frame_pi (hr : Ga.TileR Ideal) : Cert.frame_KernelIdeal (hKernelIdeal := Cert.KernelIdeal.Gen.facts) (hPre_input_domain := Cert.Pre_input_domain.Gen.facts) := fun m ρ hpre =>
  (θ_run Cert.KernelIdeal.defs _ _).mono (fun r h c => frame_of_run m r h c)
    (run_main (F := Ideal) m ρ hr Tc.k3Local_ideal (preOK_of_idx m fun d => (Rf.pre_kernelIdeal m hpre d).idx))

end Cert.Proof.KI

end
-- ==== Proof.RefSpec.lean ====
/-
  The reference's result as ONE per-node formula on the extended reals.

  For an edge e with end nodes i_e = edge_index[0, e], j_e = edge_index[1, e]:
    r_e      = sqrt (Σ_k r_ij[e,k]²)                      (the reference divides by 1.0, which changes nothing)
    d_e[k]   = v[i_e, k] − v[j_e, k]
    x⁺_e     = (r_e, d_e[0], d_e[1], d_e[2]),   x⁻_e = (r_e, −d_e[0], −d_e[1], −d_e[2])
    MLP(x)   = Σ_h' W3[0,h'] · silu (Σ_h W2[h',h] · silu (Σ_c x[c] · W1[h,c] + b1[h]) + b2[h']) + b3[0]
    silu(y)  = y · (1 / (1 + exp (−y)))
  and for a node n
    S[n] = (Σ_{e : i_e = n} MLP(x⁺_e)) / max 1 (Σ_{e : i_e = n} 1) + (Σ_{e : j_e = n} MLP(x⁻_e)) / max 1 (Σ_{e : j_e = n} 1).
  Every sum is the exact sum on the extended reals, written in the order the reference multiplies (activation times
  weight). `ref_eq` says the reference program's result term is this function when every index word is below 100000.
-/
import proofs.«204254_g40355512713743_retrytranche2_1723_12_alg».proof.Proof.Gen.ReferenceIdeal.Read
import Idealize.ShloMosaic.Lib.IdealHost
import Idealize.ShloMosaic.Lib.Affine

noncomputable section

open scoped BigOperators

namespace Cert.Proof.KI.Rf

open Idealize.ShloMosaic Idealize.ShloMosaic.ValueIdx Idealize.ShloMosaic.TcCoe Idealize.SL.Sem Cert.ReferenceIdeal Cert.ReferenceIdeal.Gen

/-! ## The pieces -/

/-- `silu y = y · (1 / (1 + exp (−y)))`, in the reference's order of operations. -/
def silu (y : EReal) : EReal := y * Ideal.div 1 (1 + Ideal.exp (-y))

/-- The node an index word names: the word read as a signed integer, clamped into `[0, 99999]` (what a gather does with
    its start index). For a word below 100000 it is the word (`nodeIx_val`). -/
def nodeIx (w : BitVec 32) : Fin 100000 := ⟨min w.toInt.toNat 99999, by omega⟩

/-- The length of edge `e`'s displacement: the square root of the sum of the squares of its three components. -/
def rE (rij : S6400000x3.Idx → EReal) (e : Fin 6400000) : EReal :=
  Ideal.sqrt (∑ k : Fin 3, rij (ix2 e k) * rij (ix2 e k))

/-- Component `k` of `v[i_e] − v[j_e]`. -/
def vij (ei : S2x6400000.Idx → BitVec 32) (v : S100000x3.Idx → EReal) (e : Fin 6400000) (k : Fin 3) : EReal :=
  v (ix2 (nodeIx (ei (ix2 (0 : Fin 2) e))) k) - v (ix2 (nodeIx (ei (ix2 (1 : Fin 2) e))) k)

/-- The four inputs of the network for one edge: the length first, then the three components `d`. -/
def xin (r : EReal) (d : Fin 3 → EReal) (c : Fin 4) : EReal :=
  if h : c.val < 1 then r else d ⟨c.val - 1, by omega⟩

/-- The first hidden layer at unit `h`: `silu (Σ_c x[c] · W1[h,c] + b1[h])`. -/
def l1 (W1 : S32x4.Idx → EReal) (b1 : S32.Idx → EReal) (x : Fin 4 → EReal) (h : Fin 32) : EReal :=
  silu ((∑ c : Fin 4, x c * W1 (ix2 h c)) + b1 (ix1 h))

/-- The second hidden layer at unit `h`: `silu (Σ_k y[k] · W2[h,k] + b2[h])`. -/
def l2 (W2 : S32x32.Idx → EReal) (b2 : S32.Idx → EReal) (y : Fin 32 → EReal) (h : Fin 32) : EReal :=
  silu ((∑ k : Fin 32, y k * W2 (ix2 h k)) + b2 (ix1 h))

/-- The output layer: `Σ_k y[k] · W3[0,k] + b3[0]`. -/
def l3 (W3 : S1x32.Idx → EReal) (b3 : S1.Idx → EReal) (y : Fin 32 → EReal) : EReal :=
  (∑ k : Fin 32, y k * W3 (ix2 (0 : Fin 1) k)) + b3 (ix1 (0 : Fin 1))

/-- The network on four inputs. -/
def mlp (W1 : S32x4.Idx → EReal) (b1 : S32.Idx → EReal) (W2 : S32x32.Idx → EReal) (b2 : S32.Idx → EReal)
    (W3 : S1x32.Idx → EReal) (b3 : S1.Idx → EReal) (x : Fin 4 → EReal) : EReal :=
  l3 W3 b3 (l2 W2 b2 (l1 W1 b1 x))

/-- The forward message of edge `e`: the network at `(r_e, d_e)`. -/
def tFwd (ei : S2x6400000.Idx → BitVec 32) (rij : S6400000x3.Idx → EReal) (v : S100000x3.Idx → EReal)
    (W1 : S32x4.Idx → EReal) (b1 : S32.Idx → EReal) (W2 : S32x32.Idx → EReal) (b2 : S32.Idx → EReal)
    (W3 : S1x32.Idx → EReal) (b3 : S1.Idx → EReal) (e : Fin 6400000) : EReal :=
  mlp W1 b1 W2 b2 W3 b3 (xin (rE rij e) (vij ei v e))

/-- The backward message of edge `e`: the network at `(r_e, −d_e)`. -/
def tBwd (ei : S2x6400000.Idx → BitVec 32) (rij : S6400000x3.Idx → EReal) (v : S100000x3.Idx → EReal)
    (W1 : S32x4.Idx → EReal) (b1 : S32.Idx → EReal) (W2 : S32x32.Idx → EReal) (b2 : S32.Idx → EReal)
    (W3 : S1x32.Idx → EReal) (b3 : S1.Idx → EReal) (e : Fin 6400000) : EReal :=
  mlp W1 b1 W2 b2 W3 b3 (xin (rE rij e) (fun k => -vij ei v e k))

/-- The sum over the edges whose end `s` (0: the source row of the index array, 1: the target row) is node `n`. -/
def nodeSum (ei : S2x6400000.Idx → BitVec 32) (s : Fin 2) (t : Fin 6400000 → EReal) (n : Fin 100000) : EReal :=
  ∑ e : Fin 6400000, if (ei (ix2 s e)).toNat = n.val then t e else 0

/-- The mean over those edges: the sum divided by the larger of 1 and their number. -/
def nodeMean (ei : S2x6400000.Idx → BitVec 32) (s : Fin 2) (t : Fin 6400000 → EReal) (n : Fin 100000) : EReal :=
  Ideal.div (nodeSum ei s t n) (max 1 (nodeSum ei s (fun _ => 1) n))

/-- THE SPECIFICATION: the forward messages averaged over each node's outgoing edges plus the backward messages
    averaged over its incoming edges. -/
def refS (ei : S2x6400000.Idx → BitVec 32) (rij : S6400000x3.Idx → EReal) (v : S100000x3.Idx → EReal)
    (W1 : S32x4.Idx → EReal) (b1 : S32.Idx → EReal) (W2 : S32x32.Idx → EReal) (b2 : S32.Idx → EReal)
    (W3 : S1x32.Idx → EReal) (b3 : S1.Idx → EReal) : S100000x1.Idx → EReal :=
  fun i => nodeMean ei 0 (tFwd ei rij v W1 b1 W2 b2 W3 b3) (i 0) + nodeMean ei 1 (tBwd ei rij v W1 b1 W2 b2 W3 b3) (i 0)

/-! ## Small facts about index words -/

/-- A word below 100000 read as a signed integer is the word. -/
theorem toInt_of_lt {w : BitVec 32} (h : w.toNat < 100000) : w.toInt = (w.toNat : Int) := by
  rw [BitVec.toInt_eq_toNat_cond, if_pos (by omega)]

/-- For a word below 100000 the node it names is the word itself. -/
theorem nodeIx_val {w : BitVec 32} (h : w.toNat < 100000) : (nodeIx w).val = w.toNat := by
  show min w.toInt.toNat 99999 = w.toNat
  rw [toInt_of_lt h, Int.toNat_natCast]; omega

/-- The reference's normalisation of a negative index (`i < 0 ? i + 100000 : i`) leaves a word below 100000 alone. -/
theorem norm_word {w : BitVec 32} (h : w.toNat < 100000) :
    Scalar.select (IntOp.cmpi .slt w 0#32) (IntOp.addi w 100000#32) w = w := by
  have hc : IntOp.cmpi .slt w 0#32 = 0#1 := eq_zero_of_ne_one fun h1 => by
    have h2 := IntOp.cmpi_slt.1 h1
    rw [toInt_of_lt h] at h2
    have h0 : (0#32 : BitVec 32).toInt = 0 := by decide
    rw [h0] at h2; omega
  rw [hc, select_zero]

/-! ## The operations the generated reading leaves to the hand: the gather and the accumulating scatter -/

macro "idx_eq2" : tactic => `(tactic| (funext a; match a with | ⟨0, _⟩ => rfl | ⟨1, _⟩ => rfl))
macro "idx_eq1" : tactic => `(tactic| (funext a; match a with | ⟨0, _⟩ => rfl))

local notation "gD" => gather_S100000x3_S6400000x1_S6400000x3_1_0_n_n_0_1_13
local notation "sD" => scatter_S100000x1_S6400000x1_S6400000x1_1_0_0_1

/-- The row gather `x[idx]` read at edge `e`, component `k`: row `nodeIx (idx[e])` (the start index read signed and
    clamped into the table), component `k`. -/
theorem gather_read {α : Type} (x : S100000x3.Idx → α) (idx : IVec S6400000x1 32) (e : Fin 6400000) (k : Fin 3) :
    Host.gather gD x idx (ix2 e k) = x (ix2 (nodeIx (idx (ix2 e (0 : Fin 1)))) k) := by
  unfold Host.gather
  refine congrArg x (funext fun a => Fin.ext ?_)
  match a with
  | ⟨0, _⟩ =>
    show GatherDims.start gD (ix2 e k) idx (0 : Fin 2) + GatherDims.batchCoord gD (ix2 e k) (0 : Fin 2)
      + GatherDims.offCoord gD (ix2 e k) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GatherDims.startIndexMap gD from List.mem_singleton.mpr rfl)]
    have hsi : GatherDims.siIdx gD (ix2 e k) ⟨List.idxOf (0 : Fin 2) (GatherDims.startIndexMap gD),
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show GatherDims.start gD (ix2 e k) idx (1 : Fin 2) + GatherDims.batchCoord gD (ix2 e k) (1 : Fin 2)
      + GatherDims.offCoord gD (ix2 e k) (1 : Fin 2) = k.val
    have hx : ∀ (i : Nat) (hi : i < (GatherDims.offsetDims gD).length), (GatherDims.offsetDims gD)[i] = (1 : Fin 2) :=
      fun i hi => List.mem_singleton.1 (List.getElem_mem hi)
    rw [GatherDims.batchCoord_eq_zero _ _ _ List.not_mem_nil]
    unfold GatherDims.start GatherDims.offCoord
    rw [dif_neg (by decide), dif_pos (by decide), hx]
    show 0 + 0 + k.val = k.val
    omega

/-- Where update `e` of the accumulating scatter lands: on node `n` exactly when its index word is `n` (for a word
    below 100000; the index is read signed and not clamped, and a row of width one has the one column). -/
theorem resultIdx_iff (idx : IVec S6400000x1 32) (e : Fin 6400000) (n : Fin 100000) (z : Fin 1)
    (h : (idx (ix2 e (0 : Fin 1))).toNat < 100000) :
    ScatterDims.resultIdx? sD (ix2 e (0 : Fin 1)) idx = some (ix2 n z) ↔ (idx (ix2 e (0 : Fin 1))).toNat = n.val := by
  have hs0 : ScatterDims.start sD (ix2 e (0 : Fin 1)) idx (0 : Fin 2) = (idx (ix2 e (0 : Fin 1))).toInt := by
    unfold ScatterDims.start
    rw [dif_pos (show (0 : Fin 2) ∈ ScatterDims.scatterDimsToOperandDims sD from List.mem_singleton.mpr rfl)]
    refine congrArg (fun q => (idx q).toInt) (funext fun b => Fin.ext ?_)
    match b with
    | ⟨0, _⟩ => rfl
    | ⟨1, _⟩ => rfl
  have hs1 : ScatterDims.start sD (ix2 e (0 : Fin 1)) idx (1 : Fin 2) = 0 := by
    unfold ScatterDims.start; rw [dif_neg (by decide)]
  have hw0 : ScatterDims.window sD (ix2 e (0 : Fin 1)) (0 : Fin 2) = 0 := by
    unfold ScatterDims.window; rw [dif_neg (by decide)]
  have hw1 : ScatterDims.window sD (ix2 e (0 : Fin 1)) (1 : Fin 2) = 0 := by
    unfold ScatterDims.window; rw [dif_pos (by decide)]; rfl
  have hT := toInt_of_lt h
  have hcond : ∀ a : Fin 2, 0 ≤ ScatterDims.start sD (ix2 e (0 : Fin 1)) idx a + ScatterDims.window sD (ix2 e (0 : Fin 1)) a
      ∧ ScatterDims.start sD (ix2 e (0 : Fin 1)) idx a + ScatterDims.window sD (ix2 e (0 : Fin 1)) a < S100000x1.size a := by
    refine Fin.forall_fin_two.2 ⟨?_, ?_⟩
    · rw [hs0, hw0, hT]
      show (0 : Int) ≤ ((idx (ix2 e (0 : Fin 1))).toNat : Int) + ((0 : Nat) : Int)
        ∧ ((idx (ix2 e (0 : Fin 1))).toNat : Int) + ((0 : Nat) : Int) < ((100000 : Nat) : Int)
      omega
    · rw [hs1, hw1]
      show (0 : Int) ≤ 0 + ((0 : Nat) : Int) ∧ (0 : Int) + ((0 : Nat) : Int) < ((1 : Nat) : Int)
      omega
  unfold ScatterDims.resultIdx?
  rw [dif_pos hcond, Option.some_inj]
  constructor
  · intro hf
    have h0 := congrArg Fin.val (congrFun hf (0 : Fin 2))
    change (ScatterDims.start sD (ix2 e (0 : Fin 1)) idx (0 : Fin 2) + ScatterDims.window sD (ix2 e (0 : Fin 1)) (0 : Fin 2)).toNat = n.val at h0
    rw [hs0, hw0, hT] at h0
    omega
  · intro hn
    funext a; refine Fin.ext ?_
    match a with
    | ⟨0, _⟩ =>
      show (ScatterDims.start sD (ix2 e (0 : Fin 1)) idx (0 : Fin 2) + ScatterDims.window sD (ix2 e (0 : Fin 1)) (0 : Fin 2)).toNat = n.val
      rw [hs0, hw0, hT]; omega
    | ⟨1, _⟩ =>
      show (ScatterDims.start sD (ix2 e (0 : Fin 1)) idx (1 : Fin 2) + ScatterDims.window sD (ix2 e (0 : Fin 1)) (1 : Fin 2)).toNat = z.val
      rw [hs1, hw1]; have := z.isLt; omega

/-- The accumulating scatter read at node `n`: the operand's entry plus the sum, over the edges whose index word is
    `n`, of their updates (every index word below 100000). -/
theorem scatter_read (x : FVec Ideal S100000x1 .f32) (idx : IVec S6400000x1 32) (upd : FVec Ideal S6400000x1 .f32)
    (hidx : ∀ e : Fin 6400000, (idx (ix2 e (0 : Fin 1))).toNat < 100000) (n : Fin 100000) (z : Fin 1) :
    Host.scatterAdd (F := Ideal) sD x idx upd (ix2 n z)
      = x (ix2 n z) + ∑ e : Fin 6400000, if (idx (ix2 e (0 : Fin 1))).toNat = n.val then upd (ix2 e (0 : Fin 1)) else 0 := by
  unfold Host.scatterAdd
  rw [Ideal.hostScatterAdd_def]
  unfold Ideal.hostScatterAdd
  refine congrArg (x (ix2 n z) + ·) ?_
  rw [Finset.sum_filter, sum_idx2]
  refine Finset.sum_congr rfl fun e _ => ?_
  rw [Fin.sum_univ_one]
  exact if_congr (resultIdx_iff idx e n z (hidx e)) rfl rfl

/-- Dividing by one changes nothing. -/
theorem div_one' (x : EReal) : Ideal.div x 1 = x := by
  have h := Ideal.div_coe (one_ne_zero : (1 : ℝ) ≠ 0) x
  rw [div_one, EReal.coe_one, mul_one] at h
  exact h

/-! ## The reference, stage by stage, at an edge or a node -/

section Stages

variable (ei : IVec S2x6400000 32) (rij : FVec Ideal S6400000x3 .f32) (v : FVec Ideal S100000x3 .f32)
  (W1 : FVec Ideal S32x4 .f32) (b1 : FVec Ideal S32 .f32) (W2 : FVec Ideal S32x32 .f32) (b2 : FVec Ideal S32 .f32)
  (W3 : FVec Ideal S1x32 .f32) (b3 : FVec Ideal S1 .f32)

/-- Row 0 of the index array, flattened: the source word of edge `e`. -/
theorem v1_read (e : Fin 6400000) : Read.val_main_v1 (F := Ideal) ei (ix1 e) = ei (ix2 (0 : Fin 2) e) := by
  rw [Read.val_main_v1_apply, Read.val_main_v0_apply]
  refine congrArg ei (funext fun a => Fin.ext ?_)
  match a with
  | ⟨0, _⟩ => rfl
  | ⟨1, _⟩ => show e.val % 6400000 = e.val; exact Nat.mod_eq_of_lt e.isLt

/-- Row 1 of the index array, flattened: the target word of edge `e`. -/
theorem v3_read (e : Fin 6400000) : Read.val_main_v3 (F := Ideal) ei (ix1 e) = ei (ix2 (1 : Fin 2) e) := by
  rw [Read.val_main_v3_apply, Read.val_main_v2_apply]
  refine congrArg ei (funext fun a => Fin.ext ?_)
  match a with
  | ⟨0, _⟩ => rfl
  | ⟨1, _⟩ => show e.val % 6400000 = e.val; exact Nat.mod_eq_of_lt e.isLt

/-- The normalised source index of edge `e` is its source word. -/
theorem v9_read (hidx : ∀ i, (ei i).toNat < 100000) (e : Fin 6400000) (z : Fin 1) :
    Read.val_main_v9 (F := Ideal) ei (ix2 e z) = ei (ix2 (0 : Fin 2) e) := by
  rw [Read.val_main_v9_apply, Read.val_main_v8_apply, Read.val_main_v5_apply, Read.val_main_v7_apply, Read.val_main_v4_apply,
    Read.val_main_c_apply, Read.val_main_v6_apply, Read.val_main_c_0_apply,
    show Read.idx_main_v9 (ix2 e z) = ix1 e from by idx_eq1, v1_read]
  exact norm_word (hidx _)

/-- The normalised target index of edge `e` is its target word. -/
theorem v16_read (hidx : ∀ i, (ei i).toNat < 100000) (e : Fin 6400000) (z : Fin 1) :
    Read.val_main_v16 (F := Ideal) ei (ix2 e z) = ei (ix2 (1 : Fin 2) e) := by
  rw [Read.val_main_v16_apply, Read.val_main_v15_apply, Read.val_main_v12_apply, Read.val_main_v14_apply, Read.val_main_v11_apply,
    Read.val_main_c_1_apply, Read.val_main_v13_apply, Read.val_main_c_2_apply,
    show Read.idx_main_v16 (ix2 e z) = ix1 e from by idx_eq1, v3_read]
  exact norm_word (hidx _)

/-- `v[i_e] − v[j_e]` at component `k`. -/
theorem v18_read (hidx : ∀ i, (ei i).toNat < 100000) (e : Fin 6400000) (k : Fin 3) :
    Read.val_main_v18 (F := Ideal) ei v (ix2 e k) = vij ei v e k := by
  rw [Read.val_main_v18_apply]
  unfold Read.val_main_v10 Read.val_main_v17
  rw [gather_read, gather_read, v9_read ei hidx, v16_read ei hidx]
  rfl

/-- The edge's length. -/
theorem v24_read (e : Fin 6400000) (z : Fin 1) : Read.val_main_v24 (F := Ideal) rij (ix2 e z) = rE rij e := by
  rw [Read.val_main_v24_apply, Read.val_main_v22_apply, Read.val_main_v21_apply, Read.val_main_v20_apply, Read.val_main_v23_apply,
    Read.val_main_cst_3_apply, Read.val_main_cst_apply]
  simp only [Read.val_main_v19_apply, Ideal.hostDivf_def, Ideal.hostUnary_sqrt_def, Ideal.mulf_def, Ideal.ofBits_def,
    Ideal.ofBits_one_f32, Ideal.ofBits_zero_f32, zero_add]
  rw [div_one']
  unfold rE
  refine congrArg Ideal.sqrt (Finset.sum_congr rfl fun k _ => ?_)
  rw [show Read.idx_main_v20 (Read.idx_main_v21 (ix2 e z)) k = ix2 e k from by idx_eq2]

/-- The network's inputs for the forward message: the length, then the three components of `v[i_e] − v[j_e]`. -/
theorem v25_read (hidx : ∀ i, (ei i).toNat < 100000) (e : Fin 6400000) (c : Fin 4) :
    Read.val_main_v25 (F := Ideal) ei rij v (ix2 e c) = xin (rE rij e) (vij ei v e) c := by
  unfold Read.val_main_v25 xin
  by_cases hc : c.val < 1
  · rw [dif_pos hc]
    refine (concatenate_pair_apply_left (t := S6400000x4) (s₁ := S6400000x1) (s₂ := S6400000x3) (1 : Fin 2) _ _ _ (ix2 e c) rfl (ix2 e (0 : Fin 1)) (fun b => ?_)).trans
      (v24_read rij e 0)
    match b with
    | ⟨0, _⟩ => rfl
    | ⟨1, _⟩ => show (0 : Nat) = c.val; omega
  · rw [dif_neg hc]
    refine (concatenate_pair_apply_right (t := S6400000x4) (s₁ := S6400000x1) (s₂ := S6400000x3) (1 : Fin 2) _ _ _ (ix2 e c) rfl rfl (ix2 e (⟨c.val - 1, by omega⟩ : Fin 3))
      (fun b hb => ?_) ?_).trans (v18_read ei v hidx e _)
    · match b with
      | ⟨0, _⟩ => rfl
      | ⟨1, _⟩ => exact absurd rfl hb
    · show c.val - 1 + 1 = c.val; omega

/-- The network's inputs for the backward message: the length, then the three components negated. -/
theorem v44_read (hidx : ∀ i, (ei i).toNat < 100000) (e : Fin 6400000) (c : Fin 4) :
    Read.val_main_v44 (F := Ideal) ei rij v (ix2 e c) = xin (rE rij e) (fun k => -vij ei v e k) c := by
  unfold Read.val_main_v44 xin
  by_cases hc : c.val < 1
  · rw [dif_pos hc]
    refine (concatenate_pair_apply_left (t := S6400000x4) (s₁ := S6400000x1) (s₂ := S6400000x3) (1 : Fin 2) _ _ _ (ix2 e c) rfl (ix2 e (0 : Fin 1)) (fun b => ?_)).trans
      (v24_read rij e 0)
    match b with
    | ⟨0, _⟩ => rfl
    | ⟨1, _⟩ => show (0 : Nat) = c.val; omega
  · rw [dif_neg hc]
    refine (concatenate_pair_apply_right (t := S6400000x4) (s₁ := S6400000x1) (s₂ := S6400000x3) (1 : Fin 2) _ _ _ (ix2 e c) rfl rfl (ix2 e (⟨c.val - 1, by omega⟩ : Fin 3))
      (fun b hb => ?_) ?_).trans ?_
    · match b with
      | ⟨0, _⟩ => rfl
      | ⟨1, _⟩ => exact absurd rfl hb
    · show c.val - 1 + 1 = c.val; omega
    · rw [Read.val_main_v43_apply, v18_read ei v hidx]
      rfl

/-- The first layer before its activation, forward branch, read at edge `e`, unit `h`. -/
theorem v30_read (hidx : ∀ i, (ei i).toNat < 100000) (e : Fin 6400000) (h : Fin 32) :
    Read.val_main_v30 (F := Ideal) ei rij v W1 b1 (ix2 e h)
      = (∑ c : Fin 4, xin (rE rij e) (vij ei v e) c * W1 (ix2 h c)) + b1 (ix1 h) := by
  rw [Read.val_main_v30_apply, Read.val_main_v27_apply, Read.val_main_v29_apply, Read.val_main_v28_apply]
  simp only [Ideal.addf_def]
  refine congrArg₂ (· + ·) (Finset.sum_congr rfl fun c _ => ?_) (congrArg b1 (by idx_eq1))
  rw [show Read.lidx_main_v27 (ix2 e h) c = ix2 e c from by idx_eq2, v25_read ei rij v hidx, Read.val_main_v26_apply]
  exact congrArg (_ * W1 ·) (by idx_eq2)

/-- The first hidden layer, forward branch. -/
theorem v31_read (hidx : ∀ i, (ei i).toNat < 100000) (e : Fin 6400000) (h : Fin 32) :
    Read.val_main_v31 (F := Ideal) ei rij v W1 b1 (ix2 e h) = l1 W1 b1 (xin (rE rij e) (vij ei v e)) h := by
  rw [Read.val_main_v31_apply, Read.val_main_call0_v5_apply, Read.val_main_call0_v4_apply, Read.val_main_call0_cst_0_apply,
    Read.val_main_call0_v3_apply, Read.val_main_call0_v2_apply, Read.val_main_call0_cst_apply, Read.val_main_call0_v1_apply,
    Read.val_main_call0_v0_apply, v30_read ei rij v W1 b1 hidx]
  simp only [Ideal.mulf_def, Ideal.addf_def, Ideal.hostDivf_def, Ideal.hostUnary_exp_def, Ideal.hostNegf_def, Ideal.negf_def,
    Ideal.ofBits_def, Ideal.ofBits_one_f32]
  rfl

/-- The second layer before its activation, forward branch. -/
theorem v36_read (hidx : ∀ i, (ei i).toNat < 100000) (e : Fin 6400000) (h : Fin 32) :
    Read.val_main_v36 (F := Ideal) ei rij v W1 b1 W2 b2 (ix2 e h)
      = (∑ k : Fin 32, l1 W1 b1 (xin (rE rij e) (vij ei v e)) k * W2 (ix2 h k)) + b2 (ix1 h) := by
  rw [Read.val_main_v36_apply, Read.val_main_v33_apply, Read.val_main_v35_apply, Read.val_main_v34_apply]
  simp only [Ideal.addf_def]
  refine congrArg₂ (· + ·) (Finset.sum_congr rfl fun k _ => ?_) (congrArg b2 (by idx_eq1))
  rw [show Read.lidx_main_v33 (ix2 e h) k = ix2 e k from by idx_eq2, v31_read ei rij v W1 b1 hidx, Read.val_main_v32_apply]
  exact congrArg (_ * W2 ·) (by idx_eq2)

/-- The second hidden layer, forward branch. -/
theorem v37_read (hidx : ∀ i, (ei i).toNat < 100000) (e : Fin 6400000) (h : Fin 32) :
    Read.val_main_v37 (F := Ideal) ei rij v W1 b1 W2 b2 (ix2 e h) = l2 W2 b2 (l1 W1 b1 (xin (rE rij e) (vij ei v e))) h := by
  rw [Read.val_main_v37_apply, Read.val_main_call1_v5_apply, Read.val_main_call1_v4_apply, Read.val_main_call1_cst_0_apply,
    Read.val_main_call1_v3_apply, Read.val_main_call1_v2_apply, Read.val_main_call1_cst_apply, Read.val_main_call1_v1_apply,
    Read.val_main_call1_v0_apply, v36_read ei rij v W1 b1 W2 b2 hidx]
  simp only [Ideal.mulf_def, Ideal.addf_def, Ideal.hostDivf_def, Ideal.hostUnary_exp_def, Ideal.hostNegf_def, Ideal.negf_def,
    Ideal.ofBits_def, Ideal.ofBits_one_f32]
  rfl

/-- The forward message of edge `e`. -/
theorem v42_read (hidx : ∀ i, (ei i).toNat < 100000) (e : Fin 6400000) :
    Read.val_main_v42 (F := Ideal) ei rij v W1 b1 W2 b2 W3 b3 (ix2 e (0 : Fin 1)) = tFwd ei rij v W1 b1 W2 b2 W3 b3 e := by
  rw [Read.val_main_v42_apply, Read.val_main_v39_apply, Read.val_main_v41_apply, Read.val_main_v40_apply]
  simp only [Ideal.addf_def]
  refine congrArg₂ (· + ·) (Finset.sum_congr rfl fun k _ => ?_) (congrArg b3 (by idx_eq1))
  rw [show Read.lidx_main_v39 (ix2 e (0 : Fin 1)) k = ix2 e k from by idx_eq2, v37_read ei rij v W1 b1 W2 b2 hidx, Read.val_main_v38_apply]
  exact congrArg (_ * W3 ·) (by idx_eq2)

/-- The first layer before its activation, backward branch, read at edge `e`, unit `h`. -/
theorem v49_read (hidx : ∀ i, (ei i).toNat < 100000) (e : Fin 6400000) (h : Fin 32) :
    Read.val_main_v49 (F := Ideal) ei rij v W1 b1 (ix2 e h)
      = (∑ c : Fin 4, xin (rE rij e) (fun k => -vij ei v e k) c * W1 (ix2 h c)) + b1 (ix1 h) := by
  rw [Read.val_main_v49_apply, Read.val_main_v46_apply, Read.val_main_v48_apply, Read.val_main_v47_apply]
  simp only [Ideal.addf_def]
  refine congrArg₂ (· + ·) (Finset.sum_congr rfl fun c _ => ?_) (congrArg b1 (by idx_eq1))
  rw [show Read.lidx_main_v46 (ix2 e h) c = ix2 e c from by idx_eq2, v44_read ei rij v hidx, Read.val_main_v45_apply]
  exact congrArg (_ * W1 ·) (by idx_eq2)

/-- The first hidden layer, backward branch. -/
theorem v50_read (hidx : ∀ i, (ei i).toNat < 100000) (e : Fin 6400000) (h : Fin 32) :
    Read.val_main_v50 (F := Ideal) ei rij v W1 b1 (ix2 e h) = l1 W1 b1 (xin (rE rij e) (fun k => -vij ei v e k)) h := by
  rw [Read.val_main_v50_apply, Read.val_main_call2_v5_apply, Read.val_main_call2_v4_apply, Read.val_main_call2_cst_0_apply,
    Read.val_main_call2_v3_apply, Read.val_main_call2_v2_apply, Read.val_main_call2_cst_apply, Read.val_main_call2_v1_apply,
    Read.val_main_call2_v0_apply, v49_read ei rij v W1 b1 hidx]
  simp only [Ideal.mulf_def, Ideal.addf_def, Ideal.hostDivf_def, Ideal.hostUnary_exp_def, Ideal.hostNegf_def, Ideal.negf_def,
    Ideal.ofBits_def, Ideal.ofBits_one_f32]
  rfl

/-- The second layer before its activation, backward branch. -/
theorem v55_read (hidx : ∀ i, (ei i).toNat < 100000) (e : Fin 6400000) (h : Fin 32) :
    Read.val_main_v55 (F := Ideal) ei rij v W1 b1 W2 b2 (ix2 e h)
      = (∑ k : Fin 32, l1 W1 b1 (xin (rE rij e) (fun k => -vij ei v e k)) k * W2 (ix2 h k)) + b2 (ix1 h) := by
  rw [Read.val_main_v55_apply, Read.val_main_v52_apply, Read.val_main_v54_apply, Read.val_main_v53_apply]
  simp only [Ideal.addf_def]
  refine congrArg₂ (· + ·) (Finset.sum_congr rfl fun k _ => ?_) (congrArg b2 (by idx_eq1))
  rw [show Read.lidx_main_v52 (ix2 e h) k = ix2 e k from by idx_eq2, v50_read ei rij v W1 b1 hidx, Read.val_main_v51_apply]
  exact congrArg (_ * W2 ·) (by idx_eq2)

/-- The second hidden layer, backward branch. -/
theorem v56_read (hidx : ∀ i, (ei i).toNat < 100000) (e : Fin 6400000) (h : Fin 32) :
    Read.val_main_v56 (F := Ideal) ei rij v W1 b1 W2 b2 (ix2 e h) = l2 W2 b2 (l1 W1 b1 (xin (rE rij e) (fun k => -vij ei v e k))) h := by
  rw [Read.val_main_v56_apply, Read.val_main_call3_v5_apply, Read.val_main_call3_v4_apply, Read.val_main_call3_cst_0_apply,
    Read.val_main_call3_v3_apply, Read.val_main_call3_v2_apply, Read.val_main_call3_cst_apply, Read.val_main_call3_v1_apply,
    Read.val_main_call3_v0_apply, v55_read ei rij v W1 b1 W2 b2 hidx]
  simp only [Ideal.mulf_def, Ideal.addf_def, Ideal.hostDivf_def, Ideal.hostUnary_exp_def, Ideal.hostNegf_def, Ideal.negf_def,
    Ideal.ofBits_def, Ideal.ofBits_one_f32]
  rfl

/-- The backward message of edge `e`. -/
theorem v61_read (hidx : ∀ i, (ei i).toNat < 100000) (e : Fin 6400000) :
    Read.val_main_v61 (F := Ideal) ei rij v W1 b1 W2 b2 W3 b3 (ix2 e (0 : Fin 1)) = tBwd ei rij v W1 b1 W2 b2 W3 b3 e := by
  rw [Read.val_main_v61_apply, Read.val_main_v58_apply, Read.val_main_v60_apply, Read.val_main_v59_apply]
  simp only [Ideal.addf_def]
  refine congrArg₂ (· + ·) (Finset.sum_congr rfl fun k _ => ?_) (congrArg b3 (by idx_eq1))
  rw [show Read.lidx_main_v58 (ix2 e (0 : Fin 1)) k = ix2 e k from by idx_eq2, v56_read ei rij v W1 b1 W2 b2 hidx, Read.val_main_v57_apply]
  exact congrArg (_ * W3 ·) (by idx_eq2)

/-- The source word of edge `e`, as the first pair of scatters reads it. -/
theorem v63_read (e : Fin 6400000) (z : Fin 1) : Read.val_main_v63 (F := Ideal) ei (ix2 e z) = ei (ix2 (0 : Fin 2) e) := by
  rw [Read.val_main_v63_apply, show Read.idx_main_v63 (ix2 e z) = ix1 e from by idx_eq1, v1_read]
theorem v67_read (e : Fin 6400000) (z : Fin 1) : Read.val_main_v67 (F := Ideal) ei (ix2 e z) = ei (ix2 (0 : Fin 2) e) := by
  rw [Read.val_main_v67_apply, show Read.idx_main_v67 (ix2 e z) = ix1 e from by idx_eq1, v1_read]
/-- The target word of edge `e`, as the second pair of scatters reads it. -/
theorem v72_read (e : Fin 6400000) (z : Fin 1) : Read.val_main_v72 (F := Ideal) ei (ix2 e z) = ei (ix2 (1 : Fin 2) e) := by
  rw [Read.val_main_v72_apply, show Read.idx_main_v72 (ix2 e z) = ix1 e from by idx_eq1, v3_read]
theorem v76_read (e : Fin 6400000) (z : Fin 1) : Read.val_main_v76 (F := Ideal) ei (ix2 e z) = ei (ix2 (1 : Fin 2) e) := by
  rw [Read.val_main_v76_apply, show Read.idx_main_v76 (ix2 e z) = ix1 e from by idx_eq1, v3_read]

/-- The forward messages summed at their source nodes. -/
theorem v64_read (hidx : ∀ i, (ei i).toNat < 100000) (n : Fin 100000) (z : Fin 1) :
    Read.val_main_v64 (F := Ideal) ei rij v W1 b1 W2 b2 W3 b3 (ix2 n z) = nodeSum ei 0 (tFwd ei rij v W1 b1 W2 b2 W3 b3) n := by
  unfold Read.val_main_v64
  refine (scatter_read _ _ _ (fun e => by rw [v63_read]; exact hidx _) n z).trans ?_
  rw [Read.val_main_v62_apply, Read.val_main_cst_4_apply]
  simp only [Ideal.ofBits_def, Ideal.ofBits_zero_f32, zero_add]
  unfold nodeSum
  refine Finset.sum_congr rfl fun e _ => ?_
  rw [v63_read, v42_read ei rij v W1 b1 W2 b2 W3 b3 hidx]

/-- The number of edges leaving each node. -/
theorem v68_read (hidx : ∀ i, (ei i).toNat < 100000) (n : Fin 100000) (z : Fin 1) :
    Read.val_main_v68 (F := Ideal) ei (ix2 n z) = nodeSum ei 0 (fun _ => 1) n := by
  unfold Read.val_main_v68
  refine (scatter_read _ _ _ (fun e => by rw [v67_read]; exact hidx _) n z).trans ?_
  rw [Read.val_main_v66_apply, Read.val_main_cst_6_apply]
  simp only [Ideal.ofBits_def, Ideal.ofBits_zero_f32, zero_add]
  unfold nodeSum
  refine Finset.sum_congr rfl fun e _ => ?_
  rw [v67_read, Read.val_main_v65_apply, Read.val_main_cst_5_apply]
  simp only [Ideal.ofBits_def, Ideal.ofBits_one_f32]

/-- The backward messages summed at their target nodes. -/
theorem v73_read (hidx : ∀ i, (ei i).toNat < 100000) (n : Fin 100000) (z : Fin 1) :
    Read.val_main_v73 (F := Ideal) ei rij v W1 b1 W2 b2 W3 b3 (ix2 n z) = nodeSum ei 1 (tBwd ei rij v W1 b1 W2 b2 W3 b3) n := by
  unfold Read.val_main_v73
  refine (scatter_read _ _ _ (fun e => by rw [v72_read]; exact hidx _) n z).trans ?_
  rw [Read.val_main_v71_apply, Read.val_main_cst_8_apply]
  simp only [Ideal.ofBits_def, Ideal.ofBits_zero_f32, zero_add]
  unfold nodeSum
  refine Finset.sum_congr rfl fun e _ => ?_
  rw [v72_read, v61_read ei rij v W1 b1 W2 b2 W3 b3 hidx]

/-- The number of edges entering each node. -/
theorem v77_read (hidx : ∀ i, (ei i).toNat < 100000) (n : Fin 100000) (z : Fin 1) :
    Read.val_main_v77 (F := Ideal) ei (ix2 n z) = nodeSum ei 1 (fun _ => 1) n := by
  unfold Read.val_main_v77
  refine (scatter_read _ _ _ (fun e => by rw [v76_read]; exact hidx _) n z).trans ?_
  rw [Read.val_main_v75_apply, Read.val_main_cst_10_apply]
  simp only [Ideal.ofBits_def, Ideal.ofBits_zero_f32, zero_add]
  unfold nodeSum
  refine Finset.sum_congr rfl fun e _ => ?_
  rw [v76_read, Read.val_main_v74_apply, Read.val_main_cst_9_apply]
  simp only [Ideal.ofBits_def, Ideal.ofBits_one_f32]

/-- THE REFERENCE IS THE SPECIFICATION: the reference program's result, as a function of its nine argument arrays, is
    `refS` of them, when every index word is below 100000. -/
theorem ref_eq (hidx : ∀ i, (ei i).toNat < 100000) :
    Read.val_main_v80 (F := Ideal) ei rij v W1 b1 W2 b2 W3 b3 = refS ei rij v W1 b1 W2 b2 W3 b3 := by
  funext i
  obtain ⟨n, z, rfl⟩ : ∃ (n : Fin 100000) (z : Fin 1), i = ix2 n z := ⟨i 0, i 1, eq_ix2 i⟩
  rw [Read.val_main_v80_apply, Read.val_main_v70_apply, Read.val_main_v79_apply, Read.val_main_v69_apply, Read.val_main_v78_apply,
    Read.val_main_call4_v1_apply, Read.val_main_call4_v0_apply, Read.val_main_cst_7_apply,
    Read.val_main_call5_v1_apply, Read.val_main_call5_v0_apply, Read.val_main_cst_11_apply,
    v64_read ei rij v W1 b1 W2 b2 W3 b3 hidx, v68_read ei hidx, v73_read ei rij v W1 b1 W2 b2 W3 b3 hidx, v77_read ei hidx]
  simp only [Ideal.addf_def, Ideal.hostDivf_def, Ideal.maximumf_def, Ideal.ofBits_def, Ideal.ofBits_one_f32]
  rfl

end Stages

/-- The same at the reference run's result term: what the generated run leaves in the result buffer is `refS` of the
    argument buffers' launch contents. -/
theorem res_eq (m : (ℓ : Loc nD τ sig) → Buf (Elt Ideal) ℓ) (c : Dev nD)
    (hidx : ∀ i, (m ((c.tc : Thread nD τ).loc main_arg0) i).toNat < 100000) :
    Cert.ReferenceIdeal.Value.res_main_v80 (F := Ideal) m c
      = refS (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) :=
  (Read.val_main_v80_eq m c).trans (ref_eq _ _ _ _ _ _ _ _ _ hidx)

end Cert.Proof.KI.Rf

end
-- ==== Proof.NodeParts.lean ====
/-
  The specification in the arrangement of a chunked accumulation.

  The 6400000 edges are cut into 8 chunks of 800000 consecutive edges; one partial row per chunk holds, for every
  node, the sum over that chunk's edges that touch the node. There are four families of partial rows: forward
  messages at source nodes, backward messages at target nodes, and the two counts. The result at a node is
      (Σ_q partial forward sums) / max (Σ_q partial source counts) 1 + (Σ_q partial backward sums) / max (Σ_q partial target counts) 1.
  Because addition on the extended reals is commutative and associative, a sum over all edges is the sum over the
  chunks of the chunk's sum, whatever the entries; so this arrangement is the specification exactly.
  Also here: the squared length as the three squares added left to right.
-/
import proofs.«204254_g40355512713743_retrytranche2_1723_12_alg».proof.Proof.RefSpec
import proofs.«204254_g40355512713743_retrytranche2_1723_12_alg».proof.Proof.LibEdgeSums

noncomputable section

open scoped BigOperators

namespace Cert.Proof.KI.Rf

open Idealize.ShloMosaic Idealize.ShloMosaic.ValueIdx Cert.ReferenceIdeal EdgeSums

/-- 6400000 edges are 8 chunks of 800000. -/
theorem edges_eq : (6400000 : Nat) = 8 * 800000 := by norm_num

/-- Edge `r` of chunk `q`: edge number `q · 800000 + r`. -/
abbrev edgeOf (q : Fin 8) (r : Fin 800000) : Fin 6400000 := chunkIx edges_eq q r

theorem edgeOf_val (q : Fin 8) (r : Fin 800000) : (edgeOf q r).val = q.val * 800000 + r.val := rfl

/-- The partial sum of chunk `q` at node `n`: over the chunk's edges whose end `s` is `n`. -/
def partSum (ei : S2x6400000.Idx → BitVec 32) (s : Fin 2) (t : Fin 6400000 → EReal) (q : Fin 8) (n : Fin 100000) : EReal :=
  ∑ r : Fin 800000, if (ei (ix2 s (edgeOf q r))).toNat = n.val then t (edgeOf q r) else 0

/-- A node's sum over all edges is the sum of the eight partial sums. -/
theorem nodeSum_eq_parts (ei : S2x6400000.Idx → BitVec 32) (s : Fin 2) (t : Fin 6400000 → EReal) (n : Fin 100000) :
    nodeSum ei s t n = ∑ q : Fin 8, partSum ei s t q n := by
  unfold nodeSum partSum
  exact sum_chunks edges_eq fun e => if (ei (ix2 s e)).toNat = n.val then t e else 0

/-- A node's mean from the partial sums and partial counts, the maximum's arguments in the order "count, then 1". -/
theorem nodeMean_eq_parts (ei : S2x6400000.Idx → BitVec 32) (s : Fin 2) (t : Fin 6400000 → EReal) (n : Fin 100000) :
    nodeMean ei s t n = Ideal.div (∑ q : Fin 8, partSum ei s t q n) (max (∑ q : Fin 8, partSum ei s (fun _ => 1) q n) 1) := by
  unfold nodeMean
  rw [nodeSum_eq_parts, nodeSum_eq_parts, max_comm]

/-- THE SPECIFICATION FROM THE 32 PARTIAL ROWS. -/
theorem refS_eq_parts (ei : S2x6400000.Idx → BitVec 32) (rij : S6400000x3.Idx → EReal) (v : S100000x3.Idx → EReal)
    (W1 : S32x4.Idx → EReal) (b1 : S32.Idx → EReal) (W2 : S32x32.Idx → EReal) (b2 : S32.Idx → EReal)
    (W3 : S1x32.Idx → EReal) (b3 : S1.Idx → EReal) (n : Fin 100000) (z : Fin 1) :
    refS ei rij v W1 b1 W2 b2 W3 b3 (ix2 n z)
      = Ideal.div (∑ q : Fin 8, partSum ei 0 (tFwd ei rij v W1 b1 W2 b2 W3 b3) q n)
            (max (∑ q : Fin 8, partSum ei 0 (fun _ => 1) q n) 1)
        + Ideal.div (∑ q : Fin 8, partSum ei 1 (tBwd ei rij v W1 b1 W2 b2 W3 b3) q n)
            (max (∑ q : Fin 8, partSum ei 1 (fun _ => 1) q n) 1) := by
  show nodeMean ei 0 _ n + nodeMean ei 1 _ n = _
  rw [nodeMean_eq_parts, nodeMean_eq_parts]

/-- A sum over `a · (b · c)` indices as a triple sum: chunk, block within the chunk, position within the block. -/
theorem sum_chunks2 {M : Type*} [AddCommMonoid M] {T a b c : Nat} (hT : T = a * (b * c)) (f : Fin T → M) :
    ∑ i : Fin T, f i = ∑ x : Fin a, ∑ y : Fin b, ∑ z : Fin c, f (chunkIx hT x (chunkIx rfl y z)) := by
  rw [sum_chunks hT]
  exact Finset.sum_congr rfl fun x _ => sum_chunks rfl fun r => f (chunkIx hT x r)

/-- A chunk's partial sum block by block: 100 blocks of 8000 edges. -/
theorem partSum_blocks (ei : S2x6400000.Idx → BitVec 32) (s : Fin 2) (t : Fin 6400000 → EReal) (q : Fin 8) (n : Fin 100000) :
    partSum ei s t q n = ∑ b : Fin 100, ∑ k : Fin 8000,
      if (ei (ix2 s (edgeOf q (chunkIx (by norm_num : (800000 : Nat) = 100 * 8000) b k)))).toNat = n.val
      then t (edgeOf q (chunkIx (by norm_num : (800000 : Nat) = 100 * 8000) b k)) else 0 := by
  unfold partSum
  exact sum_chunks (by norm_num : (800000 : Nat) = 100 * 8000)
    fun r => if (ei (ix2 s (edgeOf q r))).toNat = n.val then t (edgeOf q r) else 0

/-- The squared length as the three squares added left to right. -/
theorem rE_eq3 (rij : S6400000x3.Idx → EReal) (e : Fin 6400000) :
    rE rij e = Ideal.sqrt (rij (ix2 e (0 : Fin 3)) * rij (ix2 e (0 : Fin 3)) + rij (ix2 e (1 : Fin 3)) * rij (ix2 e (1 : Fin 3))
      + rij (ix2 e (2 : Fin 3)) * rij (ix2 e (2 : Fin 3))) := by
  unfold rE
  rw [Fin.sum_univ_three]

/-- For index words below 100000 the displacement reads the table at the words themselves. -/
theorem vij_eq (ei : S2x6400000.Idx → BitVec 32) (v : S100000x3.Idx → EReal) (hidx : ∀ i, (ei i).toNat < 100000)
    (e : Fin 6400000) (k : Fin 3) :
    vij ei v e k = v (ix2 ⟨(ei (ix2 (0 : Fin 2) e)).toNat, hidx _⟩ k) - v (ix2 ⟨(ei (ix2 (1 : Fin 2) e)).toNat, hidx _⟩ k) := by
  unfold vij
  have h0 : nodeIx (ei (ix2 (0 : Fin 2) e)) = ⟨(ei (ix2 (0 : Fin 2) e)).toNat, hidx _⟩ := Fin.ext (nodeIx_val (hidx _))
  have h1 : nodeIx (ei (ix2 (1 : Fin 2) e)) = ⟨(ei (ix2 (1 : Fin 2) e)).toNat, hidx _⟩ := Fin.ext (nodeIx_val (hidx _))
  rw [h0, h1]

/-- Real-ness of the messages: on real inputs every forward and backward message is a real number. -/
theorem isReal_silu {y : EReal} (hy : IsReal y) : IsReal (silu y) := by
  obtain ⟨a, rfl⟩ := hy
  unfold silu
  have h1 : (1 : EReal) + Ideal.exp (-(a : EReal)) = ((1 + Real.exp (-a) : ℝ) : EReal) := by
    rw [← EReal.coe_neg]; show (1 : EReal) + ((Real.exp (-a) : ℝ) : EReal) = _
    rw [EReal.coe_add, EReal.coe_one]
  rw [h1]
  have hpos : (1 + Real.exp (-a) : ℝ) ≠ 0 := by positivity
  exact (isReal_coe a).mul (isReal_div isReal_one hpos)

theorem isReal_mlp (W1 : S32x4.Idx → EReal) (b1 : S32.Idx → EReal) (W2 : S32x32.Idx → EReal) (b2 : S32.Idx → EReal)
    (W3 : S1x32.Idx → EReal) (b3 : S1.Idx → EReal) (x : Fin 4 → EReal)
    (hW1 : ∀ i, IsReal (W1 i)) (hb1 : ∀ i, IsReal (b1 i)) (hW2 : ∀ i, IsReal (W2 i)) (hb2 : ∀ i, IsReal (b2 i))
    (hW3 : ∀ i, IsReal (W3 i)) (hb3 : ∀ i, IsReal (b3 i)) (hx : ∀ c, IsReal (x c)) :
    IsReal (mlp W1 b1 W2 b2 W3 b3 x) := by
  have h1 : ∀ h, IsReal (l1 W1 b1 x h) := fun h =>
    isReal_silu ((isReal_sum _ _ fun c _ => (hx c).mul (hW1 _)).add (hb1 _))
  have h2 : ∀ h, IsReal (l2 W2 b2 (l1 W1 b1 x) h) := fun h =>
    isReal_silu ((isReal_sum _ _ fun k _ => (h1 k).mul (hW2 _)).add (hb2 _))
  exact (isReal_sum _ _ fun k _ => (h2 k).mul (hW3 _)).add (hb3 _)

theorem isReal_xin {r : EReal} {d : Fin 3 → EReal} (hr : IsReal r) (hd : ∀ k, IsReal (d k)) (c : Fin 4) : IsReal (xin r d c) := by
  unfold xin; split
  · exact hr
  · exact hd _

end Cert.Proof.KI.Rf

end
-- ==== Proof.KernelOrder.lean ====
/-
  The per-edge message in the order a fused per-edge evaluation computes it, against the specification's order.

  For one edge with length `r` and displacement components `d0, d1, d2`, hidden unit `h`:
    a  = W1[h,0] · r + b1[h]                                   (the part of layer 1 that both directions share)
    bb = (W1[h,1] · d0 + W1[h,2] · d1) + W1[h,3] · d2            (the part that changes sign with the direction)
  layer 1 is `silu (a + bb)` forward and `silu (a − bb)` backward; layer 2 is `silu (Σ_h W2[h',h] · h1[h] + b2[h'])`;
  the output is `Σ_h' W3[0,h'] · h2[h'] + b3[0]` (weight times activation throughout).
  The specification sums `x[c] · W1[h,c]` over the four inputs `x = (r, ±d0, ±d1, ±d2)` and then adds the bias
  (activation times weight). The two agree when `r`, the `d`'s, and the entries of `W1` and `b1` are real
  numbers: the first layer by the ring laws on reals (on the extended reals `−(x + y) = −x + −y` fails at `⊤ + ⊥`),
  the other two layers by commutativity of the product alone.
-/
import proofs.«204254_g40355512713743_retrytranche2_1723_12_alg».proof.Proof.RefSpec
import proofs.«204254_g40355512713743_retrytranche2_1723_12_alg».proof.Proof.LibEdgeSums

noncomputable section

open scoped BigOperators

namespace Cert.Proof.KI.Rf

open Idealize.ShloMosaic Idealize.ShloMosaic.ValueIdx Cert.ReferenceIdeal EdgeSums

/-! ## The inputs at their four positions -/

theorem xin_0 (r : EReal) (d : Fin 3 → EReal) : xin r d (0 : Fin 4) = r := rfl
theorem xin_1 (r : EReal) (d : Fin 3 → EReal) : xin r d (1 : Fin 4) = d 0 := rfl
theorem xin_2 (r : EReal) (d : Fin 3 → EReal) : xin r d (2 : Fin 4) = d 1 := rfl
theorem xin_3 (r : EReal) (d : Fin 3 → EReal) : xin r d (3 : Fin 4) = d 2 := rfl

/-! ## The fused order -/

/-- The shared part of layer 1 at unit `h`: `W1[h,0] · r + b1[h]`. -/
def kA (W1 : S32x4.Idx → EReal) (b1 : S32.Idx → EReal) (r : EReal) (h : Fin 32) : EReal :=
  W1 (ix2 h (0 : Fin 4)) * r + b1 (ix1 h)

/-- The direction-dependent part of layer 1 at unit `h`: `(W1[h,1] · d0 + W1[h,2] · d1) + W1[h,3] · d2`. -/
def kB (W1 : S32x4.Idx → EReal) (d : Fin 3 → EReal) (h : Fin 32) : EReal :=
  (W1 (ix2 h (1 : Fin 4)) * d 0 + W1 (ix2 h (2 : Fin 4)) * d 1) + W1 (ix2 h (3 : Fin 4)) * d 2

/-- Layer 1, forward: `silu (a + bb)`. -/
def kH1f (W1 : S32x4.Idx → EReal) (b1 : S32.Idx → EReal) (r : EReal) (d : Fin 3 → EReal) (h : Fin 32) : EReal :=
  silu (kA W1 b1 r h + kB W1 d h)

/-- Layer 1, backward: `silu (a − bb)`. -/
def kH1b (W1 : S32x4.Idx → EReal) (b1 : S32.Idx → EReal) (r : EReal) (d : Fin 3 → EReal) (h : Fin 32) : EReal :=
  silu (kA W1 b1 r h - kB W1 d h)

/-- Layer 2 at unit `h'`: `silu (Σ_h W2[h',h] · y[h] + b2[h'])`. -/
def kL2 (W2 : S32x32.Idx → EReal) (b2 : S32.Idx → EReal) (y : Fin 32 → EReal) (h' : Fin 32) : EReal :=
  silu ((∑ h : Fin 32, W2 (ix2 h' h) * y h) + b2 (ix1 h'))

/-- The output: `Σ_h' W3[0,h'] · y[h'] + b3[0]`. -/
def kOut (W3 : S1x32.Idx → EReal) (b3 : S1.Idx → EReal) (y : Fin 32 → EReal) : EReal :=
  (∑ h' : Fin 32, W3 (ix2 (0 : Fin 1) h') * y h') + b3 (ix1 (0 : Fin 1))

/-- The message in the fused order, from the edge's length `r` and displacement `d`; `bwd` chooses the direction. -/
def kT (W1 : S32x4.Idx → EReal) (b1 : S32.Idx → EReal) (W2 : S32x32.Idx → EReal) (b2 : S32.Idx → EReal)
    (W3 : S1x32.Idx → EReal) (b3 : S1.Idx → EReal) (bwd : Bool) (r : EReal) (d : Fin 3 → EReal) : EReal :=
  kOut W3 b3 (kL2 W2 b2 (if bwd then kH1b W1 b1 r d else kH1f W1 b1 r d))

/-! ## The two orders agree -/

/-- Layers 2 and 3 only commute each product. -/
theorem kL2_eq (W2 : S32x32.Idx → EReal) (b2 : S32.Idx → EReal) (y : Fin 32 → EReal) : kL2 W2 b2 y = l2 W2 b2 y := by
  funext h'
  unfold kL2 l2
  exact congrArg (fun s => silu (s + b2 (ix1 h'))) (Finset.sum_congr rfl fun h _ => mul_comm _ _)

theorem kOut_eq (W3 : S1x32.Idx → EReal) (b3 : S1.Idx → EReal) (y : Fin 32 → EReal) : kOut W3 b3 y = l3 W3 b3 y := by
  unfold kOut l3
  exact congrArg (· + b3 (ix1 (0 : Fin 1))) (Finset.sum_congr rfl fun h _ => mul_comm _ _)

/-- Layer 1, forward, on real entries. -/
theorem kH1f_eq (W1 : S32x4.Idx → EReal) (b1 : S32.Idx → EReal) (r : EReal) (d : Fin 3 → EReal)
    (hW : ∀ i, IsReal (W1 i)) (hb : ∀ i, IsReal (b1 i)) (hr : IsReal r) (hd : ∀ k, IsReal (d k)) :
    kH1f W1 b1 r d = l1 W1 b1 (xin r d) := by
  funext h
  unfold kH1f l1 kA kB
  rw [Fin.sum_univ_four, xin_0, xin_1, xin_2, xin_3,
    affine4_pos hr (hd 0) (hd 1) (hd 2) (hW _) (hW _) (hW _) (hW _) (hb _)]

/-- Layer 1, backward, on real entries. -/
theorem kH1b_eq (W1 : S32x4.Idx → EReal) (b1 : S32.Idx → EReal) (r : EReal) (d : Fin 3 → EReal)
    (hW : ∀ i, IsReal (W1 i)) (hb : ∀ i, IsReal (b1 i)) (hr : IsReal r) (hd : ∀ k, IsReal (d k)) :
    kH1b W1 b1 r d = l1 W1 b1 (xin r fun k => -d k) := by
  funext h
  unfold kH1b l1 kA kB
  rw [Fin.sum_univ_four, xin_0, xin_1, xin_2, xin_3,
    affine4_neg hr (hd 0) (hd 1) (hd 2) (hW _) (hW _) (hW _) (hW _) (hb _)]

/-- The message in the fused order is the specification's network at `(r, d)` forward and at `(r, −d)` backward, when
    `r`, `d`, `W1` and `b1` are real. -/
theorem kT_eq_mlp (W1 : S32x4.Idx → EReal) (b1 : S32.Idx → EReal) (W2 : S32x32.Idx → EReal) (b2 : S32.Idx → EReal)
    (W3 : S1x32.Idx → EReal) (b3 : S1.Idx → EReal) (r : EReal) (d : Fin 3 → EReal)
    (hW : ∀ i, IsReal (W1 i)) (hb : ∀ i, IsReal (b1 i)) (hr : IsReal r) (hd : ∀ k, IsReal (d k)) :
    kT W1 b1 W2 b2 W3 b3 false r d = mlp W1 b1 W2 b2 W3 b3 (xin r d)
      ∧ kT W1 b1 W2 b2 W3 b3 true r d = mlp W1 b1 W2 b2 W3 b3 (xin r fun k => -d k) := by
  constructor
  · show kOut W3 b3 (kL2 W2 b2 (kH1f W1 b1 r d)) = _
    rw [kOut_eq, kL2_eq, kH1f_eq W1 b1 r d hW hb hr hd]; rfl
  · show kOut W3 b3 (kL2 W2 b2 (kH1b W1 b1 r d)) = _
    rw [kOut_eq, kL2_eq, kH1b_eq W1 b1 r d hW hb hr hd]; rfl

/-! ## Real-ness of the edge's length and displacement -/

/-- The length of an edge with real displacement components is a real number (the root of a sum of squares). -/
theorem isReal_rE (rij : S6400000x3.Idx → EReal) (hr : ∀ i, IsReal (rij i)) (e : Fin 6400000) : IsReal (rE rij e) := by
  choose f hf using hr
  unfold rE
  have hs : (∑ k : Fin 3, rij (ix2 e k) * rij (ix2 e k)) = ((∑ k : Fin 3, f (ix2 e k) * f (ix2 e k) : ℝ) : EReal) := by
    rw [coe_finset_sum]
    exact Finset.sum_congr rfl fun k _ => by rw [hf, EReal.coe_mul]
  rw [hs]
  exact isReal_sqrt (Finset.sum_nonneg fun k _ => mul_self_nonneg _)

/-- The displacement `v[i_e] − v[j_e]` of real positions is real. -/
theorem isReal_vij (ei : S2x6400000.Idx → BitVec 32) (v : S100000x3.Idx → EReal) (hv : ∀ i, IsReal (v i))
    (e : Fin 6400000) (k : Fin 3) : IsReal (vij ei v e k) :=
  (hv _).sub (hv _)

/-- THE FUSED ORDER IS THE SPECIFICATION'S, edge by edge, on real inputs. -/
theorem kT_eq_ref (ei : S2x6400000.Idx → BitVec 32) (rij : S6400000x3.Idx → EReal) (v : S100000x3.Idx → EReal)
    (W1 : S32x4.Idx → EReal) (b1 : S32.Idx → EReal) (W2 : S32x32.Idx → EReal) (b2 : S32.Idx → EReal)
    (W3 : S1x32.Idx → EReal) (b3 : S1.Idx → EReal)
    (hrij : ∀ i, IsReal (rij i)) (hv : ∀ i, IsReal (v i)) (hW : ∀ i, IsReal (W1 i)) (hb : ∀ i, IsReal (b1 i))
    (e : Fin 6400000) :
    kT W1 b1 W2 b2 W3 b3 false (rE rij e) (vij ei v e) = tFwd ei rij v W1 b1 W2 b2 W3 b3 e
      ∧ kT W1 b1 W2 b2 W3 b3 true (rE rij e) (vij ei v e) = tBwd ei rij v W1 b1 W2 b2 W3 b3 e :=
  kT_eq_mlp W1 b1 W2 b2 W3 b3 (rE rij e) (vij ei v e) hW hb (isReal_rE rij hrij e) (isReal_vij ei v hv e)

end Cert.Proof.KI.Rf

end
-- ==== Proof.Bridge.lean ====
/-
  The kernel side's pure specifications, read at the extended reals, against the reference's specification.

  * The accumulator of a chunked scatter-add, defined as a fold over the chunk's edges in increasing order, is at the
    extended reals the sum over the chunk's edges whose index word names the entry; so each of the 32 partial rows is a
    partial node sum, and eight rows of one kind add up to a node sum.
  * The combination of the 32 rows, `sf / max ci 1 + sb / max cj 1`, is the specification at the node.
  * The squared length `(x·x + y·y) + z·z` of the flattened displacement array has the edge's length as its root, and the
    difference of the two gathered table entries of the flattened transposed table is the displacement component.
  The flat arrays are related to the two-dimensional ones by hypotheses (one equation per entry).
-/
import proofs.«204254_g40355512713743_retrytranche2_1723_12_alg».proof.Proof.NodeParts
import proofs.«204254_g40355512713743_retrytranche2_1723_12_alg».proof.Proof.KernelOrder
import proofs.«204254_g40355512713743_retrytranche2_1723_12_alg».proof.Proof.ScatterTileSpec
import proofs.«204254_g40355512713743_retrytranche2_1723_12_alg».proof.Proof.GatherTileDefs

noncomputable section

open scoped BigOperators

namespace Cert.Proof.KI.Rf

open Idealize.ShloMosaic Idealize.ShloMosaic.ValueIdx EdgeSums
open Cert.Proof.KI

/-! ## The fold is the sum -/

theorem fzero_ideal : (Sc.fzero (F := Ideal)) = (0 : EReal) := Ideal.ofBits_zero_f32
theorem fone_ideal : (Sc.fone (F := Ideal)) = (1 : EReal) := Ideal.ofBits_one_f32

/-- Entry `n` of the accumulator after `N` edges is the sum of the values of those edges whose index word is `n`. -/
theorem accAt_ideal (iw : ℕ → ℕ) (vw : ℕ → EReal) (N n : ℕ) :
    Sc.accAt (F := Ideal) iw vw N n = ∑ e : Fin N, if iw e.val = n then vw e.val else 0 := by
  induction N with
  | zero => rw [Finset.univ_eq_empty, Finset.sum_empty]; exact fzero_ideal
  | succ k ih =>
    rw [Fin.sum_univ_castSucc]
    show (if iw k = n then FloatOps.idxAddf (Sc.accAt (F := Ideal) iw vw k n) (vw k) else Sc.accAt (F := Ideal) iw vw k n) = _
    rw [ih]
    simp only [Fin.coe_castSucc, Fin.val_last]
    split
    · rfl
    · rw [add_zero]

/-! ## The flat index array against the two-dimensional one -/

section Flat

variable (eif : Cert.KernelIdeal.S12800000.Idx → BitVec 32) (ei2 : Cert.ReferenceIdeal.S2x6400000.Idx → BitVec 32)
  (h0 : ∀ e : Fin 6400000, eif (ix1 ⟨e.val, by have := e.isLt; omega⟩) = ei2 (ix2 (0 : Fin 2) e))
  (h1 : ∀ e : Fin 6400000, eif (ix1 ⟨e.val + 6400000, by have := e.isLt; omega⟩) = ei2 (ix2 (1 : Fin 2) e))

include h0 h1 in
/-- Position `s · 6400000 + x` of the flat array is row `s`, column `x` of the two-dimensional one. -/
theorem eif_read (m : ℕ) (hm : m < 12800000) (s : Fin 2) (x : Fin 6400000) (h : m = s.val * 6400000 + x.val) :
    eif (ix1 ⟨m, hm⟩) = ei2 (ix2 s x) := by
  obtain ⟨sv, hs⟩ := s
  interval_cases sv
  · have hx : m = x.val := by simpa using h
    subst hx; exact h0 x
  · have hx : m = x.val + 6400000 := by simp at h; omega
    subst hx; exact h1 x

/-- Which row of the index array a kind of partial row reads: kinds 0 and 2 the source row, kinds 1 and 3 the target row. -/
def rowSide (k : Fin 4) : Fin 2 := ⟨k.val % 2, by omega⟩

/-- What a kind of partial row adds per edge: kind 0 the forward values, kind 1 the backward values, kinds 2 and 3 one. -/
def rowVal (tf tb : Cert.KernelIdeal.S6400000.Idx → EReal) (k : Fin 4) : Fin 6400000 → EReal :=
  fun e => if k.val = 0 then tf (ix1 e) else if k.val = 1 then tb (ix1 e) else 1

include h0 h1 in
/-- The index word tile `8k + r` reads for edge `e` of its chunk. -/
theorem iwOf_eq (k : Fin 4) (r : Fin 8) (e : Fin 800000) :
    Sc.iwOf (F := Ideal) eif (8 * k.val + r.val) e.val = (ei2 (ix2 (rowSide k) (edgeOf r e))).toNat := by
  have hk := k.isLt; have hr := r.isLt; have he := e.isLt
  have hq : (8 * k.val + r.val) / 8 = k.val := by omega
  have hm : (8 * k.val + r.val) % 8 = r.val := by omega
  unfold Sc.iwOf Sc.eiN Sc.idxBase
  rw [hq, hm]
  have hb : (if k.val % 2 = 1 then 6400000 else 0) + 800000 * r.val + e.val < 12800000 := by split <;> omega
  rw [dif_pos hb]
  refine congrArg BitVec.toNat (eif_read eif ei2 h0 h1 _ hb (rowSide k) (edgeOf r e) ?_)
  show _ = (k.val % 2) * 6400000 + (r.val * 800000 + e.val)
  split <;> omega

/-- The value tile `8k + r` adds for edge `e` of its chunk. -/
theorem vwOf_eq (tf tb : Cert.KernelIdeal.S6400000.Idx → EReal) (k : Fin 4) (r : Fin 8) (e : Fin 800000) :
    Sc.vwOf (F := Ideal) tf tb (8 * k.val + r.val) e.val = rowVal tf tb k (edgeOf r e) := by
  have hk := k.isLt; have hr := r.isLt; have he := e.isLt
  have hq : (8 * k.val + r.val) / 8 = k.val := by omega
  have hm : (8 * k.val + r.val) % 8 = r.val := by omega
  have hb : 800000 * r.val + e.val < 6400000 := by omega
  have hix : (⟨800000 * r.val + e.val, hb⟩ : Fin 6400000) = edgeOf r e := Fin.ext (by show 800000 * r.val + e.val = r.val * 800000 + e.val; omega)
  unfold Sc.vwOf Sc.valBase Sc.fN rowVal
  rw [hq, hm]
  simp only [dif_pos hb]
  split
  · exact congrArg (fun x => tf (ix1 x)) hix
  · split
    · exact congrArg (fun x => tb (ix1 x)) hix
    · exact fone_ideal

include h0 h1 in
/-- EACH PARTIAL ROW IS A PARTIAL NODE SUM: entry `n` of row `8k + r` is chunk `r`'s partial sum at node `n` of kind
    `k`'s values over kind `k`'s row of the index array. -/
theorem specPart_eq (tf tb : Cert.KernelIdeal.S6400000.Idx → EReal) (k : Fin 4) (r : Fin 8) (n : Fin 100000)
    (hj : (8 * k.val + r.val) * 100000 + n.val < 3200000) :
    Sc.specPart (F := Ideal) eif tf tb (ix1 ⟨(8 * k.val + r.val) * 100000 + n.val, hj⟩)
      = partSum ei2 (rowSide k) (rowVal tf tb k) r n := by
  have hn := n.isLt
  have hq : ((8 * k.val + r.val) * 100000 + n.val) / 100000 = 8 * k.val + r.val := by omega
  have hm : ((8 * k.val + r.val) * 100000 + n.val) % 100000 = n.val := by omega
  show Sc.accAt (F := Ideal) (Sc.iwOf eif (((8 * k.val + r.val) * 100000 + n.val) / 100000))
      (Sc.vwOf tf tb (((8 * k.val + r.val) * 100000 + n.val) / 100000)) 800000
      (((8 * k.val + r.val) * 100000 + n.val) % 100000) = _
  rw [hq, hm, accAt_ideal]
  unfold partSum
  refine Finset.sum_congr rfl fun e _ => ?_
  rw [iwOf_eq eif ei2 h0 h1, vwOf_eq]

/-- Entry `n` of row `w` of the 32 × 100000 array of partial rows, flattened. -/
def pix (w n : ℕ) (h : w * 100000 + n < 3200000) : Cert.KernelIdeal.S3200000.Idx := ix1 ⟨w * 100000 + n, h⟩

include h0 h1 in
/-- EIGHT ROWS OF ONE KIND ADD UP TO THE NODE SUM of that kind. -/
theorem rows_sum (tf tb : Cert.KernelIdeal.S6400000.Idx → EReal) (k : Fin 4) (o : ℕ) (ho : o = 8 * k.val) (n : Fin 100000) :
    (∑ r : Fin 8, Sc.specPart (F := Ideal) eif tf tb
        (pix (o + r.val) n.val (by have := k.isLt; have := r.isLt; have := n.isLt; omega)))
      = nodeSum ei2 (rowSide k) (rowVal tf tb k) n := by
  subst ho
  rw [nodeSum_eq_parts]
  exact Finset.sum_congr rfl fun r _ => specPart_eq eif ei2 h0 h1 tf tb k r n _

include h0 h1 in
/-- THE COMBINATION OF THE 32 PARTIAL ROWS IS THE SPECIFICATION: forward sums over source counts plus backward sums
    over target counts, each count raised to at least one, when the edge values are the forward and the backward
    messages. -/
theorem combine_eq_refS (rij : Cert.ReferenceIdeal.S6400000x3.Idx → EReal) (v : Cert.ReferenceIdeal.S100000x3.Idx → EReal)
    (W1 : Cert.ReferenceIdeal.S32x4.Idx → EReal) (b1 : Cert.ReferenceIdeal.S32.Idx → EReal)
    (W2 : Cert.ReferenceIdeal.S32x32.Idx → EReal) (b2 : Cert.ReferenceIdeal.S32.Idx → EReal)
    (W3 : Cert.ReferenceIdeal.S1x32.Idx → EReal) (b3 : Cert.ReferenceIdeal.S1.Idx → EReal)
    (tf tb : Cert.KernelIdeal.S6400000.Idx → EReal)
    (htf : ∀ e : Fin 6400000, tf (ix1 e) = tFwd ei2 rij v W1 b1 W2 b2 W3 b3 e)
    (htb : ∀ e : Fin 6400000, tb (ix1 e) = tBwd ei2 rij v W1 b1 W2 b2 W3 b3 e)
    (n : Fin 100000) (z : Fin 1) :
    Ideal.div (∑ r : Fin 8, Sc.specPart (F := Ideal) eif tf tb (pix (0 + r.val) n.val (by have := r.isLt; have := n.isLt; omega)))
        (max (∑ r : Fin 8, Sc.specPart (F := Ideal) eif tf tb (pix (16 + r.val) n.val (by have := r.isLt; have := n.isLt; omega))) 1)
      + Ideal.div (∑ r : Fin 8, Sc.specPart (F := Ideal) eif tf tb (pix (8 + r.val) n.val (by have := r.isLt; have := n.isLt; omega)))
        (max (∑ r : Fin 8, Sc.specPart (F := Ideal) eif tf tb (pix (24 + r.val) n.val (by have := r.isLt; have := n.isLt; omega))) 1)
      = refS ei2 rij v W1 b1 W2 b2 W3 b3 (ix2 n z) := by
  rw [rows_sum eif ei2 h0 h1 tf tb 0 0 rfl n, rows_sum eif ei2 h0 h1 tf tb 2 16 rfl n,
    rows_sum eif ei2 h0 h1 tf tb 1 8 rfl n, rows_sum eif ei2 h0 h1 tf tb 3 24 rfl n]
  have e0 : rowVal tf tb 0 = tFwd ei2 rij v W1 b1 W2 b2 W3 b3 := funext fun e => by
    show (if (0 : ℕ) = 0 then tf (ix1 e) else _) = _; rw [if_pos rfl, htf]
  have e1 : rowVal tf tb 1 = tBwd ei2 rij v W1 b1 W2 b2 W3 b3 := funext fun e => by
    show (if (1 : ℕ) = 0 then _ else if (1 : ℕ) = 1 then tb (ix1 e) else _) = _
    rw [if_neg (by decide), if_pos rfl, htb]
  have e2 : rowVal tf tb 2 = fun _ => 1 := funext fun e => by
    show (if (2 : ℕ) = 0 then _ else if (2 : ℕ) = 1 then _ else (1 : EReal)) = _
    rw [if_neg (by decide), if_neg (by decide)]
  have e3 : rowVal tf tb 3 = fun _ => 1 := funext fun e => by
    show (if (3 : ℕ) = 0 then _ else if (3 : ℕ) = 1 then _ else (1 : EReal)) = _
    rw [if_neg (by decide), if_neg (by decide)]
  rw [e0, e1, e2, e3]
  show _ = nodeMean ei2 0 _ n + nodeMean ei2 1 _ n
  unfold nodeMean
  rw [max_comm (1 : EReal), max_comm (1 : EReal)]
  rfl

/-! ## The gather call's specifications -/

include h0 h1 in
/-- The difference of the two gathered entries of column `comp` of the flattened transposed table is the displacement
    component, for index words below 100000. -/
theorem specD_eq (v : Cert.ReferenceIdeal.S100000x3.Idx → EReal) (vt : Cert.KernelIdeal.S300000.Idx → EReal)
    (hvt : ∀ (n : Fin 100000) (k : Fin 3), vt (ix1 ⟨100000 * k.val + n.val, by have := n.isLt; have := k.isLt; omega⟩) = v (ix2 n k))
    (hidx : ∀ i, (ei2 i).toNat < 100000) (comp : Fin 3) (e : Fin 6400000) :
    Ga.specD (F := Ideal) comp eif vt (ix1 e) = vij ei2 v e comp := by
  have key : ∀ (w w2 : BitVec 32) (hw : w = w2) (hlt : w2.toNat < 100000) (h : 100000 * comp.val + Ga.nodeOf (F := Ideal) w < 300000),
      vt (ix1 ⟨100000 * comp.val + Ga.nodeOf (F := Ideal) w, h⟩) = v (ix2 (nodeIx w2) comp) := by
    intro w w2 hw hlt h
    subst hw
    rw [← hvt (nodeIx w) comp]
    refine congrArg vt (congrArg ix1 (Fin.ext ?_))
    show 100000 * comp.val + min w.toNat 99999 = 100000 * comp.val + (nodeIx w).val
    rw [nodeIx_val hlt]; omega
  unfold Ga.specD vij
  exact congrArg₂ (· - ·) (key _ _ (h0 e) (hidx _) _) (key _ _ (h1 e) (hidx _) _)

end Flat

/-- The root of the squared length `(x·x + y·y) + z·z` read off the flattened displacement array is the edge's length. -/
theorem specR2_eq (rij : Cert.ReferenceIdeal.S6400000x3.Idx → EReal) (rf : Cert.KernelIdeal.S19200000.Idx → EReal)
    (hrf : ∀ (e : Fin 6400000) (k : Fin 3), rf (ix1 ⟨3 * e.val + k.val, by have := e.isLt; have := k.isLt; omega⟩) = rij (ix2 e k))
    (e : Fin 6400000) :
    Ideal.sqrt (Ga.specR2 (F := Ideal) rf (ix1 e)) = rE rij e := by
  rw [rE_eq3, ← hrf e 0, ← hrf e 1, ← hrf e 2]
  rfl

end Cert.Proof.KI.Rf

end
-- ==== Proof.KernelValue.lean ====
/-
  The kernel's value, from its four calls' pure specifications, is the reference's specification.

  The four calls: (a) the gather call leaves the squared lengths `r2` and the three displacement components `d0, d1, d2`
  per edge; (b) the per-edge network call leaves the forward and backward messages `tf, tb`, computed in the fused order
  from `sqrt r2` and `(d0, d1, d2)`; (c) the scatter call leaves the 32 partial rows; (d) the combination divides the
  summed rows. With real inputs and index words below 100000, the result at every node is the specification's.
-/
import proofs.«204254_g40355512713743_retrytranche2_1723_12_alg».proof.Proof.Bridge
import proofs.«204254_g40355512713743_retrytranche2_1723_12_alg».proof.Proof.PreFacts

noncomputable section

open scoped BigOperators

namespace Cert.Proof.KI.Rf

open Idealize.ShloMosaic Idealize.ShloMosaic.ValueIdx EdgeSums
open Cert.Proof.KI

/-- The combination of the partial rows is the specification at a node. The arrays are plain functions; the flattenings of the index array, the
    displacement array and the transposed table are hypotheses, as are the network call's outputs in the fused order. -/
theorem kernel_value_core
    (ei2 : Cert.ReferenceIdeal.S2x6400000.Idx → BitVec 32) (rij : Cert.ReferenceIdeal.S6400000x3.Idx → EReal)
    (v : Cert.ReferenceIdeal.S100000x3.Idx → EReal)
    (W1 : Cert.ReferenceIdeal.S32x4.Idx → EReal) (b1 : Cert.ReferenceIdeal.S32.Idx → EReal)
    (W2 : Cert.ReferenceIdeal.S32x32.Idx → EReal) (b2 : Cert.ReferenceIdeal.S32.Idx → EReal)
    (W3 : Cert.ReferenceIdeal.S1x32.Idx → EReal) (b3 : Cert.ReferenceIdeal.S1.Idx → EReal)
    (hidx : ∀ i, (ei2 i).toNat < 100000) (hrij : ∀ i, IsReal (rij i)) (hv : ∀ i, IsReal (v i))
    (hW1 : ∀ i, IsReal (W1 i)) (hb1 : ∀ i, IsReal (b1 i))
    (eif : Cert.KernelIdeal.S12800000.Idx → BitVec 32)
    (h0 : ∀ e : Fin 6400000, eif (ix1 ⟨e.val, by have := e.isLt; omega⟩) = ei2 (ix2 (0 : Fin 2) e))
    (h1 : ∀ e : Fin 6400000, eif (ix1 ⟨e.val + 6400000, by have := e.isLt; omega⟩) = ei2 (ix2 (1 : Fin 2) e))
    (rf : Cert.KernelIdeal.S19200000.Idx → EReal)
    (hrf : ∀ (e : Fin 6400000) (k : Fin 3), rf (ix1 ⟨3 * e.val + k.val, by have := e.isLt; have := k.isLt; omega⟩) = rij (ix2 e k))
    (vt : Cert.KernelIdeal.S300000.Idx → EReal)
    (hvt : ∀ (n : Fin 100000) (k : Fin 3), vt (ix1 ⟨100000 * k.val + n.val, by have := n.isLt; have := k.isLt; omega⟩) = v (ix2 n k))
    (tf tb : Cert.KernelIdeal.S6400000.Idx → EReal)
    (htf : ∀ e : Fin 6400000, tf (ix1 e) = kT W1 b1 W2 b2 W3 b3 false (Ideal.sqrt (Ga.specR2 (F := Ideal) rf (ix1 e)))
      (fun k => Ga.specD (F := Ideal) k eif vt (ix1 e)))
    (htb : ∀ e : Fin 6400000, tb (ix1 e) = kT W1 b1 W2 b2 W3 b3 true (Ideal.sqrt (Ga.specR2 (F := Ideal) rf (ix1 e)))
      (fun k => Ga.specD (F := Ideal) k eif vt (ix1 e)))
    (n : Fin 100000) (z : Fin 1) :
    Ideal.div (∑ r : Fin 8, Sc.specPart (F := Ideal) eif tf tb (pix (0 + r.val) n.val (by have := r.isLt; have := n.isLt; omega)))
        (max (∑ r : Fin 8, Sc.specPart (F := Ideal) eif tf tb (pix (16 + r.val) n.val (by have := r.isLt; have := n.isLt; omega))) 1)
      + Ideal.div (∑ r : Fin 8, Sc.specPart (F := Ideal) eif tf tb (pix (8 + r.val) n.val (by have := r.isLt; have := n.isLt; omega)))
        (max (∑ r : Fin 8, Sc.specPart (F := Ideal) eif tf tb (pix (24 + r.val) n.val (by have := r.isLt; have := n.isLt; omega))) 1)
      = refS ei2 rij v W1 b1 W2 b2 W3 b3 (ix2 n z) := by
  have hd : ∀ e : Fin 6400000, (fun k => Ga.specD (F := Ideal) k eif vt (ix1 e)) = vij ei2 v e :=
    fun e => funext fun k => specD_eq eif ei2 h0 h1 v vt hvt hidx k e
  refine combine_eq_refS eif ei2 h0 h1 rij v W1 b1 W2 b2 W3 b3 tf tb (fun e => ?_) (fun e => ?_) n z
  · rw [htf, specR2_eq rij rf hrf, hd]
    exact (kT_eq_ref ei2 rij v W1 b1 W2 b2 W3 b3 hrij hv hW1 hb1 e).1
  · rw [htb, specR2_eq rij rf hrf, hd]
    exact (kT_eq_ref ei2 rij v W1 b1 W2 b2 W3 b3 hrij hv hW1 hb1 e).2

/-- THE KERNEL'S VALUE IS THE SPECIFICATION: the result array, read back through the reshapes of the partial rows and
    of the combined row, is the specification of the reference-shaped inputs, when those are real with index words
    below 100000. Everything the programs contribute is a hypothesis: the flattenings, the network call's outputs in
    the fused order, the partial rows, the combined row. -/
theorem kernel_value_eq_refS
    (ei2 : Cert.ReferenceIdeal.S2x6400000.Idx → BitVec 32) (rij : Cert.ReferenceIdeal.S6400000x3.Idx → EReal)
    (v : Cert.ReferenceIdeal.S100000x3.Idx → EReal)
    (W1 : Cert.ReferenceIdeal.S32x4.Idx → EReal) (b1 : Cert.ReferenceIdeal.S32.Idx → EReal)
    (W2 : Cert.ReferenceIdeal.S32x32.Idx → EReal) (b2 : Cert.ReferenceIdeal.S32.Idx → EReal)
    (W3 : Cert.ReferenceIdeal.S1x32.Idx → EReal) (b3 : Cert.ReferenceIdeal.S1.Idx → EReal)
    (hok : InputsOK ei2 rij v W1 b1 W2 b2 W3 b3)
    (eif : Cert.KernelIdeal.S12800000.Idx → BitVec 32)
    (h0 : ∀ e : Fin 6400000, eif (ix1 ⟨e.val, by have := e.isLt; omega⟩) = ei2 (ix2 (0 : Fin 2) e))
    (h1 : ∀ e : Fin 6400000, eif (ix1 ⟨e.val + 6400000, by have := e.isLt; omega⟩) = ei2 (ix2 (1 : Fin 2) e))
    (rf : Cert.KernelIdeal.S19200000.Idx → EReal)
    (hrf : ∀ (e : Fin 6400000) (k : Fin 3), rf (ix1 ⟨3 * e.val + k.val, by have := e.isLt; have := k.isLt; omega⟩) = rij (ix2 e k))
    (vt : Cert.KernelIdeal.S300000.Idx → EReal)
    (hvt : ∀ (n : Fin 100000) (k : Fin 3), vt (ix1 ⟨100000 * k.val + n.val, by have := n.isLt; have := k.isLt; omega⟩) = v (ix2 n k))
    (tf tb : Cert.KernelIdeal.S6400000.Idx → EReal)
    (htf : ∀ e : Fin 6400000, tf (ix1 e) = kT W1 b1 W2 b2 W3 b3 false (Ideal.sqrt (Ga.specR2 (F := Ideal) rf (ix1 e)))
      (fun k => Ga.specD (F := Ideal) k eif vt (ix1 e)))
    (htb : ∀ e : Fin 6400000, tb (ix1 e) = kT W1 b1 W2 b2 W3 b3 true (Ideal.sqrt (Ga.specR2 (F := Ideal) rf (ix1 e)))
      (fun k => Ga.specD (F := Ideal) k eif vt (ix1 e)))
    (P : Cert.KernelIdeal.S32x100000.Idx → EReal)
    (hP : ∀ (w : Fin 32) (n : Fin 100000), P (ix2 w n)
      = Sc.specPart (F := Ideal) eif tf tb (pix w.val n.val (by have := w.isLt; have := n.isLt; omega)))
    (out : Cert.KernelIdeal.S1x100000.Idx → EReal)
    (hout : ∀ n : Fin 100000, out (ix2 (0 : Fin 1) n)
      = Ideal.div (∑ r : Fin 8, P (ix2 (⟨0 + r.val, by have := r.isLt; omega⟩ : Fin 32) n))
          (max (∑ r : Fin 8, P (ix2 (⟨16 + r.val, by have := r.isLt; omega⟩ : Fin 32) n)) 1)
        + Ideal.div (∑ r : Fin 8, P (ix2 (⟨8 + r.val, by have := r.isLt; omega⟩ : Fin 32) n))
          (max (∑ r : Fin 8, P (ix2 (⟨24 + r.val, by have := r.isLt; omega⟩ : Fin 32) n)) 1))
    (res : Cert.KernelIdeal.S100000x1.Idx → EReal)
    (hres : ∀ (n : Fin 100000) (z : Fin 1), res (ix2 n z) = out (ix2 (0 : Fin 1) n)) :
    res = refS ei2 rij v W1 b1 W2 b2 W3 b3 := by
  funext i
  obtain ⟨n, z, rfl⟩ : ∃ (n : Fin 100000) (z : Fin 1), i = ix2 n z := ⟨i 0, i 1, eq_ix2 i⟩
  rw [hres, hout]
  simp only [hP]
  exact kernel_value_core ei2 rij v W1 b1 W2 b2 W3 b3 hok.idx hok.rij hok.v hok.W1 hok.b1 eif h0 h1 rf hrf vt hvt tf tb htf htb n z

end Cert.Proof.KI.Rf

end
-- ==== Proof.Reshapes.lean ====
/-
  Reshapes read at an index, for the literal shapes of this computation: a reshape keeps the row-major order, so
    * the [2, 6400000] index array flattened to [12800000] has row 0 at positions e and row 1 at positions 6400000 + e;
    * the [6400000, 3] displacement array flattened to [19200000] has entry (e, k) at position 3·e + k;
    * the [100000, 3] table transposed to [3, 100000] and flattened to [300000] has entry (n, k) at position 100000·k + n;
    * the [3200000] partial-sums array read as [32, 100000] has entry (w, n) at position 100000·w + n;
    * the [1, 100000] combined row read as [100000, 1] has entry (n, 0) at (0, n).
-/
import Idealize.ShloMosaic.Lib.Pipeline.Value
import Idealize.ShloMosaic.Lib.ValueIdx

noncomputable section

namespace Cert.Proof.KI.Rf

open Idealize.ShloMosaic Idealize.ShloMosaic.ValueIdx

variable {α : Type}

abbrev T2x6400000 : Shape := ⟨2, ![2, 6400000]⟩
abbrev T12800000 : Shape := ⟨1, ![12800000]⟩
abbrev T6400000x3 : Shape := ⟨2, ![6400000, 3]⟩
abbrev T19200000 : Shape := ⟨1, ![19200000]⟩
abbrev T100000x3 : Shape := ⟨2, ![100000, 3]⟩
abbrev T3x100000 : Shape := ⟨2, ![3, 100000]⟩
abbrev T300000 : Shape := ⟨1, ![300000]⟩
abbrev T3200000 : Shape := ⟨1, ![3200000]⟩
abbrev T32x100000 : Shape := ⟨2, ![32, 100000]⟩
abbrev T1x100000 : Shape := ⟨2, ![1, 100000]⟩
abbrev T100000x1 : Shape := ⟨2, ![100000, 1]⟩

/-- Row 0 of the index array in the flattened one. -/
theorem flat_ei_row0 (ei2 : T2x6400000.Idx → α) (h : T2x6400000.ShapeCasts T12800000) (e : Fin 6400000) :
    shapeCast T12800000 ei2 h (ix1 ⟨e.val, by have := e.isLt; omega⟩) = ei2 (ix2 (0 : Fin 2) e) :=
  shapeCast_apply ei2 h _ (ix2 (0 : Fin 2) e) (by
    rw [Shape.rowMajor_val_two, Shape.rowMajor_val_one]
    show 0 * 6400000 + e.val = e.val; omega)

/-- Row 1 of the index array in the flattened one. -/
theorem flat_ei_row1 (ei2 : T2x6400000.Idx → α) (h : T2x6400000.ShapeCasts T12800000) (e : Fin 6400000) :
    shapeCast T12800000 ei2 h (ix1 ⟨e.val + 6400000, by have := e.isLt; omega⟩) = ei2 (ix2 (1 : Fin 2) e) :=
  shapeCast_apply ei2 h _ (ix2 (1 : Fin 2) e) (by
    rw [Shape.rowMajor_val_two, Shape.rowMajor_val_one]
    show 1 * 6400000 + e.val = e.val + 6400000; omega)

/-- Entry `(e, k)` of the displacement array in the flattened one. -/
theorem flat_rij (rij : T6400000x3.Idx → α) (h : T6400000x3.ShapeCasts T19200000) (e : Fin 6400000) (k : Fin 3) :
    shapeCast T19200000 rij h (ix1 ⟨3 * e.val + k.val, by have := e.isLt; have := k.isLt; omega⟩) = rij (ix2 e k) :=
  shapeCast_apply rij h _ (ix2 e k) (by
    rw [Shape.rowMajor_val_two, Shape.rowMajor_val_one]
    show e.val * 3 + k.val = 3 * e.val + k.val; omega)

/-- Entry `(n, k)` of the table in the transposed, flattened one. -/
theorem flat_vt (v : T100000x3.Idx → α) (ht : T100000x3.Transposes [1, 0] T3x100000) (h : T3x100000.ShapeCasts T300000)
    (n : Fin 100000) (k : Fin 3) :
    shapeCast T300000 (transpose T3x100000 [1, 0] v ht) h (ix1 ⟨100000 * k.val + n.val, by have := n.isLt; have := k.isLt; omega⟩)
      = v (ix2 n k) := by
  refine (shapeCast_apply _ h _ (ix2 k n) (by
    rw [Shape.rowMajor_val_two, Shape.rowMajor_val_one]
    show k.val * 100000 + n.val = 100000 * k.val + n.val; omega)).trans ?_
  exact transpose_apply [1, 0] v ht (ix2 k n) (ix2 n k) (fun b => match b with | ⟨0, _⟩ => rfl | ⟨1, _⟩ => rfl)

/-- Entry `(w, n)` of the partial rows read as a 32 × 100000 array. -/
theorem rows_of_flat (part : T3200000.Idx → α) (h : T3200000.ShapeCasts T32x100000) (w : Fin 32) (n : Fin 100000) :
    shapeCast T32x100000 part h (ix2 w n) = part (ix1 ⟨w.val * 100000 + n.val, by have := w.isLt; have := n.isLt; omega⟩) :=
  shapeCast_apply part h _ _ (by
    rw [Shape.rowMajor_val_two, Shape.rowMajor_val_one]
    show w.val * 100000 + n.val = w.val * 100000 + n.val; rfl)

/-- Entry `(n, 0)` of the combined row read as a column. -/
theorem col_of_row (out : T1x100000.Idx → α) (h : T1x100000.ShapeCasts T100000x1) (n : Fin 100000) (z : Fin 1) :
    shapeCast T100000x1 out h (ix2 n z) = out (ix2 (0 : Fin 1) n) :=
  shapeCast_apply out h _ _ (by
    rw [Shape.rowMajor_val_two, Shape.rowMajor_val_two]
    show 0 * 100000 + n.val = n.val * 1 + z.val; have := z.isLt; omega)

abbrev T32 : Shape := ⟨1, ![32]⟩
abbrev T32x1 : Shape := ⟨2, ![32, 1]⟩
abbrev T1x32 : Shape := ⟨2, ![1, 32]⟩
abbrev T1 : Shape := ⟨1, ![1]⟩
abbrev T1x1 : Shape := ⟨2, ![1, 1]⟩

/-- A vector of 32 read as a column: entry `(k, 0)` is entry `k`. -/
theorem col_of_vec32 (x : T32.Idx → α) (h : T32.ShapeCasts T32x1) (k : Fin 32) (z : Fin 1) :
    shapeCast T32x1 x h (ix2 k z) = x (ix1 k) :=
  shapeCast_apply x h _ _ (by
    rw [Shape.rowMajor_val_two, Shape.rowMajor_val_one]
    show k.val = k.val * 1 + z.val; have := z.isLt; omega)

/-- A row of 32 read as a column: entry `(k, 0)` is entry `(0, k)`. -/
theorem col_of_row32 (x : T1x32.Idx → α) (h : T1x32.ShapeCasts T32x1) (k : Fin 32) (z : Fin 1) :
    shapeCast T32x1 x h (ix2 k z) = x (ix2 (0 : Fin 1) k) :=
  shapeCast_apply x h _ _ (by
    rw [Shape.rowMajor_val_two, Shape.rowMajor_val_two]
    show 0 * 32 + k.val = k.val * 1 + z.val; have := z.isLt; omega)

/-- A vector of one entry read as a 1 × 1 array. -/
theorem one_of_vec1 (x : T1.Idx → α) (h : T1.ShapeCasts T1x1) (a z : Fin 1) :
    shapeCast T1x1 x h (ix2 a z) = x (ix1 (0 : Fin 1)) :=
  shapeCast_apply x h _ _ (by
    rw [Shape.rowMajor_val_two, Shape.rowMajor_val_one]
    show (0 : Nat) = a.val * 1 + z.val; have := z.isLt; have := a.isLt; omega)

end Cert.Proof.KI.Rf

end
-- ==== Proof.MlpValue.lean ====
import Idealize.ShloMosaic.Lib.Pipeline.FrameBody
import Idealize.ShloMosaic.Lib.Pipeline.Value
import Idealize.ShloMosaic.Lib.Ring
import Idealize.ShloMosaic.Lib.Tactic
import proofs.«204254_g40355512713743_retrytranche2_1723_12_alg».proof.Proof.MlpRegion
set_option maxRecDepth 16384

noncomputable section

namespace Cert.Proof.KI.Tc

open Cert.Proof.KI

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 2) (Elt F) ℕ UU ℕ

/-! ## The value of custom_call 1: each output, block by block

The outputs' blocks tile their arrays and no two points write one block, so after the region block `t` of each output
array, read back, is what the body left at point `t`: the network on block `t` of the edge arrays and the weights. -/

theorem hz1 : (![0] : Fin 1 → Nat) = fun _ => 0 := funext fun a => by fin_cases a; rfl
theorem hz2 : (![0, 0] : Fin 2 → Nat) = fun _ => 0 := funext fun a => by fin_cases a <;> rfl

/-- The outputs' blocks in the kernel's own operation order, over the whole input blocks (each load reads its whole
    buffer, each store writes its whole buffer). -/
theorem out1_10_eq (x0 x1 x2 x3 : Vec F S10240 .f32) (x4 : Vec F S32x4 .f32) (x5 : Vec F S32x1 .f32) (x6 : Vec F S32x32 .f32)
    (x7 x8 : Vec F S32x1 .f32) (x9 : Vec F S1x1 .f32) :
    out1_10 x0 x1 x2 x3 x4 x5 x6 x7 x8 x9 = k1_pay1 (k1_pay10 (k1_pay5 x0 x4 x5 x1 x2 x3) x6 x7 x8) x9 := by
  unfold out1_10
  simp only [View.canon_unit_zero (S := S10240) hz1, View.ld_unit_zero (S := S10240) hz1, View.ld_unit_zero (S := S32x4) hz2, View.ld_unit_zero (S := S32x1) hz2, View.ld_unit_zero (S := S32x32) hz2, View.ld_unit_zero (S := S1x1) hz2]

theorem out1_11_eq (x0 x1 x2 x3 : Vec F S10240 .f32) (x4 : Vec F S32x4 .f32) (x5 : Vec F S32x1 .f32) (x6 : Vec F S32x32 .f32)
    (x7 x8 : Vec F S32x1 .f32) (x9 : Vec F S1x1 .f32) :
    out1_11 x0 x1 x2 x3 x4 x5 x6 x7 x8 x9
      = k1_pay2 (k1_pay8 (k1_pay6 x0 x4 x5 x1 x2 x3) (k1_pay7 (F := F)) x6 x7) (k1_pay9 x8) x9 := by
  unfold out1_11
  simp only [View.canon_unit_zero (S := S10240) hz1, View.ld_unit_zero (S := S10240) hz1, View.ld_unit_zero (S := S32x4) hz2, View.ld_unit_zero (S := S32x1) hz2, View.ld_unit_zero (S := S32x32) hz2, View.ld_unit_zero (S := S1x1) hz2]

variable (c : Dev nD) (A1 : (w : Fin 12) → Buf (Elt F) ((cfg1.win w).arr.view.loc (c.tc : Thread nD τ)))
    (O : CellTallies nD τ sig (HIx 2)) (B : Set (SemLoc sig × HIx 2))

/-- The block index of an edge window at point `t` is `t`. -/
theorem index1_10 : ∀ t : Fin cfg1.N, (cfg1.win 10).index t 0 = t.val :=
  (by decide +kernel : ∀ t : Fin grid1.N, win1_10.index t 0 = t.val)
theorem index1_11 : ∀ t : Fin cfg1.N, (cfg1.win 11).index t 0 = t.val :=
  (by decide +kernel : ∀ t : Fin grid1.N, win1_11.index t 0 = t.val)

theorem hdisj1_10 (t t' : Fin cfg1.N) (_ : (cfg1.win 10).flush t = true) (_ : (cfg1.win 10).flush t' = true) (h : t ≠ t') :
    Disjoint ((cfg1.win 10).blk t).view.set ((cfg1.win 10).blk t').view.set :=
  (cfg1.win 10).disjoint_blk fun e => h (Fin.ext (by have := congrFun e 0; rwa [index1_10, index1_10] at this))
theorem hdisj1_11 (t t' : Fin cfg1.N) (_ : (cfg1.win 11).flush t = true) (_ : (cfg1.win 11).flush t' = true) (h : t ≠ t') :
    Disjoint ((cfg1.win 11).blk t).view.set ((cfg1.win 11).blk t').view.set :=
  (cfg1.win 11).disjoint_blk fun e => h (Fin.ext (by have := congrFun e 0; rwa [index1_11, index1_11] at this))

/-- Block `t` of the forward output after the region. -/
theorem tf_block (t : Fin cfg1.N) :
    ((cfg1.win 10).blk t).view.read (Elt F) ((dat1 c A1 O B).arrAt 10 cfg1.N) = out1_10 (iblk1 c A1 0 t) (iblk1 c A1 1 t) (iblk1 c A1 2 t) (iblk1 c A1 3 t) (iblk1 c A1 4 t) (iblk1 c A1 5 t) (iblk1 c A1 6 t) (iblk1 c A1 7 t) (iblk1 c A1 8 t) (iblk1 c A1 9 t) :=
  ((dat1 c A1 O B).read_blk_arrAt_eq_flushed 10 (hdisj1_10) cfg1.N t t.isLt (flush1_10 t)).trans
    ((show (dat1 c A1 O B).flushed 10 t = (dat1 c A1 O B).after 10 t from rfl).trans (after1_10 c A1 O B t))

/-- Block `t` of the backward output after the region. -/
theorem tb_block (t : Fin cfg1.N) :
    ((cfg1.win 11).blk t).view.read (Elt F) ((dat1 c A1 O B).arrAt 11 cfg1.N) = out1_11 (iblk1 c A1 0 t) (iblk1 c A1 1 t) (iblk1 c A1 2 t) (iblk1 c A1 3 t) (iblk1 c A1 4 t) (iblk1 c A1 5 t) (iblk1 c A1 6 t) (iblk1 c A1 7 t) (iblk1 c A1 8 t) (iblk1 c A1 9 t) :=
  ((dat1 c A1 O B).read_blk_arrAt_eq_flushed 11 (hdisj1_11) cfg1.N t t.isLt (flush1_11 t)).trans
    ((show (dat1 c A1 O B).flushed 11 t = (dat1 c A1 O B).after 11 t from rfl).trans (after1_11 c A1 O B t))

end Cert.Proof.KI.Tc

end
-- ==== Proof.MlpIdeal.lean ====
import Idealize.ShloMosaic.Lib.Pipeline.FrameBody
import Idealize.ShloMosaic.Lib.Pipeline.Value
import Idealize.ShloMosaic.Lib.Ring
import Idealize.ShloMosaic.Lib.Tactic
import Idealize.ShloMosaic.Lib.ValueIdx
import Idealize.ShloMosaic.PureOps.Ideal.Laws
import proofs.«204254_g40355512713743_retrytranche2_1723_12_alg».proof.Proof.MlpValue
set_option maxRecDepth 16384

noncomputable section

namespace Cert.Proof.KI.Tc

open Cert.Proof.KI

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 2) (Elt F) ℕ UU ℕ

/-! ## custom_call 1 at the ideal values: the network per edge

Each layout operation of the body read at an index, then each payload, then the two outputs: at edge `y` of a block the
forward output is `Σ_r w3[r] · silu(Σ_k W2[r,k] · silu(a_k + b_k) + b2[r]) + b3` with `a_k = W1[k,0]·√r2 + b1[k]` and
`b_k = W1[k,1]·d0 + W1[k,2]·d1 + W1[k,3]·d2`, the backward one the same at `a_k - b_k`, the sums over `k` the matrix
unit's contraction, those over `r` the reduction over rows, in the kernel's own order of operations. -/

open Idealize.ShloMosaic.ValueIdx

section Layout

variable {α : Type}

/-- The index of a [10240] vector under column `j` of a [1, 10240] one. -/
abbrev colIdx (j : Fin 10240) : S10240.Idx := fun a => (ix2 (0 : Fin 1) j : S1x10240.Idx) a.succ

theorem colIdx_eq (y : S10240.Idx) : colIdx (y 0) = y := by
  funext a; match a with | ⟨0, _⟩ => rfl

/-- A [32, 1] column broadcast along the edges reads its row. -/
theorem bc_col (v : S32x1.Idx → α) (h : S32x1.Broadcasts S32x10240) (i : S32x10240.Idx) :
    broadcastTo S32x10240 v h i = v (ix2 (i 0) (0 : Fin 1)) :=
  broadcastTo_apply v h i _ fun a => by
    match a with
    | ⟨0, _⟩ => rfl
    | ⟨1, _⟩ => rfl

/-- A [1, 10240] row broadcast along the rows reads its column. -/
theorem bc_row (v : S1x10240.Idx → α) (h : S1x10240.Broadcasts S32x10240) (i : S32x10240.Idx) :
    broadcastTo S32x10240 v h i = v (ix2 (0 : Fin 1) (i 1)) :=
  broadcastTo_apply v h i _ fun a => by
    match a with
    | ⟨0, _⟩ => rfl
    | ⟨1, _⟩ => rfl

/-- The [1, 1] scalar broadcast along the edges. -/
theorem bc_11 (v : S1x1.Idx → α) (h : S1x1.Broadcasts S1x10240) (j : S1x10240.Idx) :
    broadcastTo S1x10240 v h j = v (ix2 (0 : Fin 1) (0 : Fin 1)) :=
  broadcastTo_apply v h j _ fun a => by
    match a with
    | ⟨0, _⟩ => rfl
    | ⟨1, _⟩ => rfl

/-- Column `c` of the [32, 4] first-layer weights as a [32, 1] column. -/
theorem slc (c : Nat) (hc : c < 4) (v : S32x4.Idx → α) (h : S32x4.Slices ![0, c] S32x1) (i : S32x1.Idx) :
    extractStridedSlice S32x1 ![0, c] v h i = v (ix2 (i 0) (⟨c, hc⟩ : Fin 4)) :=
  extractStridedSlice_apply _ v h i _ fun a => by
    match a with
    | ⟨0, _⟩ => exact (Nat.zero_add _).symm
    | ⟨1, _⟩ =>
      have h0 : (i 1).val = 0 := Nat.lt_one_iff.mp (i 1).isLt
      show c = c + (i 1).val
      omega

theorem sc_add (v : S10240.Idx → α) (h : S10240.ShapeCasts S1x10240) (j : S1x10240.Idx) :
    shapeCast S1x10240 v h j = v (fun a => j a.succ) := shapeCast_addUnit_apply _ v h j

theorem sc_drop (v : S1x10240.Idx → α) (h : S1x10240.ShapeCasts S10240) (y : S10240.Idx) :
    shapeCast S10240 v h y = v (Fin.cons ⟨0, Nat.one_pos⟩ y) := shapeCast_dropUnit_apply _ v h y

end Layout

/-- The reduction over the 32 rows, read at an edge. -/
theorem mr32 (v : FVec Ideal S32x10240 .f32) (y : S10240.Idx) (h : S32x10240.Reduces [0] S10240) (hφ : FKind.Formats .f32)
    (hacc : (0x00000000#32 : BitVec 32) = FKind.add.neutral .f32 hφ) :
    multiReduction .add [0] S10240 v 0x00000000#32 h hφ hacc y = ∑ r : Fin 32, v (ix2 r (y 0)) :=
  (Idealize.ShloMosaic.Ideal.multiReduction_add_single v _ h hφ hacc y).trans (Finset.sum_congr rfl fun r _ =>
    congrArg v (funext fun a => Fin.ext (by
      match a with
      | ⟨0, _⟩ => rfl
      | ⟨1, _⟩ => rfl)))

theorem zero_f32 : (Scalar.ofBits .f32 0x00000000#32 : Ideal .f32) = 0 := by
  show Ideal.ofBits .f32 0x00000000#32 = 0
  exact Idealize.ShloMosaic.Ideal.ofBits_zero_f32

theorem one_f32' : (Scalar.ofBits .f32 0x3F800000#32 : Ideal .f32) = 1 := by
  show Ideal.ofBits .f32 0x3F800000#32 = 1
  simp [Ideal.ofBits, Ideal.ieee, -EReal.coe_mul]; norm_num

theorem exp_apply' {s : Shape} (v : FVec Ideal s .f32) (i : s.Idx) : exp v i = Ideal.exp (v i) := rfl
theorem sqrt_apply' {s : Shape} (v : FVec Ideal s .f32) (i : s.Idx) : sqrt v i = Ideal.sqrt (v i) := rfl

/-- `x · 1/(1 + e^(0 - x))`, as the kernel computes it. -/
def siluI (z : EReal) : EReal := z * Ideal.div 1 (1 + Ideal.exp (0 - z))

section Payloads

variable (x0 x1 x2 x3 : Vec Ideal S10240 .f32) (x4 : Vec Ideal S32x4 .f32) (x5 : Vec Ideal S32x1 .f32) (x6 : Vec Ideal S32x32 .f32)
  (x7 x8 : Vec Ideal S32x1 .f32) (x9 : Vec Ideal S1x1 .f32)

/-- `W1[k,0]·√r2 + b1[k]`. -/
theorem pay3_apply (i : S32x10240.Idx) :
    k1_pay3 x0 x4 x5 i = x4 (ix2 (i 0) (0 : Fin 4)) * Ideal.sqrt (x0 (colIdx (i 1))) + x5 (ix2 (i 0) (0 : Fin 1)) := by
  unfold k1_pay3
  simp only [shapeCast_self, addf_apply, mulf_apply, bc_col, bc_row, slc 0 (by omega), sc_add]
  rfl

/-- `W1[k,1]·d0 + W1[k,2]·d1 + W1[k,3]·d2`. -/
theorem pay4_apply (i : S32x10240.Idx) :
    k1_pay4 x4 x1 x2 x3 i = x4 (ix2 (i 0) (1 : Fin 4)) * x1 (colIdx (i 1)) + x4 (ix2 (i 0) (2 : Fin 4)) * x2 (colIdx (i 1))
      + x4 (ix2 (i 0) (3 : Fin 4)) * x3 (colIdx (i 1)) := by
  unfold k1_pay4
  simp only [shapeCast_self, addf_apply, mulf_apply, bc_col, bc_row, slc 1 (by omega), slc 2 (by omega), slc 3 (by omega), sc_add]
  rfl

/-- The first hidden layer, forward. -/
theorem pay5_apply (i : S32x10240.Idx) :
    k1_pay5 x0 x4 x5 x1 x2 x3 i = siluI (k1_pay3 x0 x4 x5 i + k1_pay4 x4 x1 x2 x3 i) := by
  unfold k1_pay5 siluI
  simp only [addf_apply, mulf_apply, divf_apply, subf_apply, broadcast_apply, zero_f32, one_f32']
  rfl

/-- The first hidden layer's argument, backward. -/
theorem pay6_apply (i : S32x10240.Idx) :
    k1_pay6 x0 x4 x5 x1 x2 x3 i = k1_pay3 x0 x4 x5 i - k1_pay4 x4 x1 x2 x3 i := rfl

theorem pay7_apply (i : S32x10240.Idx) : k1_pay7 (F := Ideal) i = 0 := by
  unfold k1_pay7; simp only [broadcast_apply, zero_f32]

/-- The second hidden layer, backward, from the first layer's argument `v45` (and the zero block `v46`). -/
theorem pay8_apply (v45 v46 : FVec Ideal S32x10240 .f32) (i : S32x10240.Idx) :
    k1_pay8 v45 v46 x6 x7 i
      = siluI ((∑ q : (dot_S32x32_S32x10240_S32x10240_1_0_0_1_n_n).contr.Idx, x6 ((dot_S32x32_S32x10240_S32x10240_1_0_0_1_n_n).lhsIdx i q)
            * (v45 ((dot_S32x32_S32x10240_S32x10240_1_0_0_1_n_n).rhsIdx i q) * Ideal.div 1 (1 + Ideal.exp (v46 ((dot_S32x32_S32x10240_S32x10240_1_0_0_1_n_n).rhsIdx i q) - v45 ((dot_S32x32_S32x10240_S32x10240_1_0_0_1_n_n).rhsIdx i q)))))
          + x7 (ix2 (i 0) (0 : Fin 1))) := by
  unfold k1_pay8 siluI
  simp only [shapeCast_self, addf_apply, mulf_apply, divf_apply, subf_apply, exp_apply', broadcast_apply, zero_f32, one_f32', bc_col, matmul,
    Idealize.ShloMosaic.Ideal.matmul_constant_zero_apply]

/-- The forward output's sum over rows, from the first hidden layer `v44`. -/
theorem pay10_apply (v44 : FVec Ideal S32x10240 .f32) (j : S1x10240.Idx) :
    k1_pay10 v44 x6 x7 x8 j
      = ∑ r : Fin 32, x8 (ix2 r (0 : Fin 1)) * siluI ((∑ q : (dot_S32x32_S32x10240_S32x10240_1_0_0_1_n_n).contr.Idx, x6 ((dot_S32x32_S32x10240_S32x10240_1_0_0_1_n_n).lhsIdx (ix2 r (j 1)) q)
            * v44 ((dot_S32x32_S32x10240_S32x10240_1_0_0_1_n_n).rhsIdx (ix2 r (j 1)) q)) + x7 (ix2 r (0 : Fin 1))) := by
  unfold k1_pay10 k1_pay9 siluI
  simp only [shapeCast_self, sc_add]
  refine (mr32 _ _ _ _ _).trans ?_
  refine Finset.sum_congr rfl fun r _ => ?_
  simp only [shapeCast_self, addf_apply, mulf_apply, divf_apply, subf_apply, exp_apply', broadcast_apply, zero_f32, one_f32', bc_col, matmul,
    Idealize.ShloMosaic.Ideal.matmul_constant_zero_apply]
  rfl

/-- The forward output: the sum over rows plus the last bias. -/
theorem pay1_apply (v86 : FVec Ideal S1x10240 .f32) (y : S10240.Idx) :
    k1_pay1 v86 x9 y = v86 (Fin.cons ⟨0, Nat.one_pos⟩ y) + x9 (ix2 (0 : Fin 1) (0 : Fin 1)) := by
  unfold k1_pay1
  simp only [shapeCast_self, sc_drop, addf_apply, bc_11]

/-- The backward output: the sum over rows of the weighted second hidden layer plus the last bias. -/
theorem pay2_apply (v80 : FVec Ideal S32x10240 .f32) (v82 : FVec Ideal S32x1 .f32) (y : S10240.Idx) :
    k1_pay2 v80 v82 x9 y = (∑ r : Fin 32, v82 (ix2 r (0 : Fin 1)) * v80 (ix2 r (y 0))) + x9 (ix2 (0 : Fin 1) (0 : Fin 1)) := by
  unfold k1_pay2
  simp only [shapeCast_self, sc_drop, sc_add, addf_apply, bc_11]
  refine congrArg (· + x9 (ix2 (0 : Fin 1) (0 : Fin 1))) ?_
  refine (mr32 _ _ _ _ _).trans ?_
  refine Finset.sum_congr rfl fun r _ => ?_
  simp only [mulf_apply, bc_col]
  rfl

end Payloads

section Outputs

variable (x0 x1 x2 x3 : Vec Ideal S10240 .f32) (x4 : Vec Ideal S32x4 .f32) (x5 : Vec Ideal S32x1 .f32) (x6 : Vec Ideal S32x32 .f32)
  (x7 x8 : Vec Ideal S32x1 .f32) (x9 : Vec Ideal S1x1 .f32)

/-- The forward output at edge `y` of a block, at the ideal values. -/
theorem tf_edge_ideal (y : S10240.Idx) :
    out1_10 x0 x1 x2 x3 x4 x5 x6 x7 x8 x9 y
      = (∑ r : Fin 32, x8 (ix2 r (0 : Fin 1)) * siluI ((∑ q : (dot_S32x32_S32x10240_S32x10240_1_0_0_1_n_n).contr.Idx, x6 ((dot_S32x32_S32x10240_S32x10240_1_0_0_1_n_n).lhsIdx (ix2 r (y 0)) q)
            * siluI (k1_pay3 x0 x4 x5 ((dot_S32x32_S32x10240_S32x10240_1_0_0_1_n_n).rhsIdx (ix2 r (y 0)) q) + k1_pay4 x4 x1 x2 x3 ((dot_S32x32_S32x10240_S32x10240_1_0_0_1_n_n).rhsIdx (ix2 r (y 0)) q)))
          + x7 (ix2 r (0 : Fin 1)))) + x9 (ix2 (0 : Fin 1) (0 : Fin 1)) := by
  rw [out1_10_eq, pay1_apply, pay10_apply]
  simp only [pay5_apply]
  rfl

/-- The backward output at edge `y` of a block, at the ideal values. -/
theorem tb_edge_ideal (y : S10240.Idx) :
    out1_11 x0 x1 x2 x3 x4 x5 x6 x7 x8 x9 y
      = (∑ r : Fin 32, x8 (ix2 r (0 : Fin 1)) * siluI ((∑ q : (dot_S32x32_S32x10240_S32x10240_1_0_0_1_n_n).contr.Idx, x6 ((dot_S32x32_S32x10240_S32x10240_1_0_0_1_n_n).lhsIdx (ix2 r (y 0)) q)
            * siluI (k1_pay3 x0 x4 x5 ((dot_S32x32_S32x10240_S32x10240_1_0_0_1_n_n).rhsIdx (ix2 r (y 0)) q) - k1_pay4 x4 x1 x2 x3 ((dot_S32x32_S32x10240_S32x10240_1_0_0_1_n_n).rhsIdx (ix2 r (y 0)) q)))
          + x7 (ix2 r (0 : Fin 1)))) + x9 (ix2 (0 : Fin 1) (0 : Fin 1)) := by
  rw [out1_11_eq, pay2_apply]
  simp only [pay8_apply, pay6_apply, pay7_apply, shapeCast_self, k1_pay9, siluI]

/-- The operand indices of the contraction: row `r`, contraction coordinate, edge. -/
theorem lhsIdx_val (i : S32x10240.Idx) (q : (dot_S32x32_S32x10240_S32x10240_1_0_0_1_n_n).contr.Idx) :
    ((dot_S32x32_S32x10240_S32x10240_1_0_0_1_n_n).lhsIdx i q 0).val = (i 0).val ∧ ((dot_S32x32_S32x10240_S32x10240_1_0_0_1_n_n).lhsIdx i q 1).val = (q ⟨0, by decide⟩).val := ⟨rfl, rfl⟩
theorem rhsIdx_val (i : S32x10240.Idx) (q : (dot_S32x32_S32x10240_S32x10240_1_0_0_1_n_n).contr.Idx) :
    ((dot_S32x32_S32x10240_S32x10240_1_0_0_1_n_n).rhsIdx i q 0).val = (q ⟨0, by decide⟩).val ∧ ((dot_S32x32_S32x10240_S32x10240_1_0_0_1_n_n).rhsIdx i q 1).val = (i 1).val := ⟨rfl, rfl⟩

end Outputs

section Closed

variable (x0 x1 x2 x3 : Vec Ideal S10240 .f32) (x4 : Vec Ideal S32x4 .f32) (x5 : Vec Ideal S32x1 .f32) (x6 : Vec Ideal S32x32 .f32)
  (x7 x8 : Vec Ideal S32x1 .f32) (x9 : Vec Ideal S1x1 .f32)

theorem contr_rank : (dot_S32x32_S32x10240_S32x10240_1_0_0_1_n_n).contr.rank = 1 := by decide
theorem contr_size : (dot_S32x32_S32x10240_S32x10240_1_0_0_1_n_n).contr.size ⟨0, by rw [contr_rank]; omega⟩ = 32 := by decide

/-- The contraction's one coordinate as an index of the contraction shape. -/
abbrev eK : Fin 32 ≃ (dot_S32x32_S32x10240_S32x10240_1_0_0_1_n_n).contr.Idx := (contrEquiv1 (dot_S32x32_S32x10240_S32x10240_1_0_0_1_n_n) 32 contr_rank contr_size).symm

/-- A sum over the contraction index is the sum over its one coordinate. -/
theorem sum_contr (f : (dot_S32x32_S32x10240_S32x10240_1_0_0_1_n_n).contr.Idx → EReal) : ∑ q, f q = ∑ k : Fin 32, f (eK k) := (Equiv.sum_comp eK f).symm

theorem lhsIdx_eq (r : Fin 32) (j : Fin 10240) (k : Fin 32) : (dot_S32x32_S32x10240_S32x10240_1_0_0_1_n_n).lhsIdx (ix2 r j : S32x10240.Idx) (eK k) = (ix2 r k : S32x32.Idx) := by
  funext a; apply Fin.ext
  match a with
  | ⟨0, _⟩ => rfl
  | ⟨1, _⟩ => exact (lhsIdx_val _ _).2.trans (contrEquiv1_symm_val (dot_S32x32_S32x10240_S32x10240_1_0_0_1_n_n) 32 contr_rank contr_size k)

theorem rhsIdx_eq (r : Fin 32) (j : Fin 10240) (k : Fin 32) : (dot_S32x32_S32x10240_S32x10240_1_0_0_1_n_n).rhsIdx (ix2 r j : S32x10240.Idx) (eK k) = (ix2 k j : S32x10240.Idx) := by
  funext a; apply Fin.ext
  match a with
  | ⟨0, _⟩ => exact (rhsIdx_val _ _).1.trans (contrEquiv1_symm_val (dot_S32x32_S32x10240_S32x10240_1_0_0_1_n_n) 32 contr_rank contr_size k)
  | ⟨1, _⟩ => rfl

theorem colIdx_ix2 (k : Fin 32) (y : S10240.Idx) : colIdx ((ix2 k (y 0) : S32x10240.Idx) 1) = y := colIdx_eq y

/-- The first layer's argument at hidden unit `k` and edge `y`: `a_k` and `b_k`. -/
theorem pay3_at (k : Fin 32) (y : S10240.Idx) :
    k1_pay3 x0 x4 x5 (ix2 k (y 0)) = x4 (ix2 k (0 : Fin 4)) * Ideal.sqrt (x0 y) + x5 (ix2 k (0 : Fin 1)) := by
  rw [pay3_apply, colIdx_ix2]
theorem pay4_at (k : Fin 32) (y : S10240.Idx) :
    k1_pay4 x4 x1 x2 x3 (ix2 k (y 0)) = x4 (ix2 k (1 : Fin 4)) * x1 y + x4 (ix2 k (2 : Fin 4)) * x2 y + x4 (ix2 k (3 : Fin 4)) * x3 y := by
  rw [pay4_apply, colIdx_ix2]

/-- THE FORWARD OUTPUT PER EDGE, at the ideal values: block element `y` from the elements `y` of the four edge blocks
    and the weights. -/
theorem tf_edge_closed (y : S10240.Idx) :
    out1_10 x0 x1 x2 x3 x4 x5 x6 x7 x8 x9 y
      = (∑ r : Fin 32, x8 (ix2 r (0 : Fin 1)) * siluI ((∑ k : Fin 32, x6 (ix2 r k)
            * siluI (x4 (ix2 k (0 : Fin 4)) * Ideal.sqrt (x0 y) + x5 (ix2 k (0 : Fin 1))
                + (x4 (ix2 k (1 : Fin 4)) * x1 y + x4 (ix2 k (2 : Fin 4)) * x2 y + x4 (ix2 k (3 : Fin 4)) * x3 y)))
          + x7 (ix2 r (0 : Fin 1)))) + x9 (ix2 (0 : Fin 1) (0 : Fin 1)) := by
  rw [tf_edge_ideal]
  refine congrArg (· + x9 (ix2 (0 : Fin 1) (0 : Fin 1))) (Finset.sum_congr rfl fun r _ => ?_)
  rw [sum_contr]
  refine congrArg (fun z => x8 (ix2 r (0 : Fin 1)) * siluI (z + x7 (ix2 r (0 : Fin 1)))) (Finset.sum_congr rfl fun k _ => ?_)
  rw [lhsIdx_eq r (y 0) k, rhsIdx_eq r (y 0) k, pay3_at, pay4_at]

/-- THE BACKWARD OUTPUT PER EDGE, at the ideal values. -/
theorem tb_edge_closed (y : S10240.Idx) :
    out1_11 x0 x1 x2 x3 x4 x5 x6 x7 x8 x9 y
      = (∑ r : Fin 32, x8 (ix2 r (0 : Fin 1)) * siluI ((∑ k : Fin 32, x6 (ix2 r k)
            * siluI (x4 (ix2 k (0 : Fin 4)) * Ideal.sqrt (x0 y) + x5 (ix2 k (0 : Fin 1))
                - (x4 (ix2 k (1 : Fin 4)) * x1 y + x4 (ix2 k (2 : Fin 4)) * x2 y + x4 (ix2 k (3 : Fin 4)) * x3 y)))
          + x7 (ix2 r (0 : Fin 1)))) + x9 (ix2 (0 : Fin 1) (0 : Fin 1)) := by
  rw [tb_edge_ideal]
  refine congrArg (· + x9 (ix2 (0 : Fin 1) (0 : Fin 1))) (Finset.sum_congr rfl fun r _ => ?_)
  rw [sum_contr]
  refine congrArg (fun z => x8 (ix2 r (0 : Fin 1)) * siluI (z + x7 (ix2 r (0 : Fin 1)))) (Finset.sum_congr rfl fun k _ => ?_)
  rw [lhsIdx_eq r (y 0) k, rhsIdx_eq r (y 0) k, pay3_at, pay4_at]

end Closed

end Cert.Proof.KI.Tc

end
-- ==== Proof.MlpElem.lean ====
import Idealize.ShloMosaic.Lib.Pipeline.FrameBody
import Idealize.ShloMosaic.Lib.Pipeline.Value
import Idealize.ShloMosaic.Lib.Ring
import Idealize.ShloMosaic.Lib.Tactic
import proofs.«204254_g40355512713743_retrytranche2_1723_12_alg».proof.Proof.MlpValue
set_option maxRecDepth 16384

noncomputable section

namespace Cert.Proof.KI.Tc

open Cert.Proof.KI

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 2) (Elt F) ℕ UU ℕ

/-! ## custom_call 1's outputs, element by element

Edge `10240·t + y` of an output array is element `y` of its block `t`. -/

variable (c : Dev nD) (A1 : (w : Fin 12) → Buf (Elt F) ((cfg1.win w).arr.view.loc (c.tc : Thread nD τ)))
    (O : CellTallies nD τ sig (HIx 2)) (B : Set (SemLoc sig × HIx 2))

/-- The forward output at the array index under element `y` of block `t`. -/
theorem tf_elem (t : Fin cfg1.N) (y : S10240.Idx) :
    (dat1 c A1 O B).arrAt 10 cfg1.N (((cfg1.win 10).blk t).view.emb y) = out1_10 (iblk1 c A1 0 t) (iblk1 c A1 1 t) (iblk1 c A1 2 t) (iblk1 c A1 3 t) (iblk1 c A1 4 t) (iblk1 c A1 5 t) (iblk1 c A1 6 t) (iblk1 c A1 7 t) (iblk1 c A1 8 t) (iblk1 c A1 9 t) y :=
  (cast_eq _ _).symm.trans (congrFun (tf_block c A1 O B t) y)

/-- The backward output likewise. -/
theorem tb_elem (t : Fin cfg1.N) (y : S10240.Idx) :
    (dat1 c A1 O B).arrAt 11 cfg1.N (((cfg1.win 11).blk t).view.emb y) = out1_11 (iblk1 c A1 0 t) (iblk1 c A1 1 t) (iblk1 c A1 2 t) (iblk1 c A1 3 t) (iblk1 c A1 4 t) (iblk1 c A1 5 t) (iblk1 c A1 6 t) (iblk1 c A1 7 t) (iblk1 c A1 8 t) (iblk1 c A1 9 t) y :=
  (cast_eq _ _).symm.trans (congrFun (tb_block c A1 O B t) y)

/-- An input block's element is the array's element under it. -/
theorem iblk1_elem (w : Fin cfg1.W) (t : Fin cfg1.N) (y : ((cfg1.win w).xblock (cfg1.grid.coords t)).Idx) :
    iblk1 c A1 w t y = _root_.cast (congrArg (Elt F) ((cfg1.win w).blk t).view.elt_eq) (A1 w (((cfg1.win w).blk t).view.emb y)) := rfl

/-- That array index is `10240·t + y`. -/
theorem emb1_10_val (t : Fin cfg1.N) (y : S10240.Idx) :
    ((((cfg1.win 10).rect t).emb y) 0).val = t.val * 10240 + (y 0).val := by
  have h := (cfg1.win 10).rect_emb_val t y 0
  rw [index1_10] at h
  exact h

theorem emb1_11_val (t : Fin cfg1.N) (y : S10240.Idx) :
    ((((cfg1.win 11).rect t).emb y) 0).val = t.val * 10240 + (y 0).val := by
  have h := (cfg1.win 11).rect_emb_val t y 0
  rw [index1_11] at h
  exact h

/-- The block's view embeds through its rectangle (the array is a whole buffer). -/
theorem blk1_emb (w : Fin cfg1.W) (t : Fin cfg1.N) (y : ((cfg1.win w).xblock (cfg1.grid.coords t)).Idx) :
    ((cfg1.win w).blk t).view.emb y = (cfg1.win w).arr.view.emb (((cfg1.win w).rect t).emb y) := rfl

end Cert.Proof.KI.Tc

end
-- ==== Proof.MlpEdge.lean ====
import Idealize.ShloMosaic.Lib.Pipeline.FrameBody
import Idealize.ShloMosaic.Lib.Pipeline.Value
import Idealize.ShloMosaic.Lib.Ring
import Idealize.ShloMosaic.Lib.Tactic
import Idealize.ShloMosaic.Lib.ValueIdx
import Idealize.ShloMosaic.PureOps.Ideal.Laws
import proofs.«204254_g40355512713743_retrytranche2_1723_12_alg».proof.Proof.MlpIdeal
import proofs.«204254_g40355512713743_retrytranche2_1723_12_alg».proof.Proof.MlpElem
import proofs.«204254_g40355512713743_retrytranche2_1723_12_alg».proof.Proof.KernelOrder
set_option maxRecDepth 16384

noncomputable section

namespace Cert.Proof.KI.Tc

open Cert.Proof.KI

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 2) (Elt F) ℕ UU ℕ

/-! ## custom_call 1's outputs at an edge number, at the ideal values

Edge `e` lies in block `e / 10240` at offset `e % 10240`; the weights' blocks are their whole arrays. So each output at
edge `e` is the fused per-edge network on the edge arrays' entries at `e` and the weight arrays. -/

open Idealize.ShloMosaic.ValueIdx

/-- The grid point of edge `e`, -/
def ptE (e : Fin 6400000) : Fin cfg1.N := ⟨e.val / 10240, by rw [show cfg1.N = 625 from N_1]; have := e.isLt; omega⟩
/-- and its place in the block. -/
def offE (e : Fin 6400000) : S10240.Idx := ix1 (⟨e.val % 10240, Nat.mod_lt _ (by decide)⟩ : Fin 10240)

theorem ptE_off (e : Fin 6400000) : (ptE e).val * 10240 + (offE e 0).val = e.val := by
  show e.val / 10240 * 10240 + e.val % 10240 = e.val
  omega

theorem index1_0 : ∀ t : Fin cfg1.N, (cfg1.win 0).index t 0 = t.val :=
  (by decide +kernel : ∀ t : Fin grid1.N, win1_0.index t 0 = t.val)
theorem index1_1 : ∀ t : Fin cfg1.N, (cfg1.win 1).index t 0 = t.val :=
  (by decide +kernel : ∀ t : Fin grid1.N, win1_1.index t 0 = t.val)
theorem index1_2 : ∀ t : Fin cfg1.N, (cfg1.win 2).index t 0 = t.val :=
  (by decide +kernel : ∀ t : Fin grid1.N, win1_2.index t 0 = t.val)
theorem index1_3 : ∀ t : Fin cfg1.N, (cfg1.win 3).index t 0 = t.val :=
  (by decide +kernel : ∀ t : Fin grid1.N, win1_3.index t 0 = t.val)
theorem index1_4 : ∀ t : Fin cfg1.N, (cfg1.win 4).index t 0 = 0 ∧ (cfg1.win 4).index t 1 = 0 :=
  (by decide +kernel : ∀ t : Fin grid1.N, win1_4.index t 0 = 0 ∧ win1_4.index t 1 = 0)
theorem index1_5 : ∀ t : Fin cfg1.N, (cfg1.win 5).index t 0 = 0 ∧ (cfg1.win 5).index t 1 = 0 :=
  (by decide +kernel : ∀ t : Fin grid1.N, win1_5.index t 0 = 0 ∧ win1_5.index t 1 = 0)
theorem index1_6 : ∀ t : Fin cfg1.N, (cfg1.win 6).index t 0 = 0 ∧ (cfg1.win 6).index t 1 = 0 :=
  (by decide +kernel : ∀ t : Fin grid1.N, win1_6.index t 0 = 0 ∧ win1_6.index t 1 = 0)
theorem index1_7 : ∀ t : Fin cfg1.N, (cfg1.win 7).index t 0 = 0 ∧ (cfg1.win 7).index t 1 = 0 :=
  (by decide +kernel : ∀ t : Fin grid1.N, win1_7.index t 0 = 0 ∧ win1_7.index t 1 = 0)
theorem index1_8 : ∀ t : Fin cfg1.N, (cfg1.win 8).index t 0 = 0 ∧ (cfg1.win 8).index t 1 = 0 :=
  (by decide +kernel : ∀ t : Fin grid1.N, win1_8.index t 0 = 0 ∧ win1_8.index t 1 = 0)
theorem index1_9 : ∀ t : Fin cfg1.N, (cfg1.win 9).index t 0 = 0 ∧ (cfg1.win 9).index t 1 = 0 :=
  (by decide +kernel : ∀ t : Fin grid1.N, win1_9.index t 0 = 0 ∧ win1_9.index t 1 = 0)

/-- The array index under edge `e`'s place in its block is `e`. -/
theorem emb_e_0 (e : Fin 6400000) : ((cfg1.win 0).blk (ptE e)).view.emb (offE e) = (ix1 e : S6400000.Idx) := by
  refine (eq_ix1 _).trans (congrArg ix1 (Fin.ext ?_))
  have h := (cfg1.win 0).rect_emb_val (ptE e) (offE e) 0
  rw [index1_0] at h
  exact h.trans (ptE_off e)
theorem emb_e_1 (e : Fin 6400000) : ((cfg1.win 1).blk (ptE e)).view.emb (offE e) = (ix1 e : S6400000.Idx) := by
  refine (eq_ix1 _).trans (congrArg ix1 (Fin.ext ?_))
  have h := (cfg1.win 1).rect_emb_val (ptE e) (offE e) 0
  rw [index1_1] at h
  exact h.trans (ptE_off e)
theorem emb_e_2 (e : Fin 6400000) : ((cfg1.win 2).blk (ptE e)).view.emb (offE e) = (ix1 e : S6400000.Idx) := by
  refine (eq_ix1 _).trans (congrArg ix1 (Fin.ext ?_))
  have h := (cfg1.win 2).rect_emb_val (ptE e) (offE e) 0
  rw [index1_2] at h
  exact h.trans (ptE_off e)
theorem emb_e_3 (e : Fin 6400000) : ((cfg1.win 3).blk (ptE e)).view.emb (offE e) = (ix1 e : S6400000.Idx) := by
  refine (eq_ix1 _).trans (congrArg ix1 (Fin.ext ?_))
  have h := (cfg1.win 3).rect_emb_val (ptE e) (offE e) 0
  rw [index1_3] at h
  exact h.trans (ptE_off e)
theorem emb_e_10 (e : Fin 6400000) : ((cfg1.win 10).blk (ptE e)).view.emb (offE e) = (ix1 e : S6400000.Idx) := by
  refine (eq_ix1 _).trans (congrArg ix1 (Fin.ext ?_))
  have h := (cfg1.win 10).rect_emb_val (ptE e) (offE e) 0
  rw [index1_10] at h
  exact h.trans (ptE_off e)
theorem emb_e_11 (e : Fin 6400000) : ((cfg1.win 11).blk (ptE e)).view.emb (offE e) = (ix1 e : S6400000.Idx) := by
  refine (eq_ix1 _).trans (congrArg ix1 (Fin.ext ?_))
  have h := (cfg1.win 11).rect_emb_val (ptE e) (offE e) 0
  rw [index1_11] at h
  exact h.trans (ptE_off e)

/-- A weight window's block is its whole array. -/
theorem emb_w_4 (t : Fin cfg1.N) (z : S32x4.Idx) : ((cfg1.win 4).blk t).view.emb z = z := by
  refine (eq_ix2 _).trans (Eq.trans (congrArg₂ ix2 (Fin.ext ?_) (Fin.ext ?_)) (eq_ix2 z).symm)
  · have h := (cfg1.win 4).rect_emb_val t z 0
    rw [(index1_4 t).1] at h
    exact h.trans (by show 0 * _ + _ = _; omega)
  · have h := (cfg1.win 4).rect_emb_val t z 1
    rw [(index1_4 t).2] at h
    exact h.trans (by show 0 * _ + _ = _; omega)
theorem emb_w_5 (t : Fin cfg1.N) (z : S32x1.Idx) : ((cfg1.win 5).blk t).view.emb z = z := by
  refine (eq_ix2 _).trans (Eq.trans (congrArg₂ ix2 (Fin.ext ?_) (Fin.ext ?_)) (eq_ix2 z).symm)
  · have h := (cfg1.win 5).rect_emb_val t z 0
    rw [(index1_5 t).1] at h
    exact h.trans (by show 0 * _ + _ = _; omega)
  · have h := (cfg1.win 5).rect_emb_val t z 1
    rw [(index1_5 t).2] at h
    exact h.trans (by show 0 * _ + _ = _; omega)
theorem emb_w_6 (t : Fin cfg1.N) (z : S32x32.Idx) : ((cfg1.win 6).blk t).view.emb z = z := by
  refine (eq_ix2 _).trans (Eq.trans (congrArg₂ ix2 (Fin.ext ?_) (Fin.ext ?_)) (eq_ix2 z).symm)
  · have h := (cfg1.win 6).rect_emb_val t z 0
    rw [(index1_6 t).1] at h
    exact h.trans (by show 0 * _ + _ = _; omega)
  · have h := (cfg1.win 6).rect_emb_val t z 1
    rw [(index1_6 t).2] at h
    exact h.trans (by show 0 * _ + _ = _; omega)
theorem emb_w_7 (t : Fin cfg1.N) (z : S32x1.Idx) : ((cfg1.win 7).blk t).view.emb z = z := by
  refine (eq_ix2 _).trans (Eq.trans (congrArg₂ ix2 (Fin.ext ?_) (Fin.ext ?_)) (eq_ix2 z).symm)
  · have h := (cfg1.win 7).rect_emb_val t z 0
    rw [(index1_7 t).1] at h
    exact h.trans (by show 0 * _ + _ = _; omega)
  · have h := (cfg1.win 7).rect_emb_val t z 1
    rw [(index1_7 t).2] at h
    exact h.trans (by show 0 * _ + _ = _; omega)
theorem emb_w_8 (t : Fin cfg1.N) (z : S32x1.Idx) : ((cfg1.win 8).blk t).view.emb z = z := by
  refine (eq_ix2 _).trans (Eq.trans (congrArg₂ ix2 (Fin.ext ?_) (Fin.ext ?_)) (eq_ix2 z).symm)
  · have h := (cfg1.win 8).rect_emb_val t z 0
    rw [(index1_8 t).1] at h
    exact h.trans (by show 0 * _ + _ = _; omega)
  · have h := (cfg1.win 8).rect_emb_val t z 1
    rw [(index1_8 t).2] at h
    exact h.trans (by show 0 * _ + _ = _; omega)
theorem emb_w_9 (t : Fin cfg1.N) (z : S1x1.Idx) : ((cfg1.win 9).blk t).view.emb z = z := by
  refine (eq_ix2 _).trans (Eq.trans (congrArg₂ ix2 (Fin.ext ?_) (Fin.ext ?_)) (eq_ix2 z).symm)
  · have h := (cfg1.win 9).rect_emb_val t z 0
    rw [(index1_9 t).1] at h
    exact h.trans (by show 0 * _ + _ = _; omega)
  · have h := (cfg1.win 9).rect_emb_val t z 1
    rw [(index1_9 t).2] at h
    exact h.trans (by show 0 * _ + _ = _; omega)

variable (c : Dev nD) (A1 : (w : Fin 12) → Buf (Elt Ideal) ((cfg1.win w).arr.view.loc (c.tc : Thread nD τ)))

/-- The edge blocks' entries at edge `e` are the arrays'. -/
theorem iblk_e_0 (e : Fin 6400000) : iblk1 c A1 0 (ptE e) (offE e) = A1 0 (ix1 e : S6400000.Idx) :=
  (cast_eq rfl _).trans (congrArg (A1 0) (emb_e_0 e))
theorem iblk_e_1 (e : Fin 6400000) : iblk1 c A1 1 (ptE e) (offE e) = A1 1 (ix1 e : S6400000.Idx) :=
  (cast_eq rfl _).trans (congrArg (A1 1) (emb_e_1 e))
theorem iblk_e_2 (e : Fin 6400000) : iblk1 c A1 2 (ptE e) (offE e) = A1 2 (ix1 e : S6400000.Idx) :=
  (cast_eq rfl _).trans (congrArg (A1 2) (emb_e_2 e))
theorem iblk_e_3 (e : Fin 6400000) : iblk1 c A1 3 (ptE e) (offE e) = A1 3 (ix1 e : S6400000.Idx) :=
  (cast_eq rfl _).trans (congrArg (A1 3) (emb_e_3 e))
/-- The weight blocks are the weight arrays. -/
theorem iblk_w_4 (t : Fin cfg1.N) (z : S32x4.Idx) : iblk1 c A1 4 t z = A1 4 z :=
  (cast_eq rfl _).trans (congrArg (A1 4) (emb_w_4 t z))
theorem iblk_w_5 (t : Fin cfg1.N) (z : S32x1.Idx) : iblk1 c A1 5 t z = A1 5 z :=
  (cast_eq rfl _).trans (congrArg (A1 5) (emb_w_5 t z))
theorem iblk_w_6 (t : Fin cfg1.N) (z : S32x32.Idx) : iblk1 c A1 6 t z = A1 6 z :=
  (cast_eq rfl _).trans (congrArg (A1 6) (emb_w_6 t z))
theorem iblk_w_7 (t : Fin cfg1.N) (z : S32x1.Idx) : iblk1 c A1 7 t z = A1 7 z :=
  (cast_eq rfl _).trans (congrArg (A1 7) (emb_w_7 t z))
theorem iblk_w_8 (t : Fin cfg1.N) (z : S32x1.Idx) : iblk1 c A1 8 t z = A1 8 z :=
  (cast_eq rfl _).trans (congrArg (A1 8) (emb_w_8 t z))
theorem iblk_w_9 (t : Fin cfg1.N) (z : S1x1.Idx) : iblk1 c A1 9 t z = A1 9 z :=
  (cast_eq rfl _).trans (congrArg (A1 9) (emb_w_9 t z))

/-- The displacement components of edge `e`. -/
def dE (e : Fin 6400000) : Fin 3 → EReal := fun k =>
  if k.val = 0 then A1 1 (ix1 e : S6400000.Idx) else if k.val = 1 then A1 2 (ix1 e : S6400000.Idx) else A1 3 (ix1 e : S6400000.Idx)

theorem dE_0 (e : Fin 6400000) : dE c A1 e 0 = A1 1 (ix1 e : S6400000.Idx) := rfl
theorem dE_1 (e : Fin 6400000) : dE c A1 e 1 = A1 2 (ix1 e : S6400000.Idx) := rfl
theorem dE_2 (e : Fin 6400000) : dE c A1 e 2 = A1 3 (ix1 e : S6400000.Idx) := rfl

theorem siluI_eq (z : EReal) : siluI z = Rf.silu z := by unfold siluI Rf.silu; rw [zero_sub]

section Edge

variable (O : CellTallies nD τ sig (HIx 2)) (B : Set (SemLoc sig × HIx 2))
  (W1 : (⟨2, ![32, 4]⟩ : Shape).Idx → EReal) (b1 : (⟨1, ![32]⟩ : Shape).Idx → EReal) (W2 : (⟨2, ![32, 32]⟩ : Shape).Idx → EReal)
  (b2 : (⟨1, ![32]⟩ : Shape).Idx → EReal) (W3 : (⟨2, ![1, 32]⟩ : Shape).Idx → EReal) (b3 : (⟨1, ![1]⟩ : Shape).Idx → EReal)
  (h4 : ∀ i : S32x4.Idx, A1 4 i = W1 i) (h5 : ∀ k : Fin 32, A1 5 (ix2 k (0 : Fin 1) : S32x1.Idx) = b1 (ix1 k))
  (h6 : ∀ i : S32x32.Idx, A1 6 i = W2 i) (h7 : ∀ k : Fin 32, A1 7 (ix2 k (0 : Fin 1) : S32x1.Idx) = b2 (ix1 k))
  (h8 : ∀ k : Fin 32, A1 8 (ix2 k (0 : Fin 1) : S32x1.Idx) = W3 (ix2 (0 : Fin 1) k))
  (h9 : A1 9 (ix2 (0 : Fin 1) (0 : Fin 1) : S1x1.Idx) = b3 (ix1 (0 : Fin 1)))

include h4 h5 h6 h7 h8 h9

/-- THE FORWARD OUTPUT AT EDGE `e`: the fused per-edge network on the edge's length and displacement. -/
theorem tf_edge_kT (e : Fin 6400000) :
    (dat1 c A1 O B).arrAt 10 cfg1.N (ix1 e : S6400000.Idx)
      = Rf.kT W1 b1 W2 b2 W3 b3 false (Ideal.sqrt (A1 0 (ix1 e : S6400000.Idx))) (dE c A1 e) := by
  have h := tf_elem c A1 O B (ptE e) (offE e)
  rw [emb_e_10 e] at h
  rw [h, tf_edge_closed]
  simp only [iblk_e_0, iblk_e_1, iblk_e_2, iblk_e_3, iblk_w_4, iblk_w_5, iblk_w_6, iblk_w_7, iblk_w_8, iblk_w_9, h4, h5, h6, h7, h8, h9,
    siluI_eq]
  unfold Rf.kT Rf.kOut Rf.kL2 Rf.kH1f Rf.kA Rf.kB
  simp only [dE_0, dE_1, dE_2, Bool.false_eq_true, if_false, ↓reduceIte]

/-- THE BACKWARD OUTPUT AT EDGE `e`. -/
theorem tb_edge_kT (e : Fin 6400000) :
    (dat1 c A1 O B).arrAt 11 cfg1.N (ix1 e : S6400000.Idx)
      = Rf.kT W1 b1 W2 b2 W3 b3 true (Ideal.sqrt (A1 0 (ix1 e : S6400000.Idx))) (dE c A1 e) := by
  have h := tb_elem c A1 O B (ptE e) (offE e)
  rw [emb_e_11 e] at h
  rw [h, tb_edge_closed]
  simp only [iblk_e_0, iblk_e_1, iblk_e_2, iblk_e_3, iblk_w_4, iblk_w_5, iblk_w_6, iblk_w_7, iblk_w_8, iblk_w_9, h4, h5, h6, h7, h8, h9,
    siluI_eq]
  unfold Rf.kT Rf.kOut Rf.kL2 Rf.kH1b Rf.kA Rf.kB
  simp only [dE_0, dE_1, dE_2, if_true, ↓reduceIte]

end Edge

end Cert.Proof.KI.Tc

end
-- ==== Proof.CombineElem.lean ====
import Idealize.ShloMosaic.Lib.Pipeline.FrameBody
import Idealize.ShloMosaic.Lib.Pipeline.Value
import Idealize.ShloMosaic.Lib.Ring
import Idealize.ShloMosaic.Lib.Tactic
import Idealize.ShloMosaic.Lib.ValueIdx
import Idealize.ShloMosaic.PureOps.Ideal.Laws
import proofs.«204254_g40355512713743_retrytranche2_1723_12_alg».proof.Proof.CombineIdeal
set_option maxRecDepth 16384

noncomputable section

namespace Cert.Proof.KI.Tc

open Cert.Proof.KI

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 2) (Elt F) ℕ UU ℕ

/-! ## custom_call 3's result, element by element

Column `8192·t + y` of the result is element `y` of its block `t`, for `y` inside the array; at the ideal values it is
the combination of the 32 partial sums of that column of the input array. -/

variable (c : Dev nD) (A3 : (w : Fin 2) → Buf (Elt F) ((cfg3.win w).arr.view.loc (c.tc : Thread nD τ)))
    (O : CellTallies nD τ sig (HIx 2)) (B : Set (SemLoc sig × HIx 2))

/-- The result at the array index under element `y` of block `t`'s part inside the array. -/
theorem s_elem (t : Fin cfg3.N) (y : (win3_1.xblock (grid3.coords t)).Idx) :
    (dat3 c A3 O B).arrAt 1 cfg3.N (((cfg3.win 1).blk t).view.emb y)
      = k3_pay1 (in3 c A3 t) (win3_1.xinj (grid3.coords t) y) :=
  (cast_eq _ _).symm.trans (congrFun (s_block c A3 O B t) y)

/-- Row `rr` of the column of the input's block under a moved column of the result's is moved too. -/
theorem moved3 (t : Fin cfg3.N) (y : (win3_1.xblock (grid3.coords t)).Idx) (rr : Fin 32) :
    win3_0.moved (grid3.coords t) (rc32 rr (win3_1.xinj (grid3.coords t) y 1)) = true := by
  obtain ⟨h0, h1⟩ := xsize3 t
  refine (win3_0.moved_iff _ _).mpr fun a => ?_
  match a with
  | ⟨0, _⟩ => show rr.val < win3_0.xsize (grid3.coords t) 0; rw [h0]; exact rr.isLt
  | ⟨1, _⟩ => exact Nat.lt_of_lt_of_le (y 1).isLt h1

/-- That element, as an index of the part of the input's block inside the array. -/
def col0 (t : Fin cfg3.N) (y : (win3_1.xblock (grid3.coords t)).Idx) (rr : Fin 32) : (win3_0.xblock (grid3.coords t)).Idx :=
  fun a => ⟨(rc32 rr (win3_1.xinj (grid3.coords t) y 1) a).val, (win3_0.moved_iff _ _).mp (moved3 t y rr) a⟩

theorem col0_val0 (t : Fin cfg3.N) (y : (win3_1.xblock (grid3.coords t)).Idx) (rr : Fin 32) : (col0 t y rr 0).val = rr.val := rfl
theorem col0_val1 (t : Fin cfg3.N) (y : (win3_1.xblock (grid3.coords t)).Idx) (rr : Fin 32) : (col0 t y rr 1).val = (y 1).val := rfl

/-- The input's staging contents there are the array's element under it. -/
theorem in3_col (t : Fin cfg3.N) (y : (win3_1.xblock (grid3.coords t)).Idx) (rr : Fin 32) :
    in3 c A3 t (rc32 rr (win3_1.xinj (grid3.coords t) y 1)) = A3 0 (((cfg3.win 0).blk t).view.emb (col0 t y rr)) := by
  unfold in3 Pipeline.Window.fill
  rw [dif_pos (moved3 t y rr)]
  exact cast_eq rfl _

/-- The block index of the input's window at point `t` is (0, t), as the result's. -/
theorem index3_0 : ∀ t : Fin cfg3.N, (cfg3.win 0).index t 0 = 0 ∧ (cfg3.win 0).index t 1 = t.val :=
  (by decide +kernel : ∀ t : Fin grid3.N, win3_0.index t 0 = 0 ∧ win3_0.index t 1 = t.val)
theorem index3_1' : ∀ t : Fin cfg3.N, (cfg3.win 1).index t 0 = 0 :=
  (by decide +kernel : ∀ t : Fin grid3.N, win3_1.index t 0 = 0)

/-- The array indices: row and column under an element of a block. -/
theorem emb3_1_val (t : Fin cfg3.N) (y : (win3_1.xblock (grid3.coords t)).Idx) :
    ((((cfg3.win 1).rect t).emb y) 0).val = (y 0).val ∧ ((((cfg3.win 1).rect t).emb y) 1).val = t.val * 8192 + (y 1).val := by
  have h0 := (cfg3.win 1).rect_emb_val t y 0
  have h1 := (cfg3.win 1).rect_emb_val t y 1
  rw [index3_1'] at h0; rw [index3_1] at h1
  exact ⟨by rw [h0]; show 0 * _ + _ = _; omega, h1⟩

theorem emb3_0_val (t : Fin cfg3.N) (z : (win3_0.xblock (grid3.coords t)).Idx) :
    ((((cfg3.win 0).rect t).emb z) 0).val = (z 0).val ∧ ((((cfg3.win 0).rect t).emb z) 1).val = t.val * 8192 + (z 1).val := by
  have h0 := (cfg3.win 0).rect_emb_val t z 0
  have h1 := (cfg3.win 0).rect_emb_val t z 1
  rw [(index3_0 t).1] at h0; rw [(index3_0 t).2] at h1
  exact ⟨by rw [h0]; show 0 * _ + _ = _; omega, h1⟩

end Cert.Proof.KI.Tc

namespace Cert.Proof.KI.Tc

open Cert.Proof.KI
open Cert.KernelIdeal Cert.KernelIdeal.Gen
open Idealize.ShloMosaic Idealize.ShloMosaic.TcCoe
open Idealize.ShloMosaic.SparseCore.Cfg (HIx)
open Idealize.ShloMosaic.Pipeline (Dat)

/-- At the ideal values: column `8192·t + y` of the result is, of the same column of the input array, the first octet's
    sum over the greater of one and the third's, plus the second's over the greater of one and the fourth's. -/
theorem s_elem_ideal (c : Dev nD) (A3 : (w : Fin 2) → Buf (Elt Ideal) ((cfg3.win w).arr.view.loc (c.tc : Thread nD τ)))
    (O : CellTallies nD τ sig (HIx 2)) (B : Set (SemLoc sig × HIx 2))
    (t : Fin cfg3.N) (y : (win3_1.xblock (grid3.coords t)).Idx) :
    (dat3 c A3 O B).arrAt 1 cfg3.N (((cfg3.win 1).blk t).view.emb y)
      = Ideal.div (∑ r : Fin 8, A3 0 (((cfg3.win 0).blk t).view.emb (col0 t y ⟨0 + r.val, by have := r.isLt; omega⟩)))
            (max (∑ r : Fin 8, A3 0 (((cfg3.win 0).blk t).view.emb (col0 t y ⟨16 + r.val, by have := r.isLt; omega⟩))) 1)
        + Ideal.div (∑ r : Fin 8, A3 0 (((cfg3.win 0).blk t).view.emb (col0 t y ⟨8 + r.val, by have := r.isLt; omega⟩)))
            (max (∑ r : Fin 8, A3 0 (((cfg3.win 0).blk t).view.emb (col0 t y ⟨24 + r.val, by have := r.isLt; omega⟩))) 1) := by
  rw [s_elem, k3_pay1_ideal]
  simp only [in3_col]

end Cert.Proof.KI.Tc

end
-- ==== Proof.CombineNode.lean ====
import Idealize.ShloMosaic.Lib.Pipeline.FrameBody
import Idealize.ShloMosaic.Lib.Pipeline.Value
import Idealize.ShloMosaic.Lib.Ring
import Idealize.ShloMosaic.Lib.Tactic
import Idealize.ShloMosaic.Lib.ValueIdx
import Idealize.ShloMosaic.PureOps.Ideal.Laws
import proofs.«204254_g40355512713743_retrytranche2_1723_12_alg».proof.Proof.CombineElem
set_option maxRecDepth 16384

noncomputable section

namespace Cert.Proof.KI.Tc

open Cert.Proof.KI

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 2) (Elt F) ℕ UU ℕ

/-! ## custom_call 3's result at a node number, at the ideal values

Node `n` lies in block `n / 8192` at column `n % 8192`, which is inside the array. -/

open Idealize.ShloMosaic.ValueIdx

/-- The grid point of node `n`. -/
def ptN (n : Fin 100000) : Fin cfg3.N := ⟨n.val / 8192, by rw [show cfg3.N = 13 from N_3]; have := n.isLt; omega⟩

/-- The extents the result's transfers move: one row, and the block's columns inside the array. -/
theorem xsize3_1 : ∀ t : Fin grid3.N, win3_1.xsize (grid3.coords t) 0 = 1
    ∧ win3_1.xsize (grid3.coords t) 1 = min 8192 (100000 - t.val * 8192) := by decide +kernel

theorem offN_lt (n : Fin 100000) : n.val % 8192 < win3_1.xsize (grid3.coords (ptN n)) 1 := by
  rw [(xsize3_1 (ptN n)).2]
  show n.val % 8192 < min 8192 (100000 - n.val / 8192 * 8192)
  have := n.isLt
  omega

/-- Node `n`'s place in the part of its block inside the array. -/
def offN (n : Fin 100000) : (win3_1.xblock (grid3.coords (ptN n))).Idx := fun a =>
  match a with
  | ⟨0, _⟩ => ⟨0, by show 0 < win3_1.xsize (grid3.coords (ptN n)) 0; rw [(xsize3_1 (ptN n)).1]; exact Nat.one_pos⟩
  | ⟨1, _⟩ => ⟨n.val % 8192, offN_lt n⟩

theorem offN_val0 (n : Fin 100000) : (offN n 0).val = 0 := rfl
theorem offN_val1 (n : Fin 100000) : (offN n 1).val = n.val % 8192 := rfl

theorem ptN_off (n : Fin 100000) : (ptN n).val * 8192 + n.val % 8192 = n.val := by
  show n.val / 8192 * 8192 + n.val % 8192 = n.val
  omega

/-- The array index under node `n`'s place in its block is (0, n); -/
theorem emb_n_1 (n : Fin 100000) : ((cfg3.win 1).blk (ptN n)).view.emb (offN n) = (ix2 (0 : Fin 1) n : S1x100000.Idx) := by
  obtain ⟨h0, h1⟩ := emb3_1_val (ptN n) (offN n)
  refine (eq_ix2 _).trans (congrArg₂ ix2 (Fin.ext ?_) (Fin.ext ?_))
  · exact h0.trans (offN_val0 n)
  · exact h1.trans ((congrArg (fun z => (ptN n).val * 8192 + z) (offN_val1 n)).trans (ptN_off n))

/-- and the input's under row `rr` of the same column is (rr, n). -/
theorem emb_n_0 (n : Fin 100000) (rr : Fin 32) :
    ((cfg3.win 0).blk (ptN n)).view.emb (col0 (ptN n) (offN n) rr) = (ix2 rr n : S32x100000.Idx) := by
  obtain ⟨h0, h1⟩ := emb3_0_val (ptN n) (col0 (ptN n) (offN n) rr)
  refine (eq_ix2 _).trans (congrArg₂ ix2 (Fin.ext ?_) (Fin.ext ?_))
  · exact h0.trans (col0_val0 _ _ rr)
  · exact h1.trans ((congrArg (fun z => (ptN n).val * 8192 + z) ((col0_val1 _ _ rr).trans (offN_val1 n))).trans (ptN_off n))

/-- THE RESULT AT NODE `n`, at the ideal values: of column `n` of the [32, 100000] array of partial sums, the first
    octet's sum over the greater of one and the third's, plus the second's over the greater of one and the fourth's. -/
theorem s_node (c : Dev nD) (A3 : (w : Fin 2) → Buf (Elt Ideal) ((cfg3.win w).arr.view.loc (c.tc : Thread nD τ)))
    (O : CellTallies nD τ sig (HIx 2)) (B : Set (SemLoc sig × HIx 2)) (n : Fin 100000) :
    (dat3 c A3 O B).arrAt 1 cfg3.N (ix2 (0 : Fin 1) n : S1x100000.Idx)
      = Ideal.div (∑ r : Fin 8, A3 0 (ix2 (⟨0 + r.val, by have := r.isLt; omega⟩ : Fin 32) n : S32x100000.Idx))
            (max (∑ r : Fin 8, A3 0 (ix2 (⟨16 + r.val, by have := r.isLt; omega⟩ : Fin 32) n : S32x100000.Idx)) 1)
        + Ideal.div (∑ r : Fin 8, A3 0 (ix2 (⟨8 + r.val, by have := r.isLt; omega⟩ : Fin 32) n : S32x100000.Idx))
            (max (∑ r : Fin 8, A3 0 (ix2 (⟨24 + r.val, by have := r.isLt; omega⟩ : Fin 32) n : S32x100000.Idx)) 1) := by
  have h := s_elem_ideal c A3 O B (ptN n) (offN n)
  rw [emb_n_1 n] at h
  have key : ∀ rr : Fin 32, A3 0 (((cfg3.win 0).blk (ptN n)).view.emb (col0 (ptN n) (offN n) rr)) = A3 0 (ix2 rr n : S32x100000.Idx) :=
    fun rr => congrArg (A3 0) (emb_n_0 n rr)
  refine h.trans ?_
  exact congrArg₂ (· + ·)
    (congrArg₂ Ideal.div (Finset.sum_congr rfl fun r _ => key _) (congrArg (fun z => max z 1) (Finset.sum_congr rfl fun r _ => key _)))
    (congrArg₂ Ideal.div (Finset.sum_congr rfl fun r _ => key _) (congrArg (fun z => max z 1) (Finset.sum_congr rfl fun r _ => key _)))

end Cert.Proof.KI.Tc

end
-- ==== Proof.ValueGlue.lean ====
/-
  The kernel's result array is the reference's specification of the launched arguments.

  Along the program the arrays hold: the flattened index array, the flattened displacement array and the flattened
  transposed table (host reshapes of the arguments); the squared lengths and the three displacement components (the
  gather call); the reshaped biases and last-layer weights (host reshapes); the forward and backward messages (the
  per-edge network region); the 32 partial rows (the scatter call), reshaped to 32 × 100000; the combined row (the
  combination region), reshaped to a column. Each reshape is read entry by entry, the regions' outputs by their
  per-edge and per-node closed forms, and the pure identity between the chunked arrangement and the specification
  closes the chain.
-/
import proofs.«204254_g40355512713743_retrytranche2_1723_12_alg».proof.Proof.MainB
import proofs.«204254_g40355512713743_retrytranche2_1723_12_alg».proof.Proof.KernelValue
import proofs.«204254_g40355512713743_retrytranche2_1723_12_alg».proof.Proof.Reshapes
import proofs.«204254_g40355512713743_retrytranche2_1723_12_alg».proof.Proof.MlpEdge
import proofs.«204254_g40355512713743_retrytranche2_1723_12_alg».proof.Proof.CombineNode

noncomputable section

open scoped BigOperators

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx)
open Idealize.SL.Sem
open Idealize.ShloMosaic.TcCoe

variable (m : (ℓ : Loc nD τ sig) → Buf (Elt Ideal) ℓ) (c : Dev nD)

/-! ## An argument array is as launched at every stage before the regions -/

abbrev WA : Finset (DevRef τ sig) := {rV main_v0, rV main_v1, rV main_v2, rV main_v3}
abbrev WB : Finset (DevRef τ sig) := {rV main_v0, rV main_v1, rV main_v2, rV main_v3, rV main_v4_0, rV main_v4_1, rV main_v4_2, rV main_v4_3}
abbrev WC : Finset (DevRef τ sig) :=
  {rV main_v0, rV main_v1, rV main_v2, rV main_v3, rV main_v4_0, rV main_v4_1, rV main_v4_2, rV main_v4_3, rV main_v5, rV main_v6, rV main_v7, rV main_v8}

theorem Va_of_input (b : DevRef τ sig) (hb : b ∉ (WA : Finset (DevRef τ sig))) : Va m c b = m (c, b) := by
  have w1 : ∀ x, x ∈ (WA : Finset (DevRef τ sig)) → b ∉ ({x} : Finset (DevRef τ sig)) :=
    fun x hx h => hb (Finset.mem_singleton.mp h ▸ hx)
  unfold Va
  rw [(hop3 (F := Ideal)).result_of_not_mem _ (w1 (rV main_v3) (by decide)), (hop2 (F := Ideal)).result_of_not_mem _ (w1 (rV main_v2) (by decide)),
    (hop1 (F := Ideal)).result_of_not_mem _ (w1 (rV main_v1) (by decide)), (hop0 (F := Ideal)).result_of_not_mem _ (w1 (rV main_v0) (by decide))]
  rfl

theorem Vb_of_input (b : DevRef τ sig) (hb : b ∉ (WB : Finset (DevRef τ sig))) : Vb m c b = m (c, b) := by
  have hne : ∀ x ∈ (WB : Finset (DevRef τ sig)), b ≠ x := fun x hx e => hb (e ▸ hx)
  rw [Vb_of_not_out m c b (hne _ (by decide)) (hne _ (by decide)) (hne _ (by decide)) (hne _ (by decide))]
  exact Va_of_input m c b fun h => hb ((by decide : (WA : Finset (DevRef τ sig)) ⊆ WB) h)

theorem Vc_of_input (b : DevRef τ sig) (hb : b ∉ (WC : Finset (DevRef τ sig))) : Vc m c b = m (c, b) := by
  have hne : ∀ x ∈ (WC : Finset (DevRef τ sig)), b ≠ x := fun x hx e => hb (e ▸ hx)
  have w1 : ∀ x, x ∈ (WC : Finset (DevRef τ sig)) → b ∉ ({x} : Finset (DevRef τ sig)) := fun x hx h => hne x hx (Finset.mem_singleton.mp h)
  unfold Vc
  rw [(hop8 (F := Ideal)).result_of_not_mem _ (w1 (rV main_v8) (by decide)), (hop7 (F := Ideal)).result_of_not_mem _ (w1 (rV main_v7) (by decide)),
    (hop6 (F := Ideal)).result_of_not_mem _ (w1 (rV main_v6) (by decide)), (hop5 (F := Ideal)).result_of_not_mem _ (w1 (rV main_v5) (by decide))]
  exact Vb_of_input m c b fun h => hb ((by decide : (WB : Finset (DevRef τ sig)) ⊆ WC) h)

/-! ## The flattened inputs -/

theorem eiOf_eq : eiOf m c = shapeCast S12800000 (m ((c.tc : Thread nD τ).loc main_arg0)) shapeCasts_S2x6400000_S12800000 := by
  show Va m c (rV main_v0) = _
  unfold Va
  rw [(hop3 (F := Ideal)).result_of_not_mem _ (show rV main_v0 ∉ ({rV main_v3} : Finset (DevRef τ sig)) by decide), (hop2 (F := Ideal)).result_of_not_mem _ (show rV main_v0 ∉ ({rV main_v2} : Finset (DevRef τ sig)) by decide),
    (hop1 (F := Ideal)).result_of_not_mem _ (show rV main_v0 ∉ ({rV main_v1} : Finset (DevRef τ sig)) by decide), StableHlo.reshape_result']
  rfl

theorem rfOf_eq : rfOf m c = shapeCast S19200000 (m ((c.tc : Thread nD τ).loc main_arg1)) shapeCasts_S6400000x3_S19200000 := by
  show Va m c (rV main_v1) = _
  unfold Va
  rw [(hop3 (F := Ideal)).result_of_not_mem _ (show rV main_v1 ∉ ({rV main_v3} : Finset (DevRef τ sig)) by decide), (hop2 (F := Ideal)).result_of_not_mem _ (show rV main_v1 ∉ ({rV main_v2} : Finset (DevRef τ sig)) by decide),
    StableHlo.reshape_result', (hop0 (F := Ideal)).result_of_not_mem _ (show rV main_arg1 ∉ ({rV main_v0} : Finset (DevRef τ sig)) by decide)]
  rfl

theorem vtOf_eq : vtOf m c = shapeCast S300000 (transpose S3x100000 [1, 0] (m ((c.tc : Thread nD τ).loc main_arg2)) transposes_S100000x3_S3x100000_1_0) shapeCasts_S3x100000_S300000 := by
  show Va m c (rV main_v3) = _
  unfold Va
  rw [StableHlo.reshape_result', StableHlo.unary_result', (hop1 (F := Ideal)).result_of_not_mem _ (show rV main_arg2 ∉ ({rV main_v1} : Finset (DevRef τ sig)) by decide),
    (hop0 (F := Ideal)).result_of_not_mem _ (show rV main_arg2 ∉ ({rV main_v0} : Finset (DevRef τ sig)) by decide)]
  rfl

/-! ## The first region's twelve arrays -/

theorem Vc_of_Vb (b : DevRef τ sig) (h5 : b ∉ ({rV main_v5} : Finset (DevRef τ sig))) (h6 : b ∉ ({rV main_v6} : Finset (DevRef τ sig)))
    (h7 : b ∉ ({rV main_v7} : Finset (DevRef τ sig))) (h8 : b ∉ ({rV main_v8} : Finset (DevRef τ sig))) : Vc m c b = Vb m c b := by
  unfold Vc
  rw [(hop8 (F := Ideal)).result_of_not_mem _ h8, (hop7 (F := Ideal)).result_of_not_mem _ h7, (hop6 (F := Ideal)).result_of_not_mem _ h6,
    (hop5 (F := Ideal)).result_of_not_mem _ h5]

theorem A1_0 : A1 m c 0 = Ga.specR2 (rfOf m c) :=
  (Vc_of_Vb m c (rV main_v4_0) (by decide) (by decide) (by decide) (by decide)).trans (Vb_v40 m c)
theorem A1_1 : A1 m c 1 = Ga.specD 0 (eiOf m c) (vtOf m c) :=
  (Vc_of_Vb m c (rV main_v4_1) (by decide) (by decide) (by decide) (by decide)).trans (Vb_v41 m c)
theorem A1_2 : A1 m c 2 = Ga.specD 1 (eiOf m c) (vtOf m c) :=
  (Vc_of_Vb m c (rV main_v4_2) (by decide) (by decide) (by decide) (by decide)).trans (Vb_v42 m c)
theorem A1_3 : A1 m c 3 = Ga.specD 2 (eiOf m c) (vtOf m c) :=
  (Vc_of_Vb m c (rV main_v4_3) (by decide) (by decide) (by decide) (by decide)).trans (Vb_v43 m c)

theorem A1_4 : A1 m c 4 = (m ((c.tc : Thread nD τ).loc main_arg3)) := Vc_of_input m c (rV main_arg3) (by decide)
theorem A1_6 : A1 m c 6 = (m ((c.tc : Thread nD τ).loc main_arg5)) := Vc_of_input m c (rV main_arg5) (by decide)

theorem A1_5 : A1 m c 5 = shapeCast S32x1 (m ((c.tc : Thread nD τ).loc main_arg4)) shapeCasts_S32_S32x1 := by
  show Vc m c (rV main_v5) = _
  unfold Vc
  rw [(hop8 (F := Ideal)).result_of_not_mem _ (show rV main_v5 ∉ ({rV main_v8} : Finset (DevRef τ sig)) by decide), (hop7 (F := Ideal)).result_of_not_mem _ (show rV main_v5 ∉ ({rV main_v7} : Finset (DevRef τ sig)) by decide),
    (hop6 (F := Ideal)).result_of_not_mem _ (show rV main_v5 ∉ ({rV main_v6} : Finset (DevRef τ sig)) by decide), StableHlo.reshape_result', Vb_of_input m c (rV main_arg4) (by decide)]
  rfl

theorem A1_7 : A1 m c 7 = shapeCast S32x1 (m ((c.tc : Thread nD τ).loc main_arg6)) shapeCasts_S32_S32x1 := by
  show Vc m c (rV main_v6) = _
  unfold Vc
  rw [(hop8 (F := Ideal)).result_of_not_mem _ (show rV main_v6 ∉ ({rV main_v8} : Finset (DevRef τ sig)) by decide), (hop7 (F := Ideal)).result_of_not_mem _ (show rV main_v6 ∉ ({rV main_v7} : Finset (DevRef τ sig)) by decide),
    StableHlo.reshape_result', (hop5 (F := Ideal)).result_of_not_mem _ (show rV main_arg6 ∉ ({rV main_v5} : Finset (DevRef τ sig)) by decide), Vb_of_input m c (rV main_arg6) (by decide)]
  rfl

theorem A1_8 : A1 m c 8 = shapeCast S32x1 (m ((c.tc : Thread nD τ).loc main_arg7)) shapeCasts_S1x32_S32x1 := by
  show Vc m c (rV main_v7) = _
  unfold Vc
  rw [(hop8 (F := Ideal)).result_of_not_mem _ (show rV main_v7 ∉ ({rV main_v8} : Finset (DevRef τ sig)) by decide), StableHlo.reshape_result',
    (hop6 (F := Ideal)).result_of_not_mem _ (show rV main_arg7 ∉ ({rV main_v6} : Finset (DevRef τ sig)) by decide), (hop5 (F := Ideal)).result_of_not_mem _ (show rV main_arg7 ∉ ({rV main_v5} : Finset (DevRef τ sig)) by decide), Vb_of_input m c (rV main_arg7) (by decide)]
  rfl

theorem A1_9 : A1 m c 9 = shapeCast S1x1 (m ((c.tc : Thread nD τ).loc main_arg8)) shapeCasts_S1_S1x1 := by
  show Vc m c (rV main_v8) = _
  unfold Vc
  rw [StableHlo.reshape_result', (hop7 (F := Ideal)).result_of_not_mem _ (show rV main_arg8 ∉ ({rV main_v7} : Finset (DevRef τ sig)) by decide),
    (hop6 (F := Ideal)).result_of_not_mem _ (show rV main_arg8 ∉ ({rV main_v6} : Finset (DevRef τ sig)) by decide), (hop5 (F := Ideal)).result_of_not_mem _ (show rV main_arg8 ∉ ({rV main_v5} : Finset (DevRef τ sig)) by decide), Vb_of_input m c (rV main_arg8) (by decide)]
  rfl

/-- The first region's weight and bias arrays, entry by entry, are the launched arguments' (the biases and the last
    layer's weights through their reshapes to columns). -/
theorem A1_h4 (i : S32x4.Idx) : A1 m c 4 i = (m ((c.tc : Thread nD τ).loc main_arg3)) i := by rw [A1_4]
theorem A1_h5 (k : Fin 32) : A1 m c 5 (ix2 k (0 : Fin 1) : S32x1.Idx) = (m ((c.tc : Thread nD τ).loc main_arg4)) (ix1 k) := by
  rw [A1_5]; exact Rf.col_of_vec32 _ _ k 0
theorem A1_h6 (i : S32x32.Idx) : A1 m c 6 i = (m ((c.tc : Thread nD τ).loc main_arg5)) i := by rw [A1_6]
theorem A1_h7 (k : Fin 32) : A1 m c 7 (ix2 k (0 : Fin 1) : S32x1.Idx) = (m ((c.tc : Thread nD τ).loc main_arg6)) (ix1 k) := by
  rw [A1_7]; exact Rf.col_of_vec32 _ _ k 0
theorem A1_h8 (k : Fin 32) : A1 m c 8 (ix2 k (0 : Fin 1) : S32x1.Idx) = (m ((c.tc : Thread nD τ).loc main_arg7)) (ix2 (0 : Fin 1) k) := by
  rw [A1_8]; exact Rf.col_of_row32 _ _ k 0
theorem A1_h9 : A1 m c 9 (ix2 (0 : Fin 1) (0 : Fin 1) : S1x1.Idx) = (m ((c.tc : Thread nD τ).loc main_arg8)) (ix1 (0 : Fin 1)) := by
  rw [A1_9]; exact Rf.one_of_vec1 _ _ 0 0

/-! ## The partial rows as 32 rows, and the result column -/

theorem Vf_v11 : Vf m c (rV main_v11) = shapeCast S32x100000 (Sc.specPart (eiOf m c) (tfR m c) (tbR m c)) shapeCasts_S3200000_S32x100000 := by
  unfold Vf
  rw [StableHlo.reshape_result', Ve_v10]
  rfl

theorem Vh_v13 (f : Buf (Elt Ideal) ((c.tc : Thread nD τ).loc main_v12)) :
    Vh m c f (rV main_v13) = shapeCast S100000x1 f shapeCasts_S1x100000_S100000x1 := by
  unfold Vh
  rw [StableHlo.reshape_result', Vg_v12]
  rfl

/-! ## The result -/

/-- The kernel's result is the specification of the launched arguments, given the per-edge closed forms of the network
    region's two outputs and the per-node closed form of the combination region's output. -/
theorem kernel_result_eq_of
    (hok : Rf.InputsOK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
    (Htf : ∀ e : Fin 6400000, tfR m c (ix1 e)
      = Rf.kT (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) false (Ideal.sqrt (A1 m c 0 (ix1 e)))
          (fun k => if k.val = 0 then A1 m c 1 (ix1 e) else if k.val = 1 then A1 m c 2 (ix1 e) else A1 m c 3 (ix1 e)))
    (Htb : ∀ e : Fin 6400000, tbR m c (ix1 e)
      = Rf.kT (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) true (Ideal.sqrt (A1 m c 0 (ix1 e)))
          (fun k => if k.val = 0 then A1 m c 1 (ix1 e) else if k.val = 1 then A1 m c 2 (ix1 e) else A1 m c 3 (ix1 e)))
    (Hs : ∀ n : Fin 100000, sR m c (ix2 (0 : Fin 1) n)
      = Ideal.div (∑ r : Fin 8, A3 m c 0 (ix2 (⟨0 + r.val, by have := r.isLt; omega⟩ : Fin 32) n))
          (max (∑ r : Fin 8, A3 m c 0 (ix2 (⟨16 + r.val, by have := r.isLt; omega⟩ : Fin 32) n)) 1)
        + Ideal.div (∑ r : Fin 8, A3 m c 0 (ix2 (⟨8 + r.val, by have := r.isLt; omega⟩ : Fin 32) n))
          (max (∑ r : Fin 8, A3 m c 0 (ix2 (⟨24 + r.val, by have := r.isLt; omega⟩ : Fin 32) n)) 1)) :
    Vh m c (sR m c) (rV main_v13) = Rf.refS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  have hfun : ∀ e : Fin 6400000,
      (fun k : Fin 3 => if k.val = 0 then A1 m c 1 (ix1 e) else if k.val = 1 then A1 m c 2 (ix1 e) else A1 m c 3 (ix1 e))
        = fun k => Ga.specD (F := Ideal) k (eiOf m c) (vtOf m c) (ix1 e) := fun e => funext fun k => by
    match k with
    | ⟨0, _⟩ => show A1 m c 1 (ix1 e) = _; rw [A1_1]; rfl
    | ⟨1, _⟩ => show A1 m c 2 (ix1 e) = _; rw [A1_2]; rfl
    | ⟨2, _⟩ => show A1 m c 3 (ix1 e) = _; rw [A1_3]; rfl
  refine Rf.kernel_value_eq_refS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) hok
    (eiOf m c) (fun e => ?_) (fun e => ?_) (rfOf m c) (fun e k => ?_) (vtOf m c) (fun n k => ?_)
    (tfR m c) (tbR m c) (fun e => ?_) (fun e => ?_) (Vf m c (rV main_v11)) (fun w n => ?_) (sR m c) (fun n => ?_)
    (Vh m c (sR m c) (rV main_v13)) (fun n z => ?_)
  · rw [eiOf_eq]; exact Rf.flat_ei_row0 _ _ e
  · rw [eiOf_eq]; exact Rf.flat_ei_row1 _ _ e
  · rw [rfOf_eq]; exact Rf.flat_rij _ _ e k
  · rw [vtOf_eq]; exact Rf.flat_vt _ _ _ n k
  · rw [Htf e, hfun e, A1_0]
  · rw [Htb e, hfun e, A1_0]
  · rw [Vf_v11]; exact Rf.rows_of_flat _ _ w n
  · exact Hs n
  · rw [Vh_v13]; exact Rf.col_of_row _ _ n z

/-- THE KERNEL'S RESULT IS THE SPECIFICATION of the launched arguments, when these are real with index words below
    100000: the network region's outputs by their per-edge closed form, the combination region's by its per-node one. -/
theorem kernel_result_eq
    (hok : Rf.InputsOK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) :
    Vh m c (sR m c) (rV main_v13) = Rf.refS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  kernel_result_eq_of m c hok
    (fun e => Tc.tf_edge_kT c (A1 m c) ((K (F := Ideal)).Otc c 1) (Bn (F := Ideal) c 1) _ _ _ _ _ _
      (A1_h4 m c) (A1_h5 m c) (A1_h6 m c) (A1_h7 m c) (A1_h8 m c) (A1_h9 m c) e)
    (fun e => Tc.tb_edge_kT c (A1 m c) ((K (F := Ideal)).Otc c 1) (Bn (F := Ideal) c 1) _ _ _ _ _ _
      (A1_h4 m c) (A1_h5 m c) (A1_h6 m c) (A1_h7 m c) (A1_h8 m c) (A1_h9 m c) e)
    (fun n => Tc.s_node c (A3 m c) ((K (F := Ideal)).Otc c 2) (Bn (F := Ideal) c 2) n)

end Cert.Proof.KI

end
-- ==== Proof.Claims.lean ====
/-
  The reference's frame and the algebraic conjunct: the idealized kernel's run ends with its result array at the reference's per-node formula of the arguments, and so does the reference's run from a memory agreeing on them.
-/
import proofs.«204254_g40355512713743_retrytranche2_1723_12_alg».proof.Proof.Common
import proofs.«204254_g40355512713743_retrytranche2_1723_12_alg».proof.Proof.FramesKI
import proofs.«204254_g40355512713743_retrytranche2_1723_12_alg».proof.Proof.ValueGlue
import proofs.«204254_g40355512713743_retrytranche2_1723_12_alg».proof.Proof.RefSpec
import proofs.«204254_g40355512713743_retrytranche2_1723_12_alg».proof.Proof.Gen.ReferenceIdeal.Run

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

open Idealize.ShloMosaic.TcCoe

/-- `Cert.frame_ReferenceIdeal`: the reference's generated run, its result dropped. -/
theorem frame_ri : Cert.frame_ReferenceIdeal (hReferenceIdeal := Cert.ReferenceIdeal.Gen.facts) (hPre_input_domain := Cert.Pre_input_domain.Gen.facts) := fun m ρ _ =>
  (θ_run Cert.ReferenceIdeal.defs _ _).mono (fun _ h c => (h c).2) (Cert.ReferenceIdeal.Value.run (F := Ideal) m ρ)

/-- `Cert.algebraic_KernelIdeal_ReferenceIdeal`: both runs end with the result at the reference's per-node formula of the (agreeing) arguments. -/
theorem algebraic (hr : Ga.TileR Ideal) : Cert.algebraic_KernelIdeal_ReferenceIdeal (hKernelIdeal := Cert.KernelIdeal.Gen.facts) (hReferenceIdeal := Cert.ReferenceIdeal.Gen.facts)
    (hPre_input_domain := Cert.Pre_input_domain.Gen.facts) := by
  intro m ρ m' ρ' hpre hagree
  refine ⟨fun c => Vh m c (sR m c) (rV main_v13), ?_, ?_⟩
  · exact (θ_run Cert.KernelIdeal.defs _ _).mono (fun r h c => ⟨h c (rV main_v13) (mem_uc main_v13 rfl), frame_of_run m r h c⟩)
      (run_main (F := Ideal) m ρ hr Tc.k3Local_ideal (preOK_of_idx m fun d => (Rf.pre_kernelIdeal m hpre d).idx))
  · refine (θ_run Cert.ReferenceIdeal.defs _ _).mono (fun r h c => ⟨(h c).1.trans ?_, (h c).2⟩) (Cert.ReferenceIdeal.Value.run (F := Ideal) m' ρ')
    have hok := Rf.pre_kernelIdeal m hpre c
    obtain ⟨e0, e1, e2, e3, e4, e5, e6, e7, e8⟩ := hagree c
    rw [Rf.res_eq m' c (by rw [e0]; exact hok.idx), e0, e1, e2, e3, e4, e5, e6, e7, e8]
    exact (kernel_result_eq m c hok).symm

end Cert.Proof.KI

end
-- ==== Proof.lean ====
/-
  The claim of this certificate: the SparseCore / TensorCore kernel for the mean-aggregated edge teacher — per edge (i, j) the
  displacement's norm r and the velocity difference v_i − v_j go through a three-layer perceptron with SiLU, once as (r, v_i − v_j) and
  once as (r, −(v_i − v_j)); each node receives the mean of the forward outputs of the edges leaving it plus the mean of the backward
  outputs of the edges entering it — against its jnp reference, at the extended reals.

  The kernel is four calls: a SparseCore gather (thirty-two vector subcores: r² = x·x + y·y + z·z per edge and the three components of
  v_i − v_j, the node table a column at a time), a TensorCore pipeline (the perceptron per block of 10240 edges, forward as a + b and
  backward as a − b with a the bias-and-norm part and b the velocity part of the first layer), a SparseCore scatter-add (each subcore folds
  800000 edges of one of four kinds — forward values by source, backward values by target, ones by source, ones by target — into its own
  100000-entry accumulator), and a TensorCore pipeline that adds the eight accumulators of each kind and forms
  Σf / max(Σ1, 1) + Σb / max(Σ1', 1) per node.

  Frames: every weakly fair execution of the device's threads (the TensorCore's @main, two sequencers, thirty-two vector subcores)
  terminates without fault with the arguments unchanged — the SparseCore launch theorem applied to the two tile tasks, with @main's
  proof entering each pipeline through the segment library's region rule and running the host reshapes over the held set of @main's
  arrays. The same text serves the word-level program (frames only; the combine's result window forgotten, since a lane sum over a
  clipped block is an opaque function of the whole block at the bit level) and the idealized one (exact, the sums being column-local
  at the extended reals).

  Algebraic: at the extended reals the folds are sums (addition is commutative and associative on the extended reals), the eight
  chunks of each kind partition the edges, the per-edge forward / backward first layers agree with the reference's affine forms on
  real inputs (−(a + b) = −a + −b needs finiteness), and max(c, 1) = max(1, c).
-/
import proofs.«204254_g40355512713743_retrytranche2_1723_12_alg».proof.Defs
import proofs.«204254_g40355512713743_retrytranche2_1723_12_alg».proof.Proof.Gen.Kernel
import proofs.«204254_g40355512713743_retrytranche2_1723_12_alg».proof.Proof.Gen.KernelIdeal
import proofs.«204254_g40355512713743_retrytranche2_1723_12_alg».proof.Proof.Gen.ReferenceIdeal
import proofs.«204254_g40355512713743_retrytranche2_1723_12_alg».proof.Proof.Gen.Pre_input_domain
import proofs.«204254_g40355512713743_retrytranche2_1723_12_alg».proof.Proof.Gen.ReferenceIdeal.Run
import proofs.«204254_g40355512713743_retrytranche2_1723_12_alg».proof.Proof.Gen.ReferenceIdeal.Read
import proofs.«204254_g40355512713743_retrytranche2_1723_12_alg».proof.Proof.GatherTileR
import proofs.«204254_g40355512713743_retrytranche2_1723_12_alg».proof.Proof.GatherTileRW
import proofs.«204254_g40355512713743_retrytranche2_1723_12_alg».proof.Proof.FramesKW
import proofs.«204254_g40355512713743_retrytranche2_1723_12_alg».proof.Proof.Claims

noncomputable section

namespace Cert.Proof

theorem claim : Cert.Claim :=
  ⟨Cert.Kernel.Gen.facts, Cert.KernelIdeal.Gen.facts, Cert.ReferenceIdeal.Gen.facts, Cert.Pre_input_domain.Gen.facts,
    Cert.Proof.KW.frame_p Cert.Proof.KW.Ga.tileR_holds, Cert.Proof.KI.frame_pi Cert.Proof.KI.Ga.tileR_holds, Cert.Proof.KI.frame_ri, trivial,
    Cert.Proof.KI.algebraic Cert.Proof.KI.Ga.tileR_holds⟩

end Cert.Proof

end
